-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000x128 : Shape := ⟨2, ![1000, 128]⟩
abbrev S4096x50 : Shape := ⟨2, ![4096, 50]⟩
abbrev S4096x1000 : Shape := ⟨2, ![4096, 1000]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : FVec F S1000x128 .f32) (main_arg1 : IVec S4096x50 32) (main_arg2 : FVec F S4096x1000 .f32) : IVec S_ 1 :=
  let main_v0 : FVec F S1000x128 .f32 := Host.absf main_arg0
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S4096x1000 .f32 := Host.absf main_arg2
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_c_2 : IVec S_ 32 := constantI S_ 32 0#32
  let main_v9 : IVec S4096x50 32 := broadcastInDim S4096x50 ![] bcast_S_S4096x50 main_c_2
  let main_v10 : IVec S4096x50 1 := cmpi .sge main_arg1 main_v9
  let main_c_3 : IVec S_ 32 := constantI S_ 32 999#32
  let main_v11 : IVec S4096x50 32 := broadcastInDim S4096x50 ![] bcast_S_S4096x50 main_c_3
  let main_v12 : IVec S4096x50 1 := cmpi .sle main_arg1 main_v11
  let main_v13 : IVec S4096x50 1 := andi main_v10 main_v12
  let main_c_4 : IVec S_ 1 := constantI S_ 1 1#1
  let main_v14 : IVec S_ 1 := (fun x v => Host.reduce IntOp.andi x v reducesTo_S4096x50_S_d0_1 h_S_) main_v13 main_c_4
  let main_v15 : IVec S_ 1 := andi main_v8 main_v14
  main_v15
-- ==== Kernel.lean ====
abbrev S1000x128 : Shape := ⟨2, ![1000, 128]⟩
abbrev S4096x50 : Shape := ⟨2, ![4096, 50]⟩
abbrev S4096x1000 : Shape := ⟨2, ![4096, 1000]⟩
abbrev S32x50x128 : Shape := ⟨3, ![32, 50, 128]⟩
abbrev S4096000 : Shape := ⟨1, ![4096000]⟩
abbrev S204800x128 : Shape := ⟨2, ![204800, 128]⟩
abbrev S50x128 : Shape := ⟨2, ![50, 128]⟩
abbrev S2x128 : Shape := ⟨2, ![2, 128]⟩
abbrev S128 : Shape := ⟨1, ![128]⟩
abbrev S2x128x128 : Shape := ⟨3, ![2, 128, 128]⟩
abbrev S_ : Shape := ⟨0, ![]⟩
abbrev S1x50x128 : Shape := ⟨3, ![1, 50, 128]⟩
abbrev S1x64x128 : Shape := ⟨3, ![1, 64, 128]⟩
abbrev S64x128 : Shape := ⟨2, ![64, 128]⟩
abbrev S1x40x128 : Shape := ⟨3, ![1, 40, 128]⟩
abbrev S40x128 : Shape := ⟨2, ![40, 128]⟩
abbrev S1x128x128 : Shape := ⟨3, ![1, 128, 128]⟩
abbrev S128x128 : Shape := ⟨2, ![128, 128]⟩
abbrev S1x128 : Shape := ⟨2, ![1, 128]⟩
abbrev S16 : Shape := ⟨1, ![16]⟩
abbrev S1x16 : Shape := ⟨2, ![1, 16]⟩
abbrev S1 : Shape := ⟨1, ![1]⟩
abbrev S1x1x16 : Shape := ⟨3, ![1, 1, 16]⟩
abbrev S4096x50x128 : Shape := ⟨3, ![4096, 50, 128]⟩

abbrev nBuf : Table → Nat
  | .hbm => 7
  | .shared => 1
  | .local .scVector .vmem => 5
  | _ => 0

abbrev bufTy : (tb : Table) → Fin (nBuf tb) → BufTy
  | .hbm, ⟨0, _⟩ => ⟨S1000x128, .f32⟩
  | .hbm, ⟨1, _⟩ => ⟨S4096x50, .i32⟩
  | .hbm, ⟨2, _⟩ => ⟨S4096x1000, .f32⟩
  | .hbm, ⟨3, _⟩ => ⟨S32x50x128, .i32⟩
  | .hbm, ⟨4, _⟩ => ⟨S4096000, .f32⟩
  | .hbm, ⟨5, _⟩ => ⟨S204800x128, .f32⟩
  | .hbm, ⟨6, _⟩ => ⟨S4096x50x128, .f32⟩
  | .shared, ⟨0, _⟩ => ⟨S1000x128, .f32⟩
  | .local .scVector .vmem, ⟨0, _⟩ => ⟨S50x128, .i32⟩
  | .local .scVector .vmem, ⟨1, _⟩ => ⟨S2x128, .i32⟩
  | .local .scVector .vmem, ⟨2, _⟩ => ⟨S2x128, .f32⟩
  | .local .scVector .vmem, ⟨3, _⟩ => ⟨S128, .f32⟩
  | .local .scVector .vmem, ⟨4, _⟩ => ⟨S2x128x128, .f32⟩
  | _, _ => ⟨S1000x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67_r0 : BitVec 32 := 0#32
  let c0_i32_68_r0 : BitVec 32 := 0#32
  ![v1.toNat, 0, 0]
def k0_cond1 (i : grid0.Coords) : BitVec 1 :=
  let arg1 : BitVec 32 := BitVec.ofNat 32 (i 1).val
  let c15_i32 : BitVec 32 := 15#32
  let v3 : BitVec 1 := Scalar.cmpi .slt arg1 c15_i32
  let v4 : BitVec 32 := Scalar.extui v3
  let c0_i32 : BitVec 32 := 0#32
  let v5 : BitVec 1 := Scalar.cmpi .ne v4 c0_i32
  v5

def k0_off2 (i : grid0.Coords) : Fin 2 → Nat :=
  let arg1 : BitVec 32 := BitVec.ofNat 32 (i 1).val
  let c64_i32_67 : BitVec 32 := 64#32
  let v155 : BitVec 32 := Scalar.muli arg1 c64_i32_67
  let c0_i32_73_r1 : BitVec 32 := 0#32
  ![v155.toNat, 0]
@[reducible] def k0_t1_loop : Scf.Loop 32 :=
  let c0_i32_56 : BitVec 32 := 0#32
  let c25_i32 : BitVec 32 := 25#32
  let v148 : BitVec 32 := Scalar.addi c0_i32_56 c25_i32
  let c1_i32 : BitVec 32 := 1#32
  ⟨c0_i32_56, v148, c1_i32⟩
def k0_cond4 (k0_t1 : Fin k0_t1_loop.trips) : BitVec 1 :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_71 : BitVec 32 := 1#32
  let v160 : BitVec 32 := Scalar.addi v156 c1_i32_71
  let c50_i32_72 : BitVec 32 := 50#32
  let v161 : BitVec 1 := Scalar.cmpi .slt v160 c50_i32_72
  let v162 : BitVec 32 := Scalar.extui v161
  let c0_i32_73 : BitVec 32 := 0#32
  let v163 : BitVec 1 := Scalar.cmpi .ne v162 c0_i32_73
  v163

def k0_off3 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let c0_i32_226 : BitVec 32 := 0#32
  ![v387.toNat, 0]
def k0_off4 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v403 : Index := Scalar.indexCast v387
  let c0_233 : Index := 0#32
  ![v403.toNat, 0]
def k0_off5 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v419 : Index := Scalar.indexCast v387
  let c16_239 : Index := 16#32
  ![v419.toNat, 16]
def k0_off6 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v435 : Index := Scalar.indexCast v387
  let c32_245 : Index := 32#32
  ![v435.toNat, 32]
def k0_off7 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v451 : Index := Scalar.indexCast v387
  let c48_251 : Index := 48#32
  ![v451.toNat, 48]
def k0_off8 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v467 : Index := Scalar.indexCast v387
  let c64_257 : Index := 64#32
  ![v467.toNat, 64]
def k0_off9 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v483 : Index := Scalar.indexCast v387
  let c80_263 : Index := 80#32
  ![v483.toNat, 80]
def k0_off10 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v499 : Index := Scalar.indexCast v387
  let c96_269 : Index := 96#32
  ![v499.toNat, 96]
def k0_off11 (k0_t1 : Fin k0_t1_loop.trips) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let c0_i32_68 : BitVec 32 := 0#32
  let v156 : BitVec 32 := Scalar.addi v155 c0_i32_68
  let c1_i32_222 : BitVec 32 := 1#32
  let v387 : BitVec 32 := Scalar.addi v156 c1_i32_222
  let v515 : Index := Scalar.indexCast v387
  let c112_275 : Index := 112#32
  ![v515.toNat, 112]
def k0_off12 (k0_t1 : Fin k0_t1_loop.trips) (c0_i32_68 : BitVec 32) : Fin 2 → Nat :=
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let v156 : BitVec 32 := Scalar.addi v155 c0_i32_68
  let c0_i32_129 : BitVec 32 := 0#32
  ![v156.toNat, 0]
@[reducible] def k0_t2_loop : Scf.Loop 32 :=
  let c0_i32_133 : BitVec 32 := 0#32
  let c8_i32 : BitVec 32 := 8#32
  let v262 : BitVec 32 := Scalar.addi c0_i32_133 c8_i32
  let c1_i32_134 : BitVec 32 := 1#32
  ⟨c0_i32_133, v262, c1_i32_134⟩
def k0_off13 (k0_t2 : Fin k0_t2_loop.trips) : Fin 1 → Nat :=
  let c0_i32_133 : BitVec 32 := 0#32
  let c1_i32_134 : BitVec 32 := 1#32
  let arg19 : BitVec 32 := Scf.iv c0_i32_133 c1_i32_134 k0_t2
  let c16_i32_222 : BitVec 32 := 16#32
  let v387 : BitVec 32 := Scalar.muli arg19 c16_i32_222
  let v388 : Index := Scalar.indexCast v387
  ![v388.toNat]
def k0_off14 (k0_t2 : Fin k0_t2_loop.trips) (c0_i32_224 : BitVec 32) : Fin 3 → Nat :=
  let c0_i32_225 : BitVec 32 := 0#32
  let v395 : Index := Scalar.indexCast c0_i32_225
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v396 : Index := Scalar.indexCast v392
  let c0_226 : Index := 0#32
  ![0, v396.toNat, 0]
def k0_off15 (k0_t2 : Fin k0_t2_loop.trips) (c0_i32_224 : BitVec 32) : Fin 3 → Nat :=
  let c0_i32_229 : BitVec 32 := 0#32
  let v406 : Index := Scalar.indexCast c0_i32_229
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v407 : Index := Scalar.indexCast v392
  let c16_230 : Index := 16#32
  ![0, v407.toNat, 16]
def k0_off16 (k0_t2 : Fin k0_t2_loop.trips) (c0_i32_224 : BitVec 32) : Fin 3 → Nat :=
  let c0_i32_233 : BitVec 32 := 0#32
  let v417 : Index := Scalar.indexCast c0_i32_233
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v418 : Index := Scalar.indexCast v392
  let c32_234 : Index := 32#32
  ![0, v418.toNat, 32]
def k0_off17 (k0_t2 : Fin k0_t2_loop.trips) (c0_i32_224 : BitVec 32) : Fin 3 → Nat :=
  let c0_i32_237 : BitVec 32 := 0#32
  let v428 : Index := Scalar.indexCast c0_i32_237
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v429 : Index := Scalar.indexCast v392
  let c48_238 : Index := 48#32
  ![0, v429.toNat, 48]
def k0_off18 (k0_t2 : Fin k0_t2_loop.trips) (c0_i32_224 : BitVec 32) : Fin 3 → Nat :=
  let c0_i32_241 : BitVec 32 := 0#32
  let v439 : Index := Scalar.indexCast c0_i32_241
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v440 : Index := Scalar.indexCast v392
  let c64_242 : Index := 64#32
  ![0, v440.toNat, 64]
def k0_off19 (k0_t2 : Fin k0_t2_loop.trips) (c0_i32_224 : BitVec 32) : Fin 3 → Nat :=
  let c0_i32_245 : BitVec 32 := 0#32
  let v450 : Index := Scalar.indexCast c0_i32_245
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v451 : Index := Scalar.indexCast v392
  let c80_246 : Index := 80#32
  ![0, v451.toNat, 80]
def k0_off20 (k0_t2 : Fin k0_t2_loop.trips) (c0_i32_224 : BitVec 32) : Fin 3 → Nat :=
  let c0_i32_249 : BitVec 32 := 0#32
  let v461 : Index := Scalar.indexCast c0_i32_249
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v462 : Index := Scalar.indexCast v392
  let c96_250 : Index := 96#32
  ![0, v462.toNat, 96]
def k0_off21 (k0_t2 : Fin k0_t2_loop.trips) (c0_i32_224 : BitVec 32) : Fin 3 → Nat :=
  let c0_i32_253 : BitVec 32 := 0#32
  let v472 : Index := Scalar.indexCast c0_i32_253
  let c0_i32_133 : BitVec 32 := 0#32
  let c1_i32_134 : BitVec 32 := 1#32
  let arg19 : BitVec 32 := Scf.iv c0_i32_133 c1_i32_134 k0_t2
  let c16_i32_223 : BitVec 32 := 16#32
  let v391 : BitVec 32 := Scalar.muli arg19 c16_i32_223
  let v392 : BitVec 32 := Scalar.addi v391 c0_i32_224
  let v473 : Index := Scalar.indexCast v392
  let c112_254 : Index := 112#32
  ![0, v473.toNat, 112]
def k0_off22 (i : grid0.Coords) (k0_t1 : Fin k0_t1_loop.trips) (c0_i32_68 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c2_i32_67 : BitVec 32 := 2#32
  let c0_i32_56 : BitVec 32 := 0#32
  let c1_i32 : BitVec 32 := 1#32
  let arg18 : BitVec 32 := Scf.iv c0_i32_56 c1_i32 k0_t1
  let v155 : BitVec 32 := Scalar.muli c2_i32_67 arg18
  let v156 : BitVec 32 := Scalar.addi v155 c0_i32_68
  let c128_i32 : BitVec 32 := 128#32
  let v263 : BitVec 32 := Scalar.muli v156 c128_i32
  let v264 : BitVec 32 := Scalar.addi v2 v263
  let c0_i32_139 : BitVec 32 := 0#32
  ![v264.toNat, 0]
def k0_cond6 (k0_t1 : Fin k0_t1_loop.trips) : BitVec 1 :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_147 : BitVec 32 := 1#32
  let v276 : BitVec 32 := Scalar.addi v272 c1_i32_147
  let c50_i32_148 : BitVec 32 := 50#32
  let v277 : BitVec 1 := Scalar.cmpi .slt v276 c50_i32_148
  let v278 : BitVec 32 := Scalar.extui v277
  let c0_i32_149 : BitVec 32 := 0#32
  let v279 : BitVec 1 := Scalar.cmpi .ne v278 c0_i32_149
  v279

def k0_off23 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let c0_i32_226 : BitVec 32 := 0#32
  ![v387.toNat, 0]
def k0_off24 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v403 : Index := Scalar.indexCast v387
  let c0_233 : Index := 0#32
  ![v403.toNat, 0]
def k0_off25 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v419 : Index := Scalar.indexCast v387
  let c16_239 : Index := 16#32
  ![v419.toNat, 16]
def k0_off26 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v435 : Index := Scalar.indexCast v387
  let c32_245 : Index := 32#32
  ![v435.toNat, 32]
def k0_off27 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v451 : Index := Scalar.indexCast v387
  let c48_251 : Index := 48#32
  ![v451.toNat, 48]
def k0_off28 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v467 : Index := Scalar.indexCast v387
  let c64_257 : Index := 64#32
  ![v467.toNat, 64]
def k0_off29 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v483 : Index := Scalar.indexCast v387
  let c80_263 : Index := 80#32
  ![v483.toNat, 80]
def k0_off30 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v499 : Index := Scalar.indexCast v387
  let c96_269 : Index := 96#32
  ![v499.toNat, 96]
def k0_off31 (k0_t1 : Fin k0_t1_loop.trips) : Fin 2 → Nat :=
  let c2_i32_143 : BitVec 32 := 2#32
  let c0_i32_56 : BitVec 32 := 0#32
  let c1_i32 : BitVec 32 := 1#32
  let arg18 : BitVec 32 := Scf.iv c0_i32_56 c1_i32 k0_t1
  let v271 : BitVec 32 := Scalar.muli c2_i32_143 arg18
  let c1_i32_144 : BitVec 32 := 1#32
  let v272 : BitVec 32 := Scalar.addi v271 c1_i32_144
  let c1_i32_222 : BitVec 32 := 1#32
  let v387 : BitVec 32 := Scalar.addi v272 c1_i32_222
  let v515 : Index := Scalar.indexCast v387
  let c112_275 : Index := 112#32
  ![v515.toNat, 112]
@[reducible] def k0_t3_loop : Scf.Loop 32 :=
  let c0_i32_210 : BitVec 32 := 0#32
  let c8_i32_211 : BitVec 32 := 8#32
  let v378 : BitVec 32 := Scalar.addi c0_i32_210 c8_i32_211
  let c1_i32_212 : BitVec 32 := 1#32
  ⟨c0_i32_210, v378, c1_i32_212⟩
def k0_off32 (k0_t3 : Fin k0_t3_loop.trips) : Fin 1 → Nat :=
  let c0_i32_210 : BitVec 32 := 0#32
  let c1_i32_212 : BitVec 32 := 1#32
  let arg19 : BitVec 32 := Scf.iv c0_i32_210 c1_i32_212 k0_t3
  let c16_i32_222 : BitVec 32 := 16#32
  let v387 : BitVec 32 := Scalar.muli arg19 c16_i32_222
  let v388 : Index := Scalar.indexCast v387
  ![v388.toNat]
def k0_off33 (k0_t3 : Fin k0_t3_loop.trips) (c0_i32_224 : BitVec 32) : Fin 3 → Nat :=
  let c1_i32_225 : BitVec 32 := 1#32
  let v395 : Index := Scalar.indexCast c1_i32_225
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v396 : Index := Scalar.indexCast v392
  let c0_226 : Index := 0#32
  ![1, v396.toNat, 0]
def k0_off34 (k0_t3 : Fin k0_t3_loop.trips) (c0_i32_224 : BitVec 32) : Fin 3 → Nat :=
  let c1_i32_229 : BitVec 32 := 1#32
  let v406 : Index := Scalar.indexCast c1_i32_229
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v407 : Index := Scalar.indexCast v392
  let c16_230 : Index := 16#32
  ![1, v407.toNat, 16]
def k0_off35 (k0_t3 : Fin k0_t3_loop.trips) (c0_i32_224 : BitVec 32) : Fin 3 → Nat :=
  let c1_i32_233 : BitVec 32 := 1#32
  let v417 : Index := Scalar.indexCast c1_i32_233
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v418 : Index := Scalar.indexCast v392
  let c32_234 : Index := 32#32
  ![1, v418.toNat, 32]
def k0_off36 (k0_t3 : Fin k0_t3_loop.trips) (c0_i32_224 : BitVec 32) : Fin 3 → Nat :=
  let c1_i32_237 : BitVec 32 := 1#32
  let v428 : Index := Scalar.indexCast c1_i32_237
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v429 : Index := Scalar.indexCast v392
  let c48_238 : Index := 48#32
  ![1, v429.toNat, 48]
def k0_off37 (k0_t3 : Fin k0_t3_loop.trips) (c0_i32_224 : BitVec 32) : Fin 3 → Nat :=
  let c1_i32_241 : BitVec 32 := 1#32
  let v439 : Index := Scalar.indexCast c1_i32_241
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v440 : Index := Scalar.indexCast v392
  let c64_242 : Index := 64#32
  ![1, v440.toNat, 64]
def k0_off38 (k0_t3 : Fin k0_t3_loop.trips) (c0_i32_224 : BitVec 32) : Fin 3 → Nat :=
  let c1_i32_245 : BitVec 32 := 1#32
  let v450 : Index := Scalar.indexCast c1_i32_245
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v451 : Index := Scalar.indexCast v392
  let c80_246 : Index := 80#32
  ![1, v451.toNat, 80]
def k0_off39 (k0_t3 : Fin k0_t3_loop.trips) (c0_i32_224 : BitVec 32) : Fin 3 → Nat :=
  let c1_i32_249 : BitVec 32 := 1#32
  let v461 : Index := Scalar.indexCast c1_i32_249
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v462 : Index := Scalar.indexCast v392
  let c96_250 : Index := 96#32
  ![1, v462.toNat, 96]
def k0_off40 (k0_t3 : Fin k0_t3_loop.trips) (c0_i32_224 : BitVec 32) : Fin 3 → Nat :=
  let c1_i32_253 : BitVec 32 := 1#32
  let v472 : Index := Scalar.indexCast c1_i32_253
  let c0_i32_210 : BitVec 32 := 0#32
  let c1_i32_212 : BitVec 32 := 1#32
  let arg19 : BitVec 32 := Scf.iv c0_i32_210 c1_i32_212 k0_t3
  let c16_i32_223 : BitVec 32 := 16#32
  let v391 : BitVec 32 := Scalar.muli arg19 c16_i32_223
  let v392 : BitVec 32 := Scalar.addi v391 c0_i32_224
  let v473 : Index := Scalar.indexCast v392
  let c112_254 : Index := 112#32
  ![1, v473.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S32x50x128 : S4096x50.ShapeCasts S32x50x128
  shapeCasts_S4096x1000_S4096000 : S4096x1000.ShapeCasts S4096000
  squeezes_S1x50x128_S50x128 : S1x50x128.Squeezes S50x128
  inb_S2x128x128_S1x64x128_0_0_0 : ∀ a, (![0, 0, 0] : Fin 3 → Nat) a + S1x64x128.size a ≤ S2x128x128.size a
  squeezes_S1x64x128_S64x128 : S1x64x128.Squeezes S64x128
  inb_S2x128x128_S1x40x128_0_0_0 : ∀ a, (![0, 0, 0] : Fin 3 → Nat) a + S1x40x128.size a ≤ S2x128x128.size a
  squeezes_S1x40x128_S40x128 : S1x40x128.Squeezes S40x128
  inb_S1000x128_S40x128_960_0 : ∀ a, (![960, 0] : Fin 2 → Nat) a + S40x128.size a ≤ S1000x128.size a
  inb_S2x128x128_S1x128x128_0_0_0 : ∀ a, (![0, 0, 0] : Fin 3 → Nat) a + S1x128x128.size a ≤ S2x128x128.size a
  squeezes_S1x128x128_S128x128 : S1x128x128.Squeezes S128x128
  inb_S50x128_S1x128_0_0 : ∀ a, (![0, 0] : Fin 2 → Nat) a + S1x128.size a ≤ S50x128.size a
  squeezes_S1x128_S128 : S1x128.Squeezes S128
  inb_S1000x128_S1000x128_0_0 : ∀ a, (![0, 0] : Fin 2 → Nat) a + S1000x128.size a ≤ S1000x128.size a
  gathers_S1000x128_S128x128 : S1000x128.Gathers 0 S128x128
  iota_S16_d0_w32_scVector : S16.Iotas .scVector 32 [0]
  inb_S50x128_S1x16_0_0 : ∀ a, (![0, 0] : Fin 2 → Nat) a + S1x16.size a ≤ S50x128.size a
  h_S1x16 : 0 < S1x16.numel
  shapeCasts_S1x16_S16 : S1x16.ShapeCasts S16
  inb_S2x128_S1x16_0_0 : ∀ a, (![0, 0] : Fin 2 → Nat) a + S1x16.size a ≤ S2x128.size a
  shapeCasts_S16_S1x16 : S16.ShapeCasts S1x16
  inb_S50x128_S1x16_0_16 : ∀ a, (![0, 16] : Fin 2 → Nat) a + S1x16.size a ≤ S50x128.size a
  inb_S2x128_S1x16_0_16 : ∀ a, (![0, 16] : Fin 2 → Nat) a + S1x16.size a ≤ S2x128.size a
  inb_S50x128_S1x16_0_32 : ∀ a, (![0, 32] : Fin 2 → Nat) a + S1x16.size a ≤ S50x128.size a
  inb_S2x128_S1x16_0_32 : ∀ a, (![0, 32] : Fin 2 → Nat) a + S1x16.size a ≤ S2x128.size a
  inb_S50x128_S1x16_0_48 : ∀ a, (![0, 48] : Fin 2 → Nat) a + S1x16.size a ≤ S50x128.size a
  inb_S2x128_S1x16_0_48 : ∀ a, (![0, 48] : Fin 2 → Nat) a + S1x16.size a ≤ S2x128.size a
  inb_S50x128_S1x16_0_64 : ∀ a, (![0, 64] : Fin 2 → Nat) a + S1x16.size a ≤ S50x128.size a
  inb_S2x128_S1x16_0_64 : ∀ a, (![0, 64] : Fin 2 → Nat) a + S1x16.size a ≤ S2x128.size a
  inb_S50x128_S1x16_0_80 : ∀ a, (![0, 80] : Fin 2 → Nat) a + S1x16.size a ≤ S50x128.size a
  inb_S2x128_S1x16_0_80 : ∀ a, (![0, 80] : Fin 2 → Nat) a + S1x16.size a ≤ S2x128.size a
  inb_S50x128_S1x16_0_96 : ∀ a, (![0, 96] : Fin 2 → Nat) a + S1x16.size a ≤ S50x128.size a
  inb_S2x128_S1x16_0_96 : ∀ a, (![0, 96] : Fin 2 → Nat) a + S1x16.size a ≤ S2x128.size a
  inb_S50x128_S1x16_0_112 : ∀ a, (![0, 112] : Fin 2 → Nat) a + S1x16.size a ≤ S50x128.size a
  inb_S2x128_S1x16_0_112 : ∀ a, (![0, 112] : Fin 2 → Nat) a + S1x16.size a ≤ S2x128.size a
  inb_S2x128_S1x128_0_0 : ∀ a, (![0, 0] : Fin 2 → Nat) a + S1x128.size a ≤ S2x128.size a
  inb_S4096000_S4096000_0 : ∀ a, (![0] : Fin 1 → Nat) a + S4096000.size a ≤ S4096000.size a
  gathers_S4096000_S128 : S4096000.Gathers 0 S128
  inb_S2x128x128_S1x128x128_1_0_0 : ∀ a, (![1, 0, 0] : Fin 3 → Nat) a + S1x128x128.size a ≤ S2x128x128.size a
  inb_S204800x128_S128x128_0_0 : ∀ a, (![0, 0] : Fin 2 → Nat) a + S128x128.size a ≤ S204800x128.size a
  inb_S2x128_S1x16_1_0 : ∀ a, (![1, 0] : Fin 2 → Nat) a + S1x16.size a ≤ S2x128.size a
  inb_S2x128_S1x16_1_16 : ∀ a, (![1, 16] : Fin 2 → Nat) a + S1x16.size a ≤ S2x128.size a
  inb_S2x128_S1x16_1_32 : ∀ a, (![1, 32] : Fin 2 → Nat) a + S1x16.size a ≤ S2x128.size a
  inb_S2x128_S1x16_1_48 : ∀ a, (![1, 48] : Fin 2 → Nat) a + S1x16.size a ≤ S2x128.size a
  inb_S2x128_S1x16_1_64 : ∀ a, (![1, 64] : Fin 2 → Nat) a + S1x16.size a ≤ S2x128.size a
  inb_S2x128_S1x16_1_80 : ∀ a, (![1, 80] : Fin 2 → Nat) a + S1x16.size a ≤ S2x128.size a
  inb_S2x128_S1x16_1_96 : ∀ a, (![1, 96] : Fin 2 → Nat) a + S1x16.size a ≤ S2x128.size a
  inb_S2x128_S1x16_1_112 : ∀ a, (![1, 112] : Fin 2 → Nat) a + S1x16.size a ≤ S2x128.size a
  inb_S2x128_S1x128_1_0 : ∀ a, (![1, 0] : Fin 2 → Nat) a + S1x128.size a ≤ S2x128.size a
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  slices_S16_o0_S1 : S16.Slices ![0] S1
  inpos_S1_p0 : ∀ a, (![0] : Fin 1 → Nat) a < S1.size a
  h_S1x1x16 : 0 < S1x1x16.numel
  shapeCasts_S1x1x16_S16 : S1x1x16.ShapeCasts S16
  shapeCasts_S16_S1x1x16 : S16.ShapeCasts S1x1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S204800x128_S4096x50x128 : S204800x128.ShapeCasts S4096x50x128
  hcc0_scratch6 : 0 + S_.numel ≤ 11
  hcc0_scratch7 : 1 + S_.numel ≤ 11
  hcc0_scratch8 : 2 + S_.numel ≤ 11
  hcc0_scratch9 : 3 + S_.numel ≤ 11
  hcc0_scratch10 : 4 + S_.numel ≤ 11
  hcc0_scratch11 : 5 + S_.numel ≤ 11
  hcc0_scoped0 : 6 + S_.numel ≤ 11
  hcc0_scoped1 : 7 + S_.numel ≤ 11
  hcc0_scoped2 : 8 + S_.numel ≤ 11
  hcc0_scoped3 : 9 + S_.numel ≤ 11
  hcc0_scoped4 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x50x128.size a ≤ S32x50x128.size a
  k0_off2_inb : ∀ i : grid0.Coords, ∀ (k0_h1 : k0_cond1 i = 1#1), ∀ a, (k0_off2 i) a + S64x128.size a ≤ S1000x128.size a
  k0_t1_ok : k0_t1_loop.OK
  k0_off3_inb : ∀ k0_t1 : Fin k0_t1_loop.trips, ∀ (k0_h4 : k0_cond4 k0_t1 = 1#1), ∀ a, (k0_off3 k0_t1) a + S1x128.size a ≤ S50x128.size a
  k0_off4_inb : ∀ k0_t1 : Fin k0_t1_loop.trips, ∀ (k0_h4 : k0_cond4 k0_t1 = 1#1), ∀ a, (k0_off4 k0_t1) a + S1x16.size a ≤ S50x128.size a
  k0_off5_inb : ∀ k0_t1 : Fin k0_t1_loop.trips, ∀ (k0_h4 : k0_cond4 k0_t1 = 1#1), ∀ a, (k0_off5 k0_t1) a + S1x16.size a ≤ S50x128.size a
  k0_off6_inb : ∀ k0_t1 : Fin k0_t1_loop.trips, ∀ (k0_h4 : k0_cond4 k0_t1 = 1#1), ∀ a, (k0_off6 k0_t1) a + S1x16.size a ≤ S50x128.size a
  k0_off7_inb : ∀ k0_t1 : Fin k0_t1_loop.trips, ∀ (k0_h4 : k0_cond4 k0_t1 = 1#1), ∀ a, (k0_off7 k0_t1) a + S1x16.size a ≤ S50x128.size a
  k0_off8_inb : ∀ k0_t1 : Fin k0_t1_loop.trips, ∀ (k0_h4 : k0_cond4 k0_t1 = 1#1), ∀ a, (k0_off8 k0_t1) a + S1x16.size a ≤ S50x128.size a
  k0_off9_inb : ∀ k0_t1 : Fin k0_t1_loop.trips, ∀ (k0_h4 : k0_cond4 k0_t1 = 1#1), ∀ a, (k0_off9 k0_t1) a + S1x16.size a ≤ S50x128.size a
  k0_off10_inb : ∀ k0_t1 : Fin k0_t1_loop.trips, ∀ (k0_h4 : k0_cond4 k0_t1 = 1#1), ∀ a, (k0_off10 k0_t1) a + S1x16.size a ≤ S50x128.size a
  k0_off11_inb : ∀ k0_t1 : Fin k0_t1_loop.trips, ∀ (k0_h4 : k0_cond4 k0_t1 = 1#1), ∀ a, (k0_off11 k0_t1) a + S1x16.size a ≤ S50x128.size a
  k0_off12_inb : ∀ k0_t1 : Fin k0_t1_loop.trips, ∀ (r : Fin 2), ∀ a, (k0_off12 k0_t1 (BitVec.ofNat 32 r.val)) a + S1x128.size a ≤ S50x128.size a
  k0_t2_ok : k0_t2_loop.OK
  k0_off13_inb : ∀ k0_t2 : Fin k0_t2_loop.trips, ∀ a, (k0_off13 k0_t2) a + S16.size a ≤ S128.size a
  k0_off14_inb : ∀ k0_t2 : Fin k0_t2_loop.trips, ∀ (r : Fin 16), ∀ a, (k0_off14 k0_t2 (BitVec.ofNat 32 r.val)) a + S1x1x16.size a ≤ S2x128x128.size a
  k0_off15_inb : ∀ k0_t2 : Fin k0_t2_loop.trips, ∀ (r : Fin 16), ∀ a, (k0_off15 k0_t2 (BitVec.ofNat 32 r.val)) a + S1x1x16.size a ≤ S2x128x128.size a
  k0_off16_inb : ∀ k0_t2 : Fin k0_t2_loop.trips, ∀ (r : Fin 16), ∀ a, (k0_off16 k0_t2 (BitVec.ofNat 32 r.val)) a + S1x1x16.size a ≤ S2x128x128.size a
  k0_off17_inb : ∀ k0_t2 : Fin k0_t2_loop.trips, ∀ (r : Fin 16), ∀ a, (k0_off17 k0_t2 (BitVec.ofNat 32 r.val)) a + S1x1x16.size a ≤ S2x128x128.size a
  k0_off18_inb : ∀ k0_t2 : Fin k0_t2_loop.trips, ∀ (r : Fin 16), ∀ a, (k0_off18 k0_t2 (BitVec.ofNat 32 r.val)) a + S1x1x16.size a ≤ S2x128x128.size a
  k0_off19_inb : ∀ k0_t2 : Fin k0_t2_loop.trips, ∀ (r : Fin 16), ∀ a, (k0_off19 k0_t2 (BitVec.ofNat 32 r.val)) a + S1x1x16.size a ≤ S2x128x128.size a
  k0_off20_inb : ∀ k0_t2 : Fin k0_t2_loop.trips, ∀ (r : Fin 16), ∀ a, (k0_off20 k0_t2 (BitVec.ofNat 32 r.val)) a + S1x1x16.size a ≤ S2x128x128.size a
  k0_off21_inb : ∀ k0_t2 : Fin k0_t2_loop.trips, ∀ (r : Fin 16), ∀ a, (k0_off21 k0_t2 (BitVec.ofNat 32 r.val)) a + S1x1x16.size a ≤ S2x128x128.size a
  k0_off22_inb : ∀ (i : grid0.Coords) (k0_t1 : Fin k0_t1_loop.trips), ∀ (r : Fin 2), ∀ a, (k0_off22 i k0_t1 (BitVec.ofNat 32 r.val)) a + S128x128.size a ≤ S204800x128.size a
  k0_off23_inb : ∀ k0_t1 : Fin k0_t1_loop.trips, ∀ (k0_h6 : k0_cond6 k0_t1 = 1#1), ∀ a, (k0_off23 k0_t1) a + S1x128.size a ≤ S50x128.size a
  k0_off24_inb : ∀ k0_t1 : Fin k0_t1_loop.trips, ∀ (k0_h6 : k0_cond6 k0_t1 = 1#1), ∀ a, (k0_off24 k0_t1) a + S1x16.size a ≤ S50x128.size a
  k0_off25_inb : ∀ k0_t1 : Fin k0_t1_loop.trips, ∀ (k0_h6 : k0_cond6 k0_t1 = 1#1), ∀ a, (k0_off25 k0_t1) a + S1x16.size a ≤ S50x128.size a
  k0_off26_inb : ∀ k0_t1 : Fin k0_t1_loop.trips, ∀ (k0_h6 : k0_cond6 k0_t1 = 1#1), ∀ a, (k0_off26 k0_t1) a + S1x16.size a ≤ S50x128.size a
  k0_off27_inb : ∀ k0_t1 : Fin k0_t1_loop.trips, ∀ (k0_h6 : k0_cond6 k0_t1 = 1#1), ∀ a, (k0_off27 k0_t1) a + S1x16.size a ≤ S50x128.size a
  k0_off28_inb : ∀ k0_t1 : Fin k0_t1_loop.trips, ∀ (k0_h6 : k0_cond6 k0_t1 = 1#1), ∀ a, (k0_off28 k0_t1) a + S1x16.size a ≤ S50x128.size a
  k0_off29_inb : ∀ k0_t1 : Fin k0_t1_loop.trips, ∀ (k0_h6 : k0_cond6 k0_t1 = 1#1), ∀ a, (k0_off29 k0_t1) a + S1x16.size a ≤ S50x128.size a
  k0_off30_inb : ∀ k0_t1 : Fin k0_t1_loop.trips, ∀ (k0_h6 : k0_cond6 k0_t1 = 1#1), ∀ a, (k0_off30 k0_t1) a + S1x16.size a ≤ S50x128.size a
  k0_off31_inb : ∀ k0_t1 : Fin k0_t1_loop.trips, ∀ (k0_h6 : k0_cond6 k0_t1 = 1#1), ∀ a, (k0_off31 k0_t1) a + S1x16.size a ≤ S50x128.size a
  k0_t3_ok : k0_t3_loop.OK
  k0_off32_inb : ∀ k0_t3 : Fin k0_t3_loop.trips, ∀ a, (k0_off32 k0_t3) a + S16.size a ≤ S128.size a
  k0_off33_inb : ∀ k0_t3 : Fin k0_t3_loop.trips, ∀ (r : Fin 16), ∀ a, (k0_off33 k0_t3 (BitVec.ofNat 32 r.val)) a + S1x1x16.size a ≤ S2x128x128.size a
  k0_off34_inb : ∀ k0_t3 : Fin k0_t3_loop.trips, ∀ (r : Fin 16), ∀ a, (k0_off34 k0_t3 (BitVec.ofNat 32 r.val)) a + S1x1x16.size a ≤ S2x128x128.size a
  k0_off35_inb : ∀ k0_t3 : Fin k0_t3_loop.trips, ∀ (r : Fin 16), ∀ a, (k0_off35 k0_t3 (BitVec.ofNat 32 r.val)) a + S1x1x16.size a ≤ S2x128x128.size a
  k0_off36_inb : ∀ k0_t3 : Fin k0_t3_loop.trips, ∀ (r : Fin 16), ∀ a, (k0_off36 k0_t3 (BitVec.ofNat 32 r.val)) a + S1x1x16.size a ≤ S2x128x128.size a
  k0_off37_inb : ∀ k0_t3 : Fin k0_t3_loop.trips, ∀ (r : Fin 16), ∀ a, (k0_off37 k0_t3 (BitVec.ofNat 32 r.val)) a + S1x1x16.size a ≤ S2x128x128.size a
  k0_off38_inb : ∀ k0_t3 : Fin k0_t3_loop.trips, ∀ (r : Fin 16), ∀ a, (k0_off38 k0_t3 (BitVec.ofNat 32 r.val)) a + S1x1x16.size a ≤ S2x128x128.size a
  k0_off39_inb : ∀ k0_t3 : Fin k0_t3_loop.trips, ∀ (r : Fin 16), ∀ a, (k0_off39 k0_t3 (BitVec.ofNat 32 r.val)) a + S1x1x16.size a ≤ S2x128x128.size a
  k0_off40_inb : ∀ k0_t3 : Fin k0_t3_loop.trips, ∀ (r : Fin 16), ∀ a, (k0_off40 k0_t3 (BitVec.ofNat 32 r.val)) a + S1x1x16.size a ≤ S2x128x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scoped0 : DmaSems sig S_ := SemArray.consecutive 6 S_ hcc0_scoped0
abbrev cc0_scoped1 : DmaSems sig S_ := SemArray.consecutive 7 S_ hcc0_scoped1
abbrev cc0_scoped2 : DmaSems sig S_ := SemArray.consecutive 8 S_ hcc0_scoped2
abbrev cc0_scoped3 : DmaSems sig S_ := SemArray.consecutive 9 S_ hcc0_scoped3
abbrev cc0_scoped4 : DmaSems sig S_ := SemArray.consecutive 10 S_ hcc0_scoped4

class Facts : Prop extends Facts₀ where

variable [Facts]
-- ==== ReferenceIdeal.lean ====
abbrev S1000x128 : Shape := ⟨2, ![1000, 128]⟩
abbrev S4096x50 : Shape := ⟨2, ![4096, 50]⟩
abbrev S4096x1000 : Shape := ⟨2, ![4096, 1000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 58
  | .vmem => 0
  | .smem => 0
  | _ => 0

abbrev bufTy : (tb : Table) → Fin (tcTables nBuf tb) → BufTy
  | .hbm, ⟨0, _⟩ => ⟨S1000x128, .f32⟩
  | .hbm, ⟨1, _⟩ => ⟨S4096x50, .i32⟩
  | .hbm, ⟨2, _⟩ => ⟨S4096x1000, .f32⟩
  | .hbm, ⟨3, _⟩ => ⟨S_, .f32⟩
  | .hbm, ⟨4, _⟩ => ⟨S4096x1000, .f32⟩
  | .hbm, ⟨5, _⟩ => ⟨S4096x1000, .i1⟩
  | .hbm, ⟨6, _⟩ => ⟨S4096x1000, .f32⟩
  | .hbm, ⟨7, _⟩ => ⟨S_, .i32⟩
  | .hbm, ⟨8, _⟩ => ⟨S4096x50, .i32⟩
  | .hbm, ⟨9, _⟩ => ⟨S4096x50, .i1⟩
  | .hbm, ⟨10, _⟩ => ⟨S_, .i32⟩
  | .hbm, ⟨11, _⟩ => ⟨S4096x50, .i32⟩
  | .hbm, ⟨12, _⟩ => ⟨S4096x50, .i32⟩
  | .hbm, ⟨13, _⟩ => ⟨S4096x50, .i32⟩
  | .hbm, ⟨14, _⟩ => ⟨S4096x50x1, .i32⟩
  | .hbm, ⟨15, _⟩ => ⟨S1, .i32⟩
  | .hbm, ⟨16, _⟩ => ⟨S_, .i32⟩
  | .hbm, ⟨17, _⟩ => ⟨S4096x50x1, .i32⟩
  | .hbm, ⟨18, _⟩ => ⟨S4096x50x1, .i1⟩
  | .hbm, ⟨19, _⟩ => ⟨S1x1x1, .i32⟩
  | .hbm, ⟨20, _⟩ => ⟨S4096x50x1, .i32⟩
  | .hbm, ⟨21, _⟩ => ⟨S4096x50x1, .i1⟩
  | .hbm, ⟨22, _⟩ => ⟨S4096x50x1, .i1⟩
  | .hbm, ⟨23, _⟩ => ⟨S_, .i1⟩
  | .hbm, ⟨24, _⟩ => ⟨S4096x50, .i1⟩
  | .hbm, ⟨25, _⟩ => ⟨S4096x50, .f32⟩
  | .hbm, ⟨26, _⟩ => ⟨S_, .f32⟩
  | .hbm, ⟨27, _⟩ => ⟨S4096x50, .f32⟩
  | .hbm, ⟨28, _⟩ => ⟨S4096x50, .f32⟩
  | .hbm, ⟨29, _⟩ => ⟨S4096x50x1, .f32⟩
  | .hbm, ⟨30, _⟩ => ⟨S_, .i32⟩
  | .hbm, ⟨31, _⟩ => ⟨S4096x50, .i32⟩
  | .hbm, ⟨32, _⟩ => ⟨S4096x50, .i1⟩
  | .hbm, ⟨33, _⟩ => ⟨S_, .i32⟩
  | .hbm, ⟨34, _⟩ => ⟨S4096x50, .i32⟩
  | .hbm, ⟨35, _⟩ => ⟨S4096x50, .i32⟩
  | .hbm, ⟨36, _⟩ => ⟨S4096x50, .i32⟩
  | .hbm, ⟨37, _⟩ => ⟨S4096x50x1, .i32⟩
  | .hbm, ⟨38, _⟩ => ⟨S1, .i32⟩
  | .hbm, ⟨39, _⟩ => ⟨S_, .i32⟩
  | .hbm, ⟨40, _⟩ => ⟨S4096x50x1, .i32⟩
  | .hbm, ⟨41, _⟩ => ⟨S4096x50x1, .i1⟩
  | .hbm, ⟨42, _⟩ => ⟨S1x1x1, .i32⟩
  | .hbm, ⟨43, _⟩ => ⟨S4096x50x1, .i32⟩
  | .hbm, ⟨44, _⟩ => ⟨S4096x50x1, .i1⟩
  | .hbm, ⟨45, _⟩ => ⟨S4096x50x1, .i1⟩
  | .hbm, ⟨46, _⟩ => ⟨S_, .i1⟩
  | .hbm, ⟨47, _⟩ => ⟨S4096x50, .i1⟩
  | .hbm, ⟨48, _⟩ => ⟨S4096x50x128, .f32⟩
  | .hbm, ⟨49, _⟩ => ⟨S4096x50x128, .i1⟩
  | .hbm, ⟨50, _⟩ => ⟨S_, .f32⟩
  | .hbm, ⟨51, _⟩ => ⟨S4096x50x128, .f32⟩
  | .hbm, ⟨52, _⟩ => ⟨S4096x50x128, .f32⟩
  | .hbm, ⟨53, _⟩ => ⟨S4096x50x128, .f32⟩
  | .hbm, ⟨54, _⟩ => ⟨S4096x50x128, .f32⟩
  | .hbm, ⟨55, _⟩ => ⟨S_, .f32⟩
  | .hbm, ⟨56, _⟩ => ⟨S4096x50x128, .f32⟩
  | .hbm, ⟨57, _⟩ => ⟨S4096x50x128, .f32⟩
  | _, _ => ⟨S1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_0 : Ref sig .tc := ⟨.hbm, 55, rfl⟩
abbrev main_v8 : Ref sig .tc := ⟨.hbm, 56, rfl⟩
abbrev main_v9 : Ref sig .tc := ⟨.hbm, 57, rfl⟩

abbrev nD : Nat := 1
abbrev τ : Topo := Topo.v7x

variable {F : FTy → Type} [FloatOps F]

class Facts₀ : Prop where
  bcast_S_S4096x1000 : S_.BroadcastsInDim S4096x1000 (![] : Fin 0 → Fin S4096x1000.rank)
  bcast_S_S4096x50 : S_.BroadcastsInDim S4096x50 (![] : Fin 0 → Fin S4096x50.rank)
  shapeCasts_S4096x50_S4096x50x1 : S4096x50.ShapeCasts S4096x50x1
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x1_0_1 : S4096x50.BroadcastsInDim S4096x50x1 (![0, 1] : Fin 2 → Fin S4096x50x1.rank)
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  bcast_S4096x50x1_S4096x50x128_0_1_2 : S4096x50x1.BroadcastsInDim S4096x50x128 (![0, 1, 2] : Fin 3 → Fin S4096x50x128.rank)
  gather_S4096x1000_S4096x50x1_S4096x50_n_1_0_0_1_2_11_wf : GatherDims.WF S4096x1000 S4096x50x1 S4096x50 [] [1] [0] [1] [0] 2 ![1, 1]
  gather_S1000x128_S4096x50x1_S4096x50x128_2_0_n_n_0_2_1128_wf : GatherDims.WF S1000x128 S4096x50x1 S4096x50x128 [2] [0] [] [0] [] 2 ![1, 128]

variable [Facts₀]

def gather_S4096x1000_S4096x50x1_S4096x50_n_1_0_0_1_2_11 : GatherDims S4096x1000 S4096x50x1 S4096x50 where
  offsetDims := []
  collapsedSliceDims := [1]
  operandBatchingDims := [0]
  startIndicesBatchingDims := [0]
  startIndexMap := [1]
  indexVectorDim := 2
  sliceSizes := ![1, 1]
  wf := gather_S4096x1000_S4096x50x1_S4096x50_n_1_0_0_1_2_11_wf
def gather_S1000x128_S4096x50x1_S4096x50x128_2_0_n_n_0_2_1128 : GatherDims S1000x128 S4096x50x1 S4096x50x128 where
  offsetDims := [2]
  collapsedSliceDims := [0]
  operandBatchingDims := []
  startIndicesBatchingDims := []
  startIndexMap := [0]
  indexVectorDim := 2
  sliceSizes := ![1, 128]
  wf := gather_S1000x128_S4096x50x1_S4096x50x128_2_0_n_n_0_2_1128_wf

class Facts : Prop extends Facts₀ where

variable [Facts]
-- ==== Proof.PreFacts.lean ====
/-
  The precondition's last conjunct, read back: every token word, compared signed against the constants 0 and 999,
  lies in the vocabulary's range, so its unsigned value is below 1000.
-/
import proofs.«206556_g62818191671566_cont_9to1_m_1093_40_alg».proof.Pre_input_domain
import proofs.«206556_g62818191671566_cont_9to1_m_1093_40_alg».proof.Proof.Gen.Pre_input_domain
import Idealize.ShloMosaic.Lib.ReduceAll
import Idealize.ShloMosaic.Lib.ValueIdx

namespace Cert.PreFacts

open Idealize.ShloMosaic Cert.Pre_input_domain Cert.Pre_input_domain.Gen

/-- The scalar shape has one index. -/
instance : Subsingleton S_.Idx := ⟨fun a b => funext fun d => d.elim0⟩

/-- A 32-bit word that is at least 0 and at most 999 when read signed is below 1000 when read unsigned. -/
theorem word_lt (w : BitVec 32) (h0 : IntOp.cmpi .sge w 0#32 = 1#1) (h1 : IntOp.cmpi .sle w 999#32 = 1#1) :
    w.toNat < 1000 := by
  rw [IntOp.cmpi_sge] at h0
  rw [IntOp.cmpi_sle] at h1
  have e0 : (0#32 : BitVec 32).toInt = 0 := by decide
  have e1 : (999#32 : BitVec 32).toInt = 999 := by decide
  rw [e0] at h0
  rw [e1] at h1
  have hw := w.isLt
  rw [BitVec.toInt_eq_toNat_cond] at h0 h1
  split at h0 <;> omega

variable {F : FTy → Type} [FloatOps F]

/-- Under the precondition every token word names a vocabulary entry. -/
theorem tok_lt (a0 : FVec F Cert.Pre_input_domain.S1000x128 .f32) (a1 : IVec Cert.Pre_input_domain.S4096x50 32)
    (a2 : FVec F Cert.Pre_input_domain.S4096x1000 .f32)
    (h : Cert.Pre_input_domain.fn (F := F) a0 a1 a2 = (fun _ => 1#1)) : ∀ j, (a1 j).toNat < 1000 := by
  intro j
  have e := congrFun h ValueIdx.ix0
  dsimp only [Cert.Pre_input_domain.fn] at e
  have e14 := (IntOp.andi_eq_one.1 e).2
  have ej := Host.reduce_andi_all _ _ _ _ _ e14 j
  have ej' := IntOp.andi_eq_one.1 ej
  exact word_lt (a1 j) ej'.1 ej'.2

end Cert.PreFacts
-- ==== Proof.RefRun.lean ====
/-
  The reference program's run, written out.  The program is a straight line once its three outlined functions are
  unfolded at their call sites: fifty-five host operations, each writing one buffer of its own.  Its result is
  therefore the composition of the operations' functions at the three argument arrays (the term refTerm below), and
  the arguments end as they started.

  The composed term, in words.  The uniform draws are compared with one half and the decision is converted to a
  float (keepF).  The token array is wrapped (a negative token has the vocabulary's size added: wrap) and given a
  trailing axis of size one (idx0 by a reshape, idx1 by a broadcast: the same array).  A token is in range when it
  lies in [0, 999], decided by an and-reduction over the trailing axis (inRange).  The first gather reads the
  decision of a batch row at the row's token (gm), the second the table's row at the token (emb); out of range both
  select a not-a-number constant instead.  The result is emb times gm, broadcast along the features, divided by one half.
-/
import proofs.«206556_g62818191671566_cont_9to1_m_1093_40_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The composed term, by parts -/

/-- The keep decision as a float: one where the draw is below one half, zero elsewhere. -/
def keepF (u : FVec F S4096x1000 .f32) : FVec F S4096x1000 .f32 :=
  uitofp .f32 (cmpf .olt u (broadcastInDim S4096x1000 ![] bcast_S_S4096x1000 (constant S_ .f32 0x3F000000#32)))

/-- The tokens with a negative one wrapped around the vocabulary. -/
def wrap (tok : IVec S4096x50 32) : IVec S4096x50 32 :=
  select (cmpi .slt tok (broadcastInDim S4096x50 ![] bcast_S_S4096x50 (constantI S_ 32 0#32)))
    (addi tok (broadcastInDim S4096x50 ![] bcast_S_S4096x50 (constantI S_ 32 1000#32))) tok

/-- The wrapped tokens with a trailing axis of size one, by a reshape. -/
def idx0 (tok : IVec S4096x50 32) : IVec S4096x50x1 32 :=
  fun i => shapeCast S4096x50x1 (wrap tok) shapeCasts_S4096x50_S4096x50x1 i

/-- The wrapped tokens with a trailing axis of size one, by a broadcast. -/
def idx1 (tok : IVec S4096x50 32) : IVec S4096x50x1 32 :=
  broadcastInDim S4096x50x1 ![0, 1] bcast_S4096x50_S4096x50x1_0_1 (wrap tok)

/-- Whether a start index lies in [0, 999]: both comparisons, and-ed, reduced over the trailing axis. -/
def inRange (idx : IVec S4096x50x1 32) : IVec S4096x50 1 :=
  Host.reduce IntOp.andi
    (andi (cmpi .sge idx (broadcastInDim S4096x50x1 ![] bcast_S_S4096x50x1 (constantI S_ 32 0#32)))
      (cmpi .sle idx (broadcastInDim S4096x50x1 ![0, 1, 2] bcast_S1x1x1_S4096x50x1_0_1_2
        (broadcastInDim S1x1x1 ![2] bcast_S1_S1x1x1_2 (constantI S1 32 999#32)))))
    (constantI S_ 1 1#1) reducesTo_S4096x50x1_S4096x50_d2 h_S_

/-- The keep decision of each batch row at the row's tokens. -/
def gm (tok : IVec S4096x50 32) (u : FVec F S4096x1000 .f32) : FVec F S4096x50 .f32 :=
  select (inRange (idx0 tok))
    (Host.gather gather_S4096x1000_S4096x50x1_S4096x50_n_1_0_0_1_2_11 (keepF u) (idx0 tok))
    (broadcastInDim S4096x50 ![] bcast_S_S4096x50 (constant S_ .f32 0x7FC00000#32))

/-- The table's rows at the tokens. -/
def emb (tab : FVec F S1000x128 .f32) (tok : IVec S4096x50 32) : FVec F S4096x50x128 .f32 :=
  select (broadcastInDim S4096x50x128 ![0, 1] bcast_S4096x50_S4096x50x128_0_1 (inRange (idx1 tok)))
    (Host.gather gather_S1000x128_S4096x50x1_S4096x50x128_2_0_n_n_0_2_1128 tab (idx1 tok))
    (broadcastInDim S4096x50x128 ![] bcast_S_S4096x50x128 (constant S_ .f32 0x7FC00000#32))

/-- The program's result as one term of its three arguments. -/
def refTerm (tab : FVec F S1000x128 .f32) (tok : IVec S4096x50 32) (u : FVec F S4096x1000 .f32) :
    FVec F S4096x50x128 .f32 :=
  Host.divf
    (mulf (emb tab tok)
      (broadcastInDim S4096x50x128 ![0, 1, 2] bcast_S4096x50x1_S4096x50x128_0_1_2
        (broadcastInDim S4096x50x1 ![0, 1] bcast_S4096x50_S4096x50x1_0_1 (gm tok u))))
    (broadcastInDim S4096x50x128 ![] bcast_S_S4096x50x128 (constant S_ .f32 0x3F000000#32))

/-! ## The operations, in order -/

/-- The fifty-five operations: four of the entry function (the threshold, its broadcast, the comparison, the
    conversion), the twenty-two of the first outlined function over its call's buffers, one broadcast, the
    twenty-three of the second (the select of the function it calls in turn among them), and the entry function's
    last five. -/
abbrev ops : List (HloOp τ sig (Elt F)) :=
  [ nullary main_cst (constant S_ .f32 0x3F000000#32),
    unary main_cst main_v0 (broadcastInDim S4096x1000 ![] bcast_S_S4096x1000 : (⟨S_, .f32⟩ : BufTy).Contents (Elt F) → (⟨S4096x1000, .f32⟩ : BufTy).Contents (Elt F)),
    binary main_arg2 main_v0 main_v1 (cmpf .olt : (⟨S4096x1000, .f32⟩ : BufTy).Contents (Elt F) → (⟨S4096x1000, .f32⟩ : BufTy).Contents (Elt F) → (⟨S4096x1000, .i1⟩ : BufTy).Contents (Elt F)),
    unary main_v1 main_v2 (uitofp .f32 : (⟨S4096x1000, .i1⟩ : BufTy).Contents (Elt F) → (⟨S4096x1000, .f32⟩ : BufTy).Contents (Elt F)),
    TRef.nullary main_call0.c (constantI S_ 32 0#32),
    TRef.unary main_call0.c main_call0.v0 (broadcastInDim S4096x50 ![] bcast_S_S4096x50),
    TRef.binary (.of main_arg1 : TRef sig ⟨S4096x50, .i32⟩) main_call0.v0 main_call0.v1 (cmpi .slt),
    TRef.nullary main_call0.c_0 (constantI S_ 32 1000#32),
    TRef.unary main_call0.c_0 main_call0.v2 (broadcastInDim S4096x50 ![] bcast_S_S4096x50),
    TRef.binary (.of main_arg1 : TRef sig ⟨S4096x50, .i32⟩) main_call0.v2 main_call0.v3 addi,
    TRef.ternary main_call0.v1 main_call0.v3 (.of main_arg1 : TRef sig ⟨S4096x50, .i32⟩) main_call0.v4 select,
    TRef.reshape main_call0.v4 main_call0.v5 rfl shapeCasts_S4096x50_S4096x50x1,
    TRef.nullary main_call0.c_1 (constantI S1 32 999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_v2 : TRef sig ⟨S4096x1000, .f32⟩) main_call0.v5 main_call0.v13 (fun x i => Host.gather gather_S4096x1000_S4096x50x1_S4096x50_n_1_0_0_1_2_11 x i),
    TRef.nullary main_call0.cst (constant S_ .f32 0x7FC00000#32),
    TRef.unary main_call0.cst main_call0.v14 (broadcastInDim S4096x50 ![] bcast_S_S4096x50),
    TRef.ternary main_call0.v12 main_call0.v13 main_call0.v14 main_call0.v15 select,
    unary main_v3 main_v4 (broadcastInDim S4096x50x1 ![0, 1] bcast_S4096x50_S4096x50x1_0_1 : (⟨S4096x50, .f32⟩ : BufTy).Contents (Elt F) → (⟨S4096x50x1, .f32⟩ : BufTy).Contents (Elt F)),
    TRef.nullary main_call1.c (constantI S_ 32 0#32),
    TRef.unary main_call1.c main_call1.v0 (broadcastInDim S4096x50 ![] bcast_S_S4096x50),
    TRef.binary (.of main_arg1 : TRef sig ⟨S4096x50, .i32⟩) main_call1.v0 main_call1.v1 (cmpi .slt),
    TRef.nullary main_call1.c_0 (constantI S_ 32 1000#32),
    TRef.unary main_call1.c_0 main_call1.v2 (broadcastInDim S4096x50 ![] bcast_S_S4096x50),
    TRef.binary (.of main_arg1 : TRef sig ⟨S4096x50, .i32⟩) main_call1.v2 main_call1.v3 addi,
    TRef.ternary main_call1.v1 main_call1.v3 (.of main_arg1 : TRef sig ⟨S4096x50, .i32⟩) main_call1.call0.v0 select,
    TRef.unary main_call1.call0.v0 main_call1.v5 (broadcastInDim S4096x50x1 ![0, 1] bcast_S4096x50_S4096x50x1_0_1),
    TRef.nullary main_call1.c_1 (constantI S1 32 999#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg0 : TRef sig ⟨S1000x128, .f32⟩) main_call1.v5 main_call1.v13 (fun x i => Host.gather gather_S1000x128_S4096x50x1_S4096x50x128_2_0_n_n_0_2_1128 x i),
    TRef.unary main_call1.v12 main_call1.v14 (broadcastInDim S4096x50x128 ![0, 1] bcast_S4096x50_S4096x50x128_0_1),
    TRef.nullary main_call1.cst (constant S_ .f32 0x7FC00000#32),
    TRef.unary main_call1.cst main_call1.v15 (broadcastInDim S4096x50x128 ![] bcast_S_S4096x50x128),
    TRef.ternary main_call1.v14 main_call1.v13 main_call1.v15 main_call1.v16 select,
    unary main_v4 main_v6 (broadcastInDim S4096x50x128 ![0, 1, 2] bcast_S4096x50x1_S4096x50x128_0_1_2 : (⟨S4096x50x1, .f32⟩ : BufTy).Contents (Elt F) → (⟨S4096x50x128, .f32⟩ : BufTy).Contents (Elt F)),
    binary main_v5 main_v6 main_v7 (mulf : (⟨S4096x50x128, .f32⟩ : BufTy).Contents (Elt F) → (⟨S4096x50x128, .f32⟩ : BufTy).Contents (Elt F) → (⟨S4096x50x128, .f32⟩ : BufTy).Contents (Elt F)),
    nullary main_cst_0 (constant S_ .f32 0x3F000000#32),
    unary main_cst_0 main_v8 (broadcastInDim S4096x50x128 ![] bcast_S_S4096x50x128 : (⟨S_, .f32⟩ : BufTy).Contents (Elt F) → (⟨S4096x50x128, .f32⟩ : BufTy).Contents (Elt F)),
    binary main_v7 main_v8 main_v9 (Host.divf : (⟨S4096x50x128, .f32⟩ : BufTy).Contents (Elt F) → (⟨S4096x50x128, .f32⟩ : BufTy).Contents (Elt F) → (⟨S4096x50x128, .f32⟩ : BufTy).Contents (Elt F)) ]

-- fifty-five binds re-associated: the rewrite under the chain recurses once per statement
set_option maxRecDepth 2048 in
/-- The entry function is that straight line: the outlined functions unfolded at their calls, both sides are one
    chain of steps once sequencing is re-associated. -/
theorem main_eq (c : Dev nD) : main (F := F) c = seq ops := by
  simp only [main, fn_take_along_axis.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub ..,
    -- the first outlined function
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    unary_bufs_sub ..,
    -- the second
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., nullary_bufs_sub .., unary_bufs_sub .., binary_bufs_sub ..⟩

/-! ## The fold at the result and at the arguments -/

attribute [local irreducible] Host.reduce Host.gather in
set_option maxRecDepth 8192 in
set_option maxHeartbeats 400000 in
/-- The fold of the operations at the result buffer is the composed term: each operation's result is rewritten to
    its function's value at its own buffer and to what was there at any other, and the typed references' transports
    that remain are the identity at these literal references.  The reduction and the gathers stay folded
    meanwhile: the equation never looks inside them. -/
theorem out_eq (V : Valuation τ sig (Elt F)) :
    after ops V (main_v9 : DevRef τ sig)
      = refTerm (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## The run -/

/-- On every device, for any float values, from any memory with zero counters: every weakly fair execution of the
    entry function terminates with the result buffer at the composed term of the arguments' launch contents, and
    the arguments unchanged. -/
theorem runTerm (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.RefSide

end
-- ==== Proof.RefLemmas.lean ====
/-
  What the reference program's less common operations compute at one index: an and-reduction of bits that are all
  one, the two gathers, the comparisons that guard a start index, and the conversion of a one-bit word to a float at
  the ideal instance.  Stated for the program's own shapes and dimension numbers; nothing here mentions a run.
-/
import proofs.«206556_g62818191671566_cont_9to1_m_1093_40_alg».proof.Proof.Gen.ReferenceIdeal
import Idealize.ShloMosaic.Lib.ValueIdx
import Idealize.ShloMosaic.Lib.ReduceAll
import Idealize.ShloMosaic.PureOps.Ideal.Laws

noncomputable section

namespace Cert.RefSide

open Cert.ReferenceIdeal Cert.ReferenceIdeal.Gen Idealize.ShloMosaic Idealize.ShloMosaic.ValueIdx

/-! ## An and-reduction of ones -/

/-- A left fold by and from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by and, from one, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## A start index that is a small natural number -/

section Word
variable {w : BitVec 32}

/-- A word below 1000 is non-negative read signed: its signed value is its natural one. -/
theorem toInt_of_lt (h : w.toNat < 1000) : w.toInt = (w.toNat : Int) := by
  rw [BitVec.toInt_eq_toNat_cond, if_pos (by omega)]

theorem slt_zero_of_lt (h : w.toNat < 1000) : IntOp.cmpi .slt w 0#32 = 0#1 := by
  apply eq_zero_of_ne_one
  rw [IntOp.cmpi_slt, toInt_of_lt h]
  simp

theorem sge_zero_of_lt (h : w.toNat < 1000) : IntOp.cmpi .sge w 0#32 = 1#1 := by
  rw [IntOp.cmpi_sge, toInt_of_lt h]
  simp

theorem sle_999_of_lt (h : w.toNat < 1000) : IntOp.cmpi .sle w 999#32 = 1#1 := by
  rw [IntOp.cmpi_sle, toInt_of_lt h]
  have : (999#32 : BitVec 32).toInt = 999 := by decide
  rw [this]
  omega

/-- The clamped start index a gather computes from such a word is the word itself. -/
theorem clamp_of_lt (h : w.toNat < 1000) : min w.toInt.toNat 999 = w.toNat := by
  rw [toInt_of_lt h, Int.toNat_natCast]
  omega

end Word

/-! ## The two gathers at an index -/

section Gather
variable {α : Type}

/-- The first gather: the operand's batch row is the result's, its column the start index at that position, read
    signed and clamped into [0, 999]. -/
theorem gather1_apply (x : S4096x1000.Idx → α) (idx : IVec S4096x50x1 32) (b : Fin 4096) (s : Fin 50) :
    Host.gather gather_S4096x1000_S4096x50x1_S4096x50_n_1_0_0_1_2_11 x idx (ix2 b s)
      = x (ix2 b ⟨min (idx (ix3 b s 0)).toInt.toNat 999, by omega⟩) := by
  unfold Host.gather
  congr 1
  funext a
  refine Fin.ext ?_
  show gather_S4096x1000_S4096x50x1_S4096x50_n_1_0_0_1_2_11.start (ix2 b s) idx a
      + gather_S4096x1000_S4096x50x1_S4096x50_n_1_0_0_1_2_11.batchCoord (ix2 b s) a
      + gather_S4096x1000_S4096x50x1_S4096x50_n_1_0_0_1_2_11.offCoord (ix2 b s) a = _
  match a with
  | ⟨0, _⟩ =>
    rw [GatherDims.start_batching _ _ _ _ (by decide +revert),
      GatherDims.offCoord_eq_zero _ _ _ (fun h => ((GatherDims.mem_sKept _ _).mp h).2 (by decide +revert))]
    simp only [Nat.zero_add, Nat.add_zero]
    rfl
  | ⟨1, _⟩ =>
    rw [GatherDims.batchCoord_eq_zero _ _ _ (by decide +revert),
      GatherDims.offCoord_eq_zero _ _ _ (fun h => ((GatherDims.mem_sKept _ _).mp h).1 (by decide +revert))]
    simp only [Nat.add_zero]
    unfold GatherDims.start
    rw [dif_pos (by decide +revert)]
    have hsi : ∀ k : Fin gather_S4096x1000_S4096x50x1_S4096x50_n_1_0_0_1_2_11.startIndexMap.length,
        gather_S4096x1000_S4096x50x1_S4096x50_n_1_0_0_1_2_11.siIdx (ix2 b s) k = ix3 b s 0 := by
      intro k
      have hk : k.val < 1 := k.isLt
      funext c; refine Fin.ext ?_
      match c with
      | ⟨0, _⟩ => rfl
      | ⟨1, _⟩ => rfl
      | ⟨2, _⟩ => show k.val = 0; omega
    rw [hsi]
    rfl

/-- The second gather: the operand's row is the start index at the result's batch position, read signed and clamped
    into [0, 999], its column the result's feature. -/
theorem gather2_apply (x : S1000x128.Idx → α) (idx : IVec S4096x50x1 32) (b : Fin 4096) (s : Fin 50) (d : Fin 128) :
    Host.gather gather_S1000x128_S4096x50x1_S4096x50x128_2_0_n_n_0_2_1128 x idx (ix3 b s d)
      = x (ix2 ⟨min (idx (ix3 b s 0)).toInt.toNat 999, by omega⟩ d) := by
  unfold Host.gather
  congr 1
  funext a
  refine Fin.ext ?_
  show gather_S1000x128_S4096x50x1_S4096x50x128_2_0_n_n_0_2_1128.start (ix3 b s d) idx a
      + gather_S1000x128_S4096x50x1_S4096x50x128_2_0_n_n_0_2_1128.batchCoord (ix3 b s d) a
      + gather_S1000x128_S4096x50x1_S4096x50x128_2_0_n_n_0_2_1128.offCoord (ix3 b s d) a = _
  match a with
  | ⟨0, _⟩ =>
    rw [GatherDims.batchCoord_eq_zero _ _ _ (by decide +revert),
      GatherDims.offCoord_eq_zero _ _ _ (fun h => ((GatherDims.mem_sKept _ _).mp h).1 (by decide +revert))]
    simp only [Nat.add_zero]
    unfold GatherDims.start
    rw [dif_pos (by decide +revert)]
    have hsi : ∀ k : Fin gather_S1000x128_S4096x50x1_S4096x50x128_2_0_n_n_0_2_1128.startIndexMap.length,
        gather_S1000x128_S4096x50x1_S4096x50x128_2_0_n_n_0_2_1128.siIdx (ix3 b s d) k = ix3 b s 0 := by
      intro k
      have hk : k.val < 1 := k.isLt
      funext c; refine Fin.ext ?_
      match c with
      | ⟨0, _⟩ => rfl
      | ⟨1, _⟩ => rfl
      | ⟨2, _⟩ => show k.val = 0; omega
    rw [hsi]
    rfl
  | ⟨1, _⟩ =>
    rw [GatherDims.batchCoord_eq_zero _ _ _ (by decide +revert)]
    unfold GatherDims.start
    rw [dif_neg (by decide +revert)]
    simp only [Nat.zero_add]
    rfl

end Gather

/-! ## A bit as a float, at the ideal instance -/

/-- The conversion of a comparison's bit to a float is the indicator of the comparison. -/
theorem uitofp_cmp_olt (x y : EReal) :
    (FloatOps.uitofp (F := Ideal) .f32 (Ideal.cmp .olt x y) : EReal) = if x < y then (1 : EReal) else 0 := by
  by_cases h : x < y
  · simp only [Ideal.cmp, h, decide_true, if_true]
    show (((BitVec.ofBool true).toNat : ℝ) : EReal) = 1
    simp
  · simp only [Ideal.cmp, h, decide_false, if_false]
    show (((BitVec.ofBool false).toNat : ℝ) : EReal) = 0
    simp

end Cert.RefSide

end
-- ==== Proof.Spec.lean ====
/-
  The function both programs compute, stated once over the argument arrays, and the one law that joins the two
  ways of writing it.

  For a batch row `b`, a position `s` and a feature `d`, let `v` be the token at `(b, s)`.  The result is the table's
  entry `(v, d)` scaled by `2` when the uniform draw of batch row `b` at vocabulary entry `v` lies below one half, and
  by `0` otherwise: inverted dropout with keep probability one half, the keep decision shared by every occurrence of a
  token in one batch row.  One program multiplies by the factor `2` or `0`; the other multiplies by the indicator `1`
  or `0` and then divides by one half.  On the extended reals `x * 1 / (1/2) = x * 2` and `x * 0 / (1/2) = 0 = x * 0`
  hold for every `x`, the infinities included, so the law needs no finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev STab : Shape := ⟨2, ![1000, 128]⟩
abbrev STok : Shape := ⟨2, ![4096, 50]⟩
abbrev SUni : Shape := ⟨2, ![4096, 1000]⟩
abbrev SOut : Shape := ⟨3, ![4096, 50, 128]⟩

/-- The vocabulary entry a token word names; reduced modulo the vocabulary's size so that it is total (a word below
    1000 names itself). -/
def row (w : BitVec 32) : Fin 1000 := ⟨w.toNat % 1000, Nat.mod_lt _ (by norm_num)⟩

theorem row_val_of_lt {w : BitVec 32} (h : w.toNat < 1000) : (row w).val = w.toNat := Nat.mod_eq_of_lt h

/-- The threshold both programs compare the uniform draw against: the float pattern of one half. -/
abbrev half : EReal := Ideal.ofBits .f32 0x3F000000#32

/-- The result at batch row `b`, position `s`, feature `d`. -/
def Gat (tab : FVec Ideal STab .f32) (tok : IVec STok 32) (u : FVec Ideal SUni .f32)
    (b : Fin 4096) (s : Fin 50) (d : Fin 128) : EReal :=
  tab (ix2 (row (tok (ix2 b s))) d) *
    (if u (ix2 b (row (tok (ix2 b s)))) < half then ((2 : ℝ) : EReal) else 0)

/-- The result array as one function of the three argument arrays. -/
def G (tab : FVec Ideal STab .f32) (tok : IVec STok 32) (u : FVec Ideal SUni .f32) : FVec Ideal SOut .f32 :=
  fun i => Gat tab tok u (i 0) (i 1) (i 2)

theorem G_apply (tab : FVec Ideal STab .f32) (tok : IVec STok 32) (u : FVec Ideal SUni .f32)
    (b : Fin 4096) (s : Fin 50) (d : Fin 128) : G tab tok u (ix3 b s d) = Gat tab tok u b s d := rfl

/-! ## The float patterns the two programs spell -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-! ## The law -/

/-- Multiplying by the indicator and dividing by one half is multiplying by the factor: for every extended real `x`
    and either value of the decision. -/
theorem indicator_div_half (x : EReal) (keep : Prop) [Decidable keep] :
    Ideal.div (x * (if keep then (1 : EReal) else 0)) (((1 / 2 : ℝ)) : EReal)
      = x * (if keep then ((2 : ℝ) : EReal) else 0) := by
  rw [Ideal.div_coe (by norm_num : (1 / 2 : ℝ) ≠ 0)]
  have h2 : ((1 / (1 / 2 : ℝ) : ℝ) : EReal) = ((2 : ℝ) : EReal) := by norm_num
  rw [h2]
  by_cases hk : keep
  · simp only [hk, if_true, mul_one]
  · simp only [hk, if_false, mul_zero, zero_mul]

end Cert.Spec

end
-- ==== Proof.RefValue.lean ====
/-
  The reference program's result is the specification function.

  The run delivers the composed term of the program's fifty-five operations at the three arguments (refTerm).  Under the one
  hypothesis that every token word is below the vocabulary's size 1000, that term is the specification G, index by
  index.  At batch row b, position s, feature d, with w the token at (b, s):

    * w is non-negative read signed, so the wrap select keeps it, and both ways of giving the wrapped array a trailing
      unit axis read w at (b, s, 0);
    * 0 ≤ w ≤ 999, so both guards of a start index hold everywhere, their and-reduction over the unit axis is one,
      and each select takes the gathered value, never the not-a-number constant;
    * a gather clamps the signed start index into [0, 999], which leaves w; so the first gather reads the keep
      decision of row b at column w, the second the table's row w at feature d;
    * the keep decision is the indicator of "the draw is below one half", and multiplying by an indicator and
      dividing by one half is multiplying by two or by zero.
-/
import proofs.«206556_g62818191671566_cont_9to1_m_1093_40_alg».proof.Proof.RefRun
import proofs.«206556_g62818191671566_cont_9to1_m_1093_40_alg».proof.Proof.RefLemmas
import proofs.«206556_g62818191671566_cont_9to1_m_1093_40_alg».proof.Proof.Spec
import Idealize.ShloMosaic.Lib.Pipeline.Value

noncomputable section

namespace Cert.RefSide

open Cert.ReferenceIdeal Cert.ReferenceIdeal.Gen Idealize.ShloMosaic Idealize.ShloMosaic.ValueIdx Idealize.ShloMosaic.TcCoe
  Idealize.SL.Sem Cert.Spec

/-! ## The start indices -/

section Tokens
variable (tok : IVec S4096x50 32) (htok : ∀ j, (tok j).toNat < 1000)
include htok

/-- A token below 1000 is not negative, so wrapping keeps it. -/
theorem wrap_apply (j : S4096x50.Idx) : wrap tok j = tok j := by
  show Scalar.select (IntOp.cmpi .slt (tok j) 0#32) (IntOp.addi (tok j) 1000#32) (tok j) = tok j
  rw [slt_zero_of_lt (htok j), select_zero]

/-- The reshaped start indices at (b, s, 0): the token at (b, s). -/
theorem idx0_apply (b : Fin 4096) (s : Fin 50) : idx0 tok (ix3 b s 0) = tok (ix2 b s) := by
  rw [← wrap_apply tok htok (ix2 b s)]
  unfold idx0 shapeCast
  refine congrArg _ (Shape.reshapeEquiv_eq_of_rowMajor _ ?_)
  rw [Shape.rowMajor_val_two, Shape.rowMajor_val_three]
  show b.val * 50 + s.val = (b.val * 50 + s.val) * 1 + 0
  omega

/-- The broadcast start indices at (b, s, 0): the token at (b, s). -/
theorem idx1_apply (b : Fin 4096) (s : Fin 50) : idx1 tok (ix3 b s 0) = tok (ix2 b s) := by
  rw [← wrap_apply tok htok (ix2 b s)]
  unfold idx1
  exact broadcastInDim_apply _ _ _ _ (ix2 b s) (fun a => by
    match a with
    | ⟨0, _⟩ => rfl
    | ⟨1, _⟩ => rfl)

/-- Every start index, either way, is a token: below 1000. -/
theorem idx0_lt (i : S4096x50x1.Idx) : (idx0 tok i).toNat < 1000 := by
  obtain ⟨b, s, z, rfl⟩ : ∃ b s z, i = ix3 b s z := ⟨i 0, i 1, i 2, eq_ix3 i⟩
  obtain rfl : z = 0 := Subsingleton.elim _ _
  rw [idx0_apply tok htok]
  exact htok _

theorem idx1_lt (i : S4096x50x1.Idx) : (idx1 tok i).toNat < 1000 := by
  obtain ⟨b, s, z, rfl⟩ : ∃ b s z, i = ix3 b s z := ⟨i 0, i 1, i 2, eq_ix3 i⟩
  obtain rfl : z = 0 := Subsingleton.elim _ _
  rw [idx1_apply tok htok]
  exact htok _

end Tokens

/-- Start indices that all lie below 1000 are all in range: the guard is one everywhere. -/
theorem inRange_one (idx : IVec S4096x50x1 32) (h : ∀ i, (idx i).toNat < 1000) (j : S4096x50.Idx) :
    inRange idx j = 1#1 := by
  unfold inRange
  refine reduce_andi_ones _ _ _ _ (fun i => ?_) (fun _ => rfl) j
  show IntOp.andi (IntOp.cmpi .sge (idx i) 0#32) (IntOp.cmpi .sle (idx i) 999#32) = 1#1
  rw [sge_zero_of_lt (h i), sle_999_of_lt (h i)]
  rfl

/-- The clamped start index of a token below 1000 is the vocabulary entry the specification names. -/
theorem clamp_eq_row {w v : BitVec 32} (hwv : w = v) (h : v.toNat < 1000) (p : min w.toInt.toNat 999 < 1000) :
    (⟨min w.toInt.toNat 999, p⟩ : Fin 1000) = row v := by
  subst hwv
  exact Fin.ext (by
    show min w.toInt.toNat 999 = (row w).val
    rw [clamp_of_lt h, row_val_of_lt h])

/-! ## The two gathered arrays at an index, at the ideal instance -/

/-- The host's quotient at an index is the ideal instance's division of the elements. -/
theorem hostDivf_apply {s : Shape} {φ : FTy} (a b : FVec Ideal s φ) (i : s.Idx) :
    Host.divf a b i = Ideal.div (a i) (b i) := rfl

/-- The broadcast threshold reads the pattern of one half everywhere. -/
theorem half_apply (j : S4096x50x128.Idx) :
    broadcastInDim S4096x50x128 ![] bcast_S_S4096x50x128 (constant (F := Ideal) S_ .f32 0x3F000000#32) j
      = Ideal.ofBits .f32 0x3F000000#32 := rfl

section Value
variable (tab : FVec Ideal S1000x128 .f32) (tok : IVec S4096x50 32) (u : FVec Ideal S4096x1000 .f32)
  (htok : ∀ j, (tok j).toNat < 1000)
include htok

/-- The keep decision of batch row b at the token of position s: the indicator of the draw below one half. -/
theorem gm_apply (b : Fin 4096) (s : Fin 50) :
    gm tok u (ix2 b s)
      = if u (ix2 b (row (tok (ix2 b s)))) < half then (1 : EReal) else 0 := by
  unfold gm
  rw [select_apply, inRange_one _ (idx0_lt tok htok), select_one, gather1_apply,
    clamp_eq_row (idx0_apply tok htok b s) (htok (ix2 b s))]
  exact uitofp_cmp_olt _ _

/-- The table's row at the token of (b, s), at feature d. -/
theorem emb_apply (b : Fin 4096) (s : Fin 50) (d : Fin 128) :
    emb tab tok (ix3 b s d) = tab (ix2 (row (tok (ix2 b s))) d) := by
  unfold emb
  rw [select_apply, broadcastInDim_apply _ _ _ _ (ix2 b s) (fun a => by
      match a with
      | ⟨0, _⟩ => rfl
      | ⟨1, _⟩ => rfl),
    inRange_one _ (idx1_lt tok htok), select_one, gather2_apply,
    clamp_eq_row (idx1_apply tok htok b s) (htok (ix2 b s))]

/-- The composed term is the specification function. -/
theorem refTerm_eq_G : refTerm tab tok u = G tab tok u := by
  funext i
  obtain ⟨b, s, d, rfl⟩ : ∃ b s d, i = ix3 b s d := ⟨i 0, i 1, i 2, eq_ix3 i⟩
  rw [G_apply]
  unfold refTerm
  rw [hostDivf_apply, mulf_apply, half_apply, broadcastInDim_apply _ _ _ _ (ix3 b s 0) (fun a => by
      match a with
      | ⟨0, _⟩ => rfl
      | ⟨1, _⟩ => rfl
      | ⟨2, _⟩ => rfl),
    broadcastInDim_apply _ _ _ _ (ix2 b s) (fun a => by
      match a with
      | ⟨0, _⟩ => rfl
      | ⟨1, _⟩ => rfl),
    emb_apply tab tok htok, gm_apply tok u htok, ofBits_half, indicator_div_half]
  rfl

end Value

/-! ## The run, at the specification -/

/-- At the ideal instance, from any memory whose token words are all below 1000: every weakly fair execution of the
    reference program terminates with its result buffer at the specification function of the three arguments' launch
    contents, and the arguments unchanged. -/
theorem run (m : (ℓ : Loc nD τ sig) → Buf (Elt Ideal) ℓ) (g : Dev nD → PrngReg)
    (htok : ∀ (c : Dev nD) (j : STok.Idx),
      BitVec.toNat (w := 32) (m ((c.tc : Thread nD τ).loc main_arg1) j) < 1000) :
    θ_run (defs (F := Ideal)) (onTc (τ := τ) (main (F := Ideal))) ⟨m, fun _ => 0, g⟩ (fun r => ∀ c : Dev nD,
      r.2.mem ((c.tc : Thread nD τ).loc main_v9)
          = G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono
    (fun _ h c => ⟨(h c).1.trans (refTerm_eq_G _ _ _ (htok c)), (h c).2⟩)
    (runTerm m g)

end Cert.RefSide

end
-- ==== Proof.KI.Setup.lean ====
/-
  The vocabulary the tile's proof and the launch share, for the program read at any float instance.

  A worker is a pair (SparseCore `c`, vector subcore `i`), numbered `2 i + c`; it owns the 6400 rows of the flat result
  that follow row `6400 (2 i + c)`, reads a share of the whole table, of the whole reshaped token array and of the
  whole flattened array of draws, and stages rows `64 i .. 64 i + 63` of the table (the last subcore rows 960..999)
  into its SparseCore's shared copy.  At the subcore barrier every subcore hands every subcore of its SparseCore a
  sixteenth share of the rows it staged, holding the table's entries; after the barrier each subcore therefore holds a
  sixteenth share of the whole shared copy, equal to the table, which is what its indexed gathers read.  The flat
  result's row `n` is the table's row of token `n`, scaled by `2` or `0` by the draw of batch row `n / 50` at that token.
-/
import proofs.«206556_g62818191671566_cont_9to1_m_1093_40_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«206556_g62818191671566_cont_9to1_m_1093_40_alg».proof.Proof.Gen.KernelIdeal
import proofs.«206556_g62818191671566_cont_9to1_m_1093_40_alg».proof.Proof.Gen.KernelIdeal.Skeleton
import proofs.«206556_g62818191671566_cont_9to1_m_1093_40_alg».proof.Proof.Spec

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Shares: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The share of the read-only arrays a SparseCore's tiles hold together: half. -/
abbrev qC (c : Fin τ.nSC) : PosShare TreeShare := leaf 1 fullShare ⟨c.val, c.isLt⟩
/-- One tile's share of the read-only arrays: a sixteenth of its SparseCore's half. -/
abbrev qT (c : Fin τ.nSC) (i : Fin 16) : PosShare TreeShare := leaf 4 (qC c) ⟨i.val, i.isLt⟩
/-- One tile's share of its SparseCore's shared copy of the table after the barrier: a sixteenth. -/
abbrev qS (i : Fin 16) : PosShare TreeShare := leaf 4 fullShare ⟨i.val, i.isLt⟩

/-! ## The launch memory, the arrays and their values -/

variable (m : (ℓ : Loc nD τ sig) → Buf (Elt F) ℓ) (ρ : Dev nD → PrngReg)

abbrev tabLoc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev tokLoc (d : Dev nD) : Loc nD τ sig := (SparseCore.T d).loc main_v0
abbrev uLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3
/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The tokens regrouped by worker, chunk and position in the chunk: the host's reshape of the token array. -/
def tok3V (d : Dev nD) : Buf (Elt F) (tokLoc d) :=
  (shapeCast S32x50x128 (m (a1Loc d) : IVec S4096x50 32) shapeCasts_S4096x50_S32x50x128 : IVec S32x50x128 32)
/-- The draws in one row: the host's flattening. -/
def uflatV (d : Dev nD) : Buf (Elt F) (uLoc d) :=
  (shapeCast S4096000 (m (a2Loc d) : FVec F S4096x1000 .f32) shapeCasts_S4096x1000_S4096000 : FVec F S4096000 .f32)

variable [FloatOps F]

/-- The flat result as a function of the table, the regrouped tokens and the flattened draws: row `n` is the table's
    row of token `n`, times `2` where the draw of batch row `n / 50` at that token is below one half and `0` elsewhere.
    Stated with the float operations of the instance, so that it reads at the word level and at the ideal level alike. -/
def KvalF (tab : FVec F S1000x128 .f32) (tok3 : IVec S32x50x128 32) (uflat : FVec F S4096000 .f32) : FVec F S204800x128 .f32 :=
  fun i =>
    let v : Fin 1000 := Cert.Spec.row (tok3 (ix3 (⟨(i 0).val / 6400, by have := idx2_lt0 i; omega⟩ : Fin 32)
      (⟨(i 0).val % 6400 / 128, by omega⟩ : Fin 50) (⟨(i 0).val % 128, by omega⟩ : Fin 128)))
    FloatOps.mulf (tab (ix2 v (i 1)))
      (Scalar.select (FloatOps.cmpf .olt (uflat (ix1 (⟨(i 0).val / 50 * 1000 + v.val, by have := idx2_lt0 i; have := v.isLt; omega⟩ : Fin 4096000)))
          (Scalar.ofBits .f32 0x3F000000#32))
        (Scalar.ofBits .f32 0x40000000#32) (Scalar.ofBits .f32 0x00000000#32))

/-- What the flat result holds after the call. -/
def outV (d : Dev nD) : Buf (Elt F) (outLoc d) :=
  (KvalF (m (tabLoc d) : FVec F S1000x128 .f32) (tok3V m d : IVec S32x50x128 32) (uflatV m d : FVec F S4096000 .f32) : FVec F S204800x128 .f32)

/-- The table's entries as contents of a SparseCore's shared copy. -/
def tabSh (d : Dev nD) (c : Fin τ.nSC) : Buf (Elt F) (shLoc d c) := (m (tabLoc d) : FVec F S1000x128 .f32)

/-- Every token names a vocabulary entry: what the precondition gives the tile's proof. -/
def PreOK : Prop := ∀ (d : Dev nD) (j : S4096x50.Idx), ((m (a1Loc d) : IVec S4096x50 32) j).toNat < 1000

/-! ## The element sets -/

omit [FloatOps F] in
theorem hdiv32 : 32 ∣ S204800x128.size 0 := ⟨6400, rfl⟩
/-- Worker `w`'s rows of the flat result. -/
abbrev slab (w : Fin 32) : Rect S204800x128 := Rect.part (s := S204800x128) (a₀ := 0) hdiv32 w
abbrev slabSet (w : Fin 32) : Finset S204800x128.Idx := (slab w).set
/-- The number of the worker on SparseCore `c`, vector subcore `i`. -/
def widOf (c : Fin τ.nSC) (i : Fin 16) : Fin 32 := ⟨2 * i.val + c.val, by have : c.val < 2 := c.isLt; have := i.isLt; omega⟩

/-- How many rows of the table subcore `i` stages. -/
def spmCount (i : Fin 16) : ℕ := if i.val < 15 then 64 else 40
omit [FloatOps F] in
theorem spm_inb (i : Fin 16) : ∀ a, (![64 * i.val, 0] : Fin 2 → ℕ) a + (![spmCount i, 128] : Fin 2 → ℕ) a ≤ S1000x128.size a := by
  intro a
  have hi := i.isLt
  match a with
  | ⟨0, _⟩ => show 64 * i.val + spmCount i ≤ 1000; unfold spmCount; split <;> omega
  | ⟨1, _⟩ => show 0 + 128 ≤ 128; omega
/-- The rows of the table subcore `i` stages. -/
abbrev spmRect (i : Fin 16) : Rect S1000x128 := Rect.unit (s := S1000x128) ![64 * i.val, 0] ![spmCount i, 128] (spm_inb i)
abbrev spmSet (i : Fin 16) : Finset S1000x128.Idx := (spmRect i).set

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A sixteenth share, tile `j`'s, of the rows subcore `n` staged, holding the table's entries. -/
abbrev shRowsPts (d : Dev nD) (c : Fin τ.nSC) (n j : Fin 16) : sProp 𝕄 := shLoc d c ↦[spmSet n]{qS j} tabSh m d c

/-- What subcore `n`'s arrival in tile `j`'s round hands over: tile `j`'s share of the rows `n` staged. -/
def bPay (g : GSem nD τ sig) (n : ℕ) : sProp 𝕄 :=
  match g with
  | ((d, .scVector c j), _) => if h : n < 16 then shRowsPts m d c ⟨n, h⟩ (Fin.cast nSub_eq j) else iprop(emp)
  | _ => iprop(emp)

/-- The barrier cells' schedule: one round on each, one unit duty per subcore of the SparseCore (named by its number),
    each handing over its share of what it staged. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A share of the three arrays a tile only reads. -/
abbrev inPts (d : Dev nD) (q : PosShare TreeShare) : sProp 𝕄 :=
  iprop((tabLoc d ↦{q} m (tabLoc d)) ∗ (tokLoc d ↦{q} tok3V m d) ∗ (uLoc d ↦{q} uflatV m d))
/-- What tile `(c, i)` is handed of the call's operands. -/
abbrev goMain (d : Dev nD) (c : Fin τ.nSC) (i : Fin 16) : sProp 𝕄 :=
  iprop(inPts m d (qT c i) ∗ outLoc d ↦[slabSet (widOf c i)]{fullShare} m (outLoc d))
/-- What it hands back: the same shares, and its rows of the flat result at their final value. -/
abbrev tdMain (d : Dev nD) (c : Fin τ.nSC) (i : Fin 16) : sProp 𝕄 :=
  iprop(inPts m d (qT c i) ∗ outLoc d ↦[slabSet (widOf c i)]{fullShare} outV m d)

def P : (K (F := F)).Pay (nD := nD) (Val := Elt F) (Name := ℕ) (U := UU) where
  st := fun q d c => match q with | 0 => bigSep Finset.univ fun i : Fin 16 => goMain m d (coreOf c) i
  dn := fun q d c => match q with | 0 => bigSep Finset.univ fun i : Fin 16 => tdMain m d (coreOf c) i
  go := fun q d c i => match q with
    | 0 => iprop(goMain m d (coreOf c) (Fin.cast nSub_zero i) ∗ ∃ f, shLoc d (coreOf c) ↦[spmSet (Fin.cast nSub_zero i)]{fullShare} f)
  td := fun q d c i => match q with
    | 0 => iprop(tdMain m d (coreOf c) (Fin.cast nSub_zero i) ∗ shLoc d (coreOf c) ↦{qS (Fin.cast nSub_zero i)} tabSh m d (coreOf c))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

end Cert.KI

end
-- ==== Proof.KI.TileStmt.lean ====
/-
  The statement that separates the tile's proof from the launch: one vector subcore's task, from what the launch hands
  it (its barrier kit, its shares of the arrays it reads, its rows of the flat result, the rows of the shared copy it
  stages, its own scratch and semaphores, what it owes) to what it hands back (the same shares, its rows of the flat
  result at their final value, a sixteenth share of the whole shared copy holding the table, its scratch and
  semaphores, the barrier's units paid).
-/
import proofs.«206556_g62818191671566_cont_9to1_m_1093_40_alg».proof.Proof.KI.Setup

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and scratch buffers as the kernel function names them -/

abbrev tabM : Memref sig .scVector .hbm S1000x128 .f32 := Memref.whole main_arg0_scv
abbrev tokM : Memref sig .scVector .hbm S32x50x128 .i32 := Memref.whole main_v0_scv
abbrev uM : Memref sig .scVector .hbm S4096000 .f32 := Memref.whole main_v1_scv
abbrev outM : Memref sig .scVector .hbm S204800x128 .f32 := Memref.whole main_v2_scv
abbrev idxM : Memref sig .scVector .vmem S50x128 .i32 := Memref.whole cc0_scratch0
abbrev midxM : Memref sig .scVector .vmem S2x128 .i32 := Memref.whole cc0_scratch1
abbrev mvalM : Memref sig .scVector .vmem S2x128 .f32 := Memref.whole cc0_scratch2
abbrev scaleM : Memref sig .scVector .vmem S128 .f32 := Memref.whole cc0_scratch3
abbrev rowsM : Memref sig .scVector .vmem S2x128x128 .f32 := Memref.whole cc0_scratch4
abbrev spmM : Memref sig .scVector .shared S1000x128 .f32 := Memref.whole cc0_scratch5

/-- The SparseCore and the vector subcore of a grid point. -/
abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)
/-- The thread of a grid point on device `d`. -/
abbrev thrV (d : Dev nD) (L : grid0.Coords) : Thread nD τ := V d (cV L) (jV L)

/-- The kernel function at a grid point, on the whole arrays and the subcore's scratch. -/
abbrev kernelAt [FloatOps F] (L : grid0.Coords) :
    Prog (TpuEff nD τ sig (Elt F) Λ₀ (.scVector ((L 0).castLE hcore0) ((L 1).castLE hsub0))) PUnit :=
  cc0_k L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4

variable [FloatOps F] (m : (ℓ : Loc nD τ sig) → Buf (Elt F) ℓ)

/-- One vector subcore's task, at every grid point of every device. -/
def TileBody : Prop :=
  ∀ (_hF : (K (F := F)).Facts) (_hpre : PreOK m) (d : Dev nD) (L : grid0.Coords)
    (O : CellTallies nD τ sig (HIx 1)) (W : Waits sig (HIx 1)) (_hO : ∀ g, O g none = 0)
    (_hOlev : ∀ g ι, 0 < O g ι → 8 * (0 : Fin 1).val + 6 ≤ (K (F := F)).lev g ι),
    (iprop(levAts (K (F := F)).L (K (F := F)).lev ∗ bkit m d (cV L) (jV L)
        ∗ (goMain m d (cV L) (jL L) ∗ ∃ f, shLoc d (cV L) ↦[spmSet (jL L)]{fullShare} f)
        ∗ scopedBufs (thrV d L) ∗ scopedSems0 (thrV d L) ∗ owes (thrV d L) (O + oxV d (cV L)) W) : sProp 𝕄)
      ⊢ wp frame (wpE (defs₀ (F := F)) 𝒱₀ (thrV d L) none) Set.univ (kernelAt (F := F) L)
          fun _ => iprop((tdMain m d (cV L) (jL L) ∗ shLoc d (cV L) ↦{qS (jL L)} tabSh m d (cV L))
            ∗ scopedBufs (thrV d L) ∗ scopedSems0 (thrV d L)
            ∗ ∃ W', ⌜∀ p ∈ W', p ∈ W ∨ p.2 = none ∨ p.2 = some (0 : Fin 1)⌝ ∗ owes (thrV d L) O W')

end Cert.KI

end
-- ==== Proof.KI.LaunchObl.lean ====
/-
  The tile's obligation in the launch theorem's own spelling: the kernel's label on a vector subcore of the call's
  grid is the kernel function at that subcore's grid point, so the tile's proof, taken as a hypothesis, is the
  obligation of every task.
-/
import proofs.«206556_g62818191671566_cont_9to1_m_1093_40_alg».proof.Proof.KI.TileStmt

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

set_option maxRecDepth 16384 in
theorem tileObl (hF : (K (F := F)).Facts) (hpre : PreOK m) (hbody : TileBody m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody hF hpre d (coordsV ⟨_, hci.1⟩ ⟨_, hci.2⟩) O W hO hOlev

end Cert.KI

end
-- ==== Proof.KI.LaunchElem.lean ====
/-
  The launch element of the ghost state and what the launch deals each subcore: the barrier cells' rounds are funded
  for every subcore of both SparseCores, their invariants allocated at once, and each subcore is handed its kit — every
  barrier cell's invariant of its SparseCore and that each has reached round 0, its own position at the origin of round
  0, its duty token in every cell's round 0, and the credit for the sixteen units of its own cell.
-/
import proofs.«206556_g62818191671566_cont_9to1_m_1093_40_alg».proof.Proof.KI.Setup

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-! ## What the handshakes carry can be stored in a cell -/

instance P_storable : (P (F := F) m).IsStorable where
  st q d c := match q with
    | 0 => (inferInstance : BI.Storable (upEmb : UEmb _ 𝕄) (bigSep Finset.univ fun i : Fin 16 => goMain m d (coreOf c) i))
  dn q d c := match q with
    | 0 => (inferInstance : BI.Storable (upEmb : UEmb _ 𝕄) (bigSep Finset.univ fun i : Fin 16 => tdMain m d (coreOf c) i))
  go q d c i := match q with
    | 0 => (inferInstance : BI.Storable (upEmb : UEmb _ 𝕄)
      iprop(goMain m d (coreOf c) (Fin.cast nSub_zero i) ∗ ∃ f, shLoc d (coreOf c) ↦[spmSet (Fin.cast nSub_zero i)]{fullShare} f))
  td q d c i := match q with
    | 0 => (inferInstance : BI.Storable (upEmb : UEmb _ 𝕄)
      iprop(tdMain m d (coreOf c) (Fin.cast nSub_zero i) ∗ shLoc d (coreOf c) ↦{qS (Fin.cast nSub_zero i)} tabSh m d (coreOf c)))

/-! ## The launch element of the certificate's ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.KI

end
-- ==== Proof.KI.BarrierPay.lean ====
/-
  The barrier's payloads, counted.  The sixteen subcores of a SparseCore stage disjoint runs of rows of the table that
  together are the whole table; each hands every tile a sixteenth share of its run, so that a full share of one run is
  the sixteen payloads its subcore pays, and the sixteen payloads a tile receives are a sixteenth share of the whole
  shared copy.
-/
import proofs.«206556_g62818191671566_cont_9to1_m_1093_40_alg».proof.Proof.KI.TileStmt

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The staged runs of rows partition the table -/

/-- Two different subcores stage disjoint runs of rows: the runs are separated on the row axis. -/
theorem spm_disjoint : ∀ n ∈ (Finset.univ : Finset (Fin 16)), ∀ n' ∈ (Finset.univ : Finset (Fin 16)), n ≠ n' →
    Disjoint (spmSet n) (spmSet n') := by
  intro n _ n' _ hne
  have hn := n.isLt
  have hn' := n'.isLt
  have hv : n.val ≠ n'.val := fun e => hne (Fin.ext e)
  refine Rect.unit_disjoint (⟨0, by decide⟩ : Fin S1000x128.rank) ?_
  show 64 * n.val + spmCount n ≤ 64 * n'.val ∨ 64 * n'.val + spmCount n' ≤ 64 * n.val
  unfold spmCount
  split <;> split <;> omega

/-- Every row of the table is staged by some subcore: row r by subcore r / 64, the rows from 960 on by the last. -/
theorem spm_cover : (Finset.univ : Finset (Fin 16)).biUnion spmSet = Finset.univ := by
  ext i
  simp only [Finset.mem_biUnion, Finset.mem_univ, true_and, iff_true]
  have h0 : (i 0).val < 1000 := idx2_lt0 i
  have h1 : (i 1).val < 128 := idx2_lt1 i
  by_cases hr : (i 0).val < 960
  · have hq : (i 0).val / 64 < 16 := by omega
    refine ⟨(⟨(i 0).val / 64, hq⟩ : Fin 16), Rect.mem_set_unit.mpr fun a => ?_⟩
    match a with
    | ⟨0, _⟩ =>
      show 64 * ((i 0).val / 64) ≤ (i 0).val ∧ (i 0).val < 64 * ((i 0).val / 64) + spmCount ⟨(i 0).val / 64, hq⟩
      have hc : spmCount (⟨(i 0).val / 64, hq⟩ : Fin 16) = 64 := by
        unfold spmCount; rw [if_pos (show (i 0).val / 64 < 15 by omega)]
      rw [hc]; omega
    | ⟨1, _⟩ => show 0 ≤ (i 1).val ∧ (i 1).val < 0 + 128; omega
  · have h15 : (15 : ℕ) < 16 := by omega
    refine ⟨(⟨15, h15⟩ : Fin 16), Rect.mem_set_unit.mpr fun a => ?_⟩
    match a with
    | ⟨0, _⟩ =>
      show 64 * 15 ≤ (i 0).val ∧ (i 0).val < 64 * 15 + spmCount ⟨15, h15⟩
      have hc : spmCount (⟨15, h15⟩ : Fin 16) = 40 := by
        unfold spmCount; rw [if_neg (show ¬ (15 : ℕ) < 15 by omega)]
      rw [hc]; omega
    | ⟨1, _⟩ => show 0 ≤ (i 1).val ∧ (i 1).val < 0 + 128; omega

/-! ## A share as its leaves -/

/-- The leaves of depth n + 1 are the leaves of the left half followed by the leaves of the right half. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) :
    leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]

theorem leaf_inr (n : ℕ) (q : PosShare TreeShare) (i : Fin (2 ^ n)) :
    leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- Holding elements at a share is holding them at each of the share's leaves of depth n, all at once: a share is
    its two halves, and each half its own leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The payloads at a barrier cell -/

variable [FloatOps F] (m : (ℓ : Loc nD τ sig) → Buf (Elt F) ℓ)

/-- At tile j's barrier cell, subcore n's payload is tile j's sixteenth share of the rows subcore n staged. -/
theorem bPay_bcell (d : Dev nD) (c : Fin τ.nSC) (j : Fin τ.nSub) (n : Fin 16) :
    bPay m (bcell d c j) n.val = shRowsPts m d c n (Fin.cast nSub_eq j) := by
  unfold bPay; dsimp only
  rw [dif_pos n.isLt]

/-- A full share of the rows a subcore staged is the sixteen payloads it pays, one into each tile's round: the full
    share is its sixteen leaves of depth four, and leaf j is tile j's share. -/
theorem pays_intro (d : Dev nD) (L : grid0.Coords) :
    (shLoc d (cV L) ↦[spmSet (jL L)]{fullShare} tabSh m d (cV L) : sProp 𝕄)
      ⊢ bigSep Finset.univ fun j : Fin (grid0.bound 1) =>
          (bRd (F := F) m).payload (bcell d (cV L) (j.castLE hsub0)) 0 (jV L).val := by
  rw [pointsTo_leaves (ℓ := shLoc d (cV L)) (spmSet (jL L)) (tabSh m d (cV L)) 4 fullShare,
    bigSep_univ_equiv (finCongr (show grid0.bound 1 = 2 ^ 4 from rfl))
      (fun i : Fin (2 ^ 4) => (shLoc d (cV L) ↦[spmSet (jL L)]{leaf 4 fullShare i} tabSh m d (cV L) : sProp 𝕄))]
  refine bigSep_mono fun j _ => ?_
  show _ ⊢ bPay m (bcell d (cV L) (j.castLE hsub0)) (jL L).val
  rw [bPay_bcell m d (cV L) (j.castLE hsub0) (jL L)]
  exact BI.Entails.refl _

/-- The sixteen payloads a tile's round collects are its sixteenth share of the whole shared copy: the staged runs
    of rows are pairwise disjoint and together every row. -/
theorem pays_elim (d : Dev nD) (L : grid0.Coords) :
    (bigSep ((bRd (F := F) m).duties (bcell d (cV L) (jV L)) 0 \ ∅) fun n =>
        (bRd (F := F) m).payload (bcell d (cV L) (jV L)) 0 n)
      ⊢ (shLoc d (cV L) ↦{qS (jL L)} tabSh m d (cV L) : sProp 𝕄) := by
  have hq : (shLoc d (cV L) ↦{qS (jL L)} tabSh m d (cV L) : sProp 𝕄)
      = bigSep Finset.univ fun t : Fin 16 => shLoc d (cV L) ↦[spmSet t]{qS (jL L)} tabSh m d (cV L) := by
    rw [← pointsTo_biUnion (ℓ := shLoc d (cV L)) (q := qS (jL L)) (f := tabSh m d (cV L)) Finset.univ spmSet spm_disjoint,
      spm_cover]
  rw [hq, Finset.sdiff_empty, bRd_duties₀,
    bigSep_image_of_injOn (Fin.val_injective.injOn) (fun n => (bRd (F := F) m).payload (bcell d (cV L) (jV L)) 0 n),
    bigSep_univ_equiv (finCongr nSub_eq.symm : Fin 16 ≃ Fin τ.nSub)
      (fun i : Fin τ.nSub => (bRd (F := F) m).payload (bcell d (cV L) (jV L)) 0 i.val)]
  refine bigSep_mono fun t _ => ?_
  show bPay m (bcell d (cV L) (jV L)) t.val ⊢ _
  rw [bPay_bcell m d (cV L) (jV L) t]
  exact BI.Entails.refl _

end Cert.KI

end
-- ==== Proof.KI.LaunchSplit.lean ====
/-
  How a SparseCore's operands for the call split among its sixteen subcores and how their results gather.  The
  operands are already stated per subcore and go out as they are; the SparseCore's shared copy of the table comes out of
  the sequencer's own buffers whole, at whatever it holds, and is cut into the sixteen row blocks the subcores stage;
  each subcore returns a sixteenth share of the whole copy holding the table's entries, and the sixteen shares are the
  full share again.
-/
import proofs.«206556_g62818191671566_cont_9to1_m_1093_40_alg».proof.Proof.KI.BarrierPay

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares by sixteenths and by halves -/

/-- At depth four, over the sixteen subcores. -/
theorem pointsTo_sixteenths {ℓ : Loc nD τ sig} (I : Finset (Idx ℓ)) (f : Buf (Elt F) ℓ) (q : PosShare TreeShare) :
    (ℓ ↦[I]{q} f : sProp 𝕄) = bigSep Finset.univ fun i : Fin 16 => ℓ ↦[I]{leaf 4 q ⟨i.val, i.isLt⟩} f :=
  pointsTo_leaves I f 4 q

/-- At depth one, over the two SparseCores. -/
theorem pointsTo_halves {ℓ : Loc nD τ sig} (I : Finset (Idx ℓ)) (f : Buf (Elt F) ℓ) (q : PosShare TreeShare) :
    (ℓ ↦[I]{q} f : sProp 𝕄) = bigSep Finset.univ fun c : Fin 2 => ℓ ↦[I]{leaf 1 q ⟨c.val, c.isLt⟩} f :=
  pointsTo_leaves I f 1 q

/-! ## The shared copy: out of the sequencer's buffers, into row blocks, back from sixteenth shares -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem shPts_rows (d : Dev nD) (c : Fin τ.nSC) (f : Buf (Elt F) (shLoc d c)) :
    (shLoc d c ↦{fullShare} f : sProp 𝕄) = bigSep Finset.univ fun i : Fin 16 => shLoc d c ↦[spmSet i]{fullShare} f := by
  rw [← pointsTo_biUnion Finset.univ (ℓ := shLoc d c) spmSet spm_disjoint, spm_cover]; try rfl

theorem shPts_shares (d : Dev nD) (c : Fin τ.nSC) (f : Buf (Elt F) (shLoc d c)) :
    (shLoc d c ↦{fullShare} f : sProp 𝕄) = bigSep Finset.univ fun i : Fin 16 => shLoc d c ↦{qS i} f :=
  pointsTo_sixteenths Finset.univ f fullShare

/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F] (m : (ℓ : Loc nD τ sig) → Buf (Elt F) ℓ)

/-! ## What the handshakes carry, as equations -/

theorem P_st (d : Dev nD) (c : Fin ((K (F := F)).nCore 0)) :
    (P m).st 0 d c = bigSep Finset.univ fun i : Fin 16 => goMain m d (coreOf c) i := rfl
theorem P_dn (d : Dev nD) (c : Fin ((K (F := F)).nCore 0)) :
    (P m).dn 0 d c = bigSep Finset.univ fun i : Fin 16 => tdMain m d (coreOf c) i := rfl
theorem P_go (d : Dev nD) (c : Fin ((K (F := F)).nCore 0)) (i : Fin ((K (F := F)).nSub 0)) :
    (P m).go 0 d c i = iprop(goMain m d (coreOf c) (Fin.cast nSub_zero i) ∗ ∃ f, shLoc d (coreOf c) ↦[spmSet (Fin.cast nSub_zero i)]{fullShare} f) := rfl
theorem P_td (d : Dev nD) (c : Fin ((K (F := F)).nCore 0)) (i : Fin ((K (F := F)).nSub 0)) :
    (P m).td 0 d c i = iprop(tdMain m d (coreOf c) (Fin.cast nSub_zero i) ∗ shLoc d (coreOf c) ↦{qS (Fin.cast nSub_zero i)} tabSh m d (coreOf c)) := rfl

/-! ## The split -/

theorem vecSplit : (K (F := F)).VecSplit (P m) 0 := by
  intro d c
  simp only [P_st, P_dn, P_go, P_td]
  rw [bigSep_tasks (F := F) (fun i => iprop(goMain m d (coreOf c) i ∗ ∃ f, shLoc d (coreOf c) ↦[spmSet i]{fullShare} f)),
    bigSep_tasks (F := F) (fun i => iprop(tdMain m d (coreOf c) i ∗ shLoc d (coreOf c) ↦{qS i} tabSh m d (coreOf c))),
    bigSep_sep' Finset.univ (fun i => goMain m d (coreOf c) i) (fun i => iprop(∃ f, shLoc d (coreOf c) ↦[spmSet i]{fullShare} f)),
    bigSep_sep' Finset.univ (fun i => tdMain m d (coreOf c) i) (fun i => shLoc d (coreOf c) ↦{qS i} tabSh m d (coreOf c)),
    ownBufs_S, ← shPts_shares]
  iintro ⟨Hgo, ⟨%fsh, Hsh⟩, Hrest⟩; imodintro
  isplitl [Hgo Hsh]
  · isplitl [Hgo]; · iexact Hgo
    ihave Hsh' := ((Entails.of_eq (shPts_rows d (coreOf c) fsh)).trans (SparseCore.ent (bigSep_mono (Φ := fun i => (shLoc d (coreOf c) ↦[spmSet i]{fullShare} fsh : sProp 𝕄))
      (Ψ := fun i => iprop(∃ f, shLoc d (coreOf c) ↦[spmSet i]{fullShare} f))
      fun i _ => BI.BIClass.exists_intro (Φ := fun f => (shLoc d (coreOf c) ↦[spmSet i]{fullShare} f : sProp 𝕄)) fsh))) $$ Hsh
    iexact Hsh'
  iintro ⟨Htd, Hsh⟩
  isplitl [Htd]; · iexact Htd
  isplitl [Hsh]; · iexists (tabSh m d (coreOf c)); iexact Hsh
  iexact Hrest

end Cert.KI

end
-- ==== Proof.KI.LaunchMain.lean ====
/-
  @main on the TensorCore: the host regroups the tokens by worker and flattens the draws, hands the table, the regrouped
  tokens and the flattened draws to the thirty-two subcores as read shares (halved once per SparseCore, then four times
  per subcore) and the flat result as thirty-two blocks of rows, gets them back with every block at its final value,
  and reshapes the flat result into the result.
-/
import proofs.«206556_g62818191671566_cont_9to1_m_1093_40_alg».proof.Proof.KI.LaunchSplit

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The workers: a SparseCore and a subcore, numbered `2 i + c` -/

abbrev CI : Type := Fin τ.nSC × Fin 16

/-- Worker numbers are exactly the pairs. -/
def widEquiv : CI ≃ Fin 32 where
  toFun p := widOf p.1 p.2
  invFun w := (⟨w.val % 2, Nat.mod_lt _ (by decide)⟩, ⟨w.val / 2, by have := w.isLt; omega⟩)
  left_inv := by
    rintro ⟨c, i⟩
    have hc : c.val < 2 := c.isLt
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

theorem widEquiv_apply (p : CI) : widEquiv p = widOf p.1 p.2 := rfl

/-! ## Read shares of a whole array, and the flat result's row blocks, per worker -/

theorem pointsTo_cores {ℓ : Loc nD τ sig} (I : Finset (Idx ℓ)) (f : Buf (Elt F) ℓ) :
    (ℓ ↦[I]{fullShare} f : sProp 𝕄) = bigSep Finset.univ fun c : Fin τ.nSC => ℓ ↦[I]{qC c} f :=
  pointsTo_leaves I f 1 fullShare

theorem pointsTo_tiles {ℓ : Loc nD τ sig} (I : Finset (Idx ℓ)) (f : Buf (Elt F) ℓ) (c : Fin τ.nSC) :
    (ℓ ↦[I]{qC c} f : sProp 𝕄) = bigSep Finset.univ fun i : Fin 16 => ℓ ↦[I]{qT c i} f :=
  pointsTo_leaves I f 4 (qC c)

theorem shares_split {ℓ : Loc nD τ sig} (f : Buf (Elt F) ℓ) :
    (ℓ ↦{fullShare} f : sProp 𝕄) = bigSep Finset.univ fun p : CI => ℓ ↦{qT p.1 p.2} f := by
  rw [bigSep_univ_prod (fun p : CI => (ℓ ↦{qT p.1 p.2} f : sProp 𝕄)), pointsTo_cores]
  exact bigSep_congr fun c _ => pointsTo_tiles Finset.univ f c

theorem slab_disjoint : ∀ w ∈ (Finset.univ : Finset (Fin 32)), ∀ w' ∈ (Finset.univ : Finset (Fin 32)), w ≠ w' → Disjoint (slabSet w) (slabSet w') :=
  fun _ _ _ _ h => Rect.part_disjoint hdiv32 h
theorem slab_cover : (Finset.univ : Finset (Fin 32)).biUnion slabSet = Finset.univ := Rect.biUnion_part hdiv32

theorem out_split (d : Dev nD) (f : Buf (Elt F) (outLoc d)) :
    (outLoc d ↦{fullShare} f : sProp 𝕄) = bigSep Finset.univ fun p : CI => outLoc d ↦[slabSet (widOf p.1 p.2)]{fullShare} f := by
  have h := bigSep_univ_equiv widEquiv (fun w : Fin 32 => (outLoc d ↦[slabSet w]{fullShare} f : sProp 𝕄))
  rw [← pointsTo_biUnion Finset.univ (ℓ := outLoc d) slabSet slab_disjoint, slab_cover] at h
  exact h

theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)

variable [FloatOps F]

/-- Every worker's operands together: the three read arrays whole, the flat result whole. -/
theorem main_all (d : Dev nD) (g : Buf (Elt F) (outLoc d)) :
    (bigSep Finset.univ fun p : CI => iprop(inPts m d (qT p.1 p.2) ∗ outLoc d ↦[slabSet (widOf p.1 p.2)]{fullShare} g) : sProp 𝕄)
      = iprop(inPts m d fullShare ∗ outLoc d ↦{fullShare} g) := by
  rw [bigSep_sep' Finset.univ (fun p : CI => inPts m d (qT p.1 p.2)) (fun p : CI => (outLoc d ↦[slabSet (widOf p.1 p.2)]{fullShare} g : sProp 𝕄)),
    bigSep_sep' Finset.univ (fun p : CI => (tabLoc d ↦{qT p.1 p.2} m (tabLoc d) : sProp 𝕄))
      (fun p : CI => iprop((tokLoc d ↦{qT p.1 p.2} tok3V m d) ∗ (uLoc d ↦{qT p.1 p.2} uflatV m d))),
    bigSep_sep' Finset.univ (fun p : CI => (tokLoc d ↦{qT p.1 p.2} tok3V m d : sProp 𝕄)) (fun p : CI => (uLoc d ↦{qT p.1 p.2} uflatV m d : sProp 𝕄)),
    ← shares_split, ← shares_split, ← shares_split, ← out_split]

theorem st0_eq (d : Dev nD) : (bigSep Finset.univ fun c : Fin ((K (F := F)).nCore 0) => (P m).st 0 d c)
    = iprop(inPts m d fullShare ∗ outLoc d ↦{fullShare} m (outLoc d)) := by
  simp only [P_st]
  rw [bigSep_cores (fun c => bigSep Finset.univ fun i : Fin 16 => goMain m d c i), ← main_all,
    bigSep_univ_prod (fun p : CI => iprop(inPts m d (qT p.1 p.2) ∗ outLoc d ↦[slabSet (widOf p.1 p.2)]{fullShare} m (outLoc d)))]
theorem dn0_eq (d : Dev nD) : (bigSep Finset.univ fun c : Fin ((K (F := F)).nCore 0) => (P m).dn 0 d c)
    = iprop(inPts m d fullShare ∗ outLoc d ↦{fullShare} outV m d) := by
  simp only [P_dn]
  rw [bigSep_cores (fun c => bigSep Finset.univ fun i : Fin 16 => tdMain m d c i), ← main_all,
    bigSep_univ_prod (fun p : CI => iprop(inPts m d (qT p.1 p.2) ∗ outLoc d ↦[slabSet (widOf p.1 p.2)]{fullShare} outV m d))]

/-! ## The host's three reshapes -/

abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev opTok : HloOp τ sig (Elt F) := StableHlo.reshape main_arg1 main_v0 rfl shapeCasts_S4096x50_S32x50x128
abbrev opU : HloOp τ sig (Elt F) := StableHlo.reshape main_arg2 main_v1 rfl shapeCasts_S4096x1000_S4096000
abbrev opRes : HloOp τ sig (Elt F) := StableHlo.reshape main_v2 main_v3 rfl shapeCasts_S204800x128_S4096x50x128

/-- The result: the flat result regrouped by batch row and position. -/
abbrev resV (d : Dev nD) : Buf (Elt F) (resLoc d) :=
  (shapeCast S4096x50x128 (outV m d : FVec F S204800x128 .f32) shapeCasts_S204800x128_S4096x50x128 : FVec F S4096x50x128 .f32)

/-- The launch valuation, and the one after the call. -/
def V0 (d : Dev nD) : Valuation τ sig (Elt F) := fun b => m (d, b)
def V3 (d : Dev nD) : Valuation τ sig (Elt F) := Function.update (V0 m d) v2' (outV m d)

theorem held_pair (d : Dev nD) (a b : DevRef τ sig) (hab : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (fun h => hab (Finset.mem_singleton.mp h)), bigSep_singleton]

theorem hTok : (opTok (F := F)).bufs ⊆ ({a1', v0'} : Finset (DevRef τ sig)) := Finset.Subset.refl _
theorem hU : (opU (F := F)).bufs ⊆ ({a2', v1'} : Finset (DevRef τ sig)) := Finset.Subset.refl _
theorem hRes : (opRes (F := F)).bufs ⊆ ({v2', v3'} : Finset (DevRef τ sig)) := Finset.Subset.refl _

theorem tok_after (d : Dev nD) :
    (held (T d) {a1', v0'} ((opTok (F := F)).result (V0 m d)) : sProp 𝕄) = iprop((a1Loc d ↦{fullShare} m (a1Loc d)) ∗ tokLoc d ↦{fullShare} tok3V m d) := by
  rw [held_pair d a1' v0' (by decide),
    StableHlo.reshape_result_ne main_arg1 main_v0 rfl shapeCasts_S4096x50_S32x50x128 _ _ (V0 m d) (show (main_arg1 : Ref sig .tc) ≠ main_v0 by decide),
    StableHlo.reshape_result main_arg1 main_v0 rfl shapeCasts_S4096x50_S32x50x128 _ _ (V0 m d)]
  rfl
theorem u_after (d : Dev nD) :
    (held (T d) {a2', v1'} ((opU (F := F)).result (V0 m d)) : sProp 𝕄) = iprop((a2Loc d ↦{fullShare} m (a2Loc d)) ∗ uLoc d ↦{fullShare} uflatV m d) := by
  rw [held_pair d a2' v1' (by decide),
    StableHlo.reshape_result_ne main_arg2 main_v1 rfl shapeCasts_S4096x1000_S4096000 _ _ (V0 m d) (show (main_arg2 : Ref sig .tc) ≠ main_v1 by decide),
    StableHlo.reshape_result main_arg2 main_v1 rfl shapeCasts_S4096x1000_S4096000 _ _ (V0 m d)]
  rfl
theorem V3_v2 (d : Dev nD) : V3 m d v2' = outV m d := Function.update_self _ _ _
theorem V3_v3 (d : Dev nD) : V3 m d v3' = m (resLoc d) := Function.update_of_ne (show v3' ≠ v2' by decide) _ _
theorem res_after (d : Dev nD) :
    (held (T d) {v2', v3'} ((opRes (F := F)).result (V3 m d)) : sProp 𝕄) = iprop((outLoc d ↦{fullShare} outV m d) ∗ resLoc d ↦{fullShare} resV m d) := by
  rw [held_pair d v2' v3' (by decide),
    StableHlo.reshape_result_ne main_v2 main_v3 rfl shapeCasts_S204800x128_S4096x50x128 _ _ (V3 m d) (show (main_v2 : Ref sig .tc) ≠ main_v3 by decide),
    StableHlo.reshape_result main_v2 main_v3 rfl shapeCasts_S204800x128_S4096x50x128 _ _ (V3 m d), V3_v2]
  rfl

/-! ## @main on the TensorCore -/

theorem unscopedBufs_eq (d : Dev nD) (W : (b : Ref sig .tc) → Buf (Elt F) ((d.tc : Thread nD τ).loc b)) :
    (unscopedBufs d W : sProp 𝕄) = iprop((tabLoc d ↦{fullShare} W main_arg0) ∗ (a1Loc d ↦{fullShare} W main_arg1) ∗ (a2Loc d ↦{fullShare} W main_arg2)
      ∗ (tokLoc d ↦{fullShare} W main_v0) ∗ (uLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What @main leaves the claim: the three arguments at their launch contents, the result at its value. -/
abbrev FIN (d : Dev nD) : sProp 𝕄 :=
  iprop((tabLoc d ↦{fullShare} m (tabLoc d)) ∗ (a1Loc d ↦{fullShare} m (a1Loc d)) ∗ (a2Loc d ↦{fullShare} m (a2Loc d)) ∗ resLoc d ↦{fullShare} resV m d)

/-- @main on device `d`'s TensorCore: the two reshapes of the arguments, the call, the reshape of the flat result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Htab, Ha1, Ha2, Htok, Hu, Hout, Hres⟩, -, -⟩, -⟩
  -- the tokens regrouped
  iapply (wp_hlo_within 𝒱 (SparseCore.T d) none Set.univ (op := opTok) (S := {a1', v0'}) hTok (V := V0 m d)) $$ [Hb Ha1 Htok]
  · isplitl [Hb]; · iexact Hb
    rw [held_pair d a1' v0' (by decide)]
    isplitl [Ha1]; · iexact Ha1
    iexact Htok
  iintro ⟨Hb, Hheld⟩
  ihave Hh := (Entails.of_eq (tok_after m d)) $$ Hheld
  icases Hh with ⟨Ha1, Htok⟩
  rw [wp_ret]; imodintro
  -- the draws flattened
  iapply (wp_hlo_within 𝒱 (SparseCore.T d) none Set.univ (op := opU) (S := {a2', v1'}) hU (V := V0 m d)) $$ [Hb Ha2 Hu]
  · isplitl [Hb]; · iexact Hb
    rw [held_pair d a2' v1' (by decide)]
    isplitl [Ha2]; · iexact Ha2
    iexact Hu
  iintro ⟨Hb, Hheld⟩
  ihave Hh := (Entails.of_eq (u_after m d)) $$ Hheld
  icases Hh with ⟨Ha2, Hu⟩
  rw [wp_ret]; imodintro
  -- the call: shares of the three read arrays and the flat result's row blocks to both SparseCores and back
  iapply ((K (F := F)).wp_run (D (F := F)) 𝒱 (EH := EH) (P := P m) κ d 0) $$ [Hst Htab Htok Hu Hout Hb Ha1 Ha2 Hres]
  isplitr; · iexact Hctx
  isplitl [Hst]; · iexact Hst
  isplitl [Htab Htok Hu Hout]
  · rw [st0_eq]
    isplitl [Htab Htok Hu]
    · isplitl [Htab]; · iexact Htab
      isplitl [Htok]; · iexact Htok
      iexact Hu
    iexact Hout
  iintro ⟨Hst, Hdn⟩
  ihave Hdn' := (Entails.of_eq (dn0_eq m d)) $$ Hdn
  icases Hdn' with ⟨⟨Htab, -, -⟩, Hout⟩
  -- the flat result regrouped
  iapply (wp_hlo_within 𝒱 (SparseCore.T d) none Set.univ (op := opRes) (S := {v2', v3'}) hRes (V := V3 m d)) $$ [Hb Hout Hres]
  · isplitl [Hb]; · iexact Hb
    rw [held_pair d v2' v3' (by decide), V3_v2, V3_v3]
    isplitl [Hout]; · iexact Hout
    iexact Hres
  iintro ⟨Hb, Hheld⟩
  ihave Hh := (Entails.of_eq (res_after m d)) $$ Hheld
  icases Hh with ⟨-, Hres⟩
  rw [wp_ret]; imodintro; imodintro
  isplitl [Hst]; · iexact Hst
  isplitl [Htab]; · iexact Htab
  isplitl [Ha1]; · iexact Ha1
  isplitl [Ha2]; · iexact Ha2
  iexact Hres

end Cert.KI

end
-- ==== Proof.KI.LaunchRun.lean ====
/-
  The whole program's run: from a memory that satisfies the precondition, under every weakly fair schedule, the
  program ends with the three arguments unchanged and the result holding, for every batch row and position, the
  table's row of the token there, scaled by the draw.  It is the launch theorem applied to the tile's obligation, the
  operands' split, the launch element and @main's proof.
-/
import proofs.«206556_g62818191671566_cont_9to1_m_1093_40_alg».proof.Proof.KI.LaunchObl
import proofs.«206556_g62818191671566_cont_9to1_m_1093_40_alg».proof.Proof.KI.LaunchElem
import proofs.«206556_g62818191671566_cont_9to1_m_1093_40_alg».proof.Proof.KI.LaunchMain

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## How the final memory reads the claim -/

def fq (d : Dev nD) (s' : Phys nD τ sig (Elt F)) : Prop :=
  s'.mem.mem (resLoc d) = resV m d ∧ s'.mem.mem (tabLoc d) = m (tabLoc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨Htab, Ha1, Ha2, Hres⟩, HSI⟩
  ihave H := (persistent_entails_right (SI_pointsTo_agree (st := s') (ℓ := tabLoc d) (I := Finset.univ) (q := fullShare) (f := m (tabLoc d)))) $$ [HSI Htab]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (SI_pointsTo_agree (st := s') (ℓ := resLoc d) (I := Finset.univ) (q := fullShare) (f := resV m d)) $$ [HSI Hres]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- What the run establishes of the final memory, on every device: the result at its value, the arguments unchanged. -/
def QC : PUnit × MemSt nD τ sig (Elt F) → Prop := fun r =>
  ∀ c : Dev nD, r.2.mem (resLoc c) = resV m c ∧ r.2.mem (tabLoc c) = m (tabLoc c) ∧ r.2.mem (a1Loc c) = m (a1Loc c) ∧ r.2.mem (a2Loc c) = m (a2Loc c)

theorem run_main [∀ e, Nonempty (Elt F e)] (hpre : PreOK m) (hbody : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre hbody)
    (fun q _ => match q with | 0 => vecSplit m)
    m ρ main (fun _ => iprop(emp)) (FIN m) (u₀ (F := F)) (hu₀ m) (hmain m ρ) (fq m) (hfin m) (QC m) (fun _ h => h)

end Cert.KI

end
-- ==== Proof.KB.Setup.lean ====
/-
  The vocabulary the tile's proof and the launch share, for the program read at any float instance.

  A worker is a pair (SparseCore `c`, vector subcore `i`), numbered `2 i + c`; it owns the 6400 rows of the flat result
  that follow row `6400 (2 i + c)`, reads a share of the whole table, of the whole reshaped token array and of the
  whole flattened array of draws, and stages rows `64 i .. 64 i + 63` of the table (the last subcore rows 960..999)
  into its SparseCore's shared copy.  At the subcore barrier every subcore hands every subcore of its SparseCore a
  sixteenth share of the rows it staged, holding the table's entries; after the barrier each subcore therefore holds a
  sixteenth share of the whole shared copy, equal to the table, which is what its indexed gathers read.  The flat
  result's row `n` is the table's row of token `n`, scaled by `2` or `0` by the draw of batch row `n / 50` at that token.
-/
import proofs.«206556_g62818191671566_cont_9to1_m_1093_40_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«206556_g62818191671566_cont_9to1_m_1093_40_alg».proof.Proof.Gen.Kernel
import proofs.«206556_g62818191671566_cont_9to1_m_1093_40_alg».proof.Proof.Gen.Kernel.Skeleton
import proofs.«206556_g62818191671566_cont_9to1_m_1093_40_alg».proof.Proof.Spec

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Shares: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The share of the read-only arrays a SparseCore's tiles hold together: half. -/
abbrev qC (c : Fin τ.nSC) : PosShare TreeShare := leaf 1 fullShare ⟨c.val, c.isLt⟩
/-- One tile's share of the read-only arrays: a sixteenth of its SparseCore's half. -/
abbrev qT (c : Fin τ.nSC) (i : Fin 16) : PosShare TreeShare := leaf 4 (qC c) ⟨i.val, i.isLt⟩
/-- One tile's share of its SparseCore's shared copy of the table after the barrier: a sixteenth. -/
abbrev qS (i : Fin 16) : PosShare TreeShare := leaf 4 fullShare ⟨i.val, i.isLt⟩

/-! ## The launch memory, the arrays and their values -/

variable (m : (ℓ : Loc nD τ sig) → Buf (Elt F) ℓ) (ρ : Dev nD → PrngReg)

abbrev tabLoc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev tokLoc (d : Dev nD) : Loc nD τ sig := (SparseCore.T d).loc main_v0
abbrev uLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3
/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The tokens regrouped by worker, chunk and position in the chunk: the host's reshape of the token array. -/
def tok3V (d : Dev nD) : Buf (Elt F) (tokLoc d) :=
  (shapeCast S32x50x128 (m (a1Loc d) : IVec S4096x50 32) shapeCasts_S4096x50_S32x50x128 : IVec S32x50x128 32)
/-- The draws in one row: the host's flattening. -/
def uflatV (d : Dev nD) : Buf (Elt F) (uLoc d) :=
  (shapeCast S4096000 (m (a2Loc d) : FVec F S4096x1000 .f32) shapeCasts_S4096x1000_S4096000 : FVec F S4096000 .f32)

variable [FloatOps F]

/-- The flat result as a function of the table, the regrouped tokens and the flattened draws: row `n` is the table's
    row of token `n`, times `2` where the draw of batch row `n / 50` at that token is below one half and `0` elsewhere.
    Stated with the float operations of the instance, so that it reads at the word level and at the ideal level alike. -/
def KvalF (tab : FVec F S1000x128 .f32) (tok3 : IVec S32x50x128 32) (uflat : FVec F S4096000 .f32) : FVec F S204800x128 .f32 :=
  fun i =>
    let v : Fin 1000 := Cert.Spec.row (tok3 (ix3 (⟨(i 0).val / 6400, by have := idx2_lt0 i; omega⟩ : Fin 32)
      (⟨(i 0).val % 6400 / 128, by omega⟩ : Fin 50) (⟨(i 0).val % 128, by omega⟩ : Fin 128)))
    FloatOps.mulf (tab (ix2 v (i 1)))
      (Scalar.select (FloatOps.cmpf .olt (uflat (ix1 (⟨(i 0).val / 50 * 1000 + v.val, by have := idx2_lt0 i; have := v.isLt; omega⟩ : Fin 4096000)))
          (Scalar.ofBits .f32 0x3F000000#32))
        (Scalar.ofBits .f32 0x40000000#32) (Scalar.ofBits .f32 0x00000000#32))

/-- What the flat result holds after the call. -/
def outV (d : Dev nD) : Buf (Elt F) (outLoc d) :=
  (KvalF (m (tabLoc d) : FVec F S1000x128 .f32) (tok3V m d : IVec S32x50x128 32) (uflatV m d : FVec F S4096000 .f32) : FVec F S204800x128 .f32)

/-- The table's entries as contents of a SparseCore's shared copy. -/
def tabSh (d : Dev nD) (c : Fin τ.nSC) : Buf (Elt F) (shLoc d c) := (m (tabLoc d) : FVec F S1000x128 .f32)

/-- Every token names a vocabulary entry: what the precondition gives the tile's proof. -/
def PreOK : Prop := ∀ (d : Dev nD) (j : S4096x50.Idx), ((m (a1Loc d) : IVec S4096x50 32) j).toNat < 1000

/-! ## The element sets -/

omit [FloatOps F] in
theorem hdiv32 : 32 ∣ S204800x128.size 0 := ⟨6400, rfl⟩
/-- Worker `w`'s rows of the flat result. -/
abbrev slab (w : Fin 32) : Rect S204800x128 := Rect.part (s := S204800x128) (a₀ := 0) hdiv32 w
abbrev slabSet (w : Fin 32) : Finset S204800x128.Idx := (slab w).set
/-- The number of the worker on SparseCore `c`, vector subcore `i`. -/
def widOf (c : Fin τ.nSC) (i : Fin 16) : Fin 32 := ⟨2 * i.val + c.val, by have : c.val < 2 := c.isLt; have := i.isLt; omega⟩

/-- How many rows of the table subcore `i` stages. -/
def spmCount (i : Fin 16) : ℕ := if i.val < 15 then 64 else 40
omit [FloatOps F] in
theorem spm_inb (i : Fin 16) : ∀ a, (![64 * i.val, 0] : Fin 2 → ℕ) a + (![spmCount i, 128] : Fin 2 → ℕ) a ≤ S1000x128.size a := by
  intro a
  have hi := i.isLt
  match a with
  | ⟨0, _⟩ => show 64 * i.val + spmCount i ≤ 1000; unfold spmCount; split <;> omega
  | ⟨1, _⟩ => show 0 + 128 ≤ 128; omega
/-- The rows of the table subcore `i` stages. -/
abbrev spmRect (i : Fin 16) : Rect S1000x128 := Rect.unit (s := S1000x128) ![64 * i.val, 0] ![spmCount i, 128] (spm_inb i)
abbrev spmSet (i : Fin 16) : Finset S1000x128.Idx := (spmRect i).set

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A sixteenth share, tile `j`'s, of the rows subcore `n` staged, holding the table's entries. -/
abbrev shRowsPts (d : Dev nD) (c : Fin τ.nSC) (n j : Fin 16) : sProp 𝕄 := shLoc d c ↦[spmSet n]{qS j} tabSh m d c

/-- What subcore `n`'s arrival in tile `j`'s round hands over: tile `j`'s share of the rows `n` staged. -/
def bPay (g : GSem nD τ sig) (n : ℕ) : sProp 𝕄 :=
  match g with
  | ((d, .scVector c j), _) => if h : n < 16 then shRowsPts m d c ⟨n, h⟩ (Fin.cast nSub_eq j) else iprop(emp)
  | _ => iprop(emp)

/-- The barrier cells' schedule: one round on each, one unit duty per subcore of the SparseCore (named by its number),
    each handing over its share of what it staged. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A share of the three arrays a tile only reads. -/
abbrev inPts (d : Dev nD) (q : PosShare TreeShare) : sProp 𝕄 :=
  iprop((tabLoc d ↦{q} m (tabLoc d)) ∗ (tokLoc d ↦{q} tok3V m d) ∗ (uLoc d ↦{q} uflatV m d))
/-- What tile `(c, i)` is handed of the call's operands. -/
abbrev goMain (d : Dev nD) (c : Fin τ.nSC) (i : Fin 16) : sProp 𝕄 :=
  iprop(inPts m d (qT c i) ∗ outLoc d ↦[slabSet (widOf c i)]{fullShare} m (outLoc d))
/-- What it hands back: the same shares, and its rows of the flat result at their final value. -/
abbrev tdMain (d : Dev nD) (c : Fin τ.nSC) (i : Fin 16) : sProp 𝕄 :=
  iprop(inPts m d (qT c i) ∗ outLoc d ↦[slabSet (widOf c i)]{fullShare} outV m d)

def P : (K (F := F)).Pay (nD := nD) (Val := Elt F) (Name := ℕ) (U := UU) where
  st := fun q d c => match q with | 0 => bigSep Finset.univ fun i : Fin 16 => goMain m d (coreOf c) i
  dn := fun q d c => match q with | 0 => bigSep Finset.univ fun i : Fin 16 => tdMain m d (coreOf c) i
  go := fun q d c i => match q with
    | 0 => iprop(goMain m d (coreOf c) (Fin.cast nSub_zero i) ∗ ∃ f, shLoc d (coreOf c) ↦[spmSet (Fin.cast nSub_zero i)]{fullShare} f)
  td := fun q d c i => match q with
    | 0 => iprop(tdMain m d (coreOf c) (Fin.cast nSub_zero i) ∗ shLoc d (coreOf c) ↦{qS (Fin.cast nSub_zero i)} tabSh m d (coreOf c))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

end Cert.KB

end
-- ==== Proof.KB.TileStmt.lean ====
/-
  The statement that separates the tile's proof from the launch: one vector subcore's task, from what the launch hands
  it (its barrier kit, its shares of the arrays it reads, its rows of the flat result, the rows of the shared copy it
  stages, its own scratch and semaphores, what it owes) to what it hands back (the same shares, its rows of the flat
  result at their final value, a sixteenth share of the whole shared copy holding the table, its scratch and
  semaphores, the barrier's units paid).
-/
import proofs.«206556_g62818191671566_cont_9to1_m_1093_40_alg».proof.Proof.KB.Setup

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and scratch buffers as the kernel function names them -/

abbrev tabM : Memref sig .scVector .hbm S1000x128 .f32 := Memref.whole main_arg0_scv
abbrev tokM : Memref sig .scVector .hbm S32x50x128 .i32 := Memref.whole main_v0_scv
abbrev uM : Memref sig .scVector .hbm S4096000 .f32 := Memref.whole main_v1_scv
abbrev outM : Memref sig .scVector .hbm S204800x128 .f32 := Memref.whole main_v2_scv
abbrev idxM : Memref sig .scVector .vmem S50x128 .i32 := Memref.whole cc0_scratch0
abbrev midxM : Memref sig .scVector .vmem S2x128 .i32 := Memref.whole cc0_scratch1
abbrev mvalM : Memref sig .scVector .vmem S2x128 .f32 := Memref.whole cc0_scratch2
abbrev scaleM : Memref sig .scVector .vmem S128 .f32 := Memref.whole cc0_scratch3
abbrev rowsM : Memref sig .scVector .vmem S2x128x128 .f32 := Memref.whole cc0_scratch4
abbrev spmM : Memref sig .scVector .shared S1000x128 .f32 := Memref.whole cc0_scratch5

/-- The SparseCore and the vector subcore of a grid point. -/
abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)
/-- The thread of a grid point on device `d`. -/
abbrev thrV (d : Dev nD) (L : grid0.Coords) : Thread nD τ := V d (cV L) (jV L)

/-- The kernel function at a grid point, on the whole arrays and the subcore's scratch. -/
abbrev kernelAt [FloatOps F] (L : grid0.Coords) :
    Prog (TpuEff nD τ sig (Elt F) Λ₀ (.scVector ((L 0).castLE hcore0) ((L 1).castLE hsub0))) PUnit :=
  cc0_k L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4

variable [FloatOps F] (m : (ℓ : Loc nD τ sig) → Buf (Elt F) ℓ)

/-- One vector subcore's task, at every grid point of every device. -/
def TileBody : Prop :=
  ∀ (_hF : (K (F := F)).Facts) (_hpre : PreOK m) (d : Dev nD) (L : grid0.Coords)
    (O : CellTallies nD τ sig (HIx 1)) (W : Waits sig (HIx 1)) (_hO : ∀ g, O g none = 0)
    (_hOlev : ∀ g ι, 0 < O g ι → 8 * (0 : Fin 1).val + 6 ≤ (K (F := F)).lev g ι),
    (iprop(levAts (K (F := F)).L (K (F := F)).lev ∗ bkit m d (cV L) (jV L)
        ∗ (goMain m d (cV L) (jL L) ∗ ∃ f, shLoc d (cV L) ↦[spmSet (jL L)]{fullShare} f)
        ∗ scopedBufs (thrV d L) ∗ scopedSems0 (thrV d L) ∗ owes (thrV d L) (O + oxV d (cV L)) W) : sProp 𝕄)
      ⊢ wp frame (wpE (defs₀ (F := F)) 𝒱₀ (thrV d L) none) Set.univ (kernelAt (F := F) L)
          fun _ => iprop((tdMain m d (cV L) (jL L) ∗ shLoc d (cV L) ↦{qS (jL L)} tabSh m d (cV L))
            ∗ scopedBufs (thrV d L) ∗ scopedSems0 (thrV d L)
            ∗ ∃ W', ⌜∀ p ∈ W', p ∈ W ∨ p.2 = none ∨ p.2 = some (0 : Fin 1)⌝ ∗ owes (thrV d L) O W')

end Cert.KB

end
-- ==== Proof.KB.LaunchObl.lean ====
/-
  The tile's obligation in the launch theorem's own spelling: the kernel's label on a vector subcore of the call's
  grid is the kernel function at that subcore's grid point, so the tile's proof, taken as a hypothesis, is the
  obligation of every task.
-/
import proofs.«206556_g62818191671566_cont_9to1_m_1093_40_alg».proof.Proof.KB.TileStmt

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

set_option maxRecDepth 16384 in
theorem tileObl (hF : (K (F := F)).Facts) (hpre : PreOK m) (hbody : TileBody m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody hF hpre d (coordsV ⟨_, hci.1⟩ ⟨_, hci.2⟩) O W hO hOlev

end Cert.KB

end
-- ==== Proof.KB.LaunchElem.lean ====
/-
  The launch element of the ghost state and what the launch deals each subcore: the barrier cells' rounds are funded
  for every subcore of both SparseCores, their invariants allocated at once, and each subcore is handed its kit — every
  barrier cell's invariant of its SparseCore and that each has reached round 0, its own position at the origin of round
  0, its duty token in every cell's round 0, and the credit for the sixteen units of its own cell.
-/
import proofs.«206556_g62818191671566_cont_9to1_m_1093_40_alg».proof.Proof.KB.Setup

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-! ## What the handshakes carry can be stored in a cell -/

instance P_storable : (P (F := F) m).IsStorable where
  st q d c := match q with
    | 0 => (inferInstance : BI.Storable (upEmb : UEmb _ 𝕄) (bigSep Finset.univ fun i : Fin 16 => goMain m d (coreOf c) i))
  dn q d c := match q with
    | 0 => (inferInstance : BI.Storable (upEmb : UEmb _ 𝕄) (bigSep Finset.univ fun i : Fin 16 => tdMain m d (coreOf c) i))
  go q d c i := match q with
    | 0 => (inferInstance : BI.Storable (upEmb : UEmb _ 𝕄)
      iprop(goMain m d (coreOf c) (Fin.cast nSub_zero i) ∗ ∃ f, shLoc d (coreOf c) ↦[spmSet (Fin.cast nSub_zero i)]{fullShare} f))
  td q d c i := match q with
    | 0 => (inferInstance : BI.Storable (upEmb : UEmb _ 𝕄)
      iprop(tdMain m d (coreOf c) (Fin.cast nSub_zero i) ∗ shLoc d (coreOf c) ↦{qS (Fin.cast nSub_zero i)} tabSh m d (coreOf c)))

/-! ## The launch element of the certificate's ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.KB

end
-- ==== Proof.KB.BarrierPay.lean ====
/-
  The barrier's payloads, counted.  The sixteen subcores of a SparseCore stage disjoint runs of rows of the table that
  together are the whole table; each hands every tile a sixteenth share of its run, so that a full share of one run is
  the sixteen payloads its subcore pays, and the sixteen payloads a tile receives are a sixteenth share of the whole
  shared copy.
-/
import proofs.«206556_g62818191671566_cont_9to1_m_1093_40_alg».proof.Proof.KB.TileStmt

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The staged runs of rows partition the table -/

/-- Two different subcores stage disjoint runs of rows: the runs are separated on the row axis. -/
theorem spm_disjoint : ∀ n ∈ (Finset.univ : Finset (Fin 16)), ∀ n' ∈ (Finset.univ : Finset (Fin 16)), n ≠ n' →
    Disjoint (spmSet n) (spmSet n') := by
  intro n _ n' _ hne
  have hn := n.isLt
  have hn' := n'.isLt
  have hv : n.val ≠ n'.val := fun e => hne (Fin.ext e)
  refine Rect.unit_disjoint (⟨0, by decide⟩ : Fin S1000x128.rank) ?_
  show 64 * n.val + spmCount n ≤ 64 * n'.val ∨ 64 * n'.val + spmCount n' ≤ 64 * n.val
  unfold spmCount
  split <;> split <;> omega

/-- Every row of the table is staged by some subcore: row r by subcore r / 64, the rows from 960 on by the last. -/
theorem spm_cover : (Finset.univ : Finset (Fin 16)).biUnion spmSet = Finset.univ := by
  ext i
  simp only [Finset.mem_biUnion, Finset.mem_univ, true_and, iff_true]
  have h0 : (i 0).val < 1000 := idx2_lt0 i
  have h1 : (i 1).val < 128 := idx2_lt1 i
  by_cases hr : (i 0).val < 960
  · have hq : (i 0).val / 64 < 16 := by omega
    refine ⟨(⟨(i 0).val / 64, hq⟩ : Fin 16), Rect.mem_set_unit.mpr fun a => ?_⟩
    match a with
    | ⟨0, _⟩ =>
      show 64 * ((i 0).val / 64) ≤ (i 0).val ∧ (i 0).val < 64 * ((i 0).val / 64) + spmCount ⟨(i 0).val / 64, hq⟩
      have hc : spmCount (⟨(i 0).val / 64, hq⟩ : Fin 16) = 64 := by
        unfold spmCount; rw [if_pos (show (i 0).val / 64 < 15 by omega)]
      rw [hc]; omega
    | ⟨1, _⟩ => show 0 ≤ (i 1).val ∧ (i 1).val < 0 + 128; omega
  · have h15 : (15 : ℕ) < 16 := by omega
    refine ⟨(⟨15, h15⟩ : Fin 16), Rect.mem_set_unit.mpr fun a => ?_⟩
    match a with
    | ⟨0, _⟩ =>
      show 64 * 15 ≤ (i 0).val ∧ (i 0).val < 64 * 15 + spmCount ⟨15, h15⟩
      have hc : spmCount (⟨15, h15⟩ : Fin 16) = 40 := by
        unfold spmCount; rw [if_neg (show ¬ (15 : ℕ) < 15 by omega)]
      rw [hc]; omega
    | ⟨1, _⟩ => show 0 ≤ (i 1).val ∧ (i 1).val < 0 + 128; omega

/-! ## A share as its leaves -/

/-- The leaves of depth n + 1 are the leaves of the left half followed by the leaves of the right half. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) :
    leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]

theorem leaf_inr (n : ℕ) (q : PosShare TreeShare) (i : Fin (2 ^ n)) :
    leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- Holding elements at a share is holding them at each of the share's leaves of depth n, all at once: a share is
    its two halves, and each half its own leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The payloads at a barrier cell -/

variable [FloatOps F] (m : (ℓ : Loc nD τ sig) → Buf (Elt F) ℓ)

/-- At tile j's barrier cell, subcore n's payload is tile j's sixteenth share of the rows subcore n staged. -/
theorem bPay_bcell (d : Dev nD) (c : Fin τ.nSC) (j : Fin τ.nSub) (n : Fin 16) :
    bPay m (bcell d c j) n.val = shRowsPts m d c n (Fin.cast nSub_eq j) := by
  unfold bPay; dsimp only
  rw [dif_pos n.isLt]

/-- A full share of the rows a subcore staged is the sixteen payloads it pays, one into each tile's round: the full
    share is its sixteen leaves of depth four, and leaf j is tile j's share. -/
theorem pays_intro (d : Dev nD) (L : grid0.Coords) :
    (shLoc d (cV L) ↦[spmSet (jL L)]{fullShare} tabSh m d (cV L) : sProp 𝕄)
      ⊢ bigSep Finset.univ fun j : Fin (grid0.bound 1) =>
          (bRd (F := F) m).payload (bcell d (cV L) (j.castLE hsub0)) 0 (jV L).val := by
  rw [pointsTo_leaves (ℓ := shLoc d (cV L)) (spmSet (jL L)) (tabSh m d (cV L)) 4 fullShare,
    bigSep_univ_equiv (finCongr (show grid0.bound 1 = 2 ^ 4 from rfl))
      (fun i : Fin (2 ^ 4) => (shLoc d (cV L) ↦[spmSet (jL L)]{leaf 4 fullShare i} tabSh m d (cV L) : sProp 𝕄))]
  refine bigSep_mono fun j _ => ?_
  show _ ⊢ bPay m (bcell d (cV L) (j.castLE hsub0)) (jL L).val
  rw [bPay_bcell m d (cV L) (j.castLE hsub0) (jL L)]
  exact BI.Entails.refl _

/-- The sixteen payloads a tile's round collects are its sixteenth share of the whole shared copy: the staged runs
    of rows are pairwise disjoint and together every row. -/
theorem pays_elim (d : Dev nD) (L : grid0.Coords) :
    (bigSep ((bRd (F := F) m).duties (bcell d (cV L) (jV L)) 0 \ ∅) fun n =>
        (bRd (F := F) m).payload (bcell d (cV L) (jV L)) 0 n)
      ⊢ (shLoc d (cV L) ↦{qS (jL L)} tabSh m d (cV L) : sProp 𝕄) := by
  have hq : (shLoc d (cV L) ↦{qS (jL L)} tabSh m d (cV L) : sProp 𝕄)
      = bigSep Finset.univ fun t : Fin 16 => shLoc d (cV L) ↦[spmSet t]{qS (jL L)} tabSh m d (cV L) := by
    rw [← pointsTo_biUnion (ℓ := shLoc d (cV L)) (q := qS (jL L)) (f := tabSh m d (cV L)) Finset.univ spmSet spm_disjoint,
      spm_cover]
  rw [hq, Finset.sdiff_empty, bRd_duties₀,
    bigSep_image_of_injOn (Fin.val_injective.injOn) (fun n => (bRd (F := F) m).payload (bcell d (cV L) (jV L)) 0 n),
    bigSep_univ_equiv (finCongr nSub_eq.symm : Fin 16 ≃ Fin τ.nSub)
      (fun i : Fin τ.nSub => (bRd (F := F) m).payload (bcell d (cV L) (jV L)) 0 i.val)]
  refine bigSep_mono fun t _ => ?_
  show bPay m (bcell d (cV L) (jV L)) t.val ⊢ _
  rw [bPay_bcell m d (cV L) (jV L) t]
  exact BI.Entails.refl _

end Cert.KB

end
-- ==== Proof.KB.LaunchSplit.lean ====
/-
  How a SparseCore's operands for the call split among its sixteen subcores and how their results gather.  The
  operands are already stated per subcore and go out as they are; the SparseCore's shared copy of the table comes out of
  the sequencer's own buffers whole, at whatever it holds, and is cut into the sixteen row blocks the subcores stage;
  each subcore returns a sixteenth share of the whole copy holding the table's entries, and the sixteen shares are the
  full share again.
-/
import proofs.«206556_g62818191671566_cont_9to1_m_1093_40_alg».proof.Proof.KB.BarrierPay

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares by sixteenths and by halves -/

/-- At depth four, over the sixteen subcores. -/
theorem pointsTo_sixteenths {ℓ : Loc nD τ sig} (I : Finset (Idx ℓ)) (f : Buf (Elt F) ℓ) (q : PosShare TreeShare) :
    (ℓ ↦[I]{q} f : sProp 𝕄) = bigSep Finset.univ fun i : Fin 16 => ℓ ↦[I]{leaf 4 q ⟨i.val, i.isLt⟩} f :=
  pointsTo_leaves I f 4 q

/-- At depth one, over the two SparseCores. -/
theorem pointsTo_halves {ℓ : Loc nD τ sig} (I : Finset (Idx ℓ)) (f : Buf (Elt F) ℓ) (q : PosShare TreeShare) :
    (ℓ ↦[I]{q} f : sProp 𝕄) = bigSep Finset.univ fun c : Fin 2 => ℓ ↦[I]{leaf 1 q ⟨c.val, c.isLt⟩} f :=
  pointsTo_leaves I f 1 q

/-! ## The shared copy: out of the sequencer's buffers, into row blocks, back from sixteenth shares -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem shPts_rows (d : Dev nD) (c : Fin τ.nSC) (f : Buf (Elt F) (shLoc d c)) :
    (shLoc d c ↦{fullShare} f : sProp 𝕄) = bigSep Finset.univ fun i : Fin 16 => shLoc d c ↦[spmSet i]{fullShare} f := by
  rw [← pointsTo_biUnion Finset.univ (ℓ := shLoc d c) spmSet spm_disjoint, spm_cover]; try rfl

theorem shPts_shares (d : Dev nD) (c : Fin τ.nSC) (f : Buf (Elt F) (shLoc d c)) :
    (shLoc d c ↦{fullShare} f : sProp 𝕄) = bigSep Finset.univ fun i : Fin 16 => shLoc d c ↦{qS i} f :=
  pointsTo_sixteenths Finset.univ f fullShare

/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F] (m : (ℓ : Loc nD τ sig) → Buf (Elt F) ℓ)

/-! ## What the handshakes carry, as equations -/

theorem P_st (d : Dev nD) (c : Fin ((K (F := F)).nCore 0)) :
    (P m).st 0 d c = bigSep Finset.univ fun i : Fin 16 => goMain m d (coreOf c) i := rfl
theorem P_dn (d : Dev nD) (c : Fin ((K (F := F)).nCore 0)) :
    (P m).dn 0 d c = bigSep Finset.univ fun i : Fin 16 => tdMain m d (coreOf c) i := rfl
theorem P_go (d : Dev nD) (c : Fin ((K (F := F)).nCore 0)) (i : Fin ((K (F := F)).nSub 0)) :
    (P m).go 0 d c i = iprop(goMain m d (coreOf c) (Fin.cast nSub_zero i) ∗ ∃ f, shLoc d (coreOf c) ↦[spmSet (Fin.cast nSub_zero i)]{fullShare} f) := rfl
theorem P_td (d : Dev nD) (c : Fin ((K (F := F)).nCore 0)) (i : Fin ((K (F := F)).nSub 0)) :
    (P m).td 0 d c i = iprop(tdMain m d (coreOf c) (Fin.cast nSub_zero i) ∗ shLoc d (coreOf c) ↦{qS (Fin.cast nSub_zero i)} tabSh m d (coreOf c)) := rfl

/-! ## The split -/

theorem vecSplit : (K (F := F)).VecSplit (P m) 0 := by
  intro d c
  simp only [P_st, P_dn, P_go, P_td]
  rw [bigSep_tasks (F := F) (fun i => iprop(goMain m d (coreOf c) i ∗ ∃ f, shLoc d (coreOf c) ↦[spmSet i]{fullShare} f)),
    bigSep_tasks (F := F) (fun i => iprop(tdMain m d (coreOf c) i ∗ shLoc d (coreOf c) ↦{qS i} tabSh m d (coreOf c))),
    bigSep_sep' Finset.univ (fun i => goMain m d (coreOf c) i) (fun i => iprop(∃ f, shLoc d (coreOf c) ↦[spmSet i]{fullShare} f)),
    bigSep_sep' Finset.univ (fun i => tdMain m d (coreOf c) i) (fun i => shLoc d (coreOf c) ↦{qS i} tabSh m d (coreOf c)),
    ownBufs_S, ← shPts_shares]
  iintro ⟨Hgo, ⟨%fsh, Hsh⟩, Hrest⟩; imodintro
  isplitl [Hgo Hsh]
  · isplitl [Hgo]; · iexact Hgo
    ihave Hsh' := ((Entails.of_eq (shPts_rows d (coreOf c) fsh)).trans (SparseCore.ent (bigSep_mono (Φ := fun i => (shLoc d (coreOf c) ↦[spmSet i]{fullShare} fsh : sProp 𝕄))
      (Ψ := fun i => iprop(∃ f, shLoc d (coreOf c) ↦[spmSet i]{fullShare} f))
      fun i _ => BI.BIClass.exists_intro (Φ := fun f => (shLoc d (coreOf c) ↦[spmSet i]{fullShare} f : sProp 𝕄)) fsh))) $$ Hsh
    iexact Hsh'
  iintro ⟨Htd, Hsh⟩
  isplitl [Htd]; · iexact Htd
  isplitl [Hsh]; · iexists (tabSh m d (coreOf c)); iexact Hsh
  iexact Hrest

end Cert.KB

end
-- ==== Proof.KB.LaunchMain.lean ====
/-
  @main on the TensorCore: the host regroups the tokens by worker and flattens the draws, hands the table, the regrouped
  tokens and the flattened draws to the thirty-two subcores as read shares (halved once per SparseCore, then four times
  per subcore) and the flat result as thirty-two blocks of rows, gets them back with every block at its final value,
  and reshapes the flat result into the result.
-/
import proofs.«206556_g62818191671566_cont_9to1_m_1093_40_alg».proof.Proof.KB.LaunchSplit

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The workers: a SparseCore and a subcore, numbered `2 i + c` -/

abbrev CI : Type := Fin τ.nSC × Fin 16

/-- Worker numbers are exactly the pairs. -/
def widEquiv : CI ≃ Fin 32 where
  toFun p := widOf p.1 p.2
  invFun w := (⟨w.val % 2, Nat.mod_lt _ (by decide)⟩, ⟨w.val / 2, by have := w.isLt; omega⟩)
  left_inv := by
    rintro ⟨c, i⟩
    have hc : c.val < 2 := c.isLt
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

theorem widEquiv_apply (p : CI) : widEquiv p = widOf p.1 p.2 := rfl

/-! ## Read shares of a whole array, and the flat result's row blocks, per worker -/

theorem pointsTo_cores {ℓ : Loc nD τ sig} (I : Finset (Idx ℓ)) (f : Buf (Elt F) ℓ) :
    (ℓ ↦[I]{fullShare} f : sProp 𝕄) = bigSep Finset.univ fun c : Fin τ.nSC => ℓ ↦[I]{qC c} f :=
  pointsTo_leaves I f 1 fullShare

theorem pointsTo_tiles {ℓ : Loc nD τ sig} (I : Finset (Idx ℓ)) (f : Buf (Elt F) ℓ) (c : Fin τ.nSC) :
    (ℓ ↦[I]{qC c} f : sProp 𝕄) = bigSep Finset.univ fun i : Fin 16 => ℓ ↦[I]{qT c i} f :=
  pointsTo_leaves I f 4 (qC c)

theorem shares_split {ℓ : Loc nD τ sig} (f : Buf (Elt F) ℓ) :
    (ℓ ↦{fullShare} f : sProp 𝕄) = bigSep Finset.univ fun p : CI => ℓ ↦{qT p.1 p.2} f := by
  rw [bigSep_univ_prod (fun p : CI => (ℓ ↦{qT p.1 p.2} f : sProp 𝕄)), pointsTo_cores]
  exact bigSep_congr fun c _ => pointsTo_tiles Finset.univ f c

theorem slab_disjoint : ∀ w ∈ (Finset.univ : Finset (Fin 32)), ∀ w' ∈ (Finset.univ : Finset (Fin 32)), w ≠ w' → Disjoint (slabSet w) (slabSet w') :=
  fun _ _ _ _ h => Rect.part_disjoint hdiv32 h
theorem slab_cover : (Finset.univ : Finset (Fin 32)).biUnion slabSet = Finset.univ := Rect.biUnion_part hdiv32

theorem out_split (d : Dev nD) (f : Buf (Elt F) (outLoc d)) :
    (outLoc d ↦{fullShare} f : sProp 𝕄) = bigSep Finset.univ fun p : CI => outLoc d ↦[slabSet (widOf p.1 p.2)]{fullShare} f := by
  have h := bigSep_univ_equiv widEquiv (fun w : Fin 32 => (outLoc d ↦[slabSet w]{fullShare} f : sProp 𝕄))
  rw [← pointsTo_biUnion Finset.univ (ℓ := outLoc d) slabSet slab_disjoint, slab_cover] at h
  exact h

theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)

variable [FloatOps F]

/-- Every worker's operands together: the three read arrays whole, the flat result whole. -/
theorem main_all (d : Dev nD) (g : Buf (Elt F) (outLoc d)) :
    (bigSep Finset.univ fun p : CI => iprop(inPts m d (qT p.1 p.2) ∗ outLoc d ↦[slabSet (widOf p.1 p.2)]{fullShare} g) : sProp 𝕄)
      = iprop(inPts m d fullShare ∗ outLoc d ↦{fullShare} g) := by
  rw [bigSep_sep' Finset.univ (fun p : CI => inPts m d (qT p.1 p.2)) (fun p : CI => (outLoc d ↦[slabSet (widOf p.1 p.2)]{fullShare} g : sProp 𝕄)),
    bigSep_sep' Finset.univ (fun p : CI => (tabLoc d ↦{qT p.1 p.2} m (tabLoc d) : sProp 𝕄))
      (fun p : CI => iprop((tokLoc d ↦{qT p.1 p.2} tok3V m d) ∗ (uLoc d ↦{qT p.1 p.2} uflatV m d))),
    bigSep_sep' Finset.univ (fun p : CI => (tokLoc d ↦{qT p.1 p.2} tok3V m d : sProp 𝕄)) (fun p : CI => (uLoc d ↦{qT p.1 p.2} uflatV m d : sProp 𝕄)),
    ← shares_split, ← shares_split, ← shares_split, ← out_split]

theorem st0_eq (d : Dev nD) : (bigSep Finset.univ fun c : Fin ((K (F := F)).nCore 0) => (P m).st 0 d c)
    = iprop(inPts m d fullShare ∗ outLoc d ↦{fullShare} m (outLoc d)) := by
  simp only [P_st]
  rw [bigSep_cores (fun c => bigSep Finset.univ fun i : Fin 16 => goMain m d c i), ← main_all,
    bigSep_univ_prod (fun p : CI => iprop(inPts m d (qT p.1 p.2) ∗ outLoc d ↦[slabSet (widOf p.1 p.2)]{fullShare} m (outLoc d)))]
theorem dn0_eq (d : Dev nD) : (bigSep Finset.univ fun c : Fin ((K (F := F)).nCore 0) => (P m).dn 0 d c)
    = iprop(inPts m d fullShare ∗ outLoc d ↦{fullShare} outV m d) := by
  simp only [P_dn]
  rw [bigSep_cores (fun c => bigSep Finset.univ fun i : Fin 16 => tdMain m d c i), ← main_all,
    bigSep_univ_prod (fun p : CI => iprop(inPts m d (qT p.1 p.2) ∗ outLoc d ↦[slabSet (widOf p.1 p.2)]{fullShare} outV m d))]

/-! ## The host's three reshapes -/

abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev opTok : HloOp τ sig (Elt F) := StableHlo.reshape main_arg1 main_v0 rfl shapeCasts_S4096x50_S32x50x128
abbrev opU : HloOp τ sig (Elt F) := StableHlo.reshape main_arg2 main_v1 rfl shapeCasts_S4096x1000_S4096000
abbrev opRes : HloOp τ sig (Elt F) := StableHlo.reshape main_v2 main_v3 rfl shapeCasts_S204800x128_S4096x50x128

/-- The result: the flat result regrouped by batch row and position. -/
abbrev resV (d : Dev nD) : Buf (Elt F) (resLoc d) :=
  (shapeCast S4096x50x128 (outV m d : FVec F S204800x128 .f32) shapeCasts_S204800x128_S4096x50x128 : FVec F S4096x50x128 .f32)

/-- The launch valuation, and the one after the call. -/
def V0 (d : Dev nD) : Valuation τ sig (Elt F) := fun b => m (d, b)
def V3 (d : Dev nD) : Valuation τ sig (Elt F) := Function.update (V0 m d) v2' (outV m d)

theorem held_pair (d : Dev nD) (a b : DevRef τ sig) (hab : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (fun h => hab (Finset.mem_singleton.mp h)), bigSep_singleton]

theorem hTok : (opTok (F := F)).bufs ⊆ ({a1', v0'} : Finset (DevRef τ sig)) := Finset.Subset.refl _
theorem hU : (opU (F := F)).bufs ⊆ ({a2', v1'} : Finset (DevRef τ sig)) := Finset.Subset.refl _
theorem hRes : (opRes (F := F)).bufs ⊆ ({v2', v3'} : Finset (DevRef τ sig)) := Finset.Subset.refl _

theorem tok_after (d : Dev nD) :
    (held (T d) {a1', v0'} ((opTok (F := F)).result (V0 m d)) : sProp 𝕄) = iprop((a1Loc d ↦{fullShare} m (a1Loc d)) ∗ tokLoc d ↦{fullShare} tok3V m d) := by
  rw [held_pair d a1' v0' (by decide),
    StableHlo.reshape_result_ne main_arg1 main_v0 rfl shapeCasts_S4096x50_S32x50x128 _ _ (V0 m d) (show (main_arg1 : Ref sig .tc) ≠ main_v0 by decide),
    StableHlo.reshape_result main_arg1 main_v0 rfl shapeCasts_S4096x50_S32x50x128 _ _ (V0 m d)]
  rfl
theorem u_after (d : Dev nD) :
    (held (T d) {a2', v1'} ((opU (F := F)).result (V0 m d)) : sProp 𝕄) = iprop((a2Loc d ↦{fullShare} m (a2Loc d)) ∗ uLoc d ↦{fullShare} uflatV m d) := by
  rw [held_pair d a2' v1' (by decide),
    StableHlo.reshape_result_ne main_arg2 main_v1 rfl shapeCasts_S4096x1000_S4096000 _ _ (V0 m d) (show (main_arg2 : Ref sig .tc) ≠ main_v1 by decide),
    StableHlo.reshape_result main_arg2 main_v1 rfl shapeCasts_S4096x1000_S4096000 _ _ (V0 m d)]
  rfl
theorem V3_v2 (d : Dev nD) : V3 m d v2' = outV m d := Function.update_self _ _ _
theorem V3_v3 (d : Dev nD) : V3 m d v3' = m (resLoc d) := Function.update_of_ne (show v3' ≠ v2' by decide) _ _
theorem res_after (d : Dev nD) :
    (held (T d) {v2', v3'} ((opRes (F := F)).result (V3 m d)) : sProp 𝕄) = iprop((outLoc d ↦{fullShare} outV m d) ∗ resLoc d ↦{fullShare} resV m d) := by
  rw [held_pair d v2' v3' (by decide),
    StableHlo.reshape_result_ne main_v2 main_v3 rfl shapeCasts_S204800x128_S4096x50x128 _ _ (V3 m d) (show (main_v2 : Ref sig .tc) ≠ main_v3 by decide),
    StableHlo.reshape_result main_v2 main_v3 rfl shapeCasts_S204800x128_S4096x50x128 _ _ (V3 m d), V3_v2]
  rfl

/-! ## @main on the TensorCore -/

theorem unscopedBufs_eq (d : Dev nD) (W : (b : Ref sig .tc) → Buf (Elt F) ((d.tc : Thread nD τ).loc b)) :
    (unscopedBufs d W : sProp 𝕄) = iprop((tabLoc d ↦{fullShare} W main_arg0) ∗ (a1Loc d ↦{fullShare} W main_arg1) ∗ (a2Loc d ↦{fullShare} W main_arg2)
      ∗ (tokLoc d ↦{fullShare} W main_v0) ∗ (uLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What @main leaves the claim: the three arguments at their launch contents, the result at its value. -/
abbrev FIN (d : Dev nD) : sProp 𝕄 :=
  iprop((tabLoc d ↦{fullShare} m (tabLoc d)) ∗ (a1Loc d ↦{fullShare} m (a1Loc d)) ∗ (a2Loc d ↦{fullShare} m (a2Loc d)) ∗ resLoc d ↦{fullShare} resV m d)

/-- @main on device `d`'s TensorCore: the two reshapes of the arguments, the call, the reshape of the flat result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Htab, Ha1, Ha2, Htok, Hu, Hout, Hres⟩, -, -⟩, -⟩
  -- the tokens regrouped
  iapply (wp_hlo_within 𝒱 (SparseCore.T d) none Set.univ (op := opTok) (S := {a1', v0'}) hTok (V := V0 m d)) $$ [Hb Ha1 Htok]
  · isplitl [Hb]; · iexact Hb
    rw [held_pair d a1' v0' (by decide)]
    isplitl [Ha1]; · iexact Ha1
    iexact Htok
  iintro ⟨Hb, Hheld⟩
  ihave Hh := (Entails.of_eq (tok_after m d)) $$ Hheld
  icases Hh with ⟨Ha1, Htok⟩
  rw [wp_ret]; imodintro
  -- the draws flattened
  iapply (wp_hlo_within 𝒱 (SparseCore.T d) none Set.univ (op := opU) (S := {a2', v1'}) hU (V := V0 m d)) $$ [Hb Ha2 Hu]
  · isplitl [Hb]; · iexact Hb
    rw [held_pair d a2' v1' (by decide)]
    isplitl [Ha2]; · iexact Ha2
    iexact Hu
  iintro ⟨Hb, Hheld⟩
  ihave Hh := (Entails.of_eq (u_after m d)) $$ Hheld
  icases Hh with ⟨Ha2, Hu⟩
  rw [wp_ret]; imodintro
  -- the call: shares of the three read arrays and the flat result's row blocks to both SparseCores and back
  iapply ((K (F := F)).wp_run (D (F := F)) 𝒱 (EH := EH) (P := P m) κ d 0) $$ [Hst Htab Htok Hu Hout Hb Ha1 Ha2 Hres]
  isplitr; · iexact Hctx
  isplitl [Hst]; · iexact Hst
  isplitl [Htab Htok Hu Hout]
  · rw [st0_eq]
    isplitl [Htab Htok Hu]
    · isplitl [Htab]; · iexact Htab
      isplitl [Htok]; · iexact Htok
      iexact Hu
    iexact Hout
  iintro ⟨Hst, Hdn⟩
  ihave Hdn' := (Entails.of_eq (dn0_eq m d)) $$ Hdn
  icases Hdn' with ⟨⟨Htab, -, -⟩, Hout⟩
  -- the flat result regrouped
  iapply (wp_hlo_within 𝒱 (SparseCore.T d) none Set.univ (op := opRes) (S := {v2', v3'}) hRes (V := V3 m d)) $$ [Hb Hout Hres]
  · isplitl [Hb]; · iexact Hb
    rw [held_pair d v2' v3' (by decide), V3_v2, V3_v3]
    isplitl [Hout]; · iexact Hout
    iexact Hres
  iintro ⟨Hb, Hheld⟩
  ihave Hh := (Entails.of_eq (res_after m d)) $$ Hheld
  icases Hh with ⟨-, Hres⟩
  rw [wp_ret]; imodintro; imodintro
  isplitl [Hst]; · iexact Hst
  isplitl [Htab]; · iexact Htab
  isplitl [Ha1]; · iexact Ha1
  isplitl [Ha2]; · iexact Ha2
  iexact Hres

end Cert.KB

end
-- ==== Proof.KB.LaunchRun.lean ====
/-
  The whole program's run: from a memory that satisfies the precondition, under every weakly fair schedule, the
  program ends with the three arguments unchanged and the result holding, for every batch row and position, the
  table's row of the token there, scaled by the draw.  It is the launch theorem applied to the tile's obligation, the
  operands' split, the launch element and @main's proof.
-/
import proofs.«206556_g62818191671566_cont_9to1_m_1093_40_alg».proof.Proof.KB.LaunchObl
import proofs.«206556_g62818191671566_cont_9to1_m_1093_40_alg».proof.Proof.KB.LaunchElem
import proofs.«206556_g62818191671566_cont_9to1_m_1093_40_alg».proof.Proof.KB.LaunchMain

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## How the final memory reads the claim -/

def fq (d : Dev nD) (s' : Phys nD τ sig (Elt F)) : Prop :=
  s'.mem.mem (resLoc d) = resV m d ∧ s'.mem.mem (tabLoc d) = m (tabLoc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨Htab, Ha1, Ha2, Hres⟩, HSI⟩
  ihave H := (persistent_entails_right (SI_pointsTo_agree (st := s') (ℓ := tabLoc d) (I := Finset.univ) (q := fullShare) (f := m (tabLoc d)))) $$ [HSI Htab]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (SI_pointsTo_agree (st := s') (ℓ := resLoc d) (I := Finset.univ) (q := fullShare) (f := resV m d)) $$ [HSI Hres]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- What the run establishes of the final memory, on every device: the result at its value, the arguments unchanged. -/
def QC : PUnit × MemSt nD τ sig (Elt F) → Prop := fun r =>
  ∀ c : Dev nD, r.2.mem (resLoc c) = resV m c ∧ r.2.mem (tabLoc c) = m (tabLoc c) ∧ r.2.mem (a1Loc c) = m (a1Loc c) ∧ r.2.mem (a2Loc c) = m (a2Loc c)

theorem run_main [∀ e, Nonempty (Elt F e)] (hpre : PreOK m) (hbody : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre hbody)
    (fun q _ => match q with | 0 => vecSplit m)
    m ρ main (fun _ => iprop(emp)) (FIN m) (u₀ (F := F)) (hu₀ m) (hmain m ρ) (fq m) (hfin m) (QC m) (fun _ h => h)

end Cert.KB

end
-- ==== Proof.Layout.lean ====
/-
  The three row-major reshapes around the device code, read at an index, and the function the device code computes
  over its reshaped operands, carried back through them to the function of the argument arrays.

  The token array [4096, 50] is read as [32, 50, 128]: the flat position of (wid, c, r) is wid * 6400 + c * 128 + r, and
  the flat position of (b, s) is b * 50 + s.  The draw array [4096, 1000] is flattened: (b, v) sits at b * 1000 + v.  The
  result [204800, 128] is read as [4096, 50, 128]: (b, s, d) is row b * 50 + s, column d.
-/
import proofs.«206556_g62818191671566_cont_9to1_m_1093_40_alg».proof.Proof.Spec
import Idealize.ShloMosaic.Lib.ValueIdx
import Idealize.ShloMosaic.Lib.Pipeline.Value
import Idealize.ShloMosaic.Lib.ValueLayout

noncomputable section

namespace Cert.Layout

open Idealize.ShloMosaic Idealize.ShloMosaic.ValueIdx Cert.Spec

abbrev S32x50x128 : Shape := ⟨3, ![32, 50, 128]⟩
abbrev S4096000 : Shape := ⟨1, ![4096000]⟩
abbrev S204800x128 : Shape := ⟨2, ![204800, 128]⟩

/-! ## The reshapes at an index -/

/-- The token array read as [32, 50, 128]: (wid, c, r) holds the token of the (b, s) with the same flat position. -/
theorem tok3_apply_of_pos {α : Type} (tok : STok.Idx → α) (h : STok.ShapeCasts S32x50x128)
    (wid : Fin 32) (c : Fin 50) (r : Fin 128) (b : Fin 4096) (s : Fin 50)
    (hn : b.val * 50 + s.val = wid.val * 6400 + c.val * 128 + r.val) :
    shapeCast S32x50x128 tok h (ix3 wid c r) = tok (ix2 b s) := by
  refine shapeCast_apply tok h (ix3 wid c r) (ix2 b s) ?_
  rw [Shape.rowMajor_val_two, Shape.rowMajor_val_three]
  show b.val * 50 + s.val = (wid.val * 50 + c.val) * 128 + r.val
  omega

/-- The same with the batch row and the position written as quotient and remainder of the flat position by 50. -/
theorem tok3_apply {α : Type} (tok : STok.Idx → α) (h : STok.ShapeCasts S32x50x128)
    (wid : Fin 32) (c : Fin 50) (r : Fin 128)
    (hb : (wid.val * 6400 + c.val * 128 + r.val) / 50 < 4096)
    (hs : (wid.val * 6400 + c.val * 128 + r.val) % 50 < 50) :
    shapeCast S32x50x128 tok h (ix3 wid c r)
      = tok (ix2 (⟨(wid.val * 6400 + c.val * 128 + r.val) / 50, hb⟩ : Fin 4096)
                 (⟨(wid.val * 6400 + c.val * 128 + r.val) % 50, hs⟩ : Fin 50)) :=
  tok3_apply_of_pos tok h wid c r _ _ (by show _ / 50 * 50 + _ % 50 = _; omega)

/-- The flattened draw array at b * 1000 + v is the draw at (b, v). -/
theorem uflat_apply {α : Type} (u : SUni.Idx → α) (h : SUni.ShapeCasts S4096000) (b : Fin 4096) (v : Fin 1000)
    (hlt : b.val * 1000 + v.val < 4096000) :
    shapeCast S4096000 u h (ix1 (⟨b.val * 1000 + v.val, hlt⟩ : Fin 4096000)) = u (ix2 b v) := by
  refine shapeCast_apply u h _ (ix2 b v) ?_
  rw [Shape.rowMajor_val_two, Shape.rowMajor_val_one]
  rfl

/-- The result read as [4096, 50, 128]: (b, s, d) is row b * 50 + s, column d of the [204800, 128] array. -/
theorem out_apply {α : Type} (out2 : S204800x128.Idx → α) (h : S204800x128.ShapeCasts SOut)
    (b : Fin 4096) (s : Fin 50) (d : Fin 128) (hlt : b.val * 50 + s.val < 204800) :
    shapeCast SOut out2 h (ix3 b s d) = out2 (ix2 (⟨b.val * 50 + s.val, hlt⟩ : Fin 204800) d) := by
  refine shapeCast_apply out2 h (ix3 b s d) _ ?_
  rw [Shape.rowMajor_val_two, Shape.rowMajor_val_three]
  rfl

/-! ## The device code's function over the reshaped operands -/

/-- The token word of flat position n in the [32, 50, 128] array: group n / 6400, row (n % 6400) / 128, lane n % 128. -/
def tokAt (tok3 : IVec S32x50x128 32) (n : Fin 204800) : BitVec 32 :=
  tok3 (ix3 (⟨n.val / 6400, by omega⟩ : Fin 32) (⟨n.val % 6400 / 128, by omega⟩ : Fin 50) (⟨n.val % 128, by omega⟩ : Fin 128))

/-- The place in the flattened draw array of vocabulary entry v for flat position n: batch row n / 50. -/
def flatPos (n : Fin 204800) (v : Fin 1000) : Fin 4096000 := ⟨n.val / 50 * 1000 + v.val, by omega⟩

theorem flatPos_val (n : Fin 204800) (v : Fin 1000) : (flatPos n v).val = n.val / 50 * 1000 + v.val := rfl

/-- Row n, column d of the device code's result, as a function of the table, the [32, 50, 128] tokens and the flat draws. -/
def KoutAt (tab : FVec Ideal STab .f32) (tok3 : IVec S32x50x128 32) (uflat : FVec Ideal S4096000 .f32)
    (n : Fin 204800) (d : Fin 128) : EReal :=
  tab (ix2 (row (tokAt tok3 n)) d) *
    (if uflat (ix1 (flatPos n (row (tokAt tok3 n)))) < half then ((2 : ℝ) : EReal) else 0)

/-- The device code's result array. -/
def Kout (tab : FVec Ideal STab .f32) (tok3 : IVec S32x50x128 32) (uflat : FVec Ideal S4096000 .f32) :
    FVec Ideal S204800x128 .f32 :=
  fun i => KoutAt tab tok3 uflat (i 0) (i 1)

theorem Kout_apply (tab : FVec Ideal STab .f32) (tok3 : IVec S32x50x128 32) (uflat : FVec Ideal S4096000 .f32)
    (n : Fin 204800) (d : Fin 128) : Kout tab tok3 uflat (ix2 n d) = KoutAt tab tok3 uflat n d := rfl

/-- The token of flat position b * 50 + s in the reshaped array is the token at (b, s). -/
theorem tokAt_reshape (tok : IVec STok 32) (h : STok.ShapeCasts S32x50x128) (b : Fin 4096) (s : Fin 50)
    (hlt : b.val * 50 + s.val < 204800) :
    tokAt (shapeCast S32x50x128 tok h) (⟨b.val * 50 + s.val, hlt⟩ : Fin 204800) = tok (ix2 b s) := by
  unfold tokAt
  refine tok3_apply_of_pos tok h _ _ _ b s ?_
  show b.val * 50 + s.val
    = (b.val * 50 + s.val) / 6400 * 6400 + (b.val * 50 + s.val) % 6400 / 128 * 128 + (b.val * 50 + s.val) % 128
  omega

/-- The flat draw read for flat position b * 50 + s and entry v is the draw at (b, v). -/
theorem uflat_flatPos (u : FVec Ideal SUni .f32) (h : SUni.ShapeCasts S4096000) (b : Fin 4096) (s : Fin 50)
    (hlt : b.val * 50 + s.val < 204800) (v : Fin 1000) :
    shapeCast S4096000 u h (ix1 (flatPos (⟨b.val * 50 + s.val, hlt⟩ : Fin 204800) v)) = u (ix2 b v) := by
  have hv : b.val * 1000 + v.val < 4096000 := by omega
  have e : flatPos (⟨b.val * 50 + s.val, hlt⟩ : Fin 204800) v = (⟨b.val * 1000 + v.val, hv⟩ : Fin 4096000) := by
    apply Fin.ext
    show (b.val * 50 + s.val) / 50 * 1000 + v.val = b.val * 1000 + v.val
    omega
  rw [e]
  exact uflat_apply u h b v hv

/-- The device code's function, applied to the reshaped tokens and the flattened draws and read back as
    [4096, 50, 128], is the function of the argument arrays. -/
theorem kernel_form (tab : FVec Ideal STab .f32) (tok : IVec STok 32) (u : FVec Ideal SUni .f32)
    (h1 : STok.ShapeCasts S32x50x128) (h2 : SUni.ShapeCasts S4096000) (h3 : S204800x128.ShapeCasts SOut) :
    shapeCast SOut (Kout tab (shapeCast S32x50x128 tok h1) (shapeCast S4096000 u h2)) h3 = G tab tok u := by
  funext i
  obtain ⟨b, s, d, rfl⟩ : ∃ (b : Fin 4096) (s : Fin 50) (d : Fin 128), i = ix3 b s d := ⟨i 0, i 1, i 2, eq_ix3 i⟩
  have hlt : b.val * 50 + s.val < 204800 := by omega
  rw [out_apply _ h3 b s d hlt, Kout_apply, G_apply]
  unfold KoutAt Gat
  rw [tokAt_reshape tok h1 b s hlt, uflat_flatPos u h2 b s hlt]

end Cert.Layout

end
-- ==== Proof.KI.ValueIdeal.lean ====
/-
  The flat result at the ideal level.  The value the tiles write is stated with the float operations of an arbitrary
  instance; read at the extended reals the product is the product, the ordered comparison is the order's decision, the
  select on its word is the `if`, and the patterns of 2.0 and +0.0 denote 2 and 0.  That is the function of the table,
  the regrouped tokens and the flattened draws that the three reshapes carry to the function of the argument arrays.
-/
import proofs.«206556_g62818191671566_cont_9to1_m_1093_40_alg».proof.Proof.KI.Setup
import proofs.«206556_g62818191671566_cont_9to1_m_1093_40_alg».proof.Proof.Layout

noncomputable section

namespace Cert.KI

open Cert.KernelIdeal Cert.KernelIdeal.Gen

open Idealize.ShloMosaic
open Idealize.ShloMosaic.ValueIdx

/-- A select on the word of the ordered comparison "less than" of two extended reals is the `if` on the order. -/
theorem select_olt {α : Type} (x y : EReal) (a b : α) :
    Scalar.select (Ideal.cmp .olt x y) a b = if x < y then a else b := by
  show Scalar.select (BitVec.ofBool (decide (x < y))) a b = _
  by_cases h : x < y
  · rw [decide_eq_true h, if_pos h]; exact select_one a b
  · rw [decide_eq_false h, if_neg h]; exact select_zero a b

/-- Row n, column d of the flat result, read at the extended reals. -/
theorem KvalF_ideal_at (tab : FVec Ideal S1000x128 .f32) (tok3 : IVec S32x50x128 32) (uflat : FVec Ideal S4096000 .f32)
    (n : Fin 204800) (d : Fin 128) :
    KvalF (F := Ideal) tab tok3 uflat (ix2 n d) = Cert.Layout.KoutAt tab tok3 uflat n d := by
  show tab (ix2 (Cert.Spec.row (Cert.Layout.tokAt tok3 n)) d) *
      Scalar.select
        (Ideal.cmp .olt (uflat (ix1 (Cert.Layout.flatPos n (Cert.Spec.row (Cert.Layout.tokAt tok3 n))))) Cert.Spec.half)
        (Ideal.ofBits .f32 0x40000000#32) (Ideal.ofBits .f32 0x00000000#32) = _
  rw [select_olt, Cert.Spec.ofBits_two, Cert.Spec.ofBits_zero]
  rfl

/-- The flat result read at the extended reals is the function of the table, the regrouped tokens and the flat draws. -/
theorem KvalF_ideal (tab : FVec Ideal S1000x128 .f32) (tok3 : IVec S32x50x128 32) (uflat : FVec Ideal S4096000 .f32) :
    KvalF (F := Ideal) tab tok3 uflat = Cert.Layout.Kout tab tok3 uflat := by
  funext i
  obtain ⟨n, d, rfl⟩ : ∃ (n : Fin 204800) (d : Fin 128), i = ix2 n d := ⟨i 0, i 1, eq_ix2 i⟩
  rw [KvalF_ideal_at, Cert.Layout.Kout_apply]

/-- The result array the host reads off the flat result is the function of the three argument arrays. -/
theorem result_eq_G (m : (ℓ : Loc Cert.KernelIdeal.nD Cert.KernelIdeal.τ Cert.KernelIdeal.sig) → Buf (Elt Ideal) ℓ)
    (c : Dev Cert.KernelIdeal.nD) :
    (shapeCast Cert.KernelIdeal.S4096x50x128 (outV (F := Ideal) m c : FVec Ideal Cert.KernelIdeal.S204800x128 .f32)
        Cert.KernelIdeal.Gen.shapeCasts_S204800x128_S4096x50x128 : FVec Ideal Cert.KernelIdeal.S4096x50x128 .f32)
      = Cert.Spec.G (m (tabLoc c)) (m (a1Loc c)) (m (a2Loc c)) := by
  unfold outV
  rw [KvalF_ideal]
  unfold tok3V uflatV
  exact Cert.Layout.kernel_form _ _ _ _ _ _

end Cert.KI

end
-- ==== Proof.Assembly.lean ====
/-
  The claim from the tile's obligation alone.  Each kernel program's run is the launch applied to the tile's
  obligation; its frame is that run with the result dropped.  The reference's run names its result as the function
  of the three argument arrays, and at the extended reals the kernel's result, read off the flat result through the
  host's reshape, is the same function: from memories that agree on the arguments the two results are equal.
-/
import proofs.«206556_g62818191671566_cont_9to1_m_1093_40_alg».proof.Defs
import proofs.«206556_g62818191671566_cont_9to1_m_1093_40_alg».proof.Proof.Gen.Kernel
import proofs.«206556_g62818191671566_cont_9to1_m_1093_40_alg».proof.Proof.Gen.KernelIdeal
import proofs.«206556_g62818191671566_cont_9to1_m_1093_40_alg».proof.Proof.Gen.ReferenceIdeal
import proofs.«206556_g62818191671566_cont_9to1_m_1093_40_alg».proof.Proof.Gen.Pre_input_domain
import proofs.«206556_g62818191671566_cont_9to1_m_1093_40_alg».proof.Proof.PreFacts
import proofs.«206556_g62818191671566_cont_9to1_m_1093_40_alg».proof.Proof.RefValue
import proofs.«206556_g62818191671566_cont_9to1_m_1093_40_alg».proof.Proof.KI.LaunchRun
import proofs.«206556_g62818191671566_cont_9to1_m_1093_40_alg».proof.Proof.KB.LaunchRun
import proofs.«206556_g62818191671566_cont_9to1_m_1093_40_alg».proof.Proof.KI.ValueIdeal

noncomputable section

namespace Cert.Assembly

open Idealize.ShloMosaic Idealize.SL.Sem

/-! ## The precondition gives the tiles their bound on the tokens -/

theorem preOK_B (m : (ℓ : Loc Cert.Kernel.nD Cert.Kernel.τ Cert.Kernel.sig) → Buf (Elt Bits) ℓ) (h : Cert.Pre_Kernel m) :
    Cert.KB.PreOK (F := Bits) m :=
  fun d j => Cert.PreFacts.tok_lt (F := Bits) _ _ _ (h d) j

theorem preOK_I (m : (ℓ : Loc Cert.KernelIdeal.nD Cert.KernelIdeal.τ Cert.KernelIdeal.sig) → Buf (Elt Ideal) ℓ) (h : Cert.Pre_KernelIdeal m) :
    Cert.KI.PreOK (F := Ideal) m :=
  fun d j => Cert.PreFacts.tok_lt (F := Ideal) _ _ _ (h d) j

/-! ## The three frames -/

theorem frame_B (hbB : ∀ m, Cert.KB.TileBody (F := Bits) m) : Cert.frame_Kernel := fun m g hpre =>
  (θ_run Cert.Kernel.defs _ _).mono (fun _ h c => (h c).2) (Cert.KB.run_main (F := Bits) m g (preOK_B m hpre) (hbB m))

theorem frame_I (hbI : ∀ m, Cert.KI.TileBody (F := Ideal) m) : Cert.frame_KernelIdeal := fun m g hpre =>
  (θ_run Cert.KernelIdeal.defs _ _).mono (fun _ h c => (h c).2) (Cert.KI.run_main (F := Ideal) m g (preOK_I m hpre) (hbI m))

theorem frame_R : Cert.frame_ReferenceIdeal := fun m g hpre =>
  (θ_run Cert.ReferenceIdeal.defs _ _).mono (fun _ h c => (h c).2)
    (Cert.RefSide.run m g fun c j => Cert.PreFacts.tok_lt (F := Ideal) _ _ _ (hpre c) j)

/-! ## Equal results at the extended reals -/

theorem algebraic (hbI : ∀ m, Cert.KI.TileBody (F := Ideal) m) : Cert.algebraic_KernelIdeal_ReferenceIdeal := by
  intro m g m' g' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KI.result_eq_G m c), (h c).2⟩)
      (Cert.KI.run_main (F := Ideal) m g (preOK_I m hpre) (hbI m))
  · have htok : ∀ (c : Dev Cert.ReferenceIdeal.nD) (j : Cert.Spec.STok.Idx),
        BitVec.toNat (w := 32) (m' ((c.tc : Thread Cert.ReferenceIdeal.nD Cert.ReferenceIdeal.τ).loc Cert.ReferenceIdeal.main_arg1) j) < 1000 := by
      intro c j
      rw [(hagree c).2.1]
      exact preOK_I m hpre c j
    refine (θ_run Cert.ReferenceIdeal.defs _ _).mono (fun _ h c => ⟨(h c).1.trans ?_, (h c).2⟩) (Cert.RefSide.run m' g' htok)
    rw [(hagree c).1, (hagree c).2.1, (hagree c).2.2]

/-! ## The claim -/

theorem claim_of_bodies (hbB : ∀ m, Cert.KB.TileBody (F := Bits) m) (hbI : ∀ m, Cert.KI.TileBody (F := Ideal) m) : Cert.Claim :=
  ⟨Cert.Kernel.Gen.facts, Cert.KernelIdeal.Gen.facts, Cert.ReferenceIdeal.Gen.facts, Cert.Pre_input_domain.Gen.facts,
    frame_B hbB, frame_I hbI, frame_R, trivial, algebraic hbI⟩

end Cert.Assembly

end
-- ==== Proof.KI.Own.lean ====
/-
  A vector subcore's own storage, named piece by piece: its eleven DMA semaphores (the six the kernel declares and the
  five of its synchronous copies) each at zero, and its five scratch buffers each at some contents, beside whatever
  else the subcore owns.
-/
import proofs.«206556_g62818191671566_cont_9to1_m_1093_40_alg».proof.Proof.KI.TileStmt

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem mem_erase_of {α : Type} [DecidableEq α] {s : Finset α} {a b : α} (hne : a ≠ b) (h : a ∈ s) : a ∈ s.erase b :=
  Finset.mem_erase.mpr ⟨hne, h⟩

/-- The subcore's DMA semaphore number `k`, as a cell. -/
abbrev dcell (d : Dev nD) (L : grid0.Coords) (k : Fin 11) : GSem nD τ sig := (thrV d L, SemLoc.dma k)

theorem dne (d : Dev nD) (L : grid0.Coords) {a b : Fin 11} (h : a ≠ b) : dcell d L a ≠ dcell d L b :=
  fun e => h (SemLoc.dma.inj (Prod.mk.inj e).2)

theorem dmem (d : Dev nD) (L : grid0.Coords) (k : Fin 11) : dcell d L k ∈ ownCells (thrV d L) :=
  (mem_ownCells (g := dcell d L k)).mpr ⟨rfl, by
    show (SemLoc.dma k : SemLoc sig).isScoped .scVector = true
    revert k; decide⟩

/-- Every DMA semaphore of the subcore at zero, one by one, and the rest of its cells. -/
theorem ownSems0_V (d : Dev nD) (L : grid0.Coords) :
    (ownSems0 (thrV d L) : sProp 𝕄)
      = iprop(semVal (dcell d L 0) 0 ∗ semVal (dcell d L 1) 0 ∗ semVal (dcell d L 2) 0 ∗ semVal (dcell d L 3) 0 ∗ semVal (dcell d L 4) 0 ∗ semVal (dcell d L 5) 0 ∗ semVal (dcell d L 6) 0 ∗ semVal (dcell d L 7) 0 ∗ semVal (dcell d L 8) 0 ∗ semVal (dcell d L 9) 0 ∗ semVal (dcell d L 10) 0
          ∗ bigSep ((((((((((((ownCells (thrV d L)).erase (dcell d L 0)).erase (dcell d L 1)).erase (dcell d L 2)).erase (dcell d L 3)).erase (dcell d L 4)).erase (dcell d L 5)).erase (dcell d L 6)).erase (dcell d L 7)).erase (dcell d L 8)).erase (dcell d L 9)).erase (dcell d L 10)) fun g => semVal g 0) := by
  unfold SparseCore.Cfg.ownSems0
  rw [SparseCore.bigSep_erase' (dmem d L 0),
    SparseCore.bigSep_erase' (mem_erase_of (dne d L (show (1 : Fin 11) ≠ 0 by decide)) (dmem d L 1)),
    SparseCore.bigSep_erase' (mem_erase_of (dne d L (show (2 : Fin 11) ≠ 1 by decide)) (mem_erase_of (dne d L (show (2 : Fin 11) ≠ 0 by decide)) (dmem d L 2))),
    SparseCore.bigSep_erase' (mem_erase_of (dne d L (show (3 : Fin 11) ≠ 2 by decide)) (mem_erase_of (dne d L (show (3 : Fin 11) ≠ 1 by decide)) (mem_erase_of (dne d L (show (3 : Fin 11) ≠ 0 by decide)) (dmem d L 3)))),
    SparseCore.bigSep_erase' (mem_erase_of (dne d L (show (4 : Fin 11) ≠ 3 by decide)) (mem_erase_of (dne d L (show (4 : Fin 11) ≠ 2 by decide)) (mem_erase_of (dne d L (show (4 : Fin 11) ≠ 1 by decide)) (mem_erase_of (dne d L (show (4 : Fin 11) ≠ 0 by decide)) (dmem d L 4))))),
    SparseCore.bigSep_erase' (mem_erase_of (dne d L (show (5 : Fin 11) ≠ 4 by decide)) (mem_erase_of (dne d L (show (5 : Fin 11) ≠ 3 by decide)) (mem_erase_of (dne d L (show (5 : Fin 11) ≠ 2 by decide)) (mem_erase_of (dne d L (show (5 : Fin 11) ≠ 1 by decide)) (mem_erase_of (dne d L (show (5 : Fin 11) ≠ 0 by decide)) (dmem d L 5)))))),
    SparseCore.bigSep_erase' (mem_erase_of (dne d L (show (6 : Fin 11) ≠ 5 by decide)) (mem_erase_of (dne d L (show (6 : Fin 11) ≠ 4 by decide)) (mem_erase_of (dne d L (show (6 : Fin 11) ≠ 3 by decide)) (mem_erase_of (dne d L (show (6 : Fin 11) ≠ 2 by decide)) (mem_erase_of (dne d L (show (6 : Fin 11) ≠ 1 by decide)) (mem_erase_of (dne d L (show (6 : Fin 11) ≠ 0 by decide)) (dmem d L 6))))))),
    SparseCore.bigSep_erase' (mem_erase_of (dne d L (show (7 : Fin 11) ≠ 6 by decide)) (mem_erase_of (dne d L (show (7 : Fin 11) ≠ 5 by decide)) (mem_erase_of (dne d L (show (7 : Fin 11) ≠ 4 by decide)) (mem_erase_of (dne d L (show (7 : Fin 11) ≠ 3 by decide)) (mem_erase_of (dne d L (show (7 : Fin 11) ≠ 2 by decide)) (mem_erase_of (dne d L (show (7 : Fin 11) ≠ 1 by decide)) (mem_erase_of (dne d L (show (7 : Fin 11) ≠ 0 by decide)) (dmem d L 7)))))))),
    SparseCore.bigSep_erase' (mem_erase_of (dne d L (show (8 : Fin 11) ≠ 7 by decide)) (mem_erase_of (dne d L (show (8 : Fin 11) ≠ 6 by decide)) (mem_erase_of (dne d L (show (8 : Fin 11) ≠ 5 by decide)) (mem_erase_of (dne d L (show (8 : Fin 11) ≠ 4 by decide)) (mem_erase_of (dne d L (show (8 : Fin 11) ≠ 3 by decide)) (mem_erase_of (dne d L (show (8 : Fin 11) ≠ 2 by decide)) (mem_erase_of (dne d L (show (8 : Fin 11) ≠ 1 by decide)) (mem_erase_of (dne d L (show (8 : Fin 11) ≠ 0 by decide)) (dmem d L 8))))))))),
    SparseCore.bigSep_erase' (mem_erase_of (dne d L (show (9 : Fin 11) ≠ 8 by decide)) (mem_erase_of (dne d L (show (9 : Fin 11) ≠ 7 by decide)) (mem_erase_of (dne d L (show (9 : Fin 11) ≠ 6 by decide)) (mem_erase_of (dne d L (show (9 : Fin 11) ≠ 5 by decide)) (mem_erase_of (dne d L (show (9 : Fin 11) ≠ 4 by decide)) (mem_erase_of (dne d L (show (9 : Fin 11) ≠ 3 by decide)) (mem_erase_of (dne d L (show (9 : Fin 11) ≠ 2 by decide)) (mem_erase_of (dne d L (show (9 : Fin 11) ≠ 1 by decide)) (mem_erase_of (dne d L (show (9 : Fin 11) ≠ 0 by decide)) (dmem d L 9)))))))))),
    SparseCore.bigSep_erase' (mem_erase_of (dne d L (show (10 : Fin 11) ≠ 9 by decide)) (mem_erase_of (dne d L (show (10 : Fin 11) ≠ 8 by decide)) (mem_erase_of (dne d L (show (10 : Fin 11) ≠ 7 by decide)) (mem_erase_of (dne d L (show (10 : Fin 11) ≠ 6 by decide)) (mem_erase_of (dne d L (show (10 : Fin 11) ≠ 5 by decide)) (mem_erase_of (dne d L (show (10 : Fin 11) ≠ 4 by decide)) (mem_erase_of (dne d L (show (10 : Fin 11) ≠ 3 by decide)) (mem_erase_of (dne d L (show (10 : Fin 11) ≠ 2 by decide)) (mem_erase_of (dne d L (show (10 : Fin 11) ≠ 1 by decide)) (mem_erase_of (dne d L (show (10 : Fin 11) ≠ 0 by decide)) (dmem d L 10)))))))))))]

/-- A scratch buffer of the subcore, as a device reference. -/
abbrev sref (c : Fin τ.nSC) (j : Fin τ.nSub) (b : Ref sig .scVector) : DevRef τ sig := (Proc.scVector c j).devRef b

theorem bmem (c : Fin τ.nSC) (j : Fin τ.nSub) (b : Ref sig .scVector) (h : (sref c j b).owner = .proc (.scVector c j)) :
    sref c j b ∈ ownRefs (τ := τ) (sig := sig) (.scVector c j) :=
  SparseCore.Cfg.mem_ownRefs_of_owner (p := Proc.scVector c j) (b := sref c j b) h

theorem bne (c : Fin τ.nSC) (j : Fin τ.nSub) (a b : Ref sig .scVector) (h : (sref c j a).idx.val ≠ (sref c j b).idx.val) : sref c j a ≠ sref c j b :=
  fun e => h (congrArg (fun r : DevRef τ sig => r.idx.val) e)

/-- Each scratch buffer of the subcore at some contents, one by one, and the rest of what it owns. -/
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f)
          ∗ bigSep ((((((ownRefs (τ := τ) (.scVector (cV L) (jV L))).erase (sref (cV L) (jV L) cc0_scratch0)).erase (sref (cV L) (jV L) cc0_scratch1)).erase (sref (cV L) (jV L) cc0_scratch2)).erase (sref (cV L) (jV L) cc0_scratch3)).erase (sref (cV L) (jV L) cc0_scratch4)) fun b => iprop(∃ f, ((d, b) : Loc nD τ sig) ↦{fullShare} f)) := by
  unfold SparseCore.Cfg.ownBufs
  rw [SparseCore.bigSep_erase' (bmem (cV L) (jV L) cc0_scratch0 rfl),
    SparseCore.bigSep_erase' (mem_erase_of (bne (cV L) (jV L) cc0_scratch1 cc0_scratch0 (show (1 : ℕ) ≠ 0 by decide)) (bmem (cV L) (jV L) cc0_scratch1 rfl)),
    SparseCore.bigSep_erase' (mem_erase_of (bne (cV L) (jV L) cc0_scratch2 cc0_scratch1 (show (2 : ℕ) ≠ 1 by decide)) (mem_erase_of (bne (cV L) (jV L) cc0_scratch2 cc0_scratch0 (show (2 : ℕ) ≠ 0 by decide)) (bmem (cV L) (jV L) cc0_scratch2 rfl))),
    SparseCore.bigSep_erase' (mem_erase_of (bne (cV L) (jV L) cc0_scratch3 cc0_scratch2 (show (3 : ℕ) ≠ 2 by decide)) (mem_erase_of (bne (cV L) (jV L) cc0_scratch3 cc0_scratch1 (show (3 : ℕ) ≠ 1 by decide)) (mem_erase_of (bne (cV L) (jV L) cc0_scratch3 cc0_scratch0 (show (3 : ℕ) ≠ 0 by decide)) (bmem (cV L) (jV L) cc0_scratch3 rfl)))),
    SparseCore.bigSep_erase' (mem_erase_of (bne (cV L) (jV L) cc0_scratch4 cc0_scratch3 (show (4 : ℕ) ≠ 3 by decide)) (mem_erase_of (bne (cV L) (jV L) cc0_scratch4 cc0_scratch2 (show (4 : ℕ) ≠ 2 by decide)) (mem_erase_of (bne (cV L) (jV L) cc0_scratch4 cc0_scratch1 (show (4 : ℕ) ≠ 1 by decide)) (mem_erase_of (bne (cV L) (jV L) cc0_scratch4 cc0_scratch0 (show (4 : ℕ) ≠ 0 by decide)) (bmem (cV L) (jV L) cc0_scratch4 rfl)))))]

end Cert.KI

end
-- ==== Proof.KI.PrologueVal.lean ====
/-
  What the tile's first copies leave in its buffers.  A copy's payload is the source read through its view; landed
  through a view of the whole destination it replaces the contents, and landed through a run of rows it replaces those
  rows.  The chunk buffer then holds the worker's fifty chunks of tokens, and the rows of the shared copy a subcore
  staged hold the table's rows: the staging buffer is written whole and read back whole, and the rows of the table and
  of the shared copy are cut by the same rectangle of two arrays of one shape.
-/
import proofs.«206556_g62818191671566_cont_9to1_m_1093_40_alg».proof.Proof.KI.Own

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The views the first copies go through -/

/-- The worker's fifty chunks of tokens: group `2 (L 1) + (L 0)` of the regrouped token array, its unit axis dropped. -/
abbrev tokSlab (L : grid0.Coords) : Memref sig .scVector .hbm S50x128 .i32 :=
  ((tokM).slice (Rect.unit (s := S32x50x128) (k0_off1 L) S1x50x128.size (k0_off1_inb L)) (fun _ => rfl)).squeeze S50x128
    squeezes_S1x50x128_S50x128

theorem wid_lt (L : grid0.Coords) : 2 * (L 1).val + (L 0).val < 32 := by
  have h0 : (L 0).val < 2 := (L 0).isLt
  have h1 : (L 1).val < 16 := (L 1).isLt
  omega

variable (m : (ℓ : Loc nD τ sig) → Buf (Elt F) ℓ)

/-- What the chunk buffer holds once the tokens have landed: entry (c, r) is the token of the worker's chunk c at r. -/
def idxVal (d : Dev nD) (L : grid0.Coords) : Buf (Elt F) ((thrV d L).loc cc0_scratch0) :=
  ((fun j => (tok3V m d : IVec S32x50x128 32)
      (ix3 (⟨2 * (L 1).val + (L 0).val, wid_lt L⟩ : Fin 32) (j 0 : Fin 50) (j 1 : Fin 128))) : IVec S50x128 32)

/-- Where entry (a, b) of the worker's chunks sits in the regrouped token array. -/
theorem tokSlab_emb (L : grid0.Coords) (a : Fin 50) (b : Fin 128) :
    (tokSlab L).view.emb (ix2 a b) = (ix3 (⟨2 * (L 1).val + (L 0).val, wid_lt L⟩ : Fin 32) a b : S32x50x128.Idx) := by
  have e1 : Shape.reshapeEquiv (squeezes_S1x50x128_S50x128 : S1x50x128.Squeezes S50x128).numel_eq (ix2 a b)
      = (ix3 (⟨0, Nat.one_pos⟩ : Fin 1) a b : S1x50x128.Idx) := by
    refine Shape.reshapeEquiv_eq_of_rowMajor _ ?_
    rw [Shape.rowMajor_val_three, Shape.rowMajor_val_two]
    show (0 * 50 + a.val) * 128 + b.val = a.val * 128 + b.val
    omega
  show (Rect.unit (s := S32x50x128) (k0_off1 L) S1x50x128.size (k0_off1_inb L)).emb
      (Shape.reshapeEquiv (squeezes_S1x50x128_S50x128 : S1x50x128.Squeezes S50x128).numel_eq (ix2 a b)) = _
  rw [e1]
  funext k
  apply Fin.ext
  rw [Rect.emb_apply]
  have h0 : k0_off1 L 0 = 2 * (L 1).val + (L 0).val := by rw [k0_off1_eq]; rfl
  have h1 : k0_off1 L 1 = 0 := by rw [k0_off1_eq]; rfl
  have h2 : k0_off1 L 2 = 0 := by rw [k0_off1_eq]; rfl
  match k with
  | ⟨0, _⟩ => show k0_off1 L 0 + 1 * 0 = 2 * (L 1).val + (L 0).val; omega
  | ⟨1, _⟩ => show k0_off1 L 1 + 1 * a.val = a.val; omega
  | ⟨2, _⟩ => show k0_off1 L 2 + 1 * b.val = b.val; omega

/-- The tokens landed in the chunk buffer: the copy replaces the buffer's contents by the worker's chunks. -/
theorem idx_landed (d : Dev nD) (L : grid0.Coords) (fidx : Buf (Elt F) ((thrV d L).loc cc0_scratch0)) :
    View.write (Elt F) (idxM).view fidx (ReadAs.same.apply (View.read (Elt F) (tokSlab L).view (tok3V m d))) Finset.univ
      = idxVal m d L := by
  refine (View.write_whole_univ (Val := Elt F) cc0_scratch0 fidx _).trans ?_
  funext j
  obtain ⟨a, b, rfl⟩ : ∃ (a : Fin 50) (b : Fin 128), j = ix2 a b := ⟨j 0, j 1, eq_ix2 j⟩
  rw [ReadAs.apply_same, View.read_apply, tokSlab_emb]
  rfl

/-! ## Staging the table's rows: a subcore below the last -/

/-- The sixty-four rows of the table a subcore below the last stages, as the program slices them. -/
abbrev tabRowsA (L : grid0.Coords) (h : k0_cond1 L = 1#1) : Memref sig .scVector .hbm S64x128 .f32 :=
  (tabM).slice (Rect.unit (s := S1000x128) (k0_off2 L) S64x128.size (k0_off2_inb L h)) (fun _ => rfl)

/-- The first sixty-four rows of the first half of the row scratch, the unit axis dropped. -/
abbrev rows64 : Memref sig .scVector .vmem S64x128 .f32 :=
  ((rowsM).slice (Rect.unit (s := S2x128x128) ![0, 0, 0] S1x64x128.size inb_S2x128x128_S1x64x128_0_0_0) (fun _ => rfl)).squeeze
    S64x128 squeezes_S1x64x128_S64x128

/-- The rows of the shared copy a subcore below the last stages, as the program slices them. -/
abbrev spmRowsA (L : grid0.Coords) (h : k0_cond1 L = 1#1) : Memref sig .scVector .shared S64x128 .f32 :=
  (spmM).slice (Rect.unit (s := S1000x128) (k0_off2 L) S64x128.size (k0_off2_inb L h)) (fun _ => rfl)

/-- Below the last subcore the staged rows are the sixty-four from `64 i` on. -/
theorem cond1_lt (L : grid0.Coords) (h : k0_cond1 L = 1#1) : (jL L).val < 15 := by
  revert h; revert L; decide +kernel

theorem set_spmRowsA (L : grid0.Coords) (h : k0_cond1 L = 1#1) : (spmRowsA L h).view.set = spmSet (jL L) := by
  show ((spmM).view.slice (Rect.unit (s := S1000x128) (k0_off2 L) S64x128.size (k0_off2_inb L h))).set = (spmRect (jL L)).set
  rw [View.set_slice]
  have hr : Rect.unit (s := S1000x128) (k0_off2 L) S64x128.size (k0_off2_inb L h) = spmRect (jL L) := by
    unfold spmRect
    congr 1
    · rw [k0_off2_eq]; rfl
    · funext a
      have := cond1_lt L h
      match a with
      | ⟨0, _⟩ => show 64 = spmCount (jL L); unfold spmCount; rw [if_pos this]
      | ⟨1, _⟩ => rfl
  rw [hr]; exact Finset.map_refl

/-- The rows a subcore below the last staged hold the table's rows: the staging buffer is written whole with the
    table's rows and read back whole, and the rows of the shared copy it lands in are cut by the rectangle that cut
    the table's. -/
theorem staged_A (d : Dev nD) (L : grid0.Coords) (h : k0_cond1 L = 1#1) (fsh : Buf (Elt F) (shLoc d (cV L)))
    (frows : Buf (Elt F) ((thrV d L).loc cc0_scratch4)) :
    ∀ x ∈ (spmRowsA L h).view.set,
      (spmRowsA L h).view.writes (Elt F) fsh
        [⟨Rect.whole S64x128, ReadAs.same.apply (View.read (Elt F) rows64.view
          (View.write (Elt F) rows64.view frows
            (ReadAs.same.apply (View.read (Elt F) (tabRowsA L h).view (m (tabLoc d)))) Finset.univ))⟩] x
        = tabSh m d (cV L) x := by
  intro x hx
  obtain ⟨y, -, rfl⟩ := Finset.mem_map.mp hx
  rw [ReadAs.apply_same, ReadAs.apply_same, View.read_write_univ, View.writes_singleton]
  have he : ((spmRowsA L h).view.slice (Rect.whole S64x128)).emb y = (spmRowsA L h).view.emb y := by
    show (spmRowsA L h).view.emb ((Rect.whole S64x128).emb y) = _
    rw [Rect.emb_whole_apply]
  have hw := View.write_emb_of_mem (v := (spmRowsA L h).view.slice (Rect.whole S64x128)) (Val := Elt F) fsh
    (View.read (Elt F) (tabRowsA L h).view (m (tabLoc d))) (M := Finset.univ) (x := y) (Finset.mem_univ y)
  rw [he] at hw
  refine hw.trans ?_
  rw [View.read_apply]
  rfl

/-! ## Staging the table's rows: the last subcore -/

/-- The last forty rows of the table, as the program slices them. -/
abbrev tabRowsB : Memref sig .scVector .hbm S40x128 .f32 :=
  (tabM).slice (Rect.unit (s := S1000x128) ![960, 0] S40x128.size inb_S1000x128_S40x128_960_0) (fun _ => rfl)

/-- The first forty rows of the first half of the row scratch, the unit axis dropped. -/
abbrev rows40 : Memref sig .scVector .vmem S40x128 .f32 :=
  ((rowsM).slice (Rect.unit (s := S2x128x128) ![0, 0, 0] S1x40x128.size inb_S2x128x128_S1x40x128_0_0_0) (fun _ => rfl)).squeeze
    S40x128 squeezes_S1x40x128_S40x128

/-- The last forty rows of the shared copy, as the program slices them. -/
abbrev spmRowsB : Memref sig .scVector .shared S40x128 .f32 :=
  (spmM).slice (Rect.unit (s := S1000x128) ![960, 0] S40x128.size inb_S1000x128_S40x128_960_0) (fun _ => rfl)

/-- The last subcore stages the forty rows from 960 on. -/
theorem set_spmRowsB (L : grid0.Coords) (h15 : (jL L).val = 15) : (spmRowsB).view.set = spmSet (jL L) := by
  show ((spmM).view.slice (Rect.unit (s := S1000x128) ![960, 0] S40x128.size inb_S1000x128_S40x128_960_0)).set
    = (spmRect (jL L)).set
  rw [View.set_slice]
  have hr : Rect.unit (s := S1000x128) ![960, 0] S40x128.size inb_S1000x128_S40x128_960_0 = spmRect (jL L) := by
    unfold spmRect
    congr 1
    · rw [h15]
    · funext a
      match a with
      | ⟨0, _⟩ => show 40 = spmCount (jL L); unfold spmCount; rw [if_neg (by omega)]
      | ⟨1, _⟩ => rfl
  rw [hr]; exact Finset.map_refl

/-- The rows the last subcore staged hold the table's last forty rows. -/
theorem staged_B (d : Dev nD) (L : grid0.Coords) (fsh : Buf (Elt F) (shLoc d (cV L)))
    (frows : Buf (Elt F) ((thrV d L).loc cc0_scratch4)) :
    ∀ x ∈ (spmRowsB).view.set,
      (spmRowsB).view.writes (Elt F) fsh
        [⟨Rect.whole S40x128, ReadAs.same.apply (View.read (Elt F) rows40.view
          (View.write (Elt F) rows40.view frows
            (ReadAs.same.apply (View.read (Elt F) (tabRowsB).view (m (tabLoc d)))) Finset.univ))⟩] x
        = tabSh m d (cV L) x := by
  intro x hx
  obtain ⟨y, -, rfl⟩ := Finset.mem_map.mp hx
  rw [ReadAs.apply_same, ReadAs.apply_same, View.read_write_univ, View.writes_singleton]
  have he : ((spmRowsB).view.slice (Rect.whole S40x128)).emb y = (spmRowsB).view.emb y := by
    show (spmRowsB).view.emb ((Rect.whole S40x128).emb y) = _
    rw [Rect.emb_whole_apply]
  have hw := View.write_emb_of_mem (v := (spmRowsB).view.slice (Rect.whole S40x128)) (Val := Elt F) fsh
    (View.read (Elt F) (tabRowsB).view (m (tabLoc d))) (M := Finset.univ) (x := y) (Finset.mem_univ y)
  rw [he] at hw
  refine hw.trans ?_
  rw [View.read_apply]
  rfl

end Cert.KI

end
-- ==== Proof.KI.Vals.lean ====
/-
  The contents of a subcore's buffers, chunk by chunk, as functions of the launch memory, and the element sets the
  loop's invariant speaks of.

  Worker `w = 2 i + c` treats flat positions `6400 w + 128 k + r` for chunk `k < 50` and row `r < 128`.  For chunk `k`:
  the token of row `r` is `tok3[w, k, r]`; the gathered rows are the table's rows of those tokens; the draw index of row
  `r` is `(position / 50) * 1000 + token`; the gathered draws are the flattened draws there; the scale of row `r` is `2`
  where the draw is below one half and `0` elsewhere; the product is the gathered row times its scale, which is the flat
  result's row at that position.  Each is stated on the WHOLE buffer's index type and does not depend on which half of
  a double buffer it sits in, so that a half's contents are the same function whichever trip wrote them.
-/
import proofs.«206556_g62818191671566_cont_9to1_m_1093_40_alg».proof.Proof.KI.PrologueVal

noncomputable section

namespace Cert.KI

open Cert.KernelIdeal Cert.KernelIdeal.Gen

open Idealize.ShloMosaic
open Idealize.ShloMosaic.SparseCore (S V T)
open Idealize.ShloMosaic.ValueIdx

variable {F : FTy → Type}

variable (m : (ℓ : Loc nD τ sig) → Buf (Elt F) ℓ)

/-- The worker's number at a grid point. -/
def widN (L : grid0.Coords) : ℕ := 2 * (L 1).val + (L 0).val
/-- The flat position of row `r` of chunk `k` of the worker at `L`. -/
def posN (L : grid0.Coords) (k r : ℕ) : ℕ := widN L * 6400 + k * 128 + r

/-- The token of row `r` of chunk `k` (indices reduced so that it is total). -/
def tokC (d : Dev nD) (L : grid0.Coords) (k r : ℕ) : BitVec 32 :=
  (tok3V m d : IVec S32x50x128 32) (ix3 (⟨2 * (L 1).val + (L 0).val, wid_lt L⟩ : Fin 32)
    (⟨k % 50, Nat.mod_lt _ (by norm_num)⟩ : Fin 50) (⟨r % 128, Nat.mod_lt _ (by norm_num)⟩ : Fin 128))

/-- The draw index of row `r` of chunk `k`, as a natural number. -/
def midxN (d : Dev nD) (L : grid0.Coords) (k r : ℕ) : ℕ := posN L k r / 50 * 1000 + (tokC m d L k r).toNat

/-- The rows gathered for chunk `k`: on either half of the row scratch, row `r` is the table's row of token `r`. -/
def rowsVal (d : Dev nD) (L : grid0.Coords) (k : ℕ) : Buf (Elt F) ((thrV d L).loc cc0_scratch4) :=
  ((fun x => (m (tabLoc d) : FVec F S1000x128 .f32) (ix2 (Cert.Spec.row (tokC m d L k (x 1).val)) (⟨(x 2).val % 128, Nat.mod_lt _ (by norm_num)⟩ : Fin 128)))
    : FVec F S2x128x128 .f32)

/-- The draw indices computed for chunk `k`: on either row of the index scratch. -/
def midxVal (d : Dev nD) (L : grid0.Coords) (k : ℕ) : Buf (Elt F) ((thrV d L).loc cc0_scratch1) :=
  ((fun x => BitVec.ofNat 32 (midxN m d L k (x 1).val)) : IVec S2x128 32)

/-- The draws gathered for chunk `k`: on either row of the draw scratch. -/
def mvalVal (d : Dev nD) (L : grid0.Coords) (k : ℕ) : Buf (Elt F) ((thrV d L).loc cc0_scratch2) :=
  ((fun x => (uflatV m d : FVec F S4096000 .f32) (ix1 (⟨midxN m d L k (x 1).val % 4096000, Nat.mod_lt _ (by norm_num)⟩ : Fin 4096000)))
    : FVec F S2x128 .f32)

variable [FloatOps F]

/-- The scale of chunk `k`: `2` where the row's draw is below one half, `0` elsewhere. -/
def scaleVal (d : Dev nD) (L : grid0.Coords) (k : ℕ) : Buf (Elt F) ((thrV d L).loc cc0_scratch3) :=
  ((fun y => Scalar.select (FloatOps.cmpf .olt ((mvalVal m d L k : FVec F S2x128 .f32) (ix2 (0 : Fin 2) (⟨(y 0).val % 128, Nat.mod_lt _ (by norm_num)⟩ : Fin 128)))
        (Scalar.ofBits .f32 0x3F000000#32)) (Scalar.ofBits .f32 0x40000000#32) (Scalar.ofBits .f32 0x00000000#32))
    : FVec F S128 .f32)

/-- The rows of chunk `k` scaled: what the subcore writes out. -/
def prodVal (d : Dev nD) (L : grid0.Coords) (k : ℕ) : Buf (Elt F) ((thrV d L).loc cc0_scratch4) :=
  ((fun x => FloatOps.mulf ((rowsVal m d L k : FVec F S2x128x128 .f32) x)
      ((scaleVal m d L k : FVec F S128 .f32) (ix1 (⟨(x 1).val % 128, Nat.mod_lt _ (by norm_num)⟩ : Fin 128))))
    : FVec F S2x128x128 .f32)

/-! ## Element sets -/

omit [FloatOps F] in
theorem chunk_inb (L : grid0.Coords) (k : ℕ) :
    ∀ a, (![(widN L * 6400 + (k % 50) * 128), 0] : Fin 2 → ℕ) a + (![128, 128] : Fin 2 → ℕ) a ≤ S204800x128.size a := by
  intro a
  have hw : widN L < 32 := wid_lt L
  have hk : k % 50 < 50 := Nat.mod_lt _ (by norm_num)
  match a with
  | ⟨0, _⟩ => show widN L * 6400 + (k % 50) * 128 + 128 ≤ 204800; omega
  | ⟨1, _⟩ => show 0 + 128 ≤ 128; omega
/-- The rows of the flat result that chunk `k` of the worker at `L` fills. -/
abbrev chunkRect (L : grid0.Coords) (k : ℕ) : Rect S204800x128 :=
  Rect.unit (s := S204800x128) ![(widN L * 6400 + (k % 50) * 128), 0] ![128, 128] (chunk_inb L k)
abbrev chunkSet (L : grid0.Coords) (k : ℕ) : Finset S204800x128.Idx := (chunkRect L k).set

omit [FloatOps F] in
theorem idxRow_inb (k : ℕ) : ∀ a, (![k % 50, 0] : Fin 2 → ℕ) a + (![1, 128] : Fin 2 → ℕ) a ≤ S50x128.size a := by
  intro a
  have hk : k % 50 < 50 := Nat.mod_lt _ (by norm_num)
  match a with
  | ⟨0, _⟩ => show k % 50 + 1 ≤ 50; omega
  | ⟨1, _⟩ => show 0 + 128 ≤ 128; omega
/-- Row `k` of the token scratch: the list chunk `k`'s gather reads. -/
abbrev idxRowRect (k : ℕ) : Rect S50x128 := Rect.unit (s := S50x128) ![k % 50, 0] ![1, 128] (idxRow_inb k)
abbrev idxRowSet (k : ℕ) : Finset S50x128.Idx := (idxRowRect k).set

end Cert.KI

end
-- ==== Proof.KI.Halves.lean ====
/-
  The pieces of a subcore's buffers, each as the program itself spells it: the two halves of the row scratch, the two
  rows of the draw-index scratch and of the draw scratch (each as the slice loads and stores go through, and squeezed
  as the block or list an indexed gather names), the token rows the gathers read as lists, the whole shared copy and
  the whole array of draws as the gathers name their sources, and the chunk of the flat result a write-out fills.
-/
import proofs.«206556_g62818191671566_cont_9to1_m_1093_40_alg».proof.Proof.KI.Vals

noncomputable section

namespace Cert.KI

open Cert.KernelIdeal Cert.KernelIdeal.Gen

open Idealize.ShloMosaic

abbrev rows0H : Memref sig .scVector .vmem S1x128x128 .f32 :=
  (rowsM).slice (Rect.unit (s := S2x128x128) ![0, 0, 0] S1x128x128.size inb_S2x128x128_S1x128x128_0_0_0) (fun _ => rfl)
abbrev rows0G : Memref sig .scVector .vmem S128x128 .f32 := (rows0H).squeeze S128x128 squeezes_S1x128x128_S128x128
abbrev rows1H : Memref sig .scVector .vmem S1x128x128 .f32 :=
  (rowsM).slice (Rect.unit (s := S2x128x128) ![1, 0, 0] S1x128x128.size inb_S2x128x128_S1x128x128_1_0_0) (fun _ => rfl)
abbrev rows1G : Memref sig .scVector .vmem S128x128 .f32 := (rows1H).squeeze S128x128 squeezes_S1x128x128_S128x128

abbrev midx0H : Memref sig .scVector .vmem S1x128 .i32 :=
  (midxM).slice (Rect.unit (s := S2x128) ![0, 0] S1x128.size inb_S2x128_S1x128_0_0) (fun _ => rfl)
abbrev midx0L : Memref sig .scVector .vmem S128 .i32 := (midx0H).squeeze S128 squeezes_S1x128_S128
abbrev midx1H : Memref sig .scVector .vmem S1x128 .i32 :=
  (midxM).slice (Rect.unit (s := S2x128) ![1, 0] S1x128.size inb_S2x128_S1x128_1_0) (fun _ => rfl)
abbrev midx1L : Memref sig .scVector .vmem S128 .i32 := (midx1H).squeeze S128 squeezes_S1x128_S128

abbrev mval0H : Memref sig .scVector .vmem S1x128 .f32 :=
  (mvalM).slice (Rect.unit (s := S2x128) ![0, 0] S1x128.size inb_S2x128_S1x128_0_0) (fun _ => rfl)
abbrev mval0L : Memref sig .scVector .vmem S128 .f32 := (mval0H).squeeze S128 squeezes_S1x128_S128
abbrev mval1H : Memref sig .scVector .vmem S1x128 .f32 :=
  (mvalM).slice (Rect.unit (s := S2x128) ![1, 0] S1x128.size inb_S2x128_S1x128_1_0) (fun _ => rfl)
abbrev mval1L : Memref sig .scVector .vmem S128 .f32 := (mval1H).squeeze S128 squeezes_S1x128_S128

/-- The first chunk's tokens: row 0 of the token scratch, as the list a gather reads. -/
abbrev idxRow0L : Memref sig .scVector .vmem S128 .i32 :=
  ((idxM).slice (Rect.unit (s := S50x128) ![0, 0] S1x128.size inb_S50x128_S1x128_0_0) (fun _ => rfl)).squeeze S128 squeezes_S1x128_S128
/-- The tokens of the odd chunk a trip issues. -/
abbrev idxRowA (t : Fin k0_t1_loop.trips) (h : k0_cond4 t = 1#1) : Memref sig .scVector .vmem S128 .i32 :=
  ((idxM).slice (Rect.unit (s := S50x128) (k0_off3 t) S1x128.size (k0_off3_inb t h)) (fun _ => rfl)).squeeze S128 squeezes_S1x128_S128
/-- The tokens of the even chunk a trip issues for the next one. -/
abbrev idxRowB (t : Fin k0_t1_loop.trips) (h : k0_cond6 t = 1#1) : Memref sig .scVector .vmem S128 .i32 :=
  ((idxM).slice (Rect.unit (s := S50x128) (k0_off23 t) S1x128.size (k0_off23_inb t h)) (fun _ => rfl)).squeeze S128 squeezes_S1x128_S128

/-- The whole shared copy and the whole array of draws, as the gathers name their sources. -/
abbrev spmAll : Memref sig .scVector .shared S1000x128 .f32 :=
  (spmM).slice (Rect.unit (s := S1000x128) ![0, 0] S1000x128.size inb_S1000x128_S1000x128_0_0) (fun _ => rfl)
abbrev uAll : Memref sig .scVector .hbm S4096000 .f32 :=
  (uM).slice (Rect.unit (s := S4096000) ![0] S4096000.size inb_S4096000_S4096000_0) (fun _ => rfl)

/-- The chunk of the flat result a trip's write-out number `r` fills. -/
abbrev outChunk (L : grid0.Coords) (t : Fin k0_t1_loop.trips) (r : Fin 2) : Memref sig .scVector .hbm S128x128 .f32 :=
  (outM).slice (Rect.unit (s := S204800x128) (k0_off22 L t (BitVec.ofNat 32 r.val)) S128x128.size (k0_off22_inb L t r)) (fun _ => rfl)

end Cert.KI

end
-- ==== Proof.KI.Inv.lean ====
/-
  What a subcore holds at the head of a trip of its main loop.

  Trip `k` treats chunks `2k` and `2k + 1`.  At its head the two indexed gathers of chunk `2k` (rows into the first half
  of the row scratch, draws into the first row of the draw scratch) are in flight, each holding its destination, a
  share of its source and a share of its index list until its wait; from the second trip on, the write-out of chunk
  `2k - 1` from the second half of the row scratch is in flight as well.  Chunks below `2k - 1` of the subcore's rows of
  the flat result hold their final value, chunks from `2k` on are untouched.  After the last trip nothing is pending but
  the write-out of the last chunk.  What a transfer in flight delivers is stated over the canonical contents of each
  buffer, so that it reads the same whichever trip issued it.
-/
import proofs.«206556_g62818191671566_cont_9to1_m_1093_40_alg».proof.Proof.KI.Halves

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

/-! ## Shares -/

/-- The tile's share of the shared copy, halved: one half per buffer of the double buffer. -/
abbrev qSa : PosShare TreeShare := (qS (jL L)).left
abbrev qSb : PosShare TreeShare := (qS (jL L)).right
/-- The tile's share of the draws, halved likewise. -/
abbrev qUa : PosShare TreeShare := (qT (cV L) (jL L)).left
abbrev qUb : PosShare TreeShare := (qT (cV L) (jL L)).right
/-- The token scratch: one half kept whole for loads, a quarter lent row by row to each buffer's gathers. -/
abbrev qIk : PosShare TreeShare := fullShare.left
abbrev qIa : PosShare TreeShare := fullShare.right.left
abbrev qIb : PosShare TreeShare := fullShare.right.right

/-! ## What each transfer delivers -/

/-- The rows' gather of chunk `c` into the first half: the half at the gathered rows, the shares lent back. -/
def Dr0 (c : ℕ) : sProp 𝕄 :=
  iprop(((rows0H).view.loc (thrV d L) ↦[(rows0H).view.set]{fullShare} rowsVal m d L c)
    ∗ ((spmM).view.loc (thrV d L) ↦{qSa L} tabSh m d (cV L))
    ∗ ((idxM).view.loc (thrV d L) ↦[idxRowSet c]{qIa} idxVal m d L))
def Dr1 (c : ℕ) : sProp 𝕄 :=
  iprop(((rows1H).view.loc (thrV d L) ↦[(rows1H).view.set]{fullShare} rowsVal m d L c)
    ∗ ((spmM).view.loc (thrV d L) ↦{qSb L} tabSh m d (cV L))
    ∗ ((idxM).view.loc (thrV d L) ↦[idxRowSet c]{qIb} idxVal m d L))
/-- The draws' gather of chunk `c` into the first row. -/
def Dm0 (c : ℕ) : sProp 𝕄 :=
  iprop(((mval0H).view.loc (thrV d L) ↦[(mval0H).view.set]{fullShare} mvalVal m d L c)
    ∗ ((uM).view.loc (thrV d L) ↦{qUa L} uflatV m d)
    ∗ ((midx0H).view.loc (thrV d L) ↦[(midx0H).view.set]{fullShare.left} midxVal m d L c))
def Dm1 (c : ℕ) : sProp 𝕄 :=
  iprop(((mval1H).view.loc (thrV d L) ↦[(mval1H).view.set]{fullShare} mvalVal m d L c)
    ∗ ((uM).view.loc (thrV d L) ↦{qUb L} uflatV m d)
    ∗ ((midx1H).view.loc (thrV d L) ↦[(midx1H).view.set]{fullShare.left} midxVal m d L c))
/-- The write-out of chunk `c` from the first half: the chunk at its final value, the half back. -/
def Dw0 (c : ℕ) : sProp 𝕄 :=
  iprop((outLoc d ↦[chunkSet L c]{fullShare} outV m d)
    ∗ ((rows0H).view.loc (thrV d L) ↦[(rows0H).view.set]{fullShare} prodVal m d L c))
def Dw1 (c : ℕ) : sProp 𝕄 :=
  iprop((outLoc d ↦[chunkSet L c]{fullShare} outV m d)
    ∗ ((rows1H).view.loc (thrV d L) ↦[(rows1H).view.set]{fullShare} prodVal m d L c))

/-! ## The transfers in flight -/

abbrev Fr0 (c : ℕ) : sProp 𝕄 := Transfers.Flight countersEmb (thrV d L) (.dma cc0_scratch6.sem) (default : HIx 1) (rows0G).view.dmaCredit (Dr0 m d L c)
abbrev Fr1 (c : ℕ) : sProp 𝕄 := Transfers.Flight countersEmb (thrV d L) (.dma cc0_scratch7.sem) (default : HIx 1) (rows1G).view.dmaCredit (Dr1 m d L c)
abbrev Fm0 (c : ℕ) : sProp 𝕄 := Transfers.Flight countersEmb (thrV d L) (.dma cc0_scratch8.sem) (default : HIx 1) (mval0L).view.dmaCredit (Dm0 m d L c)
abbrev Fm1 (c : ℕ) : sProp 𝕄 := Transfers.Flight countersEmb (thrV d L) (.dma cc0_scratch9.sem) (default : HIx 1) (mval1L).view.dmaCredit (Dm1 m d L c)
abbrev Fw0 (c : ℕ) : sProp 𝕄 := Transfers.Flight countersEmb (thrV d L) (.dma cc0_scratch10.sem) (default : HIx 1) (rows0G).view.dmaCredit (Dw0 m d L c)
abbrev Fw1 (c : ℕ) : sProp 𝕄 := Transfers.Flight countersEmb (thrV d L) (.dma cc0_scratch11.sem) (default : HIx 1) (rows1G).view.dmaCredit (Dw1 m d L c)

/-! ## The invariant -/

variable (O : CellTallies nD τ sig (HIx 1)) (W : Waits sig (HIx 1))

/-- The subcore's rows of the flat result, chunk by chunk, before trip `k`: final below `2k - 1`, chunk `2k - 1` with its
    write-out, the rest untouched. -/
def outChunks (k : ℕ) : sProp 𝕄 :=
  bigSep (Finset.range 50) fun j =>
    if j + 1 < 2 * k then (outLoc d ↦[chunkSet L j]{fullShare} outV m d : sProp 𝕄)
    else if j + 1 = 2 * k then iprop(emp)
    else (outLoc d ↦[chunkSet L j]{fullShare} m (outLoc d) : sProp 𝕄)

/-- The first buffer's side: the gathers of chunk `2k` in flight with what is left of the lent lists, or, after the
    last trip, the buffer idle with every share home. -/
def side0 (k : ℕ) : sProp 𝕄 :=
  if k < 25 then
    iprop(Fr0 m d L (2 * k) ∗ Fm0 m d L (2 * k)
      ∗ ((idxM).view.loc (thrV d L) ↦[Finset.univ \ idxRowSet (2 * k)]{qIa} idxVal m d L)
      ∗ ((midx0H).view.loc (thrV d L) ↦[(midx0H).view.set]{fullShare.right} midxVal m d L (2 * k)))
  else
    iprop((∃ f, (rows0H).view.loc (thrV d L) ↦[(rows0H).view.set]{fullShare} f)
      ∗ ((spmM).view.loc (thrV d L) ↦{qSa L} tabSh m d (cV L))
      ∗ ((idxM).view.loc (thrV d L) ↦{qIa} idxVal m d L)
      ∗ (∃ f, (mval0H).view.loc (thrV d L) ↦[(mval0H).view.set]{fullShare} f)
      ∗ ((uM).view.loc (thrV d L) ↦{qUa L} uflatV m d)
      ∗ (∃ f, (midx0H).view.loc (thrV d L) ↦[(midx0H).view.set]{fullShare} f)
      ∗ semVal ((thrV d L, .dma cc0_scratch6.sem) : GSem nD τ sig) 0
      ∗ semVal ((thrV d L, .dma cc0_scratch8.sem) : GSem nD τ sig) 0)

/-- The second buffer's write-out: none before the first trip, chunk `2k - 1`'s after. -/
def side1 (k : ℕ) : sProp 𝕄 :=
  if k = 0 then
    iprop((∃ f, (rows1H).view.loc (thrV d L) ↦[(rows1H).view.set]{fullShare} f)
      ∗ semVal ((thrV d L, .dma cc0_scratch11.sem) : GSem nD τ sig) 0)
  else Fw1 m d L (2 * k - 1)

/-- Before trip `k`. -/
def Inv (k : ℕ) (_ : PUnit) : sProp 𝕄 :=
  iprop(levAts (K (F := F)).L (K (F := F)).lev
    ∗ ((idxM).view.loc (thrV d L) ↦{qIk} idxVal m d L)
    ∗ ((idxM).view.loc (thrV d L) ↦{qIb} idxVal m d L)
    ∗ ((spmM).view.loc (thrV d L) ↦{qSb L} tabSh m d (cV L))
    ∗ ((uM).view.loc (thrV d L) ↦{qUb L} uflatV m d)
    ∗ (∃ f, (midx1H).view.loc (thrV d L) ↦[(midx1H).view.set]{fullShare} f)
    ∗ (∃ f, (mval1H).view.loc (thrV d L) ↦[(mval1H).view.set]{fullShare} f)
    ∗ (∃ f, (scaleM).view.loc (thrV d L) ↦{fullShare} f)
    ∗ semVal ((thrV d L, .dma cc0_scratch7.sem) : GSem nD τ sig) 0
    ∗ semVal ((thrV d L, .dma cc0_scratch9.sem) : GSem nD τ sig) 0
    ∗ semVal ((thrV d L, .dma cc0_scratch10.sem) : GSem nD τ sig) 0
    ∗ outChunks m d L k
    ∗ side0 m d L k
    ∗ side1 m d L k
    ∗ ∃ W', ⌜∀ p ∈ W', p ∈ W ∨ p.2 = none ∨ p.2 = some (0 : Fin 1)⌝ ∗ owes (thrV d L) O W')

end Cert.KI

end
-- ==== Proof.KI.Sets.lean ====
/-
  The element sets the loop's invariant speaks of, and the program's spelling of each piece.  A worker's rows of the
  flat result are fifty chunks of 128 rows; the row scratch, the index scratch and the draw scratch are two halves
  each; the token scratch is fifty rows.  The program names a piece as a run of rows sliced out of the whole buffer at
  offsets it computes, with a unit axis dropped where the piece is used as a block or a list; dropping a unit axis keeps
  the elements, and the computed offsets have closed forms, so each such piece is one of the sets named here.
-/
import proofs.«206556_g62818191671566_cont_9to1_m_1093_40_alg».proof.Proof.KI.Halves

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The loop over pairs of chunks makes at most twenty-five trips. -/
theorem trip_lt (t : Fin k0_t1_loop.trips) : t.val < 25 := Nat.lt_of_lt_of_le t.isLt k0_t1_abs.2.1

/-! ## The program's chunk of the flat result -/

theorem set_outChunk (L : grid0.Coords) (t : Fin k0_t1_loop.trips) (r : Fin 2) :
    (outChunk L t r).view.set = chunkSet L (2 * t.val + r.val) := by
  show ((outM).view.slice (Rect.unit (s := S204800x128) (k0_off22 L t (BitVec.ofNat 32 r.val)) S128x128.size
      (k0_off22_inb L t r))).set = (chunkRect L (2 * t.val + r.val)).set
  rw [View.set_slice]
  have ht := trip_lt t
  have hr2 : r.val < 2 := r.isLt
  have e : 12800 * (L 1).val + 6400 * (L 0).val + 256 * t.val + 128 * r.val
      = widN L * 6400 + (2 * t.val + r.val) % 50 * 128 := by
    unfold widN; omega
  have hr : Rect.unit (s := S204800x128) (k0_off22 L t (BitVec.ofNat 32 r.val)) S128x128.size (k0_off22_inb L t r)
      = chunkRect L (2 * t.val + r.val) := by
    unfold chunkRect
    congr 1
    rw [k0_off22_eq, e]
  rw [hr]; exact Finset.map_refl

/-! ## The halves of the row scratch -/

/-- Dropping the unit axis keeps the elements. -/
theorem set_rowsG0 : (rows0G).view.set = (rows0H).view.set := View.set_reshape _ _
theorem set_rowsG1 : (rows1G).view.set = (rows1H).view.set := View.set_reshape _ _

theorem set_rows0H : ((rows0H).view.set : Finset S2x128x128.Idx)
    = (Rect.unit (s := S2x128x128) ![0, 0, 0] S1x128x128.size inb_S2x128x128_S1x128x128_0_0_0).set := by
  show ((rowsM).view.slice _).set = _
  rw [View.set_slice]; exact Finset.map_refl
theorem set_rows1H : ((rows1H).view.set : Finset S2x128x128.Idx)
    = (Rect.unit (s := S2x128x128) ![1, 0, 0] S1x128x128.size inb_S2x128x128_S1x128x128_1_0_0).set := by
  show ((rowsM).view.slice _).set = _
  rw [View.set_slice]; exact Finset.map_refl

/-- The two halves are the whole row scratch, and share no element: an element's leading coordinate is 0 or 1. -/
theorem rows_halves : ((rows0H).view.set : Finset S2x128x128.Idx) ∪ (rows1H).view.set = Finset.univ
    ∧ Disjoint ((rows0H).view.set : Finset S2x128x128.Idx) (rows1H).view.set := by
  rw [set_rows0H, set_rows1H]
  refine ⟨?_, Rect.unit_disjoint (⟨0, by decide⟩ : Fin S2x128x128.rank) (Or.inl (by show 0 + 1 ≤ 1; omega))⟩
  ext i
  simp only [Finset.mem_union, Finset.mem_univ, iff_true, Rect.mem_set_unit]
  have h0 : (i 0).val < 2 := (i 0).isLt
  have h1 : (i 1).val < 128 := (i 1).isLt
  have h2 : (i 2).val < 128 := (i 2).isLt
  by_cases hz : (i 0).val = 0
  · refine Or.inl fun a => ?_
    match a with
    | ⟨0, _⟩ => show 0 ≤ (i 0).val ∧ (i 0).val < 0 + 1; omega
    | ⟨1, _⟩ => show 0 ≤ (i 1).val ∧ (i 1).val < 0 + 128; omega
    | ⟨2, _⟩ => show 0 ≤ (i 2).val ∧ (i 2).val < 0 + 128; omega
  · refine Or.inr fun a => ?_
    match a with
    | ⟨0, _⟩ => show 1 ≤ (i 0).val ∧ (i 0).val < 1 + 1; omega
    | ⟨1, _⟩ => show 0 ≤ (i 1).val ∧ (i 1).val < 0 + 128; omega
    | ⟨2, _⟩ => show 0 ≤ (i 2).val ∧ (i 2).val < 0 + 128; omega

/-! ## The rows of the index scratch and of the draw scratch -/

theorem set_midxL0 : (midx0L).view.set = (midx0H).view.set := View.set_reshape _ _
theorem set_midxL1 : (midx1L).view.set = (midx1H).view.set := View.set_reshape _ _
theorem set_mvalL0 : (mval0L).view.set = (mval0H).view.set := View.set_reshape _ _
theorem set_mvalL1 : (mval1L).view.set = (mval1H).view.set := View.set_reshape _ _

theorem set_midx0H : ((midx0H).view.set : Finset S2x128.Idx)
    = (Rect.unit (s := S2x128) ![0, 0] S1x128.size inb_S2x128_S1x128_0_0).set := by
  show ((midxM).view.slice _).set = _
  rw [View.set_slice]; exact Finset.map_refl
theorem set_midx1H : ((midx1H).view.set : Finset S2x128.Idx)
    = (Rect.unit (s := S2x128) ![1, 0] S1x128.size inb_S2x128_S1x128_1_0).set := by
  show ((midxM).view.slice _).set = _
  rw [View.set_slice]; exact Finset.map_refl
theorem set_mval0H : ((mval0H).view.set : Finset S2x128.Idx)
    = (Rect.unit (s := S2x128) ![0, 0] S1x128.size inb_S2x128_S1x128_0_0).set := by
  show ((mvalM).view.slice _).set = _
  rw [View.set_slice]; exact Finset.map_refl
theorem set_mval1H : ((mval1H).view.set : Finset S2x128.Idx)
    = (Rect.unit (s := S2x128) ![1, 0] S1x128.size inb_S2x128_S1x128_1_0).set := by
  show ((mvalM).view.slice _).set = _
  rw [View.set_slice]; exact Finset.map_refl

/-- The two rows of a 2 × 128 scratch are the whole of it, and share no element. -/
theorem rows2_halves :
    (Rect.unit (s := S2x128) ![0, 0] S1x128.size inb_S2x128_S1x128_0_0).set
        ∪ (Rect.unit (s := S2x128) ![1, 0] S1x128.size inb_S2x128_S1x128_1_0).set = Finset.univ
    ∧ Disjoint (Rect.unit (s := S2x128) ![0, 0] S1x128.size inb_S2x128_S1x128_0_0).set
        (Rect.unit (s := S2x128) ![1, 0] S1x128.size inb_S2x128_S1x128_1_0).set := by
  refine ⟨?_, Rect.unit_disjoint (⟨0, by decide⟩ : Fin S2x128.rank) (Or.inl (by show 0 + 1 ≤ 1; omega))⟩
  ext i
  simp only [Finset.mem_union, Finset.mem_univ, iff_true, Rect.mem_set_unit]
  have h0 : (i 0).val < 2 := (i 0).isLt
  have h1 : (i 1).val < 128 := (i 1).isLt
  by_cases hz : (i 0).val = 0
  · refine Or.inl fun a => ?_
    match a with
    | ⟨0, _⟩ => show 0 ≤ (i 0).val ∧ (i 0).val < 0 + 1; omega
    | ⟨1, _⟩ => show 0 ≤ (i 1).val ∧ (i 1).val < 0 + 128; omega
  · refine Or.inr fun a => ?_
    match a with
    | ⟨0, _⟩ => show 1 ≤ (i 0).val ∧ (i 0).val < 1 + 1; omega
    | ⟨1, _⟩ => show 0 ≤ (i 1).val ∧ (i 1).val < 0 + 128; omega

theorem midx_halves : ((midx0H).view.set : Finset S2x128.Idx) ∪ (midx1H).view.set = Finset.univ
    ∧ Disjoint ((midx0H).view.set : Finset S2x128.Idx) (midx1H).view.set := by
  rw [set_midx0H, set_midx1H]; exact rows2_halves
theorem mval_halves : ((mval0H).view.set : Finset S2x128.Idx) ∪ (mval1H).view.set = Finset.univ
    ∧ Disjoint ((mval0H).view.set : Finset S2x128.Idx) (mval1H).view.set := by
  rw [set_mval0H, set_mval1H]; exact rows2_halves

/-! ## The rows of the token scratch -/

/-- Where the second prefetch of a trip is made there is a chunk `2 t + 2`. -/
theorem cond6_lt (t : Fin k0_t1_loop.trips) (h : k0_cond6 t = 1#1) : 2 * t.val + 2 < 50 := by
  revert h; revert t; decide +kernel

theorem set_idxRow0L : (idxRow0L).view.set = idxRowSet 0 := by
  refine (View.set_reshape _ _).trans ?_
  show ((idxM).view.slice (Rect.unit (s := S50x128) ![0, 0] S1x128.size inb_S50x128_S1x128_0_0)).set = (idxRowRect 0).set
  rw [View.set_slice]
  have hr : Rect.unit (s := S50x128) ![0, 0] S1x128.size inb_S50x128_S1x128_0_0 = idxRowRect 0 := rfl
  rw [hr]; exact Finset.map_refl

theorem set_idxRowA (t : Fin k0_t1_loop.trips) (h : k0_cond4 t = 1#1) :
    (idxRowA t h).view.set = idxRowSet (2 * t.val + 1) := by
  refine (View.set_reshape _ _).trans ?_
  show ((idxM).view.slice (Rect.unit (s := S50x128) (k0_off3 t) S1x128.size (k0_off3_inb t h))).set
    = (idxRowRect (2 * t.val + 1)).set
  rw [View.set_slice]
  have ht := trip_lt t
  have e : 2 * t.val + 1 = (2 * t.val + 1) % 50 := by omega
  have hr : Rect.unit (s := S50x128) (k0_off3 t) S1x128.size (k0_off3_inb t h) = idxRowRect (2 * t.val + 1) := by
    unfold idxRowRect
    congr 1
    rw [k0_off3_eq, ← e]
  rw [hr]; exact Finset.map_refl

theorem set_idxRowB (t : Fin k0_t1_loop.trips) (h : k0_cond6 t = 1#1) :
    (idxRowB t h).view.set = idxRowSet (2 * t.val + 2) := by
  refine (View.set_reshape _ _).trans ?_
  show ((idxM).view.slice (Rect.unit (s := S50x128) (k0_off23 t) S1x128.size (k0_off23_inb t h))).set
    = (idxRowRect (2 * t.val + 2)).set
  rw [View.set_slice]
  have ht := cond6_lt t h
  have e : 2 * t.val + 2 = (2 * t.val + 2) % 50 := by omega
  have hr : Rect.unit (s := S50x128) (k0_off23 t) S1x128.size (k0_off23_inb t h) = idxRowRect (2 * t.val + 2) := by
    unfold idxRowRect
    congr 1
    rw [k0_off23_eq, ← e]
  rw [hr]; exact Finset.map_refl

/-! ## The whole shared copy and the whole array of draws -/

/-- A slice by the whole rectangle has every element. -/
theorem set_spmAll : (spmAll).view.set = Finset.univ := by
  show ((spmM).view.slice (Rect.unit (s := S1000x128) ![0, 0] S1000x128.size inb_S1000x128_S1000x128_0_0)).set = Finset.univ
  have hR : (Rect.unit (s := S1000x128) ![0, 0] S1000x128.size inb_S1000x128_S1000x128_0_0).set = Finset.univ := by
    ext i
    simp only [Finset.mem_univ, iff_true]
    have h0 : (i 0).val < 1000 := (i 0).isLt
    have h1 : (i 1).val < 128 := (i 1).isLt
    refine Rect.mem_set_unit.mpr fun a => ?_
    match a with
    | ⟨0, _⟩ => show 0 ≤ (i 0).val ∧ (i 0).val < 0 + 1000; omega
    | ⟨1, _⟩ => show 0 ≤ (i 1).val ∧ (i 1).val < 0 + 128; omega
  rw [View.set_slice, hR]; exact Finset.map_refl

theorem set_uAll : (uAll).view.set = Finset.univ := by
  show ((uM).view.slice (Rect.unit (s := S4096000) ![0] S4096000.size inb_S4096000_S4096000_0)).set = Finset.univ
  have hR : (Rect.unit (s := S4096000) ![0] S4096000.size inb_S4096000_S4096000_0).set = Finset.univ := by
    ext i
    simp only [Finset.mem_univ, iff_true]
    have h0 : (i 0).val < 4096000 := (i 0).isLt
    refine Rect.mem_set_unit.mpr fun a => ?_
    match a with
    | ⟨0, _⟩ => show 0 ≤ (i 0).val ∧ (i 0).val < 0 + 4096000; omega
  rw [View.set_slice, hR]; exact Finset.map_refl

/-! ## A worker's rows of the flat result, chunk by chunk -/

/-- The worker on SparseCore `cV L`, subcore `jL L` is worker `2 (L 1) + (L 0)`. -/
theorem widOf_val (L : grid0.Coords) : (widOf (cV L) (jL L)).val = widN L := rfl

/-- Worker w's rows are the 6400 from `6400 w` on. -/
theorem mem_slabSet (w : Fin 32) (i : S204800x128.Idx) :
    i ∈ slabSet w ↔ w.val * 6400 ≤ (i 0).val ∧ (i 0).val < w.val * 6400 + 6400 := by
  have h1 : (i 1).val < 128 := (i 1).isLt
  show i ∈ (Rect.unit (s := S204800x128) _ _ _).set ↔ _
  rw [Rect.mem_set_unit]
  constructor
  · intro h
    have h0 := h (⟨0, by decide⟩ : Fin S204800x128.rank)
    exact h0
  · intro h a
    match a with
    | ⟨0, _⟩ => exact h
    | ⟨1, _⟩ => show 0 * 128 ≤ (i 1).val ∧ (i 1).val < 0 * 128 + 128; omega

/-- Chunk k of the worker at L is the 128 rows from `6400 w + 128 k` on. -/
theorem mem_chunkSet (L : grid0.Coords) (k : ℕ) (i : S204800x128.Idx) :
    i ∈ chunkSet L k ↔ widN L * 6400 + k % 50 * 128 ≤ (i 0).val ∧ (i 0).val < widN L * 6400 + k % 50 * 128 + 128 := by
  have h1 : (i 1).val < 128 := (i 1).isLt
  rw [Rect.mem_set_unit]
  constructor
  · intro h
    exact h (⟨0, by decide⟩ : Fin S204800x128.rank)
  · intro h a
    match a with
    | ⟨0, _⟩ => exact h
    | ⟨1, _⟩ => show 0 ≤ (i 1).val ∧ (i 1).val < 0 + 128; omega

/-- Different chunks of one worker share no row. -/
theorem chunk_disjoint (L : grid0.Coords) : ∀ k ∈ Finset.range 50, ∀ k' ∈ Finset.range 50, k ≠ k' →
    Disjoint (chunkSet L k) (chunkSet L k') := by
  intro k hk k' hk' hne
  have hk50 := Finset.mem_range.mp hk
  have hk50' := Finset.mem_range.mp hk'
  refine Rect.unit_disjoint (⟨0, by decide⟩ : Fin S204800x128.rank) ?_
  show widN L * 6400 + k % 50 * 128 + 128 ≤ widN L * 6400 + k' % 50 * 128
    ∨ widN L * 6400 + k' % 50 * 128 + 128 ≤ widN L * 6400 + k % 50 * 128
  omega

/-- The fifty chunks are the worker's rows: row x of the worker lies in chunk `(x - 6400 w) / 128`. -/
theorem chunk_cover (L : grid0.Coords) : (Finset.range 50).biUnion (chunkSet L) = slabSet (widOf (cV L) (jL L)) := by
  ext i
  rw [mem_slabSet, widOf_val]
  simp only [Finset.mem_biUnion, Finset.mem_range, mem_chunkSet]
  constructor
  · rintro ⟨k, hk, h⟩
    omega
  · intro h
    refine ⟨((i 0).val - widN L * 6400) / 128, by omega, ?_⟩
    omega

/-- Holding the worker's rows of the flat result is holding its fifty chunks. -/
theorem slab_chunks (d : Dev nD) (L : grid0.Coords) (q : PosShare TreeShare) (f : Buf (Elt F) (outLoc d)) :
    (outLoc d ↦[slabSet (widOf (cV L) (jL L))]{q} f : sProp 𝕄)
      = bigSep (Finset.range 50) fun k => outLoc d ↦[chunkSet L k]{q} f := by
  rw [← chunk_cover]
  exact pointsTo_biUnion (ℓ := outLoc d) (q := q) (f := f) (Finset.range 50) (chunkSet L) (chunk_disjoint L)

end Cert.KI

end
-- ==== Proof.KI.Respell.lean ====
/-
  The same elements under two spellings: a piece of a buffer as the slice loads and stores go through, and as the
  squeezed block or list an indexed gather or a write-out names; a whole array as itself and as the gathers' source
  slice by the whole rectangle.  And the rows' credits of a gathered block, summed.
-/
import proofs.«206556_g62818191671566_cont_9to1_m_1093_40_alg».proof.Proof.KI.Sets

noncomputable section

namespace Cert.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords) (q : PosShare TreeShare)

theorem respell_spmAll (f : Buf (Elt F) ((spmM).view.loc (thrV d L))) :
    (((spmM).view.loc (thrV d L) ↦{q} f) : sProp 𝕄) = ((spmAll).view.loc (thrV d L) ↦[(spmAll).view.set]{q} f) := by
  rw [set_spmAll]
theorem respell_uAll (f : Buf (Elt F) ((uM).view.loc (thrV d L))) :
    (((uM).view.loc (thrV d L) ↦{q} f) : sProp 𝕄) = ((uAll).view.loc (thrV d L) ↦[(uAll).view.set]{q} f) := by
  rw [set_uAll]
theorem respell_rowsG0 (f : Buf (Elt F) ((rows0H).view.loc (thrV d L))) :
    (((rows0H).view.loc (thrV d L) ↦[(rows0H).view.set]{q} f) : sProp 𝕄) = ((rows0G).view.loc (thrV d L) ↦[(rows0G).view.set]{q} f) := by
  rw [set_rowsG0]
theorem respell_rowsG1 (f : Buf (Elt F) ((rows1H).view.loc (thrV d L))) :
    (((rows1H).view.loc (thrV d L) ↦[(rows1H).view.set]{q} f) : sProp 𝕄) = ((rows1G).view.loc (thrV d L) ↦[(rows1G).view.set]{q} f) := by
  rw [set_rowsG1]
theorem respell_midxL0 (f : Buf (Elt F) ((midx0H).view.loc (thrV d L))) :
    (((midx0H).view.loc (thrV d L) ↦[(midx0H).view.set]{q} f) : sProp 𝕄) = ((midx0L).view.loc (thrV d L) ↦[(midx0L).view.set]{q} f) := by
  rw [set_midxL0]
theorem respell_midxL1 (f : Buf (Elt F) ((midx1H).view.loc (thrV d L))) :
    (((midx1H).view.loc (thrV d L) ↦[(midx1H).view.set]{q} f) : sProp 𝕄) = ((midx1L).view.loc (thrV d L) ↦[(midx1L).view.set]{q} f) := by
  rw [set_midxL1]
theorem respell_mvalL0 (f : Buf (Elt F) ((mval0H).view.loc (thrV d L))) :
    (((mval0H).view.loc (thrV d L) ↦[(mval0H).view.set]{q} f) : sProp 𝕄) = ((mval0L).view.loc (thrV d L) ↦[(mval0L).view.set]{q} f) := by
  rw [set_mvalL0]
theorem respell_mvalL1 (f : Buf (Elt F) ((mval1H).view.loc (thrV d L))) :
    (((mval1H).view.loc (thrV d L) ↦[(mval1H).view.set]{q} f) : sProp 𝕄) = ((mval1L).view.loc (thrV d L) ↦[(mval1L).view.set]{q} f) := by
  rw [set_mvalL1]

/-! ## The credit of a gathered block is its rows' credits -/

theorem hN_rows0 : ∀ h : S1000x128.Gathers 0 S128x128,
    ∑ j, ((rows0G).slice (S128x128.rowRect h.axis' j) (S128x128.stride_rowRect h.axis' j)).view.dmaCredit = (rows0G).view.dmaCredit := by decide
theorem hN_rows1 : ∀ h : S1000x128.Gathers 0 S128x128,
    ∑ j, ((rows1G).slice (S128x128.rowRect h.axis' j) (S128x128.stride_rowRect h.axis' j)).view.dmaCredit = (rows1G).view.dmaCredit := by decide
theorem hN_mval0 : ∀ h : S4096000.Gathers 0 S128,
    ∑ j, ((mval0L).slice (S128.rowRect h.axis' j) (S128.stride_rowRect h.axis' j)).view.dmaCredit = (mval0L).view.dmaCredit := by decide
theorem hN_mval1 : ∀ h : S4096000.Gathers 0 S128,
    ∑ j, ((mval1L).slice (S128.rowRect h.axis' j) (S128.stride_rowRect h.axis' j)).view.dmaCredit = (mval1L).view.dmaCredit := by decide

end Cert.KI

end
-- ==== Proof.KI.Rejoin.lean ====
/-
  Cutting a subcore's buffers into the pieces its loop works on, and joining them back.  A double-buffered scratch is
  its two halves, which share no element; a read-only share is the two halves of the share; the token scratch's full
  share is a half kept for loads and two quarters lent row by row; a row of the token scratch is carved out of a share
  of the whole and put back.
-/
import proofs.«206556_g62818191671566_cont_9to1_m_1093_40_alg».proof.Proof.KI.Inv
import proofs.«206556_g62818191671566_cont_9to1_m_1093_40_alg».proof.Proof.KI.Respell

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Two pieces that share no element and together are everything -/

theorem split_halves {ℓ : Loc nD τ sig} (I J : Finset (Idx ℓ)) (hU : I ∪ J = Finset.univ) (hD : Disjoint I J)
    (q : PosShare TreeShare) (f : Buf (Elt F) ℓ) :
    (ℓ ↦{q} f : sProp 𝕄) ⊢ iprop((ℓ ↦[I]{q} f) ∗ ℓ ↦[J]{q} f) := by
  have h := (pointsTo_union (ℓ := ℓ) (q := q) (f := f) (Val := Elt F) (Ix := HIx 1) (Name := ℕ) (U := UU) (Lvl := ℕ) hD).1
  rw [hU] at h
  exact h

theorem join_halves {ℓ : Loc nD τ sig} (I J : Finset (Idx ℓ)) (hU : I ∪ J = Finset.univ) (hD : Disjoint I J)
    (q : PosShare TreeShare) :
    (iprop((∃ f : Buf (Elt F) ℓ, ℓ ↦[I]{q} f) ∗ (∃ f : Buf (Elt F) ℓ, ℓ ↦[J]{q} f)) : sProp 𝕄) ⊢ iprop(∃ f : Buf (Elt F) ℓ, ℓ ↦{q} f) := by
  iintro ⟨⟨%f, Hf⟩, ⟨%g, Hg⟩⟩
  have hj : (iprop((ℓ ↦[I]{q} f) ∗ ℓ ↦[J]{q} g) : sProp 𝕄) ⊢ (ℓ ↦{q} (J.piecewise g f)) := by
    have h := pointsTo_join (ℓ := ℓ) (q := q) (f := f) (g := g) (Val := Elt F) (Ix := HIx 1) (Name := ℕ) (U := UU) (Lvl := ℕ) hD
    rw [hU] at h
    exact h
  iexists (J.piecewise g f)
  iapply hj
  isplitl [Hf]; · iexact Hf
  iexact Hg

variable (d : Dev nD) (L : grid0.Coords)

/-! ## The double-buffered scratches -/

theorem split_rows (f : Buf (Elt F) ((thrV d L).loc cc0_scratch4)) :
    ((thrV d L).loc cc0_scratch4 ↦{fullShare} f : sProp 𝕄)
      ⊢ iprop(((rows0H).view.loc (thrV d L) ↦[(rows0H).view.set]{fullShare} f) ∗ ((rows1H).view.loc (thrV d L) ↦[(rows1H).view.set]{fullShare} f)) :=
  split_halves (ℓ := (thrV d L).loc cc0_scratch4) _ _ rows_halves.1 rows_halves.2 fullShare f
theorem join_rows :
    (iprop((∃ f, (rows0H).view.loc (thrV d L) ↦[(rows0H).view.set]{fullShare} f) ∗ (∃ f, (rows1H).view.loc (thrV d L) ↦[(rows1H).view.set]{fullShare} f)) : sProp 𝕄)
      ⊢ iprop(∃ f, (thrV d L).loc cc0_scratch4 ↦{fullShare} f) :=
  join_halves (ℓ := (thrV d L).loc cc0_scratch4) _ _ rows_halves.1 rows_halves.2 fullShare

theorem split_midx (f : Buf (Elt F) ((thrV d L).loc cc0_scratch1)) :
    ((thrV d L).loc cc0_scratch1 ↦{fullShare} f : sProp 𝕄)
      ⊢ iprop(((midx0H).view.loc (thrV d L) ↦[(midx0H).view.set]{fullShare} f) ∗ ((midx1H).view.loc (thrV d L) ↦[(midx1H).view.set]{fullShare} f)) :=
  split_halves (ℓ := (thrV d L).loc cc0_scratch1) _ _ midx_halves.1 midx_halves.2 fullShare f
theorem join_midx :
    (iprop((∃ f, (midx0H).view.loc (thrV d L) ↦[(midx0H).view.set]{fullShare} f) ∗ (∃ f, (midx1H).view.loc (thrV d L) ↦[(midx1H).view.set]{fullShare} f)) : sProp 𝕄)
      ⊢ iprop(∃ f, (thrV d L).loc cc0_scratch1 ↦{fullShare} f) :=
  join_halves (ℓ := (thrV d L).loc cc0_scratch1) _ _ midx_halves.1 midx_halves.2 fullShare

theorem split_mval (f : Buf (Elt F) ((thrV d L).loc cc0_scratch2)) :
    ((thrV d L).loc cc0_scratch2 ↦{fullShare} f : sProp 𝕄)
      ⊢ iprop(((mval0H).view.loc (thrV d L) ↦[(mval0H).view.set]{fullShare} f) ∗ ((mval1H).view.loc (thrV d L) ↦[(mval1H).view.set]{fullShare} f)) :=
  split_halves (ℓ := (thrV d L).loc cc0_scratch2) _ _ mval_halves.1 mval_halves.2 fullShare f
theorem join_mval :
    (iprop((∃ f, (mval0H).view.loc (thrV d L) ↦[(mval0H).view.set]{fullShare} f) ∗ (∃ f, (mval1H).view.loc (thrV d L) ↦[(mval1H).view.set]{fullShare} f)) : sProp 𝕄)
      ⊢ iprop(∃ f, (thrV d L).loc cc0_scratch2 ↦{fullShare} f) :=
  join_halves (ℓ := (thrV d L).loc cc0_scratch2) _ _ mval_halves.1 mval_halves.2 fullShare

/-! ## The token scratch's shares -/

theorem split_idx (v : Buf (Elt F) ((thrV d L).loc cc0_scratch0)) :
    ((thrV d L).loc cc0_scratch0 ↦{fullShare} v : sProp 𝕄)
      ⊢ iprop(((idxM).view.loc (thrV d L) ↦{qIk} v) ∗ ((idxM).view.loc (thrV d L) ↦{qIa} v) ∗ ((idxM).view.loc (thrV d L) ↦{qIb} v)) := by
  iintro H
  ihave H1 := (pointsTo_share (ℓ := (thrV d L).loc cc0_scratch0) (I := Finset.univ) (f := v) (PosShare.mem_left_op_right fullShare)).1 $$ H
  icases H1 with ⟨Hk, Hr⟩
  ihave H2 := (pointsTo_share (ℓ := (thrV d L).loc cc0_scratch0) (I := Finset.univ) (f := v) (PosShare.mem_left_op_right fullShare.right)).1 $$ Hr
  icases H2 with ⟨Ha, Hb⟩
  isplitl [Hk]; · iexact Hk
  isplitl [Ha]; · iexact Ha
  iexact Hb
theorem join_idx (v : Buf (Elt F) ((thrV d L).loc cc0_scratch0)) :
    (iprop(((idxM).view.loc (thrV d L) ↦{qIk} v) ∗ ((idxM).view.loc (thrV d L) ↦{qIa} v) ∗ ((idxM).view.loc (thrV d L) ↦{qIb} v)) : sProp 𝕄)
      ⊢ ((thrV d L).loc cc0_scratch0 ↦{fullShare} v) := by
  iintro ⟨Hk, Ha, Hb⟩
  iapply (pointsTo_share (ℓ := (thrV d L).loc cc0_scratch0) (I := Finset.univ) (f := v) (PosShare.mem_left_op_right fullShare)).2
  isplitl [Hk]; · iexact Hk
  iapply (pointsTo_share (ℓ := (thrV d L).loc cc0_scratch0) (I := Finset.univ) (f := v) (PosShare.mem_left_op_right fullShare.right)).2
  isplitl [Ha]; · iexact Ha
  iexact Hb

/-! ## The read-only shares, halved by parity of the buffer -/

theorem split_spm (t : Buf (Elt F) (shLoc d (cV L))) :
    (shLoc d (cV L) ↦{qS (jL L)} t : sProp 𝕄)
      ⊢ iprop(((spmM).view.loc (thrV d L) ↦{qSa L} t) ∗ ((spmM).view.loc (thrV d L) ↦{qSb L} t)) :=
  (pointsTo_share (ℓ := shLoc d (cV L)) (I := Finset.univ) (f := t) (PosShare.mem_left_op_right (qS (jL L)))).1
theorem join_spm (t : Buf (Elt F) (shLoc d (cV L))) :
    (iprop(((spmM).view.loc (thrV d L) ↦{qSa L} t) ∗ ((spmM).view.loc (thrV d L) ↦{qSb L} t)) : sProp 𝕄)
      ⊢ (shLoc d (cV L) ↦{qS (jL L)} t) :=
  (pointsTo_share (ℓ := shLoc d (cV L)) (I := Finset.univ) (f := t) (PosShare.mem_left_op_right (qS (jL L)))).2

theorem split_u (u : Buf (Elt F) (uLoc d)) :
    (uLoc d ↦{qT (cV L) (jL L)} u : sProp 𝕄)
      ⊢ iprop(((uM).view.loc (thrV d L) ↦{qUa L} u) ∗ ((uM).view.loc (thrV d L) ↦{qUb L} u)) :=
  (pointsTo_share (ℓ := uLoc d) (I := Finset.univ) (f := u) (PosShare.mem_left_op_right (qT (cV L) (jL L)))).1
theorem join_u (u : Buf (Elt F) (uLoc d)) :
    (iprop(((uM).view.loc (thrV d L) ↦{qUa L} u) ∗ ((uM).view.loc (thrV d L) ↦{qUb L} u)) : sProp 𝕄)
      ⊢ (uLoc d ↦{qT (cV L) (jL L)} u) :=
  (pointsTo_share (ℓ := uLoc d) (I := Finset.univ) (f := u) (PosShare.mem_left_op_right (qT (cV L) (jL L)))).2

/-! ## A row of the token scratch, lent and returned -/

theorem take_idxRow (c : ℕ) (q : PosShare TreeShare) (v : Buf (Elt F) ((thrV d L).loc cc0_scratch0)) :
    ((idxM).view.loc (thrV d L) ↦{q} v : sProp 𝕄)
      ⊢ iprop(((idxM).view.loc (thrV d L) ↦[idxRowSet c]{q} v) ∗ ((idxM).view.loc (thrV d L) ↦[Finset.univ \ idxRowSet c]{q} v)) :=
  (pointsTo_split_subset (ℓ := (idxM).view.loc (thrV d L)) (q := q) (f := v) (Finset.subset_univ (idxRowSet c))).1
theorem put_idxRow (c : ℕ) (q : PosShare TreeShare) (v : Buf (Elt F) ((thrV d L).loc cc0_scratch0)) :
    (iprop(((idxM).view.loc (thrV d L) ↦[idxRowSet c]{q} v) ∗ ((idxM).view.loc (thrV d L) ↦[Finset.univ \ idxRowSet c]{q} v)) : sProp 𝕄)
      ⊢ ((idxM).view.loc (thrV d L) ↦{q} v) :=
  (pointsTo_split_subset (ℓ := (idxM).view.loc (thrV d L)) (q := q) (f := v) (Finset.subset_univ (idxRowSet c))).2

end Cert.KI

end
-- ==== Proof.KI.OutChunks.lean ====
/-
  The subcore's rows of the flat result through its main loop.  Before trip k the chunks below 2k - 1 hold their final
  value, chunk 2k - 1 is away with its write-out, and the chunks from 2k on are untouched.  Trip k takes chunks 2k and
  2k + 1 out untouched (chunk 2k - 1, just finished, goes back in), finishes chunk 2k and leaves chunk 2k + 1 away
  with its write-out: that is the state before trip k + 1.  Before the first trip every chunk is untouched, which is
  the worker's rows as the launch hands them over; after the last, with chunk 49 back, every chunk is final, which is
  the worker's rows at their final value.
-/
import proofs.«206556_g62818191671566_cont_9to1_m_1093_40_alg».proof.Proof.KI.Inv
import proofs.«206556_g62818191671566_cont_9to1_m_1093_40_alg».proof.Proof.KI.Sets

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

/-! ## One chunk's slot -/

/-- Chunk j at its final value, and untouched. -/
abbrev chunkFin (j : ℕ) : sProp 𝕄 := outLoc d ↦[chunkSet L j]{fullShare} outV m d
abbrev chunkRaw (j : ℕ) : sProp 𝕄 := outLoc d ↦[chunkSet L j]{fullShare} m (outLoc d)

/-- Chunk j's slot before trip k. -/
def chunkSlot (k j : ℕ) : sProp 𝕄 :=
  if j + 1 < 2 * k then chunkFin m d L j else if j + 1 = 2 * k then iprop(emp) else chunkRaw m d L j

theorem outChunks_eq (k : ℕ) : outChunks m d L k = bigSep (Finset.range 50) (chunkSlot m d L k) := rfl

theorem chunkSlot_lt {k j : ℕ} (h : j + 1 < 2 * k) : chunkSlot m d L k j = chunkFin m d L j := by
  unfold chunkSlot; rw [if_pos h]
theorem chunkSlot_eq {k j : ℕ} (h : j + 1 = 2 * k) : chunkSlot m d L k j = (iprop(emp) : sProp 𝕄) := by
  unfold chunkSlot; rw [if_neg (show ¬ (j + 1 < 2 * k) by omega), if_pos h]
theorem chunkSlot_gt {k j : ℕ} (h : 2 * k < j + 1) : chunkSlot m d L k j = chunkRaw m d L j := by
  unfold chunkSlot; rw [if_neg (show ¬ (j + 1 < 2 * k) by omega), if_neg (show ¬ (j + 1 = 2 * k) by omega)]

/-! ## What a trip takes and puts back -/

/-- The chunk finished just before trip k, back from its write-out (none before the first trip). -/
def prevDone (k : ℕ) : sProp 𝕄 := if k = 0 then iprop(emp) else chunkFin m d L (2 * k - 1)

/-- The chunks other than 2k and 2k + 1. -/
abbrev restSet (k : ℕ) : Finset ℕ := ((Finset.range 50).erase (2 * k)).erase (2 * k + 1)

/-- A chunk other than 2k and 2k + 1 during trip k: final below 2k, untouched above. -/
def restSlot (k j : ℕ) : sProp 𝕄 := if j < 2 * k then chunkFin m d L j else chunkRaw m d L j

/-- The other forty-eight chunks during trip k. -/
def outRest (k : ℕ) : sProp 𝕄 := bigSep (restSet k) (restSlot m d L k)

theorem mem_restSet {k j : ℕ} : j ∈ restSet k ↔ j ≠ 2 * k + 1 ∧ j ≠ 2 * k ∧ j < 50 := by
  simp only [restSet, Finset.mem_erase, Finset.mem_range]

/-- With the chunk just finished back in, the other chunks before trip k are the other chunks during it. -/
theorem rest_fix (k : ℕ) (hk25 : k < 25) :
    iprop(bigSep (restSet k) (chunkSlot m d L k) ∗ prevDone m d L k) ⊢ bigSep (restSet k) (restSlot m d L k) := by
  by_cases hk : k = 0
  · subst hk
    have e : bigSep (restSet 0) (chunkSlot m d L 0) = bigSep (restSet 0) (restSlot m d L 0) :=
      bigSep_congr fun j _ => by
        rw [chunkSlot_gt m d L (show 2 * 0 < j + 1 by omega)]
        unfold restSlot; rw [if_neg (show ¬ (j < 2 * 0) by omega)]
    rw [e]
    iintro ⟨H, -⟩
    iexact H
  · have hmem : 2 * k - 1 ∈ restSet k := mem_restSet.mpr ⟨by omega, by omega, by omega⟩
    rw [SparseCore.bigSep_erase' hmem (Φ := chunkSlot m d L k), SparseCore.bigSep_erase' hmem (Φ := restSlot m d L k)]
    have e : bigSep ((restSet k).erase (2 * k - 1)) (chunkSlot m d L k)
        = bigSep ((restSet k).erase (2 * k - 1)) (restSlot m d L k) :=
      bigSep_congr fun j hj => by
        obtain ⟨hne, hj'⟩ := Finset.mem_erase.mp hj
        obtain ⟨h1, h2, h3⟩ := mem_restSet.mp hj'
        by_cases hlt : j < 2 * k
        · rw [chunkSlot_lt m d L (show j + 1 < 2 * k by omega)]; unfold restSlot; rw [if_pos hlt]
        · rw [chunkSlot_gt m d L (show 2 * k < j + 1 by omega)]; unfold restSlot; rw [if_neg hlt]
    have e1 : chunkSlot m d L k (2 * k - 1) = (iprop(emp) : sProp 𝕄) :=
      chunkSlot_eq m d L (show 2 * k - 1 + 1 = 2 * k by omega)
    have e2 : restSlot m d L k (2 * k - 1) = chunkFin m d L (2 * k - 1) := by
      unfold restSlot; rw [if_pos (show 2 * k - 1 < 2 * k by omega)]
    have e3 : prevDone m d L k = chunkFin m d L (2 * k - 1) := by unfold prevDone; rw [if_neg hk]
    rw [e, e1, e2, e3]
    iintro ⟨⟨-, HB⟩, HF⟩
    isplitl [HF]
    · iexact HF
    · iexact HB

/-- Trip k takes chunks 2k and 2k + 1 out untouched. -/
theorem out_take (k : ℕ) (hk : k < 25) :
    iprop(outChunks m d L k ∗ prevDone m d L k)
      ⊢ iprop((outLoc d ↦[chunkSet L (2 * k)]{fullShare} m (outLoc d))
          ∗ (outLoc d ↦[chunkSet L (2 * k + 1)]{fullShare} m (outLoc d)) ∗ outRest m d L k) := by
  have h0 : 2 * k ∈ Finset.range 50 := Finset.mem_range.mpr (by omega)
  have h1 : 2 * k + 1 ∈ (Finset.range 50).erase (2 * k) :=
    Finset.mem_erase.mpr ⟨by omega, Finset.mem_range.mpr (by omega)⟩
  rw [outChunks_eq, SparseCore.bigSep_erase' h0 (Φ := chunkSlot m d L k),
    SparseCore.bigSep_erase' h1 (Φ := chunkSlot m d L k),
    chunkSlot_gt m d L (show 2 * k < 2 * k + 1 by omega), chunkSlot_gt m d L (show 2 * k < 2 * k + 1 + 1 by omega)]
  unfold outRest
  iintro ⟨⟨Ha, Hb, HR⟩, HP⟩
  isplitl [Ha]
  · iexact Ha
  isplitl [Hb]
  · iexact Hb
  iapply (rest_fix m d L k hk)
  isplitl [HR]
  · iexact HR
  · iexact HP

/-- With chunk 2k finished, and chunk 2k + 1 away with its write-out, the rows are as before trip k + 1. -/
theorem out_put (k : ℕ) (hk : k < 25) :
    iprop(outRest m d L k ∗ (outLoc d ↦[chunkSet L (2 * k)]{fullShare} outV m d)) ⊢ outChunks m d L (k + 1) := by
  have h0 : 2 * k ∈ Finset.range 50 := Finset.mem_range.mpr (by omega)
  have h1 : 2 * k + 1 ∈ (Finset.range 50).erase (2 * k) :=
    Finset.mem_erase.mpr ⟨by omega, Finset.mem_range.mpr (by omega)⟩
  have e : bigSep (restSet k) (chunkSlot m d L (k + 1)) = bigSep (restSet k) (restSlot m d L k) :=
    bigSep_congr fun j hj => by
      obtain ⟨h1, h2, h3⟩ := mem_restSet.mp hj
      by_cases hlt : j < 2 * k
      · rw [chunkSlot_lt m d L (show j + 1 < 2 * (k + 1) by omega)]; unfold restSlot; rw [if_pos hlt]
      · rw [chunkSlot_gt m d L (show 2 * (k + 1) < j + 1 by omega)]; unfold restSlot; rw [if_neg hlt]
  rw [outChunks_eq, SparseCore.bigSep_erase' h0 (Φ := chunkSlot m d L (k + 1)),
    SparseCore.bigSep_erase' h1 (Φ := chunkSlot m d L (k + 1)),
    chunkSlot_lt m d L (show 2 * k + 1 < 2 * (k + 1) by omega),
    chunkSlot_eq m d L (show 2 * k + 1 + 1 = 2 * (k + 1) by omega), e]
  unfold outRest
  iintro ⟨HR, HF⟩
  isplitl [HF]
  · iexact HF
  isplitr
  · iempintro
  · iexact HR

/-- Before the first trip the worker's rows are fifty untouched chunks. -/
theorem out_init :
    (outLoc d ↦[slabSet (widOf (cV L) (jL L))]{fullShare} m (outLoc d) : sProp 𝕄) ⊢ outChunks m d L 0 := by
  rw [slab_chunks d L fullShare (m (outLoc d)), outChunks_eq]
  refine bigSep_mono fun j _ => ?_
  rw [chunkSlot_gt m d L (show 2 * 0 < j + 1 by omega)]
  exact BI.Entails.refl _

/-- After the last trip, with chunk 49 back from its write-out, the worker's rows are at their final value. -/
theorem out_final :
    iprop(outChunks m d L 25 ∗ (outLoc d ↦[chunkSet L 49]{fullShare} outV m d))
      ⊢ (outLoc d ↦[slabSet (widOf (cV L) (jL L))]{fullShare} outV m d : sProp 𝕄) := by
  have h49 : 49 ∈ Finset.range 50 := Finset.mem_range.mpr (by omega)
  have e : bigSep ((Finset.range 50).erase 49) (chunkSlot m d L 25)
      = bigSep ((Finset.range 50).erase 49) (chunkFin m d L) :=
    bigSep_congr fun j hj => by
      obtain ⟨hne, hj'⟩ := Finset.mem_erase.mp hj
      have := Finset.mem_range.mp hj'
      exact chunkSlot_lt m d L (show j + 1 < 2 * 25 by omega)
  rw [slab_chunks d L fullShare (outV m d), outChunks_eq, SparseCore.bigSep_erase' h49 (Φ := chunkSlot m d L 25),
    SparseCore.bigSep_erase' h49 (Φ := fun k => (outLoc d ↦[chunkSet L k]{fullShare} outV m d : sProp 𝕄)), e]
  iintro ⟨⟨-, HR⟩, HF⟩
  isplitl [HF]
  · iexact HF
  · iexact HR

end Cert.KI

end
-- ==== Proof.KI.GatherVal.lean ====
/-
  Values the tile's body cites.  The draw index of a position: the position divided by fifty, times a thousand, plus
  the token, computed on 32-bit words with a signed division, is the natural number it names, below the number of
  draws.  What an indexed copy delivers: at an index of the destination, the source at the same coordinates except on
  the indexed axis, where it is at the row the list names.
-/
import proofs.«206556_g62818191671566_cont_9to1_m_1093_40_alg».proof.Proof.KI.Vals

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The draw index on words -/

/-- Signed division of a non-negative word by fifty is the quotient. -/
theorem sdiv50 (p : ℕ) (hp : p < 2 ^ 31) : (BitVec.ofNat 32 p).sdiv 50#32 = BitVec.ofNat 32 (p / 50) := by
  have hx : (BitVec.ofNat 32 p).toNat = p := by rw [BitVec.toNat_ofNat]; exact Nat.mod_eq_of_lt (by omega)
  have hmx : (BitVec.ofNat 32 p).msb = false := by rw [BitVec.msb_eq_false_iff_two_mul_lt, hx]; omega
  have hmy : (50#32 : BitVec 32).msb = false := by decide
  rw [BitVec.sdiv_eq, hmx, hmy]
  dsimp only
  apply BitVec.eq_of_toNat_eq
  have h50 : (50#32 : BitVec 32).toNat = 50 := by decide
  rw [BitVec.udiv_eq, BitVec.toNat_udiv, hx, h50, BitVec.toNat_ofNat]
  exact (Nat.mod_eq_of_lt (by omega)).symm

/-- The draw index of flat position `p` and token `t`, computed on words, is the word of the natural number; that
    number is below the number of draws. -/
theorem midx_word (p t : ℕ) (hp : p < 204800) (ht : t < 1000) :
    (BitVec.ofNat 32 p).sdiv 50#32 * 1000#32 + BitVec.ofNat 32 t = BitVec.ofNat 32 (p / 50 * 1000 + t)
      ∧ p / 50 * 1000 + t < 4096000 := by
  refine ⟨?_, by omega⟩
  rw [sdiv50 p (by omega)]
  apply BitVec.eq_of_toNat_eq
  simp only [BitVec.toNat_add, BitVec.toNat_mul, BitVec.toNat_ofNat]
  omega

/-- The same through the vector unit's operations: fifty is no corner of the signed division. -/
theorem midx_lane (p t : ℕ) (hp : p < 204800) (ht : t < 1000) :
    IntOp.addi (IntOp.muli (IntOp.divsi .vector (BitVec.ofNat 32 p) 50#32) 1000#32) (BitVec.ofNat 32 t)
      = BitVec.ofNat 32 (p / 50 * 1000 + t) := by
  have hc : ¬ IntOp.SDivCorner (BitVec.ofNat 32 p) 50#32 := by
    rintro (h0 | ⟨-, h1⟩)
    · exact absurd h0 (by decide)
    · exact absurd h1 (by decide)
  rw [IntOp.divsi, if_neg hc]
  exact (midx_word p t hp ht).1

/-- Sums of small numbers as words. -/
theorem ofNat_add_word (a b : ℕ) : BitVec.ofNat 32 a + BitVec.ofNat 32 b = BitVec.ofNat 32 (a + b) := by
  apply BitVec.eq_of_toNat_eq
  simp only [BitVec.toNat_add, BitVec.toNat_ofNat]
  omega
theorem ofNat_mul_word (a b : ℕ) : BitVec.ofNat 32 a * BitVec.ofNat 32 b = BitVec.ofNat 32 (a * b) := by
  apply BitVec.eq_of_toNat_eq
  simp only [BitVec.toNat_mul, BitVec.toNat_ofNat]
  exact (Nat.mul_mod _ _ _).symm

/-- The first flat position of the worker at a grid point, as the body computes it on words. -/
theorem base_word (L : grid0.Coords) :
    Scalar.muli (Scalar.addi (Scalar.muli (BitVec.ofNat 32 (L 1).val) 2#32) (BitVec.ofNat 32 (L 0).val)) 6400#32
      = BitVec.ofNat 32 (widN L * 6400) := by
  show (BitVec.ofNat 32 (L 1).val * BitVec.ofNat 32 2 + BitVec.ofNat 32 (L 0).val) * BitVec.ofNat 32 6400 = _
  rw [ofNat_mul_word, ofNat_add_word, ofNat_mul_word]
  unfold widN
  rw [Nat.mul_comm (L 1).val 2]

/-- The lane counter reads the lane's number. -/
theorem iota16_apply (ℓ : Fin 16) : iota .scVector S16 32 [0] iota_S16_d0_w32_scVector (ix1 ℓ) = BitVec.ofNat 32 ℓ.val := by
  show BitVec.ofNat 32 (0 * 16 + ℓ.val) = _
  rw [Nat.zero_mul, Nat.zero_add]

/-- One lane of the sixteen the body computes at a time: from the word of a flat position `b`, lane `ℓ` is the draw
    index of position `b + ℓ` and of the lane's token. -/
theorem midx_lanes (b : ℕ) (tok : IVec S16 32) (ℓ : Fin 16) (hb : b + 16 ≤ 204800) (ht : (tok (ix1 ℓ)).toNat < 1000) :
    addi (muli (divsi (addi (broadcast S16 (BitVec.ofNat 32 b)) (iota .scVector S16 32 [0] iota_S16_d0_w32_scVector))
        (broadcast S16 50#32)) (broadcast S16 1000#32)) tok (ix1 ℓ)
      = BitVec.ofNat 32 ((b + ℓ.val) / 50 * 1000 + (tok (ix1 ℓ)).toNat) := by
  show IntOp.addi (IntOp.muli (IntOp.divsi .vector (IntOp.addi (BitVec.ofNat 32 b)
      (iota .scVector S16 32 [0] iota_S16_d0_w32_scVector (ix1 ℓ))) 50#32) 1000#32) (tok (ix1 ℓ)) = _
  rw [iota16_apply]
  have e : IntOp.addi (BitVec.ofNat 32 b) (BitVec.ofNat 32 ℓ.val) = BitVec.ofNat 32 (b + ℓ.val) := ofNat_add_word b ℓ.val
  rw [e]
  have hℓ := ℓ.isLt
  have h := midx_lane (b + ℓ.val) (tok (ix1 ℓ)).toNat (by omega) ht
  rwa [show BitVec.ofNat 32 (tok (ix1 ℓ)).toNat = tok (ix1 ℓ) from
    BitVec.eq_of_toNat_eq (by rw [BitVec.toNat_ofNat]; exact Nat.mod_eq_of_lt (tok (ix1 ℓ)).isLt)] at h

variable (m : (ℓ : Loc nD τ sig) → Buf (Elt F) ℓ)

/-! ## Tokens and draw indices in range -/

/-- Every token a subcore reads names a vocabulary entry: the regrouped array's entries are the token array's. -/
theorem tokC_lt [FloatOps F] (hpre : PreOK m) (d : Dev nD) (L : grid0.Coords) (k r : ℕ) : (tokC m d L k r).toNat < 1000 := by
  unfold tokC tok3V shapeCast
  exact hpre d _

/-- A flat position of a worker's chunk is a row of the flat result. -/
theorem posN_lt (L : grid0.Coords) (k r : ℕ) (hk : k < 50) (hr : r < 128) : posN L k r < 204800 := by
  have := wid_lt L
  unfold posN widN; omega

/-- The draw index of a row of a chunk is below the number of draws. -/
theorem midxN_lt [FloatOps F] (hpre : PreOK m) (d : Dev nD) (L : grid0.Coords) (k r : ℕ) (hk : k < 50) (hr : r < 128) :
    midxN m d L k r < 4096000 := by
  have h1 := posN_lt L k r hk hr
  have h2 := tokC_lt m hpre d L k r
  unfold midxN; omega

/-! ## What an indexed copy delivers -/

/-- Rows of the table: row `a` of the destination is row `r a` of the source. -/
theorem gather_rows_apply (g : S1000x128.Idx → Elt F .f32)
    (r : Fin (S128x128.size gathers_S1000x128_S128x128.axis') → Fin (S1000x128.size gathers_S1000x128_S128x128.axis))
    (a : Fin 128) (b : Fin 128) :
    SparseCore.gatherPayload gathers_S1000x128_S128x128 g r (ix2 a b) = g (ix2 (r a) b) := by
  unfold SparseCore.gatherPayload
  congr 1
  funext c
  match c with
  | ⟨0, _⟩ => exact Shape.Gathers.idx_axis gathers_S1000x128_S128x128 r (ix2 a b)
  | ⟨1, _⟩ => exact Fin.ext (Shape.Gathers.idx_of_ne gathers_S1000x128_S128x128 r (ix2 a b) ⟨1, by decide⟩ (by decide))

/-- Draws: entry `a` of the destination is entry `r a` of the source. -/
theorem gather_draw_apply (g : S4096000.Idx → Elt F .f32)
    (r : Fin (S128.size gathers_S4096000_S128.axis') → Fin (S4096000.size gathers_S4096000_S128.axis)) (a : Fin 128) :
    SparseCore.gatherPayload gathers_S4096000_S128 g r (ix1 a) = g (ix1 (r a)) := by
  unfold SparseCore.gatherPayload
  congr 1
  funext c
  match c with
  | ⟨0, _⟩ => exact Shape.Gathers.idx_axis gathers_S4096000_S128 r (ix1 a)

/-! ## The blocks and lists the gathers name, at any offset -/

/-- A 128 × 128 block of the row scratch: one of its two halves, the unit axis dropped. -/
abbrev rowsBlk (off : Fin 3 → ℕ) (inb : ∀ a, off a + S1x128x128.size a ≤ S2x128x128.size a) : Memref sig .scVector .vmem S128x128 .f32 :=
  ((rowsM).slice (Rect.unit (s := S2x128x128) off S1x128x128.size inb) (fun _ => rfl)).squeeze S128x128 squeezes_S1x128x128_S128x128
/-- A row of the token scratch as a list. -/
abbrev idxList (off : Fin 2 → ℕ) (inb : ∀ a, off a + S1x128.size a ≤ S50x128.size a) : Memref sig .scVector .vmem S128 .i32 :=
  ((idxM).slice (Rect.unit (s := S50x128) off S1x128.size inb) (fun _ => rfl)).squeeze S128 squeezes_S1x128_S128
/-- The whole shared copy, as a gather names its source. -/
abbrev spmWhole : Memref sig .scVector .shared S1000x128 .f32 :=
  (spmM).slice (Rect.unit (s := S1000x128) ![0, 0] S1000x128.size inb_S1000x128_S1000x128_0_0) (fun _ => rfl)

theorem rowsBlk_emb (off : Fin 3 → ℕ) (inb : ∀ a, off a + S1x128x128.size a ≤ S2x128x128.size a) (h : Fin 2)
    (hoff : off = ![h.val, 0, 0]) (a b : Fin 128) :
    (rowsBlk off inb).view.emb (ix2 a b) = (ix3 h a b : S2x128x128.Idx) := by
  subst hoff
  have e1 : Shape.reshapeEquiv (squeezes_S1x128x128_S128x128 : S1x128x128.Squeezes S128x128).numel_eq (ix2 a b)
      = (ix3 (⟨0, Nat.one_pos⟩ : Fin 1) a b : S1x128x128.Idx) := by
    refine Shape.reshapeEquiv_eq_of_rowMajor _ ?_
    rw [Shape.rowMajor_val_three, Shape.rowMajor_val_two]
    show (0 * 128 + a.val) * 128 + b.val = a.val * 128 + b.val
    omega
  show (Rect.unit (s := S2x128x128) ![h.val, 0, 0] S1x128x128.size inb).emb
      (Shape.reshapeEquiv (squeezes_S1x128x128_S128x128 : S1x128x128.Squeezes S128x128).numel_eq (ix2 a b)) = _
  rw [e1]
  funext k
  apply Fin.ext
  rw [Rect.emb_apply]
  match k with
  | ⟨0, _⟩ => show h.val + 1 * 0 = h.val; omega
  | ⟨1, _⟩ => show 0 + 1 * a.val = a.val; omega
  | ⟨2, _⟩ => show 0 + 1 * b.val = b.val; omega

theorem idxList_emb (off : Fin 2 → ℕ) (inb : ∀ a, off a + S1x128.size a ≤ S50x128.size a) (kk : Fin 50)
    (hoff : off = ![kk.val, 0]) (a : Fin 128) :
    (idxList off inb).view.emb (ix1 a) = (ix2 kk a : S50x128.Idx) := by
  subst hoff
  have e1 : Shape.reshapeEquiv (squeezes_S1x128_S128 : S1x128.Squeezes S128).numel_eq (ix1 a)
      = (ix2 (⟨0, Nat.one_pos⟩ : Fin 1) a : S1x128.Idx) := by
    refine Shape.reshapeEquiv_eq_of_rowMajor _ ?_
    rw [Shape.rowMajor_val_two, Shape.rowMajor_val_one]
    show 0 * 128 + a.val = a.val
    omega
  show (Rect.unit (s := S50x128) ![kk.val, 0] S1x128.size inb).emb
      (Shape.reshapeEquiv (squeezes_S1x128_S128 : S1x128.Squeezes S128).numel_eq (ix1 a)) = _
  rw [e1]
  funext k
  apply Fin.ext
  rw [Rect.emb_apply]
  match k with
  | ⟨0, _⟩ => show kk.val + 1 * 0 = kk.val; omega
  | ⟨1, _⟩ => show 0 + 1 * a.val = a.val; omega

theorem spmWhole_emb (z : S1000x128.Idx) : (spmWhole).view.emb z = z := by
  show (Rect.unit (s := S1000x128) ![0, 0] S1000x128.size inb_S1000x128_S1000x128_0_0).emb z = z
  funext k
  apply Fin.ext
  rw [Rect.emb_apply]
  match k with
  | ⟨0, _⟩ => show 0 + 1 * (z 0).val = (z 0).val; omega
  | ⟨1, _⟩ => show 0 + 1 * (z 1).val = (z 1).val; omega

/-- Entry `k` of a list of 128 in row-major order is entry `k`. -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- Entry `a` of row `kk` of the token scratch, once the tokens have landed, is the token of row `a` of chunk `kk`. -/
theorem idxList_read (d : Dev nD) (L : grid0.Coords) (off : Fin 2 → ℕ) (inb : ∀ a, off a + S1x128.size a ≤ S50x128.size a)
    (kk : Fin 50) (hoff : off = ![kk.val, 0]) (a : Fin 128) :
    (idxList off inb).view.read (Elt F) (idxVal m d L) (ix1 a) = tokC m d L kk.val a.val := by
  rw [View.read_apply, idxList_emb off inb kk hoff a]
  show idxVal m d L (ix2 kk a) = _
  unfold idxVal tokC
  show (tok3V m d : IVec S32x50x128 32) (ix3 _ kk a) = (tok3V m d : IVec S32x50x128 32) (ix3 _ _ _)
  have hk : (⟨kk.val % 50, Nat.mod_lt _ (by norm_num)⟩ : Fin 50) = kk := Fin.ext (Nat.mod_eq_of_lt kk.isLt)
  have ha : (⟨a.val % 128, Nat.mod_lt _ (by norm_num)⟩ : Fin 128) = a := Fin.ext (Nat.mod_eq_of_lt a.isLt)
  rw [hk, ha]

/-- The list's words name rows of the table. -/
theorem idxList_lt [FloatOps F] (hpre : PreOK m) (d : Dev nD) (L : grid0.Coords) (off : Fin 2 → ℕ)
    (inb : ∀ a, off a + S1x128.size a ≤ S50x128.size a) (kk : Fin 50) (hoff : off = ![kk.val, 0]) :
    ∀ x, ((idxList off inb).view.read (Elt F) (idxVal m d L) x).toNat < S1000x128.size gathers_S1000x128_S128x128.axis := by
  intro x
  obtain ⟨a, rfl⟩ : ∃ a : Fin 128, x = ix1 a := ⟨x 0, eq_ix1 x⟩
  rw [idxList_read m d L off inb kk hoff a]
  exact tokC_lt m hpre d L kk.val a.val

/-- The row the list names for row `a` of the block is the token's. -/
theorem rows_named (d : Dev nD) (L : grid0.Coords) (off : Fin 2 → ℕ) (inb : ∀ a, off a + S1x128.size a ≤ S50x128.size a)
    (kk : Fin 50) (hoff : off = ![kk.val, 0]) (hn : S128.numel = S128x128.size gathers_S1000x128_S128x128.axis')
    (hin : ∀ x, ((idxList off inb).view.read (Elt F) (idxVal m d L) x).toNat < S1000x128.size gathers_S1000x128_S128x128.axis)
    (a : Fin 128) :
    (SparseCore.rows ((idxList off inb).view.read (Elt F) (idxVal m d L)) hn hin a).val = (tokC m d L kk.val a.val).toNat := by
  show ((idxList off inb).view.read (Elt F) (idxVal m d L) (S128.rowMajor.symm (Fin.cast hn.symm a))).toNat = _
  rw [rowMajor_symm_S128, idxList_read m d L off inb kk hoff]
  rfl

/-- The gathered block, written whole into a half of the row scratch, holds on that half the table's rows of the
    chunk's tokens. -/
theorem rows_gathered (d : Dev nD) (L : grid0.Coords) (kk : Fin 50) (h : Fin 2)
    (offD : Fin 3 → ℕ) (inbD : ∀ a, offD a + S1x128x128.size a ≤ S2x128x128.size a) (hD : offD = ![h.val, 0, 0])
    (offI : Fin 2 → ℕ) (inbI : ∀ a, offI a + S1x128.size a ≤ S50x128.size a) (hI : offI = ![kk.val, 0])
    (old : Buf (Elt F) ((thrV d L).loc cc0_scratch4))
    (hn : S128.numel = S128x128.size gathers_S1000x128_S128x128.axis')
    (hin : ∀ x, ((idxList offI inbI).view.read (Elt F) (idxVal m d L) x).toNat < S1000x128.size gathers_S1000x128_S128x128.axis) :
    ∀ x ∈ (rowsBlk offD inbD).view.set,
      (rowsBlk offD inbD).view.write (Elt F) old
        (SparseCore.gatherPayload gathers_S1000x128_S128x128 ((spmWhole).view.read (Elt F) (tabSh m d (cV L)))
          (SparseCore.rows ((idxList offI inbI).view.read (Elt F) (idxVal m d L)) hn hin)) Finset.univ x
      = rowsVal m d L kk.val x := by
  intro x hx
  obtain ⟨y, -, rfl⟩ := Finset.mem_map.mp hx
  obtain ⟨a, b, rfl⟩ : ∃ (a b : Fin 128), y = ix2 a b := ⟨y 0, y 1, eq_ix2 y⟩
  refine (View.write_emb_of_mem (v := (rowsBlk offD inbD).view) (Val := Elt F) old _ (M := Finset.univ) (Finset.mem_univ _)).trans ?_
  rw [gather_rows_apply, View.read_apply, spmWhole_emb, rowsBlk_emb offD inbD h hD a b]
  unfold rowsVal tabSh
  show (m (tabLoc d) : FVec F S1000x128 .f32) (ix2 _ b) = (m (tabLoc d) : FVec F S1000x128 .f32) (ix2 _ _)
  have hlt : (tokC m d L kk.val a.val).toNat < 1000 := by
    have := hin (ix1 a)
    rw [idxList_read m d L offI inbI kk hI a] at this
    exact this
  have hr : SparseCore.rows ((idxList offI inbI).view.read (Elt F) (idxVal m d L)) hn hin a = Cert.Spec.row (tokC m d L kk.val a.val) := by
    apply Fin.ext
    rw [rows_named m d L offI inbI kk hI hn hin a]
    exact (Cert.Spec.row_val_of_lt hlt).symm
  rw [hr]
  have hb : (⟨b.val % 128, Nat.mod_lt _ (by norm_num)⟩ : Fin 128) = b := Fin.ext (Nat.mod_eq_of_lt b.isLt)
  show (m (tabLoc d) : FVec F S1000x128 .f32) (ix2 (Cert.Spec.row (tokC m d L kk.val a.val)) b)
    = (m (tabLoc d) : FVec F S1000x128 .f32) (ix2 (Cert.Spec.row (tokC m d L kk.val a.val)) (⟨b.val % 128, Nat.mod_lt _ (by norm_num)⟩ : Fin 128))
  rw [hb]

/-! ## The draws' gather -/

/-- A row of the draw-index scratch as a list. -/
abbrev midxList (off : Fin 2 → ℕ) (inb : ∀ a, off a + S1x128.size a ≤ S2x128.size a) : Memref sig .scVector .vmem S128 .i32 :=
  ((midxM).slice (Rect.unit (s := S2x128) off S1x128.size inb) (fun _ => rfl)).squeeze S128 squeezes_S1x128_S128
/-- A row of the draw scratch as the block a gather fills. -/
abbrev mvalBlk (off : Fin 2 → ℕ) (inb : ∀ a, off a + S1x128.size a ≤ S2x128.size a) : Memref sig .scVector .vmem S128 .f32 :=
  ((mvalM).slice (Rect.unit (s := S2x128) off S1x128.size inb) (fun _ => rfl)).squeeze S128 squeezes_S1x128_S128
/-- The whole flattened array of draws, as a gather names its source. -/
abbrev uWhole : Memref sig .scVector .hbm S4096000 .f32 :=
  (uM).slice (Rect.unit (s := S4096000) ![0] S4096000.size inb_S4096000_S4096000_0) (fun _ => rfl)

theorem row2_reshape (a : Fin 128) :
    Shape.reshapeEquiv (squeezes_S1x128_S128 : S1x128.Squeezes S128).numel_eq (ix1 a) = (ix2 (⟨0, Nat.one_pos⟩ : Fin 1) a : S1x128.Idx) := by
  refine Shape.reshapeEquiv_eq_of_rowMajor _ ?_
  rw [Shape.rowMajor_val_two, Shape.rowMajor_val_one]
  show 0 * 128 + a.val = a.val
  omega

theorem midxList_emb (off : Fin 2 → ℕ) (inb : ∀ a, off a + S1x128.size a ≤ S2x128.size a) (h : Fin 2)
    (hoff : off = ![h.val, 0]) (a : Fin 128) :
    (midxList off inb).view.emb (ix1 a) = (ix2 h a : S2x128.Idx) := by
  subst hoff
  show (Rect.unit (s := S2x128) ![h.val, 0] S1x128.size inb).emb
      (Shape.reshapeEquiv (squeezes_S1x128_S128 : S1x128.Squeezes S128).numel_eq (ix1 a)) = _
  rw [row2_reshape]
  funext k
  apply Fin.ext
  rw [Rect.emb_apply]
  match k with
  | ⟨0, _⟩ => show h.val + 1 * 0 = h.val; omega
  | ⟨1, _⟩ => show 0 + 1 * a.val = a.val; omega

theorem mvalBlk_emb (off : Fin 2 → ℕ) (inb : ∀ a, off a + S1x128.size a ≤ S2x128.size a) (h : Fin 2)
    (hoff : off = ![h.val, 0]) (a : Fin 128) :
    (mvalBlk off inb).view.emb (ix1 a) = (ix2 h a : S2x128.Idx) := by
  subst hoff
  show (Rect.unit (s := S2x128) ![h.val, 0] S1x128.size inb).emb
      (Shape.reshapeEquiv (squeezes_S1x128_S128 : S1x128.Squeezes S128).numel_eq (ix1 a)) = _
  rw [row2_reshape]
  funext k
  apply Fin.ext
  rw [Rect.emb_apply]
  match k with
  | ⟨0, _⟩ => show h.val + 1 * 0 = h.val; omega
  | ⟨1, _⟩ => show 0 + 1 * a.val = a.val; omega

theorem uWhole_emb (z : S4096000.Idx) : (uWhole).view.emb z = z := by
  show (Rect.unit (s := S4096000) ![0] S4096000.size inb_S4096000_S4096000_0).emb z = z
  funext k
  apply Fin.ext
  rw [Rect.emb_apply]
  match k with
  | ⟨0, _⟩ => show 0 + 1 * (z 0).val = (z 0).val; omega

/-- Entry `a` of a row of the draw-index scratch holding chunk `k`'s indices is the word of row `a`'s draw index. -/
theorem midxList_read (d : Dev nD) (L : grid0.Coords) (k : ℕ) (off : Fin 2 → ℕ) (inb : ∀ a, off a + S1x128.size a ≤ S2x128.size a)
    (h : Fin 2) (hoff : off = ![h.val, 0]) (a : Fin 128) :
    (midxList off inb).view.read (Elt F) (midxVal m d L k) (ix1 a) = BitVec.ofNat 32 (midxN m d L k a.val) := by
  rw [View.read_apply, midxList_emb off inb h hoff a]
  rfl

/-- The draw indices of a chunk's rows are in range. -/
theorem midxList_lt (d : Dev nD) (L : grid0.Coords) (k : ℕ) (off : Fin 2 → ℕ) (inb : ∀ a, off a + S1x128.size a ≤ S2x128.size a)
    (h : Fin 2) (hoff : off = ![h.val, 0]) (hN : ∀ r, r < 128 → midxN m d L k r < 4096000) :
    ∀ x, ((midxList off inb).view.read (Elt F) (midxVal m d L k) x).toNat < S4096000.size gathers_S4096000_S128.axis := by
  intro x
  obtain ⟨a, rfl⟩ : ∃ a : Fin 128, x = ix1 a := ⟨x 0, eq_ix1 x⟩
  rw [midxList_read m d L k off inb h hoff a, BitVec.toNat_ofNat]
  have := hN a.val a.isLt
  show midxN m d L k a.val % 2 ^ 32 < 4096000
  omega

/-- The gathered draws, written whole into a row of the draw scratch, hold on that row the chunk's draws. -/
theorem draws_gathered (d : Dev nD) (L : grid0.Coords) (k : ℕ) (h h' : Fin 2)
    (offD : Fin 2 → ℕ) (inbD : ∀ a, offD a + S1x128.size a ≤ S2x128.size a) (hD : offD = ![h.val, 0])
    (offI : Fin 2 → ℕ) (inbI : ∀ a, offI a + S1x128.size a ≤ S2x128.size a) (hI : offI = ![h'.val, 0])
    (hN : ∀ r, r < 128 → midxN m d L k r < 4096000)
    (old : Buf (Elt F) ((thrV d L).loc cc0_scratch2))
    (hn : S128.numel = S128.size gathers_S4096000_S128.axis')
    (hin : ∀ x, ((midxList offI inbI).view.read (Elt F) (midxVal m d L k) x).toNat < S4096000.size gathers_S4096000_S128.axis) :
    ∀ x ∈ (mvalBlk offD inbD).view.set,
      (mvalBlk offD inbD).view.write (Elt F) old
        (SparseCore.gatherPayload gathers_S4096000_S128 ((uWhole).view.read (Elt F) (uflatV m d))
          (SparseCore.rows ((midxList offI inbI).view.read (Elt F) (midxVal m d L k)) hn hin)) Finset.univ x
      = mvalVal m d L k x := by
  intro x hx
  obtain ⟨y, -, rfl⟩ := Finset.mem_map.mp hx
  obtain ⟨a, rfl⟩ : ∃ a : Fin 128, y = ix1 a := ⟨y 0, eq_ix1 y⟩
  refine (View.write_emb_of_mem (v := (mvalBlk offD inbD).view) (Val := Elt F) old _ (M := Finset.univ) (Finset.mem_univ _)).trans ?_
  rw [gather_draw_apply, View.read_apply, uWhole_emb, mvalBlk_emb offD inbD h hD a]
  unfold mvalVal
  have hr : SparseCore.rows ((midxList offI inbI).view.read (Elt F) (midxVal m d L k)) hn hin a
      = (⟨midxN m d L k a.val % 4096000, Nat.mod_lt _ (by norm_num)⟩ : Fin 4096000) := by
    apply Fin.ext
    show ((midxList offI inbI).view.read (Elt F) (midxVal m d L k) (S128.rowMajor.symm (Fin.cast hn.symm a))).toNat = _
    rw [rowMajor_symm_S128, midxList_read m d L k offI inbI h' hI, BitVec.toNat_ofNat]
    have := hN a.val a.isLt
    show midxN m d L k a.val % 2 ^ 32 = midxN m d L k a.val % 4096000
    omega
  rw [hr]
  rfl

end Cert.KI

end
-- ==== Proof.KI.MidxVal.lean ====
/-
  The draw indices a trip computes.  A row of the draw-index scratch is filled sixteen lanes at a time: eight stores,
  each of the sixteen draw indices of the positions it covers.  A store through a sixteen-lane window replaces the
  window's lanes and leaves the rest; the payload of a window is, lane by lane, the draw index of the lane's position
  and token; so after the eight stores the row holds the chunk's draw indices.
-/
import proofs.«206556_g62818191671566_cont_9to1_m_1093_40_alg».proof.Proof.KI.GatherVal
import proofs.«206556_g62818191671566_cont_9to1_m_1093_40_alg».proof.Proof.KI.Sets

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## One store through a sixteen-lane window of a row -/

/-- A sixteen-lane window of row `h` of the draw-index scratch starting at lane `c0`: where its lane `ℓ` sits. -/
theorem midxWin_emb (off : Fin 2 → ℕ) (inb : ∀ a, off a + S1x16.size a ≤ S2x128.size a) (h : Fin 2) (c0 : ℕ)
    (hoff : off = ![h.val, c0]) (ℓ : Fin 16) (hlt : c0 + ℓ.val < 128) :
    ((midxM).access (Rect.unit (s := S2x128) off S1x16.size inb)).emb (ix2 (0 : Fin 1) ℓ) = (ix2 h ⟨c0 + ℓ.val, hlt⟩ : S2x128.Idx) := by
  subst hoff
  show (Rect.unit (s := S2x128) ![h.val, c0] S1x16.size inb).emb (ix2 (0 : Fin 1) ℓ) = _
  funext k
  apply Fin.ext
  rw [Rect.emb_apply]
  match k with
  | ⟨0, _⟩ => show h.val + 1 * 0 = h.val; omega
  | ⟨1, _⟩ => show c0 + 1 * ℓ.val = c0 + ℓ.val; omega

/-- A store through the window replaces its lanes by the payload's and leaves every other entry. -/
theorem midx_write_step (off : Fin 2 → ℕ) (inb : ∀ a, off a + S1x16.size a ≤ S2x128.size a) (h : Fin 2) (c0 : ℕ)
    (hoff : off = ![h.val, c0]) (hc0 : c0 + 16 ≤ 128) (W : IVec S2x128 32) (pay : IVec S1x16 32) (x : S2x128.Idx) (hx0 : (x 0).val = h.val) :
    View.write (Elt F) ((midxM).access (Rect.unit (s := S2x128) off S1x16.size inb)) W pay Finset.univ x
      = if hx : c0 ≤ (x 1).val ∧ (x 1).val < c0 + 16 then pay (ix2 (0 : Fin 1) (⟨(x 1).val - c0, by omega⟩ : Fin 16)) else W x := by
  split
  · next hx =>
    have hlt : c0 + ((⟨(x 1).val - c0, by omega⟩ : Fin 16)).val < 128 := by show c0 + ((x 1).val - c0) < 128; omega
    have he := midxWin_emb off inb h c0 hoff (⟨(x 1).val - c0, by omega⟩ : Fin 16) hlt
    have hxe : x = (ix2 h ⟨c0 + ((x 1).val - c0), hlt⟩ : S2x128.Idx) := by
      funext k
      match k with
      | ⟨0, _⟩ => exact Fin.ext hx0
      | ⟨1, _⟩ => exact Fin.ext (by show (x 1).val = c0 + ((x 1).val - c0); omega)
    have hw := View.write_emb_of_mem (v := (midxM).access (Rect.unit (s := S2x128) off S1x16.size inb)) (Val := Elt F) W pay
      (M := Finset.univ) (x := ix2 (0 : Fin 1) (⟨(x 1).val - c0, by omega⟩ : Fin 16)) (Finset.mem_univ _)
    rw [he, ← hxe] at hw
    exact hw
  · next hx =>
    refine View.write_of_not_mem (v := (midxM).access (Rect.unit (s := S2x128) off S1x16.size inb)) (Val := Elt F) W pay Finset.univ ?_
    intro hmem
    rw [View.setOn_univ] at hmem
    obtain ⟨y, -, hy⟩ := Finset.mem_map.mp hmem
    obtain ⟨a, ℓ, rfl⟩ : ∃ (a : Fin 1) (ℓ : Fin 16), y = ix2 a ℓ := ⟨y 0, y 1, eq_ix2 y⟩
    have ha : a = 0 := Subsingleton.elim _ _
    subst ha
    have hℓ := ℓ.isLt
    have he := midxWin_emb off inb h c0 hoff ℓ (by omega)
    have : (x 1).val = c0 + ℓ.val := by
      have := congrFun (hy.symm.trans he) 1
      exact congrArg Fin.val this
    omega

/-! ## The payload of a window, lane by lane -/

/-- The sixteen draw indices computed from the word of the window's first position and the window's tokens. -/
def midxPay (bw : BitVec 32) (v : IVec S1x16 32) : IVec S1x16 32 :=
  shapeCast S1x16 (addi (muli (divsi (addi (broadcast S16 bw) (iota .scVector S16 32 [0] iota_S16_d0_w32_scVector))
    (broadcast S16 50#32)) (broadcast S16 1000#32)) (shapeCast S16 v shapeCasts_S1x16_S16)) shapeCasts_S16_S1x16

theorem reshape_1x16 (ℓ : Fin 16) :
    Shape.reshapeEquiv (shapeCasts_S16_S1x16 : S16.ShapeCasts S1x16) (ix2 (0 : Fin 1) ℓ) = (ix1 ℓ : S16.Idx) := by
  refine Shape.reshapeEquiv_eq_of_rowMajor _ ?_
  rw [Shape.rowMajor_val_two, Shape.rowMajor_val_one]
  show ℓ.val = 0 * 16 + ℓ.val
  omega
theorem reshape_16 (ℓ : Fin 16) :
    Shape.reshapeEquiv (shapeCasts_S1x16_S16 : S1x16.ShapeCasts S16) (ix1 ℓ) = (ix2 (0 : Fin 1) ℓ : S1x16.Idx) := by
  refine Shape.reshapeEquiv_eq_of_rowMajor _ ?_
  rw [Shape.rowMajor_val_two, Shape.rowMajor_val_one]
  show 0 * 16 + ℓ.val = ℓ.val
  omega

/-- Lane `ℓ` of the payload is the draw index of position `b + ℓ` and the lane's token. -/
theorem midxPay_lane (bw : BitVec 32) (b : ℕ) (hbw : bw = BitVec.ofNat 32 b) (hb : b + 16 ≤ 204800) (v : IVec S1x16 32) (ℓ : Fin 16)
    (ht : (v (ix2 (0 : Fin 1) ℓ)).toNat < 1000) :
    midxPay bw v (ix2 (0 : Fin 1) ℓ) = BitVec.ofNat 32 ((b + ℓ.val) / 50 * 1000 + (v (ix2 (0 : Fin 1) ℓ)).toNat) := by
  subst hbw
  unfold midxPay
  have e2 : (shapeCast S16 v shapeCasts_S1x16_S16 : IVec S16 32) (ix1 ℓ) = v (ix2 (0 : Fin 1) ℓ) := by
    show v (Shape.reshapeEquiv (shapeCasts_S1x16_S16 : S1x16.ShapeCasts S16) (ix1 ℓ)) = _
    rw [reshape_16]
  show (addi (muli (divsi (addi (broadcast S16 (BitVec.ofNat 32 b)) (iota .scVector S16 32 [0] iota_S16_d0_w32_scVector))
      (broadcast S16 50#32)) (broadcast S16 1000#32)) (shapeCast S16 v shapeCasts_S1x16_S16))
      (Shape.reshapeEquiv (shapeCasts_S16_S1x16 : S16.ShapeCasts S1x16) (ix2 (0 : Fin 1) ℓ)) = _
  rw [reshape_1x16, midx_lanes b _ ℓ hb (by rw [e2]; exact ht), e2]

/-! ## The tokens a window's load reads -/

/-- Lane `ℓ` of a sixteen-lane load from row `c` of the token scratch at lane `c0` is the token of row `c0 + ℓ` of chunk `c`. -/
theorem idx16_read (m : (ℓ : Loc nD τ sig) → Buf (Elt F) ℓ) (d : Dev nD) (L : grid0.Coords) (off : Fin 2 → ℕ)
    (inb : ∀ a, off a + S1x16.size a ≤ S50x128.size a) (c : Fin 50) (c0 : ℕ) (hoff : off = ![c.val, c0]) (hc0 : c0 + 16 ≤ 128) (ℓ : Fin 16) :
    View.readAt (Elt F) (idxM).view (Rect.unit (s := S50x128) off S1x16.size inb).toLoadRect (idxVal m d L) (ix2 (0 : Fin 1) ℓ)
      = tokC m d L c.val (c0 + ℓ.val) := by
  subst hoff
  have hℓ := ℓ.isLt
  have hi : (Rect.unit (s := S50x128) ![c.val, c0] S1x16.size inb).toLoadRect.idx (ix2 (0 : Fin 1) ℓ)
      = (ix2 c (⟨c0 + ℓ.val, by omega⟩ : Fin 128) : S50x128.Idx) := by
    funext k
    apply Fin.ext
    rw [LoadRect.idx_apply]
    match k with
    | ⟨0, _⟩ => show c.val + 1 * 0 = c.val; omega
    | ⟨1, _⟩ => show c0 + 1 * ℓ.val = c0 + ℓ.val; omega
  rw [View.readAt_apply, hi]
  show idxVal m d L (ix2 c (⟨c0 + ℓ.val, by omega⟩ : Fin 128)) = _
  unfold idxVal tokC
  show (tok3V m d : IVec S32x50x128 32) (ix3 _ c _) = (tok3V m d : IVec S32x50x128 32) (ix3 _ _ _)
  have hk : (⟨c.val % 50, Nat.mod_lt _ (by norm_num)⟩ : Fin 50) = c := Fin.ext (Nat.mod_eq_of_lt c.isLt)
  have ha : (⟨(c0 + ℓ.val) % 128, Nat.mod_lt _ (by norm_num)⟩ : Fin 128) = (⟨c0 + ℓ.val, by omega⟩ : Fin 128) :=
    Fin.ext (Nat.mod_eq_of_lt (by omega))
  rw [hk, ha]

/-! ## The word of a window's first position -/

/-- The loop counter is its trip number. -/
theorem iv_word (k : ℕ) : Scf.iv 0#32 1#32 k = BitVec.ofNat 32 k := by
  show 0#32 + BitVec.ofNat 32 k * 1#32 = _
  rw [BitVec.mul_one, BitVec.zero_add]

/-- From the word of the worker's first position and the word of a chunk's number, the word of lane `j16` of the chunk. -/
theorem pos_word (L : grid0.Coords) (v2 kw : BitVec 32) (c j16 : ℕ) (hv2 : v2 = BitVec.ofNat 32 (widN L * 6400))
    (hkw : kw = BitVec.ofNat 32 c) :
    Scalar.addi (Scalar.addi v2 (Scalar.muli kw 128#32)) (BitVec.ofNat 32 j16) = BitVec.ofNat 32 (posN L c j16) := by
  subst hv2; subst hkw
  show BitVec.ofNat 32 (widN L * 6400) + BitVec.ofNat 32 c * BitVec.ofNat 32 128 + BitVec.ofNat 32 j16 = _
  rw [ofNat_mul_word, ofNat_add_word, ofNat_add_word]
  rfl

/-- The same for the first chunk, whose word the body spells as the worker's first position plus zero. -/
theorem pos_word0 (L : grid0.Coords) (v2 : BitVec 32) (j16 : ℕ) (hv2 : v2 = BitVec.ofNat 32 (widN L * 6400)) :
    Scalar.addi (Scalar.addi v2 0#32) (BitVec.ofNat 32 j16) = BitVec.ofNat 32 (posN L 0 j16) := by
  subst hv2
  show BitVec.ofNat 32 (widN L * 6400) + BitVec.ofNat 32 0 + BitVec.ofNat 32 j16 = _
  rw [ofNat_add_word, ofNat_add_word]
  rfl

/-- The odd chunk of trip `k`: its number as the body computes it. -/
theorem odd_chunk_word (k : ℕ) :
    Scalar.addi (Scalar.addi (Scalar.muli 2#32 (Scf.iv 0#32 1#32 k)) 0#32) 1#32 = BitVec.ofNat 32 (2 * k + 1) := by
  rw [iv_word]
  show BitVec.ofNat 32 2 * BitVec.ofNat 32 k + BitVec.ofNat 32 0 + BitVec.ofNat 32 1 = _
  rw [ofNat_mul_word, ofNat_add_word, ofNat_add_word]
/-- The even chunk a trip prepares for the next: its number as the body computes it. -/
theorem even_chunk_word (k : ℕ) :
    Scalar.addi (Scalar.addi (Scalar.muli 2#32 (Scf.iv 0#32 1#32 k)) 1#32) 1#32 = BitVec.ofNat 32 (2 * k + 2) := by
  rw [iv_word]
  show BitVec.ofNat 32 2 * BitVec.ofNat 32 k + BitVec.ofNat 32 1 + BitVec.ofNat 32 1 = _
  rw [ofNat_mul_word, ofNat_add_word, ofNat_add_word]

/-! ## The payload of a window of a chunk -/

/-- The payload of the window at lane `c0` of chunk `c`, computed from the chunk's tokens as loaded, is lane by lane the
    chunk's draw indices. -/
theorem midxPay_chunk [FloatOps F] (m : (ℓ : Loc nD τ sig) → Buf (Elt F) ℓ) (hpre : PreOK m) (d : Dev nD) (L : grid0.Coords)
    (c : Fin 50) (c0 : ℕ) (hc0 : c0 + 16 ≤ 128) (bw : BitVec 32) (hbw : bw = BitVec.ofNat 32 (posN L c.val c0))
    (off : Fin 2 → ℕ) (inb : ∀ a, off a + S1x16.size a ≤ S50x128.size a) (hoff : off = ![c.val, c0]) (ℓ : Fin 16) :
    midxPay bw (View.readAt (Elt F) (idxM).view (Rect.unit (s := S50x128) off S1x16.size inb).toLoadRect (idxVal m d L)) (ix2 (0 : Fin 1) ℓ)
      = BitVec.ofNat 32 (midxN m d L c.val (c0 + ℓ.val)) := by
  have hℓ := ℓ.isLt
  have hr := idx16_read m d L off inb c c0 hoff hc0 ℓ
  have hp : posN L c.val c0 + 16 ≤ 204800 := by
    have := posN_lt L c.val (c0 + 15) c.isLt (by omega)
    unfold posN at this ⊢; omega
  rw [midxPay_lane bw (posN L c.val c0) hbw hp _ ℓ (by rw [hr]; exact tokC_lt m hpre d L c.val (c0 + ℓ.val)), hr]
  unfold midxN posN
  congr 2
  omega

/-! ## The payloads of the odd chunk's eight windows, as the body names them -/

section Named
variable [FloatOps F]

theorem k0_pay2_eq (v2 v156 : BitVec 32) (v : IVec S1x16 32) :
    k0_pay2 (F := F) v2 v156 v = midxPay (Scalar.addi (Scalar.addi v2 (Scalar.muli (Scalar.addi v156 1#32) 128#32)) 0#32) v := rfl
theorem k0_pay4_eq (v2 v156 : BitVec 32) (v : IVec S1x16 32) :
    k0_pay4 (k0_pay3 (F := F) v2 v156 v) = midxPay (Scalar.addi (Scalar.addi v2 (Scalar.muli (Scalar.addi v156 1#32) 128#32)) 16#32) v := rfl
theorem k0_pay5_eq (v394 : BitVec 32) (v : IVec S1x16 32) : k0_pay5 (F := F) v394 v = midxPay (Scalar.addi v394 32#32) v := rfl
theorem k0_pay6_eq (v394 : BitVec 32) (v : IVec S1x16 32) : k0_pay6 (F := F) v394 v = midxPay (Scalar.addi v394 48#32) v := rfl
theorem k0_pay8_eq (v394 : BitVec 32) (v : IVec S1x16 32) : k0_pay8 (F := F) (k0_pay7 v394) v = midxPay (Scalar.addi v394 64#32) v := rfl
theorem k0_pay9_eq (v394 : BitVec 32) (v : IVec S1x16 32) : k0_pay9 (F := F) v394 v = midxPay (Scalar.addi v394 80#32) v := rfl
theorem k0_pay10_eq (v394 : BitVec 32) (v : IVec S1x16 32) : k0_pay10 (F := F) v394 v = midxPay (Scalar.addi v394 96#32) v := rfl
theorem k0_pay352_eq (v507 : BitVec 32) (v : IVec S1x16 32) : k0_pay352 (F := F) v507 v = midxPay v507 v := rfl

end Named

/-! ## The payloads of the even chunk's eight windows, as the body names them -/

section NamedEven
variable [FloatOps F]

theorem k0_pay177_eq (v2 v272 : BitVec 32) (v : IVec S1x16 32) :
    k0_pay177 (F := F) v2 v272 v = midxPay (Scalar.addi (Scalar.addi v2 (Scalar.muli (Scalar.addi v272 1#32) 128#32)) 0#32) v := rfl
theorem k0_pay179_eq (v2 v272 : BitVec 32) (v : IVec S1x16 32) :
    k0_pay179 (k0_pay178 (F := F) v2 v272 v) = midxPay (Scalar.addi (Scalar.addi v2 (Scalar.muli (Scalar.addi v272 1#32) 128#32)) 16#32) v := rfl
theorem k0_pay180_eq (v394 : BitVec 32) (v : IVec S1x16 32) : k0_pay180 (F := F) v394 v = midxPay (Scalar.addi v394 32#32) v := rfl
theorem k0_pay181_eq (v394 : BitVec 32) (v : IVec S1x16 32) : k0_pay181 (F := F) v394 v = midxPay (Scalar.addi v394 48#32) v := rfl
theorem k0_pay183_eq (v394 : BitVec 32) (v : IVec S1x16 32) : k0_pay183 (F := F) (k0_pay182 v394) v = midxPay (Scalar.addi v394 64#32) v := rfl
theorem k0_pay184_eq (v394 : BitVec 32) (v : IVec S1x16 32) : k0_pay184 (F := F) v394 v = midxPay (Scalar.addi v394 80#32) v := rfl
theorem k0_pay185_eq (v394 : BitVec 32) (v : IVec S1x16 32) : k0_pay185 (F := F) v394 v = midxPay (Scalar.addi v394 96#32) v := rfl
theorem k0_pay366_eq (v507 : BitVec 32) (v : IVec S1x16 32) : k0_pay366 (F := F) v507 v = midxPay v507 v := rfl

end NamedEven

/-! ## Eight stores fill the row -/

variable (m : (ℓ : Loc nD τ sig) → Buf (Elt F) ℓ)

/-- One more window: if the row holds the chunk's draw indices below lane `16 j`, after the store of window `j` it holds
    them below lane `16 (j + 1)`. -/
theorem midx_fill_step (d : Dev nD) (L : grid0.Coords) (c : ℕ) (h : Fin 2) (j : ℕ) (hj : j < 8)
    (off : Fin 2 → ℕ) (inb : ∀ a, off a + S1x16.size a ≤ S2x128.size a) (hoff : off = ![h.val, 16 * j])
    (W : Buf (Elt F) ((thrV d L).loc cc0_scratch1)) (pay : IVec S1x16 32)
    (hpay : ∀ ℓ : Fin 16, pay (ix2 (0 : Fin 1) ℓ) = BitVec.ofNat 32 (midxN m d L c (16 * j + ℓ.val)))
    (hW : ∀ x : S2x128.Idx, (x 0).val = h.val → (x 1).val < 16 * j → W x = midxVal m d L c x) :
    ∀ x : S2x128.Idx, (x 0).val = h.val → (x 1).val < 16 * (j + 1) →
      View.write (Elt F) ((midxM).access (Rect.unit (s := S2x128) off S1x16.size inb)) W pay Finset.univ x = midxVal m d L c x := by
  intro x hx0 hx1
  rw [midx_write_step off inb h (16 * j) hoff (by omega) W pay x hx0]
  split
  · next hx =>
    rw [hpay]
    show BitVec.ofNat 32 (midxN m d L c (16 * j + ((x 1).val - 16 * j))) = BitVec.ofNat 32 (midxN m d L c (x 1).val)
    rw [show 16 * j + ((x 1).val - 16 * j) = (x 1).val by omega]
  · next hx => exact hW x hx0 (by omega)

/-- After the eight stores, each of its window's draw indices, the row holds the chunk's draw indices. -/
theorem midx_row_filled (d : Dev nD) (L : grid0.Coords) (c : ℕ) (h : Fin 2)
    (W0 : Buf (Elt F) ((thrV d L).loc cc0_scratch1))
    (o0 o1 o2 o3 o4 o5 o6 o7 : Fin 2 → ℕ)
    (i0 : ∀ a, o0 a + S1x16.size a ≤ S2x128.size a) (i1 : ∀ a, o1 a + S1x16.size a ≤ S2x128.size a)
    (i2 : ∀ a, o2 a + S1x16.size a ≤ S2x128.size a) (i3 : ∀ a, o3 a + S1x16.size a ≤ S2x128.size a)
    (i4 : ∀ a, o4 a + S1x16.size a ≤ S2x128.size a) (i5 : ∀ a, o5 a + S1x16.size a ≤ S2x128.size a)
    (i6 : ∀ a, o6 a + S1x16.size a ≤ S2x128.size a) (i7 : ∀ a, o7 a + S1x16.size a ≤ S2x128.size a)
    (e0 : o0 = ![h.val, 0]) (e1 : o1 = ![h.val, 16]) (e2 : o2 = ![h.val, 32]) (e3 : o3 = ![h.val, 48])
    (e4 : o4 = ![h.val, 64]) (e5 : o5 = ![h.val, 80]) (e6 : o6 = ![h.val, 96]) (e7 : o7 = ![h.val, 112])
    (p0 p1 p2 p3 p4 p5 p6 p7 : IVec S1x16 32)
    (h0 : ∀ ℓ : Fin 16, p0 (ix2 (0 : Fin 1) ℓ) = BitVec.ofNat 32 (midxN m d L c (0 + ℓ.val)))
    (h1 : ∀ ℓ : Fin 16, p1 (ix2 (0 : Fin 1) ℓ) = BitVec.ofNat 32 (midxN m d L c (16 + ℓ.val)))
    (h2 : ∀ ℓ : Fin 16, p2 (ix2 (0 : Fin 1) ℓ) = BitVec.ofNat 32 (midxN m d L c (32 + ℓ.val)))
    (h3 : ∀ ℓ : Fin 16, p3 (ix2 (0 : Fin 1) ℓ) = BitVec.ofNat 32 (midxN m d L c (48 + ℓ.val)))
    (h4 : ∀ ℓ : Fin 16, p4 (ix2 (0 : Fin 1) ℓ) = BitVec.ofNat 32 (midxN m d L c (64 + ℓ.val)))
    (h5 : ∀ ℓ : Fin 16, p5 (ix2 (0 : Fin 1) ℓ) = BitVec.ofNat 32 (midxN m d L c (80 + ℓ.val)))
    (h6 : ∀ ℓ : Fin 16, p6 (ix2 (0 : Fin 1) ℓ) = BitVec.ofNat 32 (midxN m d L c (96 + ℓ.val)))
    (h7 : ∀ ℓ : Fin 16, p7 (ix2 (0 : Fin 1) ℓ) = BitVec.ofNat 32 (midxN m d L c (112 + ℓ.val))) :
    ∀ x : S2x128.Idx, (x 0).val = h.val →
      View.write (Elt F) ((midxM).access (Rect.unit (s := S2x128) o7 S1x16.size i7))
        (View.write (Elt F) ((midxM).access (Rect.unit (s := S2x128) o6 S1x16.size i6))
          (View.write (Elt F) ((midxM).access (Rect.unit (s := S2x128) o5 S1x16.size i5))
            (View.write (Elt F) ((midxM).access (Rect.unit (s := S2x128) o4 S1x16.size i4))
              (View.write (Elt F) ((midxM).access (Rect.unit (s := S2x128) o3 S1x16.size i3))
                (View.write (Elt F) ((midxM).access (Rect.unit (s := S2x128) o2 S1x16.size i2))
                  (View.write (Elt F) ((midxM).access (Rect.unit (s := S2x128) o1 S1x16.size i1))
                    (View.write (Elt F) ((midxM).access (Rect.unit (s := S2x128) o0 S1x16.size i0)) W0 p0 Finset.univ)
                    p1 Finset.univ) p2 Finset.univ) p3 Finset.univ) p4 Finset.univ) p5 Finset.univ) p6 Finset.univ) p7 Finset.univ x
      = midxVal m d L c x := by
  intro x hx0
  have s0 := midx_fill_step m d L c h 0 (by omega) o0 i0 e0 W0 p0 h0 (fun x _ hx => absurd hx (by omega))
  have s1 := midx_fill_step m d L c h 1 (by omega) o1 i1 e1 _ p1 h1 s0
  have s2 := midx_fill_step m d L c h 2 (by omega) o2 i2 e2 _ p2 h2 s1
  have s3 := midx_fill_step m d L c h 3 (by omega) o3 i3 e3 _ p3 h3 s2
  have s4 := midx_fill_step m d L c h 4 (by omega) o4 i4 e4 _ p4 h4 s3
  have s5 := midx_fill_step m d L c h 5 (by omega) o5 i5 e5 _ p5 h5 s4
  have s6 := midx_fill_step m d L c h 6 (by omega) o6 i6 e6 _ p6 h6 s5
  have s7 := midx_fill_step m d L c h 7 (by omega) o7 i7 e7 _ p7 h7 s6
  have hx1 : (x 1).val < 128 := (x 1).isLt
  exact s7 x hx0 (by show (x 1).val < 16 * (7 + 1); omega)

/-- Membership in a row of the draw-index scratch, by its first coordinate. -/
theorem mem_midx0H (x : S2x128.Idx) (hx : x ∈ (midx0H).view.set) : (x 0).val = (0 : Fin 2).val := by
  rw [set_midx0H] at hx
  have := Rect.mem_set_unit.mp hx ⟨0, by decide⟩
  show (x 0).val = 0
  have h2 : (x 0).val < 0 + 1 := this.2
  omega
theorem mem_midx1H (x : S2x128.Idx) (hx : x ∈ (midx1H).view.set) : (x 0).val = (1 : Fin 2).val := by
  rw [set_midx1H] at hx
  have := Rect.mem_set_unit.mp hx ⟨0, by decide⟩
  show (x 0).val = 1
  have h1 : 1 ≤ (x 0).val := this.1
  have h2 : (x 0).val < 1 + 1 := this.2
  omega

end Cert.KI

end
-- ==== Proof.KI.OutVal.lean ====
/-
  The flat result, chunk by chunk.  Row `6400 w + 128 c + r` of the flat result is the table's row of the token of row
  r of chunk c, scaled by the draw of that row: the position's group is w, its chunk c and its lane r, its batch row is
  the position divided by fifty, and a token below 1000 names itself; so the flat result's rows of chunk c are the
  gathered rows of chunk c times the chunk's scales, whichever half of the row scratch they sit in.
-/
import proofs.«206556_g62818191671566_cont_9to1_m_1093_40_alg».proof.Proof.KI.Sets
import proofs.«206556_g62818191671566_cont_9to1_m_1093_40_alg».proof.Proof.KI.GatherVal

noncomputable section

namespace Cert.KI

open Cert.KernelIdeal Cert.KernelIdeal.Gen

open Idealize.ShloMosaic
open Idealize.ShloMosaic.SparseCore (S V T)
open Idealize.ShloMosaic.ValueIdx

variable {F : FTy → Type}

/-! ## An array at two spellings of one index -/

theorem at_ix1_congr {α : Type} {n : ℕ} (f : (⟨1, ![n]⟩ : Shape).Idx → α) {a a' : Fin n} (ha : a.val = a'.val) :
    f (ix1 a) = f (ix1 a') := by
  obtain rfl : a = a' := Fin.ext ha
  rfl

theorem at_ix2_congr {α : Type} {n0 n1 : ℕ} (f : (⟨2, ![n0, n1]⟩ : Shape).Idx → α) {a a' : Fin n0} {b b' : Fin n1}
    (ha : a.val = a'.val) (hb : b.val = b'.val) : f (ix2 a b) = f (ix2 a' b') := by
  obtain rfl : a = a' := Fin.ext ha
  obtain rfl : b = b' := Fin.ext hb
  rfl

theorem at_ix3_congr {α : Type} {n0 n1 n2 : ℕ} (f : (⟨3, ![n0, n1, n2]⟩ : Shape).Idx → α) {a a' : Fin n0} {b b' : Fin n1}
    {c c' : Fin n2} (ha : a.val = a'.val) (hb : b.val = b'.val) (hc : c.val = c'.val) :
    f (ix3 a b c) = f (ix3 a' b' c') := by
  obtain rfl : a = a' := Fin.ext ha
  obtain rfl : b = b' := Fin.ext hb
  obtain rfl : c = c' := Fin.ext hc
  rfl

variable [FloatOps F] (m : (ℓ : Loc nD τ sig) → Buf (Elt F) ℓ)

/-! ## A row of the flat result -/

/-- Row `posN L c r`, column dd of the flat result is entry (r, dd) of chunk c's scaled rows, on either half. -/
theorem outV_prod (hpre : PreOK m) (d : Dev nD) (L : grid0.Coords) (c : ℕ) (hc : c < 50) (h : Fin 2) (r : Fin 128)
    (dd : Fin 128) (hlt : posN L c r.val < 204800) :
    (outV m d : FVec F S204800x128 .f32) (ix2 (⟨posN L c r.val, hlt⟩ : Fin 204800) dd)
      = (prodVal m d L c : FVec F S2x128x128 .f32) (ix3 h r dd) := by
  have hw : widN L < 32 := wid_lt L
  have hr : r.val < 128 := r.isLt
  have hd : dd.val < 128 := dd.isLt
  have hn : posN L c r.val = widN L * 6400 + c * 128 + r.val := rfl
  have hrr : r.val % 128 % 128 = r.val := by omega
  have q1 : posN L c r.val / 6400 < 32 := by omega
  have q2 : posN L c r.val % 6400 / 128 < 50 := by omega
  have q3 : posN L c r.val % 128 < 128 := by omega
  -- the token of the position is the token of row r of chunk c
  have htok : (tok3V m d : IVec S32x50x128 32)
      (ix3 (⟨posN L c r.val / 6400, q1⟩ : Fin 32) (⟨posN L c r.val % 6400 / 128, q2⟩ : Fin 50)
        (⟨posN L c r.val % 128, q3⟩ : Fin 128)) = tokC m d L c r.val := by
    unfold tokC
    refine at_ix3_congr _ ?_ ?_ ?_
    · show posN L c r.val / 6400 = 2 * (L 1).val + (L 0).val
      have : widN L = 2 * (L 1).val + (L 0).val := rfl
      omega
    · show posN L c r.val % 6400 / 128 = c % 50; omega
    · show posN L c r.val % 128 = r.val % 128; omega
  have htl : (tokC m d L c r.val).toNat < 1000 := tokC_lt m hpre d L c r.val
  have hml : midxN m d L c r.val < 4096000 := midxN_lt m hpre d L c r.val hc hr
  have q4 : posN L c r.val / 50 * 1000 + (Cert.Spec.row (tokC m d L c r.val)).val < 4096000 := by
    have := (Cert.Spec.row (tokC m d L c r.val)).isLt; omega
  have q5 : dd.val % 128 < 128 := by omega
  have q6 : midxN m d L c (r.val % 128 % 128) % 4096000 < 4096000 := Nat.mod_lt _ (by norm_num)
  -- both sides, spelt out
  show FloatOps.mulf
      ((m (tabLoc d) : FVec F S1000x128 .f32) (ix2 (Cert.Spec.row ((tok3V m d : IVec S32x50x128 32)
        (ix3 (⟨posN L c r.val / 6400, q1⟩ : Fin 32) (⟨posN L c r.val % 6400 / 128, q2⟩ : Fin 50)
          (⟨posN L c r.val % 128, q3⟩ : Fin 128)))) dd))
      (Scalar.select (FloatOps.cmpf .olt ((uflatV m d : FVec F S4096000 .f32)
          (ix1 (⟨posN L c r.val / 50 * 1000 + (Cert.Spec.row ((tok3V m d : IVec S32x50x128 32)
            (ix3 (⟨posN L c r.val / 6400, q1⟩ : Fin 32) (⟨posN L c r.val % 6400 / 128, q2⟩ : Fin 50)
              (⟨posN L c r.val % 128, q3⟩ : Fin 128)))).val, _⟩ : Fin 4096000)))
          (Scalar.ofBits .f32 0x3F000000#32)) (Scalar.ofBits .f32 0x40000000#32) (Scalar.ofBits .f32 0x00000000#32))
    = FloatOps.mulf
      ((m (tabLoc d) : FVec F S1000x128 .f32) (ix2 (Cert.Spec.row (tokC m d L c r.val)) (⟨dd.val % 128, q5⟩ : Fin 128)))
      (Scalar.select (FloatOps.cmpf .olt ((uflatV m d : FVec F S4096000 .f32)
          (ix1 (⟨midxN m d L c (r.val % 128 % 128) % 4096000, q6⟩ : Fin 4096000)))
          (Scalar.ofBits .f32 0x3F000000#32)) (Scalar.ofBits .f32 0x40000000#32) (Scalar.ofBits .f32 0x00000000#32))
  have hT : (m (tabLoc d) : FVec F S1000x128 .f32) (ix2 (Cert.Spec.row ((tok3V m d : IVec S32x50x128 32)
        (ix3 (⟨posN L c r.val / 6400, q1⟩ : Fin 32) (⟨posN L c r.val % 6400 / 128, q2⟩ : Fin 50)
          (⟨posN L c r.val % 128, q3⟩ : Fin 128)))) dd)
      = (m (tabLoc d) : FVec F S1000x128 .f32) (ix2 (Cert.Spec.row (tokC m d L c r.val)) (⟨dd.val % 128, q5⟩ : Fin 128)) := by
    rw [htok]
    exact at_ix2_congr _ rfl (by show dd.val = dd.val % 128; omega)
  have hU : ∀ (q : posN L c r.val / 50 * 1000 + (Cert.Spec.row ((tok3V m d : IVec S32x50x128 32)
        (ix3 (⟨posN L c r.val / 6400, q1⟩ : Fin 32) (⟨posN L c r.val % 6400 / 128, q2⟩ : Fin 50)
          (⟨posN L c r.val % 128, q3⟩ : Fin 128)))).val < 4096000),
      (uflatV m d : FVec F S4096000 .f32) (ix1 (⟨_, q⟩ : Fin 4096000))
      = (uflatV m d : FVec F S4096000 .f32) (ix1 (⟨midxN m d L c (r.val % 128 % 128) % 4096000, q6⟩ : Fin 4096000)) := by
    intro q
    refine at_ix1_congr _ ?_
    show posN L c r.val / 50 * 1000 + (Cert.Spec.row ((tok3V m d : IVec S32x50x128 32) _)).val
      = midxN m d L c (r.val % 128 % 128) % 4096000
    rw [htok, hrr, Cert.Spec.row_val_of_lt htl, Nat.mod_eq_of_lt hml]
    rfl
  rw [hT, hU]

/-! ## A chunk of the flat result -/

/-- Contents of the flat result that hold chunk c's scaled rows at chunk c's rows agree there with the final value. -/
theorem chunk_agree (hpre : PreOK m) (d : Dev nD) (L : grid0.Coords) (c : ℕ) (hc : c < 50) (h : Fin 2)
    (g : Buf (Elt F) (outLoc d))
    (hg : ∀ (r dd : Fin 128) (hlt : posN L c r.val < 204800),
      (g : FVec F S204800x128 .f32) (ix2 (⟨posN L c r.val, hlt⟩ : Fin 204800) dd)
        = (prodVal m d L c : FVec F S2x128x128 .f32) (ix3 h r dd)) :
    ∀ x ∈ chunkSet L c, g x = outV m d x := by
  intro x hx
  have hx' := (mem_chunkSet L c x).mp hx
  rw [Nat.mod_eq_of_lt hc] at hx'
  have hrlt : (x 0).val - widN L * 6400 - c * 128 < 128 := by omega
  have hpos : posN L c ((x 0).val - widN L * 6400 - c * 128) = (x 0).val := by unfold posN; omega
  have hlt : posN L c ((x 0).val - widN L * 6400 - c * 128) < 204800 := by rw [hpos]; exact idx2_lt0 x
  have hxe : x = ix2 (⟨posN L c (⟨(x 0).val - widN L * 6400 - c * 128, hrlt⟩ : Fin 128).val, hlt⟩ : Fin 204800)
      (x 1 : Fin 128) := by
    funext a
    match a with
    | ⟨0, _⟩ => exact Fin.ext hpos.symm
    | ⟨1, _⟩ => rfl
  have e1 := hg (⟨(x 0).val - widN L * 6400 - c * 128, hrlt⟩ : Fin 128) (x 1 : Fin 128) hlt
  have e2 := outV_prod m hpre d L c hc h (⟨(x 0).val - widN L * 6400 - c * 128, hrlt⟩ : Fin 128) (x 1 : Fin 128) hlt
  have f1 : g x = (prodVal m d L c : FVec F S2x128x128 .f32)
      (ix3 h (⟨(x 0).val - widN L * 6400 - c * 128, hrlt⟩ : Fin 128) (x 1 : Fin 128)) :=
    (congrArg (g : FVec F S204800x128 .f32) hxe).trans e1
  have f2 : outV m d x = (prodVal m d L c : FVec F S2x128x128 .f32)
      (ix3 h (⟨(x 0).val - widN L * 6400 - c * 128, hrlt⟩ : Fin 128) (x 1 : Fin 128)) :=
    (congrArg (outV m d : FVec F S204800x128 .f32) hxe).trans e2
  exact f1.trans f2.symm

end Cert.KI

end
-- ==== Proof.KI.Norm.lean ====
/-
  What an indexed gather delivers at its wait, in the loop invariant's own words.  The rule states the delivery over
  the block or list the gather names and the payload it computed; the invariant states it over the half or row of the
  buffer and the buffer's canonical contents.  The two agree: the gathered block holds the chunk's rows (or draws) on
  its elements, a block or list and the half or row it was squeezed from have the same elements, and a source named
  by the whole rectangle is the whole array.
-/
import proofs.«206556_g62818191671566_cont_9to1_m_1093_40_alg».proof.Proof.KI.Inv
import proofs.«206556_g62818191671566_cont_9to1_m_1093_40_alg».proof.Proof.KI.Respell
import proofs.«206556_g62818191671566_cont_9to1_m_1093_40_alg».proof.Proof.KI.GatherVal
import proofs.«206556_g62818191671566_cont_9to1_m_1093_40_alg».proof.Proof.KI.MidxVal
import proofs.«206556_g62818191671566_cont_9to1_m_1093_40_alg».proof.Proof.KI.OutVal

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ) (d : Dev nD) (L : grid0.Coords)

/-! ## The rows' gathers -/

/-- The rows' gather of the odd chunk of trip `k`, into the second half. -/
theorem norm_r1 (k : Fin k0_t1_loop.trips) (h4 : k0_cond4 k = 1#1) (old : Buf (Elt F) ((thrV d L).loc cc0_scratch4))
    (hn : S128.numel = S128x128.size gathers_S1000x128_S128x128.axis')
    (hin : ∀ x, ((idxList (k0_off3 k) (k0_off3_inb k h4)).view.read (Elt F) (idxVal m d L) x).toNat < S1000x128.size gathers_S1000x128_S128x128.axis) :
    (iprop(((rows1G).view.loc (thrV d L) ↦[(rows1G).view.set]{fullShare}
          View.write (Elt F) (rows1G).view old (SparseCore.gatherPayload gathers_S1000x128_S128x128
            (View.read (Elt F) (spmAll).view (tabSh m d (cV L)))
            (SparseCore.rows (View.read (Elt F) (idxList (k0_off3 k) (k0_off3_inb k h4)).view (idxVal m d L)) hn hin)) Finset.univ)
        ∗ ((spmAll).view.loc (thrV d L) ↦[(spmAll).view.set]{qSb L} tabSh m d (cV L))
        ∗ ((idxList (k0_off3 k) (k0_off3_inb k h4)).view.loc (thrV d L) ↦[(idxList (k0_off3 k) (k0_off3_inb k h4)).view.set]{qIb} idxVal m d L)) : sProp 𝕄)
      ⊢ Dr1 m d L (2 * k.val + 1) := by
  have hk := trip_lt k
  unfold Dr1
  have eA : ((rows1G).view.loc (thrV d L) ↦[(rows1G).view.set]{fullShare}
        View.write (Elt F) (rows1G).view old (SparseCore.gatherPayload gathers_S1000x128_S128x128
          (View.read (Elt F) (spmAll).view (tabSh m d (cV L)))
          (SparseCore.rows (View.read (Elt F) (idxList (k0_off3 k) (k0_off3_inb k h4)).view (idxVal m d L)) hn hin)) Finset.univ : sProp 𝕄)
      = ((rows1H).view.loc (thrV d L) ↦[(rows1H).view.set]{fullShare} rowsVal m d L (2 * k.val + 1)) := by
    rw [respell_rowsG1 d L fullShare (rowsVal m d L (2 * k.val + 1))]
    exact pointsTo_congr (rows_gathered m d L (⟨2 * k.val + 1, by omega⟩ : Fin 50) (1 : Fin 2) _ _ rfl _ _ (k0_off3_eq k) old hn hin)
  have eB : ((spmAll).view.loc (thrV d L) ↦[(spmAll).view.set]{qSb L} tabSh m d (cV L) : sProp 𝕄)
      = ((spmM).view.loc (thrV d L) ↦{qSb L} tabSh m d (cV L)) := (respell_spmAll d L (qSb L) (tabSh m d (cV L))).symm
  have eC : ((idxList (k0_off3 k) (k0_off3_inb k h4)).view.loc (thrV d L) ↦[(idxList (k0_off3 k) (k0_off3_inb k h4)).view.set]{qIb} idxVal m d L : sProp 𝕄)
      = ((idxM).view.loc (thrV d L) ↦[idxRowSet (2 * k.val + 1)]{qIb} idxVal m d L) := by
    rw [← set_idxRowA k h4]
  rw [eA, eB, eC]

/-- The rows' gather of the even chunk a trip issues for the next one, into the first half. -/
theorem norm_r0 (k : Fin k0_t1_loop.trips) (h6 : k0_cond6 k = 1#1) (old : Buf (Elt F) ((thrV d L).loc cc0_scratch4))
    (hn : S128.numel = S128x128.size gathers_S1000x128_S128x128.axis')
    (hin : ∀ x, ((idxList (k0_off23 k) (k0_off23_inb k h6)).view.read (Elt F) (idxVal m d L) x).toNat < S1000x128.size gathers_S1000x128_S128x128.axis) :
    (iprop(((rows0G).view.loc (thrV d L) ↦[(rows0G).view.set]{fullShare}
          View.write (Elt F) (rows0G).view old (SparseCore.gatherPayload gathers_S1000x128_S128x128
            (View.read (Elt F) (spmAll).view (tabSh m d (cV L)))
            (SparseCore.rows (View.read (Elt F) (idxList (k0_off23 k) (k0_off23_inb k h6)).view (idxVal m d L)) hn hin)) Finset.univ)
        ∗ ((spmAll).view.loc (thrV d L) ↦[(spmAll).view.set]{qSa L} tabSh m d (cV L))
        ∗ ((idxList (k0_off23 k) (k0_off23_inb k h6)).view.loc (thrV d L) ↦[(idxList (k0_off23 k) (k0_off23_inb k h6)).view.set]{qIa} idxVal m d L)) : sProp 𝕄)
      ⊢ Dr0 m d L (2 * k.val + 2) := by
  have hk := cond6_lt k h6
  unfold Dr0
  have eA : ((rows0G).view.loc (thrV d L) ↦[(rows0G).view.set]{fullShare}
        View.write (Elt F) (rows0G).view old (SparseCore.gatherPayload gathers_S1000x128_S128x128
          (View.read (Elt F) (spmAll).view (tabSh m d (cV L)))
          (SparseCore.rows (View.read (Elt F) (idxList (k0_off23 k) (k0_off23_inb k h6)).view (idxVal m d L)) hn hin)) Finset.univ : sProp 𝕄)
      = ((rows0H).view.loc (thrV d L) ↦[(rows0H).view.set]{fullShare} rowsVal m d L (2 * k.val + 2)) := by
    rw [respell_rowsG0 d L fullShare (rowsVal m d L (2 * k.val + 2))]
    exact pointsTo_congr (rows_gathered m d L (⟨2 * k.val + 2, hk⟩ : Fin 50) (0 : Fin 2) _ _ rfl _ _ (k0_off23_eq k) old hn hin)
  have eB : ((spmAll).view.loc (thrV d L) ↦[(spmAll).view.set]{qSa L} tabSh m d (cV L) : sProp 𝕄)
      = ((spmM).view.loc (thrV d L) ↦{qSa L} tabSh m d (cV L)) := (respell_spmAll d L (qSa L) (tabSh m d (cV L))).symm
  have eC : ((idxList (k0_off23 k) (k0_off23_inb k h6)).view.loc (thrV d L) ↦[(idxList (k0_off23 k) (k0_off23_inb k h6)).view.set]{qIa} idxVal m d L : sProp 𝕄)
      = ((idxM).view.loc (thrV d L) ↦[idxRowSet (2 * k.val + 2)]{qIa} idxVal m d L) := by
    rw [← set_idxRowB k h6]
  rw [eA, eB, eC]

/-- The rows' gather of the first chunk, before the loop. -/
theorem norm_r0_first (old : Buf (Elt F) ((thrV d L).loc cc0_scratch4))
    (hn : S128.numel = S128x128.size gathers_S1000x128_S128x128.axis')
    (hin : ∀ x, ((idxList ![0, 0] inb_S50x128_S1x128_0_0).view.read (Elt F) (idxVal m d L) x).toNat < S1000x128.size gathers_S1000x128_S128x128.axis) :
    (iprop(((rows0G).view.loc (thrV d L) ↦[(rows0G).view.set]{fullShare}
          View.write (Elt F) (rows0G).view old (SparseCore.gatherPayload gathers_S1000x128_S128x128
            (View.read (Elt F) (spmAll).view (tabSh m d (cV L)))
            (SparseCore.rows (View.read (Elt F) (idxList ![0, 0] inb_S50x128_S1x128_0_0).view (idxVal m d L)) hn hin)) Finset.univ)
        ∗ ((spmAll).view.loc (thrV d L) ↦[(spmAll).view.set]{qSa L} tabSh m d (cV L))
        ∗ ((idxList ![0, 0] inb_S50x128_S1x128_0_0).view.loc (thrV d L) ↦[(idxList ![0, 0] inb_S50x128_S1x128_0_0).view.set]{qIa} idxVal m d L)) : sProp 𝕄)
      ⊢ Dr0 m d L 0 := by
  unfold Dr0
  have eA : ((rows0G).view.loc (thrV d L) ↦[(rows0G).view.set]{fullShare}
        View.write (Elt F) (rows0G).view old (SparseCore.gatherPayload gathers_S1000x128_S128x128
          (View.read (Elt F) (spmAll).view (tabSh m d (cV L)))
          (SparseCore.rows (View.read (Elt F) (idxList ![0, 0] inb_S50x128_S1x128_0_0).view (idxVal m d L)) hn hin)) Finset.univ : sProp 𝕄)
      = ((rows0H).view.loc (thrV d L) ↦[(rows0H).view.set]{fullShare} rowsVal m d L 0) := by
    rw [respell_rowsG0 d L fullShare (rowsVal m d L 0)]
    exact pointsTo_congr (rows_gathered m d L (⟨0, by decide⟩ : Fin 50) (0 : Fin 2) _ _ rfl _ _ rfl old hn hin)
  have eB : ((spmAll).view.loc (thrV d L) ↦[(spmAll).view.set]{qSa L} tabSh m d (cV L) : sProp 𝕄)
      = ((spmM).view.loc (thrV d L) ↦{qSa L} tabSh m d (cV L)) := (respell_spmAll d L (qSa L) (tabSh m d (cV L))).symm
  have eC : ((idxList ![0, 0] inb_S50x128_S1x128_0_0).view.loc (thrV d L) ↦[(idxList ![0, 0] inb_S50x128_S1x128_0_0).view.set]{qIa} idxVal m d L : sProp 𝕄)
      = ((idxM).view.loc (thrV d L) ↦[idxRowSet 0]{qIa} idxVal m d L) := by
    rw [← set_idxRow0L]
  rw [eA, eB, eC]

/-! ## The draws' gathers -/

/-- The draws' gather of chunk `c` into the second row. -/
theorem norm_m1 (c : ℕ) (hc : c < 50) (hpre : PreOK m) (old : Buf (Elt F) ((thrV d L).loc cc0_scratch2))
    (hn : S128.numel = S128.size gathers_S4096000_S128.axis')
    (hin : ∀ x, ((midx1L).view.read (Elt F) (midxVal m d L c) x).toNat < S4096000.size gathers_S4096000_S128.axis) :
    (iprop(((mval1L).view.loc (thrV d L) ↦[(mval1L).view.set]{fullShare}
          View.write (Elt F) (mval1L).view old (SparseCore.gatherPayload gathers_S4096000_S128
            (View.read (Elt F) (uAll).view (uflatV m d))
            (SparseCore.rows (View.read (Elt F) (midx1L).view (midxVal m d L c)) hn hin)) Finset.univ)
        ∗ ((uAll).view.loc (thrV d L) ↦[(uAll).view.set]{qUb L} uflatV m d)
        ∗ ((midx1L).view.loc (thrV d L) ↦[(midx1L).view.set]{fullShare.left} midxVal m d L c)) : sProp 𝕄)
      ⊢ Dm1 m d L c := by
  unfold Dm1
  have hN : ∀ r, r < 128 → midxN m d L c r < 4096000 := fun r hr => midxN_lt m hpre d L c r hc hr
  have eA : ((mval1L).view.loc (thrV d L) ↦[(mval1L).view.set]{fullShare}
        View.write (Elt F) (mval1L).view old (SparseCore.gatherPayload gathers_S4096000_S128
          (View.read (Elt F) (uAll).view (uflatV m d))
          (SparseCore.rows (View.read (Elt F) (midx1L).view (midxVal m d L c)) hn hin)) Finset.univ : sProp 𝕄)
      = ((mval1H).view.loc (thrV d L) ↦[(mval1H).view.set]{fullShare} mvalVal m d L c) := by
    rw [respell_mvalL1 d L fullShare (mvalVal m d L c)]
    exact pointsTo_congr (draws_gathered m d L c (1 : Fin 2) (1 : Fin 2) _ _ rfl _ _ rfl hN old hn hin)
  have eB : ((uAll).view.loc (thrV d L) ↦[(uAll).view.set]{qUb L} uflatV m d : sProp 𝕄)
      = ((uM).view.loc (thrV d L) ↦{qUb L} uflatV m d) := (respell_uAll d L (qUb L) (uflatV m d)).symm
  have eC : ((midx1L).view.loc (thrV d L) ↦[(midx1L).view.set]{fullShare.left} midxVal m d L c : sProp 𝕄)
      = ((midx1H).view.loc (thrV d L) ↦[(midx1H).view.set]{fullShare.left} midxVal m d L c) :=
    (respell_midxL1 d L fullShare.left (midxVal m d L c)).symm
  rw [eA, eB, eC]

/-- The draws' gather of chunk `c` into the first row. -/
theorem norm_m0 (c : ℕ) (hc : c < 50) (hpre : PreOK m) (old : Buf (Elt F) ((thrV d L).loc cc0_scratch2))
    (hn : S128.numel = S128.size gathers_S4096000_S128.axis')
    (hin : ∀ x, ((midx0L).view.read (Elt F) (midxVal m d L c) x).toNat < S4096000.size gathers_S4096000_S128.axis) :
    (iprop(((mval0L).view.loc (thrV d L) ↦[(mval0L).view.set]{fullShare}
          View.write (Elt F) (mval0L).view old (SparseCore.gatherPayload gathers_S4096000_S128
            (View.read (Elt F) (uAll).view (uflatV m d))
            (SparseCore.rows (View.read (Elt F) (midx0L).view (midxVal m d L c)) hn hin)) Finset.univ)
        ∗ ((uAll).view.loc (thrV d L) ↦[(uAll).view.set]{qUa L} uflatV m d)
        ∗ ((midx0L).view.loc (thrV d L) ↦[(midx0L).view.set]{fullShare.left} midxVal m d L c)) : sProp 𝕄)
      ⊢ Dm0 m d L c := by
  unfold Dm0
  have hN : ∀ r, r < 128 → midxN m d L c r < 4096000 := fun r hr => midxN_lt m hpre d L c r hc hr
  have eA : ((mval0L).view.loc (thrV d L) ↦[(mval0L).view.set]{fullShare}
        View.write (Elt F) (mval0L).view old (SparseCore.gatherPayload gathers_S4096000_S128
          (View.read (Elt F) (uAll).view (uflatV m d))
          (SparseCore.rows (View.read (Elt F) (midx0L).view (midxVal m d L c)) hn hin)) Finset.univ : sProp 𝕄)
      = ((mval0H).view.loc (thrV d L) ↦[(mval0H).view.set]{fullShare} mvalVal m d L c) := by
    rw [respell_mvalL0 d L fullShare (mvalVal m d L c)]
    exact pointsTo_congr (draws_gathered m d L c (0 : Fin 2) (0 : Fin 2) _ _ rfl _ _ rfl hN old hn hin)
  have eB : ((uAll).view.loc (thrV d L) ↦[(uAll).view.set]{qUa L} uflatV m d : sProp 𝕄)
      = ((uM).view.loc (thrV d L) ↦{qUa L} uflatV m d) := (respell_uAll d L (qUa L) (uflatV m d)).symm
  have eC : ((midx0L).view.loc (thrV d L) ↦[(midx0L).view.set]{fullShare.left} midxVal m d L c : sProp 𝕄)
      = ((midx0H).view.loc (thrV d L) ↦[(midx0H).view.set]{fullShare.left} midxVal m d L c) :=
    (respell_midxL0 d L fullShare.left (midxVal m d L c)).symm
  rw [eA, eB, eC]

end Cert.KI

end
-- ==== Proof.KI.Fold.lean ====
/-
  Folding what a trip leaves back into the loop's invariant at the next trip number: once for a trip that is not the
  last (the next even chunk's gathers are in flight), once for the last (nothing is pending but the last write-out).
  The chunk numbers are written as the trip produces them, `2k + 2` and `2k + 1`.
-/
import proofs.«206556_g62818191671566_cont_9to1_m_1093_40_alg».proof.Proof.KI.Inv

noncomputable section

namespace Cert.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (d : Dev nD) (L : grid0.Coords)
variable (O : CellTallies nD τ sig (HIx 1)) (W : Waits sig (HIx 1))

/-- What every trip leaves alike. -/
abbrev invCommon (k1 : ℕ) (rest : sProp 𝕄) : sProp 𝕄 :=
  iprop(levAts (K (F := F)).L (K (F := F)).lev
    ∗ ((idxM).view.loc (thrV d L) ↦{qIk} idxVal m d L)
    ∗ ((idxM).view.loc (thrV d L) ↦{qIb} idxVal m d L)
    ∗ ((spmM).view.loc (thrV d L) ↦{qSb L} tabSh m d (cV L))
    ∗ ((uM).view.loc (thrV d L) ↦{qUb L} uflatV m d)
    ∗ (∃ f, (midx1H).view.loc (thrV d L) ↦[(midx1H).view.set]{fullShare} f)
    ∗ (∃ f, (mval1H).view.loc (thrV d L) ↦[(mval1H).view.set]{fullShare} f)
    ∗ (∃ f, (scaleM).view.loc (thrV d L) ↦{fullShare} f)
    ∗ semVal ((thrV d L, .dma cc0_scratch7.sem) : GSem nD τ sig) 0
    ∗ semVal ((thrV d L, .dma cc0_scratch9.sem) : GSem nD τ sig) 0
    ∗ semVal ((thrV d L, .dma cc0_scratch10.sem) : GSem nD τ sig) 0
    ∗ outChunks m d L k1
    ∗ rest)

theorem inv_fold_mid (k : ℕ) (hk1 : k + 1 < 25) :
    invCommon m d L (k + 1)
      iprop(iprop(Fr0 m d L (2 * k + 2) ∗ Fm0 m d L (2 * k + 2)
          ∗ ((idxM).view.loc (thrV d L) ↦[Finset.univ \ idxRowSet (2 * k + 2)]{qIa} idxVal m d L)
          ∗ ((midx0H).view.loc (thrV d L) ↦[(midx0H).view.set]{fullShare.right} midxVal m d L (2 * k + 2)))
        ∗ Fw1 m d L (2 * k + 1)
        ∗ ∃ W', ⌜∀ p ∈ W', p ∈ W ∨ p.2 = none ∨ p.2 = some (0 : Fin 1)⌝ ∗ owes (thrV d L) O W')
      ⊢ Inv m d L O W (k + 1) ⟨⟩ := by
  unfold Inv side0 side1 invCommon
  rw [if_pos hk1, if_neg (Nat.succ_ne_zero k), show 2 * (k + 1) = 2 * k + 2 from by ring, show 2 * k + 2 - 1 = 2 * k + 1 from by omega]

theorem inv_fold_last (k : ℕ) (hk1 : k + 1 = 25) :
    invCommon m d L (k + 1)
      iprop(iprop((∃ f, (rows0H).view.loc (thrV d L) ↦[(rows0H).view.set]{fullShare} f)
          ∗ ((spmM).view.loc (thrV d L) ↦{qSa L} tabSh m d (cV L))
          ∗ ((idxM).view.loc (thrV d L) ↦{qIa} idxVal m d L)
          ∗ (∃ f, (mval0H).view.loc (thrV d L) ↦[(mval0H).view.set]{fullShare} f)
          ∗ ((uM).view.loc (thrV d L) ↦{qUa L} uflatV m d)
          ∗ (∃ f, (midx0H).view.loc (thrV d L) ↦[(midx0H).view.set]{fullShare} f)
          ∗ semVal ((thrV d L, .dma cc0_scratch6.sem) : GSem nD τ sig) 0
          ∗ semVal ((thrV d L, .dma cc0_scratch8.sem) : GSem nD τ sig) 0)
        ∗ Fw1 m d L (2 * k + 1)
        ∗ ∃ W', ⌜∀ p ∈ W', p ∈ W ∨ p.2 = none ∨ p.2 = some (0 : Fin 1)⌝ ∗ owes (thrV d L) O W')
      ⊢ Inv m d L O W (k + 1) ⟨⟩ := by
  unfold Inv side0 side1 invCommon
  rw [if_neg (by omega : ¬ k + 1 < 25), if_neg (Nat.succ_ne_zero k), show 2 * (k + 1) - 1 = 2 * k + 1 from by omega]

/-- Entering the loop: the first chunk's gathers in flight, no write-out yet. -/
theorem inv_fold_init :
    invCommon m d L 0
      iprop(iprop(Fr0 m d L 0 ∗ Fm0 m d L 0
          ∗ ((idxM).view.loc (thrV d L) ↦[Finset.univ \ idxRowSet 0]{qIa} idxVal m d L)
          ∗ ((midx0H).view.loc (thrV d L) ↦[(midx0H).view.set]{fullShare.right} midxVal m d L 0))
        ∗ iprop((∃ f, (rows1H).view.loc (thrV d L) ↦[(rows1H).view.set]{fullShare} f)
          ∗ semVal ((thrV d L, .dma cc0_scratch11.sem) : GSem nD τ sig) 0)
        ∗ ∃ W', ⌜∀ p ∈ W', p ∈ W ∨ p.2 = none ∨ p.2 = some (0 : Fin 1)⌝ ∗ owes (thrV d L) O W')
      ⊢ Inv m d L O W 0 ⟨⟩ := by
  unfold Inv side0 side1 invCommon
  rw [if_pos (by norm_num : (0 : ℕ) < 25), if_pos rfl]

/-- Leaving the loop: the first buffer idle with every share home, the last chunk's write-out in flight. -/
theorem inv_unfold_last :
    Inv m d L O W 25 ⟨⟩
      ⊢ invCommon m d L 25
          iprop(iprop((∃ f, (rows0H).view.loc (thrV d L) ↦[(rows0H).view.set]{fullShare} f)
              ∗ ((spmM).view.loc (thrV d L) ↦{qSa L} tabSh m d (cV L))
              ∗ ((idxM).view.loc (thrV d L) ↦{qIa} idxVal m d L)
              ∗ (∃ f, (mval0H).view.loc (thrV d L) ↦[(mval0H).view.set]{fullShare} f)
              ∗ ((uM).view.loc (thrV d L) ↦{qUa L} uflatV m d)
              ∗ (∃ f, (midx0H).view.loc (thrV d L) ↦[(midx0H).view.set]{fullShare} f)
              ∗ semVal ((thrV d L, .dma cc0_scratch6.sem) : GSem nD τ sig) 0
              ∗ semVal ((thrV d L, .dma cc0_scratch8.sem) : GSem nD τ sig) 0)
            ∗ Fw1 m d L 49
            ∗ ∃ W', ⌜∀ p ∈ W', p ∈ W ∨ p.2 = none ∨ p.2 = some (0 : Fin 1)⌝ ∗ owes (thrV d L) O W') := by
  unfold Inv side0 side1 invCommon
  rw [if_neg (by norm_num : ¬ (25 : ℕ) < 25), if_neg (by norm_num : ¬ (25 : ℕ) = 0)]

/-- Opening the invariant before the first trip. -/
theorem inv_open_first (k : ℕ) (hk : k < 25) (h0 : k = 0) :
    Inv m d L O W k ⟨⟩
      ⊢ invCommon m d L k
          iprop(iprop(Fr0 m d L (2 * k) ∗ Fm0 m d L (2 * k)
              ∗ ((idxM).view.loc (thrV d L) ↦[Finset.univ \ idxRowSet (2 * k)]{qIa} idxVal m d L)
              ∗ ((midx0H).view.loc (thrV d L) ↦[(midx0H).view.set]{fullShare.right} midxVal m d L (2 * k)))
            ∗ iprop((∃ f, (rows1H).view.loc (thrV d L) ↦[(rows1H).view.set]{fullShare} f)
              ∗ semVal ((thrV d L, .dma cc0_scratch11.sem) : GSem nD τ sig) 0)
            ∗ ∃ W', ⌜∀ p ∈ W', p ∈ W ∨ p.2 = none ∨ p.2 = some (0 : Fin 1)⌝ ∗ owes (thrV d L) O W') := by
  unfold Inv side0 side1 invCommon
  rw [if_pos hk, if_pos h0]

/-- Opening the invariant before a later trip. -/
theorem inv_open_later (k : ℕ) (hk : k < 25) (h0 : ¬ k = 0) :
    Inv m d L O W k ⟨⟩
      ⊢ invCommon m d L k
          iprop(iprop(Fr0 m d L (2 * k) ∗ Fm0 m d L (2 * k)
              ∗ ((idxM).view.loc (thrV d L) ↦[Finset.univ \ idxRowSet (2 * k)]{qIa} idxVal m d L)
              ∗ ((midx0H).view.loc (thrV d L) ↦[(midx0H).view.set]{fullShare.right} midxVal m d L (2 * k)))
            ∗ Fw1 m d L (2 * k - 1)
            ∗ ∃ W', ⌜∀ p ∈ W', p ∈ W ∨ p.2 = none ∨ p.2 = some (0 : Fin 1)⌝ ∗ owes (thrV d L) O W') := by
  unfold Inv side0 side1 invCommon
  rw [if_pos hk, if_neg h0]

omit [FloatOps F] in
/-- A wait on one of the subcore's own DMA semaphores, recorded at the plain index, keeps the recorded waits within
    what the launch allows. -/
theorem waits_insert {W' : Waits sig (HIx 1)} (h : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact Or.inr (Or.inl rfl)
  · exact h p hp

omit [FloatOps F] in
/-- Transitivity, stated in the proof mode's own syntax on all three sides. -/
theorem ent_trans {P Q R : sProp 𝕄} (h1 : P ⊢ Q) (h2 : Q ⊢ R) : P ⊢ R := BI.Entails.trans h1 h2

end Cert.KI

end
-- ==== Proof.KI.MulLoop.lean ====
/-
  The inner multiply loop of a half-trip: every gathered row of one half of the row buffer is scaled, in place, by
  the row's entry of the scale vector.
-/
import proofs.«206556_g62818191671566_cont_9to1_m_1093_40_alg».proof.Proof.KI.Own

set_option pp.maxSteps 5000
set_option pp.deepTerms false

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The second half of the row buffer, as a slice of the whole. -/
abbrev rows1M : Memref sig .scVector .vmem S1x128x128 .f32 :=
  (rowsM).slice (Rect.unit (s := S2x128x128) ![1, 0, 0] S1x128x128.size inb_S2x128x128_S1x128x128_1_0_0) (fun _ => rfl)

/-- The loop of the second half-trip at the tile's buffers. -/
abbrev loop1At (L : grid0.Coords) (v2 c0 c1 : BitVec 32) (t : Fin k0_t1_loop.trips) :
    Prog (TpuEff nD τ sig (Elt F) Λ₀ (.scVector ((L 0).castLE hcore0) ((L 1).castLE hsub0))) Unit :=
  Scf.Loop.for k0_t3_loop k0_t3_ok ⟨⟩
    (k0_t3_body (F := F) L tabM (Memref.isWhole_whole _) tokM (Memref.isWhole_whole _) uM (Memref.isWhole_whole _) outM (Memref.isWhole_whole _)
      idxM (Memref.isWhole_whole _) midxM (Memref.isWhole_whole _) mvalM (Memref.isWhole_whole _) scaleM (Memref.isWhole_whole _)
      rowsM (Memref.isWhole_whole _) spmM (Memref.isWhole_whole _)
      cc0_scratch6 cc0_scratch7 cc0_scratch8 cc0_scratch9 cc0_scratch10 cc0_scratch11 cc0_scoped0 cc0_scoped1 cc0_scoped2 cc0_scoped3 cc0_scoped4
      v2 c0 c1 t)

omit [FloatOps F] in
/-- A rectangle of the whole row buffer that starts in its second half lies in that half: as a load reads it … -/
theorem acc_sub1 (off : Fin 3 → Nat) (inb : ∀ a, off a + S1x1x16.size a ≤ S2x128x128.size a) (h0 : off 0 = 1) :
    ((rowsM).access (Rect.unit (s := S2x128x128) off S1x1x16.size inb)).set ⊆ (rows1M).view.set := by
  have e1 : (rows1M).view.set = _ :=
    View.set_slice (rowsM).view (Rect.unit (s := S2x128x128) ![1, 0, 0] S1x128x128.size inb_S2x128x128_S1x128x128_1_0_0)
  have e2 : ((rowsM).access (Rect.unit (s := S2x128x128) off S1x1x16.size inb)).set = _ := View.set_slice (rowsM).view _
  rw [e1, e2]
  refine Finset.map_subset_map.mpr (fun i hi => ?_)
  rw [Rect.mem_set_unit] at hi ⊢
  intro a
  have := hi a
  have i0 := inb 0; have i1 := inb 1; have i2 := inb 2
  match a with
  | ⟨0, _⟩ => simp at this i0 ⊢; omega
  | ⟨1, _⟩ => simp at this i1 ⊢; omega
  | ⟨2, _⟩ => simp at this i2 ⊢; omega

omit [FloatOps F] in
/-- … and as a full store writes it. -/
theorem accOn_sub1 (off : Fin 3 → Nat) (inb : ∀ a, off a + S1x1x16.size a ≤ S2x128x128.size a) (h0 : off 0 = 1) :
    ((rowsM).access (Rect.unit (s := S2x128x128) off S1x1x16.size inb)).setOn Finset.univ ⊆ (rows1M).view.set :=
  acc_sub1 off inb h0

open Lean Elab Tactic in
/-- The inclusions a trip's run reads from the context, one pair per rectangle the trip touches (eight column blocks
    of sixteen rows). -/
elab "rows1_facts " k:ident : tactic => do
  for j in [33:41] do
    for i in [0:16] do
      let off := mkIdent (.mkSimple s!"k0_off{j}")
      let inb := mkIdent (.mkSimple s!"k0_off{j}_inb")
      let iLit := Syntax.mkNumLit (toString i)
      let hl := mkIdent (.mkSimple s!"hl{j}_{i}")
      let hs := mkIdent (.mkSimple s!"hs{j}_{i}")
      evalTactic (← `(tactic| have $hl := acc_sub1 ($off $k (BitVec.ofNat 32 $iLit)) ($inb $k $iLit) rfl))
      evalTactic (← `(tactic| have $hs := accOn_sub1 ($off $k (BitVec.ofNat 32 $iLit)) ($inb $k $iLit) rfl))

/-- The frame's invariant: the half and the scale vector held, the half's contents whatever the trips so far left. -/
def invF1 (d : Dev nD) (L : grid0.Coords) (s : Buf (Elt F) ((scaleM).view.loc (thrV d L))) (_ : Nat) (_ : Unit) : sProp 𝕄 :=
  iprop((∃ g', (rows1M).view.loc (thrV d L) ↦[(rows1M).view.set]{fullShare} g')
    ∗ ((scaleM).view.loc (thrV d L) ↦{fullShare} s))

set_option maxHeartbeats 4000000 in
theorem mul_loop1_frame (d : Dev nD) (L : grid0.Coords) (v2 c0 c1 : BitVec 32) (t : Fin k0_t1_loop.trips)
    (g : Buf (Elt F) ((rows1M).view.loc (thrV d L))) (s : Buf (Elt F) ((scaleM).view.loc (thrV d L))) :
    (iprop(((rows1M).view.loc (thrV d L) ↦[(rows1M).view.set]{fullShare} g)
        ∗ ((scaleM).view.loc (thrV d L) ↦{fullShare} s)) : sProp 𝕄)
      ⊢ wp frame (wpE (defs₀ (F := F)) 𝒱₀ (thrV d L) none) Set.univ (loop1At (F := F) L v2 c0 c1 t)
          fun _ => iprop((∃ g', (rows1M).view.loc (thrV d L) ↦[(rows1M).view.set]{fullShare} g')
            ∗ ((scaleM).view.loc (thrV d L) ↦{fullShare} s)) := by
  unfold loop1At
  iintro ⟨Hrows, Hscale⟩
  sl_for (invF1 (F := F) d L s) $$ [Hrows Hscale]
  case region =>
    intro k _
    unfold invF1
    iintro ⟨⟨%g', Hrows⟩, Hscale⟩
    rows1_facts k
    sl_exec
    sl_step
    isplitl [Hrows]
    · iexists _; iexact Hrows
    · iexact Hscale
  unfold invF1
  isplitl [Hrows Hscale]
  · isplitl [Hrows]
    · iexists _; iexact Hrows
    · iexact Hscale
  · iintro %_ HI
    iexact HI

/-! ## The same for the first half of the row buffer (the loop of the first half-trip) -/

/-- The first half of the row buffer, as a slice of the whole. -/
abbrev rows0M : Memref sig .scVector .vmem S1x128x128 .f32 :=
  (rowsM).slice (Rect.unit (s := S2x128x128) ![0, 0, 0] S1x128x128.size inb_S2x128x128_S1x128x128_0_0_0) (fun _ => rfl)

omit [FloatOps F] in
theorem acc_sub0 (off : Fin 3 → Nat) (inb : ∀ a, off a + S1x1x16.size a ≤ S2x128x128.size a) (h0 : off 0 = 0) :
    ((rowsM).access (Rect.unit (s := S2x128x128) off S1x1x16.size inb)).set ⊆ (rows0M).view.set := by
  have e1 : (rows0M).view.set = _ :=
    View.set_slice (rowsM).view (Rect.unit (s := S2x128x128) ![0, 0, 0] S1x128x128.size inb_S2x128x128_S1x128x128_0_0_0)
  have e2 : ((rowsM).access (Rect.unit (s := S2x128x128) off S1x1x16.size inb)).set = _ := View.set_slice (rowsM).view _
  rw [e1, e2]
  refine Finset.map_subset_map.mpr (fun i hi => ?_)
  rw [Rect.mem_set_unit] at hi ⊢
  intro a
  have := hi a
  have i0 := inb 0; have i1 := inb 1; have i2 := inb 2
  match a with
  | ⟨0, _⟩ => simp at this i0 ⊢; omega
  | ⟨1, _⟩ => simp at this i1 ⊢; omega
  | ⟨2, _⟩ => simp at this i2 ⊢; omega

omit [FloatOps F] in
theorem accOn_sub0 (off : Fin 3 → Nat) (inb : ∀ a, off a + S1x1x16.size a ≤ S2x128x128.size a) (h0 : off 0 = 0) :
    ((rowsM).access (Rect.unit (s := S2x128x128) off S1x1x16.size inb)).setOn Finset.univ ⊆ (rows0M).view.set :=
  acc_sub0 off inb h0

open Lean Elab Tactic in
/-- The inclusions a trip's run reads from the context, for the first half. -/
elab "rows0_facts " k:ident : tactic => do
  for j in [14:22] do
    for i in [0:16] do
      let off := mkIdent (.mkSimple s!"k0_off{j}")
      let inb := mkIdent (.mkSimple s!"k0_off{j}_inb")
      let iLit := Syntax.mkNumLit (toString i)
      let hl := mkIdent (.mkSimple s!"hl{j}_{i}")
      let hs := mkIdent (.mkSimple s!"hs{j}_{i}")
      evalTactic (← `(tactic| have $hl := acc_sub0 ($off $k (BitVec.ofNat 32 $iLit)) ($inb $k $iLit) rfl))
      evalTactic (← `(tactic| have $hs := accOn_sub0 ($off $k (BitVec.ofNat 32 $iLit)) ($inb $k $iLit) rfl))

/-- The loop of the first half-trip at the tile's buffers. -/
abbrev loop0At (L : grid0.Coords) (v2 : BitVec 32) (t : Fin k0_t1_loop.trips) (arg18 v156 : BitVec 32) :
    Prog (TpuEff nD τ sig (Elt F) Λ₀ (.scVector ((L 0).castLE hcore0) ((L 1).castLE hsub0))) Unit :=
  Scf.Loop.for k0_t2_loop k0_t2_ok ⟨⟩
    (k0_t2_body (F := F) L tabM (Memref.isWhole_whole _) tokM (Memref.isWhole_whole _) uM (Memref.isWhole_whole _) outM (Memref.isWhole_whole _)
      idxM (Memref.isWhole_whole _) midxM (Memref.isWhole_whole _) mvalM (Memref.isWhole_whole _) scaleM (Memref.isWhole_whole _)
      rowsM (Memref.isWhole_whole _) spmM (Memref.isWhole_whole _)
      cc0_scratch6 cc0_scratch7 cc0_scratch8 cc0_scratch9 cc0_scratch10 cc0_scratch11 cc0_scoped0 cc0_scoped1 cc0_scoped2 cc0_scoped3 cc0_scoped4
      v2 t arg18 v156)

def invF0 (d : Dev nD) (L : grid0.Coords) (s : Buf (Elt F) ((scaleM).view.loc (thrV d L))) (_ : Nat) (_ : Unit) : sProp 𝕄 :=
  iprop((∃ g', (rows0M).view.loc (thrV d L) ↦[(rows0M).view.set]{fullShare} g')
    ∗ ((scaleM).view.loc (thrV d L) ↦{fullShare} s))

set_option maxHeartbeats 4000000 in
theorem mul_loop0_frame (d : Dev nD) (L : grid0.Coords) (v2 : BitVec 32) (t : Fin k0_t1_loop.trips) (arg18 v156 : BitVec 32)
    (g : Buf (Elt F) ((rows0M).view.loc (thrV d L))) (s : Buf (Elt F) ((scaleM).view.loc (thrV d L))) :
    (iprop(((rows0M).view.loc (thrV d L) ↦[(rows0M).view.set]{fullShare} g)
        ∗ ((scaleM).view.loc (thrV d L) ↦{fullShare} s)) : sProp 𝕄)
      ⊢ wp frame (wpE (defs₀ (F := F)) 𝒱₀ (thrV d L) none) Set.univ (loop0At (F := F) L v2 t arg18 v156)
          fun _ => iprop((∃ g', (rows0M).view.loc (thrV d L) ↦[(rows0M).view.set]{fullShare} g')
            ∗ ((scaleM).view.loc (thrV d L) ↦{fullShare} s)) := by
  unfold loop0At
  iintro ⟨Hrows, Hscale⟩
  sl_for (invF0 (F := F) d L s) $$ [Hrows Hscale]
  case region =>
    intro k _
    unfold invF0
    iintro ⟨⟨%g', Hrows⟩, Hscale⟩
    rows0_facts k
    sl_exec
    sl_step
    isplitl [Hrows]
    · iexists _; iexact Hrows
    · iexact Hscale
  unfold invF0
  isplitl [Hrows Hscale]
  · isplitl [Hrows]
    · iexists _; iexact Hrows
    · iexact Hscale
  · iintro %_ HI
    iexact HI

end Cert.KI

end
-- ==== Proof.KI.MulStep.lean ====
/-
  The multiply loops' shared vocabulary: the trips' offsets in closed form, the contents (scaled up to a row, on one
  band, everywhere, after j stores of a trip), reads, shape casts and one store read at an index, and the step that
  one store of a trip makes.
-/
import proofs.«206556_g62818191671566_cont_9to1_m_1093_40_alg».proof.Proof.KI.MulLoop

noncomputable section

namespace Cert.KI

open Cert.KernelIdeal Cert.KernelIdeal.Gen
open Idealize.ShloMosaic
open Idealize.ShloMosaic.ValueIdx

variable {F : FTy → Type} [FloatOps F]

/-! ## The trip's offsets in closed form -/

omit [FloatOps F] in
theorem trips3_eq : k0_t3_loop.trips = 8 := by decide
omit [FloatOps F] in
theorem trips2_eq : k0_t2_loop.trips = 8 := by decide
omit [FloatOps F] in
theorem off32_eq : ∀ k : Fin k0_t3_loop.trips, k0_off32 k = ![16 * k.val] := by decide +kernel
omit [FloatOps F] in
theorem off13_eq : ∀ k : Fin k0_t2_loop.trips, k0_off13 k = ![16 * k.val] := by decide +kernel
omit [FloatOps F] in
theorem off33_eq : ∀ (k : Fin k0_t3_loop.trips) (i : Fin 16), k0_off33 k (BitVec.ofNat 32 i.val) = ![1, 16 * k.val + i.val, 0] := by decide +kernel
omit [FloatOps F] in
theorem off34_eq : ∀ (k : Fin k0_t3_loop.trips) (i : Fin 16), k0_off34 k (BitVec.ofNat 32 i.val) = ![1, 16 * k.val + i.val, 16] := by decide +kernel
omit [FloatOps F] in
theorem off35_eq : ∀ (k : Fin k0_t3_loop.trips) (i : Fin 16), k0_off35 k (BitVec.ofNat 32 i.val) = ![1, 16 * k.val + i.val, 32] := by decide +kernel
omit [FloatOps F] in
theorem off36_eq : ∀ (k : Fin k0_t3_loop.trips) (i : Fin 16), k0_off36 k (BitVec.ofNat 32 i.val) = ![1, 16 * k.val + i.val, 48] := by decide +kernel
omit [FloatOps F] in
theorem off37_eq : ∀ (k : Fin k0_t3_loop.trips) (i : Fin 16), k0_off37 k (BitVec.ofNat 32 i.val) = ![1, 16 * k.val + i.val, 64] := by decide +kernel
omit [FloatOps F] in
theorem off38_eq : ∀ (k : Fin k0_t3_loop.trips) (i : Fin 16), k0_off38 k (BitVec.ofNat 32 i.val) = ![1, 16 * k.val + i.val, 80] := by decide +kernel
omit [FloatOps F] in
theorem off39_eq : ∀ (k : Fin k0_t3_loop.trips) (i : Fin 16), k0_off39 k (BitVec.ofNat 32 i.val) = ![1, 16 * k.val + i.val, 96] := by decide +kernel
omit [FloatOps F] in
theorem off40_eq : ∀ (k : Fin k0_t3_loop.trips) (i : Fin 16), k0_off40 k (BitVec.ofNat 32 i.val) = ![1, 16 * k.val + i.val, 112] := by decide +kernel
omit [FloatOps F] in
theorem off14_eq : ∀ (k : Fin k0_t2_loop.trips) (i : Fin 16), k0_off14 k (BitVec.ofNat 32 i.val) = ![0, 16 * k.val + i.val, 0] := by decide +kernel
omit [FloatOps F] in
theorem off15_eq : ∀ (k : Fin k0_t2_loop.trips) (i : Fin 16), k0_off15 k (BitVec.ofNat 32 i.val) = ![0, 16 * k.val + i.val, 16] := by decide +kernel
omit [FloatOps F] in
theorem off16_eq : ∀ (k : Fin k0_t2_loop.trips) (i : Fin 16), k0_off16 k (BitVec.ofNat 32 i.val) = ![0, 16 * k.val + i.val, 32] := by decide +kernel
omit [FloatOps F] in
theorem off17_eq : ∀ (k : Fin k0_t2_loop.trips) (i : Fin 16), k0_off17 k (BitVec.ofNat 32 i.val) = ![0, 16 * k.val + i.val, 48] := by decide +kernel
omit [FloatOps F] in
theorem off18_eq : ∀ (k : Fin k0_t2_loop.trips) (i : Fin 16), k0_off18 k (BitVec.ofNat 32 i.val) = ![0, 16 * k.val + i.val, 64] := by decide +kernel
omit [FloatOps F] in
theorem off19_eq : ∀ (k : Fin k0_t2_loop.trips) (i : Fin 16), k0_off19 k (BitVec.ofNat 32 i.val) = ![0, 16 * k.val + i.val, 80] := by decide +kernel
omit [FloatOps F] in
theorem off20_eq : ∀ (k : Fin k0_t2_loop.trips) (i : Fin 16), k0_off20 k (BitVec.ofNat 32 i.val) = ![0, 16 * k.val + i.val, 96] := by decide +kernel
omit [FloatOps F] in
theorem off21_eq : ∀ (k : Fin k0_t2_loop.trips) (i : Fin 16), k0_off21 k (BitVec.ofNat 32 i.val) = ![0, 16 * k.val + i.val, 112] := by decide +kernel

/-! ## The contents: scaled up to a row, scaled on one band of sixteen rows, scaled everywhere -/

/-- Every entry times its row's entry of the scale vector. -/
def mulRows (g : S2x128x128.Idx → F .f32) (s : S128.Idx → F .f32) : S2x128x128.Idx → F .f32 :=
  fun idx => FloatOps.mulf (g idx) (s (ix1 (idx 1)))

theorem mulRows_apply (g : S2x128x128.Idx → F .f32) (s : S128.Idx → F .f32) (idx : S2x128x128.Idx) :
    mulRows g s idx = FloatOps.mulf (g idx) (s (ix1 (idx 1))) := rfl

/-- The rows below row n scaled, the others as they were. -/
def mulUpTo (n : Nat) (g : S2x128x128.Idx → F .f32) (s : S128.Idx → F .f32) : S2x128x128.Idx → F .f32 :=
  fun idx => if (idx 1).val < n then FloatOps.mulf (g idx) (s (ix1 (idx 1))) else g idx

/-- The sixteen rows from row 16 k on scaled, the others as they were: what one trip does. -/
def mulBand (k : Nat) (g : S2x128x128.Idx → F .f32) (s : S128.Idx → F .f32) : S2x128x128.Idx → F .f32 :=
  fun idx => if 16 * k ≤ (idx 1).val ∧ (idx 1).val < 16 * k + 16 then FloatOps.mulf (g idx) (s (ix1 (idx 1))) else g idx

theorem mulUpTo_zero (g : S2x128x128.Idx → F .f32) (s : S128.Idx → F .f32) : mulUpTo 0 g s = g := by
  funext idx; unfold mulUpTo; rw [if_neg (Nat.not_lt_zero _)]

theorem mulUpTo_full (g : S2x128x128.Idx → F .f32) (s : S128.Idx → F .f32) : mulUpTo 128 g s = mulRows g s := by
  funext idx; unfold mulUpTo mulRows; rw [if_pos (show (idx 1).val < 128 from (idx 1).isLt)]

theorem mulBand_mulUpTo (k : Nat) (g : S2x128x128.Idx → F .f32) (s : S128.Idx → F .f32) :
    mulBand k (mulUpTo (16 * k) g s) s = mulUpTo (16 * (k + 1)) g s := by
  funext idx
  unfold mulBand mulUpTo
  by_cases h1 : (idx 1).val < 16 * k
  · rw [if_neg (by omega), if_pos h1, if_pos (by omega)]
  · by_cases h2 : (idx 1).val < 16 * k + 16
    · rw [if_pos ⟨by omega, h2⟩, if_neg h1, if_pos (by omega)]
    · rw [if_neg (by omega), if_neg h1, if_neg (by omega)]

/-! ## Reads, shape casts and one store, at an index -/

theorem readRows_apply (off : Fin 3 → Nat) (inb : ∀ a, off a + S1x1x16.size a ≤ S2x128x128.size a)
    (W : S2x128x128.Idx → F .f32) (x : S1x1x16.Idx) :
    View.readAt (Elt F) (rowsM).view (Rect.unit (s := S2x128x128) off S1x1x16.size inb).toLoadRect W x
      = W ((Rect.unit (s := S2x128x128) off S1x1x16.size inb).idx x) := rfl

theorem readScale_apply (off : Fin 1 → Nat) (inb : ∀ a, off a + S16.size a ≤ S128.size a)
    (s : S128.Idx → F .f32) (y : S16.Idx) :
    View.readAt (Elt F) (scaleM).view (Rect.unit (s := S128) off S16.size inb).toLoadRect s y
      = s ((Rect.unit (s := S128) off S16.size inb).idx y) := rfl

theorem shapeCast_16_1x1x16 {α : Type} (v : S16.Idx → α) (h : S16.ShapeCasts S1x1x16) (x : S1x1x16.Idx) :
    shapeCast S1x1x16 v h x = v (ix1 (x 2)) := by
  unfold shapeCast
  refine congrArg v (Shape.reshapeEquiv_eq_of_rowMajor _ ?_)
  rw [Shape.rowMajor_val_one, Shape.rowMajor_val_three]
  have h0 : (x 0).val < 1 := (x 0).isLt
  have h1 : (x 1).val < 1 := (x 1).isLt
  show (x 2).val = ((x 0).val * 1 + (x 1).val) * 16 + (x 2).val
  omega

theorem shapeCast_1x1x16_16 {α : Type} (v : S1x1x16.Idx → α) (h : S1x1x16.ShapeCasts S16) (y : S16.Idx) :
    shapeCast S16 v h y = v (ix3 0 0 (y 0)) := by
  unfold shapeCast
  refine congrArg v (Shape.reshapeEquiv_eq_of_rowMajor _ ?_)
  rw [Shape.rowMajor_val_one, Shape.rowMajor_val_three]
  show (0 * 1 + 0) * 16 + (y 0).val = (y 0).val
  omega

theorem shapeCast_16_16 {α : Type} (v : S16.Idx → α) (h : S16.ShapeCasts S16) : shapeCast S16 v h = v := by
  funext y; unfold shapeCast; exact congrArg v (Shape.reshapeEquiv_self _ y)

/-- A full store through the whole row buffer at a unit-stride rectangle, read at an index: the payload inside the
    rectangle, the old contents outside. -/
theorem write_rect_apply (off : Fin 3 → Nat) (inb : ∀ a, off a + S1x1x16.size a ≤ S2x128x128.size a)
    (W : S2x128x128.Idx → F .f32) (pay : S1x1x16.Idx → F .f32) (idx : S2x128x128.Idx) :
    View.write (Elt F) ((rowsM).access (Rect.unit (s := S2x128x128) off S1x1x16.size inb)) W pay Finset.univ idx
      = if h : ∀ a, off a ≤ (idx a).val ∧ (idx a).val < off a + S1x1x16.size a
        then pay (fun a => ⟨(idx a).val - off a, by have := h a; omega⟩) else W idx := by
  by_cases h : ∀ a, off a ≤ (idx a).val ∧ (idx a).val < off a + S1x1x16.size a
  · rw [dif_pos h]
    have he : idx = ((rowsM).access (Rect.unit (s := S2x128x128) off S1x1x16.size inb)).emb
        (fun a => ⟨(idx a).val - off a, by have := h a; show _ < S1x1x16.size a; omega⟩) := by
      funext a; refine Fin.ext ?_
      show (idx a).val = off a + 1 * ((idx a).val - off a)
      have := h a; omega
    conv_lhs => rw [he]
    rw [View.write_emb_of_mem _ _ (Finset.mem_univ _)]
    rfl
  · rw [dif_neg h]
    refine View.write_of_not_mem _ _ _ (fun hm => h ?_)
    rw [View.setOn_univ, View.set_slice] at hm
    obtain ⟨i, hi, rfl⟩ := Finset.mem_map.mp hm
    exact Rect.mem_set_unit.mp hi

/-- After the first j of a trip's stores (row by row, eight column blocks a row): the entries stored so far scaled. -/
def mulDone (k j : Nat) (g : S2x128x128.Idx → F .f32) (s : S128.Idx → F .f32) : S2x128x128.Idx → F .f32 :=
  fun idx => if 16 * k ≤ (idx 1).val ∧ 8 * ((idx 1).val - 16 * k) + (idx 2).val / 16 < j
    then FloatOps.mulf (g idx) (s (ix1 (idx 1))) else g idx

theorem mulDone_zero (k : Nat) (g : S2x128x128.Idx → F .f32) (s : S128.Idx → F .f32) : mulDone k 0 g s = g := by
  funext idx; unfold mulDone; rw [if_neg (by omega)]

theorem mulDone_full (k : Nat) (g : S2x128x128.Idx → F .f32) (s : S128.Idx → F .f32) :
    mulDone k 128 g s = mulBand k g s := by
  funext idx
  unfold mulDone mulBand
  have hcol : (idx 2).val < 128 := (idx 2).isLt
  by_cases h : 16 * k ≤ (idx 1).val ∧ (idx 1).val < 16 * k + 16
  · rw [if_pos ⟨h.1, by omega⟩, if_pos h]
  · rw [if_neg (by omega), if_neg h]

/-- One store of a trip into plane p of the row buffer: block c of row 16 k + i, of the row's entries as they are times
    the row's scale, takes the contents from "8 i + c stores done" to "8 i + c + 1 stores done" on that plane. -/
theorem step_done (p : Nat) (hp : p < 2) (k i c : Nat) (hk : k < 8) (hi : i < 16) (hc : c < 8)
    (off : Fin 3 → Nat) (inb : ∀ a, off a + S1x1x16.size a ≤ S2x128x128.size a) (hoff : off = ![p, 16 * k + i, 16 * c])
    (g' W : S2x128x128.Idx → F .f32) (s : S128.Idx → F .f32) (pay : S1x1x16.Idx → F .f32)
    (hW : ∀ idx : S2x128x128.Idx, (idx 0).val = p → W idx = mulDone k (8 * i + c) g' s idx)
    (hpay : ∀ x : S1x1x16.Idx, pay x
      = FloatOps.mulf (W (ix3 (⟨p, hp⟩ : Fin 2) (⟨16 * k + i, by omega⟩ : Fin 128)
            (⟨16 * c + (x 2).val, by have : (x 2).val < 16 := (x 2).isLt; omega⟩ : Fin 128)))
          (s (ix1 (⟨16 * k + i, by omega⟩ : Fin 128)))) :
    ∀ idx : S2x128x128.Idx, (idx 0).val = p →
      View.write (Elt F) ((rowsM).access (Rect.unit (s := S2x128x128) off S1x1x16.size inb)) W pay Finset.univ idx
        = mulDone k (8 * i + c + 1) g' s idx := by
  intro idx h0
  subst hoff
  have hcol : (idx 2).val < 128 := (idx 2).isLt
  have hrow : (idx 1).val < 128 := (idx 1).isLt
  rw [write_rect_apply]
  by_cases hin : ∀ a, (![p, 16 * k + i, 16 * c] : Fin 3 → Nat) a ≤ (idx a).val
      ∧ (idx a).val < (![p, 16 * k + i, 16 * c] : Fin 3 → Nat) a + S1x1x16.size a
  · have h1 : 16 * k + i ≤ (idx 1).val ∧ (idx 1).val < 16 * k + i + 1 := hin 1
    have h2 : 16 * c ≤ (idx 2).val ∧ (idx 2).val < 16 * c + 16 := hin 2
    rw [dif_pos hin, hpay]
    have hidx : (ix3 (⟨p, hp⟩ : Fin 2) (⟨16 * k + i, by omega⟩ : Fin 128)
        (⟨16 * c + ((idx 2).val - 16 * c), by omega⟩ : Fin 128) : S2x128x128.Idx) = idx := by
      funext a; refine Fin.ext ?_
      match a with
      | ⟨0, _⟩ => exact h0.symm
      | ⟨1, _⟩ => show 16 * k + i = (idx 1).val; omega
      | ⟨2, _⟩ => show 16 * c + ((idx 2).val - 16 * c) = (idx 2).val; omega
    have hrowix : (ix1 (⟨16 * k + i, by omega⟩ : Fin 128) : S128.Idx) = ix1 (idx 1) := by
      funext a; refine Fin.ext ?_
      match a with
      | ⟨0, _⟩ => show 16 * k + i = (idx 1).val; omega
    show FloatOps.mulf (W (ix3 (⟨p, hp⟩ : Fin 2) (⟨16 * k + i, _⟩ : Fin 128) (⟨16 * c + ((idx 2).val - 16 * c), _⟩ : Fin 128))) _ = _
    rw [hidx, hrowix, hW idx h0]
    unfold mulDone
    rw [if_neg (by omega), if_pos (by omega)]
    rfl
  · rw [dif_neg hin, hW idx h0]
    have hne : ¬ ((idx 1).val = 16 * k + i ∧ 16 * c ≤ (idx 2).val ∧ (idx 2).val < 16 * c + 16) := by
      intro ⟨e1, e2, e3⟩
      refine hin (fun a => ?_)
      match a with
      | ⟨0, _⟩ => exact ⟨by show p ≤ (idx 0).val; omega, by show (idx 0).val < p + 1; omega⟩
      | ⟨1, _⟩ => exact ⟨by show 16 * k + i ≤ (idx 1).val; omega, by show (idx 1).val < 16 * k + i + 1; omega⟩
      | ⟨2, _⟩ => exact ⟨by show 16 * c ≤ (idx 2).val; omega, by show (idx 2).val < 16 * c + 16; omega⟩
    unfold mulDone
    by_cases hc1 : 16 * k ≤ (idx 1).val ∧ 8 * ((idx 1).val - 16 * k) + (idx 2).val / 16 < 8 * i + c
    · rw [if_pos hc1, if_pos ⟨hc1.1, by omega⟩]
    · rw [if_neg hc1, if_neg (by omega)]

/-- A trip's payload in closed form: the loaded block times the scale vector's lane, read where the closed forms of
    the two rectangles' offsets put them. -/
theorem pay_fin (p : Nat) (hp : p < 2) (k i c : Nat) (hk : k < 8) (hi : i < 16) (hc : c < 8)
    {off : Fin 3 → Nat} {inb : ∀ a, off a + S1x1x16.size a ≤ S2x128x128.size a} (hoff : off = ![p, 16 * k + i, 16 * c])
    {off32 : Fin 1 → Nat} {inb32 : ∀ a, off32 a + S16.size a ≤ S128.size a} (hoff32 : off32 = ![16 * k])
    (W : S2x128x128.Idx → F .f32) (s : S128.Idx → F .f32) (x2 : Nat) (hx2 : x2 < 16)
    {X : S1x1x16.Idx} {Y : S16.Idx} (hX : (X 2).val = x2) (hY : (Y 0).val = i) :
    FloatOps.mulf
        (View.readAt (Elt F) (rowsM).view (Rect.unit (s := S2x128x128) off S1x1x16.size inb).toLoadRect W X)
        (View.readAt (Elt F) (scaleM).view (Rect.unit (s := S128) off32 S16.size inb32).toLoadRect s Y)
      = FloatOps.mulf (W (ix3 (⟨p, hp⟩ : Fin 2) (⟨16 * k + i, by omega⟩ : Fin 128) (⟨16 * c + x2, by omega⟩ : Fin 128)))
          (s (ix1 (⟨16 * k + i, by omega⟩ : Fin 128))) := by
  subst hoff hoff32
  rw [readRows_apply, readScale_apply]
  have h0 : (X 0).val < 1 := (X 0).isLt
  have h1 : (X 1).val < 1 := (X 1).isLt
  congr 2
  · funext a; refine Fin.ext ?_
    match a with
    | ⟨0, _⟩ => show p + 1 * (X 0).val = p; omega
    | ⟨1, _⟩ => show 16 * k + i + 1 * (X 1).val = 16 * k + i; omega
    | ⟨2, _⟩ => show 16 * c + 1 * (X 2).val = 16 * c + x2; omega
  · funext a; refine Fin.ext ?_
    match a with
    | ⟨0, _⟩ => show 16 * k + 1 * (Y 0).val = 16 * k + i; omega

end Cert.KI

end
-- ==== Proof.KI.MulValue.lean ====
/-
  The inner multiply loop of the second half-trip, with the value, from one trip's value: after the loop every entry of
  the half of the row buffer is its entry before the loop times the row's entry of the scale vector.
-/
import proofs.«206556_g62818191671566_cont_9to1_m_1093_40_alg».proof.Proof.KI.MulStep

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- One trip of the second half's loop at the tile's buffers. -/
abbrev trip1At (L : grid0.Coords) (v2 c0 c1 : BitVec 32) (t : Fin k0_t1_loop.trips) (k : Fin k0_t3_loop.trips) :
    Prog (TpuEff nD τ sig (Elt F) Λ₀ (.scVector ((L 0).castLE hcore0) ((L 1).castLE hsub0))) Unit :=
  k0_t3_body (F := F) L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4
    v2 c0 c1 t k ()

set_option maxHeartbeats 4000000 in
/-- One trip's run: what the half holds afterwards, as a function of what it held before, with the run that shows it. -/
def tripRun1 (d : Dev nD) (L : grid0.Coords) (v2 c0 c1 : BitVec 32) (t : Fin k0_t1_loop.trips)
    (s : Buf (Elt F) ((scaleM).view.loc (thrV d L))) (k : Fin k0_t3_loop.trips) :
    { W : Buf (Elt F) ((rows1M).view.loc (thrV d L)) → Buf (Elt F) ((rows1M).view.loc (thrV d L)) //
      ∀ g' : Buf (Elt F) ((rows1M).view.loc (thrV d L)),
        (iprop(((rows1M).view.loc (thrV d L) ↦[(rows1M).view.set]{fullShare} g')
            ∗ ((scaleM).view.loc (thrV d L) ↦{fullShare} s)) : sProp 𝕄)
          ⊢ wp frame (wpE (defs₀ (F := F)) 𝒱₀ (thrV d L) none) Set.univ (trip1At (F := F) L v2 c0 c1 t k)
              fun _ => iprop(((rows1M).view.loc (thrV d L) ↦[(rows1M).view.set]{fullShare} W g')
                ∗ ((scaleM).view.loc (thrV d L) ↦{fullShare} s)) } := by
  refine ⟨?W, fun g' => ?run⟩
  case run =>
    unfold trip1At k0_t3_body
    iintro ⟨Hrows, Hscale⟩
    rows1_facts k
    sl_exec
    sl_step
    isplitl [Hrows]
    · iexact Hrows
    · iexact Hscale

/-! ## The loop from one trip's value -/

/-- What one trip leaves in the half, on the half's own elements: the band of the trip scaled. The one proposition the
    loop's value rests on. -/
def TripValue1 (d : Dev nD) (L : grid0.Coords) (v2 c0 c1 : BitVec 32) (t : Fin k0_t1_loop.trips)
    (s : Buf (Elt F) ((scaleM).view.loc (thrV d L))) : Prop :=
  ∀ (k : Fin k0_t3_loop.trips) (g' : Buf (Elt F) ((rows1M).view.loc (thrV d L))), ∀ idx ∈ (rows1M).view.set,
    (tripRun1 (F := F) d L v2 c0 c1 t s k).1 g' idx = mulBand k.val g' s idx

/-- The loop's invariant: before trip k the rows below 16 k are scaled. -/
def invV1 (d : Dev nD) (L : grid0.Coords) (g : Buf (Elt F) ((rows1M).view.loc (thrV d L)))
    (s : Buf (Elt F) ((scaleM).view.loc (thrV d L))) (k : Nat) (_ : Unit) : sProp 𝕄 :=
  iprop(((rows1M).view.loc (thrV d L) ↦[(rows1M).view.set]{fullShare} mulUpTo (16 * k) g s)
    ∗ ((scaleM).view.loc (thrV d L) ↦{fullShare} s))

set_option maxHeartbeats 4000000 in
theorem mul_loop1_of (d : Dev nD) (L : grid0.Coords) (v2 c0 c1 : BitVec 32) (t : Fin k0_t1_loop.trips)
    (g : Buf (Elt F) ((rows1M).view.loc (thrV d L))) (s : Buf (Elt F) ((scaleM).view.loc (thrV d L)))
    (htrip : TripValue1 (F := F) d L v2 c0 c1 t s) :
    (iprop(((rows1M).view.loc (thrV d L) ↦[(rows1M).view.set]{fullShare} g)
        ∗ ((scaleM).view.loc (thrV d L) ↦{fullShare} s)) : sProp 𝕄)
      ⊢ wp frame (wpE (defs₀ (F := F)) 𝒱₀ (thrV d L) none) Set.univ (loop1At (F := F) L v2 c0 c1 t)
          fun _ => iprop(((rows1M).view.loc (thrV d L) ↦[(rows1M).view.set]{fullShare} mulRows g s)
            ∗ ((scaleM).view.loc (thrV d L) ↦{fullShare} s)) := by
  unfold loop1At
  iintro ⟨Hrows, Hscale⟩
  sl_for (invV1 (F := F) d L g s) $$ [Hrows Hscale]
  case region =>
    intro k _
    unfold invV1
    iintro ⟨Hrows, Hscale⟩
    iapply (wp_wand_r Idealize.ShloMosaic.frame (wpE (defs₀ (F := F)) 𝒱₀ (thrV d L) none) Set.univ)
    isplitl [Hrows Hscale]
    · iapply ((tripRun1 (F := F) d L v2 c0 c1 t s k).2 _)
      isplitl [Hrows]
      · iexact Hrows
      · iexact Hscale
    · iintro %_ ⟨Hrows, Hscale⟩
      isplitl [Hrows]
      · iapply (Entails.of_eq (pointsTo_congr (fun idx hidx =>
          (htrip k _ idx hidx).trans (congrFun (mulBand_mulUpTo k.val g s) idx))))
        iexact Hrows
      · iexact Hscale
  unfold invV1
  isplitl [Hrows Hscale]
  · isplitl [Hrows]
    · rw [Nat.mul_zero, mulUpTo_zero]; iexact Hrows
    · iexact Hscale
  · iintro %_ ⟨Hrows, Hscale⟩
    isplitl [Hrows]
    · rw [show 16 * Scf.trips k0_t3_loop.lb k0_t3_loop.ub k0_t3_loop.st = 128 from by decide, mulUpTo_full]
      iexact Hrows
    · iexact Hscale

end Cert.KI

end
-- ==== Proof.KI.MulTrip.lean ====
/-
  One trip of the inner multiply loop of the second half-trip, by its value, and the loop with its value.  The 128 stores
  of a trip, each of a block of sixteen entries of a row times the row's lane of the scale vector, leave the band of
  sixteen rows scaled and everything else as it was: after j of them the entries stored so far are scaled, and one
  store takes j to j + 1, its rectangle being fresh, so that what it loads is what the band held at the start.
-/
import proofs.«206556_g62818191671566_cont_9to1_m_1093_40_alg».proof.Proof.KI.MulValue

noncomputable section

namespace Cert.KI

open Cert.KernelIdeal Cert.KernelIdeal.Gen
open Idealize.ShloMosaic
open Idealize.ShloMosaic.ValueIdx

variable {F : FTy → Type} [FloatOps F]

omit [FloatOps F] in
/-- An element of the second half lies in plane 1 of the row buffer. -/
theorem mem_rows1 {idx : S2x128x128.Idx} (h : idx ∈ (rows1M).view.set) : (idx 0).val = 1 := by
  have e1 : (rows1M).view.set = _ :=
    View.set_slice (rowsM).view (Rect.unit (s := S2x128x128) ![1, 0, 0] S1x128x128.size inb_S2x128x128_S1x128x128_1_0_0)
  rw [e1] at h
  obtain ⟨i, hi, rfl⟩ := Finset.mem_map.mp h
  have h0 : 1 ≤ (i 0).val ∧ (i 0).val < 1 + 1 := (Rect.mem_set_unit.mp hi) 0
  show (i 0).val = 1
  omega

/-! ## The 128 stores of a trip -/

open Lean Elab Tactic Meta in
/-- The chain of a trip's stores: for j = 1 … 128 the fact that the contents after j stores are the starting contents
    with the first j blocks scaled, each from the one before by the step lemma, its payload read in closed form. -/
elab "trip1_steps " d:ident L:ident s:ident k:ident g:ident hk:ident : tactic => do
  let env ← getEnv
  let slPre : Name := `Cert.KI.tripRun1.sl
  let genPre : Name := `Cert.KernelIdeal.Gen
  let names := env.constants.fold (init := (#[] : Array Name)) fun acc n _ =>
    match n with
    | .str p str =>
      if p == slPre && !(str.startsWith "Hrows_w") then acc.push n
      else if p == genPre && str.startsWith "k0_pay" then acc.push n
      else acc
    | _ => acc
  let ids : Array (TSyntax `Lean.Parser.Tactic.simpLemma) ← names.mapM fun n =>
    `(Lean.Parser.Tactic.simpLemma| $(mkIdent n):ident)
  for j in [1:129] do
    let i := (j - 1) / 8
    let c := (j - 1) % 8
    let iLit := Syntax.mkNumLit (toString i)
    let cLit := Syntax.mkNumLit (toString c)
    let jLit := Syntax.mkNumLit (toString j)
    let offEq := mkIdent (.mkSimple s!"off{33 + c}_eq")
    let hj := mkIdent (.mkSimple s!"hw{j}")
    let hprev := mkIdent (.mkSimple s!"hw{j - 1}")
    let wj := mkIdent (slPre ++ .mkSimple s!"Hrows_w{j}")
    let wprev : TSyntax `term ← if j == 1 then `($g) else
      `($(mkIdent (slPre ++ .mkSimple s!"Hrows_w{j - 1}")) $d $L $s $k $g)
    evalTactic (← `(tactic|
      have $hj : ∀ idx : S2x128x128.Idx, (idx 0).val = 1 → $wj $d $L $s $k $g idx = mulDone ($k).val $jLit $g $s idx :=
        fun idx h0 => step_done 1 (by decide) ($k).val $iLit $cLit $hk (by decide) (by decide) _ _
          ($offEq $k ⟨$iLit, by decide⟩) $g $wprev $s _ $hprev
          (fun x => by
            simp only [$ids,*, shapeCast_16_1x1x16, shapeCast_1x1x16_16, shapeCast_16_16, mulf, broadcast, extractAt,
              extractStridedSlice]
            exact pay_fin 1 (by decide) ($k).val $iLit $cLit $hk (by decide) (by decide) ($offEq $k ⟨$iLit, by decide⟩)
              (off32_eq $k) $wprev $s (x 2).val (x 2).isLt (by rfl) (by rfl))
          idx h0))

set_option maxHeartbeats 8000000 in
set_option maxRecDepth 8192 in
/-- What one trip leaves in the half, on the half's own elements: the band of the trip scaled. -/
theorem tripValue1 (d : Dev nD) (L : grid0.Coords) (v2 c0 c1 : BitVec 32) (t : Fin k0_t1_loop.trips)
    (s : Buf (Elt F) ((scaleM).view.loc (thrV d L))) : TripValue1 (F := F) d L v2 c0 c1 t s := by
  intro k g' idx hidx
  have h0 : (idx 0).val = 1 := mem_rows1 hidx
  have hk : k.val < 8 := k.isLt
  have hw0 : ∀ idx : S2x128x128.Idx, (idx 0).val = 1 → g' idx = mulDone k.val 0 g' s idx :=
    fun idx _ => (congrFun (mulDone_zero k.val g' s) idx).symm
  trip1_steps d L s k g' hk
  show tripRun1.sl.Hrows_w128 d L s k g' idx = _
  rw [hw128 idx h0, mulDone_full]

section Loop
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt F) ℕ UU ℕ

/-- The loop of the second half-trip, with its value: every entry of the half is scaled by its row's entry of the
    scale vector; the scale vector is unchanged. -/
theorem mul_loop1 (d : Dev nD) (L : grid0.Coords) (v2 c0 c1 : BitVec 32) (t : Fin k0_t1_loop.trips)
    (g : Buf (Elt F) ((rows1M).view.loc (thrV d L))) (s : Buf (Elt F) ((scaleM).view.loc (thrV d L))) :
    (iprop(((rows1M).view.loc (thrV d L) ↦[(rows1M).view.set]{fullShare} g)
        ∗ ((scaleM).view.loc (thrV d L) ↦{fullShare} s)) : sProp 𝕄)
      ⊢ wp frame (wpE (defs₀ (F := F)) 𝒱₀ (thrV d L) none) Set.univ (loop1At (F := F) L v2 c0 c1 t)
          fun _ => iprop(((rows1M).view.loc (thrV d L) ↦[(rows1M).view.set]{fullShare} mulRows g s)
            ∗ ((scaleM).view.loc (thrV d L) ↦{fullShare} s)) :=
  mul_loop1_of d L v2 c0 c1 t g s (tripValue1 d L v2 c0 c1 t s)

end Loop

end Cert.KI

end
-- ==== Proof.KI.MulValue0.lean ====
/-
  The inner multiply loop of the first half-trip, with the value, from one trip's value: after the loop every entry of
  the half of the row buffer is its entry before the loop times the row's entry of the scale vector.
-/
import proofs.«206556_g62818191671566_cont_9to1_m_1093_40_alg».proof.Proof.KI.MulStep

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- One trip of the first half's loop at the tile's buffers. -/
abbrev trip0At (L : grid0.Coords) (v2 : BitVec 32) (t : Fin k0_t1_loop.trips) (arg18 v156 : BitVec 32) (k : Fin k0_t2_loop.trips) :
    Prog (TpuEff nD τ sig (Elt F) Λ₀ (.scVector ((L 0).castLE hcore0) ((L 1).castLE hsub0))) Unit :=
  k0_t2_body (F := F) L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4
    v2 t arg18 v156 k ()

set_option maxHeartbeats 4000000 in
/-- One trip's run: what the half holds afterwards, as a function of what it held before, with the run that shows it. -/
def tripRun0 (d : Dev nD) (L : grid0.Coords) (v2 : BitVec 32) (t : Fin k0_t1_loop.trips) (arg18 v156 : BitVec 32)
    (s : Buf (Elt F) ((scaleM).view.loc (thrV d L))) (k : Fin k0_t2_loop.trips) :
    { W : Buf (Elt F) ((rows0M).view.loc (thrV d L)) → Buf (Elt F) ((rows0M).view.loc (thrV d L)) //
      ∀ g' : Buf (Elt F) ((rows0M).view.loc (thrV d L)),
        (iprop(((rows0M).view.loc (thrV d L) ↦[(rows0M).view.set]{fullShare} g')
            ∗ ((scaleM).view.loc (thrV d L) ↦{fullShare} s)) : sProp 𝕄)
          ⊢ wp frame (wpE (defs₀ (F := F)) 𝒱₀ (thrV d L) none) Set.univ (trip0At (F := F) L v2 t arg18 v156 k)
              fun _ => iprop(((rows0M).view.loc (thrV d L) ↦[(rows0M).view.set]{fullShare} W g')
                ∗ ((scaleM).view.loc (thrV d L) ↦{fullShare} s)) } := by
  refine ⟨?W, fun g' => ?run⟩
  case run =>
    unfold trip0At k0_t2_body
    iintro ⟨Hrows, Hscale⟩
    rows0_facts k
    sl_exec
    sl_step
    isplitl [Hrows]
    · iexact Hrows
    · iexact Hscale

/-! ## The loop from one trip's value -/

/-- What one trip leaves in the half, on the half's own elements: the band of the trip scaled. The one proposition the
    loop's value rests on. -/
def TripValue0 (d : Dev nD) (L : grid0.Coords) (v2 : BitVec 32) (t : Fin k0_t1_loop.trips) (arg18 v156 : BitVec 32)
    (s : Buf (Elt F) ((scaleM).view.loc (thrV d L))) : Prop :=
  ∀ (k : Fin k0_t2_loop.trips) (g' : Buf (Elt F) ((rows0M).view.loc (thrV d L))), ∀ idx ∈ (rows0M).view.set,
    (tripRun0 (F := F) d L v2 t arg18 v156 s k).1 g' idx = mulBand k.val g' s idx

/-- The loop's invariant: before trip k the rows below 16 k are scaled. -/
def invV0 (d : Dev nD) (L : grid0.Coords) (g : Buf (Elt F) ((rows0M).view.loc (thrV d L)))
    (s : Buf (Elt F) ((scaleM).view.loc (thrV d L))) (k : Nat) (_ : Unit) : sProp 𝕄 :=
  iprop(((rows0M).view.loc (thrV d L) ↦[(rows0M).view.set]{fullShare} mulUpTo (16 * k) g s)
    ∗ ((scaleM).view.loc (thrV d L) ↦{fullShare} s))

set_option maxHeartbeats 4000000 in
theorem mul_loop0_of (d : Dev nD) (L : grid0.Coords) (v2 : BitVec 32) (t : Fin k0_t1_loop.trips) (arg18 v156 : BitVec 32)
    (g : Buf (Elt F) ((rows0M).view.loc (thrV d L))) (s : Buf (Elt F) ((scaleM).view.loc (thrV d L)))
    (htrip : TripValue0 (F := F) d L v2 t arg18 v156 s) :
    (iprop(((rows0M).view.loc (thrV d L) ↦[(rows0M).view.set]{fullShare} g)
        ∗ ((scaleM).view.loc (thrV d L) ↦{fullShare} s)) : sProp 𝕄)
      ⊢ wp frame (wpE (defs₀ (F := F)) 𝒱₀ (thrV d L) none) Set.univ (loop0At (F := F) L v2 t arg18 v156)
          fun _ => iprop(((rows0M).view.loc (thrV d L) ↦[(rows0M).view.set]{fullShare} mulRows g s)
            ∗ ((scaleM).view.loc (thrV d L) ↦{fullShare} s)) := by
  unfold loop0At
  iintro ⟨Hrows, Hscale⟩
  sl_for (invV0 (F := F) d L g s) $$ [Hrows Hscale]
  case region =>
    intro k _
    unfold invV0
    iintro ⟨Hrows, Hscale⟩
    iapply (wp_wand_r Idealize.ShloMosaic.frame (wpE (defs₀ (F := F)) 𝒱₀ (thrV d L) none) Set.univ)
    isplitl [Hrows Hscale]
    · iapply ((tripRun0 (F := F) d L v2 t arg18 v156 s k).2 _)
      isplitl [Hrows]
      · iexact Hrows
      · iexact Hscale
    · iintro %_ ⟨Hrows, Hscale⟩
      isplitl [Hrows]
      · iapply (Entails.of_eq (pointsTo_congr (fun idx hidx =>
          (htrip k _ idx hidx).trans (congrFun (mulBand_mulUpTo k.val g s) idx))))
        iexact Hrows
      · iexact Hscale
  unfold invV0
  isplitl [Hrows Hscale]
  · isplitl [Hrows]
    · rw [Nat.mul_zero, mulUpTo_zero]; iexact Hrows
    · iexact Hscale
  · iintro %_ ⟨Hrows, Hscale⟩
    isplitl [Hrows]
    · rw [show 16 * Scf.trips k0_t2_loop.lb k0_t2_loop.ub k0_t2_loop.st = 128 from by decide, mulUpTo_full]
      iexact Hrows
    · iexact Hscale

end Cert.KI

end
-- ==== Proof.KI.MulTrip0.lean ====
/-
  One trip of the inner multiply loop of the first half-trip, by its value, and the loop with its value.  The 128 stores
  of a trip, each of a block of sixteen entries of a row times the row's lane of the scale vector, leave the band of
  sixteen rows scaled and everything else as it was: after j of them the entries stored so far are scaled, and one
  store takes j to j + 1, its rectangle being fresh, so that what it loads is what the band held at the start.
-/
import proofs.«206556_g62818191671566_cont_9to1_m_1093_40_alg».proof.Proof.KI.MulValue0

noncomputable section

namespace Cert.KI

open Cert.KernelIdeal Cert.KernelIdeal.Gen
open Idealize.ShloMosaic
open Idealize.ShloMosaic.ValueIdx

variable {F : FTy → Type} [FloatOps F]

omit [FloatOps F] in
/-- An element of the first half lies in plane 0 of the row buffer. -/
theorem mem_rows0 {idx : S2x128x128.Idx} (h : idx ∈ (rows0M).view.set) : (idx 0).val = 0 := by
  have e1 : (rows0M).view.set = _ :=
    View.set_slice (rowsM).view (Rect.unit (s := S2x128x128) ![0, 0, 0] S1x128x128.size inb_S2x128x128_S1x128x128_0_0_0)
  rw [e1] at h
  obtain ⟨i, hi, rfl⟩ := Finset.mem_map.mp h
  have h0 : 0 ≤ (i 0).val ∧ (i 0).val < 0 + 1 := (Rect.mem_set_unit.mp hi) 0
  show (i 0).val = 0
  omega

/-! ## The 128 stores of a trip -/

open Lean Elab Tactic Meta in
/-- The chain of a trip's stores: for j = 1 … 128 the fact that the contents after j stores are the starting contents
    with the first j blocks scaled, each from the one before by the step lemma, its payload read in closed form. -/
elab "trip0_steps " d:ident L:ident s:ident k:ident g:ident hk:ident : tactic => do
  let env ← getEnv
  let slPre : Name := `Cert.KI.tripRun0.sl
  let genPre : Name := `Cert.KernelIdeal.Gen
  let names := env.constants.fold (init := (#[] : Array Name)) fun acc n _ =>
    match n with
    | .str p str =>
      if p == slPre && !(str.startsWith "Hrows_w") then acc.push n
      else if p == genPre && str.startsWith "k0_pay" then acc.push n
      else acc
    | _ => acc
  let ids : Array (TSyntax `Lean.Parser.Tactic.simpLemma) ← names.mapM fun n =>
    `(Lean.Parser.Tactic.simpLemma| $(mkIdent n):ident)
  for j in [1:129] do
    let i := (j - 1) / 8
    let c := (j - 1) % 8
    let iLit := Syntax.mkNumLit (toString i)
    let cLit := Syntax.mkNumLit (toString c)
    let jLit := Syntax.mkNumLit (toString j)
    let offEq := mkIdent (.mkSimple s!"off{14 + c}_eq")
    let hj := mkIdent (.mkSimple s!"hw{j}")
    let hprev := mkIdent (.mkSimple s!"hw{j - 1}")
    let wj := mkIdent (slPre ++ .mkSimple s!"Hrows_w{j}")
    let wprev : TSyntax `term ← if j == 1 then `($g) else
      `($(mkIdent (slPre ++ .mkSimple s!"Hrows_w{j - 1}")) $d $L $s $k $g)
    evalTactic (← `(tactic|
      have $hj : ∀ idx : S2x128x128.Idx, (idx 0).val = 0 → $wj $d $L $s $k $g idx = mulDone ($k).val $jLit $g $s idx :=
        fun idx h0 => step_done 0 (by decide) ($k).val $iLit $cLit $hk (by decide) (by decide) _ _
          ($offEq $k ⟨$iLit, by decide⟩) $g $wprev $s _ $hprev
          (fun x => by
            simp only [$ids,*, shapeCast_16_1x1x16, shapeCast_1x1x16_16, shapeCast_16_16, mulf, broadcast, extractAt,
              extractStridedSlice]
            exact pay_fin 0 (by decide) ($k).val $iLit $cLit $hk (by decide) (by decide) ($offEq $k ⟨$iLit, by decide⟩)
              (off13_eq $k) $wprev $s (x 2).val (x 2).isLt (by rfl) (by rfl))
          idx h0))

set_option maxHeartbeats 8000000 in
set_option maxRecDepth 8192 in
/-- What one trip leaves in the half, on the half's own elements: the band of the trip scaled. -/
theorem tripValue0 (d : Dev nD) (L : grid0.Coords) (v2 : BitVec 32) (t : Fin k0_t1_loop.trips) (arg18 v156 : BitVec 32)
    (s : Buf (Elt F) ((scaleM).view.loc (thrV d L))) : TripValue0 (F := F) d L v2 t arg18 v156 s := by
  intro k g' idx hidx
  have h0 : (idx 0).val = 0 := mem_rows0 hidx
  have hk : k.val < 8 := k.isLt
  have hw0 : ∀ idx : S2x128x128.Idx, (idx 0).val = 0 → g' idx = mulDone k.val 0 g' s idx :=
    fun idx _ => (congrFun (mulDone_zero k.val g' s) idx).symm
  trip0_steps d L s k g' hk
  show tripRun0.sl.Hrows_w128 d L s k g' idx = _
  rw [hw128 idx h0, mulDone_full]

section Loop
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt F) ℕ UU ℕ

/-- The loop of the first half-trip, with its value: every entry of the half is scaled by its row's entry of the
    scale vector; the scale vector is unchanged. -/
theorem mul_loop0 (d : Dev nD) (L : grid0.Coords) (v2 : BitVec 32) (t : Fin k0_t1_loop.trips) (arg18 v156 : BitVec 32)
    (g : Buf (Elt F) ((rows0M).view.loc (thrV d L))) (s : Buf (Elt F) ((scaleM).view.loc (thrV d L))) :
    (iprop(((rows0M).view.loc (thrV d L) ↦[(rows0M).view.set]{fullShare} g)
        ∗ ((scaleM).view.loc (thrV d L) ↦{fullShare} s)) : sProp 𝕄)
      ⊢ wp frame (wpE (defs₀ (F := F)) 𝒱₀ (thrV d L) none) Set.univ (loop0At (F := F) L v2 t arg18 v156)
          fun _ => iprop(((rows0M).view.loc (thrV d L) ↦[(rows0M).view.set]{fullShare} mulRows g s)
            ∗ ((scaleM).view.loc (thrV d L) ↦{fullShare} s)) :=
  mul_loop0_of d L v2 t arg18 v156 g s (tripValue0 d L v2 t arg18 v156 s)

end Loop

end Cert.KI

end
-- ==== Proof.KI.MulBridge.lean ====
/-
  The multiply loops' result at the chunk's canonical contents: the gathered rows scaled row by row by the chunk's scale
  vector are the chunk's product.
-/
import proofs.«206556_g62818191671566_cont_9to1_m_1093_40_alg».proof.Proof.KI.Vals
import proofs.«206556_g62818191671566_cont_9to1_m_1093_40_alg».proof.Proof.KI.MulStep

noncomputable section

namespace Cert.KI

open Cert.KernelIdeal Cert.KernelIdeal.Gen
open Idealize.ShloMosaic
open Idealize.ShloMosaic.ValueIdx

variable {F : FTy → Type} [FloatOps F] (m : (ℓ : Loc nD τ sig) → Buf (Elt F) ℓ)

/-- At every index: the row's entry times the row's scale is the product's entry (a row index is below 128, so its
    reduction modulo 128 is itself). -/
theorem mulRows_vals_apply (d : Dev nD) (L : grid0.Coords) (c : ℕ) (x : S2x128x128.Idx) :
    mulRows (rowsVal m d L c) (scaleVal m d L c) x = prodVal m d L c x := by
  have hx : (ix1 (x 1) : S128.Idx) = ix1 (⟨(x 1).val % 128, Nat.mod_lt _ (by norm_num)⟩ : Fin 128) := by
    funext a; refine Fin.ext ?_
    match a with
    | ⟨0, _⟩ =>
      show (x 1).val = (x 1).val % 128
      exact (Nat.mod_eq_of_lt (show (x 1).val < 128 from (x 1).isLt)).symm
  unfold mulRows prodVal
  rw [hx]

theorem mulRows_vals (d : Dev nD) (L : grid0.Coords) (c : ℕ) :
    mulRows (rowsVal m d L c) (scaleVal m d L c) = prodVal m d L c :=
  funext (mulRows_vals_apply m d L c)

end Cert.KI

end
-- ==== Proof.KI.OutWrite.lean ====
/-
  A written-out chunk's value.  A write-out copies a half of the row scratch, named as a 128 × 128 block, onto a chunk
  of the worker's rows of the flat result.  Entry (a, b) of the block is entry (a, b) of the half, and lands at row
  `6400 w + 128 (2 k + r) + a`, column b of the flat result; where the half holds the chunk's scaled rows, that is the
  flat result's final value there.
-/
import proofs.«206556_g62818191671566_cont_9to1_m_1093_40_alg».proof.Proof.KI.OutVal

noncomputable section

namespace Cert.KI

open Cert.KernelIdeal Cert.KernelIdeal.Gen

open Idealize.ShloMosaic
open Idealize.ShloMosaic.SparseCore (S V T)
open Idealize.ShloMosaic.ValueIdx

variable {F : FTy → Type}

/-- Where entry (a, b) of chunk `2 k + r`, as the program slices it, sits in the flat result. -/
theorem outChunk_emb (L : grid0.Coords) (k : Fin k0_t1_loop.trips) (r : Fin 2) (a b : Fin 128)
    (hlt : posN L (2 * k.val + r.val) a.val < 204800) :
    (outChunk L k r).view.emb (ix2 a b)
      = (ix2 (⟨posN L (2 * k.val + r.val) a.val, hlt⟩ : Fin 204800) b : S204800x128.Idx) := by
  show (Rect.unit (s := S204800x128) (k0_off22 L k (BitVec.ofNat 32 r.val)) S128x128.size (k0_off22_inb L k r)).emb (ix2 a b) = _
  have h0 : k0_off22 L k (BitVec.ofNat 32 r.val) 0
      = 12800 * (L 1).val + 6400 * (L 0).val + 256 * k.val + 128 * r.val := by rw [k0_off22_eq]; rfl
  have h1 : k0_off22 L k (BitVec.ofNat 32 r.val) 1 = 0 := by rw [k0_off22_eq]; rfl
  have hp : posN L (2 * k.val + r.val) a.val = (2 * (L 1).val + (L 0).val) * 6400 + (2 * k.val + r.val) * 128 + a.val := rfl
  funext i
  apply Fin.ext
  rw [Rect.emb_apply]
  match i with
  | ⟨0, _⟩ => show k0_off22 L k (BitVec.ofNat 32 r.val) 0 + 1 * a.val = posN L (2 * k.val + r.val) a.val; omega
  | ⟨1, _⟩ => show k0_off22 L k (BitVec.ofNat 32 r.val) 1 + 1 * b.val = b.val; omega

variable [FloatOps F] (m : (ℓ : Loc nD τ sig) → Buf (Elt F) ℓ)

/-- The write-out of the first half onto chunk `2 k`: if the half holds the chunk's scaled rows, the chunk's rows of the
    flat result hold their final value afterwards. -/
theorem chunk_written0 (hpre : PreOK m) (d : Dev nD) (L : grid0.Coords) (k : Fin k0_t1_loop.trips)
    (g : Buf (Elt F) ((thrV d L).loc cc0_scratch4))
    (hg : ∀ y ∈ (rows0H).view.set, g y = prodVal m d L (2 * k.val) y) :
    ∀ x ∈ (outChunk L k 0).view.set,
      (outChunk L k 0).view.writes (Elt F) (m (outLoc d))
        [⟨Rect.whole S128x128, ReadAs.same.apply (View.read (Elt F) (rows0G).view g)⟩] x = outV m d x := by
  intro x hx
  obtain ⟨y, -, rfl⟩ := Finset.mem_map.mp hx
  obtain ⟨a, b, rfl⟩ : ∃ (a b : Fin 128), y = ix2 a b := ⟨y 0, y 1, eq_ix2 y⟩
  have hk := trip_lt k
  have hc : 2 * k.val + (0 : Fin 2).val < 50 := by
    have : ((0 : Fin 2)).val = 0 := rfl
    omega
  have hlt : posN L (2 * k.val + (0 : Fin 2).val) a.val < 204800 := posN_lt L _ _ hc a.isLt
  rw [ReadAs.apply_same, View.writes_singleton]
  have he : ((outChunk L k 0).view.slice (Rect.whole S128x128)).emb (ix2 a b) = (outChunk L k 0).view.emb (ix2 a b) := by
    show (outChunk L k 0).view.emb ((Rect.whole S128x128).emb (ix2 a b)) = _
    rw [Rect.emb_whole_apply]
  have hw := View.write_emb_of_mem (v := (outChunk L k 0).view.slice (Rect.whole S128x128)) (Val := Elt F) (m (outLoc d))
    (View.read (Elt F) (rows0G).view g) (M := Finset.univ) (x := ix2 a b) (Finset.mem_univ _)
  rw [he] at hw
  refine hw.trans ?_
  -- the payload at (a, b) is the half's entry (a, b)
  have e1 : (rows0G).view.emb (ix2 a b) = (ix3 (0 : Fin 2) a b : S2x128x128.Idx) :=
    rowsBlk_emb ![0, 0, 0] inb_S2x128x128_S1x128x128_0_0_0 (0 : Fin 2) rfl a b
  have hmem : (ix3 (0 : Fin 2) a b : S2x128x128.Idx) ∈ ((rows0H).view.set : Finset S2x128x128.Idx) := by
    rw [set_rows0H]
    refine Rect.mem_set_unit.mpr fun i => ?_
    have ha := a.isLt
    have hb := b.isLt
    match i with
    | ⟨0, _⟩ => show 0 ≤ 0 ∧ 0 < 0 + 1; omega
    | ⟨1, _⟩ => show 0 ≤ a.val ∧ a.val < 0 + 128; omega
    | ⟨2, _⟩ => show 0 ≤ b.val ∧ b.val < 0 + 128; omega
  have r1 : View.read (Elt F) (rows0G).view g (ix2 a b)
      = (prodVal m d L (2 * k.val + (0 : Fin 2).val) : FVec F S2x128x128 .f32) (ix3 (0 : Fin 2) a b) := by
    rw [View.read_apply, e1]
    exact hg _ hmem
  -- the chunk's place (a, b) is row posN L (2 k + r) a, column b of the flat result
  have e2 : (outChunk L k 0).view.emb (ix2 a b)
      = (ix2 (⟨posN L (2 * k.val + (0 : Fin 2).val) a.val, hlt⟩ : Fin 204800) b : S204800x128.Idx) :=
    outChunk_emb L k 0 a b hlt
  rw [r1, e2]
  exact (outV_prod m hpre d L (2 * k.val + (0 : Fin 2).val) hc (0 : Fin 2) a b hlt).symm

/-- The write-out of the second half onto chunk `2 k + 1`: if the half holds the chunk's scaled rows, the chunk's rows of the
    flat result hold their final value afterwards. -/
theorem chunk_written1 (hpre : PreOK m) (d : Dev nD) (L : grid0.Coords) (k : Fin k0_t1_loop.trips)
    (g : Buf (Elt F) ((thrV d L).loc cc0_scratch4))
    (hg : ∀ y ∈ (rows1H).view.set, g y = prodVal m d L (2 * k.val + 1) y) :
    ∀ x ∈ (outChunk L k 1).view.set,
      (outChunk L k 1).view.writes (Elt F) (m (outLoc d))
        [⟨Rect.whole S128x128, ReadAs.same.apply (View.read (Elt F) (rows1G).view g)⟩] x = outV m d x := by
  intro x hx
  obtain ⟨y, -, rfl⟩ := Finset.mem_map.mp hx
  obtain ⟨a, b, rfl⟩ : ∃ (a b : Fin 128), y = ix2 a b := ⟨y 0, y 1, eq_ix2 y⟩
  have hk := trip_lt k
  have hc : 2 * k.val + (1 : Fin 2).val < 50 := by
    have : ((1 : Fin 2)).val = 1 := rfl
    omega
  have hlt : posN L (2 * k.val + (1 : Fin 2).val) a.val < 204800 := posN_lt L _ _ hc a.isLt
  rw [ReadAs.apply_same, View.writes_singleton]
  have he : ((outChunk L k 1).view.slice (Rect.whole S128x128)).emb (ix2 a b) = (outChunk L k 1).view.emb (ix2 a b) := by
    show (outChunk L k 1).view.emb ((Rect.whole S128x128).emb (ix2 a b)) = _
    rw [Rect.emb_whole_apply]
  have hw := View.write_emb_of_mem (v := (outChunk L k 1).view.slice (Rect.whole S128x128)) (Val := Elt F) (m (outLoc d))
    (View.read (Elt F) (rows1G).view g) (M := Finset.univ) (x := ix2 a b) (Finset.mem_univ _)
  rw [he] at hw
  refine hw.trans ?_
  -- the payload at (a, b) is the half's entry (a, b)
  have e1 : (rows1G).view.emb (ix2 a b) = (ix3 (1 : Fin 2) a b : S2x128x128.Idx) :=
    rowsBlk_emb ![1, 0, 0] inb_S2x128x128_S1x128x128_1_0_0 (1 : Fin 2) rfl a b
  have hmem : (ix3 (1 : Fin 2) a b : S2x128x128.Idx) ∈ ((rows1H).view.set : Finset S2x128x128.Idx) := by
    rw [set_rows1H]
    refine Rect.mem_set_unit.mpr fun i => ?_
    have ha := a.isLt
    have hb := b.isLt
    match i with
    | ⟨0, _⟩ => show 1 ≤ 1 ∧ 1 < 1 + 1; omega
    | ⟨1, _⟩ => show 0 ≤ a.val ∧ a.val < 0 + 128; omega
    | ⟨2, _⟩ => show 0 ≤ b.val ∧ b.val < 0 + 128; omega
  have r1 : View.read (Elt F) (rows1G).view g (ix2 a b)
      = (prodVal m d L (2 * k.val + (1 : Fin 2).val) : FVec F S2x128x128 .f32) (ix3 (1 : Fin 2) a b) := by
    rw [View.read_apply, e1]
    exact hg _ hmem
  -- the chunk's place (a, b) is row posN L (2 k + r) a, column b of the flat result
  have e2 : (outChunk L k 1).view.emb (ix2 a b)
      = (ix2 (⟨posN L (2 * k.val + (1 : Fin 2).val) a.val, hlt⟩ : Fin 204800) b : S204800x128.Idx) :=
    outChunk_emb L k 1 a b hlt
  rw [r1, e2]
  exact (outV_prod m hpre d L (2 * k.val + (1 : Fin 2).val) hc (1 : Fin 2) a b hlt).symm

end Cert.KI

end
-- ==== Proof.KI.NormW.lean ====
/-
  What the odd chunk's write-out delivers at its wait, in the loop invariant's own words.  The rule states the delivery
  over the chunk's block of the flat result with the payload written on it, and over the block of the row buffer the
  payload was read from; the invariant states it over the chunk's rows of the flat result at their final value, and over
  the second half of the row buffer.  The two agree: the half holds the chunk's scaled rows, so the block written holds
  the final value on its elements; and the block and the half have the same elements.
-/
import proofs.«206556_g62818191671566_cont_9to1_m_1093_40_alg».proof.Proof.KI.Inv
import proofs.«206556_g62818191671566_cont_9to1_m_1093_40_alg».proof.Proof.KI.Respell
import proofs.«206556_g62818191671566_cont_9to1_m_1093_40_alg».proof.Proof.KI.Sets
import proofs.«206556_g62818191671566_cont_9to1_m_1093_40_alg».proof.Proof.KI.OutWrite

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ) (d : Dev nD) (L : grid0.Coords)

/-- The write-out of the odd chunk of trip k, from the second half holding the chunk's scaled rows. -/
theorem norm_w1 (hpre : PreOK m) (k : Fin k0_t1_loop.trips) :
    (iprop(((outChunk L k 1).view.loc (thrV d L) ↦[(outChunk L k 1).view.set]{fullShare}
          (outChunk L k 1).view.writes (Elt F) (m (outLoc d))
            [⟨Rect.whole S128x128, ReadAs.same.apply (View.read (Elt F) (rows1G).view (prodVal m d L (2 * k.val + 1)))⟩])
        ∗ ((rows1G).view.loc (thrV d L) ↦[(rows1G).view.set]{fullShare} prodVal m d L (2 * k.val + 1))) : sProp 𝕄)
      ⊢ Dw1 m d L (2 * k.val + 1) := by
  unfold Dw1
  have eA : ((outChunk L k 1).view.loc (thrV d L) ↦[(outChunk L k 1).view.set]{fullShare}
        (outChunk L k 1).view.writes (Elt F) (m (outLoc d))
          [⟨Rect.whole S128x128, ReadAs.same.apply (View.read (Elt F) (rows1G).view (prodVal m d L (2 * k.val + 1)))⟩] : sProp 𝕄)
      = (outLoc d ↦[chunkSet L (2 * k.val + 1)]{fullShare} outV m d) := by
    rw [show (outLoc d ↦[chunkSet L (2 * k.val + 1)]{fullShare} outV m d : sProp 𝕄)
        = ((outChunk L k 1).view.loc (thrV d L) ↦[(outChunk L k 1).view.set]{fullShare} outV m d) from by
          rw [set_outChunk]; rfl]
    exact pointsTo_congr (chunk_written1 m hpre d L k (prodVal m d L (2 * k.val + 1)) (fun y _ => rfl))
  have eB : ((rows1G).view.loc (thrV d L) ↦[(rows1G).view.set]{fullShare} prodVal m d L (2 * k.val + 1) : sProp 𝕄)
      = ((rows1H).view.loc (thrV d L) ↦[(rows1H).view.set]{fullShare} prodVal m d L (2 * k.val + 1)) :=
    (respell_rowsG1 d L fullShare (prodVal m d L (2 * k.val + 1))).symm
  rw [eA, eB]

end Cert.KI

end
-- ==== Proof.KI.ScaleVal.lean ====
/-
  The scale vector's value.  A half-trip fills the scale scratch sixteen lanes at a time: it loads sixteen draws of the
  chunk from a row of the draw scratch, compares each with one half, and stores 2 where the draw is below and 0
  elsewhere.  Lane by lane each stored piece is the chunk's scale at its place, whichever row the draws were read from
  (the draws of a chunk are the same function on either row), and the eight pieces tile the scratch: so after the eight
  stores the scale scratch holds the chunk's scales, whatever it held before.
-/
import proofs.«206556_g62818191671566_cont_9to1_m_1093_40_alg».proof.Proof.KI.OutVal
import Idealize.ShloMosaic.Lib.Pipeline.Value

noncomputable section

namespace Cert.KI

open Cert.KernelIdeal Cert.KernelIdeal.Gen

open Idealize.ShloMosaic
open Idealize.ShloMosaic.SparseCore (S V T)
open Idealize.ShloMosaic.ValueIdx

variable {F : FTy → Type} [FloatOps F]

/-! ## One lane -/

/-- The scale of one draw: 2 where it is below one half, 0 elsewhere. -/
def scaleAt (x : F .f32) : F .f32 :=
  Scalar.select (FloatOps.cmpf .olt x (Scalar.ofBits .f32 0x3F000000#32)) (Scalar.ofBits .f32 0x40000000#32)
    (Scalar.ofBits .f32 0x00000000#32)

/-- What a half-trip stores for sixteen loaded draws: the program's vector operations, in its order. -/
def lanePay (v : Vec F S1x16 .f32) : FVec F S16 .f32 :=
  shapeCast S16
    (select (cmpf .olt (shapeCast S16 v shapeCasts_S1x16_S16 : FVec F S16 .f32) (broadcast S16 (Scalar.ofBits .f32 0x3F000000#32)))
      (broadcast S16 (Scalar.ofBits .f32 0x40000000#32) : FVec F S16 .f32) (broadcast S16 (Scalar.ofBits .f32 0x00000000#32)))
    shapeCasts_S16_S16

/-- Lane ℓ of the stored piece is the scale of the ℓ-th loaded draw. -/
theorem lanePay_apply (v : Vec F S1x16 .f32) (ℓ : Fin 16) : lanePay v (ix1 ℓ) = scaleAt (v (ix2 (0 : Fin 1) ℓ)) := by
  unfold lanePay
  rw [shapeCast_self]
  show Scalar.select (FloatOps.cmpf .olt ((shapeCast S16 v shapeCasts_S1x16_S16 : FVec F S16 .f32) (ix1 ℓ))
      (Scalar.ofBits .f32 0x3F000000#32)) (Scalar.ofBits .f32 0x40000000#32) (Scalar.ofBits .f32 0x00000000#32) = _
  rw [shapeCast_apply v shapeCasts_S1x16_S16 (ix1 ℓ) (ix2 (0 : Fin 1) ℓ) (by
    rw [Shape.rowMajor_val_two, Shape.rowMajor_val_one]
    show 0 * 16 + ℓ.val = ℓ.val
    omega)]
  rfl

/-! ## The program's payloads are that function -/

theorem pay353_eq (v : Vec F S1x16 .f32) : k0_pay353 v = lanePay v := rfl
theorem pay357_eq (v : Vec F S1x16 .f32) : k0_pay357 (k0_pay354 v) k0_pay355 k0_pay356 = lanePay v := rfl
theorem pay358_eq (v : Vec F S1x16 .f32) : k0_pay358 v = lanePay v := rfl
theorem pay359_eq (v : Vec F S1x16 .f32) : k0_pay359 v = lanePay v := rfl
theorem pay360_eq (v : Vec F S1x16 .f32) : k0_pay360 v = lanePay v := rfl
theorem pay361_eq (v : Vec F S1x16 .f32) : k0_pay361 v = lanePay v := rfl
theorem pay362_eq (v : Vec F S1x16 .f32) : k0_pay362 v = lanePay v := rfl
theorem pay363_eq (v : Vec F S1x16 .f32) : k0_pay363 v = lanePay v := rfl
theorem pay367_eq (v : Vec F S1x16 .f32) : k0_pay367 v = lanePay v := rfl
theorem pay368_eq (v : Vec F S1x16 .f32) : k0_pay368 v = lanePay v := rfl
theorem pay369_eq (v : Vec F S1x16 .f32) : k0_pay369 v = lanePay v := rfl
theorem pay372_eq (v : Vec F S1x16 .f32) : k0_pay372 (k0_pay370 v) k0_pay371 = lanePay v := rfl
theorem pay373_eq (v : Vec F S1x16 .f32) : k0_pay373 v = lanePay v := rfl
theorem pay374_eq (v : Vec F S1x16 .f32) : k0_pay374 v = lanePay v := rfl
theorem pay376_eq (v : Vec F S1x16 .f32) : k0_pay376 (k0_pay375 v) = lanePay v := rfl
theorem pay377_eq (v : Vec F S1x16 .f32) : k0_pay377 v = lanePay v := rfl

variable (m : (ℓ : Loc nD τ sig) → Buf (Elt F) ℓ)

/-! ## One piece -/

/-- The piece stored at lanes o .. o + 15, computed from the draws loaded at row hh, lanes o .. o + 15, is the chunk's
    scales there. -/
theorem scale_piece (d : Dev nD) (L : grid0.Coords) (c hh o : ℕ) (ho : o + 16 ≤ 128)
    (inb1 : ∀ a, (![o] : Fin 1 → ℕ) a + S16.size a ≤ S128.size a)
    (inb2 : ∀ a, (![hh, o] : Fin 2 → ℕ) a + S1x16.size a ≤ S2x128.size a) (x : S16.Idx) :
    lanePay (View.readAt (Elt F) mvalM.view (Rect.unit (s := S2x128) ![hh, o] S1x16.size inb2).toLoadRect (mvalVal m d L c)) x
      = (scaleVal m d L c : FVec F S128 .f32) ((Rect.unit (s := S128) ![o] S16.size inb1).emb x) := by
  obtain ⟨ℓ, rfl⟩ : ∃ ℓ : Fin 16, x = ix1 ℓ := ⟨x 0, eq_ix1 x⟩
  have hl : ℓ.val < 16 := ℓ.isLt
  rw [lanePay_apply]
  have q1 : midxN m d L c (o + 1 * ℓ.val) % 4096000 < 4096000 := Nat.mod_lt _ (by norm_num)
  have q2 : midxN m d L c ((o + 1 * ℓ.val) % 128) % 4096000 < 4096000 := Nat.mod_lt _ (by norm_num)
  show scaleAt ((uflatV m d : FVec F S4096000 .f32) (ix1 (⟨midxN m d L c (o + 1 * ℓ.val) % 4096000, q1⟩ : Fin 4096000)))
    = scaleAt ((uflatV m d : FVec F S4096000 .f32) (ix1 (⟨midxN m d L c ((o + 1 * ℓ.val) % 128) % 4096000, q2⟩ : Fin 4096000)))
  have hAB : (o + 1 * ℓ.val) % 128 = o + 1 * ℓ.val := by omega
  congr 1
  exact at_ix1_congr _ (by show midxN m d L c (o + 1 * ℓ.val) % 4096000 = midxN m d L c ((o + 1 * ℓ.val) % 128) % 4096000; rw [hAB])

/-! ## The eight stores of a half-trip -/

/-- The values the first half-trip carries from its second load to its second store: two words, the comparison's
    bits, and the two constant vectors. -/
abbrev scaleT0 (d : Dev nD) (L : grid0.Coords) (c : ℕ) (a b : BitVec 32) :
    BitVec 32 × BitVec 32 × IVec S16 1 × FVec F S16 .f32 × FVec F S16 .f32 :=
  ⟨a, ⟨b, ⟨k0_pay354 (View.readAt (Elt F) mvalM.view (Rect.unit (s := S2x128) ![0, 16] S1x16.size inb_S2x128_S1x16_0_16).toLoadRect (mvalVal m d L c)), ⟨k0_pay355, k0_pay356⟩⟩⟩⟩

/-- The scale scratch after the eight stores of a half-trip that read chunk c's draws from row 0 (last store first). -/
abbrev scaleList0 (d : Dev nD) (L : grid0.Coords) (c : ℕ) (a b : BitVec 32) : List (View.Piece (Elt F) S128 .f32) :=
  [⟨Rect.unit (s := S128) ![112] S16.size inb_S128_S16_112, k0_pay363 (View.readAt (Elt F) mvalM.view (Rect.unit (s := S2x128) ![0, 112] S1x16.size inb_S2x128_S1x16_0_112).toLoadRect (mvalVal m d L c))⟩,
   ⟨Rect.unit (s := S128) ![96] S16.size inb_S128_S16_96, k0_pay362 (View.readAt (Elt F) mvalM.view (Rect.unit (s := S2x128) ![0, 96] S1x16.size inb_S2x128_S1x16_0_96).toLoadRect (mvalVal m d L c))⟩,
   ⟨Rect.unit (s := S128) ![80] S16.size inb_S128_S16_80, k0_pay361 (View.readAt (Elt F) mvalM.view (Rect.unit (s := S2x128) ![0, 80] S1x16.size inb_S2x128_S1x16_0_80).toLoadRect (mvalVal m d L c))⟩,
   ⟨Rect.unit (s := S128) ![64] S16.size inb_S128_S16_64, k0_pay360 (View.readAt (Elt F) mvalM.view (Rect.unit (s := S2x128) ![0, 64] S1x16.size inb_S2x128_S1x16_0_64).toLoadRect (mvalVal m d L c))⟩,
   ⟨Rect.unit (s := S128) ![48] S16.size inb_S128_S16_48, k0_pay359 (View.readAt (Elt F) mvalM.view (Rect.unit (s := S2x128) ![0, 48] S1x16.size inb_S2x128_S1x16_0_48).toLoadRect (mvalVal m d L c))⟩,
   ⟨Rect.unit (s := S128) ![32] S16.size inb_S128_S16_32, k0_pay358 (View.readAt (Elt F) mvalM.view (Rect.unit (s := S2x128) ![0, 32] S1x16.size inb_S2x128_S1x16_0_32).toLoadRect (mvalVal m d L c))⟩,
   ⟨Rect.unit (s := S128) ![16] S16.size inb_S128_S16_16, k0_pay357 (scaleT0 m d L c a b).2.2.fst (scaleT0 m d L c a b).2.2.2.fst (scaleT0 m d L c a b).2.2.2.snd⟩,
   ⟨Rect.unit (s := S128) ![0] S16.size inb_S128_S16_0, k0_pay353 (View.readAt (Elt F) mvalM.view (Rect.unit (s := S2x128) ![0, 0] S1x16.size inb_S2x128_S1x16_0_0).toLoadRect (mvalVal m d L c))⟩]

/-- The same for a half-trip that read them from row 1. -/
abbrev scaleList1 (d : Dev nD) (L : grid0.Coords) (c : ℕ) : List (View.Piece (Elt F) S128 .f32) :=
  [⟨Rect.unit (s := S128) ![112] S16.size inb_S128_S16_112, k0_pay377 (View.readAt (Elt F) mvalM.view (Rect.unit (s := S2x128) ![1, 112] S1x16.size inb_S2x128_S1x16_1_112).toLoadRect (mvalVal m d L c))⟩,
   ⟨Rect.unit (s := S128) ![96] S16.size inb_S128_S16_96, k0_pay376 (k0_pay375 (View.readAt (Elt F) mvalM.view (Rect.unit (s := S2x128) ![1, 96] S1x16.size inb_S2x128_S1x16_1_96).toLoadRect (mvalVal m d L c)))⟩,
   ⟨Rect.unit (s := S128) ![80] S16.size inb_S128_S16_80, k0_pay374 (View.readAt (Elt F) mvalM.view (Rect.unit (s := S2x128) ![1, 80] S1x16.size inb_S2x128_S1x16_1_80).toLoadRect (mvalVal m d L c))⟩,
   ⟨Rect.unit (s := S128) ![64] S16.size inb_S128_S16_64, k0_pay373 (View.readAt (Elt F) mvalM.view (Rect.unit (s := S2x128) ![1, 64] S1x16.size inb_S2x128_S1x16_1_64).toLoadRect (mvalVal m d L c))⟩,
   ⟨Rect.unit (s := S128) ![48] S16.size inb_S128_S16_48, k0_pay372 (k0_pay370 (View.readAt (Elt F) mvalM.view (Rect.unit (s := S2x128) ![1, 48] S1x16.size inb_S2x128_S1x16_1_48).toLoadRect (mvalVal m d L c))) k0_pay371⟩,
   ⟨Rect.unit (s := S128) ![32] S16.size inb_S128_S16_32, k0_pay369 (View.readAt (Elt F) mvalM.view (Rect.unit (s := S2x128) ![1, 32] S1x16.size inb_S2x128_S1x16_1_32).toLoadRect (mvalVal m d L c))⟩,
   ⟨Rect.unit (s := S128) ![16] S16.size inb_S128_S16_16, k0_pay368 (View.readAt (Elt F) mvalM.view (Rect.unit (s := S2x128) ![1, 16] S1x16.size inb_S2x128_S1x16_1_16).toLoadRect (mvalVal m d L c))⟩,
   ⟨Rect.unit (s := S128) ![0] S16.size inb_S128_S16_0, k0_pay367 (View.readAt (Elt F) mvalM.view (Rect.unit (s := S2x128) ![1, 0] S1x16.size inb_S2x128_S1x16_1_0).toLoadRect (mvalVal m d L c))⟩]

/-- After the eight stores of a half-trip reading row 0 the scale scratch holds chunk c's scales. -/
theorem scale_filled0 (d : Dev nD) (L : grid0.Coords) (c : ℕ) (a b : BitVec 32) :
    ∀ y, scaleM.view.writes (Elt F) scaleM.view.junk (scaleList0 m d L c a b) y = scaleVal m d L c y := by
  intro y
  refine View.read_writes_apply_of_pieces (v := scaleM.view) (f := scaleM.view.junk)
    (scaleVal m d L c : FVec F S128 .f32) (scaleList0 m d L c a b) ?_ y
    (View.cover_of_tiled (scaleList0 m d L c a b) S16.size rfl y)
  intro p hp
  simp only [List.mem_cons, List.mem_nil_iff, or_false] at hp
  rcases hp with rfl | rfl | rfl | rfl | rfl | rfl | rfl | rfl
  · intro x; exact scale_piece m d L c 0 112 (by omega) inb_S128_S16_112 inb_S2x128_S1x16_0_112 x
  · intro x; exact scale_piece m d L c 0 96 (by omega) inb_S128_S16_96 inb_S2x128_S1x16_0_96 x
  · intro x; exact scale_piece m d L c 0 80 (by omega) inb_S128_S16_80 inb_S2x128_S1x16_0_80 x
  · intro x; exact scale_piece m d L c 0 64 (by omega) inb_S128_S16_64 inb_S2x128_S1x16_0_64 x
  · intro x; exact scale_piece m d L c 0 48 (by omega) inb_S128_S16_48 inb_S2x128_S1x16_0_48 x
  · intro x; exact scale_piece m d L c 0 32 (by omega) inb_S128_S16_32 inb_S2x128_S1x16_0_32 x
  · intro x; exact scale_piece m d L c 0 16 (by omega) inb_S128_S16_16 inb_S2x128_S1x16_0_16 x
  · intro x; exact scale_piece m d L c 0 0 (by omega) inb_S128_S16_0 inb_S2x128_S1x16_0_0 x

/-- After the eight stores of a half-trip reading row 1 the scale scratch holds chunk c's scales. -/
theorem scale_filled1 (d : Dev nD) (L : grid0.Coords) (c : ℕ) :
    ∀ y, scaleM.view.writes (Elt F) scaleM.view.junk (scaleList1 m d L c) y = scaleVal m d L c y := by
  intro y
  refine View.read_writes_apply_of_pieces (v := scaleM.view) (f := scaleM.view.junk)
    (scaleVal m d L c : FVec F S128 .f32) (scaleList1 m d L c) ?_ y
    (View.cover_of_tiled (scaleList1 m d L c) S16.size rfl y)
  intro p hp
  simp only [List.mem_cons, List.mem_nil_iff, or_false] at hp
  rcases hp with rfl | rfl | rfl | rfl | rfl | rfl | rfl | rfl
  · intro x; exact scale_piece m d L c 1 112 (by omega) inb_S128_S16_112 inb_S2x128_S1x16_1_112 x
  · intro x; exact scale_piece m d L c 1 96 (by omega) inb_S128_S16_96 inb_S2x128_S1x16_1_96 x
  · intro x; exact scale_piece m d L c 1 80 (by omega) inb_S128_S16_80 inb_S2x128_S1x16_1_80 x
  · intro x; exact scale_piece m d L c 1 64 (by omega) inb_S128_S16_64 inb_S2x128_S1x16_1_64 x
  · intro x; exact scale_piece m d L c 1 48 (by omega) inb_S128_S16_48 inb_S2x128_S1x16_1_48 x
  · intro x; exact scale_piece m d L c 1 32 (by omega) inb_S128_S16_32 inb_S2x128_S1x16_1_32 x
  · intro x; exact scale_piece m d L c 1 16 (by omega) inb_S128_S16_16 inb_S2x128_S1x16_1_16 x
  · intro x; exact scale_piece m d L c 1 0 (by omega) inb_S128_S16_0 inb_S2x128_S1x16_1_0 x

/-! ## The eight stores, whatever computed them -/

/-- Eight pieces stored at lanes 0, 16, …, 112 (last store first), each of which is the chunk's scales at its place,
    leave the chunk's scales in the scale scratch, whatever it held before: the pieces tile it. -/
theorem scale_filled_gen (d : Dev nD) (L : grid0.Coords) (c : ℕ) (f : scaleM.view.ty.Contents (Elt F))
    (p0 p1 p2 p3 p4 p5 p6 p7 : FVec F S16 .f32)
    (h0 : ∀ x, p0 x = (scaleVal m d L c : FVec F S128 .f32) ((Rect.unit (s := S128) ![0] S16.size inb_S128_S16_0).emb x))
    (h1 : ∀ x, p1 x = (scaleVal m d L c : FVec F S128 .f32) ((Rect.unit (s := S128) ![16] S16.size inb_S128_S16_16).emb x))
    (h2 : ∀ x, p2 x = (scaleVal m d L c : FVec F S128 .f32) ((Rect.unit (s := S128) ![32] S16.size inb_S128_S16_32).emb x))
    (h3 : ∀ x, p3 x = (scaleVal m d L c : FVec F S128 .f32) ((Rect.unit (s := S128) ![48] S16.size inb_S128_S16_48).emb x))
    (h4 : ∀ x, p4 x = (scaleVal m d L c : FVec F S128 .f32) ((Rect.unit (s := S128) ![64] S16.size inb_S128_S16_64).emb x))
    (h5 : ∀ x, p5 x = (scaleVal m d L c : FVec F S128 .f32) ((Rect.unit (s := S128) ![80] S16.size inb_S128_S16_80).emb x))
    (h6 : ∀ x, p6 x = (scaleVal m d L c : FVec F S128 .f32) ((Rect.unit (s := S128) ![96] S16.size inb_S128_S16_96).emb x))
    (h7 : ∀ x, p7 x = (scaleVal m d L c : FVec F S128 .f32) ((Rect.unit (s := S128) ![112] S16.size inb_S128_S16_112).emb x)) :
    ∀ y, scaleM.view.writes (Elt F) f
      [⟨Rect.unit (s := S128) ![112] S16.size inb_S128_S16_112, p7⟩,
       ⟨Rect.unit (s := S128) ![96] S16.size inb_S128_S16_96, p6⟩,
       ⟨Rect.unit (s := S128) ![80] S16.size inb_S128_S16_80, p5⟩,
       ⟨Rect.unit (s := S128) ![64] S16.size inb_S128_S16_64, p4⟩,
       ⟨Rect.unit (s := S128) ![48] S16.size inb_S128_S16_48, p3⟩,
       ⟨Rect.unit (s := S128) ![32] S16.size inb_S128_S16_32, p2⟩,
       ⟨Rect.unit (s := S128) ![16] S16.size inb_S128_S16_16, p1⟩,
       ⟨Rect.unit (s := S128) ![0] S16.size inb_S128_S16_0, p0⟩] y = scaleVal m d L c y := by
  intro y
  refine View.read_writes_apply_of_pieces (v := scaleM.view) (f := f)
    (scaleVal m d L c : FVec F S128 .f32)
    ([⟨Rect.unit (s := S128) ![112] S16.size inb_S128_S16_112, p7⟩, ⟨Rect.unit (s := S128) ![96] S16.size inb_S128_S16_96, p6⟩, ⟨Rect.unit (s := S128) ![80] S16.size inb_S128_S16_80, p5⟩, ⟨Rect.unit (s := S128) ![64] S16.size inb_S128_S16_64, p4⟩, ⟨Rect.unit (s := S128) ![48] S16.size inb_S128_S16_48, p3⟩, ⟨Rect.unit (s := S128) ![32] S16.size inb_S128_S16_32, p2⟩, ⟨Rect.unit (s := S128) ![16] S16.size inb_S128_S16_16, p1⟩, ⟨Rect.unit (s := S128) ![0] S16.size inb_S128_S16_0, p0⟩] : List (View.Piece (Elt F) S128 .f32)) ?_ y
    (View.cover_of_tiled
      ([⟨Rect.unit (s := S128) ![112] S16.size inb_S128_S16_112, p7⟩, ⟨Rect.unit (s := S128) ![96] S16.size inb_S128_S16_96, p6⟩, ⟨Rect.unit (s := S128) ![80] S16.size inb_S128_S16_80, p5⟩, ⟨Rect.unit (s := S128) ![64] S16.size inb_S128_S16_64, p4⟩, ⟨Rect.unit (s := S128) ![48] S16.size inb_S128_S16_48, p3⟩, ⟨Rect.unit (s := S128) ![32] S16.size inb_S128_S16_32, p2⟩, ⟨Rect.unit (s := S128) ![16] S16.size inb_S128_S16_16, p1⟩, ⟨Rect.unit (s := S128) ![0] S16.size inb_S128_S16_0, p0⟩] : List (View.Piece (Elt F) S128 .f32)) S16.size rfl y)
  intro p hp
  simp only [List.mem_cons, List.mem_nil_iff, or_false] at hp
  rcases hp with rfl | rfl | rfl | rfl | rfl | rfl | rfl | rfl
  · exact h7
  · exact h6
  · exact h5
  · exact h4
  · exact h3
  · exact h2
  · exact h1
  · exact h0

end Cert.KI

end
-- ==== Proof.KI.Trip.lean ====
/-
  One trip of a subcore's main loop, at a symbolic trip number: from what the subcore holds before trip `k` to what it
  holds before trip `k + 1`.
-/
import proofs.«206556_g62818191671566_cont_9to1_m_1093_40_alg».proof.Proof.KI.Inv
import proofs.«206556_g62818191671566_cont_9to1_m_1093_40_alg».proof.Proof.KI.MulLoop
import proofs.«206556_g62818191671566_cont_9to1_m_1093_40_alg».proof.Proof.KI.MulTrip
import proofs.«206556_g62818191671566_cont_9to1_m_1093_40_alg».proof.Proof.KI.MulTrip0
import proofs.«206556_g62818191671566_cont_9to1_m_1093_40_alg».proof.Proof.KI.MulBridge
import proofs.«206556_g62818191671566_cont_9to1_m_1093_40_alg».proof.Proof.KI.OutWrite
import proofs.«206556_g62818191671566_cont_9to1_m_1093_40_alg».proof.Proof.KI.NormW
import proofs.«206556_g62818191671566_cont_9to1_m_1093_40_alg».proof.Proof.KI.Respell
import proofs.«206556_g62818191671566_cont_9to1_m_1093_40_alg».proof.Proof.KI.GatherVal
import proofs.«206556_g62818191671566_cont_9to1_m_1093_40_alg».proof.Proof.KI.OutVal
import proofs.«206556_g62818191671566_cont_9to1_m_1093_40_alg».proof.Proof.KI.OutChunks
import proofs.«206556_g62818191671566_cont_9to1_m_1093_40_alg».proof.Proof.KI.MidxVal
import proofs.«206556_g62818191671566_cont_9to1_m_1093_40_alg».proof.Proof.KI.Norm
import proofs.«206556_g62818191671566_cont_9to1_m_1093_40_alg».proof.Proof.KI.Fold
import proofs.«206556_g62818191671566_cont_9to1_m_1093_40_alg».proof.Proof.KI.ScaleVal

set_option pp.maxSteps 5000
set_option pp.deepTerms false

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The trip's guards, decided -/

theorem trips_eq : k0_t1_loop.trips = 25 := by decide
/-- The write-out of the chunk before is awaited from the second trip on. -/
theorem guard_w1 (k : Fin k0_t1_loop.trips) :
    (Scalar.cmpi .ne (Scalar.extui (Scalar.cmpi .sge (Scalar.addi (Scalar.muli 2#32 (Scf.iv 0#32 1#32 k)) 0#32) 1#32)) 0#32 = 1#1) ↔ k.val ≠ 0 := by
  revert k; decide +kernel
/-- The write-out of the even chunk is awaited in every trip. -/
theorem guard_w0 (k : Fin k0_t1_loop.trips) :
    Scalar.cmpi .ne (Scalar.extui (Scalar.cmpi .sge (Scalar.addi (Scalar.muli 2#32 (Scf.iv 0#32 1#32 k)) 1#32) 1#32)) 0#32 = 1#1 := by
  revert k; decide +kernel
/-- The odd chunk's gathers are issued in every trip. -/
theorem cond4_all (k : Fin k0_t1_loop.trips) : k0_cond4 k = 1#1 := by revert k; decide +kernel
/-- The next even chunk's gathers are issued in every trip but the last. -/
theorem cond6_iff (k : Fin k0_t1_loop.trips) : k0_cond6 k = 1#1 ↔ k.val < 24 := by revert k; decide +kernel

/-- The first flat position of the worker's rows, as the kernel computes it. -/
abbrev baseW (L : grid0.Coords) : BitVec 32 :=
  Scalar.muli (Scalar.addi (Scalar.muli (BitVec.ofNat 32 (L 1).val) 2#32) (BitVec.ofNat 32 (L 0).val)) 6400#32

/-- The trip's program at a grid point. -/
abbrev tripAt [FloatOps F] (L : grid0.Coords) (k : Fin k0_t1_loop.trips) :
    Prog (TpuEff nD τ sig (Elt F) Λ₀ (.scVector ((L 0).castLE hcore0) ((L 1).castLE hsub0))) Unit :=
  k0_t1_body (F := F) L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4
    (baseW L) k ⟨⟩

variable [FloatOps F] (m : (ℓ : Loc nD τ sig) → Buf (Elt F) ℓ) (d : Dev nD) (L : grid0.Coords)
variable (O : CellTallies nD τ sig (HIx 1)) (W : Waits sig (HIx 1))

omit [FloatOps F] in
/-- Contents that agree on the elements held may be exchanged. -/
theorem pts_congr_ent {ℓ : Loc nD τ sig} {I : Finset (Idx ℓ)} {q : PosShare TreeShare} {f g : Buf (Elt F) ℓ} (h : ∀ i ∈ I, f i = g i) :
    (ℓ ↦[I]{q} f : sProp 𝕄) ⊢ (ℓ ↦[I]{q} g) := Entails.of_eq (pointsTo_congr h)

set_option hygiene false in
/-- The trip's last stretch: the odd chunk's draws, scales, rows, product and write-out. -/
local macro "trip_tail2" : tactic => `(tactic| (
  -- the odd chunk's draws have landed: the second row of the draw scratch
  iapply (Transfers.wp_waitLocalO countersEmb 𝒱₀ (thrV d L) none (default : HIx 1) (rfl : (mval1L).view.dmaCredit = _)) $$ [Hfm1 HO]
  · isplitl [Hfm1]; · iexact Hfm1
    isplitl [HO]; · iexact HO
    iapply (Transfers.MayWaits.elim (SemLoc.dma cc0_scratch9.sem)) $$ Hmw
  iintro ⟨Hdm1, Hd3, HO⟩
  unfold Dm1
  icases Hdm1 with ⟨Hmval1, HuB, Hmidx1L⟩
  ihave Hmidx1 := (pointsTo_share (PosShare.mem_left_op_right fullShare)).2 $$ [Hmidx1L Hmidx1K]
  · isplitl [Hmidx1L] <;> iassumption
  -- the odd chunk's scales, from its draws
  sl_exec
  -- the odd chunk's rows have landed: the second half of the row scratch
  iapply (Transfers.wp_waitLocalO countersEmb 𝒱₀ (thrV d L) none (default : HIx 1) (rfl : (rows1G).view.dmaCredit = _)) $$ [Hfr1 HO]
  · isplitl [Hfr1]; · iexact Hfr1
    isplitl [HO]; · iexact HO
    iapply (Transfers.MayWaits.elim (SemLoc.dma cc0_scratch7.sem)) $$ Hmw
  iintro ⟨Hdr1, Hd1, HO⟩
  unfold Dr1
  icases Hdr1 with ⟨Hrows1, HspB, Hlist1⟩
  ihave HidxBr' := (Entails.of_eq (show ((idxM).view.loc (thrV d L) ↦[Finset.univ \ (idxRowA k hc4).view.set]{qIb} idxVal m d L : sProp 𝕄)
      = ((idxM).view.loc (thrV d L) ↦[Finset.univ \ idxRowSet (2 * k.val + 1)]{qIb} idxVal m d L) from by rw [set_idxRowA])) $$ HidxBr
  ihave HidxB := (pointsTo_split_subset (ℓ := (idxM).view.loc (thrV d L)) (f := idxVal m d L) (q := qIb) (I := idxRowSet (2 * k.val + 1)) (S := Finset.univ) (Finset.subset_univ _)).2 $$ [Hlist1 HidxBr']
  · isplitl [Hlist1] <;> iassumption
  sl_exec
  ihave Hscale1 := (pts_congr_ent (F := F) (ℓ := (scaleM).view.loc (thrV d L)) (I := Finset.univ) (q := fullShare)
      (g := (scaleVal m d L (2 * k.val + 1) : Buf (Elt F) ((scaleM).view.loc (thrV d L)))) (fun x _ => by
        refine scale_filled_gen (F := F) m d L (2 * k.val + 1) _ _ _ _ _ _ _ _ _ ?_ ?_ ?_ ?_ ?_ ?_ ?_ ?_ x
        · exact fun y => scale_piece (F := F) m d L (2 * k.val + 1) 1 0 (by omega) _ _ y
        · exact fun y => scale_piece (F := F) m d L (2 * k.val + 1) 1 16 (by omega) _ _ y
        · exact fun y => scale_piece (F := F) m d L (2 * k.val + 1) 1 32 (by omega) _ _ y
        · exact fun y => scale_piece (F := F) m d L (2 * k.val + 1) 1 48 (by omega) _ _ y
        · exact fun y => scale_piece (F := F) m d L (2 * k.val + 1) 1 64 (by omega) _ _ y
        · exact fun y => scale_piece (F := F) m d L (2 * k.val + 1) 1 80 (by omega) _ _ y
        · exact fun y => scale_piece (F := F) m d L (2 * k.val + 1) 1 96 (by omega) _ _ y
        · exact fun y => scale_piece (F := F) m d L (2 * k.val + 1) 1 112 (by omega) _ _ y)) $$ Hscale
  -- the odd chunk's rows scaled: the second inner loop
  iapply (Entails.of_eq (wp_bind frame (wpE (defs₀ (F := F)) 𝒱₀ (thrV d L) none) Set.univ _ _ _).symm)
  iapply (Entails.of_eq (wp_bind frame (wpE (defs₀ (F := F)) 𝒱₀ (thrV d L) none) Set.univ _ _ _).symm)
  iapply (wp_wand_r frame (wpE (defs₀ (F := F)) 𝒱₀ (thrV d L) none) Set.univ
      (Q := fun _ => iprop(((rows1M).view.loc (thrV d L) ↦[(rows1M).view.set]{fullShare} mulRows (rowsVal m d L (2 * k.val + 1)) (scaleVal m d L (2 * k.val + 1)))
        ∗ ((scaleM).view.loc (thrV d L) ↦{fullShare} scaleVal m d L (2 * k.val + 1)))))
  isplitl [Hrows1 Hscale1]
  · iapply (mul_loop1 (F := F) d L (baseW L) _ _ k (rowsVal m d L (2 * k.val + 1)) (scaleVal m d L (2 * k.val + 1)))
    isplitl [Hrows1]; · iexact Hrows1
    iexact Hscale1
  iintro %u1 ⟨Hrows1m, Hscale⟩
  ihave Hrows1 := (pts_congr_ent (F := F) (ℓ := (rows1M).view.loc (thrV d L)) (I := (rows1M).view.set) (q := fullShare)
      (g := (prodVal m d L (2 * k.val + 1) : Buf (Elt F) ((rows1M).view.loc (thrV d L))))
      (fun x _ => mulRows_vals_apply m d L (2 * k.val + 1) x)) $$ Hrows1m
  -- the odd chunk written out; its write-out stays in flight into the next trip
  ihave Hsrc1 := (Entails.of_eq (respell_rowsG1 (F := F) d L fullShare (prodVal m d L (2 * k.val + 1)))) $$ Hrows1
  ihave Hdst1 := (Entails.of_eq (show (outLoc d ↦[chunkSet L (2 * k.val + 1)]{fullShare} m (outLoc d) : sProp 𝕄)
      = ((outChunk L k 1).view.loc (thrV d L) ↦[(outChunk L k 1).view.set]{fullShare} m (outLoc d)) from by rw [set_outChunk]; rfl)) $$ Hc1
  sl_exec))

set_option hygiene false in
/-- The return, not after the last trip: fold into the invariant with the next even chunk's gathers in flight. -/
local macro "trip_fold_mid" : tactic => `(tactic| (
  ihave Hfw1 := (Transfers.Flight_mono countersEmb (thrV d L) (D' := Dw1 m d L (2 * k.val + 1)) (by exact norm_w1 (F := F) m d L hpre k)) $$ Hd5
  ihave HidxAr' := (Entails.of_eq (show ((idxM).view.loc (thrV d L) ↦[Finset.univ \ (idxRowB k hc6).view.set]{qIa} idxVal m d L : sProp 𝕄)
      = ((idxM).view.loc (thrV d L) ↦[Finset.univ \ idxRowSet (2 * k.val + 2)]{qIa} idxVal m d L) from by rw [set_idxRowB])) $$ HidxAr
  sl_step
  iapply (inv_fold_mid (F := F) m d L O W k.val (by omega))
  unfold invCommon
  isplitr; · iexact Hlv
  isplitl [HidxK]; · iexact HidxK
  isplitl [HidxB]; · iexact HidxB
  isplitl [HspB]; · iexact HspB
  isplitl [HuB]; · iexact HuB
  isplitl [Hmidx1]; · iexists _; iexact Hmidx1
  isplitl [Hmval1]; · iexists _; iexact Hmval1
  isplitl [Hscale]; · iexists _; iexact Hscale
  isplitl [Hd1]; · iexact Hd1
  isplitl [Hd3]; · iexact Hd3
  isplitl [Hd4]; · iexact Hd4
  isplitl [Hout']; · iexact Hout'
  isplitl [Hfr0n Hfm0n HidxAr' Hmidx0K]
  · isplitl [Hfr0n]; · iexact Hfr0n
    isplitl [Hfm0n]; · iexact Hfm0n
    isplitl [HidxAr']; · iexact HidxAr'
    iexact Hmidx0K
  isplitl [Hfw1]; · iexact Hfw1
  iexists _
  isplitr
  on_goal 2 => iexact HO
  ipureintro
  repeat (first | exact hW'' | refine waits_insert W ?_ _)))

set_option hygiene false in
/-- The return after the last trip: the first buffer idle, every share home. -/
local macro "trip_fold_last" : tactic => `(tactic| (
  ihave Hfw1 := (Transfers.Flight_mono countersEmb (thrV d L) (D' := Dw1 m d L (2 * k.val + 1)) (by exact norm_w1 (F := F) m d L hpre k)) $$ Hd5
  sl_step
  iapply (inv_fold_last (F := F) m d L O W k.val (by omega))
  unfold invCommon
  isplitr; · iexact Hlv
  isplitl [HidxK]; · iexact HidxK
  isplitl [HidxB]; · iexact HidxB
  isplitl [HspB]; · iexact HspB
  isplitl [HuB]; · iexact HuB
  isplitl [Hmidx1]; · iexists _; iexact Hmidx1
  isplitl [Hmval1]; · iexists _; iexact Hmval1
  isplitl [Hscale]; · iexists _; iexact Hscale
  isplitl [Hd1]; · iexact Hd1
  isplitl [Hd3]; · iexact Hd3
  isplitl [Hd4]; · iexact Hd4
  isplitl [Hout']; · iexact Hout'
  isplitl [Hrows0 HspA HidxA Hmval0 HuA Hmidx0 Hd0 Hd2]
  · isplitl [Hrows0]; · iexists _; iexact Hrows0
    isplitl [HspA]; · iexact HspA
    isplitl [HidxA]; · iexact HidxA
    isplitl [Hmval0]; · iexists _; iexact Hmval0
    isplitl [HuA]; · iexact HuA
    isplitl [Hmidx0]; · iexists _; iexact Hmidx0
    isplitl [Hd0]; · iexact Hd0
    iexact Hd2
  isplitl [Hfw1]; · iexact Hfw1
  iexists _
  isplitr
  on_goal 2 => iexact HO
  ipureintro
  repeat (first | exact hW'' | refine waits_insert W ?_ _)))

set_option hygiene false in
/-- The trip from the odd chunk's gathers on: the same script after either way through the first guard. -/
local macro "trip_tail" : tactic => `(tactic| (
  have hc : 2 * k.val + 1 < 50 := by omega
  -- the odd chunk's rows: gathered into the second half by row 2k+1 of the tokens
  ihave HsB := (Entails.of_eq (respell_spmAll (F := F) d L (qSb L) (tabSh m d (cV L)))) $$ HspB
  ihave Hr1 := (Entails.of_eq (respell_rowsG1 (F := F) d L fullShare _)) $$ Hrows1
  ihave Hl := (pointsTo_split_subset (q := qIb) (S := Finset.univ) (Finset.subset_univ (idxRowA k hc4).view.set)).1 $$ HidxB
  icases Hl with ⟨HlistB, HidxBr⟩
  iapply (SparseCore.wp_indirectGatherLocal countersEmb 𝒱₀ (thrV d L) none (hg := gathers_S1000x128_S128x128) (default : HIx 1)
      (rows1G).view.dmaCredit (hN_rows1 _) (by decide)
      (idxList_lt (F := F) m hpre d L (k0_off3 k) (k0_off3_inb k hc4) ⟨2 * k.val + 1, hc⟩ (k0_off3_eq k))) $$ [HsB Hr1 HlistB Hd1]
  · isplitl [HsB]; · iexact HsB
    isplitl [Hr1]; · iexact Hr1
    isplitl [HlistB]; · iexact HlistB
    iexact Hd1
  iintro Hfr1raw
  ihave Hfr1 := (Transfers.Flight_mono countersEmb (thrV d L) (D' := Dr1 m d L (2 * k.val + 1)) (by exact norm_r1 (F := F) m d L k hc4 _ _ _)) $$ Hfr1raw
  -- the odd chunk's draw indices into the second row, then its draws' gather
  sl_exec
  ihave HuB' := (Entails.of_eq (respell_uAll (F := F) d L (qUb L) (uflatV m d))) $$ HuB
  ihave Hmv1 := (Entails.of_eq (respell_mvalL1 (F := F) d L fullShare _)) $$ Hmval1
  ihave Hmx1 := (pts_congr_ent (F := F) (ℓ := (midx1H).view.loc (thrV d L)) (I := (midx1H).view.set) (q := fullShare)
      (g := (midxVal m d L (2 * k.val + 1) : Buf (Elt F) ((midx1H).view.loc (thrV d L)))) (fun x hx => by
    refine midx_row_filled (F := F) m d L (2 * k.val + 1) (1 : Fin 2) fm1 _ _ _ _ _ _ _ _ _ _ _ _ _ _ _ _ rfl rfl rfl rfl rfl rfl rfl rfl _ _ _ _ _ _ _ _ ?_ ?_ ?_ ?_ ?_ ?_ ?_ ?_ x (mem_midx1H x hx)
    · exact fun ℓ => midxPay_chunk (F := F) m hpre d L ⟨2 * k.val + 1, hc⟩ 0 (by omega) _ (pos_word L (baseW L) _ (2 * k.val + 1) 0 (base_word L) (odd_chunk_word k.val)) _ _ (k0_off4_eq k) ℓ
    · exact fun ℓ => midxPay_chunk (F := F) m hpre d L ⟨2 * k.val + 1, hc⟩ 16 (by omega) _ (pos_word L (baseW L) _ (2 * k.val + 1) 16 (base_word L) (odd_chunk_word k.val)) _ _ (k0_off5_eq k) ℓ
    · exact fun ℓ => midxPay_chunk (F := F) m hpre d L ⟨2 * k.val + 1, hc⟩ 32 (by omega) _ (pos_word L (baseW L) _ (2 * k.val + 1) 32 (base_word L) (odd_chunk_word k.val)) _ _ (k0_off6_eq k) ℓ
    · exact fun ℓ => midxPay_chunk (F := F) m hpre d L ⟨2 * k.val + 1, hc⟩ 48 (by omega) _ (pos_word L (baseW L) _ (2 * k.val + 1) 48 (base_word L) (odd_chunk_word k.val)) _ _ (k0_off7_eq k) ℓ
    · exact fun ℓ => midxPay_chunk (F := F) m hpre d L ⟨2 * k.val + 1, hc⟩ 64 (by omega) _ (pos_word L (baseW L) _ (2 * k.val + 1) 64 (base_word L) (odd_chunk_word k.val)) _ _ (k0_off8_eq k) ℓ
    · exact fun ℓ => midxPay_chunk (F := F) m hpre d L ⟨2 * k.val + 1, hc⟩ 80 (by omega) _ (pos_word L (baseW L) _ (2 * k.val + 1) 80 (base_word L) (odd_chunk_word k.val)) _ _ (k0_off9_eq k) ℓ
    · exact fun ℓ => midxPay_chunk (F := F) m hpre d L ⟨2 * k.val + 1, hc⟩ 96 (by omega) _ (pos_word L (baseW L) _ (2 * k.val + 1) 96 (base_word L) (odd_chunk_word k.val)) _ _ (k0_off10_eq k) ℓ
    · exact fun ℓ => midxPay_chunk (F := F) m hpre d L ⟨2 * k.val + 1, hc⟩ 112 (by omega) _ (pos_word L (baseW L) _ (2 * k.val + 1) 112 (base_word L) (odd_chunk_word k.val)) _ _ (k0_off11_eq k) ℓ)) $$ Hmidx1
  ihave Hmx1s := (pointsTo_share (PosShare.mem_left_op_right fullShare)).1 $$ Hmx1
  icases Hmx1s with ⟨Hmidx1L, Hmidx1K⟩
  ihave Hml := (Entails.of_eq (respell_midxL1 (F := F) d L fullShare.left (midxVal m d L (2 * k.val + 1)))) $$ Hmidx1L
  iapply (SparseCore.wp_indirectGatherLocal countersEmb 𝒱₀ (thrV d L) none (hg := gathers_S4096000_S128) (default : HIx 1)
      (mval1L).view.dmaCredit (hN_mval1 _) (by decide)
      (midxList_lt (F := F) m d L (2 * k.val + 1) ![1, 0] inb_S2x128_S1x128_1_0 1 rfl
        (fun r hr => midxN_lt (F := F) m hpre d L (2 * k.val + 1) r hc hr))) $$ [HuB' Hmv1 Hml Hd3]
  · isplitl [HuB']; · iexact HuB'
    isplitl [Hmv1]; · iexact Hmv1
    isplitl [Hml]; · iexact Hml
    iexact Hd3
  iintro Hfm1raw
  ihave Hfm1 := (Transfers.Flight_mono countersEmb (thrV d L) (D' := Dm1 m d L (2 * k.val + 1)) (by exact norm_m1 (F := F) m d L (2 * k.val + 1) hc hpre _ _ _)) $$ Hfm1raw
  -- the even chunk's draws have landed: the first row of the draw scratch
  sl_exec
  iapply (Transfers.wp_waitLocalO countersEmb 𝒱₀ (thrV d L) none (default : HIx 1) (rfl : (mval0L).view.dmaCredit = _)) $$ [Hfm0 HO]
  · isplitl [Hfm0]; · iexact Hfm0
    isplitl [HO]; · iexact HO
    iapply (Transfers.MayWaits.elim (SemLoc.dma cc0_scratch8.sem)) $$ Hmw
  iintro ⟨Hdm0, Hd2, HO⟩
  unfold Dm0
  icases Hdm0 with ⟨Hmval0, HuA, Hmidx0L⟩
  ihave Hmidx0 := (pointsTo_share (PosShare.mem_left_op_right fullShare)).2 $$ [Hmidx0L Hmidx0K]
  · isplitl [Hmidx0L] <;> iassumption
  -- the even chunk's scales, from its draws
  sl_exec
  -- the even chunk's rows have landed: the first half of the row scratch
  iapply (Transfers.wp_waitLocalO countersEmb 𝒱₀ (thrV d L) none (default : HIx 1) (rfl : (rows0G).view.dmaCredit = _)) $$ [Hfr0 HO]
  · isplitl [Hfr0]; · iexact Hfr0
    isplitl [HO]; · iexact HO
    iapply (Transfers.MayWaits.elim (SemLoc.dma cc0_scratch6.sem)) $$ Hmw
  iintro ⟨Hdr0, Hd0, HO⟩
  unfold Dr0
  icases Hdr0 with ⟨Hrows0, HspA, Hlist0⟩
  ihave HidxA := (pointsTo_split_subset (ℓ := (idxM).view.loc (thrV d L)) (f := idxVal m d L) (q := qIa) (I := idxRowSet (2 * k.val)) (S := Finset.univ) (Finset.subset_univ _)).2 $$ [Hlist0 Hidxr]
  · isplitl [Hlist0] <;> iassumption
  sl_exec
  -- the scales as one function of the chunk's draws
  ihave Hscale' := (pts_congr_ent (F := F) (ℓ := (scaleM).view.loc (thrV d L)) (I := Finset.univ) (q := fullShare)
      (g := (scaleVal m d L (2 * k.val) : Buf (Elt F) ((scaleM).view.loc (thrV d L)))) (fun x _ => by
        refine scale_filled_gen (F := F) m d L (2 * k.val) _ _ _ _ _ _ _ _ _ ?_ ?_ ?_ ?_ ?_ ?_ ?_ ?_ x
        · exact fun y => scale_piece (F := F) m d L (2 * k.val) 0 0 (by omega) _ _ y
        · exact fun y => scale_piece (F := F) m d L (2 * k.val) 0 16 (by omega) _ _ y
        · exact fun y => scale_piece (F := F) m d L (2 * k.val) 0 32 (by omega) _ _ y
        · exact fun y => scale_piece (F := F) m d L (2 * k.val) 0 48 (by omega) _ _ y
        · exact fun y => scale_piece (F := F) m d L (2 * k.val) 0 64 (by omega) _ _ y
        · exact fun y => scale_piece (F := F) m d L (2 * k.val) 0 80 (by omega) _ _ y
        · exact fun y => scale_piece (F := F) m d L (2 * k.val) 0 96 (by omega) _ _ y
        · exact fun y => scale_piece (F := F) m d L (2 * k.val) 0 112 (by omega) _ _ y)) $$ Hscale
  -- the even chunk's rows scaled: the first inner loop, by its own lemma, everything else carried along
  iapply (Entails.of_eq (wp_bind frame (wpE (defs₀ (F := F)) 𝒱₀ (thrV d L) none) Set.univ _ _ _).symm)
  iapply (wp_wand_r frame (wpE (defs₀ (F := F)) 𝒱₀ (thrV d L) none) Set.univ
      (Q := fun _ => iprop(((rows0M).view.loc (thrV d L) ↦[(rows0M).view.set]{fullShare} mulRows (rowsVal m d L (2 * k.val)) (scaleVal m d L (2 * k.val)))
        ∗ ((scaleM).view.loc (thrV d L) ↦{fullShare} scaleVal m d L (2 * k.val)))))
  isplitl [Hrows0 Hscale']
  · iapply (mul_loop0 (F := F) d L (baseW L) k _ _ (rowsVal m d L (2 * k.val)) (scaleVal m d L (2 * k.val)))
    isplitl [Hrows0]; · iexact Hrows0
    iexact Hscale'
  iintro %u0 ⟨Hrows0m, Hscale⟩
  ihave Hrows0 := (pts_congr_ent (F := F) (ℓ := (rows0M).view.loc (thrV d L)) (I := (rows0M).view.set) (q := fullShare)
      (g := (prodVal m d L (2 * k.val) : Buf (Elt F) ((rows0M).view.loc (thrV d L))))
      (fun x _ => mulRows_vals_apply m d L (2 * k.val) x)) $$ Hrows0m
  -- the even chunk written out, and (this being an odd half-trip at least the first) awaited at once
  ihave Hsrc0 := (Entails.of_eq (respell_rowsG0 (F := F) d L fullShare (prodVal m d L (2 * k.val)))) $$ Hrows0
  ihave Hdst0 := (Entails.of_eq (show (outLoc d ↦[chunkSet L (2 * k.val)]{fullShare} m (outLoc d) : sProp 𝕄)
      = ((outChunk L k 0).view.loc (thrV d L) ↦[(outChunk L k 0).view.set]{fullShare} m (outLoc d)) from by rw [set_outChunk]; rfl)) $$ Hc0
  sl_exec
  -- the even chunk's rows of the flat result hold their final value
  ihave Hc0v := (pts_congr_ent (F := F) (ℓ := (outChunk L k 0).view.loc (thrV d L)) (I := (outChunk L k 0).view.set) (q := fullShare)
      (g := (outV m d : Buf (Elt F) ((outChunk L k 0).view.loc (thrV d L))))
      (fun x hx => by exact chunk_written0 m hpre d L k (prodVal m d L (2 * k.val)) (fun y _ => rfl) x hx)) $$ Hdst0
  ihave Hc0f := (Entails.of_eq (show ((outChunk L k 0).view.loc (thrV d L) ↦[(outChunk L k 0).view.set]{fullShare} outV m d : sProp 𝕄)
      = (outLoc d ↦[chunkSet L (2 * k.val)]{fullShare} outV m d) from by rw [set_outChunk]; rfl)) $$ Hc0v
  ihave Hout' := (out_put (F := F) m d L k.val hk) $$ [Hrest Hc0f]
  · isplitl [Hrest] <;> iassumption
  ihave Hrows0 := (Entails.of_eq (respell_rowsG0 (F := F) d L fullShare (prodVal m d L (2 * k.val))).symm) $$ Hsrc0
  by_cases h6 : k.val < 24
  · -- not the last trip: the next even chunk's gathers are issued into the first buffer
    have hc6 : k0_cond6 k = 1#1 := (cond6_iff k).mpr h6
    have hce : 2 * k.val + 2 < 50 := by omega
    sl_exec
    ihave HsA := (Entails.of_eq (respell_spmAll (F := F) d L (qSa L) (tabSh m d (cV L)))) $$ HspA
    ihave Hr0 := (Entails.of_eq (respell_rowsG0 (F := F) d L fullShare _)) $$ Hrows0
    ihave Hl0 := (pointsTo_split_subset (q := qIa) (S := Finset.univ) (Finset.subset_univ (idxRowB k hc6).view.set)).1 $$ HidxA
    icases Hl0 with ⟨HlistA, HidxAr⟩
    iapply (SparseCore.wp_indirectGatherLocal countersEmb 𝒱₀ (thrV d L) none (hg := gathers_S1000x128_S128x128) (default : HIx 1)
        (rows0G).view.dmaCredit (hN_rows0 _) (by decide)
        (idxList_lt (F := F) m hpre d L (k0_off23 k) (k0_off23_inb k hc6) ⟨2 * k.val + 2, hce⟩ (k0_off23_eq k))) $$ [HsA Hr0 HlistA Hd0]
    · isplitl [HsA]; · iexact HsA
      isplitl [Hr0]; · iexact Hr0
      isplitl [HlistA]; · iexact HlistA
      iexact Hd0
    iintro Hfr0raw
    ihave Hfr0n := (Transfers.Flight_mono countersEmb (thrV d L) (D' := Dr0 m d L (2 * k.val + 2)) (by exact norm_r0 (F := F) m d L k hc6 _ _ _)) $$ Hfr0raw
    sl_exec
    ihave HuA' := (Entails.of_eq (respell_uAll (F := F) d L (qUa L) (uflatV m d))) $$ HuA
    ihave Hmv0 := (Entails.of_eq (respell_mvalL0 (F := F) d L fullShare _)) $$ Hmval0
    ihave Hmx0 := (pts_congr_ent (F := F) (ℓ := (midx0H).view.loc (thrV d L)) (I := (midx0H).view.set) (q := fullShare)
        (g := (midxVal m d L (2 * k.val + 2) : Buf (Elt F) ((midx0H).view.loc (thrV d L)))) (fun x hx => by
    refine midx_row_filled (F := F) m d L (2 * k.val + 2) (0 : Fin 2) (midxVal m d L (2 * k.val)) _ _ _ _ _ _ _ _ _ _ _ _ _ _ _ _ rfl rfl rfl rfl rfl rfl rfl rfl _ _ _ _ _ _ _ _ ?_ ?_ ?_ ?_ ?_ ?_ ?_ ?_ x (mem_midx0H x hx)
    · exact fun ℓ => midxPay_chunk (F := F) m hpre d L ⟨2 * k.val + 2, hce⟩ 0 (by omega) _ (pos_word L (baseW L) _ (2 * k.val + 2) 0 (base_word L) (even_chunk_word k.val)) _ _ (k0_off24_eq k) ℓ
    · exact fun ℓ => midxPay_chunk (F := F) m hpre d L ⟨2 * k.val + 2, hce⟩ 16 (by omega) _ (pos_word L (baseW L) _ (2 * k.val + 2) 16 (base_word L) (even_chunk_word k.val)) _ _ (k0_off25_eq k) ℓ
    · exact fun ℓ => midxPay_chunk (F := F) m hpre d L ⟨2 * k.val + 2, hce⟩ 32 (by omega) _ (pos_word L (baseW L) _ (2 * k.val + 2) 32 (base_word L) (even_chunk_word k.val)) _ _ (k0_off26_eq k) ℓ
    · exact fun ℓ => midxPay_chunk (F := F) m hpre d L ⟨2 * k.val + 2, hce⟩ 48 (by omega) _ (pos_word L (baseW L) _ (2 * k.val + 2) 48 (base_word L) (even_chunk_word k.val)) _ _ (k0_off27_eq k) ℓ
    · exact fun ℓ => midxPay_chunk (F := F) m hpre d L ⟨2 * k.val + 2, hce⟩ 64 (by omega) _ (pos_word L (baseW L) _ (2 * k.val + 2) 64 (base_word L) (even_chunk_word k.val)) _ _ (k0_off28_eq k) ℓ
    · exact fun ℓ => midxPay_chunk (F := F) m hpre d L ⟨2 * k.val + 2, hce⟩ 80 (by omega) _ (pos_word L (baseW L) _ (2 * k.val + 2) 80 (base_word L) (even_chunk_word k.val)) _ _ (k0_off29_eq k) ℓ
    · exact fun ℓ => midxPay_chunk (F := F) m hpre d L ⟨2 * k.val + 2, hce⟩ 96 (by omega) _ (pos_word L (baseW L) _ (2 * k.val + 2) 96 (base_word L) (even_chunk_word k.val)) _ _ (k0_off30_eq k) ℓ
    · exact fun ℓ => midxPay_chunk (F := F) m hpre d L ⟨2 * k.val + 2, hce⟩ 112 (by omega) _ (pos_word L (baseW L) _ (2 * k.val + 2) 112 (base_word L) (even_chunk_word k.val)) _ _ (k0_off31_eq k) ℓ)) $$ Hmidx0
    ihave Hmx0s := (pointsTo_share (PosShare.mem_left_op_right fullShare)).1 $$ Hmx0
    icases Hmx0s with ⟨Hmidx0L, Hmidx0K⟩
    ihave Hml0 := (Entails.of_eq (respell_midxL0 (F := F) d L fullShare.left (midxVal m d L (2 * k.val + 2)))) $$ Hmidx0L
    iapply (SparseCore.wp_indirectGatherLocal countersEmb 𝒱₀ (thrV d L) none (hg := gathers_S4096000_S128) (default : HIx 1)
        (mval0L).view.dmaCredit (hN_mval0 _) (by decide)
        (midxList_lt (F := F) m d L (2 * k.val + 2) ![0, 0] inb_S2x128_S1x128_0_0 0 rfl
          (fun r hr => midxN_lt (F := F) m hpre d L (2 * k.val + 2) r hce hr))) $$ [HuA' Hmv0 Hml0 Hd2]
    · isplitl [HuA']; · iexact HuA'
      isplitl [Hmv0]; · iexact Hmv0
      isplitl [Hml0]; · iexact Hml0
      iexact Hd2
    iintro Hfm0raw
    ihave Hfm0n := (Transfers.Flight_mono countersEmb (thrV d L) (D' := Dm0 m d L (2 * k.val + 2)) (by exact norm_m0 (F := F) m d L (2 * k.val + 2) hce hpre _ _ _)) $$ Hfm0raw
    sl_exec
    trip_tail2
    trip_fold_mid
  · -- the last trip: nothing more to gather
    have hc6 : ¬ k0_cond6 k = 1#1 := fun h => h6 ((cond6_iff k).mp h)
    sl_exec
    trip_tail2
    trip_fold_last))

set_option maxHeartbeats 4000000 in
theorem trip (hpre : PreOK m) (hO : ∀ g, O g none = 0) (k : Fin k0_t1_loop.trips) :
    (Inv m d L O W k.val ⟨⟩ : sProp 𝕄)
      ⊢ wp frame (wpE (defs₀ (F := F)) 𝒱₀ (thrV d L) none) Set.univ (tripAt (F := F) L k)
          fun a => Inv m d L O W (k.val + 1) a := by
  have hk : k.val < 25 := trips_eq ▸ k.isLt
  have hc4 := cond4_all k
  have hw0 := guard_w0 k
  -- the program first, while the invariant is still folded
  unfold tripAt k0_t1_body
  simp only [k0_part86_eq_skeleton]; unfold k0_part86_skel
  simp only [k0_part80_eq_skeleton]; unfold k0_part80_skel
  by_cases h0 : k.val = 0
  · -- the first trip: no write-out to await; the second half of the row scratch is idle
    have hg : ¬ (Scalar.cmpi .ne (Scalar.extui (Scalar.cmpi .sge (Scalar.addi (Scalar.muli 2#32 (Scf.iv 0#32 1#32 k)) 0#32) 1#32)) 0#32 = 1#1) :=
      fun h => (guard_w1 k).mp h h0
    refine ent_trans (F := F) (inv_open_first (F := F) m d L O W k.val hk h0) ?_
    unfold invCommon
    iintro ⟨#Hlv, HidxK, HidxB, HspB, HuB, ⟨%fm1, Hmidx1⟩, ⟨%fv1, Hmval1⟩, ⟨%fsc, Hscale⟩, Hd1, Hd3, Hd4, Hout, ⟨Hfr0, Hfm0, Hidxr, Hmidx0K⟩, ⟨⟨%fr1, Hrows1⟩, Hd5⟩, %W'', %hW'', HO⟩
    ihave Hmw := (show levAts (K (F := F)).L (K (F := F)).lev ⊢ Transfers.MayWaits (thrV d L) (default : HIx 1) O from
      (K (F := F)).mayWaits_none (thr := thrV d L) hO) $$ Hlv
    sl_exec
    have hp0 : (iprop(emp) : sProp 𝕄) ⊢ prevDone m d L k.val := by unfold prevDone; rw [if_pos h0]
    ihave Hout2 := (out_take (F := F) m d L k.val hk) $$ [Hout]
    · isplitl [Hout]; · iexact Hout
      iapply hp0; iempintro
    icases Hout2 with ⟨Hc0, Hc1, Hrest⟩
    trip_tail
  · have hg : Scalar.cmpi .ne (Scalar.extui (Scalar.cmpi .sge (Scalar.addi (Scalar.muli 2#32 (Scf.iv 0#32 1#32 k)) 0#32) 1#32)) 0#32 = 1#1 :=
      (guard_w1 k).mpr h0
    refine ent_trans (F := F) (inv_open_later (F := F) m d L O W k.val hk h0) ?_
    unfold invCommon
    iintro ⟨#Hlv, HidxK, HidxB, HspB, HuB, ⟨%fm1, Hmidx1⟩, ⟨%fv1, Hmval1⟩, ⟨%fsc, Hscale⟩, Hd1, Hd3, Hd4, Hout, ⟨Hfr0, Hfm0, Hidxr, Hmidx0K⟩, Hfw1, %W'', %hW'', HO⟩
    ihave Hmw := (show levAts (K (F := F)).L (K (F := F)).lev ⊢ Transfers.MayWaits (thrV d L) (default : HIx 1) O from
      (K (F := F)).mayWaits_none (thr := thrV d L) hO) $$ Hlv
    sl_exec
    -- the write-out of the chunk before: its wait
    iapply (Transfers.wp_waitLocalO countersEmb 𝒱₀ (thrV d L) none (default : HIx 1)
        (show ((outM).slice (Rect.unit (s := S204800x128) ![0, 0] S128x128.size inb_S204800x128_S128x128_0_0) (fun _ => rfl)).view.dmaCredit
            = (rows1G).view.dmaCredit from rfl)) $$ [Hfw1 HO]
    · isplitl [Hfw1]; · iexact Hfw1
      isplitl [HO]; · iexact HO
      iapply (Transfers.MayWaits.elim (SemLoc.dma cc0_scratch11.sem)) $$ Hmw
    iintro ⟨Hdw, Hd5, HO⟩
    unfold Dw1
    icases Hdw with ⟨Hprev, Hrows1⟩
    sl_exec
    have hp1 : (outLoc d ↦[chunkSet L (2 * k.val - 1)]{fullShare} outV m d : sProp 𝕄) ⊢ prevDone m d L k.val := by
      unfold prevDone; rw [if_neg h0]
    ihave Hout2 := (out_take (F := F) m d L k.val hk) $$ [Hout Hprev]
    · isplitl [Hout]; · iexact Hout
      iapply hp1; iexact Hprev
    icases Hout2 with ⟨Hc0, Hc1, Hrest⟩
    trip_tail

end Cert.KI

end
-- ==== Proof.KI.Body.lean ====
/-
  One vector subcore's task, whole: the fetch of its tokens and the staging of its rows of the table, the barrier, the
  first chunk's gathers, the main loop by its invariant, the last write-out's wait, and everything handed back.
-/
import proofs.«206556_g62818191671566_cont_9to1_m_1093_40_alg».proof.Proof.KI.BarrierPay
import proofs.«206556_g62818191671566_cont_9to1_m_1093_40_alg».proof.Proof.KI.Rejoin
import proofs.«206556_g62818191671566_cont_9to1_m_1093_40_alg».proof.Proof.KI.OutChunks
import proofs.«206556_g62818191671566_cont_9to1_m_1093_40_alg».proof.Proof.KI.Norm
import proofs.«206556_g62818191671566_cont_9to1_m_1093_40_alg».proof.Proof.KI.Fold
import proofs.«206556_g62818191671566_cont_9to1_m_1093_40_alg».proof.Proof.KI.GatherVal
import proofs.«206556_g62818191671566_cont_9to1_m_1093_40_alg».proof.Proof.KI.Trip

set_option pp.maxSteps 5000
set_option pp.deepTerms false

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Contents that agree on the elements held may be exchanged. -/
theorem pts_congr_ent' {ℓ : Loc nD τ sig} {I : Finset (Idx ℓ)} {q : PosShare TreeShare} {f g : Buf (Elt F) ℓ} (h : ∀ i ∈ I, f i = g i) :
    (ℓ ↦[I]{q} f : sProp 𝕄) ⊢ (ℓ ↦[I]{q} g) := Entails.of_eq (pointsTo_congr h)

/-- Below the last subcore the second staging branch is not taken. -/
theorem cond1_v8 (L : grid0.Coords) (h : k0_cond1 L = 1#1) :
    ¬ (Scalar.cmpi .ne (Scalar.extui (Scalar.cmpi .eq (BitVec.ofNat 32 (L 1).val) 15#32)) 0#32 = 1#1) := by
  revert h; revert L; decide +kernel

variable [FloatOps F] (m : (ℓ : Loc nD τ sig) → Buf (Elt F) ℓ)

/-- The row scratch cut into its halves, in the spelling the prologue leaves it in. -/
theorem split_rowsM (d : Dev nD) (L : grid0.Coords) (f : Buf (Elt F) ((rowsM).view.loc (thrV d L))) :
    (((rowsM).view.loc (thrV d L) ↦{fullShare} f) : sProp 𝕄)
      ⊢ iprop(((rows0H).view.loc (thrV d L) ↦[(rows0H).view.set]{fullShare} f) ∗ ((rows1H).view.loc (thrV d L) ↦[(rows1H).view.set]{fullShare} f)) :=
  split_rows (F := F) d L f

/-- The token scratch cut into its three shares, in the spelling the prologue leaves it in. -/
theorem split_idxM (d : Dev nD) (L : grid0.Coords) (v : Buf (Elt F) ((idxM).view.loc (thrV d L))) :
    (((idxM).view.loc (thrV d L) ↦{fullShare} v) : sProp 𝕄)
      ⊢ iprop(((idxM).view.loc (thrV d L) ↦{qIk} v) ∗ ((idxM).view.loc (thrV d L) ↦{qIa} v) ∗ ((idxM).view.loc (thrV d L) ↦{qIb} v)) :=
  split_idx (F := F) d L v

set_option maxHeartbeats 4000000 in
theorem tile_body_A (hF : (K (F := F)).Facts) (hpre : PreOK m) (d : Dev nD) (L : grid0.Coords) (hL : k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) :
    (iprop(levAts (K (F := F)).L (K (F := F)).lev ∗ bkit m d (cV L) (jV L)
        ∗ (goMain m d (cV L) (jL L) ∗ ∃ f, shLoc d (cV L) ↦[spmSet (jL L)]{fullShare} f)
        ∗ scopedBufs (thrV d L) ∗ scopedSems0 (thrV d L) ∗ owes (thrV d L) (O + oxV d (cV L)) W) : sProp 𝕄)
      ⊢ wp frame (wpE (defs₀ (F := F)) 𝒱₀ (thrV d L) none) Set.univ (kernelAt (F := F) L)
          fun _ => iprop((tdMain m d (cV L) (jL L) ∗ shLoc d (cV L) ↦{qS (jL L)} tabSh m d (cV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  unfold kernelAt
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit goMain tdMain inPts
  iintro ⟨#Hlv, ⟨⟨%κ, #Hinv⟩, Htoks, #Hrch, Hat, Hcred⟩, ⟨⟨⟨Htab, Htok, Hu⟩, Hout⟩, %fsh, Hsh⟩,
    ⟨⟨%fidx, Hidx⟩, ⟨%fmidx, Hmidx⟩, ⟨%fmval, Hmval⟩, ⟨%fscale, Hscale⟩, ⟨%frows, Hrows⟩, Hbufs⟩,
    ⟨Hd0, Hd1, Hd2, Hd3, Hd4, Hd5, Hd6, Hd7, Hd8, Hd9, Hd10, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw := (show levAts (K (F := F)).L (K (F := F)).lev ⊢ Transfers.MayWaits (thrV d L) (default : HIx 1) O from
    (K (F := F)).mayWaits_none (thr := thrV d L) hO) $$ Hlv
  ihave Hm2 := (split_midx (F := F) d L fmidx) $$ Hmidx
  icases Hm2 with ⟨Hmidx0, Hmidx1⟩
  ihave Hv2 := (split_mval (F := F) d L fmval) $$ Hmval
  icases Hv2 with ⟨Hmval0, Hmval1⟩
  ihave Hu2 := (split_u (F := F) d L (uflatV m d)) $$ Hu
  icases Hu2 with ⟨HuA, HuB⟩
  ihave Hout0 := (out_init (F := F) m d L) $$ Hout
  ihave Hscale' := (Entails.of_eq (show ((thrV d L).loc cc0_scratch3 ↦{fullShare} fscale : sProp 𝕄) = ((scaleM).view.loc (thrV d L) ↦{fullShare} fscale) from rfl)) $$ Hscale
  ihave Htab' := (Entails.of_eq (show (tabLoc d ↦{qT (cV L) (jL L)} m (tabLoc d) : sProp 𝕄) = ((tabM).view.loc (thrV d L) ↦{qT (cV L) (jL L)} m (tabLoc d)) from rfl)) $$ Htab
  ihave Htok' := (Entails.of_eq (show (tokLoc d ↦{qT (cV L) (jL L)} tok3V m d : sProp 𝕄) = ((tokM).view.loc (thrV d L) ↦{qT (cV L) (jL L)} tok3V m d) from rfl)) $$ Htok
  ihave Hidx' := (Entails.of_eq (show ((thrV d L).loc cc0_scratch0 ↦{fullShare} fidx : sProp 𝕄) = ((idxM).view.loc (thrV d L) ↦{fullShare} fidx) from rfl)) $$ Hidx
  ihave Hrows' := (Entails.of_eq (show ((thrV d L).loc cc0_scratch4 ↦{fullShare} frows : sProp 𝕄) = ((rowsM).view.loc (thrV d L) ↦{fullShare} frows) from rfl)) $$ Hrows
  have hshEq : ∀ f : Buf (Elt F) (shLoc d (cV L)), (shLoc d (cV L) ↦[spmSet (jL L)]{fullShare} f : sProp 𝕄)
      = ((spmRowsA L hL).view.loc (thrV d L) ↦[(spmRowsA L hL).view.set]{fullShare} f) := fun f => by
    rw [set_spmRowsA]; rfl
  ihave Hsh' := (Entails.of_eq (hshEq fsh)) $$ Hsh
  have hv8 := cond1_v8 L hL
  sl_exec
  -- the staged rows hold the table's entries
  ihave Hsh2 := (pts_congr_ent' (F := F) (ℓ := (spmRowsA L hL).view.loc (thrV d L)) (I := (spmRowsA L hL).view.set) (q := fullShare)
      (g := (tabSh m d (cV L) : Buf (Elt F) ((spmRowsA L hL).view.loc (thrV d L)))) (fun x hx => by exact staged_A (F := F) m d L hL fsh frows x hx)) $$ Hsh'
  ihave Hsh3 := (Entails.of_eq (hshEq (tabSh m d (cV L))).symm) $$ Hsh2
  -- the barrier: the staged rows handed out in sixteenths, a sixteenth of every subcore's rows received
  ihave Hpays := (pays_intro (F := F) m d L) $$ Hsh3
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hspm := (pays_elim (F := F) m d L) $$ Hgot
  -- the buffers cut into the pieces the loop works with
  ihave Hidx1 := (pts_congr_ent' (F := F) (ℓ := (idxM).view.loc (thrV d L)) (I := Finset.univ) (q := fullShare)
      (g := (idxVal m d L : Buf (Elt F) ((idxM).view.loc (thrV d L)))) (fun x _ => by exact congrFun (idx_landed (F := F) m d L fidx) x)) $$ Hidx'
  ihave Hi3 := (split_idxM (F := F) d L (idxVal m d L)) $$ Hidx1
  icases Hi3 with ⟨HidxK, HidxA, HidxB⟩
  ihave Hr2 := (split_rowsM (F := F) d L _) $$ Hrows'
  icases Hr2 with ⟨Hrows0, Hrows1⟩
  ihave Hs2 := (split_spm (F := F) d L (tabSh m d (cV L))) $$ Hspm
  icases Hs2 with ⟨HspA, HspB⟩
  -- the first chunk's rows: gathered into the first half by row 0 of the tokens
  ihave HsA := (Entails.of_eq (respell_spmAll (F := F) d L (qSa L) (tabSh m d (cV L)))) $$ HspA
  ihave Hr0 := (Entails.of_eq (respell_rowsG0 (F := F) d L fullShare _)) $$ Hrows0
  ihave Hl0 := (pointsTo_split_subset (q := qIa) (S := Finset.univ) (Finset.subset_univ (idxRow0L).view.set)).1 $$ HidxA
  icases Hl0 with ⟨HlistA, HidxAr⟩
  iapply (SparseCore.wp_indirectGatherLocal countersEmb 𝒱₀ (thrV d L) none (hg := gathers_S1000x128_S128x128) (default : HIx 1)
      (rows0G).view.dmaCredit (hN_rows0 _) (by decide)
      (idxList_lt (F := F) m hpre d L ![0, 0] inb_S50x128_S1x128_0_0 ⟨0, by norm_num⟩ rfl)) $$ [HsA Hr0 HlistA Hd0]
  · isplitl [HsA]; · iexact HsA
    isplitl [Hr0]; · iexact Hr0
    isplitl [HlistA]; · iexact HlistA
    iexact Hd0
  iintro Hfr0raw
  ihave Hfr0 := (Transfers.Flight_mono countersEmb (thrV d L) (D' := Dr0 m d L 0) (by exact norm_r0_first (F := F) m d L _ _ _)) $$ Hfr0raw
  -- the first chunk's draw indices, then its draws' gather
  sl_exec
  ihave HuA' := (Entails.of_eq (respell_uAll (F := F) d L (qUa L) (uflatV m d))) $$ HuA
  ihave Hmv0 := (Entails.of_eq (respell_mvalL0 (F := F) d L fullShare _)) $$ Hmval0
  ihave Hmx0 := (pts_congr_ent' (F := F) (ℓ := (midx0H).view.loc (thrV d L)) (I := (midx0H).view.set) (q := fullShare)
      (g := (midxVal m d L 0 : Buf (Elt F) ((midx0H).view.loc (thrV d L)))) (fun x hx => by
    refine midx_row_filled (F := F) m d L 0 (0 : Fin 2) _ _ _ _ _ _ _ _ _ _ _ _ _ _ _ _ _ rfl rfl rfl rfl rfl rfl rfl rfl _ _ _ _ _ _ _ _ ?_ ?_ ?_ ?_ ?_ ?_ ?_ ?_ x (mem_midx0H x hx)
    · exact fun ℓ => midxPay_chunk (F := F) m hpre d L ⟨0, by norm_num⟩ 0 (by omega) _ (pos_word0 L _ 0 (base_word L)) _ _ rfl ℓ
    · exact fun ℓ => midxPay_chunk (F := F) m hpre d L ⟨0, by norm_num⟩ 16 (by omega) _ (pos_word0 L _ 16 (base_word L)) _ _ rfl ℓ
    · exact fun ℓ => midxPay_chunk (F := F) m hpre d L ⟨0, by norm_num⟩ 32 (by omega) _ (pos_word0 L _ 32 (base_word L)) _ _ rfl ℓ
    · exact fun ℓ => midxPay_chunk (F := F) m hpre d L ⟨0, by norm_num⟩ 48 (by omega) _ (pos_word0 L _ 48 (base_word L)) _ _ rfl ℓ
    · exact fun ℓ => midxPay_chunk (F := F) m hpre d L ⟨0, by norm_num⟩ 64 (by omega) _ (pos_word0 L _ 64 (base_word L)) _ _ rfl ℓ
    · exact fun ℓ => midxPay_chunk (F := F) m hpre d L ⟨0, by norm_num⟩ 80 (by omega) _ (pos_word0 L _ 80 (base_word L)) _ _ rfl ℓ
    · exact fun ℓ => midxPay_chunk (F := F) m hpre d L ⟨0, by norm_num⟩ 96 (by omega) _ (pos_word0 L _ 96 (base_word L)) _ _ rfl ℓ
    · exact fun ℓ => midxPay_chunk (F := F) m hpre d L ⟨0, by norm_num⟩ 112 (by omega) _ (pos_word0 L _ 112 (base_word L)) _ _ rfl ℓ)) $$ Hmidx0
  ihave Hmx0s := (pointsTo_share (PosShare.mem_left_op_right fullShare)).1 $$ Hmx0
  icases Hmx0s with ⟨Hmidx0L, Hmidx0K⟩
  ihave Hml0 := (Entails.of_eq (respell_midxL0 (F := F) d L fullShare.left (midxVal m d L 0))) $$ Hmidx0L
  iapply (SparseCore.wp_indirectGatherLocal countersEmb 𝒱₀ (thrV d L) none (hg := gathers_S4096000_S128) (default : HIx 1)
      (mval0L).view.dmaCredit (hN_mval0 _) (by decide)
      (midxList_lt (F := F) m d L 0 ![0, 0] inb_S2x128_S1x128_0_0 0 rfl
        (fun r hr => midxN_lt (F := F) m hpre d L 0 r (by norm_num) hr))) $$ [HuA' Hmv0 Hml0 Hd2]
  · isplitl [HuA']; · iexact HuA'
    isplitl [Hmv0]; · iexact Hmv0
    isplitl [Hml0]; · iexact Hml0
    iexact Hd2
  iintro Hfm0raw
  ihave Hfm0 := (Transfers.Flight_mono countersEmb (thrV d L) (D' := Dm0 m d L 0) (by exact norm_m0 (F := F) m d L 0 (by norm_num) hpre _ _ _)) $$ Hfm0raw
  ihave HidxAr' := (Entails.of_eq (show ((idxM).view.loc (thrV d L) ↦[Finset.univ \ (idxRow0L).view.set]{qIa} idxVal m d L : sProp 𝕄)
      = ((idxM).view.loc (thrV d L) ↦[Finset.univ \ idxRowSet 0]{qIa} idxVal m d L) from by rw [set_idxRow0L])) $$ HidxAr
  -- the main loop, by its invariant: each trip is the trip theorem
  sl_for (Inv m d L O W) $$ [HidxK HidxB HspB HuB Hmidx1 Hmval1 Hscale' Hd1 Hd3 Hd4 Hout0 Hfr0 Hfm0 HidxAr' Hmidx0K Hrows1 Hd5 HO]
  · intro k acc
    exact trip (F := F) m d L O W hpre hO k
  · -- entering the loop
    iapply (inv_fold_init (F := F) m d L O W)
    unfold invCommon
    isplitr; · iexact Hlv
    isplitl [HidxK]; · iexact HidxK
    isplitl [HidxB]; · iexact HidxB
    isplitl [HspB]; · iexact HspB
    isplitl [HuB]; · iexact HuB
    isplitl [Hmidx1]; · iexists _; iexact Hmidx1
    isplitl [Hmval1]; · iexists _; iexact Hmval1
    isplitl [Hscale']; · iexists _; iexact Hscale'
    isplitl [Hd1]; · iexact Hd1
    isplitl [Hd3]; · iexact Hd3
    isplitl [Hd4]; · iexact Hd4
    isplitl [Hout0]; · iexact Hout0
    isplitl [Hfr0 Hfm0 HidxAr' Hmidx0K]
    · isplitl [Hfr0]; · iexact Hfr0
      isplitl [Hfm0]; · iexact Hfm0
      isplitl [HidxAr']; · iexact HidxAr'
      iexact Hmidx0K
    isplitl [Hrows1 Hd5]
    · isplitl [Hrows1]; · iexists _; iexact Hrows1
      iexact Hd5
    iexists _
    isplitr
    on_goal 2 => iexact HO
    ipureintro
    intro p hp
    rcases Finset.mem_insert.mp hp with rfl | hp
    · exact Or.inr (Or.inr rfl)
    · exact (waits_insert W (waits_insert W (waits_insert W (fun p hp => Or.inl hp) _) _) _) p hp
  · -- after the loop: the last chunk's write-out awaited, everything joined back and handed over
    have h25 : Scf.trips k0_t1_loop.lb k0_t1_loop.ub k0_t1_loop.st = 25 := by decide
    iintro %acc HI
    ihave HI2 := (Entails.of_eq (show (Inv m d L O W (Scf.trips k0_t1_loop.lb k0_t1_loop.ub k0_t1_loop.st) acc : sProp 𝕄) = Inv m d L O W 25 ⟨⟩ from by rw [h25])) $$ HI
    ihave HI3 := (inv_unfold_last (F := F) m d L O W) $$ HI2
    icases HI3 with ⟨-, HidxK, HidxB, HspB, HuB, ⟨%fm1, Hmidx1⟩, ⟨%fv1, Hmval1⟩, ⟨%fsc, Hscale⟩, Hd1, Hd3, Hd4, Hout, ⟨⟨%fr0, Hrows0⟩, HspA, HidxA, ⟨%fv0, Hmval0⟩, HuA, ⟨%fm0, Hmidx0⟩, Hd0, Hd2⟩, Hfw1, %W'', %hW'', HO⟩
    sl_exec
    iapply (Transfers.wp_waitLocalO countersEmb 𝒱₀ (thrV d L) none (default : HIx 1)
        (show ((outM).slice (Rect.unit (s := S204800x128) ![0, 0] S128x128.size inb_S204800x128_S128x128_0_0) (fun _ => rfl)).view.dmaCredit
            = (rows1G).view.dmaCredit from rfl)) $$ [Hfw1 HO]
    · isplitl [Hfw1]; · iexact Hfw1
      isplitl [HO]; · iexact HO
      iapply (Transfers.MayWaits.elim (SemLoc.dma cc0_scratch11.sem)) $$ Hmw
    iintro ⟨Hdw, Hd5, HO⟩
    unfold Dw1
    icases Hdw with ⟨Hlast, Hrows1⟩
    sl_exec
    sl_step
    ihave Hslab := (out_final (F := F) m d L) $$ [Hout Hlast]
    · isplitl [Hout] <;> iassumption
    ihave Hidxj := (join_idx (F := F) d L (idxVal m d L)) $$ [HidxK HidxA HidxB]
    · isplitl [HidxK]; · iexact HidxK
      isplitl [HidxA] <;> iassumption
    ihave Hrowsj := (join_rows (F := F) d L) $$ [Hrows0 Hrows1]
    · isplitl [Hrows0]; · iexists _; iexact Hrows0
      iexists _; iexact Hrows1
    ihave Hmidxj := (join_midx (F := F) d L) $$ [Hmidx0 Hmidx1]
    · isplitl [Hmidx0]; · iexists _; iexact Hmidx0
      iexists _; iexact Hmidx1
    ihave Hmvalj := (join_mval (F := F) d L) $$ [Hmval0 Hmval1]
    · isplitl [Hmval0]; · iexists _; iexact Hmval0
      iexists _; iexact Hmval1
    ihave Hspmj := (join_spm (F := F) d L (tabSh m d (cV L))) $$ [HspA HspB]
    · isplitl [HspA] <;> iassumption
    ihave Huj := (join_u (F := F) d L (uflatV m d)) $$ [HuA HuB]
    · isplitl [HuA] <;> iassumption
    isplitl [Htab' Htok' Huj Hslab Hspmj]
    · isplitl [Htab' Htok' Huj Hslab]
      · isplitl [Htab' Htok' Huj]
        · isplitl [Htab']; · iexact Htab'
          isplitl [Htok']; · iexact Htok'
          iexact Huj
        iexact Hslab
      iexact Hspmj
    isplitl [Hidxj Hmidxj Hmvalj Hscale Hrowsj Hbufs]
    · isplitl [Hidxj]; · iexists _; iexact Hidxj
      isplitl [Hmidxj]; · iexact Hmidxj
      isplitl [Hmvalj]; · iexact Hmvalj
      isplitl [Hscale]; · iexists _; iexact Hscale
      isplitl [Hrowsj]; · iexact Hrowsj
      iexact Hbufs
    isplitl [Hd0 Hd1 Hd2 Hd3 Hd4 Hd5 Hd6 Hd7 Hd8 Hd9 Hd10 Hsems]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      iexact Hsems
    iexists _
    isplitr
    on_goal 2 => iexact HO
    ipureintro
    repeat (first | exact hW'' | refine waits_insert W ?_ _)

/-- The subcore at which the first staging branch is not taken is the last one. -/
theorem cond1_not_15 (L : grid0.Coords) (h : ¬ k0_cond1 L = 1#1) : (jL L).val = 15 := by
  revert h; revert L; decide +kernel

/-- At the last subcore the second staging branch is taken. -/
theorem cond1_v8B (L : grid0.Coords) (h : ¬ k0_cond1 L = 1#1) :
    Scalar.cmpi .ne (Scalar.extui (Scalar.cmpi .eq (BitVec.ofNat 32 (L 1).val) 15#32)) 0#32 = 1#1 := by
  revert h; revert L; decide +kernel

set_option maxHeartbeats 4000000 in
theorem tile_body_B (hF : (K (F := F)).Facts) (hpre : PreOK m) (d : Dev nD) (L : grid0.Coords) (hLn : ¬ k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) :
    (iprop(levAts (K (F := F)).L (K (F := F)).lev ∗ bkit m d (cV L) (jV L)
        ∗ (goMain m d (cV L) (jL L) ∗ ∃ f, shLoc d (cV L) ↦[spmSet (jL L)]{fullShare} f)
        ∗ scopedBufs (thrV d L) ∗ scopedSems0 (thrV d L) ∗ owes (thrV d L) (O + oxV d (cV L)) W) : sProp 𝕄)
      ⊢ wp frame (wpE (defs₀ (F := F)) 𝒱₀ (thrV d L) none) Set.univ (kernelAt (F := F) L)
          fun _ => iprop((tdMain m d (cV L) (jL L) ∗ shLoc d (cV L) ↦{qS (jL L)} tabSh m d (cV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  unfold kernelAt
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit goMain tdMain inPts
  iintro ⟨#Hlv, ⟨⟨%κ, #Hinv⟩, Htoks, #Hrch, Hat, Hcred⟩, ⟨⟨⟨Htab, Htok, Hu⟩, Hout⟩, %fsh, Hsh⟩,
    ⟨⟨%fidx, Hidx⟩, ⟨%fmidx, Hmidx⟩, ⟨%fmval, Hmval⟩, ⟨%fscale, Hscale⟩, ⟨%frows, Hrows⟩, Hbufs⟩,
    ⟨Hd0, Hd1, Hd2, Hd3, Hd4, Hd5, Hd6, Hd7, Hd8, Hd9, Hd10, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw := (show levAts (K (F := F)).L (K (F := F)).lev ⊢ Transfers.MayWaits (thrV d L) (default : HIx 1) O from
    (K (F := F)).mayWaits_none (thr := thrV d L) hO) $$ Hlv
  ihave Hm2 := (split_midx (F := F) d L fmidx) $$ Hmidx
  icases Hm2 with ⟨Hmidx0, Hmidx1⟩
  ihave Hv2 := (split_mval (F := F) d L fmval) $$ Hmval
  icases Hv2 with ⟨Hmval0, Hmval1⟩
  ihave Hu2 := (split_u (F := F) d L (uflatV m d)) $$ Hu
  icases Hu2 with ⟨HuA, HuB⟩
  ihave Hout0 := (out_init (F := F) m d L) $$ Hout
  ihave Hscale' := (Entails.of_eq (show ((thrV d L).loc cc0_scratch3 ↦{fullShare} fscale : sProp 𝕄) = ((scaleM).view.loc (thrV d L) ↦{fullShare} fscale) from rfl)) $$ Hscale
  ihave Htab' := (Entails.of_eq (show (tabLoc d ↦{qT (cV L) (jL L)} m (tabLoc d) : sProp 𝕄) = ((tabM).view.loc (thrV d L) ↦{qT (cV L) (jL L)} m (tabLoc d)) from rfl)) $$ Htab
  ihave Htok' := (Entails.of_eq (show (tokLoc d ↦{qT (cV L) (jL L)} tok3V m d : sProp 𝕄) = ((tokM).view.loc (thrV d L) ↦{qT (cV L) (jL L)} tok3V m d) from rfl)) $$ Htok
  ihave Hidx' := (Entails.of_eq (show ((thrV d L).loc cc0_scratch0 ↦{fullShare} fidx : sProp 𝕄) = ((idxM).view.loc (thrV d L) ↦{fullShare} fidx) from rfl)) $$ Hidx
  ihave Hrows' := (Entails.of_eq (show ((thrV d L).loc cc0_scratch4 ↦{fullShare} frows : sProp 𝕄) = ((rowsM).view.loc (thrV d L) ↦{fullShare} frows) from rfl)) $$ Hrows
  have h15 : (jL L).val = 15 := cond1_not_15 L hLn
  have hshEq : ∀ f : Buf (Elt F) (shLoc d (cV L)), (shLoc d (cV L) ↦[spmSet (jL L)]{fullShare} f : sProp 𝕄)
      = ((spmRowsB).view.loc (thrV d L) ↦[(spmRowsB).view.set]{fullShare} f) := fun f => by
    rw [set_spmRowsB L h15]; rfl
  ihave Hsh' := (Entails.of_eq (hshEq fsh)) $$ Hsh
  have hv8 := cond1_v8B L hLn
  sl_exec
  -- the staged rows hold the table's entries
  ihave Hsh2 := (pts_congr_ent' (F := F) (ℓ := (spmRowsB).view.loc (thrV d L)) (I := (spmRowsB).view.set) (q := fullShare)
      (g := (tabSh m d (cV L) : Buf (Elt F) ((spmRowsB).view.loc (thrV d L)))) (fun x hx => by exact staged_B (F := F) m d L fsh frows x hx)) $$ Hsh'
  ihave Hsh3 := (Entails.of_eq (hshEq (tabSh m d (cV L))).symm) $$ Hsh2
  -- the barrier: the staged rows handed out in sixteenths, a sixteenth of every subcore's rows received
  ihave Hpays := (pays_intro (F := F) m d L) $$ Hsh3
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hspm := (pays_elim (F := F) m d L) $$ Hgot
  -- the buffers cut into the pieces the loop works with
  ihave Hidx1 := (pts_congr_ent' (F := F) (ℓ := (idxM).view.loc (thrV d L)) (I := Finset.univ) (q := fullShare)
      (g := (idxVal m d L : Buf (Elt F) ((idxM).view.loc (thrV d L)))) (fun x _ => by exact congrFun (idx_landed (F := F) m d L fidx) x)) $$ Hidx'
  ihave Hi3 := (split_idxM (F := F) d L (idxVal m d L)) $$ Hidx1
  icases Hi3 with ⟨HidxK, HidxA, HidxB⟩
  ihave Hr2 := (split_rowsM (F := F) d L _) $$ Hrows'
  icases Hr2 with ⟨Hrows0, Hrows1⟩
  ihave Hs2 := (split_spm (F := F) d L (tabSh m d (cV L))) $$ Hspm
  icases Hs2 with ⟨HspA, HspB⟩
  -- the first chunk's rows: gathered into the first half by row 0 of the tokens
  ihave HsA := (Entails.of_eq (respell_spmAll (F := F) d L (qSa L) (tabSh m d (cV L)))) $$ HspA
  ihave Hr0 := (Entails.of_eq (respell_rowsG0 (F := F) d L fullShare _)) $$ Hrows0
  ihave Hl0 := (pointsTo_split_subset (q := qIa) (S := Finset.univ) (Finset.subset_univ (idxRow0L).view.set)).1 $$ HidxA
  icases Hl0 with ⟨HlistA, HidxAr⟩
  iapply (SparseCore.wp_indirectGatherLocal countersEmb 𝒱₀ (thrV d L) none (hg := gathers_S1000x128_S128x128) (default : HIx 1)
      (rows0G).view.dmaCredit (hN_rows0 _) (by decide)
      (idxList_lt (F := F) m hpre d L ![0, 0] inb_S50x128_S1x128_0_0 ⟨0, by norm_num⟩ rfl)) $$ [HsA Hr0 HlistA Hd0]
  · isplitl [HsA]; · iexact HsA
    isplitl [Hr0]; · iexact Hr0
    isplitl [HlistA]; · iexact HlistA
    iexact Hd0
  iintro Hfr0raw
  ihave Hfr0 := (Transfers.Flight_mono countersEmb (thrV d L) (D' := Dr0 m d L 0) (by exact norm_r0_first (F := F) m d L _ _ _)) $$ Hfr0raw
  -- the first chunk's draw indices, then its draws' gather
  sl_exec
  ihave HuA' := (Entails.of_eq (respell_uAll (F := F) d L (qUa L) (uflatV m d))) $$ HuA
  ihave Hmv0 := (Entails.of_eq (respell_mvalL0 (F := F) d L fullShare _)) $$ Hmval0
  ihave Hmx0 := (pts_congr_ent' (F := F) (ℓ := (midx0H).view.loc (thrV d L)) (I := (midx0H).view.set) (q := fullShare)
      (g := (midxVal m d L 0 : Buf (Elt F) ((midx0H).view.loc (thrV d L)))) (fun x hx => by
    refine midx_row_filled (F := F) m d L 0 (0 : Fin 2) _ _ _ _ _ _ _ _ _ _ _ _ _ _ _ _ _ rfl rfl rfl rfl rfl rfl rfl rfl _ _ _ _ _ _ _ _ ?_ ?_ ?_ ?_ ?_ ?_ ?_ ?_ x (mem_midx0H x hx)
    · exact fun ℓ => midxPay_chunk (F := F) m hpre d L ⟨0, by norm_num⟩ 0 (by omega) _ (pos_word0 L _ 0 (base_word L)) _ _ rfl ℓ
    · exact fun ℓ => midxPay_chunk (F := F) m hpre d L ⟨0, by norm_num⟩ 16 (by omega) _ (pos_word0 L _ 16 (base_word L)) _ _ rfl ℓ
    · exact fun ℓ => midxPay_chunk (F := F) m hpre d L ⟨0, by norm_num⟩ 32 (by omega) _ (pos_word0 L _ 32 (base_word L)) _ _ rfl ℓ
    · exact fun ℓ => midxPay_chunk (F := F) m hpre d L ⟨0, by norm_num⟩ 48 (by omega) _ (pos_word0 L _ 48 (base_word L)) _ _ rfl ℓ
    · exact fun ℓ => midxPay_chunk (F := F) m hpre d L ⟨0, by norm_num⟩ 64 (by omega) _ (pos_word0 L _ 64 (base_word L)) _ _ rfl ℓ
    · exact fun ℓ => midxPay_chunk (F := F) m hpre d L ⟨0, by norm_num⟩ 80 (by omega) _ (pos_word0 L _ 80 (base_word L)) _ _ rfl ℓ
    · exact fun ℓ => midxPay_chunk (F := F) m hpre d L ⟨0, by norm_num⟩ 96 (by omega) _ (pos_word0 L _ 96 (base_word L)) _ _ rfl ℓ
    · exact fun ℓ => midxPay_chunk (F := F) m hpre d L ⟨0, by norm_num⟩ 112 (by omega) _ (pos_word0 L _ 112 (base_word L)) _ _ rfl ℓ)) $$ Hmidx0
  ihave Hmx0s := (pointsTo_share (PosShare.mem_left_op_right fullShare)).1 $$ Hmx0
  icases Hmx0s with ⟨Hmidx0L, Hmidx0K⟩
  ihave Hml0 := (Entails.of_eq (respell_midxL0 (F := F) d L fullShare.left (midxVal m d L 0))) $$ Hmidx0L
  iapply (SparseCore.wp_indirectGatherLocal countersEmb 𝒱₀ (thrV d L) none (hg := gathers_S4096000_S128) (default : HIx 1)
      (mval0L).view.dmaCredit (hN_mval0 _) (by decide)
      (midxList_lt (F := F) m d L 0 ![0, 0] inb_S2x128_S1x128_0_0 0 rfl
        (fun r hr => midxN_lt (F := F) m hpre d L 0 r (by norm_num) hr))) $$ [HuA' Hmv0 Hml0 Hd2]
  · isplitl [HuA']; · iexact HuA'
    isplitl [Hmv0]; · iexact Hmv0
    isplitl [Hml0]; · iexact Hml0
    iexact Hd2
  iintro Hfm0raw
  ihave Hfm0 := (Transfers.Flight_mono countersEmb (thrV d L) (D' := Dm0 m d L 0) (by exact norm_m0 (F := F) m d L 0 (by norm_num) hpre _ _ _)) $$ Hfm0raw
  ihave HidxAr' := (Entails.of_eq (show ((idxM).view.loc (thrV d L) ↦[Finset.univ \ (idxRow0L).view.set]{qIa} idxVal m d L : sProp 𝕄)
      = ((idxM).view.loc (thrV d L) ↦[Finset.univ \ idxRowSet 0]{qIa} idxVal m d L) from by rw [set_idxRow0L])) $$ HidxAr
  -- the main loop, by its invariant: each trip is the trip theorem
  sl_for (Inv m d L O W) $$ [HidxK HidxB HspB HuB Hmidx1 Hmval1 Hscale' Hd1 Hd3 Hd4 Hout0 Hfr0 Hfm0 HidxAr' Hmidx0K Hrows1 Hd5 HO]
  · intro k acc
    exact trip (F := F) m d L O W hpre hO k
  · -- entering the loop
    iapply (inv_fold_init (F := F) m d L O W)
    unfold invCommon
    isplitr; · iexact Hlv
    isplitl [HidxK]; · iexact HidxK
    isplitl [HidxB]; · iexact HidxB
    isplitl [HspB]; · iexact HspB
    isplitl [HuB]; · iexact HuB
    isplitl [Hmidx1]; · iexists _; iexact Hmidx1
    isplitl [Hmval1]; · iexists _; iexact Hmval1
    isplitl [Hscale']; · iexists _; iexact Hscale'
    isplitl [Hd1]; · iexact Hd1
    isplitl [Hd3]; · iexact Hd3
    isplitl [Hd4]; · iexact Hd4
    isplitl [Hout0]; · iexact Hout0
    isplitl [Hfr0 Hfm0 HidxAr' Hmidx0K]
    · isplitl [Hfr0]; · iexact Hfr0
      isplitl [Hfm0]; · iexact Hfm0
      isplitl [HidxAr']; · iexact HidxAr'
      iexact Hmidx0K
    isplitl [Hrows1 Hd5]
    · isplitl [Hrows1]; · iexists _; iexact Hrows1
      iexact Hd5
    iexists _
    isplitr
    on_goal 2 => iexact HO
    ipureintro
    intro p hp
    rcases Finset.mem_insert.mp hp with rfl | hp
    · exact Or.inr (Or.inr rfl)
    · exact (waits_insert W (waits_insert W (waits_insert W (fun p hp => Or.inl hp) _) _) _) p hp
  · -- after the loop: the last chunk's write-out awaited, everything joined back and handed over
    have h25 : Scf.trips k0_t1_loop.lb k0_t1_loop.ub k0_t1_loop.st = 25 := by decide
    iintro %acc HI
    ihave HI2 := (Entails.of_eq (show (Inv m d L O W (Scf.trips k0_t1_loop.lb k0_t1_loop.ub k0_t1_loop.st) acc : sProp 𝕄) = Inv m d L O W 25 ⟨⟩ from by rw [h25])) $$ HI
    ihave HI3 := (inv_unfold_last (F := F) m d L O W) $$ HI2
    icases HI3 with ⟨-, HidxK, HidxB, HspB, HuB, ⟨%fm1, Hmidx1⟩, ⟨%fv1, Hmval1⟩, ⟨%fsc, Hscale⟩, Hd1, Hd3, Hd4, Hout, ⟨⟨%fr0, Hrows0⟩, HspA, HidxA, ⟨%fv0, Hmval0⟩, HuA, ⟨%fm0, Hmidx0⟩, Hd0, Hd2⟩, Hfw1, %W'', %hW'', HO⟩
    sl_exec
    iapply (Transfers.wp_waitLocalO countersEmb 𝒱₀ (thrV d L) none (default : HIx 1)
        (show ((outM).slice (Rect.unit (s := S204800x128) ![0, 0] S128x128.size inb_S204800x128_S128x128_0_0) (fun _ => rfl)).view.dmaCredit
            = (rows1G).view.dmaCredit from rfl)) $$ [Hfw1 HO]
    · isplitl [Hfw1]; · iexact Hfw1
      isplitl [HO]; · iexact HO
      iapply (Transfers.MayWaits.elim (SemLoc.dma cc0_scratch11.sem)) $$ Hmw
    iintro ⟨Hdw, Hd5, HO⟩
    unfold Dw1
    icases Hdw with ⟨Hlast, Hrows1⟩
    sl_exec
    sl_step
    ihave Hslab := (out_final (F := F) m d L) $$ [Hout Hlast]
    · isplitl [Hout] <;> iassumption
    ihave Hidxj := (join_idx (F := F) d L (idxVal m d L)) $$ [HidxK HidxA HidxB]
    · isplitl [HidxK]; · iexact HidxK
      isplitl [HidxA] <;> iassumption
    ihave Hrowsj := (join_rows (F := F) d L) $$ [Hrows0 Hrows1]
    · isplitl [Hrows0]; · iexists _; iexact Hrows0
      iexists _; iexact Hrows1
    ihave Hmidxj := (join_midx (F := F) d L) $$ [Hmidx0 Hmidx1]
    · isplitl [Hmidx0]; · iexists _; iexact Hmidx0
      iexists _; iexact Hmidx1
    ihave Hmvalj := (join_mval (F := F) d L) $$ [Hmval0 Hmval1]
    · isplitl [Hmval0]; · iexists _; iexact Hmval0
      iexists _; iexact Hmval1
    ihave Hspmj := (join_spm (F := F) d L (tabSh m d (cV L))) $$ [HspA HspB]
    · isplitl [HspA] <;> iassumption
    ihave Huj := (join_u (F := F) d L (uflatV m d)) $$ [HuA HuB]
    · isplitl [HuA] <;> iassumption
    isplitl [Htab' Htok' Huj Hslab Hspmj]
    · isplitl [Htab' Htok' Huj Hslab]
      · isplitl [Htab' Htok' Huj]
        · isplitl [Htab']; · iexact Htab'
          isplitl [Htok']; · iexact Htok'
          iexact Huj
        iexact Hslab
      iexact Hspmj
    isplitl [Hidxj Hmidxj Hmvalj Hscale Hrowsj Hbufs]
    · isplitl [Hidxj]; · iexists _; iexact Hidxj
      isplitl [Hmidxj]; · iexact Hmidxj
      isplitl [Hmvalj]; · iexact Hmvalj
      isplitl [Hscale]; · iexists _; iexact Hscale
      isplitl [Hrowsj]; · iexact Hrowsj
      iexact Hbufs
    isplitl [Hd0 Hd1 Hd2 Hd3 Hd4 Hd5 Hd6 Hd7 Hd8 Hd9 Hd10 Hsems]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      iexact Hsems
    iexists _
    isplitr
    on_goal 2 => iexact HO
    ipureintro
    repeat (first | exact hW'' | refine waits_insert W ?_ _)

/-- One vector subcore's task, at every grid point: the last subcore stages the table's last forty rows, every other one
    sixty-four; from the barrier on they run alike. -/
theorem tile_body : TileBody m := fun hF hpre d L O W hO hOlev => by
  by_cases hL : k0_cond1 L = 1#1
  · exact tile_body_A m hF hpre d L hL O W hO hOlev
  · exact tile_body_B m hF hpre d L hL O W hO hOlev

end Cert.KI

end
-- ==== Proof.KB.Own.lean ====
/-
  A vector subcore's own storage, named piece by piece: its eleven DMA semaphores (the six the kernel declares and the
  five of its synchronous copies) each at zero, and its five scratch buffers each at some contents, beside whatever
  else the subcore owns.
-/
import proofs.«206556_g62818191671566_cont_9to1_m_1093_40_alg».proof.Proof.KB.TileStmt

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem mem_erase_of {α : Type} [DecidableEq α] {s : Finset α} {a b : α} (hne : a ≠ b) (h : a ∈ s) : a ∈ s.erase b :=
  Finset.mem_erase.mpr ⟨hne, h⟩

/-- The subcore's DMA semaphore number `k`, as a cell. -/
abbrev dcell (d : Dev nD) (L : grid0.Coords) (k : Fin 11) : GSem nD τ sig := (thrV d L, SemLoc.dma k)

theorem dne (d : Dev nD) (L : grid0.Coords) {a b : Fin 11} (h : a ≠ b) : dcell d L a ≠ dcell d L b :=
  fun e => h (SemLoc.dma.inj (Prod.mk.inj e).2)

theorem dmem (d : Dev nD) (L : grid0.Coords) (k : Fin 11) : dcell d L k ∈ ownCells (thrV d L) :=
  (mem_ownCells (g := dcell d L k)).mpr ⟨rfl, by
    show (SemLoc.dma k : SemLoc sig).isScoped .scVector = true
    revert k; decide⟩

/-- Every DMA semaphore of the subcore at zero, one by one, and the rest of its cells. -/
theorem ownSems0_V (d : Dev nD) (L : grid0.Coords) :
    (ownSems0 (thrV d L) : sProp 𝕄)
      = iprop(semVal (dcell d L 0) 0 ∗ semVal (dcell d L 1) 0 ∗ semVal (dcell d L 2) 0 ∗ semVal (dcell d L 3) 0 ∗ semVal (dcell d L 4) 0 ∗ semVal (dcell d L 5) 0 ∗ semVal (dcell d L 6) 0 ∗ semVal (dcell d L 7) 0 ∗ semVal (dcell d L 8) 0 ∗ semVal (dcell d L 9) 0 ∗ semVal (dcell d L 10) 0
          ∗ bigSep ((((((((((((ownCells (thrV d L)).erase (dcell d L 0)).erase (dcell d L 1)).erase (dcell d L 2)).erase (dcell d L 3)).erase (dcell d L 4)).erase (dcell d L 5)).erase (dcell d L 6)).erase (dcell d L 7)).erase (dcell d L 8)).erase (dcell d L 9)).erase (dcell d L 10)) fun g => semVal g 0) := by
  unfold SparseCore.Cfg.ownSems0
  rw [SparseCore.bigSep_erase' (dmem d L 0),
    SparseCore.bigSep_erase' (mem_erase_of (dne d L (show (1 : Fin 11) ≠ 0 by decide)) (dmem d L 1)),
    SparseCore.bigSep_erase' (mem_erase_of (dne d L (show (2 : Fin 11) ≠ 1 by decide)) (mem_erase_of (dne d L (show (2 : Fin 11) ≠ 0 by decide)) (dmem d L 2))),
    SparseCore.bigSep_erase' (mem_erase_of (dne d L (show (3 : Fin 11) ≠ 2 by decide)) (mem_erase_of (dne d L (show (3 : Fin 11) ≠ 1 by decide)) (mem_erase_of (dne d L (show (3 : Fin 11) ≠ 0 by decide)) (dmem d L 3)))),
    SparseCore.bigSep_erase' (mem_erase_of (dne d L (show (4 : Fin 11) ≠ 3 by decide)) (mem_erase_of (dne d L (show (4 : Fin 11) ≠ 2 by decide)) (mem_erase_of (dne d L (show (4 : Fin 11) ≠ 1 by decide)) (mem_erase_of (dne d L (show (4 : Fin 11) ≠ 0 by decide)) (dmem d L 4))))),
    SparseCore.bigSep_erase' (mem_erase_of (dne d L (show (5 : Fin 11) ≠ 4 by decide)) (mem_erase_of (dne d L (show (5 : Fin 11) ≠ 3 by decide)) (mem_erase_of (dne d L (show (5 : Fin 11) ≠ 2 by decide)) (mem_erase_of (dne d L (show (5 : Fin 11) ≠ 1 by decide)) (mem_erase_of (dne d L (show (5 : Fin 11) ≠ 0 by decide)) (dmem d L 5)))))),
    SparseCore.bigSep_erase' (mem_erase_of (dne d L (show (6 : Fin 11) ≠ 5 by decide)) (mem_erase_of (dne d L (show (6 : Fin 11) ≠ 4 by decide)) (mem_erase_of (dne d L (show (6 : Fin 11) ≠ 3 by decide)) (mem_erase_of (dne d L (show (6 : Fin 11) ≠ 2 by decide)) (mem_erase_of (dne d L (show (6 : Fin 11) ≠ 1 by decide)) (mem_erase_of (dne d L (show (6 : Fin 11) ≠ 0 by decide)) (dmem d L 6))))))),
    SparseCore.bigSep_erase' (mem_erase_of (dne d L (show (7 : Fin 11) ≠ 6 by decide)) (mem_erase_of (dne d L (show (7 : Fin 11) ≠ 5 by decide)) (mem_erase_of (dne d L (show (7 : Fin 11) ≠ 4 by decide)) (mem_erase_of (dne d L (show (7 : Fin 11) ≠ 3 by decide)) (mem_erase_of (dne d L (show (7 : Fin 11) ≠ 2 by decide)) (mem_erase_of (dne d L (show (7 : Fin 11) ≠ 1 by decide)) (mem_erase_of (dne d L (show (7 : Fin 11) ≠ 0 by decide)) (dmem d L 7)))))))),
    SparseCore.bigSep_erase' (mem_erase_of (dne d L (show (8 : Fin 11) ≠ 7 by decide)) (mem_erase_of (dne d L (show (8 : Fin 11) ≠ 6 by decide)) (mem_erase_of (dne d L (show (8 : Fin 11) ≠ 5 by decide)) (mem_erase_of (dne d L (show (8 : Fin 11) ≠ 4 by decide)) (mem_erase_of (dne d L (show (8 : Fin 11) ≠ 3 by decide)) (mem_erase_of (dne d L (show (8 : Fin 11) ≠ 2 by decide)) (mem_erase_of (dne d L (show (8 : Fin 11) ≠ 1 by decide)) (mem_erase_of (dne d L (show (8 : Fin 11) ≠ 0 by decide)) (dmem d L 8))))))))),
    SparseCore.bigSep_erase' (mem_erase_of (dne d L (show (9 : Fin 11) ≠ 8 by decide)) (mem_erase_of (dne d L (show (9 : Fin 11) ≠ 7 by decide)) (mem_erase_of (dne d L (show (9 : Fin 11) ≠ 6 by decide)) (mem_erase_of (dne d L (show (9 : Fin 11) ≠ 5 by decide)) (mem_erase_of (dne d L (show (9 : Fin 11) ≠ 4 by decide)) (mem_erase_of (dne d L (show (9 : Fin 11) ≠ 3 by decide)) (mem_erase_of (dne d L (show (9 : Fin 11) ≠ 2 by decide)) (mem_erase_of (dne d L (show (9 : Fin 11) ≠ 1 by decide)) (mem_erase_of (dne d L (show (9 : Fin 11) ≠ 0 by decide)) (dmem d L 9)))))))))),
    SparseCore.bigSep_erase' (mem_erase_of (dne d L (show (10 : Fin 11) ≠ 9 by decide)) (mem_erase_of (dne d L (show (10 : Fin 11) ≠ 8 by decide)) (mem_erase_of (dne d L (show (10 : Fin 11) ≠ 7 by decide)) (mem_erase_of (dne d L (show (10 : Fin 11) ≠ 6 by decide)) (mem_erase_of (dne d L (show (10 : Fin 11) ≠ 5 by decide)) (mem_erase_of (dne d L (show (10 : Fin 11) ≠ 4 by decide)) (mem_erase_of (dne d L (show (10 : Fin 11) ≠ 3 by decide)) (mem_erase_of (dne d L (show (10 : Fin 11) ≠ 2 by decide)) (mem_erase_of (dne d L (show (10 : Fin 11) ≠ 1 by decide)) (mem_erase_of (dne d L (show (10 : Fin 11) ≠ 0 by decide)) (dmem d L 10)))))))))))]

/-- A scratch buffer of the subcore, as a device reference. -/
abbrev sref (c : Fin τ.nSC) (j : Fin τ.nSub) (b : Ref sig .scVector) : DevRef τ sig := (Proc.scVector c j).devRef b

theorem bmem (c : Fin τ.nSC) (j : Fin τ.nSub) (b : Ref sig .scVector) (h : (sref c j b).owner = .proc (.scVector c j)) :
    sref c j b ∈ ownRefs (τ := τ) (sig := sig) (.scVector c j) :=
  SparseCore.Cfg.mem_ownRefs_of_owner (p := Proc.scVector c j) (b := sref c j b) h

theorem bne (c : Fin τ.nSC) (j : Fin τ.nSub) (a b : Ref sig .scVector) (h : (sref c j a).idx.val ≠ (sref c j b).idx.val) : sref c j a ≠ sref c j b :=
  fun e => h (congrArg (fun r : DevRef τ sig => r.idx.val) e)

/-- Each scratch buffer of the subcore at some contents, one by one, and the rest of what it owns. -/
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f)
          ∗ bigSep ((((((ownRefs (τ := τ) (.scVector (cV L) (jV L))).erase (sref (cV L) (jV L) cc0_scratch0)).erase (sref (cV L) (jV L) cc0_scratch1)).erase (sref (cV L) (jV L) cc0_scratch2)).erase (sref (cV L) (jV L) cc0_scratch3)).erase (sref (cV L) (jV L) cc0_scratch4)) fun b => iprop(∃ f, ((d, b) : Loc nD τ sig) ↦{fullShare} f)) := by
  unfold SparseCore.Cfg.ownBufs
  rw [SparseCore.bigSep_erase' (bmem (cV L) (jV L) cc0_scratch0 rfl),
    SparseCore.bigSep_erase' (mem_erase_of (bne (cV L) (jV L) cc0_scratch1 cc0_scratch0 (show (1 : ℕ) ≠ 0 by decide)) (bmem (cV L) (jV L) cc0_scratch1 rfl)),
    SparseCore.bigSep_erase' (mem_erase_of (bne (cV L) (jV L) cc0_scratch2 cc0_scratch1 (show (2 : ℕ) ≠ 1 by decide)) (mem_erase_of (bne (cV L) (jV L) cc0_scratch2 cc0_scratch0 (show (2 : ℕ) ≠ 0 by decide)) (bmem (cV L) (jV L) cc0_scratch2 rfl))),
    SparseCore.bigSep_erase' (mem_erase_of (bne (cV L) (jV L) cc0_scratch3 cc0_scratch2 (show (3 : ℕ) ≠ 2 by decide)) (mem_erase_of (bne (cV L) (jV L) cc0_scratch3 cc0_scratch1 (show (3 : ℕ) ≠ 1 by decide)) (mem_erase_of (bne (cV L) (jV L) cc0_scratch3 cc0_scratch0 (show (3 : ℕ) ≠ 0 by decide)) (bmem (cV L) (jV L) cc0_scratch3 rfl)))),
    SparseCore.bigSep_erase' (mem_erase_of (bne (cV L) (jV L) cc0_scratch4 cc0_scratch3 (show (4 : ℕ) ≠ 3 by decide)) (mem_erase_of (bne (cV L) (jV L) cc0_scratch4 cc0_scratch2 (show (4 : ℕ) ≠ 2 by decide)) (mem_erase_of (bne (cV L) (jV L) cc0_scratch4 cc0_scratch1 (show (4 : ℕ) ≠ 1 by decide)) (mem_erase_of (bne (cV L) (jV L) cc0_scratch4 cc0_scratch0 (show (4 : ℕ) ≠ 0 by decide)) (bmem (cV L) (jV L) cc0_scratch4 rfl)))))]

end Cert.KB

end
-- ==== Proof.KB.PrologueVal.lean ====
/-
  What the tile's first copies leave in its buffers.  A copy's payload is the source read through its view; landed
  through a view of the whole destination it replaces the contents, and landed through a run of rows it replaces those
  rows.  The chunk buffer then holds the worker's fifty chunks of tokens, and the rows of the shared copy a subcore
  staged hold the table's rows: the staging buffer is written whole and read back whole, and the rows of the table and
  of the shared copy are cut by the same rectangle of two arrays of one shape.
-/
import proofs.«206556_g62818191671566_cont_9to1_m_1093_40_alg».proof.Proof.KB.Own

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The views the first copies go through -/

/-- The worker's fifty chunks of tokens: group `2 (L 1) + (L 0)` of the regrouped token array, its unit axis dropped. -/
abbrev tokSlab (L : grid0.Coords) : Memref sig .scVector .hbm S50x128 .i32 :=
  ((tokM).slice (Rect.unit (s := S32x50x128) (k0_off1 L) S1x50x128.size (k0_off1_inb L)) (fun _ => rfl)).squeeze S50x128
    squeezes_S1x50x128_S50x128

theorem wid_lt (L : grid0.Coords) : 2 * (L 1).val + (L 0).val < 32 := by
  have h0 : (L 0).val < 2 := (L 0).isLt
  have h1 : (L 1).val < 16 := (L 1).isLt
  omega

variable (m : (ℓ : Loc nD τ sig) → Buf (Elt F) ℓ)

/-- What the chunk buffer holds once the tokens have landed: entry (c, r) is the token of the worker's chunk c at r. -/
def idxVal (d : Dev nD) (L : grid0.Coords) : Buf (Elt F) ((thrV d L).loc cc0_scratch0) :=
  ((fun j => (tok3V m d : IVec S32x50x128 32)
      (ix3 (⟨2 * (L 1).val + (L 0).val, wid_lt L⟩ : Fin 32) (j 0 : Fin 50) (j 1 : Fin 128))) : IVec S50x128 32)

/-- Where entry (a, b) of the worker's chunks sits in the regrouped token array. -/
theorem tokSlab_emb (L : grid0.Coords) (a : Fin 50) (b : Fin 128) :
    (tokSlab L).view.emb (ix2 a b) = (ix3 (⟨2 * (L 1).val + (L 0).val, wid_lt L⟩ : Fin 32) a b : S32x50x128.Idx) := by
  have e1 : Shape.reshapeEquiv (squeezes_S1x50x128_S50x128 : S1x50x128.Squeezes S50x128).numel_eq (ix2 a b)
      = (ix3 (⟨0, Nat.one_pos⟩ : Fin 1) a b : S1x50x128.Idx) := by
    refine Shape.reshapeEquiv_eq_of_rowMajor _ ?_
    rw [Shape.rowMajor_val_three, Shape.rowMajor_val_two]
    show (0 * 50 + a.val) * 128 + b.val = a.val * 128 + b.val
    omega
  show (Rect.unit (s := S32x50x128) (k0_off1 L) S1x50x128.size (k0_off1_inb L)).emb
      (Shape.reshapeEquiv (squeezes_S1x50x128_S50x128 : S1x50x128.Squeezes S50x128).numel_eq (ix2 a b)) = _
  rw [e1]
  funext k
  apply Fin.ext
  rw [Rect.emb_apply]
  have h0 : k0_off1 L 0 = 2 * (L 1).val + (L 0).val := by rw [k0_off1_eq]; rfl
  have h1 : k0_off1 L 1 = 0 := by rw [k0_off1_eq]; rfl
  have h2 : k0_off1 L 2 = 0 := by rw [k0_off1_eq]; rfl
  match k with
  | ⟨0, _⟩ => show k0_off1 L 0 + 1 * 0 = 2 * (L 1).val + (L 0).val; omega
  | ⟨1, _⟩ => show k0_off1 L 1 + 1 * a.val = a.val; omega
  | ⟨2, _⟩ => show k0_off1 L 2 + 1 * b.val = b.val; omega

/-- The tokens landed in the chunk buffer: the copy replaces the buffer's contents by the worker's chunks. -/
theorem idx_landed (d : Dev nD) (L : grid0.Coords) (fidx : Buf (Elt F) ((thrV d L).loc cc0_scratch0)) :
    View.write (Elt F) (idxM).view fidx (ReadAs.same.apply (View.read (Elt F) (tokSlab L).view (tok3V m d))) Finset.univ
      = idxVal m d L := by
  refine (View.write_whole_univ (Val := Elt F) cc0_scratch0 fidx _).trans ?_
  funext j
  obtain ⟨a, b, rfl⟩ : ∃ (a : Fin 50) (b : Fin 128), j = ix2 a b := ⟨j 0, j 1, eq_ix2 j⟩
  rw [ReadAs.apply_same, View.read_apply, tokSlab_emb]
  rfl

/-! ## Staging the table's rows: a subcore below the last -/

/-- The sixty-four rows of the table a subcore below the last stages, as the program slices them. -/
abbrev tabRowsA (L : grid0.Coords) (h : k0_cond1 L = 1#1) : Memref sig .scVector .hbm S64x128 .f32 :=
  (tabM).slice (Rect.unit (s := S1000x128) (k0_off2 L) S64x128.size (k0_off2_inb L h)) (fun _ => rfl)

/-- The first sixty-four rows of the first half of the row scratch, the unit axis dropped. -/
abbrev rows64 : Memref sig .scVector .vmem S64x128 .f32 :=
  ((rowsM).slice (Rect.unit (s := S2x128x128) ![0, 0, 0] S1x64x128.size inb_S2x128x128_S1x64x128_0_0_0) (fun _ => rfl)).squeeze
    S64x128 squeezes_S1x64x128_S64x128

/-- The rows of the shared copy a subcore below the last stages, as the program slices them. -/
abbrev spmRowsA (L : grid0.Coords) (h : k0_cond1 L = 1#1) : Memref sig .scVector .shared S64x128 .f32 :=
  (spmM).slice (Rect.unit (s := S1000x128) (k0_off2 L) S64x128.size (k0_off2_inb L h)) (fun _ => rfl)

/-- Below the last subcore the staged rows are the sixty-four from `64 i` on. -/
theorem cond1_lt (L : grid0.Coords) (h : k0_cond1 L = 1#1) : (jL L).val < 15 := by
  revert h; revert L; decide +kernel

theorem set_spmRowsA (L : grid0.Coords) (h : k0_cond1 L = 1#1) : (spmRowsA L h).view.set = spmSet (jL L) := by
  show ((spmM).view.slice (Rect.unit (s := S1000x128) (k0_off2 L) S64x128.size (k0_off2_inb L h))).set = (spmRect (jL L)).set
  rw [View.set_slice]
  have hr : Rect.unit (s := S1000x128) (k0_off2 L) S64x128.size (k0_off2_inb L h) = spmRect (jL L) := by
    unfold spmRect
    congr 1
    · rw [k0_off2_eq]; rfl
    · funext a
      have := cond1_lt L h
      match a with
      | ⟨0, _⟩ => show 64 = spmCount (jL L); unfold spmCount; rw [if_pos this]
      | ⟨1, _⟩ => rfl
  rw [hr]; exact Finset.map_refl

/-- The rows a subcore below the last staged hold the table's rows: the staging buffer is written whole with the
    table's rows and read back whole, and the rows of the shared copy it lands in are cut by the rectangle that cut
    the table's. -/
theorem staged_A (d : Dev nD) (L : grid0.Coords) (h : k0_cond1 L = 1#1) (fsh : Buf (Elt F) (shLoc d (cV L)))
    (frows : Buf (Elt F) ((thrV d L).loc cc0_scratch4)) :
    ∀ x ∈ (spmRowsA L h).view.set,
      (spmRowsA L h).view.writes (Elt F) fsh
        [⟨Rect.whole S64x128, ReadAs.same.apply (View.read (Elt F) rows64.view
          (View.write (Elt F) rows64.view frows
            (ReadAs.same.apply (View.read (Elt F) (tabRowsA L h).view (m (tabLoc d)))) Finset.univ))⟩] x
        = tabSh m d (cV L) x := by
  intro x hx
  obtain ⟨y, -, rfl⟩ := Finset.mem_map.mp hx
  rw [ReadAs.apply_same, ReadAs.apply_same, View.read_write_univ, View.writes_singleton]
  have he : ((spmRowsA L h).view.slice (Rect.whole S64x128)).emb y = (spmRowsA L h).view.emb y := by
    show (spmRowsA L h).view.emb ((Rect.whole S64x128).emb y) = _
    rw [Rect.emb_whole_apply]
  have hw := View.write_emb_of_mem (v := (spmRowsA L h).view.slice (Rect.whole S64x128)) (Val := Elt F) fsh
    (View.read (Elt F) (tabRowsA L h).view (m (tabLoc d))) (M := Finset.univ) (x := y) (Finset.mem_univ y)
  rw [he] at hw
  refine hw.trans ?_
  rw [View.read_apply]
  rfl

/-! ## Staging the table's rows: the last subcore -/

/-- The last forty rows of the table, as the program slices them. -/
abbrev tabRowsB : Memref sig .scVector .hbm S40x128 .f32 :=
  (tabM).slice (Rect.unit (s := S1000x128) ![960, 0] S40x128.size inb_S1000x128_S40x128_960_0) (fun _ => rfl)

/-- The first forty rows of the first half of the row scratch, the unit axis dropped. -/
abbrev rows40 : Memref sig .scVector .vmem S40x128 .f32 :=
  ((rowsM).slice (Rect.unit (s := S2x128x128) ![0, 0, 0] S1x40x128.size inb_S2x128x128_S1x40x128_0_0_0) (fun _ => rfl)).squeeze
    S40x128 squeezes_S1x40x128_S40x128

/-- The last forty rows of the shared copy, as the program slices them. -/
abbrev spmRowsB : Memref sig .scVector .shared S40x128 .f32 :=
  (spmM).slice (Rect.unit (s := S1000x128) ![960, 0] S40x128.size inb_S1000x128_S40x128_960_0) (fun _ => rfl)

/-- The last subcore stages the forty rows from 960 on. -/
theorem set_spmRowsB (L : grid0.Coords) (h15 : (jL L).val = 15) : (spmRowsB).view.set = spmSet (jL L) := by
  show ((spmM).view.slice (Rect.unit (s := S1000x128) ![960, 0] S40x128.size inb_S1000x128_S40x128_960_0)).set
    = (spmRect (jL L)).set
  rw [View.set_slice]
  have hr : Rect.unit (s := S1000x128) ![960, 0] S40x128.size inb_S1000x128_S40x128_960_0 = spmRect (jL L) := by
    unfold spmRect
    congr 1
    · rw [h15]
    · funext a
      match a with
      | ⟨0, _⟩ => show 40 = spmCount (jL L); unfold spmCount; rw [if_neg (by omega)]
      | ⟨1, _⟩ => rfl
  rw [hr]; exact Finset.map_refl

/-- The rows the last subcore staged hold the table's last forty rows. -/
theorem staged_B (d : Dev nD) (L : grid0.Coords) (fsh : Buf (Elt F) (shLoc d (cV L)))
    (frows : Buf (Elt F) ((thrV d L).loc cc0_scratch4)) :
    ∀ x ∈ (spmRowsB).view.set,
      (spmRowsB).view.writes (Elt F) fsh
        [⟨Rect.whole S40x128, ReadAs.same.apply (View.read (Elt F) rows40.view
          (View.write (Elt F) rows40.view frows
            (ReadAs.same.apply (View.read (Elt F) (tabRowsB).view (m (tabLoc d)))) Finset.univ))⟩] x
        = tabSh m d (cV L) x := by
  intro x hx
  obtain ⟨y, -, rfl⟩ := Finset.mem_map.mp hx
  rw [ReadAs.apply_same, ReadAs.apply_same, View.read_write_univ, View.writes_singleton]
  have he : ((spmRowsB).view.slice (Rect.whole S40x128)).emb y = (spmRowsB).view.emb y := by
    show (spmRowsB).view.emb ((Rect.whole S40x128).emb y) = _
    rw [Rect.emb_whole_apply]
  have hw := View.write_emb_of_mem (v := (spmRowsB).view.slice (Rect.whole S40x128)) (Val := Elt F) fsh
    (View.read (Elt F) (tabRowsB).view (m (tabLoc d))) (M := Finset.univ) (x := y) (Finset.mem_univ y)
  rw [he] at hw
  refine hw.trans ?_
  rw [View.read_apply]
  rfl

end Cert.KB

end
-- ==== Proof.KB.Vals.lean ====
/-
  The contents of a subcore's buffers, chunk by chunk, as functions of the launch memory, and the element sets the
  loop's invariant speaks of.

  Worker `w = 2 i + c` treats flat positions `6400 w + 128 k + r` for chunk `k < 50` and row `r < 128`.  For chunk `k`:
  the token of row `r` is `tok3[w, k, r]`; the gathered rows are the table's rows of those tokens; the draw index of row
  `r` is `(position / 50) * 1000 + token`; the gathered draws are the flattened draws there; the scale of row `r` is `2`
  where the draw is below one half and `0` elsewhere; the product is the gathered row times its scale, which is the flat
  result's row at that position.  Each is stated on the WHOLE buffer's index type and does not depend on which half of
  a double buffer it sits in, so that a half's contents are the same function whichever trip wrote them.
-/
import proofs.«206556_g62818191671566_cont_9to1_m_1093_40_alg».proof.Proof.KB.PrologueVal

noncomputable section

namespace Cert.KB

open Cert.Kernel Cert.Kernel.Gen

open Idealize.ShloMosaic
open Idealize.ShloMosaic.SparseCore (S V T)
open Idealize.ShloMosaic.ValueIdx

variable {F : FTy → Type}

variable (m : (ℓ : Loc nD τ sig) → Buf (Elt F) ℓ)

/-- The worker's number at a grid point. -/
def widN (L : grid0.Coords) : ℕ := 2 * (L 1).val + (L 0).val
/-- The flat position of row `r` of chunk `k` of the worker at `L`. -/
def posN (L : grid0.Coords) (k r : ℕ) : ℕ := widN L * 6400 + k * 128 + r

/-- The token of row `r` of chunk `k` (indices reduced so that it is total). -/
def tokC (d : Dev nD) (L : grid0.Coords) (k r : ℕ) : BitVec 32 :=
  (tok3V m d : IVec S32x50x128 32) (ix3 (⟨2 * (L 1).val + (L 0).val, wid_lt L⟩ : Fin 32)
    (⟨k % 50, Nat.mod_lt _ (by norm_num)⟩ : Fin 50) (⟨r % 128, Nat.mod_lt _ (by norm_num)⟩ : Fin 128))

/-- The draw index of row `r` of chunk `k`, as a natural number. -/
def midxN (d : Dev nD) (L : grid0.Coords) (k r : ℕ) : ℕ := posN L k r / 50 * 1000 + (tokC m d L k r).toNat

/-- The rows gathered for chunk `k`: on either half of the row scratch, row `r` is the table's row of token `r`. -/
def rowsVal (d : Dev nD) (L : grid0.Coords) (k : ℕ) : Buf (Elt F) ((thrV d L).loc cc0_scratch4) :=
  ((fun x => (m (tabLoc d) : FVec F S1000x128 .f32) (ix2 (Cert.Spec.row (tokC m d L k (x 1).val)) (⟨(x 2).val % 128, Nat.mod_lt _ (by norm_num)⟩ : Fin 128)))
    : FVec F S2x128x128 .f32)

/-- The draw indices computed for chunk `k`: on either row of the index scratch. -/
def midxVal (d : Dev nD) (L : grid0.Coords) (k : ℕ) : Buf (Elt F) ((thrV d L).loc cc0_scratch1) :=
  ((fun x => BitVec.ofNat 32 (midxN m d L k (x 1).val)) : IVec S2x128 32)

/-- The draws gathered for chunk `k`: on either row of the draw scratch. -/
def mvalVal (d : Dev nD) (L : grid0.Coords) (k : ℕ) : Buf (Elt F) ((thrV d L).loc cc0_scratch2) :=
  ((fun x => (uflatV m d : FVec F S4096000 .f32) (ix1 (⟨midxN m d L k (x 1).val % 4096000, Nat.mod_lt _ (by norm_num)⟩ : Fin 4096000)))
    : FVec F S2x128 .f32)

variable [FloatOps F]

/-- The scale of chunk `k`: `2` where the row's draw is below one half, `0` elsewhere. -/
def scaleVal (d : Dev nD) (L : grid0.Coords) (k : ℕ) : Buf (Elt F) ((thrV d L).loc cc0_scratch3) :=
  ((fun y => Scalar.select (FloatOps.cmpf .olt ((mvalVal m d L k : FVec F S2x128 .f32) (ix2 (0 : Fin 2) (⟨(y 0).val % 128, Nat.mod_lt _ (by norm_num)⟩ : Fin 128)))
        (Scalar.ofBits .f32 0x3F000000#32)) (Scalar.ofBits .f32 0x40000000#32) (Scalar.ofBits .f32 0x00000000#32))
    : FVec F S128 .f32)

/-- The rows of chunk `k` scaled: what the subcore writes out. -/
def prodVal (d : Dev nD) (L : grid0.Coords) (k : ℕ) : Buf (Elt F) ((thrV d L).loc cc0_scratch4) :=
  ((fun x => FloatOps.mulf ((rowsVal m d L k : FVec F S2x128x128 .f32) x)
      ((scaleVal m d L k : FVec F S128 .f32) (ix1 (⟨(x 1).val % 128, Nat.mod_lt _ (by norm_num)⟩ : Fin 128))))
    : FVec F S2x128x128 .f32)

/-! ## Element sets -/

omit [FloatOps F] in
theorem chunk_inb (L : grid0.Coords) (k : ℕ) :
    ∀ a, (![(widN L * 6400 + (k % 50) * 128), 0] : Fin 2 → ℕ) a + (![128, 128] : Fin 2 → ℕ) a ≤ S204800x128.size a := by
  intro a
  have hw : widN L < 32 := wid_lt L
  have hk : k % 50 < 50 := Nat.mod_lt _ (by norm_num)
  match a with
  | ⟨0, _⟩ => show widN L * 6400 + (k % 50) * 128 + 128 ≤ 204800; omega
  | ⟨1, _⟩ => show 0 + 128 ≤ 128; omega
/-- The rows of the flat result that chunk `k` of the worker at `L` fills. -/
abbrev chunkRect (L : grid0.Coords) (k : ℕ) : Rect S204800x128 :=
  Rect.unit (s := S204800x128) ![(widN L * 6400 + (k % 50) * 128), 0] ![128, 128] (chunk_inb L k)
abbrev chunkSet (L : grid0.Coords) (k : ℕ) : Finset S204800x128.Idx := (chunkRect L k).set

omit [FloatOps F] in
theorem idxRow_inb (k : ℕ) : ∀ a, (![k % 50, 0] : Fin 2 → ℕ) a + (![1, 128] : Fin 2 → ℕ) a ≤ S50x128.size a := by
  intro a
  have hk : k % 50 < 50 := Nat.mod_lt _ (by norm_num)
  match a with
  | ⟨0, _⟩ => show k % 50 + 1 ≤ 50; omega
  | ⟨1, _⟩ => show 0 + 128 ≤ 128; omega
/-- Row `k` of the token scratch: the list chunk `k`'s gather reads. -/
abbrev idxRowRect (k : ℕ) : Rect S50x128 := Rect.unit (s := S50x128) ![k % 50, 0] ![1, 128] (idxRow_inb k)
abbrev idxRowSet (k : ℕ) : Finset S50x128.Idx := (idxRowRect k).set

end Cert.KB

end
-- ==== Proof.KB.Halves.lean ====
/-
  The pieces of a subcore's buffers, each as the program itself spells it: the two halves of the row scratch, the two
  rows of the draw-index scratch and of the draw scratch (each as the slice loads and stores go through, and squeezed
  as the block or list an indexed gather names), the token rows the gathers read as lists, the whole shared copy and
  the whole array of draws as the gathers name their sources, and the chunk of the flat result a write-out fills.
-/
import proofs.«206556_g62818191671566_cont_9to1_m_1093_40_alg».proof.Proof.KB.Vals

noncomputable section

namespace Cert.KB

open Cert.Kernel Cert.Kernel.Gen

open Idealize.ShloMosaic

abbrev rows0H : Memref sig .scVector .vmem S1x128x128 .f32 :=
  (rowsM).slice (Rect.unit (s := S2x128x128) ![0, 0, 0] S1x128x128.size inb_S2x128x128_S1x128x128_0_0_0) (fun _ => rfl)
abbrev rows0G : Memref sig .scVector .vmem S128x128 .f32 := (rows0H).squeeze S128x128 squeezes_S1x128x128_S128x128
abbrev rows1H : Memref sig .scVector .vmem S1x128x128 .f32 :=
  (rowsM).slice (Rect.unit (s := S2x128x128) ![1, 0, 0] S1x128x128.size inb_S2x128x128_S1x128x128_1_0_0) (fun _ => rfl)
abbrev rows1G : Memref sig .scVector .vmem S128x128 .f32 := (rows1H).squeeze S128x128 squeezes_S1x128x128_S128x128

abbrev midx0H : Memref sig .scVector .vmem S1x128 .i32 :=
  (midxM).slice (Rect.unit (s := S2x128) ![0, 0] S1x128.size inb_S2x128_S1x128_0_0) (fun _ => rfl)
abbrev midx0L : Memref sig .scVector .vmem S128 .i32 := (midx0H).squeeze S128 squeezes_S1x128_S128
abbrev midx1H : Memref sig .scVector .vmem S1x128 .i32 :=
  (midxM).slice (Rect.unit (s := S2x128) ![1, 0] S1x128.size inb_S2x128_S1x128_1_0) (fun _ => rfl)
abbrev midx1L : Memref sig .scVector .vmem S128 .i32 := (midx1H).squeeze S128 squeezes_S1x128_S128

abbrev mval0H : Memref sig .scVector .vmem S1x128 .f32 :=
  (mvalM).slice (Rect.unit (s := S2x128) ![0, 0] S1x128.size inb_S2x128_S1x128_0_0) (fun _ => rfl)
abbrev mval0L : Memref sig .scVector .vmem S128 .f32 := (mval0H).squeeze S128 squeezes_S1x128_S128
abbrev mval1H : Memref sig .scVector .vmem S1x128 .f32 :=
  (mvalM).slice (Rect.unit (s := S2x128) ![1, 0] S1x128.size inb_S2x128_S1x128_1_0) (fun _ => rfl)
abbrev mval1L : Memref sig .scVector .vmem S128 .f32 := (mval1H).squeeze S128 squeezes_S1x128_S128

/-- The first chunk's tokens: row 0 of the token scratch, as the list a gather reads. -/
abbrev idxRow0L : Memref sig .scVector .vmem S128 .i32 :=
  ((idxM).slice (Rect.unit (s := S50x128) ![0, 0] S1x128.size inb_S50x128_S1x128_0_0) (fun _ => rfl)).squeeze S128 squeezes_S1x128_S128
/-- The tokens of the odd chunk a trip issues. -/
abbrev idxRowA (t : Fin k0_t1_loop.trips) (h : k0_cond4 t = 1#1) : Memref sig .scVector .vmem S128 .i32 :=
  ((idxM).slice (Rect.unit (s := S50x128) (k0_off3 t) S1x128.size (k0_off3_inb t h)) (fun _ => rfl)).squeeze S128 squeezes_S1x128_S128
/-- The tokens of the even chunk a trip issues for the next one. -/
abbrev idxRowB (t : Fin k0_t1_loop.trips) (h : k0_cond6 t = 1#1) : Memref sig .scVector .vmem S128 .i32 :=
  ((idxM).slice (Rect.unit (s := S50x128) (k0_off23 t) S1x128.size (k0_off23_inb t h)) (fun _ => rfl)).squeeze S128 squeezes_S1x128_S128

/-- The whole shared copy and the whole array of draws, as the gathers name their sources. -/
abbrev spmAll : Memref sig .scVector .shared S1000x128 .f32 :=
  (spmM).slice (Rect.unit (s := S1000x128) ![0, 0] S1000x128.size inb_S1000x128_S1000x128_0_0) (fun _ => rfl)
abbrev uAll : Memref sig .scVector .hbm S4096000 .f32 :=
  (uM).slice (Rect.unit (s := S4096000) ![0] S4096000.size inb_S4096000_S4096000_0) (fun _ => rfl)

/-- The chunk of the flat result a trip's write-out number `r` fills. -/
abbrev outChunk (L : grid0.Coords) (t : Fin k0_t1_loop.trips) (r : Fin 2) : Memref sig .scVector .hbm S128x128 .f32 :=
  (outM).slice (Rect.unit (s := S204800x128) (k0_off22 L t (BitVec.ofNat 32 r.val)) S128x128.size (k0_off22_inb L t r)) (fun _ => rfl)

end Cert.KB

end
-- ==== Proof.KB.Inv.lean ====
/-
  What a subcore holds at the head of a trip of its main loop.

  Trip `k` treats chunks `2k` and `2k + 1`.  At its head the two indexed gathers of chunk `2k` (rows into the first half
  of the row scratch, draws into the first row of the draw scratch) are in flight, each holding its destination, a
  share of its source and a share of its index list until its wait; from the second trip on, the write-out of chunk
  `2k - 1` from the second half of the row scratch is in flight as well.  Chunks below `2k - 1` of the subcore's rows of
  the flat result hold their final value, chunks from `2k` on are untouched.  After the last trip nothing is pending but
  the write-out of the last chunk.  What a transfer in flight delivers is stated over the canonical contents of each
  buffer, so that it reads the same whichever trip issued it.
-/
import proofs.«206556_g62818191671566_cont_9to1_m_1093_40_alg».proof.Proof.KB.Halves

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

/-! ## Shares -/

/-- The tile's share of the shared copy, halved: one half per buffer of the double buffer. -/
abbrev qSa : PosShare TreeShare := (qS (jL L)).left
abbrev qSb : PosShare TreeShare := (qS (jL L)).right
/-- The tile's share of the draws, halved likewise. -/
abbrev qUa : PosShare TreeShare := (qT (cV L) (jL L)).left
abbrev qUb : PosShare TreeShare := (qT (cV L) (jL L)).right
/-- The token scratch: one half kept whole for loads, a quarter lent row by row to each buffer's gathers. -/
abbrev qIk : PosShare TreeShare := fullShare.left
abbrev qIa : PosShare TreeShare := fullShare.right.left
abbrev qIb : PosShare TreeShare := fullShare.right.right

/-! ## What each transfer delivers -/

/-- The rows' gather of chunk `c` into the first half: the half at the gathered rows, the shares lent back. -/
def Dr0 (c : ℕ) : sProp 𝕄 :=
  iprop(((rows0H).view.loc (thrV d L) ↦[(rows0H).view.set]{fullShare} rowsVal m d L c)
    ∗ ((spmM).view.loc (thrV d L) ↦{qSa L} tabSh m d (cV L))
    ∗ ((idxM).view.loc (thrV d L) ↦[idxRowSet c]{qIa} idxVal m d L))
def Dr1 (c : ℕ) : sProp 𝕄 :=
  iprop(((rows1H).view.loc (thrV d L) ↦[(rows1H).view.set]{fullShare} rowsVal m d L c)
    ∗ ((spmM).view.loc (thrV d L) ↦{qSb L} tabSh m d (cV L))
    ∗ ((idxM).view.loc (thrV d L) ↦[idxRowSet c]{qIb} idxVal m d L))
/-- The draws' gather of chunk `c` into the first row. -/
def Dm0 (c : ℕ) : sProp 𝕄 :=
  iprop(((mval0H).view.loc (thrV d L) ↦[(mval0H).view.set]{fullShare} mvalVal m d L c)
    ∗ ((uM).view.loc (thrV d L) ↦{qUa L} uflatV m d)
    ∗ ((midx0H).view.loc (thrV d L) ↦[(midx0H).view.set]{fullShare.left} midxVal m d L c))
def Dm1 (c : ℕ) : sProp 𝕄 :=
  iprop(((mval1H).view.loc (thrV d L) ↦[(mval1H).view.set]{fullShare} mvalVal m d L c)
    ∗ ((uM).view.loc (thrV d L) ↦{qUb L} uflatV m d)
    ∗ ((midx1H).view.loc (thrV d L) ↦[(midx1H).view.set]{fullShare.left} midxVal m d L c))
/-- The write-out of chunk `c` from the first half: the chunk at its final value, the half back. -/
def Dw0 (c : ℕ) : sProp 𝕄 :=
  iprop((outLoc d ↦[chunkSet L c]{fullShare} outV m d)
    ∗ ((rows0H).view.loc (thrV d L) ↦[(rows0H).view.set]{fullShare} prodVal m d L c))
def Dw1 (c : ℕ) : sProp 𝕄 :=
  iprop((outLoc d ↦[chunkSet L c]{fullShare} outV m d)
    ∗ ((rows1H).view.loc (thrV d L) ↦[(rows1H).view.set]{fullShare} prodVal m d L c))

/-! ## The transfers in flight -/

abbrev Fr0 (c : ℕ) : sProp 𝕄 := Transfers.Flight countersEmb (thrV d L) (.dma cc0_scratch6.sem) (default : HIx 1) (rows0G).view.dmaCredit (Dr0 m d L c)
abbrev Fr1 (c : ℕ) : sProp 𝕄 := Transfers.Flight countersEmb (thrV d L) (.dma cc0_scratch7.sem) (default : HIx 1) (rows1G).view.dmaCredit (Dr1 m d L c)
abbrev Fm0 (c : ℕ) : sProp 𝕄 := Transfers.Flight countersEmb (thrV d L) (.dma cc0_scratch8.sem) (default : HIx 1) (mval0L).view.dmaCredit (Dm0 m d L c)
abbrev Fm1 (c : ℕ) : sProp 𝕄 := Transfers.Flight countersEmb (thrV d L) (.dma cc0_scratch9.sem) (default : HIx 1) (mval1L).view.dmaCredit (Dm1 m d L c)
abbrev Fw0 (c : ℕ) : sProp 𝕄 := Transfers.Flight countersEmb (thrV d L) (.dma cc0_scratch10.sem) (default : HIx 1) (rows0G).view.dmaCredit (Dw0 m d L c)
abbrev Fw1 (c : ℕ) : sProp 𝕄 := Transfers.Flight countersEmb (thrV d L) (.dma cc0_scratch11.sem) (default : HIx 1) (rows1G).view.dmaCredit (Dw1 m d L c)

/-! ## The invariant -/

variable (O : CellTallies nD τ sig (HIx 1)) (W : Waits sig (HIx 1))

/-- The subcore's rows of the flat result, chunk by chunk, before trip `k`: final below `2k - 1`, chunk `2k - 1` with its
    write-out, the rest untouched. -/
def outChunks (k : ℕ) : sProp 𝕄 :=
  bigSep (Finset.range 50) fun j =>
    if j + 1 < 2 * k then (outLoc d ↦[chunkSet L j]{fullShare} outV m d : sProp 𝕄)
    else if j + 1 = 2 * k then iprop(emp)
    else (outLoc d ↦[chunkSet L j]{fullShare} m (outLoc d) : sProp 𝕄)

/-- The first buffer's side: the gathers of chunk `2k` in flight with what is left of the lent lists, or, after the
    last trip, the buffer idle with every share home. -/
def side0 (k : ℕ) : sProp 𝕄 :=
  if k < 25 then
    iprop(Fr0 m d L (2 * k) ∗ Fm0 m d L (2 * k)
      ∗ ((idxM).view.loc (thrV d L) ↦[Finset.univ \ idxRowSet (2 * k)]{qIa} idxVal m d L)
      ∗ ((midx0H).view.loc (thrV d L) ↦[(midx0H).view.set]{fullShare.right} midxVal m d L (2 * k)))
  else
    iprop((∃ f, (rows0H).view.loc (thrV d L) ↦[(rows0H).view.set]{fullShare} f)
      ∗ ((spmM).view.loc (thrV d L) ↦{qSa L} tabSh m d (cV L))
      ∗ ((idxM).view.loc (thrV d L) ↦{qIa} idxVal m d L)
      ∗ (∃ f, (mval0H).view.loc (thrV d L) ↦[(mval0H).view.set]{fullShare} f)
      ∗ ((uM).view.loc (thrV d L) ↦{qUa L} uflatV m d)
      ∗ (∃ f, (midx0H).view.loc (thrV d L) ↦[(midx0H).view.set]{fullShare} f)
      ∗ semVal ((thrV d L, .dma cc0_scratch6.sem) : GSem nD τ sig) 0
      ∗ semVal ((thrV d L, .dma cc0_scratch8.sem) : GSem nD τ sig) 0)

/-- The second buffer's write-out: none before the first trip, chunk `2k - 1`'s after. -/
def side1 (k : ℕ) : sProp 𝕄 :=
  if k = 0 then
    iprop((∃ f, (rows1H).view.loc (thrV d L) ↦[(rows1H).view.set]{fullShare} f)
      ∗ semVal ((thrV d L, .dma cc0_scratch11.sem) : GSem nD τ sig) 0)
  else Fw1 m d L (2 * k - 1)

/-- Before trip `k`. -/
def Inv (k : ℕ) (_ : PUnit) : sProp 𝕄 :=
  iprop(levAts (K (F := F)).L (K (F := F)).lev
    ∗ ((idxM).view.loc (thrV d L) ↦{qIk} idxVal m d L)
    ∗ ((idxM).view.loc (thrV d L) ↦{qIb} idxVal m d L)
    ∗ ((spmM).view.loc (thrV d L) ↦{qSb L} tabSh m d (cV L))
    ∗ ((uM).view.loc (thrV d L) ↦{qUb L} uflatV m d)
    ∗ (∃ f, (midx1H).view.loc (thrV d L) ↦[(midx1H).view.set]{fullShare} f)
    ∗ (∃ f, (mval1H).view.loc (thrV d L) ↦[(mval1H).view.set]{fullShare} f)
    ∗ (∃ f, (scaleM).view.loc (thrV d L) ↦{fullShare} f)
    ∗ semVal ((thrV d L, .dma cc0_scratch7.sem) : GSem nD τ sig) 0
    ∗ semVal ((thrV d L, .dma cc0_scratch9.sem) : GSem nD τ sig) 0
    ∗ semVal ((thrV d L, .dma cc0_scratch10.sem) : GSem nD τ sig) 0
    ∗ outChunks m d L k
    ∗ side0 m d L k
    ∗ side1 m d L k
    ∗ ∃ W', ⌜∀ p ∈ W', p ∈ W ∨ p.2 = none ∨ p.2 = some (0 : Fin 1)⌝ ∗ owes (thrV d L) O W')

end Cert.KB

end
-- ==== Proof.KB.Sets.lean ====
/-
  The element sets the loop's invariant speaks of, and the program's spelling of each piece.  A worker's rows of the
  flat result are fifty chunks of 128 rows; the row scratch, the index scratch and the draw scratch are two halves
  each; the token scratch is fifty rows.  The program names a piece as a run of rows sliced out of the whole buffer at
  offsets it computes, with a unit axis dropped where the piece is used as a block or a list; dropping a unit axis keeps
  the elements, and the computed offsets have closed forms, so each such piece is one of the sets named here.
-/
import proofs.«206556_g62818191671566_cont_9to1_m_1093_40_alg».proof.Proof.KB.Halves

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The loop over pairs of chunks makes at most twenty-five trips. -/
theorem trip_lt (t : Fin k0_t1_loop.trips) : t.val < 25 := Nat.lt_of_lt_of_le t.isLt k0_t1_abs.2.1

/-! ## The program's chunk of the flat result -/

theorem set_outChunk (L : grid0.Coords) (t : Fin k0_t1_loop.trips) (r : Fin 2) :
    (outChunk L t r).view.set = chunkSet L (2 * t.val + r.val) := by
  show ((outM).view.slice (Rect.unit (s := S204800x128) (k0_off22 L t (BitVec.ofNat 32 r.val)) S128x128.size
      (k0_off22_inb L t r))).set = (chunkRect L (2 * t.val + r.val)).set
  rw [View.set_slice]
  have ht := trip_lt t
  have hr2 : r.val < 2 := r.isLt
  have e : 12800 * (L 1).val + 6400 * (L 0).val + 256 * t.val + 128 * r.val
      = widN L * 6400 + (2 * t.val + r.val) % 50 * 128 := by
    unfold widN; omega
  have hr : Rect.unit (s := S204800x128) (k0_off22 L t (BitVec.ofNat 32 r.val)) S128x128.size (k0_off22_inb L t r)
      = chunkRect L (2 * t.val + r.val) := by
    unfold chunkRect
    congr 1
    rw [k0_off22_eq, e]
  rw [hr]; exact Finset.map_refl

/-! ## The halves of the row scratch -/

/-- Dropping the unit axis keeps the elements. -/
theorem set_rowsG0 : (rows0G).view.set = (rows0H).view.set := View.set_reshape _ _
theorem set_rowsG1 : (rows1G).view.set = (rows1H).view.set := View.set_reshape _ _

theorem set_rows0H : ((rows0H).view.set : Finset S2x128x128.Idx)
    = (Rect.unit (s := S2x128x128) ![0, 0, 0] S1x128x128.size inb_S2x128x128_S1x128x128_0_0_0).set := by
  show ((rowsM).view.slice _).set = _
  rw [View.set_slice]; exact Finset.map_refl
theorem set_rows1H : ((rows1H).view.set : Finset S2x128x128.Idx)
    = (Rect.unit (s := S2x128x128) ![1, 0, 0] S1x128x128.size inb_S2x128x128_S1x128x128_1_0_0).set := by
  show ((rowsM).view.slice _).set = _
  rw [View.set_slice]; exact Finset.map_refl

/-- The two halves are the whole row scratch, and share no element: an element's leading coordinate is 0 or 1. -/
theorem rows_halves : ((rows0H).view.set : Finset S2x128x128.Idx) ∪ (rows1H).view.set = Finset.univ
    ∧ Disjoint ((rows0H).view.set : Finset S2x128x128.Idx) (rows1H).view.set := by
  rw [set_rows0H, set_rows1H]
  refine ⟨?_, Rect.unit_disjoint (⟨0, by decide⟩ : Fin S2x128x128.rank) (Or.inl (by show 0 + 1 ≤ 1; omega))⟩
  ext i
  simp only [Finset.mem_union, Finset.mem_univ, iff_true, Rect.mem_set_unit]
  have h0 : (i 0).val < 2 := (i 0).isLt
  have h1 : (i 1).val < 128 := (i 1).isLt
  have h2 : (i 2).val < 128 := (i 2).isLt
  by_cases hz : (i 0).val = 0
  · refine Or.inl fun a => ?_
    match a with
    | ⟨0, _⟩ => show 0 ≤ (i 0).val ∧ (i 0).val < 0 + 1; omega
    | ⟨1, _⟩ => show 0 ≤ (i 1).val ∧ (i 1).val < 0 + 128; omega
    | ⟨2, _⟩ => show 0 ≤ (i 2).val ∧ (i 2).val < 0 + 128; omega
  · refine Or.inr fun a => ?_
    match a with
    | ⟨0, _⟩ => show 1 ≤ (i 0).val ∧ (i 0).val < 1 + 1; omega
    | ⟨1, _⟩ => show 0 ≤ (i 1).val ∧ (i 1).val < 0 + 128; omega
    | ⟨2, _⟩ => show 0 ≤ (i 2).val ∧ (i 2).val < 0 + 128; omega

/-! ## The rows of the index scratch and of the draw scratch -/

theorem set_midxL0 : (midx0L).view.set = (midx0H).view.set := View.set_reshape _ _
theorem set_midxL1 : (midx1L).view.set = (midx1H).view.set := View.set_reshape _ _
theorem set_mvalL0 : (mval0L).view.set = (mval0H).view.set := View.set_reshape _ _
theorem set_mvalL1 : (mval1L).view.set = (mval1H).view.set := View.set_reshape _ _

theorem set_midx0H : ((midx0H).view.set : Finset S2x128.Idx)
    = (Rect.unit (s := S2x128) ![0, 0] S1x128.size inb_S2x128_S1x128_0_0).set := by
  show ((midxM).view.slice _).set = _
  rw [View.set_slice]; exact Finset.map_refl
theorem set_midx1H : ((midx1H).view.set : Finset S2x128.Idx)
    = (Rect.unit (s := S2x128) ![1, 0] S1x128.size inb_S2x128_S1x128_1_0).set := by
  show ((midxM).view.slice _).set = _
  rw [View.set_slice]; exact Finset.map_refl
theorem set_mval0H : ((mval0H).view.set : Finset S2x128.Idx)
    = (Rect.unit (s := S2x128) ![0, 0] S1x128.size inb_S2x128_S1x128_0_0).set := by
  show ((mvalM).view.slice _).set = _
  rw [View.set_slice]; exact Finset.map_refl
theorem set_mval1H : ((mval1H).view.set : Finset S2x128.Idx)
    = (Rect.unit (s := S2x128) ![1, 0] S1x128.size inb_S2x128_S1x128_1_0).set := by
  show ((mvalM).view.slice _).set = _
  rw [View.set_slice]; exact Finset.map_refl

/-- The two rows of a 2 × 128 scratch are the whole of it, and share no element. -/
theorem rows2_halves :
    (Rect.unit (s := S2x128) ![0, 0] S1x128.size inb_S2x128_S1x128_0_0).set
        ∪ (Rect.unit (s := S2x128) ![1, 0] S1x128.size inb_S2x128_S1x128_1_0).set = Finset.univ
    ∧ Disjoint (Rect.unit (s := S2x128) ![0, 0] S1x128.size inb_S2x128_S1x128_0_0).set
        (Rect.unit (s := S2x128) ![1, 0] S1x128.size inb_S2x128_S1x128_1_0).set := by
  refine ⟨?_, Rect.unit_disjoint (⟨0, by decide⟩ : Fin S2x128.rank) (Or.inl (by show 0 + 1 ≤ 1; omega))⟩
  ext i
  simp only [Finset.mem_union, Finset.mem_univ, iff_true, Rect.mem_set_unit]
  have h0 : (i 0).val < 2 := (i 0).isLt
  have h1 : (i 1).val < 128 := (i 1).isLt
  by_cases hz : (i 0).val = 0
  · refine Or.inl fun a => ?_
    match a with
    | ⟨0, _⟩ => show 0 ≤ (i 0).val ∧ (i 0).val < 0 + 1; omega
    | ⟨1, _⟩ => show 0 ≤ (i 1).val ∧ (i 1).val < 0 + 128; omega
  · refine Or.inr fun a => ?_
    match a with
    | ⟨0, _⟩ => show 1 ≤ (i 0).val ∧ (i 0).val < 1 + 1; omega
    | ⟨1, _⟩ => show 0 ≤ (i 1).val ∧ (i 1).val < 0 + 128; omega

theorem midx_halves : ((midx0H).view.set : Finset S2x128.Idx) ∪ (midx1H).view.set = Finset.univ
    ∧ Disjoint ((midx0H).view.set : Finset S2x128.Idx) (midx1H).view.set := by
  rw [set_midx0H, set_midx1H]; exact rows2_halves
theorem mval_halves : ((mval0H).view.set : Finset S2x128.Idx) ∪ (mval1H).view.set = Finset.univ
    ∧ Disjoint ((mval0H).view.set : Finset S2x128.Idx) (mval1H).view.set := by
  rw [set_mval0H, set_mval1H]; exact rows2_halves

/-! ## The rows of the token scratch -/

/-- Where the second prefetch of a trip is made there is a chunk `2 t + 2`. -/
theorem cond6_lt (t : Fin k0_t1_loop.trips) (h : k0_cond6 t = 1#1) : 2 * t.val + 2 < 50 := by
  revert h; revert t; decide +kernel

theorem set_idxRow0L : (idxRow0L).view.set = idxRowSet 0 := by
  refine (View.set_reshape _ _).trans ?_
  show ((idxM).view.slice (Rect.unit (s := S50x128) ![0, 0] S1x128.size inb_S50x128_S1x128_0_0)).set = (idxRowRect 0).set
  rw [View.set_slice]
  have hr : Rect.unit (s := S50x128) ![0, 0] S1x128.size inb_S50x128_S1x128_0_0 = idxRowRect 0 := rfl
  rw [hr]; exact Finset.map_refl

theorem set_idxRowA (t : Fin k0_t1_loop.trips) (h : k0_cond4 t = 1#1) :
    (idxRowA t h).view.set = idxRowSet (2 * t.val + 1) := by
  refine (View.set_reshape _ _).trans ?_
  show ((idxM).view.slice (Rect.unit (s := S50x128) (k0_off3 t) S1x128.size (k0_off3_inb t h))).set
    = (idxRowRect (2 * t.val + 1)).set
  rw [View.set_slice]
  have ht := trip_lt t
  have e : 2 * t.val + 1 = (2 * t.val + 1) % 50 := by omega
  have hr : Rect.unit (s := S50x128) (k0_off3 t) S1x128.size (k0_off3_inb t h) = idxRowRect (2 * t.val + 1) := by
    unfold idxRowRect
    congr 1
    rw [k0_off3_eq, ← e]
  rw [hr]; exact Finset.map_refl

theorem set_idxRowB (t : Fin k0_t1_loop.trips) (h : k0_cond6 t = 1#1) :
    (idxRowB t h).view.set = idxRowSet (2 * t.val + 2) := by
  refine (View.set_reshape _ _).trans ?_
  show ((idxM).view.slice (Rect.unit (s := S50x128) (k0_off23 t) S1x128.size (k0_off23_inb t h))).set
    = (idxRowRect (2 * t.val + 2)).set
  rw [View.set_slice]
  have ht := cond6_lt t h
  have e : 2 * t.val + 2 = (2 * t.val + 2) % 50 := by omega
  have hr : Rect.unit (s := S50x128) (k0_off23 t) S1x128.size (k0_off23_inb t h) = idxRowRect (2 * t.val + 2) := by
    unfold idxRowRect
    congr 1
    rw [k0_off23_eq, ← e]
  rw [hr]; exact Finset.map_refl

/-! ## The whole shared copy and the whole array of draws -/

/-- A slice by the whole rectangle has every element. -/
theorem set_spmAll : (spmAll).view.set = Finset.univ := by
  show ((spmM).view.slice (Rect.unit (s := S1000x128) ![0, 0] S1000x128.size inb_S1000x128_S1000x128_0_0)).set = Finset.univ
  have hR : (Rect.unit (s := S1000x128) ![0, 0] S1000x128.size inb_S1000x128_S1000x128_0_0).set = Finset.univ := by
    ext i
    simp only [Finset.mem_univ, iff_true]
    have h0 : (i 0).val < 1000 := (i 0).isLt
    have h1 : (i 1).val < 128 := (i 1).isLt
    refine Rect.mem_set_unit.mpr fun a => ?_
    match a with
    | ⟨0, _⟩ => show 0 ≤ (i 0).val ∧ (i 0).val < 0 + 1000; omega
    | ⟨1, _⟩ => show 0 ≤ (i 1).val ∧ (i 1).val < 0 + 128; omega
  rw [View.set_slice, hR]; exact Finset.map_refl

theorem set_uAll : (uAll).view.set = Finset.univ := by
  show ((uM).view.slice (Rect.unit (s := S4096000) ![0] S4096000.size inb_S4096000_S4096000_0)).set = Finset.univ
  have hR : (Rect.unit (s := S4096000) ![0] S4096000.size inb_S4096000_S4096000_0).set = Finset.univ := by
    ext i
    simp only [Finset.mem_univ, iff_true]
    have h0 : (i 0).val < 4096000 := (i 0).isLt
    refine Rect.mem_set_unit.mpr fun a => ?_
    match a with
    | ⟨0, _⟩ => show 0 ≤ (i 0).val ∧ (i 0).val < 0 + 4096000; omega
  rw [View.set_slice, hR]; exact Finset.map_refl

/-! ## A worker's rows of the flat result, chunk by chunk -/

/-- The worker on SparseCore `cV L`, subcore `jL L` is worker `2 (L 1) + (L 0)`. -/
theorem widOf_val (L : grid0.Coords) : (widOf (cV L) (jL L)).val = widN L := rfl

/-- Worker w's rows are the 6400 from `6400 w` on. -/
theorem mem_slabSet (w : Fin 32) (i : S204800x128.Idx) :
    i ∈ slabSet w ↔ w.val * 6400 ≤ (i 0).val ∧ (i 0).val < w.val * 6400 + 6400 := by
  have h1 : (i 1).val < 128 := (i 1).isLt
  show i ∈ (Rect.unit (s := S204800x128) _ _ _).set ↔ _
  rw [Rect.mem_set_unit]
  constructor
  · intro h
    have h0 := h (⟨0, by decide⟩ : Fin S204800x128.rank)
    exact h0
  · intro h a
    match a with
    | ⟨0, _⟩ => exact h
    | ⟨1, _⟩ => show 0 * 128 ≤ (i 1).val ∧ (i 1).val < 0 * 128 + 128; omega

/-- Chunk k of the worker at L is the 128 rows from `6400 w + 128 k` on. -/
theorem mem_chunkSet (L : grid0.Coords) (k : ℕ) (i : S204800x128.Idx) :
    i ∈ chunkSet L k ↔ widN L * 6400 + k % 50 * 128 ≤ (i 0).val ∧ (i 0).val < widN L * 6400 + k % 50 * 128 + 128 := by
  have h1 : (i 1).val < 128 := (i 1).isLt
  rw [Rect.mem_set_unit]
  constructor
  · intro h
    exact h (⟨0, by decide⟩ : Fin S204800x128.rank)
  · intro h a
    match a with
    | ⟨0, _⟩ => exact h
    | ⟨1, _⟩ => show 0 ≤ (i 1).val ∧ (i 1).val < 0 + 128; omega

/-- Different chunks of one worker share no row. -/
theorem chunk_disjoint (L : grid0.Coords) : ∀ k ∈ Finset.range 50, ∀ k' ∈ Finset.range 50, k ≠ k' →
    Disjoint (chunkSet L k) (chunkSet L k') := by
  intro k hk k' hk' hne
  have hk50 := Finset.mem_range.mp hk
  have hk50' := Finset.mem_range.mp hk'
  refine Rect.unit_disjoint (⟨0, by decide⟩ : Fin S204800x128.rank) ?_
  show widN L * 6400 + k % 50 * 128 + 128 ≤ widN L * 6400 + k' % 50 * 128
    ∨ widN L * 6400 + k' % 50 * 128 + 128 ≤ widN L * 6400 + k % 50 * 128
  omega

/-- The fifty chunks are the worker's rows: row x of the worker lies in chunk `(x - 6400 w) / 128`. -/
theorem chunk_cover (L : grid0.Coords) : (Finset.range 50).biUnion (chunkSet L) = slabSet (widOf (cV L) (jL L)) := by
  ext i
  rw [mem_slabSet, widOf_val]
  simp only [Finset.mem_biUnion, Finset.mem_range, mem_chunkSet]
  constructor
  · rintro ⟨k, hk, h⟩
    omega
  · intro h
    refine ⟨((i 0).val - widN L * 6400) / 128, by omega, ?_⟩
    omega

/-- Holding the worker's rows of the flat result is holding its fifty chunks. -/
theorem slab_chunks (d : Dev nD) (L : grid0.Coords) (q : PosShare TreeShare) (f : Buf (Elt F) (outLoc d)) :
    (outLoc d ↦[slabSet (widOf (cV L) (jL L))]{q} f : sProp 𝕄)
      = bigSep (Finset.range 50) fun k => outLoc d ↦[chunkSet L k]{q} f := by
  rw [← chunk_cover]
  exact pointsTo_biUnion (ℓ := outLoc d) (q := q) (f := f) (Finset.range 50) (chunkSet L) (chunk_disjoint L)

end Cert.KB

end
-- ==== Proof.KB.Respell.lean ====
/-
  The same elements under two spellings: a piece of a buffer as the slice loads and stores go through, and as the
  squeezed block or list an indexed gather or a write-out names; a whole array as itself and as the gathers' source
  slice by the whole rectangle.  And the rows' credits of a gathered block, summed.
-/
import proofs.«206556_g62818191671566_cont_9to1_m_1093_40_alg».proof.Proof.KB.Sets

noncomputable section

namespace Cert.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords) (q : PosShare TreeShare)

theorem respell_spmAll (f : Buf (Elt F) ((spmM).view.loc (thrV d L))) :
    (((spmM).view.loc (thrV d L) ↦{q} f) : sProp 𝕄) = ((spmAll).view.loc (thrV d L) ↦[(spmAll).view.set]{q} f) := by
  rw [set_spmAll]
theorem respell_uAll (f : Buf (Elt F) ((uM).view.loc (thrV d L))) :
    (((uM).view.loc (thrV d L) ↦{q} f) : sProp 𝕄) = ((uAll).view.loc (thrV d L) ↦[(uAll).view.set]{q} f) := by
  rw [set_uAll]
theorem respell_rowsG0 (f : Buf (Elt F) ((rows0H).view.loc (thrV d L))) :
    (((rows0H).view.loc (thrV d L) ↦[(rows0H).view.set]{q} f) : sProp 𝕄) = ((rows0G).view.loc (thrV d L) ↦[(rows0G).view.set]{q} f) := by
  rw [set_rowsG0]
theorem respell_rowsG1 (f : Buf (Elt F) ((rows1H).view.loc (thrV d L))) :
    (((rows1H).view.loc (thrV d L) ↦[(rows1H).view.set]{q} f) : sProp 𝕄) = ((rows1G).view.loc (thrV d L) ↦[(rows1G).view.set]{q} f) := by
  rw [set_rowsG1]
theorem respell_midxL0 (f : Buf (Elt F) ((midx0H).view.loc (thrV d L))) :
    (((midx0H).view.loc (thrV d L) ↦[(midx0H).view.set]{q} f) : sProp 𝕄) = ((midx0L).view.loc (thrV d L) ↦[(midx0L).view.set]{q} f) := by
  rw [set_midxL0]
theorem respell_midxL1 (f : Buf (Elt F) ((midx1H).view.loc (thrV d L))) :
    (((midx1H).view.loc (thrV d L) ↦[(midx1H).view.set]{q} f) : sProp 𝕄) = ((midx1L).view.loc (thrV d L) ↦[(midx1L).view.set]{q} f) := by
  rw [set_midxL1]
theorem respell_mvalL0 (f : Buf (Elt F) ((mval0H).view.loc (thrV d L))) :
    (((mval0H).view.loc (thrV d L) ↦[(mval0H).view.set]{q} f) : sProp 𝕄) = ((mval0L).view.loc (thrV d L) ↦[(mval0L).view.set]{q} f) := by
  rw [set_mvalL0]
theorem respell_mvalL1 (f : Buf (Elt F) ((mval1H).view.loc (thrV d L))) :
    (((mval1H).view.loc (thrV d L) ↦[(mval1H).view.set]{q} f) : sProp 𝕄) = ((mval1L).view.loc (thrV d L) ↦[(mval1L).view.set]{q} f) := by
  rw [set_mvalL1]

/-! ## The credit of a gathered block is its rows' credits -/

theorem hN_rows0 : ∀ h : S1000x128.Gathers 0 S128x128,
    ∑ j, ((rows0G).slice (S128x128.rowRect h.axis' j) (S128x128.stride_rowRect h.axis' j)).view.dmaCredit = (rows0G).view.dmaCredit := by decide
theorem hN_rows1 : ∀ h : S1000x128.Gathers 0 S128x128,
    ∑ j, ((rows1G).slice (S128x128.rowRect h.axis' j) (S128x128.stride_rowRect h.axis' j)).view.dmaCredit = (rows1G).view.dmaCredit := by decide
theorem hN_mval0 : ∀ h : S4096000.Gathers 0 S128,
    ∑ j, ((mval0L).slice (S128.rowRect h.axis' j) (S128.stride_rowRect h.axis' j)).view.dmaCredit = (mval0L).view.dmaCredit := by decide
theorem hN_mval1 : ∀ h : S4096000.Gathers 0 S128,
    ∑ j, ((mval1L).slice (S128.rowRect h.axis' j) (S128.stride_rowRect h.axis' j)).view.dmaCredit = (mval1L).view.dmaCredit := by decide

end Cert.KB

end
-- ==== Proof.KB.Rejoin.lean ====
/-
  Cutting a subcore's buffers into the pieces its loop works on, and joining them back.  A double-buffered scratch is
  its two halves, which share no element; a read-only share is the two halves of the share; the token scratch's full
  share is a half kept for loads and two quarters lent row by row; a row of the token scratch is carved out of a share
  of the whole and put back.
-/
import proofs.«206556_g62818191671566_cont_9to1_m_1093_40_alg».proof.Proof.KB.Inv
import proofs.«206556_g62818191671566_cont_9to1_m_1093_40_alg».proof.Proof.KB.Respell

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Two pieces that share no element and together are everything -/

theorem split_halves {ℓ : Loc nD τ sig} (I J : Finset (Idx ℓ)) (hU : I ∪ J = Finset.univ) (hD : Disjoint I J)
    (q : PosShare TreeShare) (f : Buf (Elt F) ℓ) :
    (ℓ ↦{q} f : sProp 𝕄) ⊢ iprop((ℓ ↦[I]{q} f) ∗ ℓ ↦[J]{q} f) := by
  have h := (pointsTo_union (ℓ := ℓ) (q := q) (f := f) (Val := Elt F) (Ix := HIx 1) (Name := ℕ) (U := UU) (Lvl := ℕ) hD).1
  rw [hU] at h
  exact h

theorem join_halves {ℓ : Loc nD τ sig} (I J : Finset (Idx ℓ)) (hU : I ∪ J = Finset.univ) (hD : Disjoint I J)
    (q : PosShare TreeShare) :
    (iprop((∃ f : Buf (Elt F) ℓ, ℓ ↦[I]{q} f) ∗ (∃ f : Buf (Elt F) ℓ, ℓ ↦[J]{q} f)) : sProp 𝕄) ⊢ iprop(∃ f : Buf (Elt F) ℓ, ℓ ↦{q} f) := by
  iintro ⟨⟨%f, Hf⟩, ⟨%g, Hg⟩⟩
  have hj : (iprop((ℓ ↦[I]{q} f) ∗ ℓ ↦[J]{q} g) : sProp 𝕄) ⊢ (ℓ ↦{q} (J.piecewise g f)) := by
    have h := pointsTo_join (ℓ := ℓ) (q := q) (f := f) (g := g) (Val := Elt F) (Ix := HIx 1) (Name := ℕ) (U := UU) (Lvl := ℕ) hD
    rw [hU] at h
    exact h
  iexists (J.piecewise g f)
  iapply hj
  isplitl [Hf]; · iexact Hf
  iexact Hg

variable (d : Dev nD) (L : grid0.Coords)

/-! ## The double-buffered scratches -/

theorem split_rows (f : Buf (Elt F) ((thrV d L).loc cc0_scratch4)) :
    ((thrV d L).loc cc0_scratch4 ↦{fullShare} f : sProp 𝕄)
      ⊢ iprop(((rows0H).view.loc (thrV d L) ↦[(rows0H).view.set]{fullShare} f) ∗ ((rows1H).view.loc (thrV d L) ↦[(rows1H).view.set]{fullShare} f)) :=
  split_halves (ℓ := (thrV d L).loc cc0_scratch4) _ _ rows_halves.1 rows_halves.2 fullShare f
theorem join_rows :
    (iprop((∃ f, (rows0H).view.loc (thrV d L) ↦[(rows0H).view.set]{fullShare} f) ∗ (∃ f, (rows1H).view.loc (thrV d L) ↦[(rows1H).view.set]{fullShare} f)) : sProp 𝕄)
      ⊢ iprop(∃ f, (thrV d L).loc cc0_scratch4 ↦{fullShare} f) :=
  join_halves (ℓ := (thrV d L).loc cc0_scratch4) _ _ rows_halves.1 rows_halves.2 fullShare

theorem split_midx (f : Buf (Elt F) ((thrV d L).loc cc0_scratch1)) :
    ((thrV d L).loc cc0_scratch1 ↦{fullShare} f : sProp 𝕄)
      ⊢ iprop(((midx0H).view.loc (thrV d L) ↦[(midx0H).view.set]{fullShare} f) ∗ ((midx1H).view.loc (thrV d L) ↦[(midx1H).view.set]{fullShare} f)) :=
  split_halves (ℓ := (thrV d L).loc cc0_scratch1) _ _ midx_halves.1 midx_halves.2 fullShare f
theorem join_midx :
    (iprop((∃ f, (midx0H).view.loc (thrV d L) ↦[(midx0H).view.set]{fullShare} f) ∗ (∃ f, (midx1H).view.loc (thrV d L) ↦[(midx1H).view.set]{fullShare} f)) : sProp 𝕄)
      ⊢ iprop(∃ f, (thrV d L).loc cc0_scratch1 ↦{fullShare} f) :=
  join_halves (ℓ := (thrV d L).loc cc0_scratch1) _ _ midx_halves.1 midx_halves.2 fullShare

theorem split_mval (f : Buf (Elt F) ((thrV d L).loc cc0_scratch2)) :
    ((thrV d L).loc cc0_scratch2 ↦{fullShare} f : sProp 𝕄)
      ⊢ iprop(((mval0H).view.loc (thrV d L) ↦[(mval0H).view.set]{fullShare} f) ∗ ((mval1H).view.loc (thrV d L) ↦[(mval1H).view.set]{fullShare} f)) :=
  split_halves (ℓ := (thrV d L).loc cc0_scratch2) _ _ mval_halves.1 mval_halves.2 fullShare f
theorem join_mval :
    (iprop((∃ f, (mval0H).view.loc (thrV d L) ↦[(mval0H).view.set]{fullShare} f) ∗ (∃ f, (mval1H).view.loc (thrV d L) ↦[(mval1H).view.set]{fullShare} f)) : sProp 𝕄)
      ⊢ iprop(∃ f, (thrV d L).loc cc0_scratch2 ↦{fullShare} f) :=
  join_halves (ℓ := (thrV d L).loc cc0_scratch2) _ _ mval_halves.1 mval_halves.2 fullShare

/-! ## The token scratch's shares -/

theorem split_idx (v : Buf (Elt F) ((thrV d L).loc cc0_scratch0)) :
    ((thrV d L).loc cc0_scratch0 ↦{fullShare} v : sProp 𝕄)
      ⊢ iprop(((idxM).view.loc (thrV d L) ↦{qIk} v) ∗ ((idxM).view.loc (thrV d L) ↦{qIa} v) ∗ ((idxM).view.loc (thrV d L) ↦{qIb} v)) := by
  iintro H
  ihave H1 := (pointsTo_share (ℓ := (thrV d L).loc cc0_scratch0) (I := Finset.univ) (f := v) (PosShare.mem_left_op_right fullShare)).1 $$ H
  icases H1 with ⟨Hk, Hr⟩
  ihave H2 := (pointsTo_share (ℓ := (thrV d L).loc cc0_scratch0) (I := Finset.univ) (f := v) (PosShare.mem_left_op_right fullShare.right)).1 $$ Hr
  icases H2 with ⟨Ha, Hb⟩
  isplitl [Hk]; · iexact Hk
  isplitl [Ha]; · iexact Ha
  iexact Hb
theorem join_idx (v : Buf (Elt F) ((thrV d L).loc cc0_scratch0)) :
    (iprop(((idxM).view.loc (thrV d L) ↦{qIk} v) ∗ ((idxM).view.loc (thrV d L) ↦{qIa} v) ∗ ((idxM).view.loc (thrV d L) ↦{qIb} v)) : sProp 𝕄)
      ⊢ ((thrV d L).loc cc0_scratch0 ↦{fullShare} v) := by
  iintro ⟨Hk, Ha, Hb⟩
  iapply (pointsTo_share (ℓ := (thrV d L).loc cc0_scratch0) (I := Finset.univ) (f := v) (PosShare.mem_left_op_right fullShare)).2
  isplitl [Hk]; · iexact Hk
  iapply (pointsTo_share (ℓ := (thrV d L).loc cc0_scratch0) (I := Finset.univ) (f := v) (PosShare.mem_left_op_right fullShare.right)).2
  isplitl [Ha]; · iexact Ha
  iexact Hb

/-! ## The read-only shares, halved by parity of the buffer -/

theorem split_spm (t : Buf (Elt F) (shLoc d (cV L))) :
    (shLoc d (cV L) ↦{qS (jL L)} t : sProp 𝕄)
      ⊢ iprop(((spmM).view.loc (thrV d L) ↦{qSa L} t) ∗ ((spmM).view.loc (thrV d L) ↦{qSb L} t)) :=
  (pointsTo_share (ℓ := shLoc d (cV L)) (I := Finset.univ) (f := t) (PosShare.mem_left_op_right (qS (jL L)))).1
theorem join_spm (t : Buf (Elt F) (shLoc d (cV L))) :
    (iprop(((spmM).view.loc (thrV d L) ↦{qSa L} t) ∗ ((spmM).view.loc (thrV d L) ↦{qSb L} t)) : sProp 𝕄)
      ⊢ (shLoc d (cV L) ↦{qS (jL L)} t) :=
  (pointsTo_share (ℓ := shLoc d (cV L)) (I := Finset.univ) (f := t) (PosShare.mem_left_op_right (qS (jL L)))).2

theorem split_u (u : Buf (Elt F) (uLoc d)) :
    (uLoc d ↦{qT (cV L) (jL L)} u : sProp 𝕄)
      ⊢ iprop(((uM).view.loc (thrV d L) ↦{qUa L} u) ∗ ((uM).view.loc (thrV d L) ↦{qUb L} u)) :=
  (pointsTo_share (ℓ := uLoc d) (I := Finset.univ) (f := u) (PosShare.mem_left_op_right (qT (cV L) (jL L)))).1
theorem join_u (u : Buf (Elt F) (uLoc d)) :
    (iprop(((uM).view.loc (thrV d L) ↦{qUa L} u) ∗ ((uM).view.loc (thrV d L) ↦{qUb L} u)) : sProp 𝕄)
      ⊢ (uLoc d ↦{qT (cV L) (jL L)} u) :=
  (pointsTo_share (ℓ := uLoc d) (I := Finset.univ) (f := u) (PosShare.mem_left_op_right (qT (cV L) (jL L)))).2

/-! ## A row of the token scratch, lent and returned -/

theorem take_idxRow (c : ℕ) (q : PosShare TreeShare) (v : Buf (Elt F) ((thrV d L).loc cc0_scratch0)) :
    ((idxM).view.loc (thrV d L) ↦{q} v : sProp 𝕄)
      ⊢ iprop(((idxM).view.loc (thrV d L) ↦[idxRowSet c]{q} v) ∗ ((idxM).view.loc (thrV d L) ↦[Finset.univ \ idxRowSet c]{q} v)) :=
  (pointsTo_split_subset (ℓ := (idxM).view.loc (thrV d L)) (q := q) (f := v) (Finset.subset_univ (idxRowSet c))).1
theorem put_idxRow (c : ℕ) (q : PosShare TreeShare) (v : Buf (Elt F) ((thrV d L).loc cc0_scratch0)) :
    (iprop(((idxM).view.loc (thrV d L) ↦[idxRowSet c]{q} v) ∗ ((idxM).view.loc (thrV d L) ↦[Finset.univ \ idxRowSet c]{q} v)) : sProp 𝕄)
      ⊢ ((idxM).view.loc (thrV d L) ↦{q} v) :=
  (pointsTo_split_subset (ℓ := (idxM).view.loc (thrV d L)) (q := q) (f := v) (Finset.subset_univ (idxRowSet c))).2

end Cert.KB

end
-- ==== Proof.KB.OutChunks.lean ====
/-
  The subcore's rows of the flat result through its main loop.  Before trip k the chunks below 2k - 1 hold their final
  value, chunk 2k - 1 is away with its write-out, and the chunks from 2k on are untouched.  Trip k takes chunks 2k and
  2k + 1 out untouched (chunk 2k - 1, just finished, goes back in), finishes chunk 2k and leaves chunk 2k + 1 away
  with its write-out: that is the state before trip k + 1.  Before the first trip every chunk is untouched, which is
  the worker's rows as the launch hands them over; after the last, with chunk 49 back, every chunk is final, which is
  the worker's rows at their final value.
-/
import proofs.«206556_g62818191671566_cont_9to1_m_1093_40_alg».proof.Proof.KB.Inv
import proofs.«206556_g62818191671566_cont_9to1_m_1093_40_alg».proof.Proof.KB.Sets

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)

/-! ## One chunk's slot -/

/-- Chunk j at its final value, and untouched. -/
abbrev chunkFin (j : ℕ) : sProp 𝕄 := outLoc d ↦[chunkSet L j]{fullShare} outV m d
abbrev chunkRaw (j : ℕ) : sProp 𝕄 := outLoc d ↦[chunkSet L j]{fullShare} m (outLoc d)

/-- Chunk j's slot before trip k. -/
def chunkSlot (k j : ℕ) : sProp 𝕄 :=
  if j + 1 < 2 * k then chunkFin m d L j else if j + 1 = 2 * k then iprop(emp) else chunkRaw m d L j

theorem outChunks_eq (k : ℕ) : outChunks m d L k = bigSep (Finset.range 50) (chunkSlot m d L k) := rfl

theorem chunkSlot_lt {k j : ℕ} (h : j + 1 < 2 * k) : chunkSlot m d L k j = chunkFin m d L j := by
  unfold chunkSlot; rw [if_pos h]
theorem chunkSlot_eq {k j : ℕ} (h : j + 1 = 2 * k) : chunkSlot m d L k j = (iprop(emp) : sProp 𝕄) := by
  unfold chunkSlot; rw [if_neg (show ¬ (j + 1 < 2 * k) by omega), if_pos h]
theorem chunkSlot_gt {k j : ℕ} (h : 2 * k < j + 1) : chunkSlot m d L k j = chunkRaw m d L j := by
  unfold chunkSlot; rw [if_neg (show ¬ (j + 1 < 2 * k) by omega), if_neg (show ¬ (j + 1 = 2 * k) by omega)]

/-! ## What a trip takes and puts back -/

/-- The chunk finished just before trip k, back from its write-out (none before the first trip). -/
def prevDone (k : ℕ) : sProp 𝕄 := if k = 0 then iprop(emp) else chunkFin m d L (2 * k - 1)

/-- The chunks other than 2k and 2k + 1. -/
abbrev restSet (k : ℕ) : Finset ℕ := ((Finset.range 50).erase (2 * k)).erase (2 * k + 1)

/-- A chunk other than 2k and 2k + 1 during trip k: final below 2k, untouched above. -/
def restSlot (k j : ℕ) : sProp 𝕄 := if j < 2 * k then chunkFin m d L j else chunkRaw m d L j

/-- The other forty-eight chunks during trip k. -/
def outRest (k : ℕ) : sProp 𝕄 := bigSep (restSet k) (restSlot m d L k)

theorem mem_restSet {k j : ℕ} : j ∈ restSet k ↔ j ≠ 2 * k + 1 ∧ j ≠ 2 * k ∧ j < 50 := by
  simp only [restSet, Finset.mem_erase, Finset.mem_range]

/-- With the chunk just finished back in, the other chunks before trip k are the other chunks during it. -/
theorem rest_fix (k : ℕ) (hk25 : k < 25) :
    iprop(bigSep (restSet k) (chunkSlot m d L k) ∗ prevDone m d L k) ⊢ bigSep (restSet k) (restSlot m d L k) := by
  by_cases hk : k = 0
  · subst hk
    have e : bigSep (restSet 0) (chunkSlot m d L 0) = bigSep (restSet 0) (restSlot m d L 0) :=
      bigSep_congr fun j _ => by
        rw [chunkSlot_gt m d L (show 2 * 0 < j + 1 by omega)]
        unfold restSlot; rw [if_neg (show ¬ (j < 2 * 0) by omega)]
    rw [e]
    iintro ⟨H, -⟩
    iexact H
  · have hmem : 2 * k - 1 ∈ restSet k := mem_restSet.mpr ⟨by omega, by omega, by omega⟩
    rw [SparseCore.bigSep_erase' hmem (Φ := chunkSlot m d L k), SparseCore.bigSep_erase' hmem (Φ := restSlot m d L k)]
    have e : bigSep ((restSet k).erase (2 * k - 1)) (chunkSlot m d L k)
        = bigSep ((restSet k).erase (2 * k - 1)) (restSlot m d L k) :=
      bigSep_congr fun j hj => by
        obtain ⟨hne, hj'⟩ := Finset.mem_erase.mp hj
        obtain ⟨h1, h2, h3⟩ := mem_restSet.mp hj'
        by_cases hlt : j < 2 * k
        · rw [chunkSlot_lt m d L (show j + 1 < 2 * k by omega)]; unfold restSlot; rw [if_pos hlt]
        · rw [chunkSlot_gt m d L (show 2 * k < j + 1 by omega)]; unfold restSlot; rw [if_neg hlt]
    have e1 : chunkSlot m d L k (2 * k - 1) = (iprop(emp) : sProp 𝕄) :=
      chunkSlot_eq m d L (show 2 * k - 1 + 1 = 2 * k by omega)
    have e2 : restSlot m d L k (2 * k - 1) = chunkFin m d L (2 * k - 1) := by
      unfold restSlot; rw [if_pos (show 2 * k - 1 < 2 * k by omega)]
    have e3 : prevDone m d L k = chunkFin m d L (2 * k - 1) := by unfold prevDone; rw [if_neg hk]
    rw [e, e1, e2, e3]
    iintro ⟨⟨-, HB⟩, HF⟩
    isplitl [HF]
    · iexact HF
    · iexact HB

/-- Trip k takes chunks 2k and 2k + 1 out untouched. -/
theorem out_take (k : ℕ) (hk : k < 25) :
    iprop(outChunks m d L k ∗ prevDone m d L k)
      ⊢ iprop((outLoc d ↦[chunkSet L (2 * k)]{fullShare} m (outLoc d))
          ∗ (outLoc d ↦[chunkSet L (2 * k + 1)]{fullShare} m (outLoc d)) ∗ outRest m d L k) := by
  have h0 : 2 * k ∈ Finset.range 50 := Finset.mem_range.mpr (by omega)
  have h1 : 2 * k + 1 ∈ (Finset.range 50).erase (2 * k) :=
    Finset.mem_erase.mpr ⟨by omega, Finset.mem_range.mpr (by omega)⟩
  rw [outChunks_eq, SparseCore.bigSep_erase' h0 (Φ := chunkSlot m d L k),
    SparseCore.bigSep_erase' h1 (Φ := chunkSlot m d L k),
    chunkSlot_gt m d L (show 2 * k < 2 * k + 1 by omega), chunkSlot_gt m d L (show 2 * k < 2 * k + 1 + 1 by omega)]
  unfold outRest
  iintro ⟨⟨Ha, Hb, HR⟩, HP⟩
  isplitl [Ha]
  · iexact Ha
  isplitl [Hb]
  · iexact Hb
  iapply (rest_fix m d L k hk)
  isplitl [HR]
  · iexact HR
  · iexact HP

/-- With chunk 2k finished, and chunk 2k + 1 away with its write-out, the rows are as before trip k + 1. -/
theorem out_put (k : ℕ) (hk : k < 25) :
    iprop(outRest m d L k ∗ (outLoc d ↦[chunkSet L (2 * k)]{fullShare} outV m d)) ⊢ outChunks m d L (k + 1) := by
  have h0 : 2 * k ∈ Finset.range 50 := Finset.mem_range.mpr (by omega)
  have h1 : 2 * k + 1 ∈ (Finset.range 50).erase (2 * k) :=
    Finset.mem_erase.mpr ⟨by omega, Finset.mem_range.mpr (by omega)⟩
  have e : bigSep (restSet k) (chunkSlot m d L (k + 1)) = bigSep (restSet k) (restSlot m d L k) :=
    bigSep_congr fun j hj => by
      obtain ⟨h1, h2, h3⟩ := mem_restSet.mp hj
      by_cases hlt : j < 2 * k
      · rw [chunkSlot_lt m d L (show j + 1 < 2 * (k + 1) by omega)]; unfold restSlot; rw [if_pos hlt]
      · rw [chunkSlot_gt m d L (show 2 * (k + 1) < j + 1 by omega)]; unfold restSlot; rw [if_neg hlt]
  rw [outChunks_eq, SparseCore.bigSep_erase' h0 (Φ := chunkSlot m d L (k + 1)),
    SparseCore.bigSep_erase' h1 (Φ := chunkSlot m d L (k + 1)),
    chunkSlot_lt m d L (show 2 * k + 1 < 2 * (k + 1) by omega),
    chunkSlot_eq m d L (show 2 * k + 1 + 1 = 2 * (k + 1) by omega), e]
  unfold outRest
  iintro ⟨HR, HF⟩
  isplitl [HF]
  · iexact HF
  isplitr
  · iempintro
  · iexact HR

/-- Before the first trip the worker's rows are fifty untouched chunks. -/
theorem out_init :
    (outLoc d ↦[slabSet (widOf (cV L) (jL L))]{fullShare} m (outLoc d) : sProp 𝕄) ⊢ outChunks m d L 0 := by
  rw [slab_chunks d L fullShare (m (outLoc d)), outChunks_eq]
  refine bigSep_mono fun j _ => ?_
  rw [chunkSlot_gt m d L (show 2 * 0 < j + 1 by omega)]
  exact BI.Entails.refl _

/-- After the last trip, with chunk 49 back from its write-out, the worker's rows are at their final value. -/
theorem out_final :
    iprop(outChunks m d L 25 ∗ (outLoc d ↦[chunkSet L 49]{fullShare} outV m d))
      ⊢ (outLoc d ↦[slabSet (widOf (cV L) (jL L))]{fullShare} outV m d : sProp 𝕄) := by
  have h49 : 49 ∈ Finset.range 50 := Finset.mem_range.mpr (by omega)
  have e : bigSep ((Finset.range 50).erase 49) (chunkSlot m d L 25)
      = bigSep ((Finset.range 50).erase 49) (chunkFin m d L) :=
    bigSep_congr fun j hj => by
      obtain ⟨hne, hj'⟩ := Finset.mem_erase.mp hj
      have := Finset.mem_range.mp hj'
      exact chunkSlot_lt m d L (show j + 1 < 2 * 25 by omega)
  rw [slab_chunks d L fullShare (outV m d), outChunks_eq, SparseCore.bigSep_erase' h49 (Φ := chunkSlot m d L 25),
    SparseCore.bigSep_erase' h49 (Φ := fun k => (outLoc d ↦[chunkSet L k]{fullShare} outV m d : sProp 𝕄)), e]
  iintro ⟨⟨-, HR⟩, HF⟩
  isplitl [HF]
  · iexact HF
  · iexact HR

end Cert.KB

end
-- ==== Proof.KB.GatherVal.lean ====
/-
  Values the tile's body cites.  The draw index of a position: the position divided by fifty, times a thousand, plus
  the token, computed on 32-bit words with a signed division, is the natural number it names, below the number of
  draws.  What an indexed copy delivers: at an index of the destination, the source at the same coordinates except on
  the indexed axis, where it is at the row the list names.
-/
import proofs.«206556_g62818191671566_cont_9to1_m_1093_40_alg».proof.Proof.KB.Vals

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The draw index on words -/

/-- Signed division of a non-negative word by fifty is the quotient. -/
theorem sdiv50 (p : ℕ) (hp : p < 2 ^ 31) : (BitVec.ofNat 32 p).sdiv 50#32 = BitVec.ofNat 32 (p / 50) := by
  have hx : (BitVec.ofNat 32 p).toNat = p := by rw [BitVec.toNat_ofNat]; exact Nat.mod_eq_of_lt (by omega)
  have hmx : (BitVec.ofNat 32 p).msb = false := by rw [BitVec.msb_eq_false_iff_two_mul_lt, hx]; omega
  have hmy : (50#32 : BitVec 32).msb = false := by decide
  rw [BitVec.sdiv_eq, hmx, hmy]
  dsimp only
  apply BitVec.eq_of_toNat_eq
  have h50 : (50#32 : BitVec 32).toNat = 50 := by decide
  rw [BitVec.udiv_eq, BitVec.toNat_udiv, hx, h50, BitVec.toNat_ofNat]
  exact (Nat.mod_eq_of_lt (by omega)).symm

/-- The draw index of flat position `p` and token `t`, computed on words, is the word of the natural number; that
    number is below the number of draws. -/
theorem midx_word (p t : ℕ) (hp : p < 204800) (ht : t < 1000) :
    (BitVec.ofNat 32 p).sdiv 50#32 * 1000#32 + BitVec.ofNat 32 t = BitVec.ofNat 32 (p / 50 * 1000 + t)
      ∧ p / 50 * 1000 + t < 4096000 := by
  refine ⟨?_, by omega⟩
  rw [sdiv50 p (by omega)]
  apply BitVec.eq_of_toNat_eq
  simp only [BitVec.toNat_add, BitVec.toNat_mul, BitVec.toNat_ofNat]
  omega

/-- The same through the vector unit's operations: fifty is no corner of the signed division. -/
theorem midx_lane (p t : ℕ) (hp : p < 204800) (ht : t < 1000) :
    IntOp.addi (IntOp.muli (IntOp.divsi .vector (BitVec.ofNat 32 p) 50#32) 1000#32) (BitVec.ofNat 32 t)
      = BitVec.ofNat 32 (p / 50 * 1000 + t) := by
  have hc : ¬ IntOp.SDivCorner (BitVec.ofNat 32 p) 50#32 := by
    rintro (h0 | ⟨-, h1⟩)
    · exact absurd h0 (by decide)
    · exact absurd h1 (by decide)
  rw [IntOp.divsi, if_neg hc]
  exact (midx_word p t hp ht).1

/-- Sums of small numbers as words. -/
theorem ofNat_add_word (a b : ℕ) : BitVec.ofNat 32 a + BitVec.ofNat 32 b = BitVec.ofNat 32 (a + b) := by
  apply BitVec.eq_of_toNat_eq
  simp only [BitVec.toNat_add, BitVec.toNat_ofNat]
  omega
theorem ofNat_mul_word (a b : ℕ) : BitVec.ofNat 32 a * BitVec.ofNat 32 b = BitVec.ofNat 32 (a * b) := by
  apply BitVec.eq_of_toNat_eq
  simp only [BitVec.toNat_mul, BitVec.toNat_ofNat]
  exact (Nat.mul_mod _ _ _).symm

/-- The first flat position of the worker at a grid point, as the body computes it on words. -/
theorem base_word (L : grid0.Coords) :
    Scalar.muli (Scalar.addi (Scalar.muli (BitVec.ofNat 32 (L 1).val) 2#32) (BitVec.ofNat 32 (L 0).val)) 6400#32
      = BitVec.ofNat 32 (widN L * 6400) := by
  show (BitVec.ofNat 32 (L 1).val * BitVec.ofNat 32 2 + BitVec.ofNat 32 (L 0).val) * BitVec.ofNat 32 6400 = _
  rw [ofNat_mul_word, ofNat_add_word, ofNat_mul_word]
  unfold widN
  rw [Nat.mul_comm (L 1).val 2]

/-- The lane counter reads the lane's number. -/
theorem iota16_apply (ℓ : Fin 16) : iota .scVector S16 32 [0] iota_S16_d0_w32_scVector (ix1 ℓ) = BitVec.ofNat 32 ℓ.val := by
  show BitVec.ofNat 32 (0 * 16 + ℓ.val) = _
  rw [Nat.zero_mul, Nat.zero_add]

/-- One lane of the sixteen the body computes at a time: from the word of a flat position `b`, lane `ℓ` is the draw
    index of position `b + ℓ` and of the lane's token. -/
theorem midx_lanes (b : ℕ) (tok : IVec S16 32) (ℓ : Fin 16) (hb : b + 16 ≤ 204800) (ht : (tok (ix1 ℓ)).toNat < 1000) :
    addi (muli (divsi (addi (broadcast S16 (BitVec.ofNat 32 b)) (iota .scVector S16 32 [0] iota_S16_d0_w32_scVector))
        (broadcast S16 50#32)) (broadcast S16 1000#32)) tok (ix1 ℓ)
      = BitVec.ofNat 32 ((b + ℓ.val) / 50 * 1000 + (tok (ix1 ℓ)).toNat) := by
  show IntOp.addi (IntOp.muli (IntOp.divsi .vector (IntOp.addi (BitVec.ofNat 32 b)
      (iota .scVector S16 32 [0] iota_S16_d0_w32_scVector (ix1 ℓ))) 50#32) 1000#32) (tok (ix1 ℓ)) = _
  rw [iota16_apply]
  have e : IntOp.addi (BitVec.ofNat 32 b) (BitVec.ofNat 32 ℓ.val) = BitVec.ofNat 32 (b + ℓ.val) := ofNat_add_word b ℓ.val
  rw [e]
  have hℓ := ℓ.isLt
  have h := midx_lane (b + ℓ.val) (tok (ix1 ℓ)).toNat (by omega) ht
  rwa [show BitVec.ofNat 32 (tok (ix1 ℓ)).toNat = tok (ix1 ℓ) from
    BitVec.eq_of_toNat_eq (by rw [BitVec.toNat_ofNat]; exact Nat.mod_eq_of_lt (tok (ix1 ℓ)).isLt)] at h

variable (m : (ℓ : Loc nD τ sig) → Buf (Elt F) ℓ)

/-! ## Tokens and draw indices in range -/

/-- Every token a subcore reads names a vocabulary entry: the regrouped array's entries are the token array's. -/
theorem tokC_lt [FloatOps F] (hpre : PreOK m) (d : Dev nD) (L : grid0.Coords) (k r : ℕ) : (tokC m d L k r).toNat < 1000 := by
  unfold tokC tok3V shapeCast
  exact hpre d _

/-- A flat position of a worker's chunk is a row of the flat result. -/
theorem posN_lt (L : grid0.Coords) (k r : ℕ) (hk : k < 50) (hr : r < 128) : posN L k r < 204800 := by
  have := wid_lt L
  unfold posN widN; omega

/-- The draw index of a row of a chunk is below the number of draws. -/
theorem midxN_lt [FloatOps F] (hpre : PreOK m) (d : Dev nD) (L : grid0.Coords) (k r : ℕ) (hk : k < 50) (hr : r < 128) :
    midxN m d L k r < 4096000 := by
  have h1 := posN_lt L k r hk hr
  have h2 := tokC_lt m hpre d L k r
  unfold midxN; omega

/-! ## What an indexed copy delivers -/

/-- Rows of the table: row `a` of the destination is row `r a` of the source. -/
theorem gather_rows_apply (g : S1000x128.Idx → Elt F .f32)
    (r : Fin (S128x128.size gathers_S1000x128_S128x128.axis') → Fin (S1000x128.size gathers_S1000x128_S128x128.axis))
    (a : Fin 128) (b : Fin 128) :
    SparseCore.gatherPayload gathers_S1000x128_S128x128 g r (ix2 a b) = g (ix2 (r a) b) := by
  unfold SparseCore.gatherPayload
  congr 1
  funext c
  match c with
  | ⟨0, _⟩ => exact Shape.Gathers.idx_axis gathers_S1000x128_S128x128 r (ix2 a b)
  | ⟨1, _⟩ => exact Fin.ext (Shape.Gathers.idx_of_ne gathers_S1000x128_S128x128 r (ix2 a b) ⟨1, by decide⟩ (by decide))

/-- Draws: entry `a` of the destination is entry `r a` of the source. -/
theorem gather_draw_apply (g : S4096000.Idx → Elt F .f32)
    (r : Fin (S128.size gathers_S4096000_S128.axis') → Fin (S4096000.size gathers_S4096000_S128.axis)) (a : Fin 128) :
    SparseCore.gatherPayload gathers_S4096000_S128 g r (ix1 a) = g (ix1 (r a)) := by
  unfold SparseCore.gatherPayload
  congr 1
  funext c
  match c with
  | ⟨0, _⟩ => exact Shape.Gathers.idx_axis gathers_S4096000_S128 r (ix1 a)

/-! ## The blocks and lists the gathers name, at any offset -/

/-- A 128 × 128 block of the row scratch: one of its two halves, the unit axis dropped. -/
abbrev rowsBlk (off : Fin 3 → ℕ) (inb : ∀ a, off a + S1x128x128.size a ≤ S2x128x128.size a) : Memref sig .scVector .vmem S128x128 .f32 :=
  ((rowsM).slice (Rect.unit (s := S2x128x128) off S1x128x128.size inb) (fun _ => rfl)).squeeze S128x128 squeezes_S1x128x128_S128x128
/-- A row of the token scratch as a list. -/
abbrev idxList (off : Fin 2 → ℕ) (inb : ∀ a, off a + S1x128.size a ≤ S50x128.size a) : Memref sig .scVector .vmem S128 .i32 :=
  ((idxM).slice (Rect.unit (s := S50x128) off S1x128.size inb) (fun _ => rfl)).squeeze S128 squeezes_S1x128_S128
/-- The whole shared copy, as a gather names its source. -/
abbrev spmWhole : Memref sig .scVector .shared S1000x128 .f32 :=
  (spmM).slice (Rect.unit (s := S1000x128) ![0, 0] S1000x128.size inb_S1000x128_S1000x128_0_0) (fun _ => rfl)

theorem rowsBlk_emb (off : Fin 3 → ℕ) (inb : ∀ a, off a + S1x128x128.size a ≤ S2x128x128.size a) (h : Fin 2)
    (hoff : off = ![h.val, 0, 0]) (a b : Fin 128) :
    (rowsBlk off inb).view.emb (ix2 a b) = (ix3 h a b : S2x128x128.Idx) := by
  subst hoff
  have e1 : Shape.reshapeEquiv (squeezes_S1x128x128_S128x128 : S1x128x128.Squeezes S128x128).numel_eq (ix2 a b)
      = (ix3 (⟨0, Nat.one_pos⟩ : Fin 1) a b : S1x128x128.Idx) := by
    refine Shape.reshapeEquiv_eq_of_rowMajor _ ?_
    rw [Shape.rowMajor_val_three, Shape.rowMajor_val_two]
    show (0 * 128 + a.val) * 128 + b.val = a.val * 128 + b.val
    omega
  show (Rect.unit (s := S2x128x128) ![h.val, 0, 0] S1x128x128.size inb).emb
      (Shape.reshapeEquiv (squeezes_S1x128x128_S128x128 : S1x128x128.Squeezes S128x128).numel_eq (ix2 a b)) = _
  rw [e1]
  funext k
  apply Fin.ext
  rw [Rect.emb_apply]
  match k with
  | ⟨0, _⟩ => show h.val + 1 * 0 = h.val; omega
  | ⟨1, _⟩ => show 0 + 1 * a.val = a.val; omega
  | ⟨2, _⟩ => show 0 + 1 * b.val = b.val; omega

theorem idxList_emb (off : Fin 2 → ℕ) (inb : ∀ a, off a + S1x128.size a ≤ S50x128.size a) (kk : Fin 50)
    (hoff : off = ![kk.val, 0]) (a : Fin 128) :
    (idxList off inb).view.emb (ix1 a) = (ix2 kk a : S50x128.Idx) := by
  subst hoff
  have e1 : Shape.reshapeEquiv (squeezes_S1x128_S128 : S1x128.Squeezes S128).numel_eq (ix1 a)
      = (ix2 (⟨0, Nat.one_pos⟩ : Fin 1) a : S1x128.Idx) := by
    refine Shape.reshapeEquiv_eq_of_rowMajor _ ?_
    rw [Shape.rowMajor_val_two, Shape.rowMajor_val_one]
    show 0 * 128 + a.val = a.val
    omega
  show (Rect.unit (s := S50x128) ![kk.val, 0] S1x128.size inb).emb
      (Shape.reshapeEquiv (squeezes_S1x128_S128 : S1x128.Squeezes S128).numel_eq (ix1 a)) = _
  rw [e1]
  funext k
  apply Fin.ext
  rw [Rect.emb_apply]
  match k with
  | ⟨0, _⟩ => show kk.val + 1 * 0 = kk.val; omega
  | ⟨1, _⟩ => show 0 + 1 * a.val = a.val; omega

theorem spmWhole_emb (z : S1000x128.Idx) : (spmWhole).view.emb z = z := by
  show (Rect.unit (s := S1000x128) ![0, 0] S1000x128.size inb_S1000x128_S1000x128_0_0).emb z = z
  funext k
  apply Fin.ext
  rw [Rect.emb_apply]
  match k with
  | ⟨0, _⟩ => show 0 + 1 * (z 0).val = (z 0).val; omega
  | ⟨1, _⟩ => show 0 + 1 * (z 1).val = (z 1).val; omega

/-- Entry `k` of a list of 128 in row-major order is entry `k`. -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- Entry `a` of row `kk` of the token scratch, once the tokens have landed, is the token of row `a` of chunk `kk`. -/
theorem idxList_read (d : Dev nD) (L : grid0.Coords) (off : Fin 2 → ℕ) (inb : ∀ a, off a + S1x128.size a ≤ S50x128.size a)
    (kk : Fin 50) (hoff : off = ![kk.val, 0]) (a : Fin 128) :
    (idxList off inb).view.read (Elt F) (idxVal m d L) (ix1 a) = tokC m d L kk.val a.val := by
  rw [View.read_apply, idxList_emb off inb kk hoff a]
  show idxVal m d L (ix2 kk a) = _
  unfold idxVal tokC
  show (tok3V m d : IVec S32x50x128 32) (ix3 _ kk a) = (tok3V m d : IVec S32x50x128 32) (ix3 _ _ _)
  have hk : (⟨kk.val % 50, Nat.mod_lt _ (by norm_num)⟩ : Fin 50) = kk := Fin.ext (Nat.mod_eq_of_lt kk.isLt)
  have ha : (⟨a.val % 128, Nat.mod_lt _ (by norm_num)⟩ : Fin 128) = a := Fin.ext (Nat.mod_eq_of_lt a.isLt)
  rw [hk, ha]

/-- The list's words name rows of the table. -/
theorem idxList_lt [FloatOps F] (hpre : PreOK m) (d : Dev nD) (L : grid0.Coords) (off : Fin 2 → ℕ)
    (inb : ∀ a, off a + S1x128.size a ≤ S50x128.size a) (kk : Fin 50) (hoff : off = ![kk.val, 0]) :
    ∀ x, ((idxList off inb).view.read (Elt F) (idxVal m d L) x).toNat < S1000x128.size gathers_S1000x128_S128x128.axis := by
  intro x
  obtain ⟨a, rfl⟩ : ∃ a : Fin 128, x = ix1 a := ⟨x 0, eq_ix1 x⟩
  rw [idxList_read m d L off inb kk hoff a]
  exact tokC_lt m hpre d L kk.val a.val

/-- The row the list names for row `a` of the block is the token's. -/
theorem rows_named (d : Dev nD) (L : grid0.Coords) (off : Fin 2 → ℕ) (inb : ∀ a, off a + S1x128.size a ≤ S50x128.size a)
    (kk : Fin 50) (hoff : off = ![kk.val, 0]) (hn : S128.numel = S128x128.size gathers_S1000x128_S128x128.axis')
    (hin : ∀ x, ((idxList off inb).view.read (Elt F) (idxVal m d L) x).toNat < S1000x128.size gathers_S1000x128_S128x128.axis)
    (a : Fin 128) :
    (SparseCore.rows ((idxList off inb).view.read (Elt F) (idxVal m d L)) hn hin a).val = (tokC m d L kk.val a.val).toNat := by
  show ((idxList off inb).view.read (Elt F) (idxVal m d L) (S128.rowMajor.symm (Fin.cast hn.symm a))).toNat = _
  rw [rowMajor_symm_S128, idxList_read m d L off inb kk hoff]
  rfl

/-- The gathered block, written whole into a half of the row scratch, holds on that half the table's rows of the
    chunk's tokens. -/
theorem rows_gathered (d : Dev nD) (L : grid0.Coords) (kk : Fin 50) (h : Fin 2)
    (offD : Fin 3 → ℕ) (inbD : ∀ a, offD a + S1x128x128.size a ≤ S2x128x128.size a) (hD : offD = ![h.val, 0, 0])
    (offI : Fin 2 → ℕ) (inbI : ∀ a, offI a + S1x128.size a ≤ S50x128.size a) (hI : offI = ![kk.val, 0])
    (old : Buf (Elt F) ((thrV d L).loc cc0_scratch4))
    (hn : S128.numel = S128x128.size gathers_S1000x128_S128x128.axis')
    (hin : ∀ x, ((idxList offI inbI).view.read (Elt F) (idxVal m d L) x).toNat < S1000x128.size gathers_S1000x128_S128x128.axis) :
    ∀ x ∈ (rowsBlk offD inbD).view.set,
      (rowsBlk offD inbD).view.write (Elt F) old
        (SparseCore.gatherPayload gathers_S1000x128_S128x128 ((spmWhole).view.read (Elt F) (tabSh m d (cV L)))
          (SparseCore.rows ((idxList offI inbI).view.read (Elt F) (idxVal m d L)) hn hin)) Finset.univ x
      = rowsVal m d L kk.val x := by
  intro x hx
  obtain ⟨y, -, rfl⟩ := Finset.mem_map.mp hx
  obtain ⟨a, b, rfl⟩ : ∃ (a b : Fin 128), y = ix2 a b := ⟨y 0, y 1, eq_ix2 y⟩
  refine (View.write_emb_of_mem (v := (rowsBlk offD inbD).view) (Val := Elt F) old _ (M := Finset.univ) (Finset.mem_univ _)).trans ?_
  rw [gather_rows_apply, View.read_apply, spmWhole_emb, rowsBlk_emb offD inbD h hD a b]
  unfold rowsVal tabSh
  show (m (tabLoc d) : FVec F S1000x128 .f32) (ix2 _ b) = (m (tabLoc d) : FVec F S1000x128 .f32) (ix2 _ _)
  have hlt : (tokC m d L kk.val a.val).toNat < 1000 := by
    have := hin (ix1 a)
    rw [idxList_read m d L offI inbI kk hI a] at this
    exact this
  have hr : SparseCore.rows ((idxList offI inbI).view.read (Elt F) (idxVal m d L)) hn hin a = Cert.Spec.row (tokC m d L kk.val a.val) := by
    apply Fin.ext
    rw [rows_named m d L offI inbI kk hI hn hin a]
    exact (Cert.Spec.row_val_of_lt hlt).symm
  rw [hr]
  have hb : (⟨b.val % 128, Nat.mod_lt _ (by norm_num)⟩ : Fin 128) = b := Fin.ext (Nat.mod_eq_of_lt b.isLt)
  show (m (tabLoc d) : FVec F S1000x128 .f32) (ix2 (Cert.Spec.row (tokC m d L kk.val a.val)) b)
    = (m (tabLoc d) : FVec F S1000x128 .f32) (ix2 (Cert.Spec.row (tokC m d L kk.val a.val)) (⟨b.val % 128, Nat.mod_lt _ (by norm_num)⟩ : Fin 128))
  rw [hb]

/-! ## The draws' gather -/

/-- A row of the draw-index scratch as a list. -/
abbrev midxList (off : Fin 2 → ℕ) (inb : ∀ a, off a + S1x128.size a ≤ S2x128.size a) : Memref sig .scVector .vmem S128 .i32 :=
  ((midxM).slice (Rect.unit (s := S2x128) off S1x128.size inb) (fun _ => rfl)).squeeze S128 squeezes_S1x128_S128
/-- A row of the draw scratch as the block a gather fills. -/
abbrev mvalBlk (off : Fin 2 → ℕ) (inb : ∀ a, off a + S1x128.size a ≤ S2x128.size a) : Memref sig .scVector .vmem S128 .f32 :=
  ((mvalM).slice (Rect.unit (s := S2x128) off S1x128.size inb) (fun _ => rfl)).squeeze S128 squeezes_S1x128_S128
/-- The whole flattened array of draws, as a gather names its source. -/
abbrev uWhole : Memref sig .scVector .hbm S4096000 .f32 :=
  (uM).slice (Rect.unit (s := S4096000) ![0] S4096000.size inb_S4096000_S4096000_0) (fun _ => rfl)

theorem row2_reshape (a : Fin 128) :
    Shape.reshapeEquiv (squeezes_S1x128_S128 : S1x128.Squeezes S128).numel_eq (ix1 a) = (ix2 (⟨0, Nat.one_pos⟩ : Fin 1) a : S1x128.Idx) := by
  refine Shape.reshapeEquiv_eq_of_rowMajor _ ?_
  rw [Shape.rowMajor_val_two, Shape.rowMajor_val_one]
  show 0 * 128 + a.val = a.val
  omega

theorem midxList_emb (off : Fin 2 → ℕ) (inb : ∀ a, off a + S1x128.size a ≤ S2x128.size a) (h : Fin 2)
    (hoff : off = ![h.val, 0]) (a : Fin 128) :
    (midxList off inb).view.emb (ix1 a) = (ix2 h a : S2x128.Idx) := by
  subst hoff
  show (Rect.unit (s := S2x128) ![h.val, 0] S1x128.size inb).emb
      (Shape.reshapeEquiv (squeezes_S1x128_S128 : S1x128.Squeezes S128).numel_eq (ix1 a)) = _
  rw [row2_reshape]
  funext k
  apply Fin.ext
  rw [Rect.emb_apply]
  match k with
  | ⟨0, _⟩ => show h.val + 1 * 0 = h.val; omega
  | ⟨1, _⟩ => show 0 + 1 * a.val = a.val; omega

theorem mvalBlk_emb (off : Fin 2 → ℕ) (inb : ∀ a, off a + S1x128.size a ≤ S2x128.size a) (h : Fin 2)
    (hoff : off = ![h.val, 0]) (a : Fin 128) :
    (mvalBlk off inb).view.emb (ix1 a) = (ix2 h a : S2x128.Idx) := by
  subst hoff
  show (Rect.unit (s := S2x128) ![h.val, 0] S1x128.size inb).emb
      (Shape.reshapeEquiv (squeezes_S1x128_S128 : S1x128.Squeezes S128).numel_eq (ix1 a)) = _
  rw [row2_reshape]
  funext k
  apply Fin.ext
  rw [Rect.emb_apply]
  match k with
  | ⟨0, _⟩ => show h.val + 1 * 0 = h.val; omega
  | ⟨1, _⟩ => show 0 + 1 * a.val = a.val; omega

theorem uWhole_emb (z : S4096000.Idx) : (uWhole).view.emb z = z := by
  show (Rect.unit (s := S4096000) ![0] S4096000.size inb_S4096000_S4096000_0).emb z = z
  funext k
  apply Fin.ext
  rw [Rect.emb_apply]
  match k with
  | ⟨0, _⟩ => show 0 + 1 * (z 0).val = (z 0).val; omega

/-- Entry `a` of a row of the draw-index scratch holding chunk `k`'s indices is the word of row `a`'s draw index. -/
theorem midxList_read (d : Dev nD) (L : grid0.Coords) (k : ℕ) (off : Fin 2 → ℕ) (inb : ∀ a, off a + S1x128.size a ≤ S2x128.size a)
    (h : Fin 2) (hoff : off = ![h.val, 0]) (a : Fin 128) :
    (midxList off inb).view.read (Elt F) (midxVal m d L k) (ix1 a) = BitVec.ofNat 32 (midxN m d L k a.val) := by
  rw [View.read_apply, midxList_emb off inb h hoff a]
  rfl

/-- The draw indices of a chunk's rows are in range. -/
theorem midxList_lt (d : Dev nD) (L : grid0.Coords) (k : ℕ) (off : Fin 2 → ℕ) (inb : ∀ a, off a + S1x128.size a ≤ S2x128.size a)
    (h : Fin 2) (hoff : off = ![h.val, 0]) (hN : ∀ r, r < 128 → midxN m d L k r < 4096000) :
    ∀ x, ((midxList off inb).view.read (Elt F) (midxVal m d L k) x).toNat < S4096000.size gathers_S4096000_S128.axis := by
  intro x
  obtain ⟨a, rfl⟩ : ∃ a : Fin 128, x = ix1 a := ⟨x 0, eq_ix1 x⟩
  rw [midxList_read m d L k off inb h hoff a, BitVec.toNat_ofNat]
  have := hN a.val a.isLt
  show midxN m d L k a.val % 2 ^ 32 < 4096000
  omega

/-- The gathered draws, written whole into a row of the draw scratch, hold on that row the chunk's draws. -/
theorem draws_gathered (d : Dev nD) (L : grid0.Coords) (k : ℕ) (h h' : Fin 2)
    (offD : Fin 2 → ℕ) (inbD : ∀ a, offD a + S1x128.size a ≤ S2x128.size a) (hD : offD = ![h.val, 0])
    (offI : Fin 2 → ℕ) (inbI : ∀ a, offI a + S1x128.size a ≤ S2x128.size a) (hI : offI = ![h'.val, 0])
    (hN : ∀ r, r < 128 → midxN m d L k r < 4096000)
    (old : Buf (Elt F) ((thrV d L).loc cc0_scratch2))
    (hn : S128.numel = S128.size gathers_S4096000_S128.axis')
    (hin : ∀ x, ((midxList offI inbI).view.read (Elt F) (midxVal m d L k) x).toNat < S4096000.size gathers_S4096000_S128.axis) :
    ∀ x ∈ (mvalBlk offD inbD).view.set,
      (mvalBlk offD inbD).view.write (Elt F) old
        (SparseCore.gatherPayload gathers_S4096000_S128 ((uWhole).view.read (Elt F) (uflatV m d))
          (SparseCore.rows ((midxList offI inbI).view.read (Elt F) (midxVal m d L k)) hn hin)) Finset.univ x
      = mvalVal m d L k x := by
  intro x hx
  obtain ⟨y, -, rfl⟩ := Finset.mem_map.mp hx
  obtain ⟨a, rfl⟩ : ∃ a : Fin 128, y = ix1 a := ⟨y 0, eq_ix1 y⟩
  refine (View.write_emb_of_mem (v := (mvalBlk offD inbD).view) (Val := Elt F) old _ (M := Finset.univ) (Finset.mem_univ _)).trans ?_
  rw [gather_draw_apply, View.read_apply, uWhole_emb, mvalBlk_emb offD inbD h hD a]
  unfold mvalVal
  have hr : SparseCore.rows ((midxList offI inbI).view.read (Elt F) (midxVal m d L k)) hn hin a
      = (⟨midxN m d L k a.val % 4096000, Nat.mod_lt _ (by norm_num)⟩ : Fin 4096000) := by
    apply Fin.ext
    show ((midxList offI inbI).view.read (Elt F) (midxVal m d L k) (S128.rowMajor.symm (Fin.cast hn.symm a))).toNat = _
    rw [rowMajor_symm_S128, midxList_read m d L k offI inbI h' hI, BitVec.toNat_ofNat]
    have := hN a.val a.isLt
    show midxN m d L k a.val % 2 ^ 32 = midxN m d L k a.val % 4096000
    omega
  rw [hr]
  rfl

end Cert.KB

end
-- ==== Proof.KB.MidxVal.lean ====
/-
  The draw indices a trip computes.  A row of the draw-index scratch is filled sixteen lanes at a time: eight stores,
  each of the sixteen draw indices of the positions it covers.  A store through a sixteen-lane window replaces the
  window's lanes and leaves the rest; the payload of a window is, lane by lane, the draw index of the lane's position
  and token; so after the eight stores the row holds the chunk's draw indices.
-/
import proofs.«206556_g62818191671566_cont_9to1_m_1093_40_alg».proof.Proof.KB.GatherVal
import proofs.«206556_g62818191671566_cont_9to1_m_1093_40_alg».proof.Proof.KB.Sets

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## One store through a sixteen-lane window of a row -/

/-- A sixteen-lane window of row `h` of the draw-index scratch starting at lane `c0`: where its lane `ℓ` sits. -/
theorem midxWin_emb (off : Fin 2 → ℕ) (inb : ∀ a, off a + S1x16.size a ≤ S2x128.size a) (h : Fin 2) (c0 : ℕ)
    (hoff : off = ![h.val, c0]) (ℓ : Fin 16) (hlt : c0 + ℓ.val < 128) :
    ((midxM).access (Rect.unit (s := S2x128) off S1x16.size inb)).emb (ix2 (0 : Fin 1) ℓ) = (ix2 h ⟨c0 + ℓ.val, hlt⟩ : S2x128.Idx) := by
  subst hoff
  show (Rect.unit (s := S2x128) ![h.val, c0] S1x16.size inb).emb (ix2 (0 : Fin 1) ℓ) = _
  funext k
  apply Fin.ext
  rw [Rect.emb_apply]
  match k with
  | ⟨0, _⟩ => show h.val + 1 * 0 = h.val; omega
  | ⟨1, _⟩ => show c0 + 1 * ℓ.val = c0 + ℓ.val; omega

/-- A store through the window replaces its lanes by the payload's and leaves every other entry. -/
theorem midx_write_step (off : Fin 2 → ℕ) (inb : ∀ a, off a + S1x16.size a ≤ S2x128.size a) (h : Fin 2) (c0 : ℕ)
    (hoff : off = ![h.val, c0]) (hc0 : c0 + 16 ≤ 128) (W : IVec S2x128 32) (pay : IVec S1x16 32) (x : S2x128.Idx) (hx0 : (x 0).val = h.val) :
    View.write (Elt F) ((midxM).access (Rect.unit (s := S2x128) off S1x16.size inb)) W pay Finset.univ x
      = if hx : c0 ≤ (x 1).val ∧ (x 1).val < c0 + 16 then pay (ix2 (0 : Fin 1) (⟨(x 1).val - c0, by omega⟩ : Fin 16)) else W x := by
  split
  · next hx =>
    have hlt : c0 + ((⟨(x 1).val - c0, by omega⟩ : Fin 16)).val < 128 := by show c0 + ((x 1).val - c0) < 128; omega
    have he := midxWin_emb off inb h c0 hoff (⟨(x 1).val - c0, by omega⟩ : Fin 16) hlt
    have hxe : x = (ix2 h ⟨c0 + ((x 1).val - c0), hlt⟩ : S2x128.Idx) := by
      funext k
      match k with
      | ⟨0, _⟩ => exact Fin.ext hx0
      | ⟨1, _⟩ => exact Fin.ext (by show (x 1).val = c0 + ((x 1).val - c0); omega)
    have hw := View.write_emb_of_mem (v := (midxM).access (Rect.unit (s := S2x128) off S1x16.size inb)) (Val := Elt F) W pay
      (M := Finset.univ) (x := ix2 (0 : Fin 1) (⟨(x 1).val - c0, by omega⟩ : Fin 16)) (Finset.mem_univ _)
    rw [he, ← hxe] at hw
    exact hw
  · next hx =>
    refine View.write_of_not_mem (v := (midxM).access (Rect.unit (s := S2x128) off S1x16.size inb)) (Val := Elt F) W pay Finset.univ ?_
    intro hmem
    rw [View.setOn_univ] at hmem
    obtain ⟨y, -, hy⟩ := Finset.mem_map.mp hmem
    obtain ⟨a, ℓ, rfl⟩ : ∃ (a : Fin 1) (ℓ : Fin 16), y = ix2 a ℓ := ⟨y 0, y 1, eq_ix2 y⟩
    have ha : a = 0 := Subsingleton.elim _ _
    subst ha
    have hℓ := ℓ.isLt
    have he := midxWin_emb off inb h c0 hoff ℓ (by omega)
    have : (x 1).val = c0 + ℓ.val := by
      have := congrFun (hy.symm.trans he) 1
      exact congrArg Fin.val this
    omega

/-! ## The payload of a window, lane by lane -/

/-- The sixteen draw indices computed from the word of the window's first position and the window's tokens. -/
def midxPay (bw : BitVec 32) (v : IVec S1x16 32) : IVec S1x16 32 :=
  shapeCast S1x16 (addi (muli (divsi (addi (broadcast S16 bw) (iota .scVector S16 32 [0] iota_S16_d0_w32_scVector))
    (broadcast S16 50#32)) (broadcast S16 1000#32)) (shapeCast S16 v shapeCasts_S1x16_S16)) shapeCasts_S16_S1x16

theorem reshape_1x16 (ℓ : Fin 16) :
    Shape.reshapeEquiv (shapeCasts_S16_S1x16 : S16.ShapeCasts S1x16) (ix2 (0 : Fin 1) ℓ) = (ix1 ℓ : S16.Idx) := by
  refine Shape.reshapeEquiv_eq_of_rowMajor _ ?_
  rw [Shape.rowMajor_val_two, Shape.rowMajor_val_one]
  show ℓ.val = 0 * 16 + ℓ.val
  omega
theorem reshape_16 (ℓ : Fin 16) :
    Shape.reshapeEquiv (shapeCasts_S1x16_S16 : S1x16.ShapeCasts S16) (ix1 ℓ) = (ix2 (0 : Fin 1) ℓ : S1x16.Idx) := by
  refine Shape.reshapeEquiv_eq_of_rowMajor _ ?_
  rw [Shape.rowMajor_val_two, Shape.rowMajor_val_one]
  show 0 * 16 + ℓ.val = ℓ.val
  omega

/-- Lane `ℓ` of the payload is the draw index of position `b + ℓ` and the lane's token. -/
theorem midxPay_lane (bw : BitVec 32) (b : ℕ) (hbw : bw = BitVec.ofNat 32 b) (hb : b + 16 ≤ 204800) (v : IVec S1x16 32) (ℓ : Fin 16)
    (ht : (v (ix2 (0 : Fin 1) ℓ)).toNat < 1000) :
    midxPay bw v (ix2 (0 : Fin 1) ℓ) = BitVec.ofNat 32 ((b + ℓ.val) / 50 * 1000 + (v (ix2 (0 : Fin 1) ℓ)).toNat) := by
  subst hbw
  unfold midxPay
  have e2 : (shapeCast S16 v shapeCasts_S1x16_S16 : IVec S16 32) (ix1 ℓ) = v (ix2 (0 : Fin 1) ℓ) := by
    show v (Shape.reshapeEquiv (shapeCasts_S1x16_S16 : S1x16.ShapeCasts S16) (ix1 ℓ)) = _
    rw [reshape_16]
  show (addi (muli (divsi (addi (broadcast S16 (BitVec.ofNat 32 b)) (iota .scVector S16 32 [0] iota_S16_d0_w32_scVector))
      (broadcast S16 50#32)) (broadcast S16 1000#32)) (shapeCast S16 v shapeCasts_S1x16_S16))
      (Shape.reshapeEquiv (shapeCasts_S16_S1x16 : S16.ShapeCasts S1x16) (ix2 (0 : Fin 1) ℓ)) = _
  rw [reshape_1x16, midx_lanes b _ ℓ hb (by rw [e2]; exact ht), e2]

/-! ## The tokens a window's load reads -/

/-- Lane `ℓ` of a sixteen-lane load from row `c` of the token scratch at lane `c0` is the token of row `c0 + ℓ` of chunk `c`. -/
theorem idx16_read (m : (ℓ : Loc nD τ sig) → Buf (Elt F) ℓ) (d : Dev nD) (L : grid0.Coords) (off : Fin 2 → ℕ)
    (inb : ∀ a, off a + S1x16.size a ≤ S50x128.size a) (c : Fin 50) (c0 : ℕ) (hoff : off = ![c.val, c0]) (hc0 : c0 + 16 ≤ 128) (ℓ : Fin 16) :
    View.readAt (Elt F) (idxM).view (Rect.unit (s := S50x128) off S1x16.size inb).toLoadRect (idxVal m d L) (ix2 (0 : Fin 1) ℓ)
      = tokC m d L c.val (c0 + ℓ.val) := by
  subst hoff
  have hℓ := ℓ.isLt
  have hi : (Rect.unit (s := S50x128) ![c.val, c0] S1x16.size inb).toLoadRect.idx (ix2 (0 : Fin 1) ℓ)
      = (ix2 c (⟨c0 + ℓ.val, by omega⟩ : Fin 128) : S50x128.Idx) := by
    funext k
    apply Fin.ext
    rw [LoadRect.idx_apply]
    match k with
    | ⟨0, _⟩ => show c.val + 1 * 0 = c.val; omega
    | ⟨1, _⟩ => show c0 + 1 * ℓ.val = c0 + ℓ.val; omega
  rw [View.readAt_apply, hi]
  show idxVal m d L (ix2 c (⟨c0 + ℓ.val, by omega⟩ : Fin 128)) = _
  unfold idxVal tokC
  show (tok3V m d : IVec S32x50x128 32) (ix3 _ c _) = (tok3V m d : IVec S32x50x128 32) (ix3 _ _ _)
  have hk : (⟨c.val % 50, Nat.mod_lt _ (by norm_num)⟩ : Fin 50) = c := Fin.ext (Nat.mod_eq_of_lt c.isLt)
  have ha : (⟨(c0 + ℓ.val) % 128, Nat.mod_lt _ (by norm_num)⟩ : Fin 128) = (⟨c0 + ℓ.val, by omega⟩ : Fin 128) :=
    Fin.ext (Nat.mod_eq_of_lt (by omega))
  rw [hk, ha]

/-! ## The word of a window's first position -/

/-- The loop counter is its trip number. -/
theorem iv_word (k : ℕ) : Scf.iv 0#32 1#32 k = BitVec.ofNat 32 k := by
  show 0#32 + BitVec.ofNat 32 k * 1#32 = _
  rw [BitVec.mul_one, BitVec.zero_add]

/-- From the word of the worker's first position and the word of a chunk's number, the word of lane `j16` of the chunk. -/
theorem pos_word (L : grid0.Coords) (v2 kw : BitVec 32) (c j16 : ℕ) (hv2 : v2 = BitVec.ofNat 32 (widN L * 6400))
    (hkw : kw = BitVec.ofNat 32 c) :
    Scalar.addi (Scalar.addi v2 (Scalar.muli kw 128#32)) (BitVec.ofNat 32 j16) = BitVec.ofNat 32 (posN L c j16) := by
  subst hv2; subst hkw
  show BitVec.ofNat 32 (widN L * 6400) + BitVec.ofNat 32 c * BitVec.ofNat 32 128 + BitVec.ofNat 32 j16 = _
  rw [ofNat_mul_word, ofNat_add_word, ofNat_add_word]
  rfl

/-- The same for the first chunk, whose word the body spells as the worker's first position plus zero. -/
theorem pos_word0 (L : grid0.Coords) (v2 : BitVec 32) (j16 : ℕ) (hv2 : v2 = BitVec.ofNat 32 (widN L * 6400)) :
    Scalar.addi (Scalar.addi v2 0#32) (BitVec.ofNat 32 j16) = BitVec.ofNat 32 (posN L 0 j16) := by
  subst hv2
  show BitVec.ofNat 32 (widN L * 6400) + BitVec.ofNat 32 0 + BitVec.ofNat 32 j16 = _
  rw [ofNat_add_word, ofNat_add_word]
  rfl

/-- The odd chunk of trip `k`: its number as the body computes it. -/
theorem odd_chunk_word (k : ℕ) :
    Scalar.addi (Scalar.addi (Scalar.muli 2#32 (Scf.iv 0#32 1#32 k)) 0#32) 1#32 = BitVec.ofNat 32 (2 * k + 1) := by
  rw [iv_word]
  show BitVec.ofNat 32 2 * BitVec.ofNat 32 k + BitVec.ofNat 32 0 + BitVec.ofNat 32 1 = _
  rw [ofNat_mul_word, ofNat_add_word, ofNat_add_word]
/-- The even chunk a trip prepares for the next: its number as the body computes it. -/
theorem even_chunk_word (k : ℕ) :
    Scalar.addi (Scalar.addi (Scalar.muli 2#32 (Scf.iv 0#32 1#32 k)) 1#32) 1#32 = BitVec.ofNat 32 (2 * k + 2) := by
  rw [iv_word]
  show BitVec.ofNat 32 2 * BitVec.ofNat 32 k + BitVec.ofNat 32 1 + BitVec.ofNat 32 1 = _
  rw [ofNat_mul_word, ofNat_add_word, ofNat_add_word]

/-! ## The payload of a window of a chunk -/

/-- The payload of the window at lane `c0` of chunk `c`, computed from the chunk's tokens as loaded, is lane by lane the
    chunk's draw indices. -/
theorem midxPay_chunk [FloatOps F] (m : (ℓ : Loc nD τ sig) → Buf (Elt F) ℓ) (hpre : PreOK m) (d : Dev nD) (L : grid0.Coords)
    (c : Fin 50) (c0 : ℕ) (hc0 : c0 + 16 ≤ 128) (bw : BitVec 32) (hbw : bw = BitVec.ofNat 32 (posN L c.val c0))
    (off : Fin 2 → ℕ) (inb : ∀ a, off a + S1x16.size a ≤ S50x128.size a) (hoff : off = ![c.val, c0]) (ℓ : Fin 16) :
    midxPay bw (View.readAt (Elt F) (idxM).view (Rect.unit (s := S50x128) off S1x16.size inb).toLoadRect (idxVal m d L)) (ix2 (0 : Fin 1) ℓ)
      = BitVec.ofNat 32 (midxN m d L c.val (c0 + ℓ.val)) := by
  have hℓ := ℓ.isLt
  have hr := idx16_read m d L off inb c c0 hoff hc0 ℓ
  have hp : posN L c.val c0 + 16 ≤ 204800 := by
    have := posN_lt L c.val (c0 + 15) c.isLt (by omega)
    unfold posN at this ⊢; omega
  rw [midxPay_lane bw (posN L c.val c0) hbw hp _ ℓ (by rw [hr]; exact tokC_lt m hpre d L c.val (c0 + ℓ.val)), hr]
  unfold midxN posN
  congr 2
  omega

/-! ## The payloads of the odd chunk's eight windows, as the body names them -/

section Named
variable [FloatOps F]

theorem k0_pay2_eq (v2 v156 : BitVec 32) (v : IVec S1x16 32) :
    k0_pay2 (F := F) v2 v156 v = midxPay (Scalar.addi (Scalar.addi v2 (Scalar.muli (Scalar.addi v156 1#32) 128#32)) 0#32) v := rfl
theorem k0_pay4_eq (v2 v156 : BitVec 32) (v : IVec S1x16 32) :
    k0_pay4 (k0_pay3 (F := F) v2 v156 v) = midxPay (Scalar.addi (Scalar.addi v2 (Scalar.muli (Scalar.addi v156 1#32) 128#32)) 16#32) v := rfl
theorem k0_pay5_eq (v394 : BitVec 32) (v : IVec S1x16 32) : k0_pay5 (F := F) v394 v = midxPay (Scalar.addi v394 32#32) v := rfl
theorem k0_pay6_eq (v394 : BitVec 32) (v : IVec S1x16 32) : k0_pay6 (F := F) v394 v = midxPay (Scalar.addi v394 48#32) v := rfl
theorem k0_pay8_eq (v394 : BitVec 32) (v : IVec S1x16 32) : k0_pay8 (F := F) (k0_pay7 v394) v = midxPay (Scalar.addi v394 64#32) v := rfl
theorem k0_pay9_eq (v394 : BitVec 32) (v : IVec S1x16 32) : k0_pay9 (F := F) v394 v = midxPay (Scalar.addi v394 80#32) v := rfl
theorem k0_pay10_eq (v394 : BitVec 32) (v : IVec S1x16 32) : k0_pay10 (F := F) v394 v = midxPay (Scalar.addi v394 96#32) v := rfl
theorem k0_pay352_eq (v507 : BitVec 32) (v : IVec S1x16 32) : k0_pay352 (F := F) v507 v = midxPay v507 v := rfl

end Named

/-! ## The payloads of the even chunk's eight windows, as the body names them -/

section NamedEven
variable [FloatOps F]

theorem k0_pay177_eq (v2 v272 : BitVec 32) (v : IVec S1x16 32) :
    k0_pay177 (F := F) v2 v272 v = midxPay (Scalar.addi (Scalar.addi v2 (Scalar.muli (Scalar.addi v272 1#32) 128#32)) 0#32) v := rfl
theorem k0_pay179_eq (v2 v272 : BitVec 32) (v : IVec S1x16 32) :
    k0_pay179 (k0_pay178 (F := F) v2 v272 v) = midxPay (Scalar.addi (Scalar.addi v2 (Scalar.muli (Scalar.addi v272 1#32) 128#32)) 16#32) v := rfl
theorem k0_pay180_eq (v394 : BitVec 32) (v : IVec S1x16 32) : k0_pay180 (F := F) v394 v = midxPay (Scalar.addi v394 32#32) v := rfl
theorem k0_pay181_eq (v394 : BitVec 32) (v : IVec S1x16 32) : k0_pay181 (F := F) v394 v = midxPay (Scalar.addi v394 48#32) v := rfl
theorem k0_pay183_eq (v394 : BitVec 32) (v : IVec S1x16 32) : k0_pay183 (F := F) (k0_pay182 v394) v = midxPay (Scalar.addi v394 64#32) v := rfl
theorem k0_pay184_eq (v394 : BitVec 32) (v : IVec S1x16 32) : k0_pay184 (F := F) v394 v = midxPay (Scalar.addi v394 80#32) v := rfl
theorem k0_pay185_eq (v394 : BitVec 32) (v : IVec S1x16 32) : k0_pay185 (F := F) v394 v = midxPay (Scalar.addi v394 96#32) v := rfl
theorem k0_pay366_eq (v507 : BitVec 32) (v : IVec S1x16 32) : k0_pay366 (F := F) v507 v = midxPay v507 v := rfl

end NamedEven

/-! ## Eight stores fill the row -/

variable (m : (ℓ : Loc nD τ sig) → Buf (Elt F) ℓ)

/-- One more window: if the row holds the chunk's draw indices below lane `16 j`, after the store of window `j` it holds
    them below lane `16 (j + 1)`. -/
theorem midx_fill_step (d : Dev nD) (L : grid0.Coords) (c : ℕ) (h : Fin 2) (j : ℕ) (hj : j < 8)
    (off : Fin 2 → ℕ) (inb : ∀ a, off a + S1x16.size a ≤ S2x128.size a) (hoff : off = ![h.val, 16 * j])
    (W : Buf (Elt F) ((thrV d L).loc cc0_scratch1)) (pay : IVec S1x16 32)
    (hpay : ∀ ℓ : Fin 16, pay (ix2 (0 : Fin 1) ℓ) = BitVec.ofNat 32 (midxN m d L c (16 * j + ℓ.val)))
    (hW : ∀ x : S2x128.Idx, (x 0).val = h.val → (x 1).val < 16 * j → W x = midxVal m d L c x) :
    ∀ x : S2x128.Idx, (x 0).val = h.val → (x 1).val < 16 * (j + 1) →
      View.write (Elt F) ((midxM).access (Rect.unit (s := S2x128) off S1x16.size inb)) W pay Finset.univ x = midxVal m d L c x := by
  intro x hx0 hx1
  rw [midx_write_step off inb h (16 * j) hoff (by omega) W pay x hx0]
  split
  · next hx =>
    rw [hpay]
    show BitVec.ofNat 32 (midxN m d L c (16 * j + ((x 1).val - 16 * j))) = BitVec.ofNat 32 (midxN m d L c (x 1).val)
    rw [show 16 * j + ((x 1).val - 16 * j) = (x 1).val by omega]
  · next hx => exact hW x hx0 (by omega)

/-- After the eight stores, each of its window's draw indices, the row holds the chunk's draw indices. -/
theorem midx_row_filled (d : Dev nD) (L : grid0.Coords) (c : ℕ) (h : Fin 2)
    (W0 : Buf (Elt F) ((thrV d L).loc cc0_scratch1))
    (o0 o1 o2 o3 o4 o5 o6 o7 : Fin 2 → ℕ)
    (i0 : ∀ a, o0 a + S1x16.size a ≤ S2x128.size a) (i1 : ∀ a, o1 a + S1x16.size a ≤ S2x128.size a)
    (i2 : ∀ a, o2 a + S1x16.size a ≤ S2x128.size a) (i3 : ∀ a, o3 a + S1x16.size a ≤ S2x128.size a)
    (i4 : ∀ a, o4 a + S1x16.size a ≤ S2x128.size a) (i5 : ∀ a, o5 a + S1x16.size a ≤ S2x128.size a)
    (i6 : ∀ a, o6 a + S1x16.size a ≤ S2x128.size a) (i7 : ∀ a, o7 a + S1x16.size a ≤ S2x128.size a)
    (e0 : o0 = ![h.val, 0]) (e1 : o1 = ![h.val, 16]) (e2 : o2 = ![h.val, 32]) (e3 : o3 = ![h.val, 48])
    (e4 : o4 = ![h.val, 64]) (e5 : o5 = ![h.val, 80]) (e6 : o6 = ![h.val, 96]) (e7 : o7 = ![h.val, 112])
    (p0 p1 p2 p3 p4 p5 p6 p7 : IVec S1x16 32)
    (h0 : ∀ ℓ : Fin 16, p0 (ix2 (0 : Fin 1) ℓ) = BitVec.ofNat 32 (midxN m d L c (0 + ℓ.val)))
    (h1 : ∀ ℓ : Fin 16, p1 (ix2 (0 : Fin 1) ℓ) = BitVec.ofNat 32 (midxN m d L c (16 + ℓ.val)))
    (h2 : ∀ ℓ : Fin 16, p2 (ix2 (0 : Fin 1) ℓ) = BitVec.ofNat 32 (midxN m d L c (32 + ℓ.val)))
    (h3 : ∀ ℓ : Fin 16, p3 (ix2 (0 : Fin 1) ℓ) = BitVec.ofNat 32 (midxN m d L c (48 + ℓ.val)))
    (h4 : ∀ ℓ : Fin 16, p4 (ix2 (0 : Fin 1) ℓ) = BitVec.ofNat 32 (midxN m d L c (64 + ℓ.val)))
    (h5 : ∀ ℓ : Fin 16, p5 (ix2 (0 : Fin 1) ℓ) = BitVec.ofNat 32 (midxN m d L c (80 + ℓ.val)))
    (h6 : ∀ ℓ : Fin 16, p6 (ix2 (0 : Fin 1) ℓ) = BitVec.ofNat 32 (midxN m d L c (96 + ℓ.val)))
    (h7 : ∀ ℓ : Fin 16, p7 (ix2 (0 : Fin 1) ℓ) = BitVec.ofNat 32 (midxN m d L c (112 + ℓ.val))) :
    ∀ x : S2x128.Idx, (x 0).val = h.val →
      View.write (Elt F) ((midxM).access (Rect.unit (s := S2x128) o7 S1x16.size i7))
        (View.write (Elt F) ((midxM).access (Rect.unit (s := S2x128) o6 S1x16.size i6))
          (View.write (Elt F) ((midxM).access (Rect.unit (s := S2x128) o5 S1x16.size i5))
            (View.write (Elt F) ((midxM).access (Rect.unit (s := S2x128) o4 S1x16.size i4))
              (View.write (Elt F) ((midxM).access (Rect.unit (s := S2x128) o3 S1x16.size i3))
                (View.write (Elt F) ((midxM).access (Rect.unit (s := S2x128) o2 S1x16.size i2))
                  (View.write (Elt F) ((midxM).access (Rect.unit (s := S2x128) o1 S1x16.size i1))
                    (View.write (Elt F) ((midxM).access (Rect.unit (s := S2x128) o0 S1x16.size i0)) W0 p0 Finset.univ)
                    p1 Finset.univ) p2 Finset.univ) p3 Finset.univ) p4 Finset.univ) p5 Finset.univ) p6 Finset.univ) p7 Finset.univ x
      = midxVal m d L c x := by
  intro x hx0
  have s0 := midx_fill_step m d L c h 0 (by omega) o0 i0 e0 W0 p0 h0 (fun x _ hx => absurd hx (by omega))
  have s1 := midx_fill_step m d L c h 1 (by omega) o1 i1 e1 _ p1 h1 s0
  have s2 := midx_fill_step m d L c h 2 (by omega) o2 i2 e2 _ p2 h2 s1
  have s3 := midx_fill_step m d L c h 3 (by omega) o3 i3 e3 _ p3 h3 s2
  have s4 := midx_fill_step m d L c h 4 (by omega) o4 i4 e4 _ p4 h4 s3
  have s5 := midx_fill_step m d L c h 5 (by omega) o5 i5 e5 _ p5 h5 s4
  have s6 := midx_fill_step m d L c h 6 (by omega) o6 i6 e6 _ p6 h6 s5
  have s7 := midx_fill_step m d L c h 7 (by omega) o7 i7 e7 _ p7 h7 s6
  have hx1 : (x 1).val < 128 := (x 1).isLt
  exact s7 x hx0 (by show (x 1).val < 16 * (7 + 1); omega)

/-- Membership in a row of the draw-index scratch, by its first coordinate. -/
theorem mem_midx0H (x : S2x128.Idx) (hx : x ∈ (midx0H).view.set) : (x 0).val = (0 : Fin 2).val := by
  rw [set_midx0H] at hx
  have := Rect.mem_set_unit.mp hx ⟨0, by decide⟩
  show (x 0).val = 0
  have h2 : (x 0).val < 0 + 1 := this.2
  omega
theorem mem_midx1H (x : S2x128.Idx) (hx : x ∈ (midx1H).view.set) : (x 0).val = (1 : Fin 2).val := by
  rw [set_midx1H] at hx
  have := Rect.mem_set_unit.mp hx ⟨0, by decide⟩
  show (x 0).val = 1
  have h1 : 1 ≤ (x 0).val := this.1
  have h2 : (x 0).val < 1 + 1 := this.2
  omega

end Cert.KB

end
-- ==== Proof.KB.OutVal.lean ====
/-
  The flat result, chunk by chunk.  Row `6400 w + 128 c + r` of the flat result is the table's row of the token of row
  r of chunk c, scaled by the draw of that row: the position's group is w, its chunk c and its lane r, its batch row is
  the position divided by fifty, and a token below 1000 names itself; so the flat result's rows of chunk c are the
  gathered rows of chunk c times the chunk's scales, whichever half of the row scratch they sit in.
-/
import proofs.«206556_g62818191671566_cont_9to1_m_1093_40_alg».proof.Proof.KB.Sets
import proofs.«206556_g62818191671566_cont_9to1_m_1093_40_alg».proof.Proof.KB.GatherVal

noncomputable section

namespace Cert.KB

open Cert.Kernel Cert.Kernel.Gen

open Idealize.ShloMosaic
open Idealize.ShloMosaic.SparseCore (S V T)
open Idealize.ShloMosaic.ValueIdx

variable {F : FTy → Type}

/-! ## An array at two spellings of one index -/

theorem at_ix1_congr {α : Type} {n : ℕ} (f : (⟨1, ![n]⟩ : Shape).Idx → α) {a a' : Fin n} (ha : a.val = a'.val) :
    f (ix1 a) = f (ix1 a') := by
  obtain rfl : a = a' := Fin.ext ha
  rfl

theorem at_ix2_congr {α : Type} {n0 n1 : ℕ} (f : (⟨2, ![n0, n1]⟩ : Shape).Idx → α) {a a' : Fin n0} {b b' : Fin n1}
    (ha : a.val = a'.val) (hb : b.val = b'.val) : f (ix2 a b) = f (ix2 a' b') := by
  obtain rfl : a = a' := Fin.ext ha
  obtain rfl : b = b' := Fin.ext hb
  rfl

theorem at_ix3_congr {α : Type} {n0 n1 n2 : ℕ} (f : (⟨3, ![n0, n1, n2]⟩ : Shape).Idx → α) {a a' : Fin n0} {b b' : Fin n1}
    {c c' : Fin n2} (ha : a.val = a'.val) (hb : b.val = b'.val) (hc : c.val = c'.val) :
    f (ix3 a b c) = f (ix3 a' b' c') := by
  obtain rfl : a = a' := Fin.ext ha
  obtain rfl : b = b' := Fin.ext hb
  obtain rfl : c = c' := Fin.ext hc
  rfl

variable [FloatOps F] (m : (ℓ : Loc nD τ sig) → Buf (Elt F) ℓ)

/-! ## A row of the flat result -/

/-- Row `posN L c r`, column dd of the flat result is entry (r, dd) of chunk c's scaled rows, on either half. -/
theorem outV_prod (hpre : PreOK m) (d : Dev nD) (L : grid0.Coords) (c : ℕ) (hc : c < 50) (h : Fin 2) (r : Fin 128)
    (dd : Fin 128) (hlt : posN L c r.val < 204800) :
    (outV m d : FVec F S204800x128 .f32) (ix2 (⟨posN L c r.val, hlt⟩ : Fin 204800) dd)
      = (prodVal m d L c : FVec F S2x128x128 .f32) (ix3 h r dd) := by
  have hw : widN L < 32 := wid_lt L
  have hr : r.val < 128 := r.isLt
  have hd : dd.val < 128 := dd.isLt
  have hn : posN L c r.val = widN L * 6400 + c * 128 + r.val := rfl
  have hrr : r.val % 128 % 128 = r.val := by omega
  have q1 : posN L c r.val / 6400 < 32 := by omega
  have q2 : posN L c r.val % 6400 / 128 < 50 := by omega
  have q3 : posN L c r.val % 128 < 128 := by omega
  -- the token of the position is the token of row r of chunk c
  have htok : (tok3V m d : IVec S32x50x128 32)
      (ix3 (⟨posN L c r.val / 6400, q1⟩ : Fin 32) (⟨posN L c r.val % 6400 / 128, q2⟩ : Fin 50)
        (⟨posN L c r.val % 128, q3⟩ : Fin 128)) = tokC m d L c r.val := by
    unfold tokC
    refine at_ix3_congr _ ?_ ?_ ?_
    · show posN L c r.val / 6400 = 2 * (L 1).val + (L 0).val
      have : widN L = 2 * (L 1).val + (L 0).val := rfl
      omega
    · show posN L c r.val % 6400 / 128 = c % 50; omega
    · show posN L c r.val % 128 = r.val % 128; omega
  have htl : (tokC m d L c r.val).toNat < 1000 := tokC_lt m hpre d L c r.val
  have hml : midxN m d L c r.val < 4096000 := midxN_lt m hpre d L c r.val hc hr
  have q4 : posN L c r.val / 50 * 1000 + (Cert.Spec.row (tokC m d L c r.val)).val < 4096000 := by
    have := (Cert.Spec.row (tokC m d L c r.val)).isLt; omega
  have q5 : dd.val % 128 < 128 := by omega
  have q6 : midxN m d L c (r.val % 128 % 128) % 4096000 < 4096000 := Nat.mod_lt _ (by norm_num)
  -- both sides, spelt out
  show FloatOps.mulf
      ((m (tabLoc d) : FVec F S1000x128 .f32) (ix2 (Cert.Spec.row ((tok3V m d : IVec S32x50x128 32)
        (ix3 (⟨posN L c r.val / 6400, q1⟩ : Fin 32) (⟨posN L c r.val % 6400 / 128, q2⟩ : Fin 50)
          (⟨posN L c r.val % 128, q3⟩ : Fin 128)))) dd))
      (Scalar.select (FloatOps.cmpf .olt ((uflatV m d : FVec F S4096000 .f32)
          (ix1 (⟨posN L c r.val / 50 * 1000 + (Cert.Spec.row ((tok3V m d : IVec S32x50x128 32)
            (ix3 (⟨posN L c r.val / 6400, q1⟩ : Fin 32) (⟨posN L c r.val % 6400 / 128, q2⟩ : Fin 50)
              (⟨posN L c r.val % 128, q3⟩ : Fin 128)))).val, _⟩ : Fin 4096000)))
          (Scalar.ofBits .f32 0x3F000000#32)) (Scalar.ofBits .f32 0x40000000#32) (Scalar.ofBits .f32 0x00000000#32))
    = FloatOps.mulf
      ((m (tabLoc d) : FVec F S1000x128 .f32) (ix2 (Cert.Spec.row (tokC m d L c r.val)) (⟨dd.val % 128, q5⟩ : Fin 128)))
      (Scalar.select (FloatOps.cmpf .olt ((uflatV m d : FVec F S4096000 .f32)
          (ix1 (⟨midxN m d L c (r.val % 128 % 128) % 4096000, q6⟩ : Fin 4096000)))
          (Scalar.ofBits .f32 0x3F000000#32)) (Scalar.ofBits .f32 0x40000000#32) (Scalar.ofBits .f32 0x00000000#32))
  have hT : (m (tabLoc d) : FVec F S1000x128 .f32) (ix2 (Cert.Spec.row ((tok3V m d : IVec S32x50x128 32)
        (ix3 (⟨posN L c r.val / 6400, q1⟩ : Fin 32) (⟨posN L c r.val % 6400 / 128, q2⟩ : Fin 50)
          (⟨posN L c r.val % 128, q3⟩ : Fin 128)))) dd)
      = (m (tabLoc d) : FVec F S1000x128 .f32) (ix2 (Cert.Spec.row (tokC m d L c r.val)) (⟨dd.val % 128, q5⟩ : Fin 128)) := by
    rw [htok]
    exact at_ix2_congr _ rfl (by show dd.val = dd.val % 128; omega)
  have hU : ∀ (q : posN L c r.val / 50 * 1000 + (Cert.Spec.row ((tok3V m d : IVec S32x50x128 32)
        (ix3 (⟨posN L c r.val / 6400, q1⟩ : Fin 32) (⟨posN L c r.val % 6400 / 128, q2⟩ : Fin 50)
          (⟨posN L c r.val % 128, q3⟩ : Fin 128)))).val < 4096000),
      (uflatV m d : FVec F S4096000 .f32) (ix1 (⟨_, q⟩ : Fin 4096000))
      = (uflatV m d : FVec F S4096000 .f32) (ix1 (⟨midxN m d L c (r.val % 128 % 128) % 4096000, q6⟩ : Fin 4096000)) := by
    intro q
    refine at_ix1_congr _ ?_
    show posN L c r.val / 50 * 1000 + (Cert.Spec.row ((tok3V m d : IVec S32x50x128 32) _)).val
      = midxN m d L c (r.val % 128 % 128) % 4096000
    rw [htok, hrr, Cert.Spec.row_val_of_lt htl, Nat.mod_eq_of_lt hml]
    rfl
  rw [hT, hU]

/-! ## A chunk of the flat result -/

/-- Contents of the flat result that hold chunk c's scaled rows at chunk c's rows agree there with the final value. -/
theorem chunk_agree (hpre : PreOK m) (d : Dev nD) (L : grid0.Coords) (c : ℕ) (hc : c < 50) (h : Fin 2)
    (g : Buf (Elt F) (outLoc d))
    (hg : ∀ (r dd : Fin 128) (hlt : posN L c r.val < 204800),
      (g : FVec F S204800x128 .f32) (ix2 (⟨posN L c r.val, hlt⟩ : Fin 204800) dd)
        = (prodVal m d L c : FVec F S2x128x128 .f32) (ix3 h r dd)) :
    ∀ x ∈ chunkSet L c, g x = outV m d x := by
  intro x hx
  have hx' := (mem_chunkSet L c x).mp hx
  rw [Nat.mod_eq_of_lt hc] at hx'
  have hrlt : (x 0).val - widN L * 6400 - c * 128 < 128 := by omega
  have hpos : posN L c ((x 0).val - widN L * 6400 - c * 128) = (x 0).val := by unfold posN; omega
  have hlt : posN L c ((x 0).val - widN L * 6400 - c * 128) < 204800 := by rw [hpos]; exact idx2_lt0 x
  have hxe : x = ix2 (⟨posN L c (⟨(x 0).val - widN L * 6400 - c * 128, hrlt⟩ : Fin 128).val, hlt⟩ : Fin 204800)
      (x 1 : Fin 128) := by
    funext a
    match a with
    | ⟨0, _⟩ => exact Fin.ext hpos.symm
    | ⟨1, _⟩ => rfl
  have e1 := hg (⟨(x 0).val - widN L * 6400 - c * 128, hrlt⟩ : Fin 128) (x 1 : Fin 128) hlt
  have e2 := outV_prod m hpre d L c hc h (⟨(x 0).val - widN L * 6400 - c * 128, hrlt⟩ : Fin 128) (x 1 : Fin 128) hlt
  have f1 : g x = (prodVal m d L c : FVec F S2x128x128 .f32)
      (ix3 h (⟨(x 0).val - widN L * 6400 - c * 128, hrlt⟩ : Fin 128) (x 1 : Fin 128)) :=
    (congrArg (g : FVec F S204800x128 .f32) hxe).trans e1
  have f2 : outV m d x = (prodVal m d L c : FVec F S2x128x128 .f32)
      (ix3 h (⟨(x 0).val - widN L * 6400 - c * 128, hrlt⟩ : Fin 128) (x 1 : Fin 128)) :=
    (congrArg (outV m d : FVec F S204800x128 .f32) hxe).trans e2
  exact f1.trans f2.symm

end Cert.KB

end
-- ==== Proof.KB.Norm.lean ====
/-
  What an indexed gather delivers at its wait, in the loop invariant's own words.  The rule states the delivery over
  the block or list the gather names and the payload it computed; the invariant states it over the half or row of the
  buffer and the buffer's canonical contents.  The two agree: the gathered block holds the chunk's rows (or draws) on
  its elements, a block or list and the half or row it was squeezed from have the same elements, and a source named
  by the whole rectangle is the whole array.
-/
import proofs.«206556_g62818191671566_cont_9to1_m_1093_40_alg».proof.Proof.KB.Inv
import proofs.«206556_g62818191671566_cont_9to1_m_1093_40_alg».proof.Proof.KB.Respell
import proofs.«206556_g62818191671566_cont_9to1_m_1093_40_alg».proof.Proof.KB.GatherVal
import proofs.«206556_g62818191671566_cont_9to1_m_1093_40_alg».proof.Proof.KB.MidxVal
import proofs.«206556_g62818191671566_cont_9to1_m_1093_40_alg».proof.Proof.KB.OutVal

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ) (d : Dev nD) (L : grid0.Coords)

/-! ## The rows' gathers -/

/-- The rows' gather of the odd chunk of trip `k`, into the second half. -/
theorem norm_r1 (k : Fin k0_t1_loop.trips) (h4 : k0_cond4 k = 1#1) (old : Buf (Elt F) ((thrV d L).loc cc0_scratch4))
    (hn : S128.numel = S128x128.size gathers_S1000x128_S128x128.axis')
    (hin : ∀ x, ((idxList (k0_off3 k) (k0_off3_inb k h4)).view.read (Elt F) (idxVal m d L) x).toNat < S1000x128.size gathers_S1000x128_S128x128.axis) :
    (iprop(((rows1G).view.loc (thrV d L) ↦[(rows1G).view.set]{fullShare}
          View.write (Elt F) (rows1G).view old (SparseCore.gatherPayload gathers_S1000x128_S128x128
            (View.read (Elt F) (spmAll).view (tabSh m d (cV L)))
            (SparseCore.rows (View.read (Elt F) (idxList (k0_off3 k) (k0_off3_inb k h4)).view (idxVal m d L)) hn hin)) Finset.univ)
        ∗ ((spmAll).view.loc (thrV d L) ↦[(spmAll).view.set]{qSb L} tabSh m d (cV L))
        ∗ ((idxList (k0_off3 k) (k0_off3_inb k h4)).view.loc (thrV d L) ↦[(idxList (k0_off3 k) (k0_off3_inb k h4)).view.set]{qIb} idxVal m d L)) : sProp 𝕄)
      ⊢ Dr1 m d L (2 * k.val + 1) := by
  have hk := trip_lt k
  unfold Dr1
  have eA : ((rows1G).view.loc (thrV d L) ↦[(rows1G).view.set]{fullShare}
        View.write (Elt F) (rows1G).view old (SparseCore.gatherPayload gathers_S1000x128_S128x128
          (View.read (Elt F) (spmAll).view (tabSh m d (cV L)))
          (SparseCore.rows (View.read (Elt F) (idxList (k0_off3 k) (k0_off3_inb k h4)).view (idxVal m d L)) hn hin)) Finset.univ : sProp 𝕄)
      = ((rows1H).view.loc (thrV d L) ↦[(rows1H).view.set]{fullShare} rowsVal m d L (2 * k.val + 1)) := by
    rw [respell_rowsG1 d L fullShare (rowsVal m d L (2 * k.val + 1))]
    exact pointsTo_congr (rows_gathered m d L (⟨2 * k.val + 1, by omega⟩ : Fin 50) (1 : Fin 2) _ _ rfl _ _ (k0_off3_eq k) old hn hin)
  have eB : ((spmAll).view.loc (thrV d L) ↦[(spmAll).view.set]{qSb L} tabSh m d (cV L) : sProp 𝕄)
      = ((spmM).view.loc (thrV d L) ↦{qSb L} tabSh m d (cV L)) := (respell_spmAll d L (qSb L) (tabSh m d (cV L))).symm
  have eC : ((idxList (k0_off3 k) (k0_off3_inb k h4)).view.loc (thrV d L) ↦[(idxList (k0_off3 k) (k0_off3_inb k h4)).view.set]{qIb} idxVal m d L : sProp 𝕄)
      = ((idxM).view.loc (thrV d L) ↦[idxRowSet (2 * k.val + 1)]{qIb} idxVal m d L) := by
    rw [← set_idxRowA k h4]
  rw [eA, eB, eC]

/-- The rows' gather of the even chunk a trip issues for the next one, into the first half. -/
theorem norm_r0 (k : Fin k0_t1_loop.trips) (h6 : k0_cond6 k = 1#1) (old : Buf (Elt F) ((thrV d L).loc cc0_scratch4))
    (hn : S128.numel = S128x128.size gathers_S1000x128_S128x128.axis')
    (hin : ∀ x, ((idxList (k0_off23 k) (k0_off23_inb k h6)).view.read (Elt F) (idxVal m d L) x).toNat < S1000x128.size gathers_S1000x128_S128x128.axis) :
    (iprop(((rows0G).view.loc (thrV d L) ↦[(rows0G).view.set]{fullShare}
          View.write (Elt F) (rows0G).view old (SparseCore.gatherPayload gathers_S1000x128_S128x128
            (View.read (Elt F) (spmAll).view (tabSh m d (cV L)))
            (SparseCore.rows (View.read (Elt F) (idxList (k0_off23 k) (k0_off23_inb k h6)).view (idxVal m d L)) hn hin)) Finset.univ)
        ∗ ((spmAll).view.loc (thrV d L) ↦[(spmAll).view.set]{qSa L} tabSh m d (cV L))
        ∗ ((idxList (k0_off23 k) (k0_off23_inb k h6)).view.loc (thrV d L) ↦[(idxList (k0_off23 k) (k0_off23_inb k h6)).view.set]{qIa} idxVal m d L)) : sProp 𝕄)
      ⊢ Dr0 m d L (2 * k.val + 2) := by
  have hk := cond6_lt k h6
  unfold Dr0
  have eA : ((rows0G).view.loc (thrV d L) ↦[(rows0G).view.set]{fullShare}
        View.write (Elt F) (rows0G).view old (SparseCore.gatherPayload gathers_S1000x128_S128x128
          (View.read (Elt F) (spmAll).view (tabSh m d (cV L)))
          (SparseCore.rows (View.read (Elt F) (idxList (k0_off23 k) (k0_off23_inb k h6)).view (idxVal m d L)) hn hin)) Finset.univ : sProp 𝕄)
      = ((rows0H).view.loc (thrV d L) ↦[(rows0H).view.set]{fullShare} rowsVal m d L (2 * k.val + 2)) := by
    rw [respell_rowsG0 d L fullShare (rowsVal m d L (2 * k.val + 2))]
    exact pointsTo_congr (rows_gathered m d L (⟨2 * k.val + 2, hk⟩ : Fin 50) (0 : Fin 2) _ _ rfl _ _ (k0_off23_eq k) old hn hin)
  have eB : ((spmAll).view.loc (thrV d L) ↦[(spmAll).view.set]{qSa L} tabSh m d (cV L) : sProp 𝕄)
      = ((spmM).view.loc (thrV d L) ↦{qSa L} tabSh m d (cV L)) := (respell_spmAll d L (qSa L) (tabSh m d (cV L))).symm
  have eC : ((idxList (k0_off23 k) (k0_off23_inb k h6)).view.loc (thrV d L) ↦[(idxList (k0_off23 k) (k0_off23_inb k h6)).view.set]{qIa} idxVal m d L : sProp 𝕄)
      = ((idxM).view.loc (thrV d L) ↦[idxRowSet (2 * k.val + 2)]{qIa} idxVal m d L) := by
    rw [← set_idxRowB k h6]
  rw [eA, eB, eC]

/-- The rows' gather of the first chunk, before the loop. -/
theorem norm_r0_first (old : Buf (Elt F) ((thrV d L).loc cc0_scratch4))
    (hn : S128.numel = S128x128.size gathers_S1000x128_S128x128.axis')
    (hin : ∀ x, ((idxList ![0, 0] inb_S50x128_S1x128_0_0).view.read (Elt F) (idxVal m d L) x).toNat < S1000x128.size gathers_S1000x128_S128x128.axis) :
    (iprop(((rows0G).view.loc (thrV d L) ↦[(rows0G).view.set]{fullShare}
          View.write (Elt F) (rows0G).view old (SparseCore.gatherPayload gathers_S1000x128_S128x128
            (View.read (Elt F) (spmAll).view (tabSh m d (cV L)))
            (SparseCore.rows (View.read (Elt F) (idxList ![0, 0] inb_S50x128_S1x128_0_0).view (idxVal m d L)) hn hin)) Finset.univ)
        ∗ ((spmAll).view.loc (thrV d L) ↦[(spmAll).view.set]{qSa L} tabSh m d (cV L))
        ∗ ((idxList ![0, 0] inb_S50x128_S1x128_0_0).view.loc (thrV d L) ↦[(idxList ![0, 0] inb_S50x128_S1x128_0_0).view.set]{qIa} idxVal m d L)) : sProp 𝕄)
      ⊢ Dr0 m d L 0 := by
  unfold Dr0
  have eA : ((rows0G).view.loc (thrV d L) ↦[(rows0G).view.set]{fullShare}
        View.write (Elt F) (rows0G).view old (SparseCore.gatherPayload gathers_S1000x128_S128x128
          (View.read (Elt F) (spmAll).view (tabSh m d (cV L)))
          (SparseCore.rows (View.read (Elt F) (idxList ![0, 0] inb_S50x128_S1x128_0_0).view (idxVal m d L)) hn hin)) Finset.univ : sProp 𝕄)
      = ((rows0H).view.loc (thrV d L) ↦[(rows0H).view.set]{fullShare} rowsVal m d L 0) := by
    rw [respell_rowsG0 d L fullShare (rowsVal m d L 0)]
    exact pointsTo_congr (rows_gathered m d L (⟨0, by decide⟩ : Fin 50) (0 : Fin 2) _ _ rfl _ _ rfl old hn hin)
  have eB : ((spmAll).view.loc (thrV d L) ↦[(spmAll).view.set]{qSa L} tabSh m d (cV L) : sProp 𝕄)
      = ((spmM).view.loc (thrV d L) ↦{qSa L} tabSh m d (cV L)) := (respell_spmAll d L (qSa L) (tabSh m d (cV L))).symm
  have eC : ((idxList ![0, 0] inb_S50x128_S1x128_0_0).view.loc (thrV d L) ↦[(idxList ![0, 0] inb_S50x128_S1x128_0_0).view.set]{qIa} idxVal m d L : sProp 𝕄)
      = ((idxM).view.loc (thrV d L) ↦[idxRowSet 0]{qIa} idxVal m d L) := by
    rw [← set_idxRow0L]
  rw [eA, eB, eC]

/-! ## The draws' gathers -/

/-- The draws' gather of chunk `c` into the second row. -/
theorem norm_m1 (c : ℕ) (hc : c < 50) (hpre : PreOK m) (old : Buf (Elt F) ((thrV d L).loc cc0_scratch2))
    (hn : S128.numel = S128.size gathers_S4096000_S128.axis')
    (hin : ∀ x, ((midx1L).view.read (Elt F) (midxVal m d L c) x).toNat < S4096000.size gathers_S4096000_S128.axis) :
    (iprop(((mval1L).view.loc (thrV d L) ↦[(mval1L).view.set]{fullShare}
          View.write (Elt F) (mval1L).view old (SparseCore.gatherPayload gathers_S4096000_S128
            (View.read (Elt F) (uAll).view (uflatV m d))
            (SparseCore.rows (View.read (Elt F) (midx1L).view (midxVal m d L c)) hn hin)) Finset.univ)
        ∗ ((uAll).view.loc (thrV d L) ↦[(uAll).view.set]{qUb L} uflatV m d)
        ∗ ((midx1L).view.loc (thrV d L) ↦[(midx1L).view.set]{fullShare.left} midxVal m d L c)) : sProp 𝕄)
      ⊢ Dm1 m d L c := by
  unfold Dm1
  have hN : ∀ r, r < 128 → midxN m d L c r < 4096000 := fun r hr => midxN_lt m hpre d L c r hc hr
  have eA : ((mval1L).view.loc (thrV d L) ↦[(mval1L).view.set]{fullShare}
        View.write (Elt F) (mval1L).view old (SparseCore.gatherPayload gathers_S4096000_S128
          (View.read (Elt F) (uAll).view (uflatV m d))
          (SparseCore.rows (View.read (Elt F) (midx1L).view (midxVal m d L c)) hn hin)) Finset.univ : sProp 𝕄)
      = ((mval1H).view.loc (thrV d L) ↦[(mval1H).view.set]{fullShare} mvalVal m d L c) := by
    rw [respell_mvalL1 d L fullShare (mvalVal m d L c)]
    exact pointsTo_congr (draws_gathered m d L c (1 : Fin 2) (1 : Fin 2) _ _ rfl _ _ rfl hN old hn hin)
  have eB : ((uAll).view.loc (thrV d L) ↦[(uAll).view.set]{qUb L} uflatV m d : sProp 𝕄)
      = ((uM).view.loc (thrV d L) ↦{qUb L} uflatV m d) := (respell_uAll d L (qUb L) (uflatV m d)).symm
  have eC : ((midx1L).view.loc (thrV d L) ↦[(midx1L).view.set]{fullShare.left} midxVal m d L c : sProp 𝕄)
      = ((midx1H).view.loc (thrV d L) ↦[(midx1H).view.set]{fullShare.left} midxVal m d L c) :=
    (respell_midxL1 d L fullShare.left (midxVal m d L c)).symm
  rw [eA, eB, eC]

/-- The draws' gather of chunk `c` into the first row. -/
theorem norm_m0 (c : ℕ) (hc : c < 50) (hpre : PreOK m) (old : Buf (Elt F) ((thrV d L).loc cc0_scratch2))
    (hn : S128.numel = S128.size gathers_S4096000_S128.axis')
    (hin : ∀ x, ((midx0L).view.read (Elt F) (midxVal m d L c) x).toNat < S4096000.size gathers_S4096000_S128.axis) :
    (iprop(((mval0L).view.loc (thrV d L) ↦[(mval0L).view.set]{fullShare}
          View.write (Elt F) (mval0L).view old (SparseCore.gatherPayload gathers_S4096000_S128
            (View.read (Elt F) (uAll).view (uflatV m d))
            (SparseCore.rows (View.read (Elt F) (midx0L).view (midxVal m d L c)) hn hin)) Finset.univ)
        ∗ ((uAll).view.loc (thrV d L) ↦[(uAll).view.set]{qUa L} uflatV m d)
        ∗ ((midx0L).view.loc (thrV d L) ↦[(midx0L).view.set]{fullShare.left} midxVal m d L c)) : sProp 𝕄)
      ⊢ Dm0 m d L c := by
  unfold Dm0
  have hN : ∀ r, r < 128 → midxN m d L c r < 4096000 := fun r hr => midxN_lt m hpre d L c r hc hr
  have eA : ((mval0L).view.loc (thrV d L) ↦[(mval0L).view.set]{fullShare}
        View.write (Elt F) (mval0L).view old (SparseCore.gatherPayload gathers_S4096000_S128
          (View.read (Elt F) (uAll).view (uflatV m d))
          (SparseCore.rows (View.read (Elt F) (midx0L).view (midxVal m d L c)) hn hin)) Finset.univ : sProp 𝕄)
      = ((mval0H).view.loc (thrV d L) ↦[(mval0H).view.set]{fullShare} mvalVal m d L c) := by
    rw [respell_mvalL0 d L fullShare (mvalVal m d L c)]
    exact pointsTo_congr (draws_gathered m d L c (0 : Fin 2) (0 : Fin 2) _ _ rfl _ _ rfl hN old hn hin)
  have eB : ((uAll).view.loc (thrV d L) ↦[(uAll).view.set]{qUa L} uflatV m d : sProp 𝕄)
      = ((uM).view.loc (thrV d L) ↦{qUa L} uflatV m d) := (respell_uAll d L (qUa L) (uflatV m d)).symm
  have eC : ((midx0L).view.loc (thrV d L) ↦[(midx0L).view.set]{fullShare.left} midxVal m d L c : sProp 𝕄)
      = ((midx0H).view.loc (thrV d L) ↦[(midx0H).view.set]{fullShare.left} midxVal m d L c) :=
    (respell_midxL0 d L fullShare.left (midxVal m d L c)).symm
  rw [eA, eB, eC]

end Cert.KB

end
-- ==== Proof.KB.Fold.lean ====
/-
  Folding what a trip leaves back into the loop's invariant at the next trip number: once for a trip that is not the
  last (the next even chunk's gathers are in flight), once for the last (nothing is pending but the last write-out).
  The chunk numbers are written as the trip produces them, `2k + 2` and `2k + 1`.
-/
import proofs.«206556_g62818191671566_cont_9to1_m_1093_40_alg».proof.Proof.KB.Inv

noncomputable section

namespace Cert.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (d : Dev nD) (L : grid0.Coords)
variable (O : CellTallies nD τ sig (HIx 1)) (W : Waits sig (HIx 1))

/-- What every trip leaves alike. -/
abbrev invCommon (k1 : ℕ) (rest : sProp 𝕄) : sProp 𝕄 :=
  iprop(levAts (K (F := F)).L (K (F := F)).lev
    ∗ ((idxM).view.loc (thrV d L) ↦{qIk} idxVal m d L)
    ∗ ((idxM).view.loc (thrV d L) ↦{qIb} idxVal m d L)
    ∗ ((spmM).view.loc (thrV d L) ↦{qSb L} tabSh m d (cV L))
    ∗ ((uM).view.loc (thrV d L) ↦{qUb L} uflatV m d)
    ∗ (∃ f, (midx1H).view.loc (thrV d L) ↦[(midx1H).view.set]{fullShare} f)
    ∗ (∃ f, (mval1H).view.loc (thrV d L) ↦[(mval1H).view.set]{fullShare} f)
    ∗ (∃ f, (scaleM).view.loc (thrV d L) ↦{fullShare} f)
    ∗ semVal ((thrV d L, .dma cc0_scratch7.sem) : GSem nD τ sig) 0
    ∗ semVal ((thrV d L, .dma cc0_scratch9.sem) : GSem nD τ sig) 0
    ∗ semVal ((thrV d L, .dma cc0_scratch10.sem) : GSem nD τ sig) 0
    ∗ outChunks m d L k1
    ∗ rest)

theorem inv_fold_mid (k : ℕ) (hk1 : k + 1 < 25) :
    invCommon m d L (k + 1)
      iprop(iprop(Fr0 m d L (2 * k + 2) ∗ Fm0 m d L (2 * k + 2)
          ∗ ((idxM).view.loc (thrV d L) ↦[Finset.univ \ idxRowSet (2 * k + 2)]{qIa} idxVal m d L)
          ∗ ((midx0H).view.loc (thrV d L) ↦[(midx0H).view.set]{fullShare.right} midxVal m d L (2 * k + 2)))
        ∗ Fw1 m d L (2 * k + 1)
        ∗ ∃ W', ⌜∀ p ∈ W', p ∈ W ∨ p.2 = none ∨ p.2 = some (0 : Fin 1)⌝ ∗ owes (thrV d L) O W')
      ⊢ Inv m d L O W (k + 1) ⟨⟩ := by
  unfold Inv side0 side1 invCommon
  rw [if_pos hk1, if_neg (Nat.succ_ne_zero k), show 2 * (k + 1) = 2 * k + 2 from by ring, show 2 * k + 2 - 1 = 2 * k + 1 from by omega]

theorem inv_fold_last (k : ℕ) (hk1 : k + 1 = 25) :
    invCommon m d L (k + 1)
      iprop(iprop((∃ f, (rows0H).view.loc (thrV d L) ↦[(rows0H).view.set]{fullShare} f)
          ∗ ((spmM).view.loc (thrV d L) ↦{qSa L} tabSh m d (cV L))
          ∗ ((idxM).view.loc (thrV d L) ↦{qIa} idxVal m d L)
          ∗ (∃ f, (mval0H).view.loc (thrV d L) ↦[(mval0H).view.set]{fullShare} f)
          ∗ ((uM).view.loc (thrV d L) ↦{qUa L} uflatV m d)
          ∗ (∃ f, (midx0H).view.loc (thrV d L) ↦[(midx0H).view.set]{fullShare} f)
          ∗ semVal ((thrV d L, .dma cc0_scratch6.sem) : GSem nD τ sig) 0
          ∗ semVal ((thrV d L, .dma cc0_scratch8.sem) : GSem nD τ sig) 0)
        ∗ Fw1 m d L (2 * k + 1)
        ∗ ∃ W', ⌜∀ p ∈ W', p ∈ W ∨ p.2 = none ∨ p.2 = some (0 : Fin 1)⌝ ∗ owes (thrV d L) O W')
      ⊢ Inv m d L O W (k + 1) ⟨⟩ := by
  unfold Inv side0 side1 invCommon
  rw [if_neg (by omega : ¬ k + 1 < 25), if_neg (Nat.succ_ne_zero k), show 2 * (k + 1) - 1 = 2 * k + 1 from by omega]

/-- Entering the loop: the first chunk's gathers in flight, no write-out yet. -/
theorem inv_fold_init :
    invCommon m d L 0
      iprop(iprop(Fr0 m d L 0 ∗ Fm0 m d L 0
          ∗ ((idxM).view.loc (thrV d L) ↦[Finset.univ \ idxRowSet 0]{qIa} idxVal m d L)
          ∗ ((midx0H).view.loc (thrV d L) ↦[(midx0H).view.set]{fullShare.right} midxVal m d L 0))
        ∗ iprop((∃ f, (rows1H).view.loc (thrV d L) ↦[(rows1H).view.set]{fullShare} f)
          ∗ semVal ((thrV d L, .dma cc0_scratch11.sem) : GSem nD τ sig) 0)
        ∗ ∃ W', ⌜∀ p ∈ W', p ∈ W ∨ p.2 = none ∨ p.2 = some (0 : Fin 1)⌝ ∗ owes (thrV d L) O W')
      ⊢ Inv m d L O W 0 ⟨⟩ := by
  unfold Inv side0 side1 invCommon
  rw [if_pos (by norm_num : (0 : ℕ) < 25), if_pos rfl]

/-- Leaving the loop: the first buffer idle with every share home, the last chunk's write-out in flight. -/
theorem inv_unfold_last :
    Inv m d L O W 25 ⟨⟩
      ⊢ invCommon m d L 25
          iprop(iprop((∃ f, (rows0H).view.loc (thrV d L) ↦[(rows0H).view.set]{fullShare} f)
              ∗ ((spmM).view.loc (thrV d L) ↦{qSa L} tabSh m d (cV L))
              ∗ ((idxM).view.loc (thrV d L) ↦{qIa} idxVal m d L)
              ∗ (∃ f, (mval0H).view.loc (thrV d L) ↦[(mval0H).view.set]{fullShare} f)
              ∗ ((uM).view.loc (thrV d L) ↦{qUa L} uflatV m d)
              ∗ (∃ f, (midx0H).view.loc (thrV d L) ↦[(midx0H).view.set]{fullShare} f)
              ∗ semVal ((thrV d L, .dma cc0_scratch6.sem) : GSem nD τ sig) 0
              ∗ semVal ((thrV d L, .dma cc0_scratch8.sem) : GSem nD τ sig) 0)
            ∗ Fw1 m d L 49
            ∗ ∃ W', ⌜∀ p ∈ W', p ∈ W ∨ p.2 = none ∨ p.2 = some (0 : Fin 1)⌝ ∗ owes (thrV d L) O W') := by
  unfold Inv side0 side1 invCommon
  rw [if_neg (by norm_num : ¬ (25 : ℕ) < 25), if_neg (by norm_num : ¬ (25 : ℕ) = 0)]

/-- Opening the invariant before the first trip. -/
theorem inv_open_first (k : ℕ) (hk : k < 25) (h0 : k = 0) :
    Inv m d L O W k ⟨⟩
      ⊢ invCommon m d L k
          iprop(iprop(Fr0 m d L (2 * k) ∗ Fm0 m d L (2 * k)
              ∗ ((idxM).view.loc (thrV d L) ↦[Finset.univ \ idxRowSet (2 * k)]{qIa} idxVal m d L)
              ∗ ((midx0H).view.loc (thrV d L) ↦[(midx0H).view.set]{fullShare.right} midxVal m d L (2 * k)))
            ∗ iprop((∃ f, (rows1H).view.loc (thrV d L) ↦[(rows1H).view.set]{fullShare} f)
              ∗ semVal ((thrV d L, .dma cc0_scratch11.sem) : GSem nD τ sig) 0)
            ∗ ∃ W', ⌜∀ p ∈ W', p ∈ W ∨ p.2 = none ∨ p.2 = some (0 : Fin 1)⌝ ∗ owes (thrV d L) O W') := by
  unfold Inv side0 side1 invCommon
  rw [if_pos hk, if_pos h0]

/-- Opening the invariant before a later trip. -/
theorem inv_open_later (k : ℕ) (hk : k < 25) (h0 : ¬ k = 0) :
    Inv m d L O W k ⟨⟩
      ⊢ invCommon m d L k
          iprop(iprop(Fr0 m d L (2 * k) ∗ Fm0 m d L (2 * k)
              ∗ ((idxM).view.loc (thrV d L) ↦[Finset.univ \ idxRowSet (2 * k)]{qIa} idxVal m d L)
              ∗ ((midx0H).view.loc (thrV d L) ↦[(midx0H).view.set]{fullShare.right} midxVal m d L (2 * k)))
            ∗ Fw1 m d L (2 * k - 1)
            ∗ ∃ W', ⌜∀ p ∈ W', p ∈ W ∨ p.2 = none ∨ p.2 = some (0 : Fin 1)⌝ ∗ owes (thrV d L) O W') := by
  unfold Inv side0 side1 invCommon
  rw [if_pos hk, if_neg h0]

omit [FloatOps F] in
/-- A wait on one of the subcore's own DMA semaphores, recorded at the plain index, keeps the recorded waits within
    what the launch allows. -/
theorem waits_insert {W' : Waits sig (HIx 1)} (h : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact Or.inr (Or.inl rfl)
  · exact h p hp

omit [FloatOps F] in
/-- Transitivity, stated in the proof mode's own syntax on all three sides. -/
theorem ent_trans {P Q R : sProp 𝕄} (h1 : P ⊢ Q) (h2 : Q ⊢ R) : P ⊢ R := BI.Entails.trans h1 h2

end Cert.KB

end
-- ==== Proof.KB.MulLoop.lean ====
/-
  The inner multiply loop of a half-trip: every gathered row of one half of the row buffer is scaled, in place, by
  the row's entry of the scale vector.
-/
import proofs.«206556_g62818191671566_cont_9to1_m_1093_40_alg».proof.Proof.KB.Own

set_option pp.maxSteps 5000
set_option pp.deepTerms false

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The second half of the row buffer, as a slice of the whole. -/
abbrev rows1M : Memref sig .scVector .vmem S1x128x128 .f32 :=
  (rowsM).slice (Rect.unit (s := S2x128x128) ![1, 0, 0] S1x128x128.size inb_S2x128x128_S1x128x128_1_0_0) (fun _ => rfl)

/-- The loop of the second half-trip at the tile's buffers. -/
abbrev loop1At (L : grid0.Coords) (v2 c0 c1 : BitVec 32) (t : Fin k0_t1_loop.trips) :
    Prog (TpuEff nD τ sig (Elt F) Λ₀ (.scVector ((L 0).castLE hcore0) ((L 1).castLE hsub0))) Unit :=
  Scf.Loop.for k0_t3_loop k0_t3_ok ⟨⟩
    (k0_t3_body (F := F) L tabM (Memref.isWhole_whole _) tokM (Memref.isWhole_whole _) uM (Memref.isWhole_whole _) outM (Memref.isWhole_whole _)
      idxM (Memref.isWhole_whole _) midxM (Memref.isWhole_whole _) mvalM (Memref.isWhole_whole _) scaleM (Memref.isWhole_whole _)
      rowsM (Memref.isWhole_whole _) spmM (Memref.isWhole_whole _)
      cc0_scratch6 cc0_scratch7 cc0_scratch8 cc0_scratch9 cc0_scratch10 cc0_scratch11 cc0_scoped0 cc0_scoped1 cc0_scoped2 cc0_scoped3 cc0_scoped4
      v2 c0 c1 t)

omit [FloatOps F] in
/-- A rectangle of the whole row buffer that starts in its second half lies in that half: as a load reads it … -/
theorem acc_sub1 (off : Fin 3 → Nat) (inb : ∀ a, off a + S1x1x16.size a ≤ S2x128x128.size a) (h0 : off 0 = 1) :
    ((rowsM).access (Rect.unit (s := S2x128x128) off S1x1x16.size inb)).set ⊆ (rows1M).view.set := by
  have e1 : (rows1M).view.set = _ :=
    View.set_slice (rowsM).view (Rect.unit (s := S2x128x128) ![1, 0, 0] S1x128x128.size inb_S2x128x128_S1x128x128_1_0_0)
  have e2 : ((rowsM).access (Rect.unit (s := S2x128x128) off S1x1x16.size inb)).set = _ := View.set_slice (rowsM).view _
  rw [e1, e2]
  refine Finset.map_subset_map.mpr (fun i hi => ?_)
  rw [Rect.mem_set_unit] at hi ⊢
  intro a
  have := hi a
  have i0 := inb 0; have i1 := inb 1; have i2 := inb 2
  match a with
  | ⟨0, _⟩ => simp at this i0 ⊢; omega
  | ⟨1, _⟩ => simp at this i1 ⊢; omega
  | ⟨2, _⟩ => simp at this i2 ⊢; omega

omit [FloatOps F] in
/-- … and as a full store writes it. -/
theorem accOn_sub1 (off : Fin 3 → Nat) (inb : ∀ a, off a + S1x1x16.size a ≤ S2x128x128.size a) (h0 : off 0 = 1) :
    ((rowsM).access (Rect.unit (s := S2x128x128) off S1x1x16.size inb)).setOn Finset.univ ⊆ (rows1M).view.set :=
  acc_sub1 off inb h0

open Lean Elab Tactic in
/-- The inclusions a trip's run reads from the context, one pair per rectangle the trip touches (eight column blocks
    of sixteen rows). -/
elab "rows1_facts " k:ident : tactic => do
  for j in [33:41] do
    for i in [0:16] do
      let off := mkIdent (.mkSimple s!"k0_off{j}")
      let inb := mkIdent (.mkSimple s!"k0_off{j}_inb")
      let iLit := Syntax.mkNumLit (toString i)
      let hl := mkIdent (.mkSimple s!"hl{j}_{i}")
      let hs := mkIdent (.mkSimple s!"hs{j}_{i}")
      evalTactic (← `(tactic| have $hl := acc_sub1 ($off $k (BitVec.ofNat 32 $iLit)) ($inb $k $iLit) rfl))
      evalTactic (← `(tactic| have $hs := accOn_sub1 ($off $k (BitVec.ofNat 32 $iLit)) ($inb $k $iLit) rfl))

/-- The frame's invariant: the half and the scale vector held, the half's contents whatever the trips so far left. -/
def invF1 (d : Dev nD) (L : grid0.Coords) (s : Buf (Elt F) ((scaleM).view.loc (thrV d L))) (_ : Nat) (_ : Unit) : sProp 𝕄 :=
  iprop((∃ g', (rows1M).view.loc (thrV d L) ↦[(rows1M).view.set]{fullShare} g')
    ∗ ((scaleM).view.loc (thrV d L) ↦{fullShare} s))

set_option maxHeartbeats 4000000 in
theorem mul_loop1_frame (d : Dev nD) (L : grid0.Coords) (v2 c0 c1 : BitVec 32) (t : Fin k0_t1_loop.trips)
    (g : Buf (Elt F) ((rows1M).view.loc (thrV d L))) (s : Buf (Elt F) ((scaleM).view.loc (thrV d L))) :
    (iprop(((rows1M).view.loc (thrV d L) ↦[(rows1M).view.set]{fullShare} g)
        ∗ ((scaleM).view.loc (thrV d L) ↦{fullShare} s)) : sProp 𝕄)
      ⊢ wp frame (wpE (defs₀ (F := F)) 𝒱₀ (thrV d L) none) Set.univ (loop1At (F := F) L v2 c0 c1 t)
          fun _ => iprop((∃ g', (rows1M).view.loc (thrV d L) ↦[(rows1M).view.set]{fullShare} g')
            ∗ ((scaleM).view.loc (thrV d L) ↦{fullShare} s)) := by
  unfold loop1At
  iintro ⟨Hrows, Hscale⟩
  sl_for (invF1 (F := F) d L s) $$ [Hrows Hscale]
  case region =>
    intro k _
    unfold invF1
    iintro ⟨⟨%g', Hrows⟩, Hscale⟩
    rows1_facts k
    sl_exec
    sl_step
    isplitl [Hrows]
    · iexists _; iexact Hrows
    · iexact Hscale
  unfold invF1
  isplitl [Hrows Hscale]
  · isplitl [Hrows]
    · iexists _; iexact Hrows
    · iexact Hscale
  · iintro %_ HI
    iexact HI

/-! ## The same for the first half of the row buffer (the loop of the first half-trip) -/

/-- The first half of the row buffer, as a slice of the whole. -/
abbrev rows0M : Memref sig .scVector .vmem S1x128x128 .f32 :=
  (rowsM).slice (Rect.unit (s := S2x128x128) ![0, 0, 0] S1x128x128.size inb_S2x128x128_S1x128x128_0_0_0) (fun _ => rfl)

omit [FloatOps F] in
theorem acc_sub0 (off : Fin 3 → Nat) (inb : ∀ a, off a + S1x1x16.size a ≤ S2x128x128.size a) (h0 : off 0 = 0) :
    ((rowsM).access (Rect.unit (s := S2x128x128) off S1x1x16.size inb)).set ⊆ (rows0M).view.set := by
  have e1 : (rows0M).view.set = _ :=
    View.set_slice (rowsM).view (Rect.unit (s := S2x128x128) ![0, 0, 0] S1x128x128.size inb_S2x128x128_S1x128x128_0_0_0)
  have e2 : ((rowsM).access (Rect.unit (s := S2x128x128) off S1x1x16.size inb)).set = _ := View.set_slice (rowsM).view _
  rw [e1, e2]
  refine Finset.map_subset_map.mpr (fun i hi => ?_)
  rw [Rect.mem_set_unit] at hi ⊢
  intro a
  have := hi a
  have i0 := inb 0; have i1 := inb 1; have i2 := inb 2
  match a with
  | ⟨0, _⟩ => simp at this i0 ⊢; omega
  | ⟨1, _⟩ => simp at this i1 ⊢; omega
  | ⟨2, _⟩ => simp at this i2 ⊢; omega

omit [FloatOps F] in
theorem accOn_sub0 (off : Fin 3 → Nat) (inb : ∀ a, off a + S1x1x16.size a ≤ S2x128x128.size a) (h0 : off 0 = 0) :
    ((rowsM).access (Rect.unit (s := S2x128x128) off S1x1x16.size inb)).setOn Finset.univ ⊆ (rows0M).view.set :=
  acc_sub0 off inb h0

open Lean Elab Tactic in
/-- The inclusions a trip's run reads from the context, for the first half. -/
elab "rows0_facts " k:ident : tactic => do
  for j in [14:22] do
    for i in [0:16] do
      let off := mkIdent (.mkSimple s!"k0_off{j}")
      let inb := mkIdent (.mkSimple s!"k0_off{j}_inb")
      let iLit := Syntax.mkNumLit (toString i)
      let hl := mkIdent (.mkSimple s!"hl{j}_{i}")
      let hs := mkIdent (.mkSimple s!"hs{j}_{i}")
      evalTactic (← `(tactic| have $hl := acc_sub0 ($off $k (BitVec.ofNat 32 $iLit)) ($inb $k $iLit) rfl))
      evalTactic (← `(tactic| have $hs := accOn_sub0 ($off $k (BitVec.ofNat 32 $iLit)) ($inb $k $iLit) rfl))

/-- The loop of the first half-trip at the tile's buffers. -/
abbrev loop0At (L : grid0.Coords) (v2 : BitVec 32) (t : Fin k0_t1_loop.trips) (arg18 v156 : BitVec 32) :
    Prog (TpuEff nD τ sig (Elt F) Λ₀ (.scVector ((L 0).castLE hcore0) ((L 1).castLE hsub0))) Unit :=
  Scf.Loop.for k0_t2_loop k0_t2_ok ⟨⟩
    (k0_t2_body (F := F) L tabM (Memref.isWhole_whole _) tokM (Memref.isWhole_whole _) uM (Memref.isWhole_whole _) outM (Memref.isWhole_whole _)
      idxM (Memref.isWhole_whole _) midxM (Memref.isWhole_whole _) mvalM (Memref.isWhole_whole _) scaleM (Memref.isWhole_whole _)
      rowsM (Memref.isWhole_whole _) spmM (Memref.isWhole_whole _)
      cc0_scratch6 cc0_scratch7 cc0_scratch8 cc0_scratch9 cc0_scratch10 cc0_scratch11 cc0_scoped0 cc0_scoped1 cc0_scoped2 cc0_scoped3 cc0_scoped4
      v2 t arg18 v156)

def invF0 (d : Dev nD) (L : grid0.Coords) (s : Buf (Elt F) ((scaleM).view.loc (thrV d L))) (_ : Nat) (_ : Unit) : sProp 𝕄 :=
  iprop((∃ g', (rows0M).view.loc (thrV d L) ↦[(rows0M).view.set]{fullShare} g')
    ∗ ((scaleM).view.loc (thrV d L) ↦{fullShare} s))

set_option maxHeartbeats 4000000 in
theorem mul_loop0_frame (d : Dev nD) (L : grid0.Coords) (v2 : BitVec 32) (t : Fin k0_t1_loop.trips) (arg18 v156 : BitVec 32)
    (g : Buf (Elt F) ((rows0M).view.loc (thrV d L))) (s : Buf (Elt F) ((scaleM).view.loc (thrV d L))) :
    (iprop(((rows0M).view.loc (thrV d L) ↦[(rows0M).view.set]{fullShare} g)
        ∗ ((scaleM).view.loc (thrV d L) ↦{fullShare} s)) : sProp 𝕄)
      ⊢ wp frame (wpE (defs₀ (F := F)) 𝒱₀ (thrV d L) none) Set.univ (loop0At (F := F) L v2 t arg18 v156)
          fun _ => iprop((∃ g', (rows0M).view.loc (thrV d L) ↦[(rows0M).view.set]{fullShare} g')
            ∗ ((scaleM).view.loc (thrV d L) ↦{fullShare} s)) := by
  unfold loop0At
  iintro ⟨Hrows, Hscale⟩
  sl_for (invF0 (F := F) d L s) $$ [Hrows Hscale]
  case region =>
    intro k _
    unfold invF0
    iintro ⟨⟨%g', Hrows⟩, Hscale⟩
    rows0_facts k
    sl_exec
    sl_step
    isplitl [Hrows]
    · iexists _; iexact Hrows
    · iexact Hscale
  unfold invF0
  isplitl [Hrows Hscale]
  · isplitl [Hrows]
    · iexists _; iexact Hrows
    · iexact Hscale
  · iintro %_ HI
    iexact HI

end Cert.KB

end
-- ==== Proof.KB.MulStep.lean ====
/-
  The multiply loops' shared vocabulary: the trips' offsets in closed form, the contents (scaled up to a row, on one
  band, everywhere, after j stores of a trip), reads, shape casts and one store read at an index, and the step that
  one store of a trip makes.
-/
import proofs.«206556_g62818191671566_cont_9to1_m_1093_40_alg».proof.Proof.KB.MulLoop

noncomputable section

namespace Cert.KB

open Cert.Kernel Cert.Kernel.Gen
open Idealize.ShloMosaic
open Idealize.ShloMosaic.ValueIdx

variable {F : FTy → Type} [FloatOps F]

/-! ## The trip's offsets in closed form -/

omit [FloatOps F] in
theorem trips3_eq : k0_t3_loop.trips = 8 := by decide
omit [FloatOps F] in
theorem trips2_eq : k0_t2_loop.trips = 8 := by decide
omit [FloatOps F] in
theorem off32_eq : ∀ k : Fin k0_t3_loop.trips, k0_off32 k = ![16 * k.val] := by decide +kernel
omit [FloatOps F] in
theorem off13_eq : ∀ k : Fin k0_t2_loop.trips, k0_off13 k = ![16 * k.val] := by decide +kernel
omit [FloatOps F] in
theorem off33_eq : ∀ (k : Fin k0_t3_loop.trips) (i : Fin 16), k0_off33 k (BitVec.ofNat 32 i.val) = ![1, 16 * k.val + i.val, 0] := by decide +kernel
omit [FloatOps F] in
theorem off34_eq : ∀ (k : Fin k0_t3_loop.trips) (i : Fin 16), k0_off34 k (BitVec.ofNat 32 i.val) = ![1, 16 * k.val + i.val, 16] := by decide +kernel
omit [FloatOps F] in
theorem off35_eq : ∀ (k : Fin k0_t3_loop.trips) (i : Fin 16), k0_off35 k (BitVec.ofNat 32 i.val) = ![1, 16 * k.val + i.val, 32] := by decide +kernel
omit [FloatOps F] in
theorem off36_eq : ∀ (k : Fin k0_t3_loop.trips) (i : Fin 16), k0_off36 k (BitVec.ofNat 32 i.val) = ![1, 16 * k.val + i.val, 48] := by decide +kernel
omit [FloatOps F] in
theorem off37_eq : ∀ (k : Fin k0_t3_loop.trips) (i : Fin 16), k0_off37 k (BitVec.ofNat 32 i.val) = ![1, 16 * k.val + i.val, 64] := by decide +kernel
omit [FloatOps F] in
theorem off38_eq : ∀ (k : Fin k0_t3_loop.trips) (i : Fin 16), k0_off38 k (BitVec.ofNat 32 i.val) = ![1, 16 * k.val + i.val, 80] := by decide +kernel
omit [FloatOps F] in
theorem off39_eq : ∀ (k : Fin k0_t3_loop.trips) (i : Fin 16), k0_off39 k (BitVec.ofNat 32 i.val) = ![1, 16 * k.val + i.val, 96] := by decide +kernel
omit [FloatOps F] in
theorem off40_eq : ∀ (k : Fin k0_t3_loop.trips) (i : Fin 16), k0_off40 k (BitVec.ofNat 32 i.val) = ![1, 16 * k.val + i.val, 112] := by decide +kernel
omit [FloatOps F] in
theorem off14_eq : ∀ (k : Fin k0_t2_loop.trips) (i : Fin 16), k0_off14 k (BitVec.ofNat 32 i.val) = ![0, 16 * k.val + i.val, 0] := by decide +kernel
omit [FloatOps F] in
theorem off15_eq : ∀ (k : Fin k0_t2_loop.trips) (i : Fin 16), k0_off15 k (BitVec.ofNat 32 i.val) = ![0, 16 * k.val + i.val, 16] := by decide +kernel
omit [FloatOps F] in
theorem off16_eq : ∀ (k : Fin k0_t2_loop.trips) (i : Fin 16), k0_off16 k (BitVec.ofNat 32 i.val) = ![0, 16 * k.val + i.val, 32] := by decide +kernel
omit [FloatOps F] in
theorem off17_eq : ∀ (k : Fin k0_t2_loop.trips) (i : Fin 16), k0_off17 k (BitVec.ofNat 32 i.val) = ![0, 16 * k.val + i.val, 48] := by decide +kernel
omit [FloatOps F] in
theorem off18_eq : ∀ (k : Fin k0_t2_loop.trips) (i : Fin 16), k0_off18 k (BitVec.ofNat 32 i.val) = ![0, 16 * k.val + i.val, 64] := by decide +kernel
omit [FloatOps F] in
theorem off19_eq : ∀ (k : Fin k0_t2_loop.trips) (i : Fin 16), k0_off19 k (BitVec.ofNat 32 i.val) = ![0, 16 * k.val + i.val, 80] := by decide +kernel
omit [FloatOps F] in
theorem off20_eq : ∀ (k : Fin k0_t2_loop.trips) (i : Fin 16), k0_off20 k (BitVec.ofNat 32 i.val) = ![0, 16 * k.val + i.val, 96] := by decide +kernel
omit [FloatOps F] in
theorem off21_eq : ∀ (k : Fin k0_t2_loop.trips) (i : Fin 16), k0_off21 k (BitVec.ofNat 32 i.val) = ![0, 16 * k.val + i.val, 112] := by decide +kernel

/-! ## The contents: scaled up to a row, scaled on one band of sixteen rows, scaled everywhere -/

/-- Every entry times its row's entry of the scale vector. -/
def mulRows (g : S2x128x128.Idx → F .f32) (s : S128.Idx → F .f32) : S2x128x128.Idx → F .f32 :=
  fun idx => FloatOps.mulf (g idx) (s (ix1 (idx 1)))

theorem mulRows_apply (g : S2x128x128.Idx → F .f32) (s : S128.Idx → F .f32) (idx : S2x128x128.Idx) :
    mulRows g s idx = FloatOps.mulf (g idx) (s (ix1 (idx 1))) := rfl

/-- The rows below row n scaled, the others as they were. -/
def mulUpTo (n : Nat) (g : S2x128x128.Idx → F .f32) (s : S128.Idx → F .f32) : S2x128x128.Idx → F .f32 :=
  fun idx => if (idx 1).val < n then FloatOps.mulf (g idx) (s (ix1 (idx 1))) else g idx

/-- The sixteen rows from row 16 k on scaled, the others as they were: what one trip does. -/
def mulBand (k : Nat) (g : S2x128x128.Idx → F .f32) (s : S128.Idx → F .f32) : S2x128x128.Idx → F .f32 :=
  fun idx => if 16 * k ≤ (idx 1).val ∧ (idx 1).val < 16 * k + 16 then FloatOps.mulf (g idx) (s (ix1 (idx 1))) else g idx

theorem mulUpTo_zero (g : S2x128x128.Idx → F .f32) (s : S128.Idx → F .f32) : mulUpTo 0 g s = g := by
  funext idx; unfold mulUpTo; rw [if_neg (Nat.not_lt_zero _)]

theorem mulUpTo_full (g : S2x128x128.Idx → F .f32) (s : S128.Idx → F .f32) : mulUpTo 128 g s = mulRows g s := by
  funext idx; unfold mulUpTo mulRows; rw [if_pos (show (idx 1).val < 128 from (idx 1).isLt)]

theorem mulBand_mulUpTo (k : Nat) (g : S2x128x128.Idx → F .f32) (s : S128.Idx → F .f32) :
    mulBand k (mulUpTo (16 * k) g s) s = mulUpTo (16 * (k + 1)) g s := by
  funext idx
  unfold mulBand mulUpTo
  by_cases h1 : (idx 1).val < 16 * k
  · rw [if_neg (by omega), if_pos h1, if_pos (by omega)]
  · by_cases h2 : (idx 1).val < 16 * k + 16
    · rw [if_pos ⟨by omega, h2⟩, if_neg h1, if_pos (by omega)]
    · rw [if_neg (by omega), if_neg h1, if_neg (by omega)]

/-! ## Reads, shape casts and one store, at an index -/

theorem readRows_apply (off : Fin 3 → Nat) (inb : ∀ a, off a + S1x1x16.size a ≤ S2x128x128.size a)
    (W : S2x128x128.Idx → F .f32) (x : S1x1x16.Idx) :
    View.readAt (Elt F) (rowsM).view (Rect.unit (s := S2x128x128) off S1x1x16.size inb).toLoadRect W x
      = W ((Rect.unit (s := S2x128x128) off S1x1x16.size inb).idx x) := rfl

theorem readScale_apply (off : Fin 1 → Nat) (inb : ∀ a, off a + S16.size a ≤ S128.size a)
    (s : S128.Idx → F .f32) (y : S16.Idx) :
    View.readAt (Elt F) (scaleM).view (Rect.unit (s := S128) off S16.size inb).toLoadRect s y
      = s ((Rect.unit (s := S128) off S16.size inb).idx y) := rfl

theorem shapeCast_16_1x1x16 {α : Type} (v : S16.Idx → α) (h : S16.ShapeCasts S1x1x16) (x : S1x1x16.Idx) :
    shapeCast S1x1x16 v h x = v (ix1 (x 2)) := by
  unfold shapeCast
  refine congrArg v (Shape.reshapeEquiv_eq_of_rowMajor _ ?_)
  rw [Shape.rowMajor_val_one, Shape.rowMajor_val_three]
  have h0 : (x 0).val < 1 := (x 0).isLt
  have h1 : (x 1).val < 1 := (x 1).isLt
  show (x 2).val = ((x 0).val * 1 + (x 1).val) * 16 + (x 2).val
  omega

theorem shapeCast_1x1x16_16 {α : Type} (v : S1x1x16.Idx → α) (h : S1x1x16.ShapeCasts S16) (y : S16.Idx) :
    shapeCast S16 v h y = v (ix3 0 0 (y 0)) := by
  unfold shapeCast
  refine congrArg v (Shape.reshapeEquiv_eq_of_rowMajor _ ?_)
  rw [Shape.rowMajor_val_one, Shape.rowMajor_val_three]
  show (0 * 1 + 0) * 16 + (y 0).val = (y 0).val
  omega

theorem shapeCast_16_16 {α : Type} (v : S16.Idx → α) (h : S16.ShapeCasts S16) : shapeCast S16 v h = v := by
  funext y; unfold shapeCast; exact congrArg v (Shape.reshapeEquiv_self _ y)

/-- A full store through the whole row buffer at a unit-stride rectangle, read at an index: the payload inside the
    rectangle, the old contents outside. -/
theorem write_rect_apply (off : Fin 3 → Nat) (inb : ∀ a, off a + S1x1x16.size a ≤ S2x128x128.size a)
    (W : S2x128x128.Idx → F .f32) (pay : S1x1x16.Idx → F .f32) (idx : S2x128x128.Idx) :
    View.write (Elt F) ((rowsM).access (Rect.unit (s := S2x128x128) off S1x1x16.size inb)) W pay Finset.univ idx
      = if h : ∀ a, off a ≤ (idx a).val ∧ (idx a).val < off a + S1x1x16.size a
        then pay (fun a => ⟨(idx a).val - off a, by have := h a; omega⟩) else W idx := by
  by_cases h : ∀ a, off a ≤ (idx a).val ∧ (idx a).val < off a + S1x1x16.size a
  · rw [dif_pos h]
    have he : idx = ((rowsM).access (Rect.unit (s := S2x128x128) off S1x1x16.size inb)).emb
        (fun a => ⟨(idx a).val - off a, by have := h a; show _ < S1x1x16.size a; omega⟩) := by
      funext a; refine Fin.ext ?_
      show (idx a).val = off a + 1 * ((idx a).val - off a)
      have := h a; omega
    conv_lhs => rw [he]
    rw [View.write_emb_of_mem _ _ (Finset.mem_univ _)]
    rfl
  · rw [dif_neg h]
    refine View.write_of_not_mem _ _ _ (fun hm => h ?_)
    rw [View.setOn_univ, View.set_slice] at hm
    obtain ⟨i, hi, rfl⟩ := Finset.mem_map.mp hm
    exact Rect.mem_set_unit.mp hi

/-- After the first j of a trip's stores (row by row, eight column blocks a row): the entries stored so far scaled. -/
def mulDone (k j : Nat) (g : S2x128x128.Idx → F .f32) (s : S128.Idx → F .f32) : S2x128x128.Idx → F .f32 :=
  fun idx => if 16 * k ≤ (idx 1).val ∧ 8 * ((idx 1).val - 16 * k) + (idx 2).val / 16 < j
    then FloatOps.mulf (g idx) (s (ix1 (idx 1))) else g idx

theorem mulDone_zero (k : Nat) (g : S2x128x128.Idx → F .f32) (s : S128.Idx → F .f32) : mulDone k 0 g s = g := by
  funext idx; unfold mulDone; rw [if_neg (by omega)]

theorem mulDone_full (k : Nat) (g : S2x128x128.Idx → F .f32) (s : S128.Idx → F .f32) :
    mulDone k 128 g s = mulBand k g s := by
  funext idx
  unfold mulDone mulBand
  have hcol : (idx 2).val < 128 := (idx 2).isLt
  by_cases h : 16 * k ≤ (idx 1).val ∧ (idx 1).val < 16 * k + 16
  · rw [if_pos ⟨h.1, by omega⟩, if_pos h]
  · rw [if_neg (by omega), if_neg h]

/-- One store of a trip into plane p of the row buffer: block c of row 16 k + i, of the row's entries as they are times
    the row's scale, takes the contents from "8 i + c stores done" to "8 i + c + 1 stores done" on that plane. -/
theorem step_done (p : Nat) (hp : p < 2) (k i c : Nat) (hk : k < 8) (hi : i < 16) (hc : c < 8)
    (off : Fin 3 → Nat) (inb : ∀ a, off a + S1x1x16.size a ≤ S2x128x128.size a) (hoff : off = ![p, 16 * k + i, 16 * c])
    (g' W : S2x128x128.Idx → F .f32) (s : S128.Idx → F .f32) (pay : S1x1x16.Idx → F .f32)
    (hW : ∀ idx : S2x128x128.Idx, (idx 0).val = p → W idx = mulDone k (8 * i + c) g' s idx)
    (hpay : ∀ x : S1x1x16.Idx, pay x
      = FloatOps.mulf (W (ix3 (⟨p, hp⟩ : Fin 2) (⟨16 * k + i, by omega⟩ : Fin 128)
            (⟨16 * c + (x 2).val, by have : (x 2).val < 16 := (x 2).isLt; omega⟩ : Fin 128)))
          (s (ix1 (⟨16 * k + i, by omega⟩ : Fin 128)))) :
    ∀ idx : S2x128x128.Idx, (idx 0).val = p →
      View.write (Elt F) ((rowsM).access (Rect.unit (s := S2x128x128) off S1x1x16.size inb)) W pay Finset.univ idx
        = mulDone k (8 * i + c + 1) g' s idx := by
  intro idx h0
  subst hoff
  have hcol : (idx 2).val < 128 := (idx 2).isLt
  have hrow : (idx 1).val < 128 := (idx 1).isLt
  rw [write_rect_apply]
  by_cases hin : ∀ a, (![p, 16 * k + i, 16 * c] : Fin 3 → Nat) a ≤ (idx a).val
      ∧ (idx a).val < (![p, 16 * k + i, 16 * c] : Fin 3 → Nat) a + S1x1x16.size a
  · have h1 : 16 * k + i ≤ (idx 1).val ∧ (idx 1).val < 16 * k + i + 1 := hin 1
    have h2 : 16 * c ≤ (idx 2).val ∧ (idx 2).val < 16 * c + 16 := hin 2
    rw [dif_pos hin, hpay]
    have hidx : (ix3 (⟨p, hp⟩ : Fin 2) (⟨16 * k + i, by omega⟩ : Fin 128)
        (⟨16 * c + ((idx 2).val - 16 * c), by omega⟩ : Fin 128) : S2x128x128.Idx) = idx := by
      funext a; refine Fin.ext ?_
      match a with
      | ⟨0, _⟩ => exact h0.symm
      | ⟨1, _⟩ => show 16 * k + i = (idx 1).val; omega
      | ⟨2, _⟩ => show 16 * c + ((idx 2).val - 16 * c) = (idx 2).val; omega
    have hrowix : (ix1 (⟨16 * k + i, by omega⟩ : Fin 128) : S128.Idx) = ix1 (idx 1) := by
      funext a; refine Fin.ext ?_
      match a with
      | ⟨0, _⟩ => show 16 * k + i = (idx 1).val; omega
    show FloatOps.mulf (W (ix3 (⟨p, hp⟩ : Fin 2) (⟨16 * k + i, _⟩ : Fin 128) (⟨16 * c + ((idx 2).val - 16 * c), _⟩ : Fin 128))) _ = _
    rw [hidx, hrowix, hW idx h0]
    unfold mulDone
    rw [if_neg (by omega), if_pos (by omega)]
    rfl
  · rw [dif_neg hin, hW idx h0]
    have hne : ¬ ((idx 1).val = 16 * k + i ∧ 16 * c ≤ (idx 2).val ∧ (idx 2).val < 16 * c + 16) := by
      intro ⟨e1, e2, e3⟩
      refine hin (fun a => ?_)
      match a with
      | ⟨0, _⟩ => exact ⟨by show p ≤ (idx 0).val; omega, by show (idx 0).val < p + 1; omega⟩
      | ⟨1, _⟩ => exact ⟨by show 16 * k + i ≤ (idx 1).val; omega, by show (idx 1).val < 16 * k + i + 1; omega⟩
      | ⟨2, _⟩ => exact ⟨by show 16 * c ≤ (idx 2).val; omega, by show (idx 2).val < 16 * c + 16; omega⟩
    unfold mulDone
    by_cases hc1 : 16 * k ≤ (idx 1).val ∧ 8 * ((idx 1).val - 16 * k) + (idx 2).val / 16 < 8 * i + c
    · rw [if_pos hc1, if_pos ⟨hc1.1, by omega⟩]
    · rw [if_neg hc1, if_neg (by omega)]

/-- A trip's payload in closed form: the loaded block times the scale vector's lane, read where the closed forms of
    the two rectangles' offsets put them. -/
theorem pay_fin (p : Nat) (hp : p < 2) (k i c : Nat) (hk : k < 8) (hi : i < 16) (hc : c < 8)
    {off : Fin 3 → Nat} {inb : ∀ a, off a + S1x1x16.size a ≤ S2x128x128.size a} (hoff : off = ![p, 16 * k + i, 16 * c])
    {off32 : Fin 1 → Nat} {inb32 : ∀ a, off32 a + S16.size a ≤ S128.size a} (hoff32 : off32 = ![16 * k])
    (W : S2x128x128.Idx → F .f32) (s : S128.Idx → F .f32) (x2 : Nat) (hx2 : x2 < 16)
    {X : S1x1x16.Idx} {Y : S16.Idx} (hX : (X 2).val = x2) (hY : (Y 0).val = i) :
    FloatOps.mulf
        (View.readAt (Elt F) (rowsM).view (Rect.unit (s := S2x128x128) off S1x1x16.size inb).toLoadRect W X)
        (View.readAt (Elt F) (scaleM).view (Rect.unit (s := S128) off32 S16.size inb32).toLoadRect s Y)
      = FloatOps.mulf (W (ix3 (⟨p, hp⟩ : Fin 2) (⟨16 * k + i, by omega⟩ : Fin 128) (⟨16 * c + x2, by omega⟩ : Fin 128)))
          (s (ix1 (⟨16 * k + i, by omega⟩ : Fin 128))) := by
  subst hoff hoff32
  rw [readRows_apply, readScale_apply]
  have h0 : (X 0).val < 1 := (X 0).isLt
  have h1 : (X 1).val < 1 := (X 1).isLt
  congr 2
  · funext a; refine Fin.ext ?_
    match a with
    | ⟨0, _⟩ => show p + 1 * (X 0).val = p; omega
    | ⟨1, _⟩ => show 16 * k + i + 1 * (X 1).val = 16 * k + i; omega
    | ⟨2, _⟩ => show 16 * c + 1 * (X 2).val = 16 * c + x2; omega
  · funext a; refine Fin.ext ?_
    match a with
    | ⟨0, _⟩ => show 16 * k + 1 * (Y 0).val = 16 * k + i; omega

end Cert.KB

end
-- ==== Proof.KB.MulValue.lean ====
/-
  The inner multiply loop of the second half-trip, with the value, from one trip's value: after the loop every entry of
  the half of the row buffer is its entry before the loop times the row's entry of the scale vector.
-/
import proofs.«206556_g62818191671566_cont_9to1_m_1093_40_alg».proof.Proof.KB.MulStep

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- One trip of the second half's loop at the tile's buffers. -/
abbrev trip1At (L : grid0.Coords) (v2 c0 c1 : BitVec 32) (t : Fin k0_t1_loop.trips) (k : Fin k0_t3_loop.trips) :
    Prog (TpuEff nD τ sig (Elt F) Λ₀ (.scVector ((L 0).castLE hcore0) ((L 1).castLE hsub0))) Unit :=
  k0_t3_body (F := F) L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4
    v2 c0 c1 t k ()

set_option maxHeartbeats 4000000 in
/-- One trip's run: what the half holds afterwards, as a function of what it held before, with the run that shows it. -/
def tripRun1 (d : Dev nD) (L : grid0.Coords) (v2 c0 c1 : BitVec 32) (t : Fin k0_t1_loop.trips)
    (s : Buf (Elt F) ((scaleM).view.loc (thrV d L))) (k : Fin k0_t3_loop.trips) :
    { W : Buf (Elt F) ((rows1M).view.loc (thrV d L)) → Buf (Elt F) ((rows1M).view.loc (thrV d L)) //
      ∀ g' : Buf (Elt F) ((rows1M).view.loc (thrV d L)),
        (iprop(((rows1M).view.loc (thrV d L) ↦[(rows1M).view.set]{fullShare} g')
            ∗ ((scaleM).view.loc (thrV d L) ↦{fullShare} s)) : sProp 𝕄)
          ⊢ wp frame (wpE (defs₀ (F := F)) 𝒱₀ (thrV d L) none) Set.univ (trip1At (F := F) L v2 c0 c1 t k)
              fun _ => iprop(((rows1M).view.loc (thrV d L) ↦[(rows1M).view.set]{fullShare} W g')
                ∗ ((scaleM).view.loc (thrV d L) ↦{fullShare} s)) } := by
  refine ⟨?W, fun g' => ?run⟩
  case run =>
    unfold trip1At k0_t3_body
    iintro ⟨Hrows, Hscale⟩
    rows1_facts k
    sl_exec
    sl_step
    isplitl [Hrows]
    · iexact Hrows
    · iexact Hscale

/-! ## The loop from one trip's value -/

/-- What one trip leaves in the half, on the half's own elements: the band of the trip scaled. The one proposition the
    loop's value rests on. -/
def TripValue1 (d : Dev nD) (L : grid0.Coords) (v2 c0 c1 : BitVec 32) (t : Fin k0_t1_loop.trips)
    (s : Buf (Elt F) ((scaleM).view.loc (thrV d L))) : Prop :=
  ∀ (k : Fin k0_t3_loop.trips) (g' : Buf (Elt F) ((rows1M).view.loc (thrV d L))), ∀ idx ∈ (rows1M).view.set,
    (tripRun1 (F := F) d L v2 c0 c1 t s k).1 g' idx = mulBand k.val g' s idx

/-- The loop's invariant: before trip k the rows below 16 k are scaled. -/
def invV1 (d : Dev nD) (L : grid0.Coords) (g : Buf (Elt F) ((rows1M).view.loc (thrV d L)))
    (s : Buf (Elt F) ((scaleM).view.loc (thrV d L))) (k : Nat) (_ : Unit) : sProp 𝕄 :=
  iprop(((rows1M).view.loc (thrV d L) ↦[(rows1M).view.set]{fullShare} mulUpTo (16 * k) g s)
    ∗ ((scaleM).view.loc (thrV d L) ↦{fullShare} s))

set_option maxHeartbeats 4000000 in
theorem mul_loop1_of (d : Dev nD) (L : grid0.Coords) (v2 c0 c1 : BitVec 32) (t : Fin k0_t1_loop.trips)
    (g : Buf (Elt F) ((rows1M).view.loc (thrV d L))) (s : Buf (Elt F) ((scaleM).view.loc (thrV d L)))
    (htrip : TripValue1 (F := F) d L v2 c0 c1 t s) :
    (iprop(((rows1M).view.loc (thrV d L) ↦[(rows1M).view.set]{fullShare} g)
        ∗ ((scaleM).view.loc (thrV d L) ↦{fullShare} s)) : sProp 𝕄)
      ⊢ wp frame (wpE (defs₀ (F := F)) 𝒱₀ (thrV d L) none) Set.univ (loop1At (F := F) L v2 c0 c1 t)
          fun _ => iprop(((rows1M).view.loc (thrV d L) ↦[(rows1M).view.set]{fullShare} mulRows g s)
            ∗ ((scaleM).view.loc (thrV d L) ↦{fullShare} s)) := by
  unfold loop1At
  iintro ⟨Hrows, Hscale⟩
  sl_for (invV1 (F := F) d L g s) $$ [Hrows Hscale]
  case region =>
    intro k _
    unfold invV1
    iintro ⟨Hrows, Hscale⟩
    iapply (wp_wand_r Idealize.ShloMosaic.frame (wpE (defs₀ (F := F)) 𝒱₀ (thrV d L) none) Set.univ)
    isplitl [Hrows Hscale]
    · iapply ((tripRun1 (F := F) d L v2 c0 c1 t s k).2 _)
      isplitl [Hrows]
      · iexact Hrows
      · iexact Hscale
    · iintro %_ ⟨Hrows, Hscale⟩
      isplitl [Hrows]
      · iapply (Entails.of_eq (pointsTo_congr (fun idx hidx =>
          (htrip k _ idx hidx).trans (congrFun (mulBand_mulUpTo k.val g s) idx))))
        iexact Hrows
      · iexact Hscale
  unfold invV1
  isplitl [Hrows Hscale]
  · isplitl [Hrows]
    · rw [Nat.mul_zero, mulUpTo_zero]; iexact Hrows
    · iexact Hscale
  · iintro %_ ⟨Hrows, Hscale⟩
    isplitl [Hrows]
    · rw [show 16 * Scf.trips k0_t3_loop.lb k0_t3_loop.ub k0_t3_loop.st = 128 from by decide, mulUpTo_full]
      iexact Hrows
    · iexact Hscale

end Cert.KB

end
-- ==== Proof.KB.MulTrip.lean ====
/-
  One trip of the inner multiply loop of the second half-trip, by its value, and the loop with its value.  The 128 stores
  of a trip, each of a block of sixteen entries of a row times the row's lane of the scale vector, leave the band of
  sixteen rows scaled and everything else as it was: after j of them the entries stored so far are scaled, and one
  store takes j to j + 1, its rectangle being fresh, so that what it loads is what the band held at the start.
-/
import proofs.«206556_g62818191671566_cont_9to1_m_1093_40_alg».proof.Proof.KB.MulValue

noncomputable section

namespace Cert.KB

open Cert.Kernel Cert.Kernel.Gen
open Idealize.ShloMosaic
open Idealize.ShloMosaic.ValueIdx

variable {F : FTy → Type} [FloatOps F]

omit [FloatOps F] in
/-- An element of the second half lies in plane 1 of the row buffer. -/
theorem mem_rows1 {idx : S2x128x128.Idx} (h : idx ∈ (rows1M).view.set) : (idx 0).val = 1 := by
  have e1 : (rows1M).view.set = _ :=
    View.set_slice (rowsM).view (Rect.unit (s := S2x128x128) ![1, 0, 0] S1x128x128.size inb_S2x128x128_S1x128x128_1_0_0)
  rw [e1] at h
  obtain ⟨i, hi, rfl⟩ := Finset.mem_map.mp h
  have h0 : 1 ≤ (i 0).val ∧ (i 0).val < 1 + 1 := (Rect.mem_set_unit.mp hi) 0
  show (i 0).val = 1
  omega

/-! ## The 128 stores of a trip -/

open Lean Elab Tactic Meta in
/-- The chain of a trip's stores: for j = 1 … 128 the fact that the contents after j stores are the starting contents
    with the first j blocks scaled, each from the one before by the step lemma, its payload read in closed form. -/
elab "trip1_steps " d:ident L:ident s:ident k:ident g:ident hk:ident : tactic => do
  let env ← getEnv
  let slPre : Name := `Cert.KB.tripRun1.sl
  let genPre : Name := `Cert.Kernel.Gen
  let names := env.constants.fold (init := (#[] : Array Name)) fun acc n _ =>
    match n with
    | .str p str =>
      if p == slPre && !(str.startsWith "Hrows_w") then acc.push n
      else if p == genPre && str.startsWith "k0_pay" then acc.push n
      else acc
    | _ => acc
  let ids : Array (TSyntax `Lean.Parser.Tactic.simpLemma) ← names.mapM fun n =>
    `(Lean.Parser.Tactic.simpLemma| $(mkIdent n):ident)
  for j in [1:129] do
    let i := (j - 1) / 8
    let c := (j - 1) % 8
    let iLit := Syntax.mkNumLit (toString i)
    let cLit := Syntax.mkNumLit (toString c)
    let jLit := Syntax.mkNumLit (toString j)
    let offEq := mkIdent (.mkSimple s!"off{33 + c}_eq")
    let hj := mkIdent (.mkSimple s!"hw{j}")
    let hprev := mkIdent (.mkSimple s!"hw{j - 1}")
    let wj := mkIdent (slPre ++ .mkSimple s!"Hrows_w{j}")
    let wprev : TSyntax `term ← if j == 1 then `($g) else
      `($(mkIdent (slPre ++ .mkSimple s!"Hrows_w{j - 1}")) $d $L $s $k $g)
    evalTactic (← `(tactic|
      have $hj : ∀ idx : S2x128x128.Idx, (idx 0).val = 1 → $wj $d $L $s $k $g idx = mulDone ($k).val $jLit $g $s idx :=
        fun idx h0 => step_done 1 (by decide) ($k).val $iLit $cLit $hk (by decide) (by decide) _ _
          ($offEq $k ⟨$iLit, by decide⟩) $g $wprev $s _ $hprev
          (fun x => by
            simp only [$ids,*, shapeCast_16_1x1x16, shapeCast_1x1x16_16, shapeCast_16_16, mulf, broadcast, extractAt,
              extractStridedSlice]
            exact pay_fin 1 (by decide) ($k).val $iLit $cLit $hk (by decide) (by decide) ($offEq $k ⟨$iLit, by decide⟩)
              (off32_eq $k) $wprev $s (x 2).val (x 2).isLt (by rfl) (by rfl))
          idx h0))

set_option maxHeartbeats 8000000 in
set_option maxRecDepth 8192 in
/-- What one trip leaves in the half, on the half's own elements: the band of the trip scaled. -/
theorem tripValue1 (d : Dev nD) (L : grid0.Coords) (v2 c0 c1 : BitVec 32) (t : Fin k0_t1_loop.trips)
    (s : Buf (Elt F) ((scaleM).view.loc (thrV d L))) : TripValue1 (F := F) d L v2 c0 c1 t s := by
  intro k g' idx hidx
  have h0 : (idx 0).val = 1 := mem_rows1 hidx
  have hk : k.val < 8 := k.isLt
  have hw0 : ∀ idx : S2x128x128.Idx, (idx 0).val = 1 → g' idx = mulDone k.val 0 g' s idx :=
    fun idx _ => (congrFun (mulDone_zero k.val g' s) idx).symm
  trip1_steps d L s k g' hk
  show tripRun1.sl.Hrows_w128 d L s k g' idx = _
  rw [hw128 idx h0, mulDone_full]

section Loop
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt F) ℕ UU ℕ

/-- The loop of the second half-trip, with its value: every entry of the half is scaled by its row's entry of the
    scale vector; the scale vector is unchanged. -/
theorem mul_loop1 (d : Dev nD) (L : grid0.Coords) (v2 c0 c1 : BitVec 32) (t : Fin k0_t1_loop.trips)
    (g : Buf (Elt F) ((rows1M).view.loc (thrV d L))) (s : Buf (Elt F) ((scaleM).view.loc (thrV d L))) :
    (iprop(((rows1M).view.loc (thrV d L) ↦[(rows1M).view.set]{fullShare} g)
        ∗ ((scaleM).view.loc (thrV d L) ↦{fullShare} s)) : sProp 𝕄)
      ⊢ wp frame (wpE (defs₀ (F := F)) 𝒱₀ (thrV d L) none) Set.univ (loop1At (F := F) L v2 c0 c1 t)
          fun _ => iprop(((rows1M).view.loc (thrV d L) ↦[(rows1M).view.set]{fullShare} mulRows g s)
            ∗ ((scaleM).view.loc (thrV d L) ↦{fullShare} s)) :=
  mul_loop1_of d L v2 c0 c1 t g s (tripValue1 d L v2 c0 c1 t s)

end Loop

end Cert.KB

end
-- ==== Proof.KB.MulValue0.lean ====
/-
  The inner multiply loop of the first half-trip, with the value, from one trip's value: after the loop every entry of
  the half of the row buffer is its entry before the loop times the row's entry of the scale vector.
-/
import proofs.«206556_g62818191671566_cont_9to1_m_1093_40_alg».proof.Proof.KB.MulStep

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- One trip of the first half's loop at the tile's buffers. -/
abbrev trip0At (L : grid0.Coords) (v2 : BitVec 32) (t : Fin k0_t1_loop.trips) (arg18 v156 : BitVec 32) (k : Fin k0_t2_loop.trips) :
    Prog (TpuEff nD τ sig (Elt F) Λ₀ (.scVector ((L 0).castLE hcore0) ((L 1).castLE hsub0))) Unit :=
  k0_t2_body (F := F) L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4
    v2 t arg18 v156 k ()

set_option maxHeartbeats 4000000 in
/-- One trip's run: what the half holds afterwards, as a function of what it held before, with the run that shows it. -/
def tripRun0 (d : Dev nD) (L : grid0.Coords) (v2 : BitVec 32) (t : Fin k0_t1_loop.trips) (arg18 v156 : BitVec 32)
    (s : Buf (Elt F) ((scaleM).view.loc (thrV d L))) (k : Fin k0_t2_loop.trips) :
    { W : Buf (Elt F) ((rows0M).view.loc (thrV d L)) → Buf (Elt F) ((rows0M).view.loc (thrV d L)) //
      ∀ g' : Buf (Elt F) ((rows0M).view.loc (thrV d L)),
        (iprop(((rows0M).view.loc (thrV d L) ↦[(rows0M).view.set]{fullShare} g')
            ∗ ((scaleM).view.loc (thrV d L) ↦{fullShare} s)) : sProp 𝕄)
          ⊢ wp frame (wpE (defs₀ (F := F)) 𝒱₀ (thrV d L) none) Set.univ (trip0At (F := F) L v2 t arg18 v156 k)
              fun _ => iprop(((rows0M).view.loc (thrV d L) ↦[(rows0M).view.set]{fullShare} W g')
                ∗ ((scaleM).view.loc (thrV d L) ↦{fullShare} s)) } := by
  refine ⟨?W, fun g' => ?run⟩
  case run =>
    unfold trip0At k0_t2_body
    iintro ⟨Hrows, Hscale⟩
    rows0_facts k
    sl_exec
    sl_step
    isplitl [Hrows]
    · iexact Hrows
    · iexact Hscale

/-! ## The loop from one trip's value -/

/-- What one trip leaves in the half, on the half's own elements: the band of the trip scaled. The one proposition the
    loop's value rests on. -/
def TripValue0 (d : Dev nD) (L : grid0.Coords) (v2 : BitVec 32) (t : Fin k0_t1_loop.trips) (arg18 v156 : BitVec 32)
    (s : Buf (Elt F) ((scaleM).view.loc (thrV d L))) : Prop :=
  ∀ (k : Fin k0_t2_loop.trips) (g' : Buf (Elt F) ((rows0M).view.loc (thrV d L))), ∀ idx ∈ (rows0M).view.set,
    (tripRun0 (F := F) d L v2 t arg18 v156 s k).1 g' idx = mulBand k.val g' s idx

/-- The loop's invariant: before trip k the rows below 16 k are scaled. -/
def invV0 (d : Dev nD) (L : grid0.Coords) (g : Buf (Elt F) ((rows0M).view.loc (thrV d L)))
    (s : Buf (Elt F) ((scaleM).view.loc (thrV d L))) (k : Nat) (_ : Unit) : sProp 𝕄 :=
  iprop(((rows0M).view.loc (thrV d L) ↦[(rows0M).view.set]{fullShare} mulUpTo (16 * k) g s)
    ∗ ((scaleM).view.loc (thrV d L) ↦{fullShare} s))

set_option maxHeartbeats 4000000 in
theorem mul_loop0_of (d : Dev nD) (L : grid0.Coords) (v2 : BitVec 32) (t : Fin k0_t1_loop.trips) (arg18 v156 : BitVec 32)
    (g : Buf (Elt F) ((rows0M).view.loc (thrV d L))) (s : Buf (Elt F) ((scaleM).view.loc (thrV d L)))
    (htrip : TripValue0 (F := F) d L v2 t arg18 v156 s) :
    (iprop(((rows0M).view.loc (thrV d L) ↦[(rows0M).view.set]{fullShare} g)
        ∗ ((scaleM).view.loc (thrV d L) ↦{fullShare} s)) : sProp 𝕄)
      ⊢ wp frame (wpE (defs₀ (F := F)) 𝒱₀ (thrV d L) none) Set.univ (loop0At (F := F) L v2 t arg18 v156)
          fun _ => iprop(((rows0M).view.loc (thrV d L) ↦[(rows0M).view.set]{fullShare} mulRows g s)
            ∗ ((scaleM).view.loc (thrV d L) ↦{fullShare} s)) := by
  unfold loop0At
  iintro ⟨Hrows, Hscale⟩
  sl_for (invV0 (F := F) d L g s) $$ [Hrows Hscale]
  case region =>
    intro k _
    unfold invV0
    iintro ⟨Hrows, Hscale⟩
    iapply (wp_wand_r Idealize.ShloMosaic.frame (wpE (defs₀ (F := F)) 𝒱₀ (thrV d L) none) Set.univ)
    isplitl [Hrows Hscale]
    · iapply ((tripRun0 (F := F) d L v2 t arg18 v156 s k).2 _)
      isplitl [Hrows]
      · iexact Hrows
      · iexact Hscale
    · iintro %_ ⟨Hrows, Hscale⟩
      isplitl [Hrows]
      · iapply (Entails.of_eq (pointsTo_congr (fun idx hidx =>
          (htrip k _ idx hidx).trans (congrFun (mulBand_mulUpTo k.val g s) idx))))
        iexact Hrows
      · iexact Hscale
  unfold invV0
  isplitl [Hrows Hscale]
  · isplitl [Hrows]
    · rw [Nat.mul_zero, mulUpTo_zero]; iexact Hrows
    · iexact Hscale
  · iintro %_ ⟨Hrows, Hscale⟩
    isplitl [Hrows]
    · rw [show 16 * Scf.trips k0_t2_loop.lb k0_t2_loop.ub k0_t2_loop.st = 128 from by decide, mulUpTo_full]
      iexact Hrows
    · iexact Hscale

end Cert.KB

end
-- ==== Proof.KB.MulTrip0.lean ====
/-
  One trip of the inner multiply loop of the first half-trip, by its value, and the loop with its value.  The 128 stores
  of a trip, each of a block of sixteen entries of a row times the row's lane of the scale vector, leave the band of
  sixteen rows scaled and everything else as it was: after j of them the entries stored so far are scaled, and one
  store takes j to j + 1, its rectangle being fresh, so that what it loads is what the band held at the start.
-/
import proofs.«206556_g62818191671566_cont_9to1_m_1093_40_alg».proof.Proof.KB.MulValue0

noncomputable section

namespace Cert.KB

open Cert.Kernel Cert.Kernel.Gen
open Idealize.ShloMosaic
open Idealize.ShloMosaic.ValueIdx

variable {F : FTy → Type} [FloatOps F]

omit [FloatOps F] in
/-- An element of the first half lies in plane 0 of the row buffer. -/
theorem mem_rows0 {idx : S2x128x128.Idx} (h : idx ∈ (rows0M).view.set) : (idx 0).val = 0 := by
  have e1 : (rows0M).view.set = _ :=
    View.set_slice (rowsM).view (Rect.unit (s := S2x128x128) ![0, 0, 0] S1x128x128.size inb_S2x128x128_S1x128x128_0_0_0)
  rw [e1] at h
  obtain ⟨i, hi, rfl⟩ := Finset.mem_map.mp h
  have h0 : 0 ≤ (i 0).val ∧ (i 0).val < 0 + 1 := (Rect.mem_set_unit.mp hi) 0
  show (i 0).val = 0
  omega

/-! ## The 128 stores of a trip -/

open Lean Elab Tactic Meta in
/-- The chain of a trip's stores: for j = 1 … 128 the fact that the contents after j stores are the starting contents
    with the first j blocks scaled, each from the one before by the step lemma, its payload read in closed form. -/
elab "trip0_steps " d:ident L:ident s:ident k:ident g:ident hk:ident : tactic => do
  let env ← getEnv
  let slPre : Name := `Cert.KB.tripRun0.sl
  let genPre : Name := `Cert.Kernel.Gen
  let names := env.constants.fold (init := (#[] : Array Name)) fun acc n _ =>
    match n with
    | .str p str =>
      if p == slPre && !(str.startsWith "Hrows_w") then acc.push n
      else if p == genPre && str.startsWith "k0_pay" then acc.push n
      else acc
    | _ => acc
  let ids : Array (TSyntax `Lean.Parser.Tactic.simpLemma) ← names.mapM fun n =>
    `(Lean.Parser.Tactic.simpLemma| $(mkIdent n):ident)
  for j in [1:129] do
    let i := (j - 1) / 8
    let c := (j - 1) % 8
    let iLit := Syntax.mkNumLit (toString i)
    let cLit := Syntax.mkNumLit (toString c)
    let jLit := Syntax.mkNumLit (toString j)
    let offEq := mkIdent (.mkSimple s!"off{14 + c}_eq")
    let hj := mkIdent (.mkSimple s!"hw{j}")
    let hprev := mkIdent (.mkSimple s!"hw{j - 1}")
    let wj := mkIdent (slPre ++ .mkSimple s!"Hrows_w{j}")
    let wprev : TSyntax `term ← if j == 1 then `($g) else
      `($(mkIdent (slPre ++ .mkSimple s!"Hrows_w{j - 1}")) $d $L $s $k $g)
    evalTactic (← `(tactic|
      have $hj : ∀ idx : S2x128x128.Idx, (idx 0).val = 0 → $wj $d $L $s $k $g idx = mulDone ($k).val $jLit $g $s idx :=
        fun idx h0 => step_done 0 (by decide) ($k).val $iLit $cLit $hk (by decide) (by decide) _ _
          ($offEq $k ⟨$iLit, by decide⟩) $g $wprev $s _ $hprev
          (fun x => by
            simp only [$ids,*, shapeCast_16_1x1x16, shapeCast_1x1x16_16, shapeCast_16_16, mulf, broadcast, extractAt,
              extractStridedSlice]
            exact pay_fin 0 (by decide) ($k).val $iLit $cLit $hk (by decide) (by decide) ($offEq $k ⟨$iLit, by decide⟩)
              (off13_eq $k) $wprev $s (x 2).val (x 2).isLt (by rfl) (by rfl))
          idx h0))

set_option maxHeartbeats 8000000 in
set_option maxRecDepth 8192 in
/-- What one trip leaves in the half, on the half's own elements: the band of the trip scaled. -/
theorem tripValue0 (d : Dev nD) (L : grid0.Coords) (v2 : BitVec 32) (t : Fin k0_t1_loop.trips) (arg18 v156 : BitVec 32)
    (s : Buf (Elt F) ((scaleM).view.loc (thrV d L))) : TripValue0 (F := F) d L v2 t arg18 v156 s := by
  intro k g' idx hidx
  have h0 : (idx 0).val = 0 := mem_rows0 hidx
  have hk : k.val < 8 := k.isLt
  have hw0 : ∀ idx : S2x128x128.Idx, (idx 0).val = 0 → g' idx = mulDone k.val 0 g' s idx :=
    fun idx _ => (congrFun (mulDone_zero k.val g' s) idx).symm
  trip0_steps d L s k g' hk
  show tripRun0.sl.Hrows_w128 d L s k g' idx = _
  rw [hw128 idx h0, mulDone_full]

section Loop
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt F) ℕ UU ℕ

/-- The loop of the first half-trip, with its value: every entry of the half is scaled by its row's entry of the
    scale vector; the scale vector is unchanged. -/
theorem mul_loop0 (d : Dev nD) (L : grid0.Coords) (v2 : BitVec 32) (t : Fin k0_t1_loop.trips) (arg18 v156 : BitVec 32)
    (g : Buf (Elt F) ((rows0M).view.loc (thrV d L))) (s : Buf (Elt F) ((scaleM).view.loc (thrV d L))) :
    (iprop(((rows0M).view.loc (thrV d L) ↦[(rows0M).view.set]{fullShare} g)
        ∗ ((scaleM).view.loc (thrV d L) ↦{fullShare} s)) : sProp 𝕄)
      ⊢ wp frame (wpE (defs₀ (F := F)) 𝒱₀ (thrV d L) none) Set.univ (loop0At (F := F) L v2 t arg18 v156)
          fun _ => iprop(((rows0M).view.loc (thrV d L) ↦[(rows0M).view.set]{fullShare} mulRows g s)
            ∗ ((scaleM).view.loc (thrV d L) ↦{fullShare} s)) :=
  mul_loop0_of d L v2 t arg18 v156 g s (tripValue0 d L v2 t arg18 v156 s)

end Loop

end Cert.KB

end
-- ==== Proof.KB.MulBridge.lean ====
/-
  The multiply loops' result at the chunk's canonical contents: the gathered rows scaled row by row by the chunk's scale
  vector are the chunk's product.
-/
import proofs.«206556_g62818191671566_cont_9to1_m_1093_40_alg».proof.Proof.KB.Vals
import proofs.«206556_g62818191671566_cont_9to1_m_1093_40_alg».proof.Proof.KB.MulStep

noncomputable section

namespace Cert.KB

open Cert.Kernel Cert.Kernel.Gen
open Idealize.ShloMosaic
open Idealize.ShloMosaic.ValueIdx

variable {F : FTy → Type} [FloatOps F] (m : (ℓ : Loc nD τ sig) → Buf (Elt F) ℓ)

/-- At every index: the row's entry times the row's scale is the product's entry (a row index is below 128, so its
    reduction modulo 128 is itself). -/
theorem mulRows_vals_apply (d : Dev nD) (L : grid0.Coords) (c : ℕ) (x : S2x128x128.Idx) :
    mulRows (rowsVal m d L c) (scaleVal m d L c) x = prodVal m d L c x := by
  have hx : (ix1 (x 1) : S128.Idx) = ix1 (⟨(x 1).val % 128, Nat.mod_lt _ (by norm_num)⟩ : Fin 128) := by
    funext a; refine Fin.ext ?_
    match a with
    | ⟨0, _⟩ =>
      show (x 1).val = (x 1).val % 128
      exact (Nat.mod_eq_of_lt (show (x 1).val < 128 from (x 1).isLt)).symm
  unfold mulRows prodVal
  rw [hx]

theorem mulRows_vals (d : Dev nD) (L : grid0.Coords) (c : ℕ) :
    mulRows (rowsVal m d L c) (scaleVal m d L c) = prodVal m d L c :=
  funext (mulRows_vals_apply m d L c)

end Cert.KB

end
-- ==== Proof.KB.OutWrite.lean ====
/-
  A written-out chunk's value.  A write-out copies a half of the row scratch, named as a 128 × 128 block, onto a chunk
  of the worker's rows of the flat result.  Entry (a, b) of the block is entry (a, b) of the half, and lands at row
  `6400 w + 128 (2 k + r) + a`, column b of the flat result; where the half holds the chunk's scaled rows, that is the
  flat result's final value there.
-/
import proofs.«206556_g62818191671566_cont_9to1_m_1093_40_alg».proof.Proof.KB.OutVal

noncomputable section

namespace Cert.KB

open Cert.Kernel Cert.Kernel.Gen

open Idealize.ShloMosaic
open Idealize.ShloMosaic.SparseCore (S V T)
open Idealize.ShloMosaic.ValueIdx

variable {F : FTy → Type}

/-- Where entry (a, b) of chunk `2 k + r`, as the program slices it, sits in the flat result. -/
theorem outChunk_emb (L : grid0.Coords) (k : Fin k0_t1_loop.trips) (r : Fin 2) (a b : Fin 128)
    (hlt : posN L (2 * k.val + r.val) a.val < 204800) :
    (outChunk L k r).view.emb (ix2 a b)
      = (ix2 (⟨posN L (2 * k.val + r.val) a.val, hlt⟩ : Fin 204800) b : S204800x128.Idx) := by
  show (Rect.unit (s := S204800x128) (k0_off22 L k (BitVec.ofNat 32 r.val)) S128x128.size (k0_off22_inb L k r)).emb (ix2 a b) = _
  have h0 : k0_off22 L k (BitVec.ofNat 32 r.val) 0
      = 12800 * (L 1).val + 6400 * (L 0).val + 256 * k.val + 128 * r.val := by rw [k0_off22_eq]; rfl
  have h1 : k0_off22 L k (BitVec.ofNat 32 r.val) 1 = 0 := by rw [k0_off22_eq]; rfl
  have hp : posN L (2 * k.val + r.val) a.val = (2 * (L 1).val + (L 0).val) * 6400 + (2 * k.val + r.val) * 128 + a.val := rfl
  funext i
  apply Fin.ext
  rw [Rect.emb_apply]
  match i with
  | ⟨0, _⟩ => show k0_off22 L k (BitVec.ofNat 32 r.val) 0 + 1 * a.val = posN L (2 * k.val + r.val) a.val; omega
  | ⟨1, _⟩ => show k0_off22 L k (BitVec.ofNat 32 r.val) 1 + 1 * b.val = b.val; omega

variable [FloatOps F] (m : (ℓ : Loc nD τ sig) → Buf (Elt F) ℓ)

/-- The write-out of the first half onto chunk `2 k`: if the half holds the chunk's scaled rows, the chunk's rows of the
    flat result hold their final value afterwards. -/
theorem chunk_written0 (hpre : PreOK m) (d : Dev nD) (L : grid0.Coords) (k : Fin k0_t1_loop.trips)
    (g : Buf (Elt F) ((thrV d L).loc cc0_scratch4))
    (hg : ∀ y ∈ (rows0H).view.set, g y = prodVal m d L (2 * k.val) y) :
    ∀ x ∈ (outChunk L k 0).view.set,
      (outChunk L k 0).view.writes (Elt F) (m (outLoc d))
        [⟨Rect.whole S128x128, ReadAs.same.apply (View.read (Elt F) (rows0G).view g)⟩] x = outV m d x := by
  intro x hx
  obtain ⟨y, -, rfl⟩ := Finset.mem_map.mp hx
  obtain ⟨a, b, rfl⟩ : ∃ (a b : Fin 128), y = ix2 a b := ⟨y 0, y 1, eq_ix2 y⟩
  have hk := trip_lt k
  have hc : 2 * k.val + (0 : Fin 2).val < 50 := by
    have : ((0 : Fin 2)).val = 0 := rfl
    omega
  have hlt : posN L (2 * k.val + (0 : Fin 2).val) a.val < 204800 := posN_lt L _ _ hc a.isLt
  rw [ReadAs.apply_same, View.writes_singleton]
  have he : ((outChunk L k 0).view.slice (Rect.whole S128x128)).emb (ix2 a b) = (outChunk L k 0).view.emb (ix2 a b) := by
    show (outChunk L k 0).view.emb ((Rect.whole S128x128).emb (ix2 a b)) = _
    rw [Rect.emb_whole_apply]
  have hw := View.write_emb_of_mem (v := (outChunk L k 0).view.slice (Rect.whole S128x128)) (Val := Elt F) (m (outLoc d))
    (View.read (Elt F) (rows0G).view g) (M := Finset.univ) (x := ix2 a b) (Finset.mem_univ _)
  rw [he] at hw
  refine hw.trans ?_
  -- the payload at (a, b) is the half's entry (a, b)
  have e1 : (rows0G).view.emb (ix2 a b) = (ix3 (0 : Fin 2) a b : S2x128x128.Idx) :=
    rowsBlk_emb ![0, 0, 0] inb_S2x128x128_S1x128x128_0_0_0 (0 : Fin 2) rfl a b
  have hmem : (ix3 (0 : Fin 2) a b : S2x128x128.Idx) ∈ ((rows0H).view.set : Finset S2x128x128.Idx) := by
    rw [set_rows0H]
    refine Rect.mem_set_unit.mpr fun i => ?_
    have ha := a.isLt
    have hb := b.isLt
    match i with
    | ⟨0, _⟩ => show 0 ≤ 0 ∧ 0 < 0 + 1; omega
    | ⟨1, _⟩ => show 0 ≤ a.val ∧ a.val < 0 + 128; omega
    | ⟨2, _⟩ => show 0 ≤ b.val ∧ b.val < 0 + 128; omega
  have r1 : View.read (Elt F) (rows0G).view g (ix2 a b)
      = (prodVal m d L (2 * k.val + (0 : Fin 2).val) : FVec F S2x128x128 .f32) (ix3 (0 : Fin 2) a b) := by
    rw [View.read_apply, e1]
    exact hg _ hmem
  -- the chunk's place (a, b) is row posN L (2 k + r) a, column b of the flat result
  have e2 : (outChunk L k 0).view.emb (ix2 a b)
      = (ix2 (⟨posN L (2 * k.val + (0 : Fin 2).val) a.val, hlt⟩ : Fin 204800) b : S204800x128.Idx) :=
    outChunk_emb L k 0 a b hlt
  rw [r1, e2]
  exact (outV_prod m hpre d L (2 * k.val + (0 : Fin 2).val) hc (0 : Fin 2) a b hlt).symm

/-- The write-out of the second half onto chunk `2 k + 1`: if the half holds the chunk's scaled rows, the chunk's rows of the
    flat result hold their final value afterwards. -/
theorem chunk_written1 (hpre : PreOK m) (d : Dev nD) (L : grid0.Coords) (k : Fin k0_t1_loop.trips)
    (g : Buf (Elt F) ((thrV d L).loc cc0_scratch4))
    (hg : ∀ y ∈ (rows1H).view.set, g y = prodVal m d L (2 * k.val + 1) y) :
    ∀ x ∈ (outChunk L k 1).view.set,
      (outChunk L k 1).view.writes (Elt F) (m (outLoc d))
        [⟨Rect.whole S128x128, ReadAs.same.apply (View.read (Elt F) (rows1G).view g)⟩] x = outV m d x := by
  intro x hx
  obtain ⟨y, -, rfl⟩ := Finset.mem_map.mp hx
  obtain ⟨a, b, rfl⟩ : ∃ (a b : Fin 128), y = ix2 a b := ⟨y 0, y 1, eq_ix2 y⟩
  have hk := trip_lt k
  have hc : 2 * k.val + (1 : Fin 2).val < 50 := by
    have : ((1 : Fin 2)).val = 1 := rfl
    omega
  have hlt : posN L (2 * k.val + (1 : Fin 2).val) a.val < 204800 := posN_lt L _ _ hc a.isLt
  rw [ReadAs.apply_same, View.writes_singleton]
  have he : ((outChunk L k 1).view.slice (Rect.whole S128x128)).emb (ix2 a b) = (outChunk L k 1).view.emb (ix2 a b) := by
    show (outChunk L k 1).view.emb ((Rect.whole S128x128).emb (ix2 a b)) = _
    rw [Rect.emb_whole_apply]
  have hw := View.write_emb_of_mem (v := (outChunk L k 1).view.slice (Rect.whole S128x128)) (Val := Elt F) (m (outLoc d))
    (View.read (Elt F) (rows1G).view g) (M := Finset.univ) (x := ix2 a b) (Finset.mem_univ _)
  rw [he] at hw
  refine hw.trans ?_
  -- the payload at (a, b) is the half's entry (a, b)
  have e1 : (rows1G).view.emb (ix2 a b) = (ix3 (1 : Fin 2) a b : S2x128x128.Idx) :=
    rowsBlk_emb ![1, 0, 0] inb_S2x128x128_S1x128x128_1_0_0 (1 : Fin 2) rfl a b
  have hmem : (ix3 (1 : Fin 2) a b : S2x128x128.Idx) ∈ ((rows1H).view.set : Finset S2x128x128.Idx) := by
    rw [set_rows1H]
    refine Rect.mem_set_unit.mpr fun i => ?_
    have ha := a.isLt
    have hb := b.isLt
    match i with
    | ⟨0, _⟩ => show 1 ≤ 1 ∧ 1 < 1 + 1; omega
    | ⟨1, _⟩ => show 0 ≤ a.val ∧ a.val < 0 + 128; omega
    | ⟨2, _⟩ => show 0 ≤ b.val ∧ b.val < 0 + 128; omega
  have r1 : View.read (Elt F) (rows1G).view g (ix2 a b)
      = (prodVal m d L (2 * k.val + (1 : Fin 2).val) : FVec F S2x128x128 .f32) (ix3 (1 : Fin 2) a b) := by
    rw [View.read_apply, e1]
    exact hg _ hmem
  -- the chunk's place (a, b) is row posN L (2 k + r) a, column b of the flat result
  have e2 : (outChunk L k 1).view.emb (ix2 a b)
      = (ix2 (⟨posN L (2 * k.val + (1 : Fin 2).val) a.val, hlt⟩ : Fin 204800) b : S204800x128.Idx) :=
    outChunk_emb L k 1 a b hlt
  rw [r1, e2]
  exact (outV_prod m hpre d L (2 * k.val + (1 : Fin 2).val) hc (1 : Fin 2) a b hlt).symm

end Cert.KB

end
-- ==== Proof.KB.NormW.lean ====
/-
  What the odd chunk's write-out delivers at its wait, in the loop invariant's own words.  The rule states the delivery
  over the chunk's block of the flat result with the payload written on it, and over the block of the row buffer the
  payload was read from; the invariant states it over the chunk's rows of the flat result at their final value, and over
  the second half of the row buffer.  The two agree: the half holds the chunk's scaled rows, so the block written holds
  the final value on its elements; and the block and the half have the same elements.
-/
import proofs.«206556_g62818191671566_cont_9to1_m_1093_40_alg».proof.Proof.KB.Inv
import proofs.«206556_g62818191671566_cont_9to1_m_1093_40_alg».proof.Proof.KB.Respell
import proofs.«206556_g62818191671566_cont_9to1_m_1093_40_alg».proof.Proof.KB.Sets
import proofs.«206556_g62818191671566_cont_9to1_m_1093_40_alg».proof.Proof.KB.OutWrite

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (m : (ℓ : Loc nD τ sig) → Buf (Elt F) ℓ) (d : Dev nD) (L : grid0.Coords)

/-- The write-out of the odd chunk of trip k, from the second half holding the chunk's scaled rows. -/
theorem norm_w1 (hpre : PreOK m) (k : Fin k0_t1_loop.trips) :
    (iprop(((outChunk L k 1).view.loc (thrV d L) ↦[(outChunk L k 1).view.set]{fullShare}
          (outChunk L k 1).view.writes (Elt F) (m (outLoc d))
            [⟨Rect.whole S128x128, ReadAs.same.apply (View.read (Elt F) (rows1G).view (prodVal m d L (2 * k.val + 1)))⟩])
        ∗ ((rows1G).view.loc (thrV d L) ↦[(rows1G).view.set]{fullShare} prodVal m d L (2 * k.val + 1))) : sProp 𝕄)
      ⊢ Dw1 m d L (2 * k.val + 1) := by
  unfold Dw1
  have eA : ((outChunk L k 1).view.loc (thrV d L) ↦[(outChunk L k 1).view.set]{fullShare}
        (outChunk L k 1).view.writes (Elt F) (m (outLoc d))
          [⟨Rect.whole S128x128, ReadAs.same.apply (View.read (Elt F) (rows1G).view (prodVal m d L (2 * k.val + 1)))⟩] : sProp 𝕄)
      = (outLoc d ↦[chunkSet L (2 * k.val + 1)]{fullShare} outV m d) := by
    rw [show (outLoc d ↦[chunkSet L (2 * k.val + 1)]{fullShare} outV m d : sProp 𝕄)
        = ((outChunk L k 1).view.loc (thrV d L) ↦[(outChunk L k 1).view.set]{fullShare} outV m d) from by
          rw [set_outChunk]; rfl]
    exact pointsTo_congr (chunk_written1 m hpre d L k (prodVal m d L (2 * k.val + 1)) (fun y _ => rfl))
  have eB : ((rows1G).view.loc (thrV d L) ↦[(rows1G).view.set]{fullShare} prodVal m d L (2 * k.val + 1) : sProp 𝕄)
      = ((rows1H).view.loc (thrV d L) ↦[(rows1H).view.set]{fullShare} prodVal m d L (2 * k.val + 1)) :=
    (respell_rowsG1 d L fullShare (prodVal m d L (2 * k.val + 1))).symm
  rw [eA, eB]

end Cert.KB

end
-- ==== Proof.KB.ScaleVal.lean ====
/-
  The scale vector's value.  A half-trip fills the scale scratch sixteen lanes at a time: it loads sixteen draws of the
  chunk from a row of the draw scratch, compares each with one half, and stores 2 where the draw is below and 0
  elsewhere.  Lane by lane each stored piece is the chunk's scale at its place, whichever row the draws were read from
  (the draws of a chunk are the same function on either row), and the eight pieces tile the scratch: so after the eight
  stores the scale scratch holds the chunk's scales, whatever it held before.
-/
import proofs.«206556_g62818191671566_cont_9to1_m_1093_40_alg».proof.Proof.KB.OutVal
import Idealize.ShloMosaic.Lib.Pipeline.Value

noncomputable section

namespace Cert.KB

open Cert.Kernel Cert.Kernel.Gen

open Idealize.ShloMosaic
open Idealize.ShloMosaic.SparseCore (S V T)
open Idealize.ShloMosaic.ValueIdx

variable {F : FTy → Type} [FloatOps F]

/-! ## One lane -/

/-- The scale of one draw: 2 where it is below one half, 0 elsewhere. -/
def scaleAt (x : F .f32) : F .f32 :=
  Scalar.select (FloatOps.cmpf .olt x (Scalar.ofBits .f32 0x3F000000#32)) (Scalar.ofBits .f32 0x40000000#32)
    (Scalar.ofBits .f32 0x00000000#32)

/-- What a half-trip stores for sixteen loaded draws: the program's vector operations, in its order. -/
def lanePay (v : Vec F S1x16 .f32) : FVec F S16 .f32 :=
  shapeCast S16
    (select (cmpf .olt (shapeCast S16 v shapeCasts_S1x16_S16 : FVec F S16 .f32) (broadcast S16 (Scalar.ofBits .f32 0x3F000000#32)))
      (broadcast S16 (Scalar.ofBits .f32 0x40000000#32) : FVec F S16 .f32) (broadcast S16 (Scalar.ofBits .f32 0x00000000#32)))
    shapeCasts_S16_S16

/-- Lane ℓ of the stored piece is the scale of the ℓ-th loaded draw. -/
theorem lanePay_apply (v : Vec F S1x16 .f32) (ℓ : Fin 16) : lanePay v (ix1 ℓ) = scaleAt (v (ix2 (0 : Fin 1) ℓ)) := by
  unfold lanePay
  rw [shapeCast_self]
  show Scalar.select (FloatOps.cmpf .olt ((shapeCast S16 v shapeCasts_S1x16_S16 : FVec F S16 .f32) (ix1 ℓ))
      (Scalar.ofBits .f32 0x3F000000#32)) (Scalar.ofBits .f32 0x40000000#32) (Scalar.ofBits .f32 0x00000000#32) = _
  rw [shapeCast_apply v shapeCasts_S1x16_S16 (ix1 ℓ) (ix2 (0 : Fin 1) ℓ) (by
    rw [Shape.rowMajor_val_two, Shape.rowMajor_val_one]
    show 0 * 16 + ℓ.val = ℓ.val
    omega)]
  rfl

/-! ## The program's payloads are that function -/

theorem pay353_eq (v : Vec F S1x16 .f32) : k0_pay353 v = lanePay v := rfl
theorem pay357_eq (v : Vec F S1x16 .f32) : k0_pay357 (k0_pay354 v) k0_pay355 k0_pay356 = lanePay v := rfl
theorem pay358_eq (v : Vec F S1x16 .f32) : k0_pay358 v = lanePay v := rfl
theorem pay359_eq (v : Vec F S1x16 .f32) : k0_pay359 v = lanePay v := rfl
theorem pay360_eq (v : Vec F S1x16 .f32) : k0_pay360 v = lanePay v := rfl
theorem pay361_eq (v : Vec F S1x16 .f32) : k0_pay361 v = lanePay v := rfl
theorem pay362_eq (v : Vec F S1x16 .f32) : k0_pay362 v = lanePay v := rfl
theorem pay363_eq (v : Vec F S1x16 .f32) : k0_pay363 v = lanePay v := rfl
theorem pay367_eq (v : Vec F S1x16 .f32) : k0_pay367 v = lanePay v := rfl
theorem pay368_eq (v : Vec F S1x16 .f32) : k0_pay368 v = lanePay v := rfl
theorem pay369_eq (v : Vec F S1x16 .f32) : k0_pay369 v = lanePay v := rfl
theorem pay372_eq (v : Vec F S1x16 .f32) : k0_pay372 (k0_pay370 v) k0_pay371 = lanePay v := rfl
theorem pay373_eq (v : Vec F S1x16 .f32) : k0_pay373 v = lanePay v := rfl
theorem pay374_eq (v : Vec F S1x16 .f32) : k0_pay374 v = lanePay v := rfl
theorem pay376_eq (v : Vec F S1x16 .f32) : k0_pay376 (k0_pay375 v) = lanePay v := rfl
theorem pay377_eq (v : Vec F S1x16 .f32) : k0_pay377 v = lanePay v := rfl

variable (m : (ℓ : Loc nD τ sig) → Buf (Elt F) ℓ)

/-! ## One piece -/

/-- The piece stored at lanes o .. o + 15, computed from the draws loaded at row hh, lanes o .. o + 15, is the chunk's
    scales there. -/
theorem scale_piece (d : Dev nD) (L : grid0.Coords) (c hh o : ℕ) (ho : o + 16 ≤ 128)
    (inb1 : ∀ a, (![o] : Fin 1 → ℕ) a + S16.size a ≤ S128.size a)
    (inb2 : ∀ a, (![hh, o] : Fin 2 → ℕ) a + S1x16.size a ≤ S2x128.size a) (x : S16.Idx) :
    lanePay (View.readAt (Elt F) mvalM.view (Rect.unit (s := S2x128) ![hh, o] S1x16.size inb2).toLoadRect (mvalVal m d L c)) x
      = (scaleVal m d L c : FVec F S128 .f32) ((Rect.unit (s := S128) ![o] S16.size inb1).emb x) := by
  obtain ⟨ℓ, rfl⟩ : ∃ ℓ : Fin 16, x = ix1 ℓ := ⟨x 0, eq_ix1 x⟩
  have hl : ℓ.val < 16 := ℓ.isLt
  rw [lanePay_apply]
  have q1 : midxN m d L c (o + 1 * ℓ.val) % 4096000 < 4096000 := Nat.mod_lt _ (by norm_num)
  have q2 : midxN m d L c ((o + 1 * ℓ.val) % 128) % 4096000 < 4096000 := Nat.mod_lt _ (by norm_num)
  show scaleAt ((uflatV m d : FVec F S4096000 .f32) (ix1 (⟨midxN m d L c (o + 1 * ℓ.val) % 4096000, q1⟩ : Fin 4096000)))
    = scaleAt ((uflatV m d : FVec F S4096000 .f32) (ix1 (⟨midxN m d L c ((o + 1 * ℓ.val) % 128) % 4096000, q2⟩ : Fin 4096000)))
  have hAB : (o + 1 * ℓ.val) % 128 = o + 1 * ℓ.val := by omega
  congr 1
  exact at_ix1_congr _ (by show midxN m d L c (o + 1 * ℓ.val) % 4096000 = midxN m d L c ((o + 1 * ℓ.val) % 128) % 4096000; rw [hAB])

/-! ## The eight stores of a half-trip -/

/-- The values the first half-trip carries from its second load to its second store: two words, the comparison's
    bits, and the two constant vectors. -/
abbrev scaleT0 (d : Dev nD) (L : grid0.Coords) (c : ℕ) (a b : BitVec 32) :
    BitVec 32 × BitVec 32 × IVec S16 1 × FVec F S16 .f32 × FVec F S16 .f32 :=
  ⟨a, ⟨b, ⟨k0_pay354 (View.readAt (Elt F) mvalM.view (Rect.unit (s := S2x128) ![0, 16] S1x16.size inb_S2x128_S1x16_0_16).toLoadRect (mvalVal m d L c)), ⟨k0_pay355, k0_pay356⟩⟩⟩⟩

/-- The scale scratch after the eight stores of a half-trip that read chunk c's draws from row 0 (last store first). -/
abbrev scaleList0 (d : Dev nD) (L : grid0.Coords) (c : ℕ) (a b : BitVec 32) : List (View.Piece (Elt F) S128 .f32) :=
  [⟨Rect.unit (s := S128) ![112] S16.size inb_S128_S16_112, k0_pay363 (View.readAt (Elt F) mvalM.view (Rect.unit (s := S2x128) ![0, 112] S1x16.size inb_S2x128_S1x16_0_112).toLoadRect (mvalVal m d L c))⟩,
   ⟨Rect.unit (s := S128) ![96] S16.size inb_S128_S16_96, k0_pay362 (View.readAt (Elt F) mvalM.view (Rect.unit (s := S2x128) ![0, 96] S1x16.size inb_S2x128_S1x16_0_96).toLoadRect (mvalVal m d L c))⟩,
   ⟨Rect.unit (s := S128) ![80] S16.size inb_S128_S16_80, k0_pay361 (View.readAt (Elt F) mvalM.view (Rect.unit (s := S2x128) ![0, 80] S1x16.size inb_S2x128_S1x16_0_80).toLoadRect (mvalVal m d L c))⟩,
   ⟨Rect.unit (s := S128) ![64] S16.size inb_S128_S16_64, k0_pay360 (View.readAt (Elt F) mvalM.view (Rect.unit (s := S2x128) ![0, 64] S1x16.size inb_S2x128_S1x16_0_64).toLoadRect (mvalVal m d L c))⟩,
   ⟨Rect.unit (s := S128) ![48] S16.size inb_S128_S16_48, k0_pay359 (View.readAt (Elt F) mvalM.view (Rect.unit (s := S2x128) ![0, 48] S1x16.size inb_S2x128_S1x16_0_48).toLoadRect (mvalVal m d L c))⟩,
   ⟨Rect.unit (s := S128) ![32] S16.size inb_S128_S16_32, k0_pay358 (View.readAt (Elt F) mvalM.view (Rect.unit (s := S2x128) ![0, 32] S1x16.size inb_S2x128_S1x16_0_32).toLoadRect (mvalVal m d L c))⟩,
   ⟨Rect.unit (s := S128) ![16] S16.size inb_S128_S16_16, k0_pay357 (scaleT0 m d L c a b).2.2.fst (scaleT0 m d L c a b).2.2.2.fst (scaleT0 m d L c a b).2.2.2.snd⟩,
   ⟨Rect.unit (s := S128) ![0] S16.size inb_S128_S16_0, k0_pay353 (View.readAt (Elt F) mvalM.view (Rect.unit (s := S2x128) ![0, 0] S1x16.size inb_S2x128_S1x16_0_0).toLoadRect (mvalVal m d L c))⟩]

/-- The same for a half-trip that read them from row 1. -/
abbrev scaleList1 (d : Dev nD) (L : grid0.Coords) (c : ℕ) : List (View.Piece (Elt F) S128 .f32) :=
  [⟨Rect.unit (s := S128) ![112] S16.size inb_S128_S16_112, k0_pay377 (View.readAt (Elt F) mvalM.view (Rect.unit (s := S2x128) ![1, 112] S1x16.size inb_S2x128_S1x16_1_112).toLoadRect (mvalVal m d L c))⟩,
   ⟨Rect.unit (s := S128) ![96] S16.size inb_S128_S16_96, k0_pay376 (k0_pay375 (View.readAt (Elt F) mvalM.view (Rect.unit (s := S2x128) ![1, 96] S1x16.size inb_S2x128_S1x16_1_96).toLoadRect (mvalVal m d L c)))⟩,
   ⟨Rect.unit (s := S128) ![80] S16.size inb_S128_S16_80, k0_pay374 (View.readAt (Elt F) mvalM.view (Rect.unit (s := S2x128) ![1, 80] S1x16.size inb_S2x128_S1x16_1_80).toLoadRect (mvalVal m d L c))⟩,
   ⟨Rect.unit (s := S128) ![64] S16.size inb_S128_S16_64, k0_pay373 (View.readAt (Elt F) mvalM.view (Rect.unit (s := S2x128) ![1, 64] S1x16.size inb_S2x128_S1x16_1_64).toLoadRect (mvalVal m d L c))⟩,
   ⟨Rect.unit (s := S128) ![48] S16.size inb_S128_S16_48, k0_pay372 (k0_pay370 (View.readAt (Elt F) mvalM.view (Rect.unit (s := S2x128) ![1, 48] S1x16.size inb_S2x128_S1x16_1_48).toLoadRect (mvalVal m d L c))) k0_pay371⟩,
   ⟨Rect.unit (s := S128) ![32] S16.size inb_S128_S16_32, k0_pay369 (View.readAt (Elt F) mvalM.view (Rect.unit (s := S2x128) ![1, 32] S1x16.size inb_S2x128_S1x16_1_32).toLoadRect (mvalVal m d L c))⟩,
   ⟨Rect.unit (s := S128) ![16] S16.size inb_S128_S16_16, k0_pay368 (View.readAt (Elt F) mvalM.view (Rect.unit (s := S2x128) ![1, 16] S1x16.size inb_S2x128_S1x16_1_16).toLoadRect (mvalVal m d L c))⟩,
   ⟨Rect.unit (s := S128) ![0] S16.size inb_S128_S16_0, k0_pay367 (View.readAt (Elt F) mvalM.view (Rect.unit (s := S2x128) ![1, 0] S1x16.size inb_S2x128_S1x16_1_0).toLoadRect (mvalVal m d L c))⟩]

/-- After the eight stores of a half-trip reading row 0 the scale scratch holds chunk c's scales. -/
theorem scale_filled0 (d : Dev nD) (L : grid0.Coords) (c : ℕ) (a b : BitVec 32) :
    ∀ y, scaleM.view.writes (Elt F) scaleM.view.junk (scaleList0 m d L c a b) y = scaleVal m d L c y := by
  intro y
  refine View.read_writes_apply_of_pieces (v := scaleM.view) (f := scaleM.view.junk)
    (scaleVal m d L c : FVec F S128 .f32) (scaleList0 m d L c a b) ?_ y
    (View.cover_of_tiled (scaleList0 m d L c a b) S16.size rfl y)
  intro p hp
  simp only [List.mem_cons, List.mem_nil_iff, or_false] at hp
  rcases hp with rfl | rfl | rfl | rfl | rfl | rfl | rfl | rfl
  · intro x; exact scale_piece m d L c 0 112 (by omega) inb_S128_S16_112 inb_S2x128_S1x16_0_112 x
  · intro x; exact scale_piece m d L c 0 96 (by omega) inb_S128_S16_96 inb_S2x128_S1x16_0_96 x
  · intro x; exact scale_piece m d L c 0 80 (by omega) inb_S128_S16_80 inb_S2x128_S1x16_0_80 x
  · intro x; exact scale_piece m d L c 0 64 (by omega) inb_S128_S16_64 inb_S2x128_S1x16_0_64 x
  · intro x; exact scale_piece m d L c 0 48 (by omega) inb_S128_S16_48 inb_S2x128_S1x16_0_48 x
  · intro x; exact scale_piece m d L c 0 32 (by omega) inb_S128_S16_32 inb_S2x128_S1x16_0_32 x
  · intro x; exact scale_piece m d L c 0 16 (by omega) inb_S128_S16_16 inb_S2x128_S1x16_0_16 x
  · intro x; exact scale_piece m d L c 0 0 (by omega) inb_S128_S16_0 inb_S2x128_S1x16_0_0 x

/-- After the eight stores of a half-trip reading row 1 the scale scratch holds chunk c's scales. -/
theorem scale_filled1 (d : Dev nD) (L : grid0.Coords) (c : ℕ) :
    ∀ y, scaleM.view.writes (Elt F) scaleM.view.junk (scaleList1 m d L c) y = scaleVal m d L c y := by
  intro y
  refine View.read_writes_apply_of_pieces (v := scaleM.view) (f := scaleM.view.junk)
    (scaleVal m d L c : FVec F S128 .f32) (scaleList1 m d L c) ?_ y
    (View.cover_of_tiled (scaleList1 m d L c) S16.size rfl y)
  intro p hp
  simp only [List.mem_cons, List.mem_nil_iff, or_false] at hp
  rcases hp with rfl | rfl | rfl | rfl | rfl | rfl | rfl | rfl
  · intro x; exact scale_piece m d L c 1 112 (by omega) inb_S128_S16_112 inb_S2x128_S1x16_1_112 x
  · intro x; exact scale_piece m d L c 1 96 (by omega) inb_S128_S16_96 inb_S2x128_S1x16_1_96 x
  · intro x; exact scale_piece m d L c 1 80 (by omega) inb_S128_S16_80 inb_S2x128_S1x16_1_80 x
  · intro x; exact scale_piece m d L c 1 64 (by omega) inb_S128_S16_64 inb_S2x128_S1x16_1_64 x
  · intro x; exact scale_piece m d L c 1 48 (by omega) inb_S128_S16_48 inb_S2x128_S1x16_1_48 x
  · intro x; exact scale_piece m d L c 1 32 (by omega) inb_S128_S16_32 inb_S2x128_S1x16_1_32 x
  · intro x; exact scale_piece m d L c 1 16 (by omega) inb_S128_S16_16 inb_S2x128_S1x16_1_16 x
  · intro x; exact scale_piece m d L c 1 0 (by omega) inb_S128_S16_0 inb_S2x128_S1x16_1_0 x

/-! ## The eight stores, whatever computed them -/

/-- Eight pieces stored at lanes 0, 16, …, 112 (last store first), each of which is the chunk's scales at its place,
    leave the chunk's scales in the scale scratch, whatever it held before: the pieces tile it. -/
theorem scale_filled_gen (d : Dev nD) (L : grid0.Coords) (c : ℕ) (f : scaleM.view.ty.Contents (Elt F))
    (p0 p1 p2 p3 p4 p5 p6 p7 : FVec F S16 .f32)
    (h0 : ∀ x, p0 x = (scaleVal m d L c : FVec F S128 .f32) ((Rect.unit (s := S128) ![0] S16.size inb_S128_S16_0).emb x))
    (h1 : ∀ x, p1 x = (scaleVal m d L c : FVec F S128 .f32) ((Rect.unit (s := S128) ![16] S16.size inb_S128_S16_16).emb x))
    (h2 : ∀ x, p2 x = (scaleVal m d L c : FVec F S128 .f32) ((Rect.unit (s := S128) ![32] S16.size inb_S128_S16_32).emb x))
    (h3 : ∀ x, p3 x = (scaleVal m d L c : FVec F S128 .f32) ((Rect.unit (s := S128) ![48] S16.size inb_S128_S16_48).emb x))
    (h4 : ∀ x, p4 x = (scaleVal m d L c : FVec F S128 .f32) ((Rect.unit (s := S128) ![64] S16.size inb_S128_S16_64).emb x))
    (h5 : ∀ x, p5 x = (scaleVal m d L c : FVec F S128 .f32) ((Rect.unit (s := S128) ![80] S16.size inb_S128_S16_80).emb x))
    (h6 : ∀ x, p6 x = (scaleVal m d L c : FVec F S128 .f32) ((Rect.unit (s := S128) ![96] S16.size inb_S128_S16_96).emb x))
    (h7 : ∀ x, p7 x = (scaleVal m d L c : FVec F S128 .f32) ((Rect.unit (s := S128) ![112] S16.size inb_S128_S16_112).emb x)) :
    ∀ y, scaleM.view.writes (Elt F) f
      [⟨Rect.unit (s := S128) ![112] S16.size inb_S128_S16_112, p7⟩,
       ⟨Rect.unit (s := S128) ![96] S16.size inb_S128_S16_96, p6⟩,
       ⟨Rect.unit (s := S128) ![80] S16.size inb_S128_S16_80, p5⟩,
       ⟨Rect.unit (s := S128) ![64] S16.size inb_S128_S16_64, p4⟩,
       ⟨Rect.unit (s := S128) ![48] S16.size inb_S128_S16_48, p3⟩,
       ⟨Rect.unit (s := S128) ![32] S16.size inb_S128_S16_32, p2⟩,
       ⟨Rect.unit (s := S128) ![16] S16.size inb_S128_S16_16, p1⟩,
       ⟨Rect.unit (s := S128) ![0] S16.size inb_S128_S16_0, p0⟩] y = scaleVal m d L c y := by
  intro y
  refine View.read_writes_apply_of_pieces (v := scaleM.view) (f := f)
    (scaleVal m d L c : FVec F S128 .f32)
    ([⟨Rect.unit (s := S128) ![112] S16.size inb_S128_S16_112, p7⟩, ⟨Rect.unit (s := S128) ![96] S16.size inb_S128_S16_96, p6⟩, ⟨Rect.unit (s := S128) ![80] S16.size inb_S128_S16_80, p5⟩, ⟨Rect.unit (s := S128) ![64] S16.size inb_S128_S16_64, p4⟩, ⟨Rect.unit (s := S128) ![48] S16.size inb_S128_S16_48, p3⟩, ⟨Rect.unit (s := S128) ![32] S16.size inb_S128_S16_32, p2⟩, ⟨Rect.unit (s := S128) ![16] S16.size inb_S128_S16_16, p1⟩, ⟨Rect.unit (s := S128) ![0] S16.size inb_S128_S16_0, p0⟩] : List (View.Piece (Elt F) S128 .f32)) ?_ y
    (View.cover_of_tiled
      ([⟨Rect.unit (s := S128) ![112] S16.size inb_S128_S16_112, p7⟩, ⟨Rect.unit (s := S128) ![96] S16.size inb_S128_S16_96, p6⟩, ⟨Rect.unit (s := S128) ![80] S16.size inb_S128_S16_80, p5⟩, ⟨Rect.unit (s := S128) ![64] S16.size inb_S128_S16_64, p4⟩, ⟨Rect.unit (s := S128) ![48] S16.size inb_S128_S16_48, p3⟩, ⟨Rect.unit (s := S128) ![32] S16.size inb_S128_S16_32, p2⟩, ⟨Rect.unit (s := S128) ![16] S16.size inb_S128_S16_16, p1⟩, ⟨Rect.unit (s := S128) ![0] S16.size inb_S128_S16_0, p0⟩] : List (View.Piece (Elt F) S128 .f32)) S16.size rfl y)
  intro p hp
  simp only [List.mem_cons, List.mem_nil_iff, or_false] at hp
  rcases hp with rfl | rfl | rfl | rfl | rfl | rfl | rfl | rfl
  · exact h7
  · exact h6
  · exact h5
  · exact h4
  · exact h3
  · exact h2
  · exact h1
  · exact h0

end Cert.KB

end
-- ==== Proof.KB.Trip.lean ====
/-
  One trip of a subcore's main loop, at a symbolic trip number: from what the subcore holds before trip `k` to what it
  holds before trip `k + 1`.
-/
import proofs.«206556_g62818191671566_cont_9to1_m_1093_40_alg».proof.Proof.KB.Inv
import proofs.«206556_g62818191671566_cont_9to1_m_1093_40_alg».proof.Proof.KB.MulLoop
import proofs.«206556_g62818191671566_cont_9to1_m_1093_40_alg».proof.Proof.KB.MulTrip
import proofs.«206556_g62818191671566_cont_9to1_m_1093_40_alg».proof.Proof.KB.MulTrip0
import proofs.«206556_g62818191671566_cont_9to1_m_1093_40_alg».proof.Proof.KB.MulBridge
import proofs.«206556_g62818191671566_cont_9to1_m_1093_40_alg».proof.Proof.KB.OutWrite
import proofs.«206556_g62818191671566_cont_9to1_m_1093_40_alg».proof.Proof.KB.NormW
import proofs.«206556_g62818191671566_cont_9to1_m_1093_40_alg».proof.Proof.KB.Respell
import proofs.«206556_g62818191671566_cont_9to1_m_1093_40_alg».proof.Proof.KB.GatherVal
import proofs.«206556_g62818191671566_cont_9to1_m_1093_40_alg».proof.Proof.KB.OutVal
import proofs.«206556_g62818191671566_cont_9to1_m_1093_40_alg».proof.Proof.KB.OutChunks
import proofs.«206556_g62818191671566_cont_9to1_m_1093_40_alg».proof.Proof.KB.MidxVal
import proofs.«206556_g62818191671566_cont_9to1_m_1093_40_alg».proof.Proof.KB.Norm
import proofs.«206556_g62818191671566_cont_9to1_m_1093_40_alg».proof.Proof.KB.Fold
import proofs.«206556_g62818191671566_cont_9to1_m_1093_40_alg».proof.Proof.KB.ScaleVal

set_option pp.maxSteps 5000
set_option pp.deepTerms false

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The trip's guards, decided -/

theorem trips_eq : k0_t1_loop.trips = 25 := by decide
/-- The write-out of the chunk before is awaited from the second trip on. -/
theorem guard_w1 (k : Fin k0_t1_loop.trips) :
    (Scalar.cmpi .ne (Scalar.extui (Scalar.cmpi .sge (Scalar.addi (Scalar.muli 2#32 (Scf.iv 0#32 1#32 k)) 0#32) 1#32)) 0#32 = 1#1) ↔ k.val ≠ 0 := by
  revert k; decide +kernel
/-- The write-out of the even chunk is awaited in every trip. -/
theorem guard_w0 (k : Fin k0_t1_loop.trips) :
    Scalar.cmpi .ne (Scalar.extui (Scalar.cmpi .sge (Scalar.addi (Scalar.muli 2#32 (Scf.iv 0#32 1#32 k)) 1#32) 1#32)) 0#32 = 1#1 := by
  revert k; decide +kernel
/-- The odd chunk's gathers are issued in every trip. -/
theorem cond4_all (k : Fin k0_t1_loop.trips) : k0_cond4 k = 1#1 := by revert k; decide +kernel
/-- The next even chunk's gathers are issued in every trip but the last. -/
theorem cond6_iff (k : Fin k0_t1_loop.trips) : k0_cond6 k = 1#1 ↔ k.val < 24 := by revert k; decide +kernel

/-- The first flat position of the worker's rows, as the kernel computes it. -/
abbrev baseW (L : grid0.Coords) : BitVec 32 :=
  Scalar.muli (Scalar.addi (Scalar.muli (BitVec.ofNat 32 (L 1).val) 2#32) (BitVec.ofNat 32 (L 0).val)) 6400#32

/-- The trip's program at a grid point. -/
abbrev tripAt [FloatOps F] (L : grid0.Coords) (k : Fin k0_t1_loop.trips) :
    Prog (TpuEff nD τ sig (Elt F) Λ₀ (.scVector ((L 0).castLE hcore0) ((L 1).castLE hsub0))) Unit :=
  k0_t1_body (F := F) L tabM (Memref.isWhole_whole _) tokM (Memref.isWhole_whole _) uM (Memref.isWhole_whole _) outM (Memref.isWhole_whole _)
    idxM (Memref.isWhole_whole _) midxM (Memref.isWhole_whole _) mvalM (Memref.isWhole_whole _) scaleM (Memref.isWhole_whole _)
    rowsM (Memref.isWhole_whole _) spmM (Memref.isWhole_whole _)
    cc0_scratch6 cc0_scratch7 cc0_scratch8 cc0_scratch9 cc0_scratch10 cc0_scratch11 cc0_scoped0 cc0_scoped1 cc0_scoped2 cc0_scoped3 cc0_scoped4
    (baseW L) k ⟨⟩

variable [FloatOps F] (m : (ℓ : Loc nD τ sig) → Buf (Elt F) ℓ) (d : Dev nD) (L : grid0.Coords)
variable (O : CellTallies nD τ sig (HIx 1)) (W : Waits sig (HIx 1))

omit [FloatOps F] in
/-- Contents that agree on the elements held may be exchanged. -/
theorem pts_congr_ent {ℓ : Loc nD τ sig} {I : Finset (Idx ℓ)} {q : PosShare TreeShare} {f g : Buf (Elt F) ℓ} (h : ∀ i ∈ I, f i = g i) :
    (ℓ ↦[I]{q} f : sProp 𝕄) ⊢ (ℓ ↦[I]{q} g) := Entails.of_eq (pointsTo_congr h)

set_option hygiene false in
/-- The trip's last stretch: the odd chunk's draws, scales, rows, product and write-out. -/
local macro "trip_tail2" : tactic => `(tactic| (
  -- the odd chunk's draws have landed: the second row of the draw scratch
  iapply (Transfers.wp_waitLocalO countersEmb 𝒱₀ (thrV d L) none (default : HIx 1) (rfl : (mval1L).view.dmaCredit = _)) $$ [Hfm1 HO]
  · isplitl [Hfm1]; · iexact Hfm1
    isplitl [HO]; · iexact HO
    iapply (Transfers.MayWaits.elim (SemLoc.dma cc0_scratch9.sem)) $$ Hmw
  iintro ⟨Hdm1, Hd3, HO⟩
  unfold Dm1
  icases Hdm1 with ⟨Hmval1, HuB, Hmidx1L⟩
  ihave Hmidx1 := (pointsTo_share (PosShare.mem_left_op_right fullShare)).2 $$ [Hmidx1L Hmidx1K]
  · isplitl [Hmidx1L] <;> iassumption
  -- the odd chunk's scales, from its draws
  sl_exec
  -- the odd chunk's rows have landed: the second half of the row scratch
  iapply (Transfers.wp_waitLocalO countersEmb 𝒱₀ (thrV d L) none (default : HIx 1) (rfl : (rows1G).view.dmaCredit = _)) $$ [Hfr1 HO]
  · isplitl [Hfr1]; · iexact Hfr1
    isplitl [HO]; · iexact HO
    iapply (Transfers.MayWaits.elim (SemLoc.dma cc0_scratch7.sem)) $$ Hmw
  iintro ⟨Hdr1, Hd1, HO⟩
  unfold Dr1
  icases Hdr1 with ⟨Hrows1, HspB, Hlist1⟩
  ihave HidxBr' := (Entails.of_eq (show ((idxM).view.loc (thrV d L) ↦[Finset.univ \ (idxRowA k hc4).view.set]{qIb} idxVal m d L : sProp 𝕄)
      = ((idxM).view.loc (thrV d L) ↦[Finset.univ \ idxRowSet (2 * k.val + 1)]{qIb} idxVal m d L) from by rw [set_idxRowA])) $$ HidxBr
  ihave HidxB := (pointsTo_split_subset (ℓ := (idxM).view.loc (thrV d L)) (f := idxVal m d L) (q := qIb) (I := idxRowSet (2 * k.val + 1)) (S := Finset.univ) (Finset.subset_univ _)).2 $$ [Hlist1 HidxBr']
  · isplitl [Hlist1] <;> iassumption
  sl_exec
  ihave Hscale1 := (pts_congr_ent (F := F) (ℓ := (scaleM).view.loc (thrV d L)) (I := Finset.univ) (q := fullShare)
      (g := (scaleVal m d L (2 * k.val + 1) : Buf (Elt F) ((scaleM).view.loc (thrV d L)))) (fun x _ => by
        refine scale_filled_gen (F := F) m d L (2 * k.val + 1) _ _ _ _ _ _ _ _ _ ?_ ?_ ?_ ?_ ?_ ?_ ?_ ?_ x
        · exact fun y => scale_piece (F := F) m d L (2 * k.val + 1) 1 0 (by omega) _ _ y
        · exact fun y => scale_piece (F := F) m d L (2 * k.val + 1) 1 16 (by omega) _ _ y
        · exact fun y => scale_piece (F := F) m d L (2 * k.val + 1) 1 32 (by omega) _ _ y
        · exact fun y => scale_piece (F := F) m d L (2 * k.val + 1) 1 48 (by omega) _ _ y
        · exact fun y => scale_piece (F := F) m d L (2 * k.val + 1) 1 64 (by omega) _ _ y
        · exact fun y => scale_piece (F := F) m d L (2 * k.val + 1) 1 80 (by omega) _ _ y
        · exact fun y => scale_piece (F := F) m d L (2 * k.val + 1) 1 96 (by omega) _ _ y
        · exact fun y => scale_piece (F := F) m d L (2 * k.val + 1) 1 112 (by omega) _ _ y)) $$ Hscale
  -- the odd chunk's rows scaled: the second inner loop
  iapply (Entails.of_eq (wp_bind frame (wpE (defs₀ (F := F)) 𝒱₀ (thrV d L) none) Set.univ _ _ _).symm)
  iapply (Entails.of_eq (wp_bind frame (wpE (defs₀ (F := F)) 𝒱₀ (thrV d L) none) Set.univ _ _ _).symm)
  iapply (wp_wand_r frame (wpE (defs₀ (F := F)) 𝒱₀ (thrV d L) none) Set.univ
      (Q := fun _ => iprop(((rows1M).view.loc (thrV d L) ↦[(rows1M).view.set]{fullShare} mulRows (rowsVal m d L (2 * k.val + 1)) (scaleVal m d L (2 * k.val + 1)))
        ∗ ((scaleM).view.loc (thrV d L) ↦{fullShare} scaleVal m d L (2 * k.val + 1)))))
  isplitl [Hrows1 Hscale1]
  · iapply (mul_loop1 (F := F) d L (baseW L) _ _ k (rowsVal m d L (2 * k.val + 1)) (scaleVal m d L (2 * k.val + 1)))
    isplitl [Hrows1]; · iexact Hrows1
    iexact Hscale1
  iintro %u1 ⟨Hrows1m, Hscale⟩
  ihave Hrows1 := (pts_congr_ent (F := F) (ℓ := (rows1M).view.loc (thrV d L)) (I := (rows1M).view.set) (q := fullShare)
      (g := (prodVal m d L (2 * k.val + 1) : Buf (Elt F) ((rows1M).view.loc (thrV d L))))
      (fun x _ => mulRows_vals_apply m d L (2 * k.val + 1) x)) $$ Hrows1m
  -- the odd chunk written out; its write-out stays in flight into the next trip
  ihave Hsrc1 := (Entails.of_eq (respell_rowsG1 (F := F) d L fullShare (prodVal m d L (2 * k.val + 1)))) $$ Hrows1
  ihave Hdst1 := (Entails.of_eq (show (outLoc d ↦[chunkSet L (2 * k.val + 1)]{fullShare} m (outLoc d) : sProp 𝕄)
      = ((outChunk L k 1).view.loc (thrV d L) ↦[(outChunk L k 1).view.set]{fullShare} m (outLoc d)) from by rw [set_outChunk]; rfl)) $$ Hc1
  sl_exec))

set_option hygiene false in
/-- The return, not after the last trip: fold into the invariant with the next even chunk's gathers in flight. -/
local macro "trip_fold_mid" : tactic => `(tactic| (
  ihave Hfw1 := (Transfers.Flight_mono countersEmb (thrV d L) (D' := Dw1 m d L (2 * k.val + 1)) (by exact norm_w1 (F := F) m d L hpre k)) $$ Hd5
  ihave HidxAr' := (Entails.of_eq (show ((idxM).view.loc (thrV d L) ↦[Finset.univ \ (idxRowB k hc6).view.set]{qIa} idxVal m d L : sProp 𝕄)
      = ((idxM).view.loc (thrV d L) ↦[Finset.univ \ idxRowSet (2 * k.val + 2)]{qIa} idxVal m d L) from by rw [set_idxRowB])) $$ HidxAr
  sl_step
  iapply (inv_fold_mid (F := F) m d L O W k.val (by omega))
  unfold invCommon
  isplitr; · iexact Hlv
  isplitl [HidxK]; · iexact HidxK
  isplitl [HidxB]; · iexact HidxB
  isplitl [HspB]; · iexact HspB
  isplitl [HuB]; · iexact HuB
  isplitl [Hmidx1]; · iexists _; iexact Hmidx1
  isplitl [Hmval1]; · iexists _; iexact Hmval1
  isplitl [Hscale]; · iexists _; iexact Hscale
  isplitl [Hd1]; · iexact Hd1
  isplitl [Hd3]; · iexact Hd3
  isplitl [Hd4]; · iexact Hd4
  isplitl [Hout']; · iexact Hout'
  isplitl [Hfr0n Hfm0n HidxAr' Hmidx0K]
  · isplitl [Hfr0n]; · iexact Hfr0n
    isplitl [Hfm0n]; · iexact Hfm0n
    isplitl [HidxAr']; · iexact HidxAr'
    iexact Hmidx0K
  isplitl [Hfw1]; · iexact Hfw1
  iexists _
  isplitr
  on_goal 2 => iexact HO
  ipureintro
  repeat (first | exact hW'' | refine waits_insert W ?_ _)))

set_option hygiene false in
/-- The return after the last trip: the first buffer idle, every share home. -/
local macro "trip_fold_last" : tactic => `(tactic| (
  ihave Hfw1 := (Transfers.Flight_mono countersEmb (thrV d L) (D' := Dw1 m d L (2 * k.val + 1)) (by exact norm_w1 (F := F) m d L hpre k)) $$ Hd5
  sl_step
  iapply (inv_fold_last (F := F) m d L O W k.val (by omega))
  unfold invCommon
  isplitr; · iexact Hlv
  isplitl [HidxK]; · iexact HidxK
  isplitl [HidxB]; · iexact HidxB
  isplitl [HspB]; · iexact HspB
  isplitl [HuB]; · iexact HuB
  isplitl [Hmidx1]; · iexists _; iexact Hmidx1
  isplitl [Hmval1]; · iexists _; iexact Hmval1
  isplitl [Hscale]; · iexists _; iexact Hscale
  isplitl [Hd1]; · iexact Hd1
  isplitl [Hd3]; · iexact Hd3
  isplitl [Hd4]; · iexact Hd4
  isplitl [Hout']; · iexact Hout'
  isplitl [Hrows0 HspA HidxA Hmval0 HuA Hmidx0 Hd0 Hd2]
  · isplitl [Hrows0]; · iexists _; iexact Hrows0
    isplitl [HspA]; · iexact HspA
    isplitl [HidxA]; · iexact HidxA
    isplitl [Hmval0]; · iexists _; iexact Hmval0
    isplitl [HuA]; · iexact HuA
    isplitl [Hmidx0]; · iexists _; iexact Hmidx0
    isplitl [Hd0]; · iexact Hd0
    iexact Hd2
  isplitl [Hfw1]; · iexact Hfw1
  iexists _
  isplitr
  on_goal 2 => iexact HO
  ipureintro
  repeat (first | exact hW'' | refine waits_insert W ?_ _)))

set_option hygiene false in
/-- The trip from the odd chunk's gathers on: the same script after either way through the first guard. -/
local macro "trip_tail" : tactic => `(tactic| (
  have hc : 2 * k.val + 1 < 50 := by omega
  -- the odd chunk's rows: gathered into the second half by row 2k+1 of the tokens
  ihave HsB := (Entails.of_eq (respell_spmAll (F := F) d L (qSb L) (tabSh m d (cV L)))) $$ HspB
  ihave Hr1 := (Entails.of_eq (respell_rowsG1 (F := F) d L fullShare _)) $$ Hrows1
  ihave Hl := (pointsTo_split_subset (q := qIb) (S := Finset.univ) (Finset.subset_univ (idxRowA k hc4).view.set)).1 $$ HidxB
  icases Hl with ⟨HlistB, HidxBr⟩
  iapply (SparseCore.wp_indirectGatherLocal countersEmb 𝒱₀ (thrV d L) none (hg := gathers_S1000x128_S128x128) (default : HIx 1)
      (rows1G).view.dmaCredit (hN_rows1 _) (by decide)
      (idxList_lt (F := F) m hpre d L (k0_off3 k) (k0_off3_inb k hc4) ⟨2 * k.val + 1, hc⟩ (k0_off3_eq k))) $$ [HsB Hr1 HlistB Hd1]
  · isplitl [HsB]; · iexact HsB
    isplitl [Hr1]; · iexact Hr1
    isplitl [HlistB]; · iexact HlistB
    iexact Hd1
  iintro Hfr1raw
  ihave Hfr1 := (Transfers.Flight_mono countersEmb (thrV d L) (D' := Dr1 m d L (2 * k.val + 1)) (by exact norm_r1 (F := F) m d L k hc4 _ _ _)) $$ Hfr1raw
  -- the odd chunk's draw indices into the second row, then its draws' gather
  sl_exec
  ihave HuB' := (Entails.of_eq (respell_uAll (F := F) d L (qUb L) (uflatV m d))) $$ HuB
  ihave Hmv1 := (Entails.of_eq (respell_mvalL1 (F := F) d L fullShare _)) $$ Hmval1
  ihave Hmx1 := (pts_congr_ent (F := F) (ℓ := (midx1H).view.loc (thrV d L)) (I := (midx1H).view.set) (q := fullShare)
      (g := (midxVal m d L (2 * k.val + 1) : Buf (Elt F) ((midx1H).view.loc (thrV d L)))) (fun x hx => by
    refine midx_row_filled (F := F) m d L (2 * k.val + 1) (1 : Fin 2) fm1 _ _ _ _ _ _ _ _ _ _ _ _ _ _ _ _ rfl rfl rfl rfl rfl rfl rfl rfl _ _ _ _ _ _ _ _ ?_ ?_ ?_ ?_ ?_ ?_ ?_ ?_ x (mem_midx1H x hx)
    · exact fun ℓ => midxPay_chunk (F := F) m hpre d L ⟨2 * k.val + 1, hc⟩ 0 (by omega) _ (pos_word L (baseW L) _ (2 * k.val + 1) 0 (base_word L) (odd_chunk_word k.val)) _ _ (k0_off4_eq k) ℓ
    · exact fun ℓ => midxPay_chunk (F := F) m hpre d L ⟨2 * k.val + 1, hc⟩ 16 (by omega) _ (pos_word L (baseW L) _ (2 * k.val + 1) 16 (base_word L) (odd_chunk_word k.val)) _ _ (k0_off5_eq k) ℓ
    · exact fun ℓ => midxPay_chunk (F := F) m hpre d L ⟨2 * k.val + 1, hc⟩ 32 (by omega) _ (pos_word L (baseW L) _ (2 * k.val + 1) 32 (base_word L) (odd_chunk_word k.val)) _ _ (k0_off6_eq k) ℓ
    · exact fun ℓ => midxPay_chunk (F := F) m hpre d L ⟨2 * k.val + 1, hc⟩ 48 (by omega) _ (pos_word L (baseW L) _ (2 * k.val + 1) 48 (base_word L) (odd_chunk_word k.val)) _ _ (k0_off7_eq k) ℓ
    · exact fun ℓ => midxPay_chunk (F := F) m hpre d L ⟨2 * k.val + 1, hc⟩ 64 (by omega) _ (pos_word L (baseW L) _ (2 * k.val + 1) 64 (base_word L) (odd_chunk_word k.val)) _ _ (k0_off8_eq k) ℓ
    · exact fun ℓ => midxPay_chunk (F := F) m hpre d L ⟨2 * k.val + 1, hc⟩ 80 (by omega) _ (pos_word L (baseW L) _ (2 * k.val + 1) 80 (base_word L) (odd_chunk_word k.val)) _ _ (k0_off9_eq k) ℓ
    · exact fun ℓ => midxPay_chunk (F := F) m hpre d L ⟨2 * k.val + 1, hc⟩ 96 (by omega) _ (pos_word L (baseW L) _ (2 * k.val + 1) 96 (base_word L) (odd_chunk_word k.val)) _ _ (k0_off10_eq k) ℓ
    · exact fun ℓ => midxPay_chunk (F := F) m hpre d L ⟨2 * k.val + 1, hc⟩ 112 (by omega) _ (pos_word L (baseW L) _ (2 * k.val + 1) 112 (base_word L) (odd_chunk_word k.val)) _ _ (k0_off11_eq k) ℓ)) $$ Hmidx1
  ihave Hmx1s := (pointsTo_share (PosShare.mem_left_op_right fullShare)).1 $$ Hmx1
  icases Hmx1s with ⟨Hmidx1L, Hmidx1K⟩
  ihave Hml := (Entails.of_eq (respell_midxL1 (F := F) d L fullShare.left (midxVal m d L (2 * k.val + 1)))) $$ Hmidx1L
  iapply (SparseCore.wp_indirectGatherLocal countersEmb 𝒱₀ (thrV d L) none (hg := gathers_S4096000_S128) (default : HIx 1)
      (mval1L).view.dmaCredit (hN_mval1 _) (by decide)
      (midxList_lt (F := F) m d L (2 * k.val + 1) ![1, 0] inb_S2x128_S1x128_1_0 1 rfl
        (fun r hr => midxN_lt (F := F) m hpre d L (2 * k.val + 1) r hc hr))) $$ [HuB' Hmv1 Hml Hd3]
  · isplitl [HuB']; · iexact HuB'
    isplitl [Hmv1]; · iexact Hmv1
    isplitl [Hml]; · iexact Hml
    iexact Hd3
  iintro Hfm1raw
  ihave Hfm1 := (Transfers.Flight_mono countersEmb (thrV d L) (D' := Dm1 m d L (2 * k.val + 1)) (by exact norm_m1 (F := F) m d L (2 * k.val + 1) hc hpre _ _ _)) $$ Hfm1raw
  -- the even chunk's draws have landed: the first row of the draw scratch
  sl_exec
  iapply (Transfers.wp_waitLocalO countersEmb 𝒱₀ (thrV d L) none (default : HIx 1) (rfl : (mval0L).view.dmaCredit = _)) $$ [Hfm0 HO]
  · isplitl [Hfm0]; · iexact Hfm0
    isplitl [HO]; · iexact HO
    iapply (Transfers.MayWaits.elim (SemLoc.dma cc0_scratch8.sem)) $$ Hmw
  iintro ⟨Hdm0, Hd2, HO⟩
  unfold Dm0
  icases Hdm0 with ⟨Hmval0, HuA, Hmidx0L⟩
  ihave Hmidx0 := (pointsTo_share (PosShare.mem_left_op_right fullShare)).2 $$ [Hmidx0L Hmidx0K]
  · isplitl [Hmidx0L] <;> iassumption
  -- the even chunk's scales, from its draws
  sl_exec
  -- the even chunk's rows have landed: the first half of the row scratch
  iapply (Transfers.wp_waitLocalO countersEmb 𝒱₀ (thrV d L) none (default : HIx 1) (rfl : (rows0G).view.dmaCredit = _)) $$ [Hfr0 HO]
  · isplitl [Hfr0]; · iexact Hfr0
    isplitl [HO]; · iexact HO
    iapply (Transfers.MayWaits.elim (SemLoc.dma cc0_scratch6.sem)) $$ Hmw
  iintro ⟨Hdr0, Hd0, HO⟩
  unfold Dr0
  icases Hdr0 with ⟨Hrows0, HspA, Hlist0⟩
  ihave HidxA := (pointsTo_split_subset (ℓ := (idxM).view.loc (thrV d L)) (f := idxVal m d L) (q := qIa) (I := idxRowSet (2 * k.val)) (S := Finset.univ) (Finset.subset_univ _)).2 $$ [Hlist0 Hidxr]
  · isplitl [Hlist0] <;> iassumption
  sl_exec
  -- the scales as one function of the chunk's draws
  ihave Hscale' := (pts_congr_ent (F := F) (ℓ := (scaleM).view.loc (thrV d L)) (I := Finset.univ) (q := fullShare)
      (g := (scaleVal m d L (2 * k.val) : Buf (Elt F) ((scaleM).view.loc (thrV d L)))) (fun x _ => by
        refine scale_filled_gen (F := F) m d L (2 * k.val) _ _ _ _ _ _ _ _ _ ?_ ?_ ?_ ?_ ?_ ?_ ?_ ?_ x
        · exact fun y => scale_piece (F := F) m d L (2 * k.val) 0 0 (by omega) _ _ y
        · exact fun y => scale_piece (F := F) m d L (2 * k.val) 0 16 (by omega) _ _ y
        · exact fun y => scale_piece (F := F) m d L (2 * k.val) 0 32 (by omega) _ _ y
        · exact fun y => scale_piece (F := F) m d L (2 * k.val) 0 48 (by omega) _ _ y
        · exact fun y => scale_piece (F := F) m d L (2 * k.val) 0 64 (by omega) _ _ y
        · exact fun y => scale_piece (F := F) m d L (2 * k.val) 0 80 (by omega) _ _ y
        · exact fun y => scale_piece (F := F) m d L (2 * k.val) 0 96 (by omega) _ _ y
        · exact fun y => scale_piece (F := F) m d L (2 * k.val) 0 112 (by omega) _ _ y)) $$ Hscale
  -- the even chunk's rows scaled: the first inner loop, by its own lemma, everything else carried along
  iapply (Entails.of_eq (wp_bind frame (wpE (defs₀ (F := F)) 𝒱₀ (thrV d L) none) Set.univ _ _ _).symm)
  iapply (wp_wand_r frame (wpE (defs₀ (F := F)) 𝒱₀ (thrV d L) none) Set.univ
      (Q := fun _ => iprop(((rows0M).view.loc (thrV d L) ↦[(rows0M).view.set]{fullShare} mulRows (rowsVal m d L (2 * k.val)) (scaleVal m d L (2 * k.val)))
        ∗ ((scaleM).view.loc (thrV d L) ↦{fullShare} scaleVal m d L (2 * k.val)))))
  isplitl [Hrows0 Hscale']
  · iapply (mul_loop0 (F := F) d L (baseW L) k _ _ (rowsVal m d L (2 * k.val)) (scaleVal m d L (2 * k.val)))
    isplitl [Hrows0]; · iexact Hrows0
    iexact Hscale'
  iintro %u0 ⟨Hrows0m, Hscale⟩
  ihave Hrows0 := (pts_congr_ent (F := F) (ℓ := (rows0M).view.loc (thrV d L)) (I := (rows0M).view.set) (q := fullShare)
      (g := (prodVal m d L (2 * k.val) : Buf (Elt F) ((rows0M).view.loc (thrV d L))))
      (fun x _ => mulRows_vals_apply m d L (2 * k.val) x)) $$ Hrows0m
  -- the even chunk written out, and (this being an odd half-trip at least the first) awaited at once
  ihave Hsrc0 := (Entails.of_eq (respell_rowsG0 (F := F) d L fullShare (prodVal m d L (2 * k.val)))) $$ Hrows0
  ihave Hdst0 := (Entails.of_eq (show (outLoc d ↦[chunkSet L (2 * k.val)]{fullShare} m (outLoc d) : sProp 𝕄)
      = ((outChunk L k 0).view.loc (thrV d L) ↦[(outChunk L k 0).view.set]{fullShare} m (outLoc d)) from by rw [set_outChunk]; rfl)) $$ Hc0
  sl_exec
  -- the even chunk's rows of the flat result hold their final value
  ihave Hc0v := (pts_congr_ent (F := F) (ℓ := (outChunk L k 0).view.loc (thrV d L)) (I := (outChunk L k 0).view.set) (q := fullShare)
      (g := (outV m d : Buf (Elt F) ((outChunk L k 0).view.loc (thrV d L))))
      (fun x hx => by exact chunk_written0 m hpre d L k (prodVal m d L (2 * k.val)) (fun y _ => rfl) x hx)) $$ Hdst0
  ihave Hc0f := (Entails.of_eq (show ((outChunk L k 0).view.loc (thrV d L) ↦[(outChunk L k 0).view.set]{fullShare} outV m d : sProp 𝕄)
      = (outLoc d ↦[chunkSet L (2 * k.val)]{fullShare} outV m d) from by rw [set_outChunk]; rfl)) $$ Hc0v
  ihave Hout' := (out_put (F := F) m d L k.val hk) $$ [Hrest Hc0f]
  · isplitl [Hrest] <;> iassumption
  ihave Hrows0 := (Entails.of_eq (respell_rowsG0 (F := F) d L fullShare (prodVal m d L (2 * k.val))).symm) $$ Hsrc0
  by_cases h6 : k.val < 24
  · -- not the last trip: the next even chunk's gathers are issued into the first buffer
    have hc6 : k0_cond6 k = 1#1 := (cond6_iff k).mpr h6
    have hce : 2 * k.val + 2 < 50 := by omega
    sl_exec
    ihave HsA := (Entails.of_eq (respell_spmAll (F := F) d L (qSa L) (tabSh m d (cV L)))) $$ HspA
    ihave Hr0 := (Entails.of_eq (respell_rowsG0 (F := F) d L fullShare _)) $$ Hrows0
    ihave Hl0 := (pointsTo_split_subset (q := qIa) (S := Finset.univ) (Finset.subset_univ (idxRowB k hc6).view.set)).1 $$ HidxA
    icases Hl0 with ⟨HlistA, HidxAr⟩
    iapply (SparseCore.wp_indirectGatherLocal countersEmb 𝒱₀ (thrV d L) none (hg := gathers_S1000x128_S128x128) (default : HIx 1)
        (rows0G).view.dmaCredit (hN_rows0 _) (by decide)
        (idxList_lt (F := F) m hpre d L (k0_off23 k) (k0_off23_inb k hc6) ⟨2 * k.val + 2, hce⟩ (k0_off23_eq k))) $$ [HsA Hr0 HlistA Hd0]
    · isplitl [HsA]; · iexact HsA
      isplitl [Hr0]; · iexact Hr0
      isplitl [HlistA]; · iexact HlistA
      iexact Hd0
    iintro Hfr0raw
    ihave Hfr0n := (Transfers.Flight_mono countersEmb (thrV d L) (D' := Dr0 m d L (2 * k.val + 2)) (by exact norm_r0 (F := F) m d L k hc6 _ _ _)) $$ Hfr0raw
    sl_exec
    ihave HuA' := (Entails.of_eq (respell_uAll (F := F) d L (qUa L) (uflatV m d))) $$ HuA
    ihave Hmv0 := (Entails.of_eq (respell_mvalL0 (F := F) d L fullShare _)) $$ Hmval0
    ihave Hmx0 := (pts_congr_ent (F := F) (ℓ := (midx0H).view.loc (thrV d L)) (I := (midx0H).view.set) (q := fullShare)
        (g := (midxVal m d L (2 * k.val + 2) : Buf (Elt F) ((midx0H).view.loc (thrV d L)))) (fun x hx => by
    refine midx_row_filled (F := F) m d L (2 * k.val + 2) (0 : Fin 2) (midxVal m d L (2 * k.val)) _ _ _ _ _ _ _ _ _ _ _ _ _ _ _ _ rfl rfl rfl rfl rfl rfl rfl rfl _ _ _ _ _ _ _ _ ?_ ?_ ?_ ?_ ?_ ?_ ?_ ?_ x (mem_midx0H x hx)
    · exact fun ℓ => midxPay_chunk (F := F) m hpre d L ⟨2 * k.val + 2, hce⟩ 0 (by omega) _ (pos_word L (baseW L) _ (2 * k.val + 2) 0 (base_word L) (even_chunk_word k.val)) _ _ (k0_off24_eq k) ℓ
    · exact fun ℓ => midxPay_chunk (F := F) m hpre d L ⟨2 * k.val + 2, hce⟩ 16 (by omega) _ (pos_word L (baseW L) _ (2 * k.val + 2) 16 (base_word L) (even_chunk_word k.val)) _ _ (k0_off25_eq k) ℓ
    · exact fun ℓ => midxPay_chunk (F := F) m hpre d L ⟨2 * k.val + 2, hce⟩ 32 (by omega) _ (pos_word L (baseW L) _ (2 * k.val + 2) 32 (base_word L) (even_chunk_word k.val)) _ _ (k0_off26_eq k) ℓ
    · exact fun ℓ => midxPay_chunk (F := F) m hpre d L ⟨2 * k.val + 2, hce⟩ 48 (by omega) _ (pos_word L (baseW L) _ (2 * k.val + 2) 48 (base_word L) (even_chunk_word k.val)) _ _ (k0_off27_eq k) ℓ
    · exact fun ℓ => midxPay_chunk (F := F) m hpre d L ⟨2 * k.val + 2, hce⟩ 64 (by omega) _ (pos_word L (baseW L) _ (2 * k.val + 2) 64 (base_word L) (even_chunk_word k.val)) _ _ (k0_off28_eq k) ℓ
    · exact fun ℓ => midxPay_chunk (F := F) m hpre d L ⟨2 * k.val + 2, hce⟩ 80 (by omega) _ (pos_word L (baseW L) _ (2 * k.val + 2) 80 (base_word L) (even_chunk_word k.val)) _ _ (k0_off29_eq k) ℓ
    · exact fun ℓ => midxPay_chunk (F := F) m hpre d L ⟨2 * k.val + 2, hce⟩ 96 (by omega) _ (pos_word L (baseW L) _ (2 * k.val + 2) 96 (base_word L) (even_chunk_word k.val)) _ _ (k0_off30_eq k) ℓ
    · exact fun ℓ => midxPay_chunk (F := F) m hpre d L ⟨2 * k.val + 2, hce⟩ 112 (by omega) _ (pos_word L (baseW L) _ (2 * k.val + 2) 112 (base_word L) (even_chunk_word k.val)) _ _ (k0_off31_eq k) ℓ)) $$ Hmidx0
    ihave Hmx0s := (pointsTo_share (PosShare.mem_left_op_right fullShare)).1 $$ Hmx0
    icases Hmx0s with ⟨Hmidx0L, Hmidx0K⟩
    ihave Hml0 := (Entails.of_eq (respell_midxL0 (F := F) d L fullShare.left (midxVal m d L (2 * k.val + 2)))) $$ Hmidx0L
    iapply (SparseCore.wp_indirectGatherLocal countersEmb 𝒱₀ (thrV d L) none (hg := gathers_S4096000_S128) (default : HIx 1)
        (mval0L).view.dmaCredit (hN_mval0 _) (by decide)
        (midxList_lt (F := F) m d L (2 * k.val + 2) ![0, 0] inb_S2x128_S1x128_0_0 0 rfl
          (fun r hr => midxN_lt (F := F) m hpre d L (2 * k.val + 2) r hce hr))) $$ [HuA' Hmv0 Hml0 Hd2]
    · isplitl [HuA']; · iexact HuA'
      isplitl [Hmv0]; · iexact Hmv0
      isplitl [Hml0]; · iexact Hml0
      iexact Hd2
    iintro Hfm0raw
    ihave Hfm0n := (Transfers.Flight_mono countersEmb (thrV d L) (D' := Dm0 m d L (2 * k.val + 2)) (by exact norm_m0 (F := F) m d L (2 * k.val + 2) hce hpre _ _ _)) $$ Hfm0raw
    sl_exec
    trip_tail2
    trip_fold_mid
  · -- the last trip: nothing more to gather
    have hc6 : ¬ k0_cond6 k = 1#1 := fun h => h6 ((cond6_iff k).mp h)
    sl_exec
    trip_tail2
    trip_fold_last))

set_option maxHeartbeats 4000000 in
theorem trip (hpre : PreOK m) (hO : ∀ g, O g none = 0) (k : Fin k0_t1_loop.trips) :
    (Inv m d L O W k.val ⟨⟩ : sProp 𝕄)
      ⊢ wp frame (wpE (defs₀ (F := F)) 𝒱₀ (thrV d L) none) Set.univ (tripAt (F := F) L k)
          fun a => Inv m d L O W (k.val + 1) a := by
  have hk : k.val < 25 := trips_eq ▸ k.isLt
  have hc4 := cond4_all k
  have hw0 := guard_w0 k
  -- the program first, while the invariant is still folded
  unfold tripAt k0_t1_body
  simp only [k0_part86_eq_skeleton]; unfold k0_part86_skel
  simp only [k0_part80_eq_skeleton]; unfold k0_part80_skel
  by_cases h0 : k.val = 0
  · -- the first trip: no write-out to await; the second half of the row scratch is idle
    have hg : ¬ (Scalar.cmpi .ne (Scalar.extui (Scalar.cmpi .sge (Scalar.addi (Scalar.muli 2#32 (Scf.iv 0#32 1#32 k)) 0#32) 1#32)) 0#32 = 1#1) :=
      fun h => (guard_w1 k).mp h h0
    refine ent_trans (F := F) (inv_open_first (F := F) m d L O W k.val hk h0) ?_
    unfold invCommon
    iintro ⟨#Hlv, HidxK, HidxB, HspB, HuB, ⟨%fm1, Hmidx1⟩, ⟨%fv1, Hmval1⟩, ⟨%fsc, Hscale⟩, Hd1, Hd3, Hd4, Hout, ⟨Hfr0, Hfm0, Hidxr, Hmidx0K⟩, ⟨⟨%fr1, Hrows1⟩, Hd5⟩, %W'', %hW'', HO⟩
    ihave Hmw := (show levAts (K (F := F)).L (K (F := F)).lev ⊢ Transfers.MayWaits (thrV d L) (default : HIx 1) O from
      (K (F := F)).mayWaits_none (thr := thrV d L) hO) $$ Hlv
    sl_exec
    have hp0 : (iprop(emp) : sProp 𝕄) ⊢ prevDone m d L k.val := by unfold prevDone; rw [if_pos h0]
    ihave Hout2 := (out_take (F := F) m d L k.val hk) $$ [Hout]
    · isplitl [Hout]; · iexact Hout
      iapply hp0; iempintro
    icases Hout2 with ⟨Hc0, Hc1, Hrest⟩
    trip_tail
  · have hg : Scalar.cmpi .ne (Scalar.extui (Scalar.cmpi .sge (Scalar.addi (Scalar.muli 2#32 (Scf.iv 0#32 1#32 k)) 0#32) 1#32)) 0#32 = 1#1 :=
      (guard_w1 k).mpr h0
    refine ent_trans (F := F) (inv_open_later (F := F) m d L O W k.val hk h0) ?_
    unfold invCommon
    iintro ⟨#Hlv, HidxK, HidxB, HspB, HuB, ⟨%fm1, Hmidx1⟩, ⟨%fv1, Hmval1⟩, ⟨%fsc, Hscale⟩, Hd1, Hd3, Hd4, Hout, ⟨Hfr0, Hfm0, Hidxr, Hmidx0K⟩, Hfw1, %W'', %hW'', HO⟩
    ihave Hmw := (show levAts (K (F := F)).L (K (F := F)).lev ⊢ Transfers.MayWaits (thrV d L) (default : HIx 1) O from
      (K (F := F)).mayWaits_none (thr := thrV d L) hO) $$ Hlv
    sl_exec
    -- the write-out of the chunk before: its wait
    iapply (Transfers.wp_waitLocalO countersEmb 𝒱₀ (thrV d L) none (default : HIx 1)
        (show ((outM).slice (Rect.unit (s := S204800x128) ![0, 0] S128x128.size inb_S204800x128_S128x128_0_0) (fun _ => rfl)).view.dmaCredit
            = (rows1G).view.dmaCredit from rfl)) $$ [Hfw1 HO]
    · isplitl [Hfw1]; · iexact Hfw1
      isplitl [HO]; · iexact HO
      iapply (Transfers.MayWaits.elim (SemLoc.dma cc0_scratch11.sem)) $$ Hmw
    iintro ⟨Hdw, Hd5, HO⟩
    unfold Dw1
    icases Hdw with ⟨Hprev, Hrows1⟩
    sl_exec
    have hp1 : (outLoc d ↦[chunkSet L (2 * k.val - 1)]{fullShare} outV m d : sProp 𝕄) ⊢ prevDone m d L k.val := by
      unfold prevDone; rw [if_neg h0]
    ihave Hout2 := (out_take (F := F) m d L k.val hk) $$ [Hout Hprev]
    · isplitl [Hout]; · iexact Hout
      iapply hp1; iexact Hprev
    icases Hout2 with ⟨Hc0, Hc1, Hrest⟩
    trip_tail

end Cert.KB

end
-- ==== Proof.KB.Body.lean ====
/-
  One vector subcore's task, whole: the fetch of its tokens and the staging of its rows of the table, the barrier, the
  first chunk's gathers, the main loop by its invariant, the last write-out's wait, and everything handed back.
-/
import proofs.«206556_g62818191671566_cont_9to1_m_1093_40_alg».proof.Proof.KB.BarrierPay
import proofs.«206556_g62818191671566_cont_9to1_m_1093_40_alg».proof.Proof.KB.Rejoin
import proofs.«206556_g62818191671566_cont_9to1_m_1093_40_alg».proof.Proof.KB.OutChunks
import proofs.«206556_g62818191671566_cont_9to1_m_1093_40_alg».proof.Proof.KB.Norm
import proofs.«206556_g62818191671566_cont_9to1_m_1093_40_alg».proof.Proof.KB.Fold
import proofs.«206556_g62818191671566_cont_9to1_m_1093_40_alg».proof.Proof.KB.GatherVal
import proofs.«206556_g62818191671566_cont_9to1_m_1093_40_alg».proof.Proof.KB.Trip

set_option pp.maxSteps 5000
set_option pp.deepTerms false

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Contents that agree on the elements held may be exchanged. -/
theorem pts_congr_ent' {ℓ : Loc nD τ sig} {I : Finset (Idx ℓ)} {q : PosShare TreeShare} {f g : Buf (Elt F) ℓ} (h : ∀ i ∈ I, f i = g i) :
    (ℓ ↦[I]{q} f : sProp 𝕄) ⊢ (ℓ ↦[I]{q} g) := Entails.of_eq (pointsTo_congr h)

/-- Below the last subcore the second staging branch is not taken. -/
theorem cond1_v8 (L : grid0.Coords) (h : k0_cond1 L = 1#1) :
    ¬ (Scalar.cmpi .ne (Scalar.extui (Scalar.cmpi .eq (BitVec.ofNat 32 (L 1).val) 15#32)) 0#32 = 1#1) := by
  revert h; revert L; decide +kernel

variable [FloatOps F] (m : (ℓ : Loc nD τ sig) → Buf (Elt F) ℓ)

/-- The row scratch cut into its halves, in the spelling the prologue leaves it in. -/
theorem split_rowsM (d : Dev nD) (L : grid0.Coords) (f : Buf (Elt F) ((rowsM).view.loc (thrV d L))) :
    (((rowsM).view.loc (thrV d L) ↦{fullShare} f) : sProp 𝕄)
      ⊢ iprop(((rows0H).view.loc (thrV d L) ↦[(rows0H).view.set]{fullShare} f) ∗ ((rows1H).view.loc (thrV d L) ↦[(rows1H).view.set]{fullShare} f)) :=
  split_rows (F := F) d L f

/-- The token scratch cut into its three shares, in the spelling the prologue leaves it in. -/
theorem split_idxM (d : Dev nD) (L : grid0.Coords) (v : Buf (Elt F) ((idxM).view.loc (thrV d L))) :
    (((idxM).view.loc (thrV d L) ↦{fullShare} v) : sProp 𝕄)
      ⊢ iprop(((idxM).view.loc (thrV d L) ↦{qIk} v) ∗ ((idxM).view.loc (thrV d L) ↦{qIa} v) ∗ ((idxM).view.loc (thrV d L) ↦{qIb} v)) :=
  split_idx (F := F) d L v

set_option maxHeartbeats 4000000 in
theorem tile_body_A (hF : (K (F := F)).Facts) (hpre : PreOK m) (d : Dev nD) (L : grid0.Coords) (hL : k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) :
    (iprop(levAts (K (F := F)).L (K (F := F)).lev ∗ bkit m d (cV L) (jV L)
        ∗ (goMain m d (cV L) (jL L) ∗ ∃ f, shLoc d (cV L) ↦[spmSet (jL L)]{fullShare} f)
        ∗ scopedBufs (thrV d L) ∗ scopedSems0 (thrV d L) ∗ owes (thrV d L) (O + oxV d (cV L)) W) : sProp 𝕄)
      ⊢ wp frame (wpE (defs₀ (F := F)) 𝒱₀ (thrV d L) none) Set.univ (kernelAt (F := F) L)
          fun _ => iprop((tdMain m d (cV L) (jL L) ∗ shLoc d (cV L) ↦{qS (jL L)} tabSh m d (cV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  unfold kernelAt
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit goMain tdMain inPts
  iintro ⟨#Hlv, ⟨⟨%κ, #Hinv⟩, Htoks, #Hrch, Hat, Hcred⟩, ⟨⟨⟨Htab, Htok, Hu⟩, Hout⟩, %fsh, Hsh⟩,
    ⟨⟨%fidx, Hidx⟩, ⟨%fmidx, Hmidx⟩, ⟨%fmval, Hmval⟩, ⟨%fscale, Hscale⟩, ⟨%frows, Hrows⟩, Hbufs⟩,
    ⟨Hd0, Hd1, Hd2, Hd3, Hd4, Hd5, Hd6, Hd7, Hd8, Hd9, Hd10, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw := (show levAts (K (F := F)).L (K (F := F)).lev ⊢ Transfers.MayWaits (thrV d L) (default : HIx 1) O from
    (K (F := F)).mayWaits_none (thr := thrV d L) hO) $$ Hlv
  ihave Hm2 := (split_midx (F := F) d L fmidx) $$ Hmidx
  icases Hm2 with ⟨Hmidx0, Hmidx1⟩
  ihave Hv2 := (split_mval (F := F) d L fmval) $$ Hmval
  icases Hv2 with ⟨Hmval0, Hmval1⟩
  ihave Hu2 := (split_u (F := F) d L (uflatV m d)) $$ Hu
  icases Hu2 with ⟨HuA, HuB⟩
  ihave Hout0 := (out_init (F := F) m d L) $$ Hout
  ihave Hscale' := (Entails.of_eq (show ((thrV d L).loc cc0_scratch3 ↦{fullShare} fscale : sProp 𝕄) = ((scaleM).view.loc (thrV d L) ↦{fullShare} fscale) from rfl)) $$ Hscale
  ihave Htab' := (Entails.of_eq (show (tabLoc d ↦{qT (cV L) (jL L)} m (tabLoc d) : sProp 𝕄) = ((tabM).view.loc (thrV d L) ↦{qT (cV L) (jL L)} m (tabLoc d)) from rfl)) $$ Htab
  ihave Htok' := (Entails.of_eq (show (tokLoc d ↦{qT (cV L) (jL L)} tok3V m d : sProp 𝕄) = ((tokM).view.loc (thrV d L) ↦{qT (cV L) (jL L)} tok3V m d) from rfl)) $$ Htok
  ihave Hidx' := (Entails.of_eq (show ((thrV d L).loc cc0_scratch0 ↦{fullShare} fidx : sProp 𝕄) = ((idxM).view.loc (thrV d L) ↦{fullShare} fidx) from rfl)) $$ Hidx
  ihave Hrows' := (Entails.of_eq (show ((thrV d L).loc cc0_scratch4 ↦{fullShare} frows : sProp 𝕄) = ((rowsM).view.loc (thrV d L) ↦{fullShare} frows) from rfl)) $$ Hrows
  have hshEq : ∀ f : Buf (Elt F) (shLoc d (cV L)), (shLoc d (cV L) ↦[spmSet (jL L)]{fullShare} f : sProp 𝕄)
      = ((spmRowsA L hL).view.loc (thrV d L) ↦[(spmRowsA L hL).view.set]{fullShare} f) := fun f => by
    rw [set_spmRowsA]; rfl
  ihave Hsh' := (Entails.of_eq (hshEq fsh)) $$ Hsh
  have hv8 := cond1_v8 L hL
  sl_exec
  -- the staged rows hold the table's entries
  ihave Hsh2 := (pts_congr_ent' (F := F) (ℓ := (spmRowsA L hL).view.loc (thrV d L)) (I := (spmRowsA L hL).view.set) (q := fullShare)
      (g := (tabSh m d (cV L) : Buf (Elt F) ((spmRowsA L hL).view.loc (thrV d L)))) (fun x hx => by exact staged_A (F := F) m d L hL fsh frows x hx)) $$ Hsh'
  ihave Hsh3 := (Entails.of_eq (hshEq (tabSh m d (cV L))).symm) $$ Hsh2
  -- the barrier: the staged rows handed out in sixteenths, a sixteenth of every subcore's rows received
  ihave Hpays := (pays_intro (F := F) m d L) $$ Hsh3
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hspm := (pays_elim (F := F) m d L) $$ Hgot
  -- the buffers cut into the pieces the loop works with
  ihave Hidx1 := (pts_congr_ent' (F := F) (ℓ := (idxM).view.loc (thrV d L)) (I := Finset.univ) (q := fullShare)
      (g := (idxVal m d L : Buf (Elt F) ((idxM).view.loc (thrV d L)))) (fun x _ => by exact congrFun (idx_landed (F := F) m d L fidx) x)) $$ Hidx'
  ihave Hi3 := (split_idxM (F := F) d L (idxVal m d L)) $$ Hidx1
  icases Hi3 with ⟨HidxK, HidxA, HidxB⟩
  ihave Hr2 := (split_rowsM (F := F) d L _) $$ Hrows'
  icases Hr2 with ⟨Hrows0, Hrows1⟩
  ihave Hs2 := (split_spm (F := F) d L (tabSh m d (cV L))) $$ Hspm
  icases Hs2 with ⟨HspA, HspB⟩
  -- the first chunk's rows: gathered into the first half by row 0 of the tokens
  ihave HsA := (Entails.of_eq (respell_spmAll (F := F) d L (qSa L) (tabSh m d (cV L)))) $$ HspA
  ihave Hr0 := (Entails.of_eq (respell_rowsG0 (F := F) d L fullShare _)) $$ Hrows0
  ihave Hl0 := (pointsTo_split_subset (q := qIa) (S := Finset.univ) (Finset.subset_univ (idxRow0L).view.set)).1 $$ HidxA
  icases Hl0 with ⟨HlistA, HidxAr⟩
  iapply (SparseCore.wp_indirectGatherLocal countersEmb 𝒱₀ (thrV d L) none (hg := gathers_S1000x128_S128x128) (default : HIx 1)
      (rows0G).view.dmaCredit (hN_rows0 _) (by decide)
      (idxList_lt (F := F) m hpre d L ![0, 0] inb_S50x128_S1x128_0_0 ⟨0, by norm_num⟩ rfl)) $$ [HsA Hr0 HlistA Hd0]
  · isplitl [HsA]; · iexact HsA
    isplitl [Hr0]; · iexact Hr0
    isplitl [HlistA]; · iexact HlistA
    iexact Hd0
  iintro Hfr0raw
  ihave Hfr0 := (Transfers.Flight_mono countersEmb (thrV d L) (D' := Dr0 m d L 0) (by exact norm_r0_first (F := F) m d L _ _ _)) $$ Hfr0raw
  -- the first chunk's draw indices, then its draws' gather
  sl_exec
  ihave HuA' := (Entails.of_eq (respell_uAll (F := F) d L (qUa L) (uflatV m d))) $$ HuA
  ihave Hmv0 := (Entails.of_eq (respell_mvalL0 (F := F) d L fullShare _)) $$ Hmval0
  ihave Hmx0 := (pts_congr_ent' (F := F) (ℓ := (midx0H).view.loc (thrV d L)) (I := (midx0H).view.set) (q := fullShare)
      (g := (midxVal m d L 0 : Buf (Elt F) ((midx0H).view.loc (thrV d L)))) (fun x hx => by
    refine midx_row_filled (F := F) m d L 0 (0 : Fin 2) _ _ _ _ _ _ _ _ _ _ _ _ _ _ _ _ _ rfl rfl rfl rfl rfl rfl rfl rfl _ _ _ _ _ _ _ _ ?_ ?_ ?_ ?_ ?_ ?_ ?_ ?_ x (mem_midx0H x hx)
    · exact fun ℓ => midxPay_chunk (F := F) m hpre d L ⟨0, by norm_num⟩ 0 (by omega) _ (pos_word0 L _ 0 (base_word L)) _ _ rfl ℓ
    · exact fun ℓ => midxPay_chunk (F := F) m hpre d L ⟨0, by norm_num⟩ 16 (by omega) _ (pos_word0 L _ 16 (base_word L)) _ _ rfl ℓ
    · exact fun ℓ => midxPay_chunk (F := F) m hpre d L ⟨0, by norm_num⟩ 32 (by omega) _ (pos_word0 L _ 32 (base_word L)) _ _ rfl ℓ
    · exact fun ℓ => midxPay_chunk (F := F) m hpre d L ⟨0, by norm_num⟩ 48 (by omega) _ (pos_word0 L _ 48 (base_word L)) _ _ rfl ℓ
    · exact fun ℓ => midxPay_chunk (F := F) m hpre d L ⟨0, by norm_num⟩ 64 (by omega) _ (pos_word0 L _ 64 (base_word L)) _ _ rfl ℓ
    · exact fun ℓ => midxPay_chunk (F := F) m hpre d L ⟨0, by norm_num⟩ 80 (by omega) _ (pos_word0 L _ 80 (base_word L)) _ _ rfl ℓ
    · exact fun ℓ => midxPay_chunk (F := F) m hpre d L ⟨0, by norm_num⟩ 96 (by omega) _ (pos_word0 L _ 96 (base_word L)) _ _ rfl ℓ
    · exact fun ℓ => midxPay_chunk (F := F) m hpre d L ⟨0, by norm_num⟩ 112 (by omega) _ (pos_word0 L _ 112 (base_word L)) _ _ rfl ℓ)) $$ Hmidx0
  ihave Hmx0s := (pointsTo_share (PosShare.mem_left_op_right fullShare)).1 $$ Hmx0
  icases Hmx0s with ⟨Hmidx0L, Hmidx0K⟩
  ihave Hml0 := (Entails.of_eq (respell_midxL0 (F := F) d L fullShare.left (midxVal m d L 0))) $$ Hmidx0L
  iapply (SparseCore.wp_indirectGatherLocal countersEmb 𝒱₀ (thrV d L) none (hg := gathers_S4096000_S128) (default : HIx 1)
      (mval0L).view.dmaCredit (hN_mval0 _) (by decide)
      (midxList_lt (F := F) m d L 0 ![0, 0] inb_S2x128_S1x128_0_0 0 rfl
        (fun r hr => midxN_lt (F := F) m hpre d L 0 r (by norm_num) hr))) $$ [HuA' Hmv0 Hml0 Hd2]
  · isplitl [HuA']; · iexact HuA'
    isplitl [Hmv0]; · iexact Hmv0
    isplitl [Hml0]; · iexact Hml0
    iexact Hd2
  iintro Hfm0raw
  ihave Hfm0 := (Transfers.Flight_mono countersEmb (thrV d L) (D' := Dm0 m d L 0) (by exact norm_m0 (F := F) m d L 0 (by norm_num) hpre _ _ _)) $$ Hfm0raw
  ihave HidxAr' := (Entails.of_eq (show ((idxM).view.loc (thrV d L) ↦[Finset.univ \ (idxRow0L).view.set]{qIa} idxVal m d L : sProp 𝕄)
      = ((idxM).view.loc (thrV d L) ↦[Finset.univ \ idxRowSet 0]{qIa} idxVal m d L) from by rw [set_idxRow0L])) $$ HidxAr
  -- the main loop, by its invariant: each trip is the trip theorem
  sl_for (Inv m d L O W) $$ [HidxK HidxB HspB HuB Hmidx1 Hmval1 Hscale' Hd1 Hd3 Hd4 Hout0 Hfr0 Hfm0 HidxAr' Hmidx0K Hrows1 Hd5 HO]
  · intro k acc
    exact trip (F := F) m d L O W hpre hO k
  · -- entering the loop
    iapply (inv_fold_init (F := F) m d L O W)
    unfold invCommon
    isplitr; · iexact Hlv
    isplitl [HidxK]; · iexact HidxK
    isplitl [HidxB]; · iexact HidxB
    isplitl [HspB]; · iexact HspB
    isplitl [HuB]; · iexact HuB
    isplitl [Hmidx1]; · iexists _; iexact Hmidx1
    isplitl [Hmval1]; · iexists _; iexact Hmval1
    isplitl [Hscale']; · iexists _; iexact Hscale'
    isplitl [Hd1]; · iexact Hd1
    isplitl [Hd3]; · iexact Hd3
    isplitl [Hd4]; · iexact Hd4
    isplitl [Hout0]; · iexact Hout0
    isplitl [Hfr0 Hfm0 HidxAr' Hmidx0K]
    · isplitl [Hfr0]; · iexact Hfr0
      isplitl [Hfm0]; · iexact Hfm0
      isplitl [HidxAr']; · iexact HidxAr'
      iexact Hmidx0K
    isplitl [Hrows1 Hd5]
    · isplitl [Hrows1]; · iexists _; iexact Hrows1
      iexact Hd5
    iexists _
    isplitr
    on_goal 2 => iexact HO
    ipureintro
    intro p hp
    rcases Finset.mem_insert.mp hp with rfl | hp
    · exact Or.inr (Or.inr rfl)
    · exact (waits_insert W (waits_insert W (waits_insert W (fun p hp => Or.inl hp) _) _) _) p hp
  · -- after the loop: the last chunk's write-out awaited, everything joined back and handed over
    have h25 : Scf.trips k0_t1_loop.lb k0_t1_loop.ub k0_t1_loop.st = 25 := by decide
    iintro %acc HI
    ihave HI2 := (Entails.of_eq (show (Inv m d L O W (Scf.trips k0_t1_loop.lb k0_t1_loop.ub k0_t1_loop.st) acc : sProp 𝕄) = Inv m d L O W 25 ⟨⟩ from by rw [h25])) $$ HI
    ihave HI3 := (inv_unfold_last (F := F) m d L O W) $$ HI2
    icases HI3 with ⟨-, HidxK, HidxB, HspB, HuB, ⟨%fm1, Hmidx1⟩, ⟨%fv1, Hmval1⟩, ⟨%fsc, Hscale⟩, Hd1, Hd3, Hd4, Hout, ⟨⟨%fr0, Hrows0⟩, HspA, HidxA, ⟨%fv0, Hmval0⟩, HuA, ⟨%fm0, Hmidx0⟩, Hd0, Hd2⟩, Hfw1, %W'', %hW'', HO⟩
    sl_exec
    iapply (Transfers.wp_waitLocalO countersEmb 𝒱₀ (thrV d L) none (default : HIx 1)
        (show ((outM).slice (Rect.unit (s := S204800x128) ![0, 0] S128x128.size inb_S204800x128_S128x128_0_0) (fun _ => rfl)).view.dmaCredit
            = (rows1G).view.dmaCredit from rfl)) $$ [Hfw1 HO]
    · isplitl [Hfw1]; · iexact Hfw1
      isplitl [HO]; · iexact HO
      iapply (Transfers.MayWaits.elim (SemLoc.dma cc0_scratch11.sem)) $$ Hmw
    iintro ⟨Hdw, Hd5, HO⟩
    unfold Dw1
    icases Hdw with ⟨Hlast, Hrows1⟩
    sl_exec
    sl_step
    ihave Hslab := (out_final (F := F) m d L) $$ [Hout Hlast]
    · isplitl [Hout] <;> iassumption
    ihave Hidxj := (join_idx (F := F) d L (idxVal m d L)) $$ [HidxK HidxA HidxB]
    · isplitl [HidxK]; · iexact HidxK
      isplitl [HidxA] <;> iassumption
    ihave Hrowsj := (join_rows (F := F) d L) $$ [Hrows0 Hrows1]
    · isplitl [Hrows0]; · iexists _; iexact Hrows0
      iexists _; iexact Hrows1
    ihave Hmidxj := (join_midx (F := F) d L) $$ [Hmidx0 Hmidx1]
    · isplitl [Hmidx0]; · iexists _; iexact Hmidx0
      iexists _; iexact Hmidx1
    ihave Hmvalj := (join_mval (F := F) d L) $$ [Hmval0 Hmval1]
    · isplitl [Hmval0]; · iexists _; iexact Hmval0
      iexists _; iexact Hmval1
    ihave Hspmj := (join_spm (F := F) d L (tabSh m d (cV L))) $$ [HspA HspB]
    · isplitl [HspA] <;> iassumption
    ihave Huj := (join_u (F := F) d L (uflatV m d)) $$ [HuA HuB]
    · isplitl [HuA] <;> iassumption
    isplitl [Htab' Htok' Huj Hslab Hspmj]
    · isplitl [Htab' Htok' Huj Hslab]
      · isplitl [Htab' Htok' Huj]
        · isplitl [Htab']; · iexact Htab'
          isplitl [Htok']; · iexact Htok'
          iexact Huj
        iexact Hslab
      iexact Hspmj
    isplitl [Hidxj Hmidxj Hmvalj Hscale Hrowsj Hbufs]
    · isplitl [Hidxj]; · iexists _; iexact Hidxj
      isplitl [Hmidxj]; · iexact Hmidxj
      isplitl [Hmvalj]; · iexact Hmvalj
      isplitl [Hscale]; · iexists _; iexact Hscale
      isplitl [Hrowsj]; · iexact Hrowsj
      iexact Hbufs
    isplitl [Hd0 Hd1 Hd2 Hd3 Hd4 Hd5 Hd6 Hd7 Hd8 Hd9 Hd10 Hsems]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      iexact Hsems
    iexists _
    isplitr
    on_goal 2 => iexact HO
    ipureintro
    repeat (first | exact hW'' | refine waits_insert W ?_ _)

/-- The subcore at which the first staging branch is not taken is the last one. -/
theorem cond1_not_15 (L : grid0.Coords) (h : ¬ k0_cond1 L = 1#1) : (jL L).val = 15 := by
  revert h; revert L; decide +kernel

/-- At the last subcore the second staging branch is taken. -/
theorem cond1_v8B (L : grid0.Coords) (h : ¬ k0_cond1 L = 1#1) :
    Scalar.cmpi .ne (Scalar.extui (Scalar.cmpi .eq (BitVec.ofNat 32 (L 1).val) 15#32)) 0#32 = 1#1 := by
  revert h; revert L; decide +kernel

set_option maxHeartbeats 4000000 in
theorem tile_body_B (hF : (K (F := F)).Facts) (hpre : PreOK m) (d : Dev nD) (L : grid0.Coords) (hLn : ¬ k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) :
    (iprop(levAts (K (F := F)).L (K (F := F)).lev ∗ bkit m d (cV L) (jV L)
        ∗ (goMain m d (cV L) (jL L) ∗ ∃ f, shLoc d (cV L) ↦[spmSet (jL L)]{fullShare} f)
        ∗ scopedBufs (thrV d L) ∗ scopedSems0 (thrV d L) ∗ owes (thrV d L) (O + oxV d (cV L)) W) : sProp 𝕄)
      ⊢ wp frame (wpE (defs₀ (F := F)) 𝒱₀ (thrV d L) none) Set.univ (kernelAt (F := F) L)
          fun _ => iprop((tdMain m d (cV L) (jL L) ∗ shLoc d (cV L) ↦{qS (jL L)} tabSh m d (cV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  unfold kernelAt
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit goMain tdMain inPts
  iintro ⟨#Hlv, ⟨⟨%κ, #Hinv⟩, Htoks, #Hrch, Hat, Hcred⟩, ⟨⟨⟨Htab, Htok, Hu⟩, Hout⟩, %fsh, Hsh⟩,
    ⟨⟨%fidx, Hidx⟩, ⟨%fmidx, Hmidx⟩, ⟨%fmval, Hmval⟩, ⟨%fscale, Hscale⟩, ⟨%frows, Hrows⟩, Hbufs⟩,
    ⟨Hd0, Hd1, Hd2, Hd3, Hd4, Hd5, Hd6, Hd7, Hd8, Hd9, Hd10, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw := (show levAts (K (F := F)).L (K (F := F)).lev ⊢ Transfers.MayWaits (thrV d L) (default : HIx 1) O from
    (K (F := F)).mayWaits_none (thr := thrV d L) hO) $$ Hlv
  ihave Hm2 := (split_midx (F := F) d L fmidx) $$ Hmidx
  icases Hm2 with ⟨Hmidx0, Hmidx1⟩
  ihave Hv2 := (split_mval (F := F) d L fmval) $$ Hmval
  icases Hv2 with ⟨Hmval0, Hmval1⟩
  ihave Hu2 := (split_u (F := F) d L (uflatV m d)) $$ Hu
  icases Hu2 with ⟨HuA, HuB⟩
  ihave Hout0 := (out_init (F := F) m d L) $$ Hout
  ihave Hscale' := (Entails.of_eq (show ((thrV d L).loc cc0_scratch3 ↦{fullShare} fscale : sProp 𝕄) = ((scaleM).view.loc (thrV d L) ↦{fullShare} fscale) from rfl)) $$ Hscale
  ihave Htab' := (Entails.of_eq (show (tabLoc d ↦{qT (cV L) (jL L)} m (tabLoc d) : sProp 𝕄) = ((tabM).view.loc (thrV d L) ↦{qT (cV L) (jL L)} m (tabLoc d)) from rfl)) $$ Htab
  ihave Htok' := (Entails.of_eq (show (tokLoc d ↦{qT (cV L) (jL L)} tok3V m d : sProp 𝕄) = ((tokM).view.loc (thrV d L) ↦{qT (cV L) (jL L)} tok3V m d) from rfl)) $$ Htok
  ihave Hidx' := (Entails.of_eq (show ((thrV d L).loc cc0_scratch0 ↦{fullShare} fidx : sProp 𝕄) = ((idxM).view.loc (thrV d L) ↦{fullShare} fidx) from rfl)) $$ Hidx
  ihave Hrows' := (Entails.of_eq (show ((thrV d L).loc cc0_scratch4 ↦{fullShare} frows : sProp 𝕄) = ((rowsM).view.loc (thrV d L) ↦{fullShare} frows) from rfl)) $$ Hrows
  have h15 : (jL L).val = 15 := cond1_not_15 L hLn
  have hshEq : ∀ f : Buf (Elt F) (shLoc d (cV L)), (shLoc d (cV L) ↦[spmSet (jL L)]{fullShare} f : sProp 𝕄)
      = ((spmRowsB).view.loc (thrV d L) ↦[(spmRowsB).view.set]{fullShare} f) := fun f => by
    rw [set_spmRowsB L h15]; rfl
  ihave Hsh' := (Entails.of_eq (hshEq fsh)) $$ Hsh
  have hv8 := cond1_v8B L hLn
  sl_exec
  -- the staged rows hold the table's entries
  ihave Hsh2 := (pts_congr_ent' (F := F) (ℓ := (spmRowsB).view.loc (thrV d L)) (I := (spmRowsB).view.set) (q := fullShare)
      (g := (tabSh m d (cV L) : Buf (Elt F) ((spmRowsB).view.loc (thrV d L)))) (fun x hx => by exact staged_B (F := F) m d L fsh frows x hx)) $$ Hsh'
  ihave Hsh3 := (Entails.of_eq (hshEq (tabSh m d (cV L))).symm) $$ Hsh2
  -- the barrier: the staged rows handed out in sixteenths, a sixteenth of every subcore's rows received
  ihave Hpays := (pays_intro (F := F) m d L) $$ Hsh3
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hspm := (pays_elim (F := F) m d L) $$ Hgot
  -- the buffers cut into the pieces the loop works with
  ihave Hidx1 := (pts_congr_ent' (F := F) (ℓ := (idxM).view.loc (thrV d L)) (I := Finset.univ) (q := fullShare)
      (g := (idxVal m d L : Buf (Elt F) ((idxM).view.loc (thrV d L)))) (fun x _ => by exact congrFun (idx_landed (F := F) m d L fidx) x)) $$ Hidx'
  ihave Hi3 := (split_idxM (F := F) d L (idxVal m d L)) $$ Hidx1
  icases Hi3 with ⟨HidxK, HidxA, HidxB⟩
  ihave Hr2 := (split_rowsM (F := F) d L _) $$ Hrows'
  icases Hr2 with ⟨Hrows0, Hrows1⟩
  ihave Hs2 := (split_spm (F := F) d L (tabSh m d (cV L))) $$ Hspm
  icases Hs2 with ⟨HspA, HspB⟩
  -- the first chunk's rows: gathered into the first half by row 0 of the tokens
  ihave HsA := (Entails.of_eq (respell_spmAll (F := F) d L (qSa L) (tabSh m d (cV L)))) $$ HspA
  ihave Hr0 := (Entails.of_eq (respell_rowsG0 (F := F) d L fullShare _)) $$ Hrows0
  ihave Hl0 := (pointsTo_split_subset (q := qIa) (S := Finset.univ) (Finset.subset_univ (idxRow0L).view.set)).1 $$ HidxA
  icases Hl0 with ⟨HlistA, HidxAr⟩
  iapply (SparseCore.wp_indirectGatherLocal countersEmb 𝒱₀ (thrV d L) none (hg := gathers_S1000x128_S128x128) (default : HIx 1)
      (rows0G).view.dmaCredit (hN_rows0 _) (by decide)
      (idxList_lt (F := F) m hpre d L ![0, 0] inb_S50x128_S1x128_0_0 ⟨0, by norm_num⟩ rfl)) $$ [HsA Hr0 HlistA Hd0]
  · isplitl [HsA]; · iexact HsA
    isplitl [Hr0]; · iexact Hr0
    isplitl [HlistA]; · iexact HlistA
    iexact Hd0
  iintro Hfr0raw
  ihave Hfr0 := (Transfers.Flight_mono countersEmb (thrV d L) (D' := Dr0 m d L 0) (by exact norm_r0_first (F := F) m d L _ _ _)) $$ Hfr0raw
  -- the first chunk's draw indices, then its draws' gather
  sl_exec
  ihave HuA' := (Entails.of_eq (respell_uAll (F := F) d L (qUa L) (uflatV m d))) $$ HuA
  ihave Hmv0 := (Entails.of_eq (respell_mvalL0 (F := F) d L fullShare _)) $$ Hmval0
  ihave Hmx0 := (pts_congr_ent' (F := F) (ℓ := (midx0H).view.loc (thrV d L)) (I := (midx0H).view.set) (q := fullShare)
      (g := (midxVal m d L 0 : Buf (Elt F) ((midx0H).view.loc (thrV d L)))) (fun x hx => by
    refine midx_row_filled (F := F) m d L 0 (0 : Fin 2) _ _ _ _ _ _ _ _ _ _ _ _ _ _ _ _ _ rfl rfl rfl rfl rfl rfl rfl rfl _ _ _ _ _ _ _ _ ?_ ?_ ?_ ?_ ?_ ?_ ?_ ?_ x (mem_midx0H x hx)
    · exact fun ℓ => midxPay_chunk (F := F) m hpre d L ⟨0, by norm_num⟩ 0 (by omega) _ (pos_word0 L _ 0 (base_word L)) _ _ rfl ℓ
    · exact fun ℓ => midxPay_chunk (F := F) m hpre d L ⟨0, by norm_num⟩ 16 (by omega) _ (pos_word0 L _ 16 (base_word L)) _ _ rfl ℓ
    · exact fun ℓ => midxPay_chunk (F := F) m hpre d L ⟨0, by norm_num⟩ 32 (by omega) _ (pos_word0 L _ 32 (base_word L)) _ _ rfl ℓ
    · exact fun ℓ => midxPay_chunk (F := F) m hpre d L ⟨0, by norm_num⟩ 48 (by omega) _ (pos_word0 L _ 48 (base_word L)) _ _ rfl ℓ
    · exact fun ℓ => midxPay_chunk (F := F) m hpre d L ⟨0, by norm_num⟩ 64 (by omega) _ (pos_word0 L _ 64 (base_word L)) _ _ rfl ℓ
    · exact fun ℓ => midxPay_chunk (F := F) m hpre d L ⟨0, by norm_num⟩ 80 (by omega) _ (pos_word0 L _ 80 (base_word L)) _ _ rfl ℓ
    · exact fun ℓ => midxPay_chunk (F := F) m hpre d L ⟨0, by norm_num⟩ 96 (by omega) _ (pos_word0 L _ 96 (base_word L)) _ _ rfl ℓ
    · exact fun ℓ => midxPay_chunk (F := F) m hpre d L ⟨0, by norm_num⟩ 112 (by omega) _ (pos_word0 L _ 112 (base_word L)) _ _ rfl ℓ)) $$ Hmidx0
  ihave Hmx0s := (pointsTo_share (PosShare.mem_left_op_right fullShare)).1 $$ Hmx0
  icases Hmx0s with ⟨Hmidx0L, Hmidx0K⟩
  ihave Hml0 := (Entails.of_eq (respell_midxL0 (F := F) d L fullShare.left (midxVal m d L 0))) $$ Hmidx0L
  iapply (SparseCore.wp_indirectGatherLocal countersEmb 𝒱₀ (thrV d L) none (hg := gathers_S4096000_S128) (default : HIx 1)
      (mval0L).view.dmaCredit (hN_mval0 _) (by decide)
      (midxList_lt (F := F) m d L 0 ![0, 0] inb_S2x128_S1x128_0_0 0 rfl
        (fun r hr => midxN_lt (F := F) m hpre d L 0 r (by norm_num) hr))) $$ [HuA' Hmv0 Hml0 Hd2]
  · isplitl [HuA']; · iexact HuA'
    isplitl [Hmv0]; · iexact Hmv0
    isplitl [Hml0]; · iexact Hml0
    iexact Hd2
  iintro Hfm0raw
  ihave Hfm0 := (Transfers.Flight_mono countersEmb (thrV d L) (D' := Dm0 m d L 0) (by exact norm_m0 (F := F) m d L 0 (by norm_num) hpre _ _ _)) $$ Hfm0raw
  ihave HidxAr' := (Entails.of_eq (show ((idxM).view.loc (thrV d L) ↦[Finset.univ \ (idxRow0L).view.set]{qIa} idxVal m d L : sProp 𝕄)
      = ((idxM).view.loc (thrV d L) ↦[Finset.univ \ idxRowSet 0]{qIa} idxVal m d L) from by rw [set_idxRow0L])) $$ HidxAr
  -- the main loop, by its invariant: each trip is the trip theorem
  sl_for (Inv m d L O W) $$ [HidxK HidxB HspB HuB Hmidx1 Hmval1 Hscale' Hd1 Hd3 Hd4 Hout0 Hfr0 Hfm0 HidxAr' Hmidx0K Hrows1 Hd5 HO]
  · intro k acc
    exact trip (F := F) m d L O W hpre hO k
  · -- entering the loop
    iapply (inv_fold_init (F := F) m d L O W)
    unfold invCommon
    isplitr; · iexact Hlv
    isplitl [HidxK]; · iexact HidxK
    isplitl [HidxB]; · iexact HidxB
    isplitl [HspB]; · iexact HspB
    isplitl [HuB]; · iexact HuB
    isplitl [Hmidx1]; · iexists _; iexact Hmidx1
    isplitl [Hmval1]; · iexists _; iexact Hmval1
    isplitl [Hscale']; · iexists _; iexact Hscale'
    isplitl [Hd1]; · iexact Hd1
    isplitl [Hd3]; · iexact Hd3
    isplitl [Hd4]; · iexact Hd4
    isplitl [Hout0]; · iexact Hout0
    isplitl [Hfr0 Hfm0 HidxAr' Hmidx0K]
    · isplitl [Hfr0]; · iexact Hfr0
      isplitl [Hfm0]; · iexact Hfm0
      isplitl [HidxAr']; · iexact HidxAr'
      iexact Hmidx0K
    isplitl [Hrows1 Hd5]
    · isplitl [Hrows1]; · iexists _; iexact Hrows1
      iexact Hd5
    iexists _
    isplitr
    on_goal 2 => iexact HO
    ipureintro
    intro p hp
    rcases Finset.mem_insert.mp hp with rfl | hp
    · exact Or.inr (Or.inr rfl)
    · exact (waits_insert W (waits_insert W (waits_insert W (fun p hp => Or.inl hp) _) _) _) p hp
  · -- after the loop: the last chunk's write-out awaited, everything joined back and handed over
    have h25 : Scf.trips k0_t1_loop.lb k0_t1_loop.ub k0_t1_loop.st = 25 := by decide
    iintro %acc HI
    ihave HI2 := (Entails.of_eq (show (Inv m d L O W (Scf.trips k0_t1_loop.lb k0_t1_loop.ub k0_t1_loop.st) acc : sProp 𝕄) = Inv m d L O W 25 ⟨⟩ from by rw [h25])) $$ HI
    ihave HI3 := (inv_unfold_last (F := F) m d L O W) $$ HI2
    icases HI3 with ⟨-, HidxK, HidxB, HspB, HuB, ⟨%fm1, Hmidx1⟩, ⟨%fv1, Hmval1⟩, ⟨%fsc, Hscale⟩, Hd1, Hd3, Hd4, Hout, ⟨⟨%fr0, Hrows0⟩, HspA, HidxA, ⟨%fv0, Hmval0⟩, HuA, ⟨%fm0, Hmidx0⟩, Hd0, Hd2⟩, Hfw1, %W'', %hW'', HO⟩
    sl_exec
    iapply (Transfers.wp_waitLocalO countersEmb 𝒱₀ (thrV d L) none (default : HIx 1)
        (show ((outM).slice (Rect.unit (s := S204800x128) ![0, 0] S128x128.size inb_S204800x128_S128x128_0_0) (fun _ => rfl)).view.dmaCredit
            = (rows1G).view.dmaCredit from rfl)) $$ [Hfw1 HO]
    · isplitl [Hfw1]; · iexact Hfw1
      isplitl [HO]; · iexact HO
      iapply (Transfers.MayWaits.elim (SemLoc.dma cc0_scratch11.sem)) $$ Hmw
    iintro ⟨Hdw, Hd5, HO⟩
    unfold Dw1
    icases Hdw with ⟨Hlast, Hrows1⟩
    sl_exec
    sl_step
    ihave Hslab := (out_final (F := F) m d L) $$ [Hout Hlast]
    · isplitl [Hout] <;> iassumption
    ihave Hidxj := (join_idx (F := F) d L (idxVal m d L)) $$ [HidxK HidxA HidxB]
    · isplitl [HidxK]; · iexact HidxK
      isplitl [HidxA] <;> iassumption
    ihave Hrowsj := (join_rows (F := F) d L) $$ [Hrows0 Hrows1]
    · isplitl [Hrows0]; · iexists _; iexact Hrows0
      iexists _; iexact Hrows1
    ihave Hmidxj := (join_midx (F := F) d L) $$ [Hmidx0 Hmidx1]
    · isplitl [Hmidx0]; · iexists _; iexact Hmidx0
      iexists _; iexact Hmidx1
    ihave Hmvalj := (join_mval (F := F) d L) $$ [Hmval0 Hmval1]
    · isplitl [Hmval0]; · iexists _; iexact Hmval0
      iexists _; iexact Hmval1
    ihave Hspmj := (join_spm (F := F) d L (tabSh m d (cV L))) $$ [HspA HspB]
    · isplitl [HspA] <;> iassumption
    ihave Huj := (join_u (F := F) d L (uflatV m d)) $$ [HuA HuB]
    · isplitl [HuA] <;> iassumption
    isplitl [Htab' Htok' Huj Hslab Hspmj]
    · isplitl [Htab' Htok' Huj Hslab]
      · isplitl [Htab' Htok' Huj]
        · isplitl [Htab']; · iexact Htab'
          isplitl [Htok']; · iexact Htok'
          iexact Huj
        iexact Hslab
      iexact Hspmj
    isplitl [Hidxj Hmidxj Hmvalj Hscale Hrowsj Hbufs]
    · isplitl [Hidxj]; · iexists _; iexact Hidxj
      isplitl [Hmidxj]; · iexact Hmidxj
      isplitl [Hmvalj]; · iexact Hmvalj
      isplitl [Hscale]; · iexists _; iexact Hscale
      isplitl [Hrowsj]; · iexact Hrowsj
      iexact Hbufs
    isplitl [Hd0 Hd1 Hd2 Hd3 Hd4 Hd5 Hd6 Hd7 Hd8 Hd9 Hd10 Hsems]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      iexact Hsems
    iexists _
    isplitr
    on_goal 2 => iexact HO
    ipureintro
    repeat (first | exact hW'' | refine waits_insert W ?_ _)

/-- One vector subcore's task, at every grid point: the last subcore stages the table's last forty rows, every other one
    sixty-four; from the barrier on they run alike. -/
theorem tile_body : TileBody m := fun hF hpre d L O W hO hOlev => by
  by_cases hL : k0_cond1 L = 1#1
  · exact tile_body_A m hF hpre d L hL O W hO hOlev
  · exact tile_body_B m hF hpre d L hL O W hO hOlev

end Cert.KB

end
-- ==== Proof.lean ====
/-
  The certificate that the SparseCore kernel computes what the reference computes.

  For a table `tab : f32[1000, 128]`, tokens `tok : i32[4096, 50]` in `0 .. 999` and draws `u : f32[4096, 1000]`, both
  programs return, at batch row `b`, position `s` and feature `d`, the table's entry `tab[tok[b, s], d]` multiplied by
  `2` when the draw `u[b, tok[b, s]]` is below one half and by `0` otherwise.  The reference states it as the entry
  times the indicator of the comparison divided by one half; the kernel gathers the entry and the draw by token and
  multiplies by a scale selected from `2` and `0`.  Over the extended reals `x * 1 / (1/2) = x * 2` and
  `x * 0 / (1/2) = 0 = x * 0` for every `x`, so the two agree whatever the table holds; only the tokens' range is used,
  for every gather to read inside its source.

  The kernel runs on two SparseCores of sixteen vector subcores each; each subcore treats 6400 consecutive flat
  positions in fifty chunks of 128 and is proved once, generically in the float instance (`KI/Body.lean`, and the same
  text for the program read at the word level, `KB/Body.lean`); the launch theorem carries the subcores' proofs to the
  whole program (`KI/LaunchRun.lean`), the reference's run is followed operation by operation (`RefRun.lean`,
  `RefValue.lean`), and `Assembly.lean` joins the two sides through the common value `Cert.Spec.G`.
-/
import proofs.«206556_g62818191671566_cont_9to1_m_1093_40_alg».proof.Defs
import proofs.«206556_g62818191671566_cont_9to1_m_1093_40_alg».proof.Proof.Assembly
import proofs.«206556_g62818191671566_cont_9to1_m_1093_40_alg».proof.Proof.KI.Body
import proofs.«206556_g62818191671566_cont_9to1_m_1093_40_alg».proof.Proof.KB.Body

noncomputable section

namespace Cert.Proof

theorem claim : Cert.Claim :=
  Cert.Assembly.claim_of_bodies (fun m => Cert.KB.tile_body m) (fun m => Cert.KI.tile_body m)

end Cert.Proof

end
